-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v85) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v153) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S2x8x65536 : Shape := ⟨3, ![2, 8, 65536]⟩
abbrev S4096x4096 : Shape := ⟨2, ![4096, 4096]⟩
abbrev S51x32 : Shape := ⟨2, ![51, 32]⟩
abbrev S32 : Shape := ⟨1, ![32]⟩
abbrev S51x16 : Shape := ⟨2, ![51, 16]⟩
abbrev S16 : Shape := ⟨1, ![16]⟩
abbrev S96x32 : Shape := ⟨2, ![96, 32]⟩
abbrev S96x16 : Shape := ⟨2, ![96, 16]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S2x8x65536 : S_.BroadcastsInDim S2x8x65536 (![] : Fin 0 → Fin S2x8x65536.rank)
  reducesTo_S2x8x65536_S_d0_1_2 : S2x8x65536.ReducesTo [0, 1, 2] S_
  bcast_S_S4096x4096 : S_.BroadcastsInDim S4096x4096 (![] : Fin 0 → Fin S4096x4096.rank)
  reducesTo_S4096x4096_S_d0_1 : S4096x4096.ReducesTo [0, 1] S_
  bcast_S_S51x32 : S_.BroadcastsInDim S51x32 (![] : Fin 0 → Fin S51x32.rank)
  reducesTo_S51x32_S_d0_1 : S51x32.ReducesTo [0, 1] S_
  bcast_S_S32 : S_.BroadcastsInDim S32 (![] : Fin 0 → Fin S32.rank)
  reducesTo_S32_S_d0 : S32.ReducesTo [0] S_
  bcast_S_S51x16 : S_.BroadcastsInDim S51x16 (![] : Fin 0 → Fin S51x16.rank)
  reducesTo_S51x16_S_d0_1 : S51x16.ReducesTo [0, 1] S_
  bcast_S_S16 : S_.BroadcastsInDim S16 (![] : Fin 0 → Fin S16.rank)
  reducesTo_S16_S_d0 : S16.ReducesTo [0] S_
  bcast_S_S96x32 : S_.BroadcastsInDim S96x32 (![] : Fin 0 → Fin S96x32.rank)
  reducesTo_S96x32_S_d0_1 : S96x32.ReducesTo [0, 1] S_
  bcast_S_S96x16 : S_.BroadcastsInDim S96x16 (![] : Fin 0 → Fin S96x16.rank)
  reducesTo_S96x16_S_d0_1 : S96x16.ReducesTo [0, 1] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg7 : FVec F S96x32 .f32) (main_arg8 : FVec F S32 .f32) (main_arg9 : FVec F S96x16 .f32) (main_arg10 : FVec F S16 .f32) (main_v33 : IVec S_ 1) : IVec S_ 1 :=
  let main_v34 : FVec F S96x32 .f32 := Host.absf main_arg7
  let main_cst_12 : FVec F S_ .f32 := constant S_ .f32 0x7F800000#32
  let main_v35 : FVec F S96x32 .f32 := broadcastInDim S96x32 ![] bcast_S_S96x32 main_cst_12
  let main_v36 : IVec S96x32 1 := cmpf .olt main_v34 main_v35
  let main_c_13 : IVec S_ 1 := constantI S_ 1 1#1
  let main_v37 : IVec S_ 1 := (fun x v => Host.reduce IntOp.andi x v reducesTo_S96x32_S_d0_1 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S96x16 .f32 := Host.absf main_arg9
  let main_cst_16 : FVec F S_ .f32 := constant S_ .f32 0x7F800000#32
  let main_v45 : FVec F S96x16 .f32 := broadcastInDim S96x16 ![] bcast_S_S96x16 main_cst_16
  let main_v46 : IVec S96x16 1 := cmpf .olt main_v44 main_v45
  let main_c_17 : IVec S_ 1 := constantI S_ 1 1#1
  let main_v47 : IVec S_ 1 := (fun x v => Host.reduce IntOp.andi x v reducesTo_S96x16_S_d0_1 h_S_) main_v46 main_c_17
  let main_v48 : IVec S_ 1 := andi main_v43 main_v47
  let main_v49 : FVec F S16 .f32 := Host.absf main_arg10
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg4 : FVec F S32 .f32) (main_arg5 : FVec F S51x16 .f32) (main_arg6 : FVec F S16 .f32) (main_arg7 : FVec F S96x32 .f32) (main_arg8 : FVec F S32 .f32) (main_arg9 : FVec F S96x16 .f32) (main_arg10 : FVec F S16 .f32) (main_v13 : IVec S_ 1) (main_v16 : IVec S51x32 1) : IVec S_ 1 :=
  let main_c_5 : IVec S_ 1 := constantI S_ 1 1#1
  let main_v17 : IVec S_ 1 := (fun x v => Host.reduce IntOp.andi x v reducesTo_S51x32_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S51x16 .f32 := Host.absf main_arg5
  let main_cst_8 : FVec F S_ .f32 := constant S_ .f32 0x7F800000#32
  let main_v25 : FVec F S51x16 .f32 := broadcastInDim S51x16 ![] bcast_S_S51x16 main_cst_8
  let main_v26 : IVec S51x16 1 := cmpf .olt main_v24 main_v25
  let main_c_9 : IVec S_ 1 := constantI S_ 1 1#1
  let main_v27 : IVec S_ 1 := (fun x v => Host.reduce IntOp.andi x v reducesTo_S51x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8x4096 .f32) (main_arg1 : FVec F S2x8x65536 .f32) (main_arg2 : FVec F S4096x4096 .f32) (main_arg3 : FVec F S51x32 .f32) (main_arg4 : FVec F S32 .f32) (main_arg5 : FVec F S51x16 .f32) (main_arg6 : FVec F S16 .f32) (main_arg7 : FVec F S96x32 .f32) (main_arg8 : FVec F S32 .f32) (main_arg9 : FVec F S96x16 .f32) (main_arg10 : FVec F S16 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S2x8x65536 .f32 := Host.absf main_arg1
  let main_cst_0 : FVec F S_ .f32 := constant S_ .f32 0x7F800000#32
  let main_v5 : FVec F S2x8x65536 .f32 := broadcastInDim S2x8x65536 ![] bcast_S_S2x8x65536 main_cst_0
  let main_v6 : IVec S2x8x65536 1 := cmpf .olt main_v4 main_v5
  let main_c_1 : IVec S_ 1 := constantI S_ 1 1#1
  let main_v7 : IVec S_ 1 := (fun x v => Host.reduce IntOp.andi x v reducesTo_S2x8x65536_S_d0_1_2 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S51x32 .f32 := Host.absf main_arg3
  let main_cst_4 : FVec F S_ .f32 := constant S_ .f32 0x7F800000#32
  let main_v15 : FVec F S51x32 .f32 := broadcastInDim S51x32 ![] bcast_S_S51x32 main_cst_4
  let main_v16 : IVec S51x32 1 := cmpf .olt main_v14 main_v15
  fn_part1 (F := F) main_arg4 main_arg5 main_arg6 main_arg7 main_arg8 main_arg9 main_arg10 main_v13 main_v16
-- ==== Kernel.lean ====
abbrev S8x4096 : Shape := ⟨2, ![8, 4096]⟩
abbrev S2x8x65536 : Shape := ⟨3, ![2, 8, 65536]⟩
abbrev S4096x4096 : Shape := ⟨2, ![4096, 4096]⟩
abbrev S51x32 : Shape := ⟨2, ![51, 32]⟩
abbrev S32 : Shape := ⟨1, ![32]⟩
abbrev S51x16 : Shape := ⟨2, ![51, 16]⟩
abbrev S16 : Shape := ⟨1, ![16]⟩
abbrev S96x32 : Shape := ⟨2, ![96, 32]⟩
abbrev S96x16 : Shape := ⟨2, ![96, 16]⟩
abbrev S4096x1 : Shape := ⟨2, ![4096, 1]⟩
abbrev S512x512 : Shape := ⟨2, ![512, 512]⟩
abbrev S512x1 : Shape := ⟨2, ![512, 1]⟩
abbrev S512 : Shape := ⟨1, ![512]⟩
abbrev S4096x8 : Shape := ⟨2, ![4096, 8]⟩
abbrev S4096x8x1 : Shape := ⟨3, ![4096, 8, 1]⟩
abbrev S17x3x32 : Shape := ⟨3, ![17, 3, 32]⟩
abbrev S3x17x32 : Shape := ⟨3, ![3, 17, 32]⟩
abbrev S_ : Shape := ⟨0, ![]⟩
abbrev S3x32x32 : Shape := ⟨3, ![3, 32, 32]⟩
abbrev S3x32x16 : Shape := ⟨3, ![3, 32, 16]⟩
abbrev S1x16 : Shape := ⟨2, ![1, 16]⟩
abbrev S17x3x16 : Shape := ⟨3, ![17, 3, 16]⟩
abbrev S3x17x16 : Shape := ⟨3, ![3, 17, 16]⟩
abbrev S1x8x65536 : Shape := ⟨3, ![1, 8, 65536]⟩
abbrev S8x65536 : Shape := ⟨2, ![8, 65536]⟩
abbrev S8x4096x16 : Shape := ⟨3, ![8, 4096, 16]⟩
abbrev S4096x8x16 : Shape := ⟨3, ![4096, 8, 16]⟩
abbrev S32768x16 : Shape := ⟨2, ![32768, 16]⟩
abbrev S4096x8x15 : Shape := ⟨3, ![4096, 8, 15]⟩
abbrev S4096x8x32 : Shape := ⟨3, ![4096, 8, 32]⟩
abbrev S4096x256 : Shape := ⟨2, ![4096, 256]⟩
abbrev S4096x512 : Shape := ⟨2, ![4096, 512]⟩
abbrev S512x256 : Shape := ⟨2, ![512, 256]⟩
abbrev S32768x32 : Shape := ⟨2, ![32768, 32]⟩
abbrev S4096x32 : Shape := ⟨2, ![4096, 32]⟩
abbrev S4096x16 : Shape := ⟨2, ![4096, 16]⟩
abbrev S1x32x16 : Shape := ⟨3, ![1, 32, 16]⟩
abbrev S32x16 : Shape := ⟨2, ![32, 16]⟩
abbrev S32x3x32 : Shape := ⟨3, ![32, 3, 32]⟩
abbrev S32x3x16 : Shape := ⟨3, ![32, 3, 16]⟩
abbrev S4096x8x0 : Shape := ⟨3, ![4096, 8, 0]⟩

abbrev nBuf : Space → Nat
  | .hbm => 112
  | .vmem => 141
  | .smem => 0
  | _ => 0

abbrev vmemTy0_0 (i : Nat) : BufTy := match i % 128 with
  | 0 => ⟨S512x512, .f32⟩
  | 1 => ⟨S512x512, .f32⟩
  | 2 => ⟨S512x512, .f32⟩
  | 3 => ⟨S512x512, .f32⟩
  | 4 => ⟨S512x512, .bf16⟩
  | 5 => ⟨S512x512, .bf16⟩
  | 6 => ⟨S512x1, .f32⟩
  | 7 => ⟨S512x1, .f32⟩
  | 8 => ⟨S512x1, .f32⟩
  | 9 => ⟨S4096x512, .bf16⟩
  | 10 => ⟨S4096x512, .bf16⟩
  | 11 => ⟨S512x256, .f32⟩
  | 12 => ⟨S512x256, .f32⟩
  | 13 => ⟨S512x1, .f32⟩
  | 14 => ⟨S512x1, .f32⟩
  | 15 => ⟨S4096x1, .f32⟩
  | 16 => ⟨S4096x256, .f32⟩
  | 17 => ⟨S4096x256, .f32⟩
  | 18 => ⟨S4096x512, .bf16⟩
  | 19 => ⟨S4096x512, .bf16⟩
  | 20 => ⟨S512x256, .f32⟩
  | 21 => ⟨S512x256, .f32⟩
  | 22 => ⟨S512x1, .f32⟩
  | 23 => ⟨S512x1, .f32⟩
  | 24 => ⟨S4096x1, .f32⟩
  | 25 => ⟨S4096x256, .f32⟩
  | 26 => ⟨S4096x256, .f32⟩
  | 27 => ⟨S4096x32, .f32⟩
  | 28 => ⟨S4096x32, .f32⟩
  | 29 => ⟨S4096x32, .f32⟩
  | 30 => ⟨S4096x32, .f32⟩
  | 31 => ⟨S4096x32, .f32⟩
  | 32 => ⟨S4096x32, .f32⟩
  | 33 => ⟨S3x32x16, .f32⟩
  | 34 => ⟨S3x32x16, .f32⟩
  | 35 => ⟨S1x16, .f32⟩
  | 36 => ⟨S1x16, .f32⟩
  | 37 => ⟨S4096x16, .f32⟩
  | 38 => ⟨S4096x16, .f32⟩
  | 39 => ⟨S4096x16, .f32⟩
  | 40 => ⟨S4096x16, .f32⟩
  | 41 => ⟨S4096x16, .f32⟩
  | 42 => ⟨S4096x16, .f32⟩
  | 43 => ⟨S4096x512, .bf16⟩
  | 44 => ⟨S4096x512, .bf16⟩
  | 45 => ⟨S512x256, .f32⟩
  | 46 => ⟨S512x256, .f32⟩
  | 47 => ⟨S512x1, .f32⟩
  | 48 => ⟨S512x1, .f32⟩
  | 49 => ⟨S4096x1, .f32⟩
  | 50 => ⟨S4096x256, .f32⟩
  | 51 => ⟨S4096x256, .f32⟩
  | 52 => ⟨S4096x512, .bf16⟩
  | 53 => ⟨S4096x512, .bf16⟩
  | 54 => ⟨S512x256, .f32⟩
  | 55 => ⟨S512x256, .f32⟩
  | 56 => ⟨S512x1, .f32⟩
  | 57 => ⟨S512x1, .f32⟩
  | 58 => ⟨S4096x1, .f32⟩
  | 59 => ⟨S4096x256, .f32⟩
  | 60 => ⟨S4096x256, .f32⟩
  | 61 => ⟨S4096x32, .f32⟩
  | 62 => ⟨S4096x32, .f32⟩
  | 63 => ⟨S4096x32, .f32⟩
  | 64 => ⟨S4096x32, .f32⟩
  | 65 => ⟨S4096x32, .f32⟩
  | 66 => ⟨S4096x32, .f32⟩
  | 67 => ⟨S3x32x16, .f32⟩
  | 68 => ⟨S1x16, .f32⟩
  | 69 => ⟨S4096x16, .f32⟩
  | 70 => ⟨S4096x16, .f32⟩
  | 71 => ⟨S4096x16, .f32⟩
  | 72 => ⟨S4096x16, .f32⟩
  | 73 => ⟨S4096x16, .f32⟩
  | 74 => ⟨S4096x16, .f32⟩
  | 75 => ⟨S4096x512, .bf16⟩
  | 76 => ⟨S4096x512, .bf16⟩
  | 77 => ⟨S512x256, .f32⟩
  | 78 => ⟨S512x256, .f32⟩
  | 79 => ⟨S512x1, .f32⟩
  | 80 => ⟨S512x1, .f32⟩
  | 81 => ⟨S4096x1, .f32⟩
  | 82 => ⟨S4096x256, .f32⟩
  | 83 => ⟨S4096x256, .f32⟩
  | 84 => ⟨S4096x512, .bf16⟩
  | 85 => ⟨S4096x512, .bf16⟩
  | 86 => ⟨S512x256, .f32⟩
  | 87 => ⟨S512x256, .f32⟩
  | 88 => ⟨S512x1, .f32⟩
  | 89 => ⟨S512x1, .f32⟩
  | 90 => ⟨S4096x1, .f32⟩
  | 91 => ⟨S4096x256, .f32⟩
  | 92 => ⟨S4096x256, .f32⟩
  | 93 => ⟨S4096x32, .f32⟩
  | 94 => ⟨S4096x32, .f32⟩
  | 95 => ⟨S4096x32, .f32⟩
  | 96 => ⟨S4096x32, .f32⟩
  | 97 => ⟨S4096x32, .f32⟩
  | 98 => ⟨S4096x32, .f32⟩
  | 99 => ⟨S3x32x16, .f32⟩
  | 100 => ⟨S3x32x16, .f32⟩
  | 101 => ⟨S1x16, .f32⟩
  | 102 => ⟨S1x16, .f32⟩
  | 103 => ⟨S4096x16, .f32⟩
  | 104 => ⟨S4096x16, .f32⟩
  | 105 => ⟨S4096x16, .f32⟩
  | 106 => ⟨S4096x16, .f32⟩
  | 107 => ⟨S4096x16, .f32⟩
  | 108 => ⟨S4096x16, .f32⟩
  | 109 => ⟨S4096x512, .bf16⟩
  | 110 => ⟨S4096x512, .bf16⟩
  | 111 => ⟨S512x256, .f32⟩
  | 112 => ⟨S512x256, .f32⟩
  | 113 => ⟨S512x1, .f32⟩
  | 114 => ⟨S512x1, .f32⟩
  | 115 => ⟨S4096x1, .f32⟩
  | 116 => ⟨S4096x256, .f32⟩
  | 117 => ⟨S4096x256, .f32⟩
  | 118 => ⟨S4096x512, .bf16⟩
  | 119 => ⟨S4096x512, .bf16⟩
  | 120 => ⟨S512x256, .f32⟩
  | 121 => ⟨S512x256, .f32⟩
  | 122 => ⟨S512x1, .f32⟩
  | 123 => ⟨S512x1, .f32⟩
  | 124 => ⟨S4096x1, .f32⟩
  | 125 => ⟨S4096x256, .f32⟩
  | 126 => ⟨S4096x256, .f32⟩
  | 127 => ⟨S4096x32, .f32⟩
  | _ => ⟨S8x4096, .f32⟩

abbrev vmemTy0_1 (i : Nat) : BufTy := match i % 128 with
  | 0 => ⟨S4096x32, .f32⟩
  | 1 => ⟨S4096x32, .f32⟩
  | 2 => ⟨S4096x32, .f32⟩
  | 3 => ⟨S4096x32, .f32⟩
  | 4 => ⟨S4096x32, .f32⟩
  | 5 => ⟨S3x32x16, .f32⟩
  | 6 => ⟨S1x16, .f32⟩
  | 7 => ⟨S4096x16, .f32⟩
  | 8 => ⟨S4096x16, .f32⟩
  | 9 => ⟨S4096x16, .f32⟩
  | 10 => ⟨S4096x16, .f32⟩
  | 11 => ⟨S4096x16, .f32⟩
  | 12 => ⟨S4096x16, .f32⟩
  | _ => ⟨S8x4096, .f32⟩

abbrev vmemTy (i : Nat) : BufTy := match i / 128 with
  | 0 => vmemTy0_0 i
  | 1 => vmemTy0_1 i
  | _ => ⟨S8x4096, .f32⟩

abbrev bufTy : (tb : Table) → Fin (tcTables nBuf tb) → BufTy
  | .hbm, ⟨0, _⟩ => ⟨S8x4096, .f32⟩
  | .hbm, ⟨1, _⟩ => ⟨S2x8x65536, .f32⟩
  | .hbm, ⟨2, _⟩ => ⟨S4096x4096, .f32⟩
  | .hbm, ⟨3, _⟩ => ⟨S51x32, .f32⟩
  | .hbm, ⟨4, _⟩ => ⟨S32, .f32⟩
  | .hbm, ⟨5, _⟩ => ⟨S51x16, .f32⟩
  | .hbm, ⟨6, _⟩ => ⟨S16, .f32⟩
  | .hbm, ⟨7, _⟩ => ⟨S96x32, .f32⟩
  | .hbm, ⟨8, _⟩ => ⟨S32, .f32⟩
  | .hbm, ⟨9, _⟩ => ⟨S96x16, .f32⟩
  | .hbm, ⟨10, _⟩ => ⟨S16, .f32⟩
  | .hbm, ⟨11, _⟩ => ⟨S4096x4096, .bf16⟩
  | .hbm, ⟨12, _⟩ => ⟨S4096x1, .f32⟩
  | .hbm, ⟨13, _⟩ => ⟨S4096x8, .f32⟩
  | .hbm, ⟨14, _⟩ => ⟨S4096x8x1, .f32⟩
  | .hbm, ⟨15, _⟩ => ⟨S17x3x32, .f32⟩
  | .hbm, ⟨16, _⟩ => ⟨S3x17x32, .f32⟩
  | .hbm, ⟨17, _⟩ => ⟨S_, .i32⟩
  | .hbm, ⟨18, _⟩ => ⟨S_, .f32⟩
  | .hbm, ⟨19, _⟩ => ⟨S3x32x32, .f32⟩
  | .hbm, ⟨20, _⟩ => ⟨S3x32x16, .f32⟩
  | .hbm, ⟨21, _⟩ => ⟨S3x32x16, .f32⟩
  | .hbm, ⟨22, _⟩ => ⟨S16, .f32⟩
  | .hbm, ⟨23, _⟩ => ⟨S1x16, .f32⟩
  | .hbm, ⟨24, _⟩ => ⟨S16, .f32⟩
  | .hbm, ⟨25, _⟩ => ⟨S1x16, .f32⟩
  | .hbm, ⟨26, _⟩ => ⟨S17x3x16, .f32⟩
  | .hbm, ⟨27, _⟩ => ⟨S3x17x16, .f32⟩
  | .hbm, ⟨28, _⟩ => ⟨S_, .i32⟩
  | .hbm, ⟨29, _⟩ => ⟨S_, .f32⟩
  | .hbm, ⟨30, _⟩ => ⟨S3x32x16, .f32⟩
  | .hbm, ⟨31, _⟩ => ⟨S1x16, .f32⟩
  | .hbm, ⟨32, _⟩ => ⟨S1x8x65536, .f32⟩
  | .hbm, ⟨33, _⟩ => ⟨S8x65536, .f32⟩
  | .hbm, ⟨34, _⟩ => ⟨S8x4096x16, .f32⟩
  | .hbm, ⟨35, _⟩ => ⟨S4096x8x16, .f32⟩
  | .hbm, ⟨36, _⟩ => ⟨S32768x16, .f32⟩
  | .hbm, ⟨37, _⟩ => ⟨S_, .f32⟩
  | .hbm, ⟨38, _⟩ => ⟨S4096x8x15, .f32⟩
  | .hbm, ⟨39, _⟩ => ⟨S4096x8x32, .f32⟩
  | .hbm, ⟨40, _⟩ => ⟨S4096x256, .f32⟩
  | .hbm, ⟨41, _⟩ => ⟨S4096x256, .f32⟩
  | .hbm, ⟨42, _⟩ => ⟨S4096x256, .f32⟩
  | .hbm, ⟨43, _⟩ => ⟨S32768x32, .f32⟩
  | .hbm, ⟨44, _⟩ => ⟨S32768x32, .f32⟩
  | .hbm, ⟨45, _⟩ => ⟨S32768x32, .f32⟩
  | .hbm, ⟨46, _⟩ => ⟨S32768x16, .f32⟩
  | .hbm, ⟨47, _⟩ => ⟨S32768x16, .f32⟩
  | .hbm, ⟨48, _⟩ => ⟨S4096x8x16, .f32⟩
  | .hbm, ⟨49, _⟩ => ⟨S_, .f32⟩
  | .hbm, ⟨50, _⟩ => ⟨S4096x8x15, .f32⟩
  | .hbm, ⟨51, _⟩ => ⟨S4096x8x32, .f32⟩
  | .hbm, ⟨52, _⟩ => ⟨S4096x256, .f32⟩
  | .hbm, ⟨53, _⟩ => ⟨S4096x256, .f32⟩
  | .hbm, ⟨54, _⟩ => ⟨S4096x256, .f32⟩
  | .hbm, ⟨55, _⟩ => ⟨S32768x32, .f32⟩
  | .hbm, ⟨56, _⟩ => ⟨S32768x32, .f32⟩
  | .hbm, ⟨57, _⟩ => ⟨S32768x32, .f32⟩
  | .hbm, ⟨58, _⟩ => ⟨S32768x16, .f32⟩
  | .hbm, ⟨59, _⟩ => ⟨S4096x8x16, .f32⟩
  | .hbm, ⟨60, _⟩ => ⟨S8x4096x16, .f32⟩
  | .hbm, ⟨61, _⟩ => ⟨S8x65536, .f32⟩
  | .hbm, ⟨62, _⟩ => ⟨S32x3x32, .f32⟩
  | .hbm, ⟨63, _⟩ => ⟨S3x32x32, .f32⟩
  | .hbm, ⟨64, _⟩ => ⟨S_, .i32⟩
  | .hbm, ⟨65, _⟩ => ⟨S_, .f32⟩
  | .hbm, ⟨66, _⟩ => ⟨S3x32x32, .f32⟩
  | .hbm, ⟨67, _⟩ => ⟨S3x32x16, .f32⟩
  | .hbm, ⟨68, _⟩ => ⟨S3x32x16, .f32⟩
  | .hbm, ⟨69, _⟩ => ⟨S16, .f32⟩
  | .hbm, ⟨70, _⟩ => ⟨S1x16, .f32⟩
  | .hbm, ⟨71, _⟩ => ⟨S16, .f32⟩
  | .hbm, ⟨72, _⟩ => ⟨S1x16, .f32⟩
  | .hbm, ⟨73, _⟩ => ⟨S32x3x16, .f32⟩
  | .hbm, ⟨74, _⟩ => ⟨S3x32x16, .f32⟩
  | .hbm, ⟨75, _⟩ => ⟨S_, .i32⟩
  | .hbm, ⟨76, _⟩ => ⟨S_, .f32⟩
  | .hbm, ⟨77, _⟩ => ⟨S3x32x16, .f32⟩
  | .hbm, ⟨78, _⟩ => ⟨S1x16, .f32⟩
  | .hbm, ⟨79, _⟩ => ⟨S1x8x65536, .f32⟩
  | .hbm, ⟨80, _⟩ => ⟨S8x65536, .f32⟩
  | .hbm, ⟨81, _⟩ => ⟨S8x4096x16, .f32⟩
  | .hbm, ⟨82, _⟩ => ⟨S4096x8x16, .f32⟩
  | .hbm, ⟨83, _⟩ => ⟨S32768x16, .f32⟩
  | .hbm, ⟨84, _⟩ => ⟨S_, .f32⟩
  | .hbm, ⟨85, _⟩ => ⟨S4096x8x0, .f32⟩
  | .hbm, ⟨86, _⟩ => ⟨S4096x8x32, .f32⟩
  | .hbm, ⟨87, _⟩ => ⟨S4096x256, .f32⟩
  | .hbm, ⟨88, _⟩ => ⟨S4096x256, .f32⟩
  | .hbm, ⟨89, _⟩ => ⟨S4096x256, .f32⟩
  | .hbm, ⟨90, _⟩ => ⟨S32768x32, .f32⟩
  | .hbm, ⟨91, _⟩ => ⟨S32768x32, .f32⟩
  | .hbm, ⟨92, _⟩ => ⟨S32768x32, .f32⟩
  | .hbm, ⟨93, _⟩ => ⟨S32768x16, .f32⟩
  | .hbm, ⟨94, _⟩ => ⟨S32768x16, .f32⟩
  | .hbm, ⟨95, _⟩ => ⟨S4096x8x16, .f32⟩
  | .hbm, ⟨96, _⟩ => ⟨S_, .f32⟩
  | .hbm, ⟨97, _⟩ => ⟨S4096x8x0, .f32⟩
  | .hbm, ⟨98, _⟩ => ⟨S4096x8x32, .f32⟩
  | .hbm, ⟨99, _⟩ => ⟨S4096x256, .f32⟩
  | .hbm, ⟨100, _⟩ => ⟨S4096x256, .f32⟩
  | .hbm, ⟨101, _⟩ => ⟨S4096x256, .f32⟩
  | .hbm, ⟨102, _⟩ => ⟨S32768x32, .f32⟩
  | .hbm, ⟨103, _⟩ => ⟨S32768x32, .f32⟩
  | .hbm, ⟨104, _⟩ => ⟨S32768x32, .f32⟩
  | .hbm, ⟨105, _⟩ => ⟨S32768x16, .f32⟩
  | .hbm, ⟨106, _⟩ => ⟨S4096x8x16, .f32⟩
  | .hbm, ⟨107, _⟩ => ⟨S8x4096x16, .f32⟩
  | .hbm, ⟨108, _⟩ => ⟨S8x65536, .f32⟩
  | .hbm, ⟨109, _⟩ => ⟨S1x8x65536, .f32⟩
  | .hbm, ⟨110, _⟩ => ⟨S1x8x65536, .f32⟩
  | .hbm, ⟨111, _⟩ => ⟨S2x8x65536, .f32⟩
  | .local _ .vmem, ⟨i, _⟩ => vmemTy i
  | _, _ => ⟨S8x4096, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c_0 : Ref sig .tc := ⟨.hbm, 28, rfl⟩
abbrev main_call1_v0 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29_0 : Ref sig .tc := ⟨.hbm, 46, rfl⟩
abbrev main_v29_1 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_c_2 : Ref sig .tc := ⟨.hbm, 64, rfl⟩
abbrev main_call2_v0 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_3 : Ref sig .tc := ⟨.hbm, 75, rfl⟩
abbrev main_call3_v0 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_4 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69_0 : Ref sig .tc := ⟨.hbm, 93, rfl⟩
abbrev main_v69_1 : Ref sig .tc := ⟨.hbm, 94, rfl⟩
abbrev main_v70 : Ref sig .tc := ⟨.hbm, 95, rfl⟩
abbrev main_cst_5 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg5_0 : Ref sig .tc := ⟨.vmem, 35, rfl⟩
abbrev cc3_stg6_0 : Ref sig .tc := ⟨.vmem, 36, rfl⟩
abbrev cc3_stg7_0 : Ref sig .tc := ⟨.vmem, 37, rfl⟩
abbrev cc3_stg7_1 : Ref sig .tc := ⟨.vmem, 38, rfl⟩
abbrev cc3_stg8_0 : Ref sig .tc := ⟨.vmem, 39, rfl⟩
abbrev cc3_stg8_1 : Ref sig .tc := ⟨.vmem, 40, rfl⟩
abbrev cc3_stg9_0 : Ref sig .tc := ⟨.vmem, 41, rfl⟩
abbrev cc3_stg9_1 : Ref sig .tc := ⟨.vmem, 42, rfl⟩
abbrev cc4_stg0_0 : Ref sig .tc := ⟨.vmem, 43, rfl⟩
abbrev cc4_stg0_1 : Ref sig .tc := ⟨.vmem, 44, rfl⟩
abbrev cc4_stg1_0 : Ref sig .tc := ⟨.vmem, 45, rfl⟩
abbrev cc4_stg1_1 : Ref sig .tc := ⟨.vmem, 46, rfl⟩
abbrev cc4_stg2_0 : Ref sig .tc := ⟨.vmem, 47, rfl⟩
abbrev cc4_stg2_1 : Ref sig .tc := ⟨.vmem, 48, rfl⟩
abbrev cc4_stg3_0 : Ref sig .tc := ⟨.vmem, 49, rfl⟩
abbrev cc4_stg4_0 : Ref sig .tc := ⟨.vmem, 50, rfl⟩
abbrev cc4_stg5_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg1_1 : Ref sig .tc := ⟨.vmem, 55, rfl⟩
abbrev cc5_stg2_0 : Ref sig .tc := ⟨.vmem, 56, rfl⟩
abbrev cc5_stg2_1 : Ref sig .tc := ⟨.vmem, 57, rfl⟩
abbrev cc5_stg3_0 : Ref sig .tc := ⟨.vmem, 58, rfl⟩
abbrev cc5_stg4_0 : Ref sig .tc := ⟨.vmem, 59, rfl⟩
abbrev cc5_stg5_0 : Ref sig .tc := ⟨.vmem, 60, rfl⟩
abbrev cc6_stg0_0 : Ref sig .tc := ⟨.vmem, 61, rfl⟩
abbrev cc6_stg0_1 : Ref sig .tc := ⟨.vmem, 62, rfl⟩
abbrev cc6_stg1_0 : Ref sig .tc := ⟨.vmem, 63, rfl⟩
abbrev cc6_stg1_1 : Ref sig .tc := ⟨.vmem, 64, rfl⟩
abbrev cc6_stg2_0 : Ref sig .tc := ⟨.vmem, 65, rfl⟩
abbrev cc6_stg2_1 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg5_1 : Ref sig .tc := ⟨.vmem, 70, rfl⟩
abbrev cc6_stg6_0 : Ref sig .tc := ⟨.vmem, 71, rfl⟩
abbrev cc6_stg6_1 : Ref sig .tc := ⟨.vmem, 72, rfl⟩
abbrev cc6_stg7_0 : Ref sig .tc := ⟨.vmem, 73, rfl⟩
abbrev cc6_stg7_1 : Ref sig .tc := ⟨.vmem, 74, rfl⟩
abbrev cc7_stg0_0 : Ref sig .tc := ⟨.vmem, 75, rfl⟩
abbrev cc7_stg0_1 : Ref sig .tc := ⟨.vmem, 76, rfl⟩
abbrev cc7_stg1_0 : Ref sig .tc := ⟨.vmem, 77, rfl⟩
abbrev cc7_stg1_1 : Ref sig .tc := ⟨.vmem, 78, rfl⟩
abbrev cc7_stg2_0 : Ref sig .tc := ⟨.vmem, 79, rfl⟩
abbrev cc7_stg2_1 : Ref sig .tc := ⟨.vmem, 80, rfl⟩
abbrev cc7_stg3_0 : Ref sig .tc := ⟨.vmem, 81, rfl⟩
abbrev cc7_stg4_0 : Ref sig .tc := ⟨.vmem, 82, rfl⟩
abbrev cc7_stg5_0 : Ref sig .tc := ⟨.vmem, 83, rfl⟩
abbrev cc8_stg0_0 : Ref sig .tc := ⟨.vmem, 84, rfl⟩
abbrev cc8_stg0_1 : Ref sig .tc := ⟨.vmem, 85, rfl⟩
abbrev cc8_stg1_0 : Ref sig .tc := ⟨.vmem, 86, rfl⟩
abbrev cc8_stg1_1 : Ref sig .tc := ⟨.vmem, 87, rfl⟩
abbrev cc8_stg2_0 : Ref sig .tc := ⟨.vmem, 88, rfl⟩
abbrev cc8_stg2_1 : Ref sig .tc := ⟨.vmem, 89, rfl⟩
abbrev cc8_stg3_0 : Ref sig .tc := ⟨.vmem, 90, rfl⟩
abbrev cc8_stg4_0 : Ref sig .tc := ⟨.vmem, 91, rfl⟩
abbrev cc8_stg5_0 : Ref sig .tc := ⟨.vmem, 92, rfl⟩
abbrev cc9_stg0_0 : Ref sig .tc := ⟨.vmem, 93, rfl⟩
abbrev cc9_stg0_1 : Ref sig .tc := ⟨.vmem, 94, rfl⟩
abbrev cc9_stg1_0 : Ref sig .tc := ⟨.vmem, 95, rfl⟩
abbrev cc9_stg1_1 : Ref sig .tc := ⟨.vmem, 96, rfl⟩
abbrev cc9_stg2_0 : Ref sig .tc := ⟨.vmem, 97, rfl⟩
abbrev cc9_stg2_1 : Ref sig .tc := ⟨.vmem, 98, rfl⟩
abbrev cc9_stg3_0 : Ref sig .tc := ⟨.vmem, 99, rfl⟩
abbrev cc9_stg4_0 : Ref sig .tc := ⟨.vmem, 100, rfl⟩
abbrev cc9_stg5_0 : Ref sig .tc := ⟨.vmem, 101, rfl⟩
abbrev cc9_stg6_0 : Ref sig .tc := ⟨.vmem, 102, rfl⟩
abbrev cc9_stg7_0 : Ref sig .tc := ⟨.vmem, 103, rfl⟩
abbrev cc9_stg7_1 : Ref sig .tc := ⟨.vmem, 104, rfl⟩
abbrev cc9_stg8_0 : Ref sig .tc := ⟨.vmem, 105, rfl⟩
abbrev cc9_stg8_1 : Ref sig .tc := ⟨.vmem, 106, rfl⟩
abbrev cc9_stg9_0 : Ref sig .tc := ⟨.vmem, 107, rfl⟩
abbrev cc9_stg9_1 : Ref sig .tc := ⟨.vmem, 108, rfl⟩
abbrev cc10_stg0_0 : Ref sig .tc := ⟨.vmem, 109, rfl⟩
abbrev cc10_stg0_1 : Ref sig .tc := ⟨.vmem, 110, rfl⟩
abbrev cc10_stg1_0 : Ref sig .tc := ⟨.vmem, 111, rfl⟩
abbrev cc10_stg1_1 : Ref sig .tc := ⟨.vmem, 112, rfl⟩
abbrev cc10_stg2_0 : Ref sig .tc := ⟨.vmem, 113, rfl⟩
abbrev cc10_stg2_1 : Ref sig .tc := ⟨.vmem, 114, rfl⟩
abbrev cc10_stg3_0 : Ref sig .tc := ⟨.vmem, 115, rfl⟩
abbrev cc10_stg4_0 : Ref sig .tc := ⟨.vmem, 116, rfl⟩
abbrev cc10_stg5_0 : Ref sig .tc := ⟨.vmem, 117, rfl⟩
abbrev cc11_stg0_0 : Ref sig .tc := ⟨.vmem, 118, rfl⟩
abbrev cc11_stg0_1 : Ref sig .tc := ⟨.vmem, 119, rfl⟩
abbrev cc11_stg1_0 : Ref sig .tc := ⟨.vmem, 120, rfl⟩
abbrev cc11_stg1_1 : Ref sig .tc := ⟨.vmem, 121, rfl⟩
abbrev cc11_stg2_0 : Ref sig .tc := ⟨.vmem, 122, rfl⟩
abbrev cc11_stg2_1 : Ref sig .tc := ⟨.vmem, 123, rfl⟩
abbrev cc11_stg3_0 : Ref sig .tc := ⟨.vmem, 124, rfl⟩
abbrev cc11_stg4_0 : Ref sig .tc := ⟨.vmem, 125, rfl⟩
abbrev cc11_stg5_0 : Ref sig .tc := ⟨.vmem, 126, rfl⟩
abbrev cc12_stg0_0 : Ref sig .tc := ⟨.vmem, 127, rfl⟩
abbrev cc12_stg0_1 : Ref sig .tc := ⟨.vmem, 128, rfl⟩
abbrev cc12_stg1_0 : Ref sig .tc := ⟨.vmem, 129, rfl⟩
abbrev cc12_stg1_1 : Ref sig .tc := ⟨.vmem, 130, rfl⟩
abbrev cc12_stg2_0 : Ref sig .tc := ⟨.vmem, 131, rfl⟩
abbrev cc12_stg2_1 : Ref sig .tc := ⟨.vmem, 132, rfl⟩
abbrev cc12_stg3_0 : Ref sig .tc := ⟨.vmem, 133, rfl⟩
abbrev cc12_stg4_0 : Ref sig .tc := ⟨.vmem, 134, rfl⟩
abbrev cc12_stg5_0 : Ref sig .tc := ⟨.vmem, 135, rfl⟩
abbrev cc12_stg5_1 : Ref sig .tc := ⟨.vmem, 136, rfl⟩
abbrev cc12_stg6_0 : Ref sig .tc := ⟨.vmem, 137, rfl⟩
abbrev cc12_stg6_1 : Ref sig .tc := ⟨.vmem, 138, rfl⟩
abbrev cc12_stg7_0 : Ref sig .tc := ⟨.vmem, 139, rfl⟩
abbrev cc12_stg7_1 : Ref sig .tc := ⟨.vmem, 140, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem7_1 : DmaSem sig := 37
abbrev cc3_sem8_0 : DmaSem sig := 38
abbrev cc3_sem8_1 : DmaSem sig := 39
abbrev cc3_sem9_0 : DmaSem sig := 40
abbrev cc3_sem9_1 : DmaSem sig := 41
abbrev cc4_sem0_0 : DmaSem sig := 42
abbrev cc4_sem0_1 : DmaSem sig := 43
abbrev cc4_sem1_0 : DmaSem sig := 44
abbrev cc4_sem1_1 : DmaSem sig := 45
abbrev cc4_sem2_0 : DmaSem sig := 46
abbrev cc4_sem2_1 : DmaSem sig := 47
abbrev cc4_sem3_0 : DmaSem sig := 48
abbrev cc4_sem4_0 : DmaSem sig := 49
abbrev cc4_sem5_0 : DmaSem sig := 50
abbrev cc5_sem0_0 : DmaSem sig := 51
abbrev cc5_sem0_1 : DmaSem sig := 52
abbrev cc5_sem1_0 : DmaSem sig := 53
abbrev cc5_sem1_1 : DmaSem sig := 54
abbrev cc5_sem2_0 : DmaSem sig := 55
abbrev cc5_sem2_1 : DmaSem sig := 56
abbrev cc5_sem3_0 : DmaSem sig := 57
abbrev cc5_sem4_0 : DmaSem sig := 58
abbrev cc5_sem5_0 : DmaSem sig := 59
abbrev cc6_sem0_0 : DmaSem sig := 60
abbrev cc6_sem0_1 : DmaSem sig := 61
abbrev cc6_sem1_0 : DmaSem sig := 62
abbrev cc6_sem1_1 : DmaSem sig := 63
abbrev cc6_sem2_0 : DmaSem sig := 64
abbrev cc6_sem2_1 : DmaSem sig := 65
abbrev cc6_sem3_0 : DmaSem sig := 66
abbrev cc6_sem4_0 : DmaSem sig := 67
abbrev cc6_sem5_0 : DmaSem sig := 68
abbrev cc6_sem5_1 : DmaSem sig := 69
abbrev cc6_sem6_0 : DmaSem sig := 70
abbrev cc6_sem6_1 : DmaSem sig := 71
abbrev cc6_sem7_0 : DmaSem sig := 72
abbrev cc6_sem7_1 : DmaSem sig := 73
abbrev cc7_sem0_0 : DmaSem sig := 74
abbrev cc7_sem0_1 : DmaSem sig := 75
abbrev cc7_sem1_0 : DmaSem sig := 76
abbrev cc7_sem1_1 : DmaSem sig := 77
abbrev cc7_sem2_0 : DmaSem sig := 78
abbrev cc7_sem2_1 : DmaSem sig := 79
abbrev cc7_sem3_0 : DmaSem sig := 80
abbrev cc7_sem4_0 : DmaSem sig := 81
abbrev cc7_sem5_0 : DmaSem sig := 82
abbrev cc8_sem0_0 : DmaSem sig := 83
abbrev cc8_sem0_1 : DmaSem sig := 84
abbrev cc8_sem1_0 : DmaSem sig := 85
abbrev cc8_sem1_1 : DmaSem sig := 86
abbrev cc8_sem2_0 : DmaSem sig := 87
abbrev cc8_sem2_1 : DmaSem sig := 88
abbrev cc8_sem3_0 : DmaSem sig := 89
abbrev cc8_sem4_0 : DmaSem sig := 90
abbrev cc8_sem5_0 : DmaSem sig := 91
abbrev cc9_sem0_0 : DmaSem sig := 92
abbrev cc9_sem0_1 : DmaSem sig := 93
abbrev cc9_sem1_0 : DmaSem sig := 94
abbrev cc9_sem1_1 : DmaSem sig := 95
abbrev cc9_sem2_0 : DmaSem sig := 96
abbrev cc9_sem2_1 : DmaSem sig := 97
abbrev cc9_sem3_0 : DmaSem sig := 98
abbrev cc9_sem4_0 : DmaSem sig := 99
abbrev cc9_sem5_0 : DmaSem sig := 100
abbrev cc9_sem6_0 : DmaSem sig := 101
abbrev cc9_sem7_0 : DmaSem sig := 102
abbrev cc9_sem7_1 : DmaSem sig := 103
abbrev cc9_sem8_0 : DmaSem sig := 104
abbrev cc9_sem8_1 : DmaSem sig := 105
abbrev cc9_sem9_0 : DmaSem sig := 106
abbrev cc9_sem9_1 : DmaSem sig := 107
abbrev cc10_sem0_0 : DmaSem sig := 108
abbrev cc10_sem0_1 : DmaSem sig := 109
abbrev cc10_sem1_0 : DmaSem sig := 110
abbrev cc10_sem1_1 : DmaSem sig := 111
abbrev cc10_sem2_0 : DmaSem sig := 112
abbrev cc10_sem2_1 : DmaSem sig := 113
abbrev cc10_sem3_0 : DmaSem sig := 114
abbrev cc10_sem4_0 : DmaSem sig := 115
abbrev cc10_sem5_0 : DmaSem sig := 116
abbrev cc11_sem0_0 : DmaSem sig := 117
abbrev cc11_sem0_1 : DmaSem sig := 118
abbrev cc11_sem1_0 : DmaSem sig := 119
abbrev cc11_sem1_1 : DmaSem sig := 120
abbrev cc11_sem2_0 : DmaSem sig := 121
abbrev cc11_sem2_1 : DmaSem sig := 122
abbrev cc11_sem3_0 : DmaSem sig := 123
abbrev cc11_sem4_0 : DmaSem sig := 124
abbrev cc11_sem5_0 : DmaSem sig := 125
abbrev cc12_sem0_0 : DmaSem sig := 126
abbrev cc12_sem0_1 : DmaSem sig := 127
abbrev cc12_sem1_0 : DmaSem sig := 128
abbrev cc12_sem1_1 : DmaSem sig := 129
abbrev cc12_sem2_0 : DmaSem sig := 130
abbrev cc12_sem2_1 : DmaSem sig := 131
abbrev cc12_sem3_0 : DmaSem sig := 132
abbrev cc12_sem4_0 : DmaSem sig := 133
abbrev cc12_sem5_0 : DmaSem sig := 134
abbrev cc12_sem5_1 : DmaSem sig := 135
abbrev cc12_sem6_0 : DmaSem sig := 136
abbrev cc12_sem6_1 : DmaSem sig := 137
abbrev cc12_sem7_0 : DmaSem sig := 138
abbrev cc12_sem7_1 : DmaSem sig := 139

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v16 : BitVec 1 := Scalar.cmpi .eq arg1 c7_i32
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4096x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4096x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4096x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4096x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S4096x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S4096x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S4096x256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_9 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4096x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S4096x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x32x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S3x32x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x16 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S4096x16 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev stage3_8 : Fin 2 → Memref sig .tc .vmem S4096x16 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

abbrev stage3_9 : Fin 2 → Memref sig .tc .vmem S4096x16 .f32 := fun | 0 => Memref.whole cc3_stg9_0 | 1 => Memref.whole cc3_stg9_1 | ⟨_ + 2, h⟩ => absurd h (Nat.not_lt.2 (Nat.le_add_left _ _))
abbrev sem3_9 : Fin 2 → DmaSem sig := fun | 0 => cc3_sem9_0 | 1 => cc3_sem9_1 | ⟨_ + 2, h⟩ => absurd h (Nat.not_lt.2 (Nat.le_add_left _ _))
abbrev reads3_9 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4096x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S512x256 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S4096x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S4096x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S4096x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev grid5 : Pipeline.Grid := ⟨1, ![8], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S4096x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S512x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S512x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S4096x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S4096x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S4096x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4096x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4096x32 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4096x32 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S3x32x16 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x16 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S4096x16 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S4096x16 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 2 → Memref sig .tc .vmem S4096x16 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

abbrev grid7 : Pipeline.Grid := ⟨1, ![8], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S4096x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S512x256 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S512x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S4096x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S4096x256 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S4096x256 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev grid8 : Pipeline.Grid := ⟨1, ![8], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S4096x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S512x256 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S512x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S4096x1 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S4096x256 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S4096x256 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev grid9 : Pipeline.Grid := ⟨1, ![8], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_3 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_4 (i : grid9.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_8 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_9 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4096x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4096x32 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 2 → Memref sig .tc .vmem S4096x32 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev stage9_3 : Fin 1 → Memref sig .tc .vmem S3x32x16 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S3x32x16 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S1x16 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x16 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 2 → Memref sig .tc .vmem S4096x16 .f32 := fun | 0 => Memref.whole cc9_stg7_0 | 1 => Memref.whole cc9_stg7_1 | ⟨_ + 2, h⟩ => absurd h (Nat.not_lt.2 (Nat.le_add_left _ _))
abbrev sem9_7 : Fin 2 → DmaSem sig := fun | 0 => cc9_sem7_0 | 1 => cc9_sem7_1 | ⟨_ + 2, h⟩ => absurd h (Nat.not_lt.2 (Nat.le_add_left _ _))
abbrev reads9_7 : Fin grid9.rank → Bool := ![true]

abbrev stage9_8 : Fin 2 → Memref sig .tc .vmem S4096x16 .f32 := fun | 0 => Memref.whole cc9_stg8_0 | 1 => Memref.whole cc9_stg8_1 | ⟨_ + 2, h⟩ => absurd h (Nat.not_lt.2 (Nat.le_add_left _ _))
abbrev sem9_8 : Fin 2 → DmaSem sig := fun | 0 => cc9_sem8_0 | 1 => cc9_sem8_1 | ⟨_ + 2, h⟩ => absurd h (Nat.not_lt.2 (Nat.le_add_left _ _))
abbrev reads9_8 : Fin grid9.rank → Bool := ![true]

abbrev stage9_9 : Fin 2 → Memref sig .tc .vmem S4096x16 .f32 := fun | 0 => Memref.whole cc9_stg9_0 | 1 => Memref.whole cc9_stg9_1 | ⟨_ + 2, h⟩ => absurd h (Nat.not_lt.2 (Nat.le_add_left _ _))
abbrev sem9_9 : Fin 2 → DmaSem sig := fun | 0 => cc9_sem9_0 | 1 => cc9_sem9_1 | ⟨_ + 2, h⟩ => absurd h (Nat.not_lt.2 (Nat.le_add_left _ _))
abbrev reads9_9 : Fin grid9.rank → Bool := ![true]

abbrev grid10 : Pipeline.Grid := ⟨1, ![8], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![c0_i32.toNat, arg0.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S4096x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S512x256 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 2 → Memref sig .tc .vmem S512x1 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev stage10_3 : Fin 1 → Memref sig .tc .vmem S4096x1 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 1 → Memref sig .tc .vmem S4096x256 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S4096x256 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![8], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![c0_i32.toNat, arg0.toNat]

def cc11_transform_1 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage11_0 : Fin 2 → Memref sig .tc .vmem S4096x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 2 → Memref sig .tc .vmem S512x256 .f32 := fun | 0 => Memref.whole cc11_stg1_0 | 1 => Memref.whole cc11_stg1_1 | ⟨_ + 2, h⟩ => absurd h (Nat.not_lt.2 (Nat.le_add_left _ _))
abbrev sem11_1 : Fin 2 → DmaSem sig := fun | 0 => cc11_sem1_0 | 1 => cc11_sem1_1 | ⟨_ + 2, h⟩ => absurd h (Nat.not_lt.2 (Nat.le_add_left _ _))
abbrev reads11_1 : Fin grid11.rank → Bool := ![true]

abbrev stage11_2 : Fin 2 → Memref sig .tc .vmem S512x1 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev stage11_3 : Fin 1 → Memref sig .tc .vmem S4096x1 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S4096x256 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S4096x256 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev grid12 : Pipeline.Grid := ⟨1, ![8], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc12_transform_4 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_5 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_6 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_7 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4096x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4096x32 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S4096x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 1 → Memref sig .tc .vmem S3x32x16 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 1 → Memref sig .tc .vmem S1x16 .f32 := fun | 0 => Memref.whole cc12_stg4_0 | ⟨_ + 1, h⟩ => absurd h (Nat.not_lt.2 (Nat.le_add_left _ _))
abbrev sem12_4 : Fin 1 → DmaSem sig := fun | 0 => cc12_sem4_0 | ⟨_ + 1, h⟩ => absurd h (Nat.not_lt.2 (Nat.le_add_left _ _))
abbrev reads12_4 : Fin grid12.rank → Bool := ![false]

abbrev stage12_5 : Fin 2 → Memref sig .tc .vmem S4096x16 .f32 := fun | 0 => Memref.whole cc12_stg5_0 | 1 => Memref.whole cc12_stg5_1 | ⟨_ + 2, h⟩ => absurd h (Nat.not_lt.2 (Nat.le_add_left _ _))
abbrev sem12_5 : Fin 2 → DmaSem sig := fun | 0 => cc12_sem5_0 | 1 => cc12_sem5_1 | ⟨_ + 2, h⟩ => absurd h (Nat.not_lt.2 (Nat.le_add_left _ _))
abbrev reads12_5 : Fin grid12.rank → Bool := ![true]

abbrev stage12_6 : Fin 2 → Memref sig .tc .vmem S4096x16 .f32 := fun | 0 => Memref.whole cc12_stg6_0 | 1 => Memref.whole cc12_stg6_1 | ⟨_ + 2, h⟩ => absurd h (Nat.not_lt.2 (Nat.le_add_left _ _))
abbrev sem12_6 : Fin 2 → DmaSem sig := fun | 0 => cc12_sem6_0 | 1 => cc12_sem6_1 | ⟨_ + 2, h⟩ => absurd h (Nat.not_lt.2 (Nat.le_add_left _ _))
abbrev reads12_6 : Fin grid12.rank → Bool := ![true]

abbrev stage12_7 : Fin 2 → Memref sig .tc .vmem S4096x16 .f32 := fun | 0 => Memref.whole cc12_stg7_0 | 1 => Memref.whole cc12_stg7_1 | ⟨_ + 2, h⟩ => absurd h (Nat.not_lt.2 (Nat.le_add_left _ _))
abbrev sem12_7 : Fin 2 → DmaSem sig := fun | 0 => cc12_sem7_0 | 1 => cc12_sem7_1 | ⟨_ + 2, h⟩ => absurd h (Nat.not_lt.2 (Nat.le_add_left _ _))
abbrev reads12_7 : Fin grid12.rank → Bool := ![true]

class Facts₀ : Prop where
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  reduces_S512x512_S512 : S512x512.Reduces [1] S512
  shapeCasts_S512_S512x1 : S512.ShapeCasts S512x1
  transposes_S8x4096_S4096x8_1_0 : S8x4096.Transposes [1, 0] S4096x8
  shapeCasts_S4096x8_S4096x8x1 : S4096x8.ShapeCasts S4096x8x1
  shapeCasts_S51x32_S17x3x32 : S51x32.ShapeCasts S17x3x32
  transposes_S17x3x32_S3x17x32_1_0_2 : S17x3x32.Transposes [1, 0, 2] S3x17x32
  pads_S3x17x32_S3x32x32_000_0150_000 : S3x17x32.Pads (![0, 0, 0] : Fin 3 → Nat) ![0, 15, 0] ![0, 0, 0] S3x32x32
  h_S_ : 0 < S_.numel
  slices_S3x32x32_S3x32x16_0_0_0 : S3x32x32.Slices ![0, 0, 0] S3x32x16
  slices_S3x32x32_S3x32x16_0_0_16 : S3x32x32.Slices ![0, 0, 16] S3x32x16
  slices_S32_S16_0 : S32.Slices ![0] S16
  shapeCasts_S16_S1x16 : S16.ShapeCasts S1x16
  slices_S32_S16_16 : S32.Slices ![16] S16
  shapeCasts_S51x16_S17x3x16 : S51x16.ShapeCasts S17x3x16
  transposes_S17x3x16_S3x17x16_1_0_2 : S17x3x16.Transposes [1, 0, 2] S3x17x16
  pads_S3x17x16_S3x32x16_000_0150_000 : S3x17x16.Pads (![0, 0, 0] : Fin 3 → Nat) ![0, 15, 0] ![0, 0, 0] S3x32x16
  slices_S2x8x65536_S1x8x65536_0_0_0 : S2x8x65536.Slices ![0, 0, 0] S1x8x65536
  shapeCasts_S1x8x65536_S8x65536 : S1x8x65536.ShapeCasts S8x65536
  shapeCasts_S8x65536_S8x4096x16 : S8x65536.ShapeCasts S8x4096x16
  transposes_S8x4096x16_S4096x8x16_1_0_2 : S8x4096x16.Transposes [1, 0, 2] S4096x8x16
  shapeCasts_S4096x8x16_S32768x16 : S4096x8x16.ShapeCasts S32768x16
  bcast_S_S4096x8x15 : S_.BroadcastsInDim S4096x8x15 (![] : Fin 0 → Fin S4096x8x15.rank)
  concatenates_S4096x8x1_S4096x8x16_S4096x8x15_S4096x8x32_d2 : Shape.Concatenates [S4096x8x1, S4096x8x16, S4096x8x15] S4096x8x32 2
  shapeCasts_S4096x8x32_S4096x256 : S4096x8x32.ShapeCasts S4096x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S512x1_S512x256 : S512x1.Broadcasts S512x256
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  inb_S4096x256_S4096x256_0_0 : ∀ a, (![0, 0] : Fin 2 → Nat) a + S4096x256.size a ≤ S4096x256.size a
  h_S4096x256 : 0 < S4096x256.numel
  shapeCasts_S4096x256_S4096x256 : S4096x256.ShapeCasts S4096x256
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x256 : S4096x1.Broadcasts S4096x256
  shapeCasts_S4096x256_S32768x32 : S4096x256.ShapeCasts S32768x32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S4096x32_S4096x32_0_0 : ∀ a, (![0, 0] : Fin 2 → Nat) a + S4096x32.size a ≤ S4096x32.size a
  h_S4096x32 : 0 < S4096x32.numel
  shapeCasts_S4096x32_S4096x32 : S4096x32.ShapeCasts S4096x32
  inb_S3x32x16_S1x32x16_0_0_0 : ∀ a, (![0, 0, 0] : Fin 3 → Nat) a + S1x32x16.size a ≤ S3x32x16.size a
  h_S1x32x16 : 0 < S1x32x16.numel
  shapeCasts_S1x32x16_S32x16 : S1x32x16.ShapeCasts S32x16
  broadcasts_S1x16_S4096x16 : S1x16.Broadcasts S4096x16
  inb_S3x32x16_S1x32x16_1_0_0 : ∀ a, (![1, 0, 0] : Fin 3 → Nat) a + S1x32x16.size a ≤ S3x32x16.size a
  inb_S3x32x16_S1x32x16_2_0_0 : ∀ a, (![2, 0, 0] : Fin 3 → Nat) a + S1x32x16.size a ≤ S3x32x16.size a
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  shapeCasts_S32768x16_S4096x8x16 : S32768x16.ShapeCasts S4096x8x16
  transposes_S4096x8x16_S8x4096x16_1_0_2 : S4096x8x16.Transposes [1, 0, 2] S8x4096x16
  shapeCasts_S8x4096x16_S8x65536 : S8x4096x16.ShapeCasts S8x65536
  shapeCasts_S96x32_S32x3x32 : S96x32.ShapeCasts S32x3x32
  transposes_S32x3x32_S3x32x32_1_0_2 : S32x3x32.Transposes [1, 0, 2] S3x32x32
  pads_S3x32x32_S3x32x32_000_000_000 : S3x32x32.Pads (![0, 0, 0] : Fin 3 → Nat) ![0, 0, 0] ![0, 0, 0] S3x32x32
  shapeCasts_S96x16_S32x3x16 : S96x16.ShapeCasts S32x3x16
  transposes_S32x3x16_S3x32x16_1_0_2 : S32x3x16.Transposes [1, 0, 2] S3x32x16
  pads_S3x32x16_S3x32x16_000_000_000 : S3x32x16.Pads (![0, 0, 0] : Fin 3 → Nat) ![0, 0, 0] ![0, 0, 0] S3x32x16
  slices_S2x8x65536_S1x8x65536_1_0_0 : S2x8x65536.Slices ![1, 0, 0] S1x8x65536
  bcast_S_S4096x8x0 : S_.BroadcastsInDim S4096x8x0 (![] : Fin 0 → Fin S4096x8x0.rank)
  concatenates_S4096x8x16_S4096x8x16_S4096x8x0_S4096x8x32_d2 : Shape.Concatenates [S4096x8x16, S4096x8x16, S4096x8x0] S4096x8x32 2
  bcast_S8x65536_S1x8x65536_1_2 : S8x65536.BroadcastsInDim S1x8x65536 (![1, 2] : Fin 2 → Fin S1x8x65536.rank)
  concatenates_S1x8x65536_S1x8x65536_S2x8x65536_d0 : Shape.Concatenates [S1x8x65536, S1x8x65536] S2x8x65536 0
  dot_S4096x512_S512x256_S4096x256_1_0_0_1_n_n_wf : DotDims.WF S4096x512 S512x256 S4096x256 [1] [0] [0] [1] [] []
  dot_S4096x32_S32x16_S4096x16_1_0_0_1_n_n_wf : DotDims.WF S4096x32 S32x16 S4096x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S4096x4096.size a
  hwx0_0 : ∀ i : grid0.Coords, EltTy.bits .f32 = 32 ∨ (Rect.block (s := S4096x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x4096.size a
  hwx0_1 : ∀ i : grid0.Coords, EltTy.bits .f32 = 32 ∨ (Rect.block (s := S4096x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x4096.size a
  hwx0_2 : ∀ i : grid0.Coords, EltTy.bits .bf16 = 32 ∨ (Rect.block (s := S4096x4096) S512x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x512.size a ≤ S4096x4096.size a
  hwx1_0 : ∀ i : grid1.Coords, EltTy.bits .bf16 = 32 ∨ (Rect.block (s := S4096x4096) S4096x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S4096x256.size a
  hwx1_1 : ∀ i : grid1.Coords, EltTy.bits .f32 = 32 ∨ (Rect.block (s := S4096x256) S512x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1.size a ≤ S4096x1.size a
  hwx1_2 : ∀ i : grid1.Coords, EltTy.bits .f32 = 32 ∨ (Rect.block (s := S4096x1) S512x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4096x1.size a ≤ S4096x1.size a
  hwx1_3 : ∀ i : grid1.Coords, EltTy.bits .f32 = 32 ∨ (Rect.block (s := S4096x1) S4096x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S4096x256.size a ≤ S4096x256.size a
  hwx1_4 : ∀ i : grid1.Coords, EltTy.bits .f32 = 32 ∨ (Rect.block (s := S4096x256) S4096x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S4096x256.size a ≤ S4096x256.size a
  hwx1_5 : ∀ i : grid1.Coords, EltTy.bits .f32 = 32 ∨ (Rect.block (s := S4096x256) S4096x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x512.size a ≤ S4096x4096.size a
  hwx2_0 : ∀ i : grid2.Coords, EltTy.bits .bf16 = 32 ∨ (Rect.block (s := S4096x4096) S4096x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S4096x256.size a
  hwx2_1 : ∀ i : grid2.Coords, EltTy.bits .f32 = 32 ∨ (Rect.block (s := S4096x256) S512x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S512x1.size a ≤ S4096x1.size a
  hwx2_2 : ∀ i : grid2.Coords, EltTy.bits .f32 = 32 ∨ (Rect.block (s := S4096x1) S512x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S4096x1.size a ≤ S4096x1.size a
  hwx2_3 : ∀ i : grid2.Coords, EltTy.bits .f32 = 32 ∨ (Rect.block (s := S4096x1) S4096x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S4096x256.size a ≤ S4096x256.size a
  hwx2_4 : ∀ i : grid2.Coords, EltTy.bits .f32 = 32 ∨ (Rect.block (s := S4096x256) S4096x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S4096x256.size a ≤ S4096x256.size a
  hwx2_5 : ∀ i : grid2.Coords, EltTy.bits .f32 = 32 ∨ (Rect.block (s := S4096x256) S4096x256.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x32.size a ≤ S32768x32.size a
  hwx3_0 : ∀ i : grid3.Coords, EltTy.bits .f32 = 32 ∨ (Rect.block (s := S32768x32) S4096x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4096x32.size a ≤ S32768x32.size a
  hwx3_1 : ∀ i : grid3.Coords, EltTy.bits .f32 = 32 ∨ (Rect.block (s := S32768x32) S4096x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x32.size a ≤ S32768x32.size a
  hwx3_2 : ∀ i : grid3.Coords, EltTy.bits .f32 = 32 ∨ (Rect.block (s := S32768x32) S4096x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x32x16.size a ≤ S3x32x16.size a
  hwx3_3 : ∀ i : grid3.Coords, EltTy.bits .f32 = 32 ∨ (Rect.block (s := S3x32x16) S3x32x16.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S3x32x16.size a ≤ S3x32x16.size a
  hwx3_4 : ∀ i : grid3.Coords, EltTy.bits .f32 = 32 ∨ (Rect.block (s := S3x32x16) S3x32x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x16.size a ≤ S1x16.size a
  hwx3_6 : ∀ i : grid3.Coords, EltTy.bits .f32 = 32 ∨ (Rect.block (s := S1x16) S1x16.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S4096x16.size a ≤ S32768x16.size a
  hwx3_7 : ∀ i : grid3.Coords, EltTy.bits .f32 = 32 ∨ (Rect.block (s := S32768x16) S4096x16.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S4096x16.size a ≤ S32768x16.size a
  hwx3_8 : ∀ i : grid3.Coords, EltTy.bits .f32 = 32 ∨ (Rect.block (s := S32768x16) S4096x16.size (cc3_transform_8 i) (hinb3_8 i)).WholeWords (EltTy.packing .f32)
  hstage3_9 : ∀ j, (stage3_9 j).IsWhole
  nbuf3_9 : grid3.bufCount reads3_9 false = 2
  hreads3_9 : ∀ i i' : grid3.Coords, (∀ a, reads3_9 a = true → i a = i' a) → cc3_transform_9 i = cc3_transform_9 i'
  hinb3_9 : ∀ (i : grid3.Coords) a, (cc3_transform_9 i a + 1) * S4096x16.size a ≤ S32768x16.size a
  hwx3_9 : ∀ i : grid3.Coords, EltTy.bits .f32 = 32 ∨ (Rect.block (s := S32768x16) S4096x16.size (cc3_transform_9 i) (hinb3_9 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x512.size a ≤ S4096x4096.size a
  hwx4_0 : ∀ i : grid4.Coords, EltTy.bits .bf16 = 32 ∨ (Rect.block (s := S4096x4096) S4096x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x256.size a ≤ S4096x256.size a
  hwx4_1 : ∀ i : grid4.Coords, EltTy.bits .f32 = 32 ∨ (Rect.block (s := S4096x256) S512x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S512x1.size a ≤ S4096x1.size a
  hwx4_2 : ∀ i : grid4.Coords, EltTy.bits .f32 = 32 ∨ (Rect.block (s := S4096x1) S512x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S4096x1.size a ≤ S4096x1.size a
  hwx4_3 : ∀ i : grid4.Coords, EltTy.bits .f32 = 32 ∨ (Rect.block (s := S4096x1) S4096x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S4096x256.size a ≤ S4096x256.size a
  hwx4_4 : ∀ i : grid4.Coords, EltTy.bits .f32 = 32 ∨ (Rect.block (s := S4096x256) S4096x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S4096x256.size a ≤ S4096x256.size a
  hwx4_5 : ∀ i : grid4.Coords, EltTy.bits .f32 = 32 ∨ (Rect.block (s := S4096x256) S4096x256.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S4096x512.size a ≤ S4096x4096.size a
  hwx5_0 : ∀ i : grid5.Coords, EltTy.bits .bf16 = 32 ∨ (Rect.block (s := S4096x4096) S4096x512.size (cc5_transform_0 i) (hinb5_0 i)).WholeWords (EltTy.packing .bf16)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S512x256.size a ≤ S4096x256.size a
  hwx5_1 : ∀ i : grid5.Coords, EltTy.bits .f32 = 32 ∨ (Rect.block (s := S4096x256) S512x256.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S512x1.size a ≤ S4096x1.size a
  hwx5_2 : ∀ i : grid5.Coords, EltTy.bits .f32 = 32 ∨ (Rect.block (s := S4096x1) S512x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S4096x1.size a ≤ S4096x1.size a
  hwx5_3 : ∀ i : grid5.Coords, EltTy.bits .f32 = 32 ∨ (Rect.block (s := S4096x1) S4096x1.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S4096x256.size a ≤ S4096x256.size a
  hwx5_4 : ∀ i : grid5.Coords, EltTy.bits .f32 = 32 ∨ (Rect.block (s := S4096x256) S4096x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S4096x256.size a ≤ S4096x256.size a
  hwx5_5 : ∀ i : grid5.Coords, EltTy.bits .f32 = 32 ∨ (Rect.block (s := S4096x256) S4096x256.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4096x32.size a ≤ S32768x32.size a
  hwx6_0 : ∀ i : grid6.Coords, EltTy.bits .f32 = 32 ∨ (Rect.block (s := S32768x32) S4096x32.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4096x32.size a ≤ S32768x32.size a
  hwx6_1 : ∀ i : grid6.Coords, EltTy.bits .f32 = 32 ∨ (Rect.block (s := S32768x32) S4096x32.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4096x32.size a ≤ S32768x32.size a
  hwx6_2 : ∀ i : grid6.Coords, EltTy.bits .f32 = 32 ∨ (Rect.block (s := S32768x32) S4096x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S3x32x16.size a ≤ S3x32x16.size a
  hwx6_3 : ∀ i : grid6.Coords, EltTy.bits .f32 = 32 ∨ (Rect.block (s := S3x32x16) S3x32x16.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x16.size a ≤ S1x16.size a
  hwx6_4 : ∀ i : grid6.Coords, EltTy.bits .f32 = 32 ∨ (Rect.block (s := S1x16) S1x16.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S4096x16.size a ≤ S32768x16.size a
  hwx6_5 : ∀ i : grid6.Coords, EltTy.bits .f32 = 32 ∨ (Rect.block (s := S32768x16) S4096x16.size (cc6_transform_5 i) (hinb6_5 i)).WholeWords (EltTy.packing .f32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S4096x16.size a ≤ S32768x16.size a
  hwx6_6 : ∀ i : grid6.Coords, EltTy.bits .f32 = 32 ∨ (Rect.block (s := S32768x16) S4096x16.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S4096x16.size a ≤ S32768x16.size a
  hwx6_7 : ∀ i : grid6.Coords, EltTy.bits .f32 = 32 ∨ (Rect.block (s := S32768x16) S4096x16.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S4096x512.size a ≤ S4096x4096.size a
  hwx7_0 : ∀ i : grid7.Coords, EltTy.bits .bf16 = 32 ∨ (Rect.block (s := S4096x4096) S4096x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x256.size a ≤ S4096x256.size a
  hwx7_1 : ∀ i : grid7.Coords, EltTy.bits .f32 = 32 ∨ (Rect.block (s := S4096x256) S512x256.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S512x1.size a ≤ S4096x1.size a
  hwx7_2 : ∀ i : grid7.Coords, EltTy.bits .f32 = 32 ∨ (Rect.block (s := S4096x1) S512x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S4096x1.size a ≤ S4096x1.size a
  hwx7_3 : ∀ i : grid7.Coords, EltTy.bits .f32 = 32 ∨ (Rect.block (s := S4096x1) S4096x1.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S4096x256.size a ≤ S4096x256.size a
  hwx7_4 : ∀ i : grid7.Coords, EltTy.bits .f32 = 32 ∨ (Rect.block (s := S4096x256) S4096x256.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S4096x256.size a ≤ S4096x256.size a
  hwx7_5 : ∀ i : grid7.Coords, EltTy.bits .f32 = 32 ∨ (Rect.block (s := S4096x256) S4096x256.size (cc7_transform_5 i) (hinb7_5 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S4096x512.size a ≤ S4096x4096.size a
  hwx8_0 : ∀ i : grid8.Coords, EltTy.bits .bf16 = 32 ∨ (Rect.block (s := S4096x4096) S4096x512.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x256.size a ≤ S4096x256.size a
  hwx8_1 : ∀ i : grid8.Coords, EltTy.bits .f32 = 32 ∨ (Rect.block (s := S4096x256) S512x256.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S512x1.size a ≤ S4096x1.size a
  hwx8_2 : ∀ i : grid8.Coords, EltTy.bits .f32 = 32 ∨ (Rect.block (s := S4096x1) S512x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S4096x1.size a ≤ S4096x1.size a
  hwx8_3 : ∀ i : grid8.Coords, EltTy.bits .f32 = 32 ∨ (Rect.block (s := S4096x1) S4096x1.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S4096x256.size a ≤ S4096x256.size a
  hwx8_4 : ∀ i : grid8.Coords, EltTy.bits .f32 = 32 ∨ (Rect.block (s := S4096x256) S4096x256.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S4096x256.size a ≤ S4096x256.size a
  hwx8_5 : ∀ i : grid8.Coords, EltTy.bits .f32 = 32 ∨ (Rect.block (s := S4096x256) S4096x256.size (cc8_transform_5 i) (hinb8_5 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4096x32.size a ≤ S32768x32.size a
  hwx9_0 : ∀ i : grid9.Coords, EltTy.bits .f32 = 32 ∨ (Rect.block (s := S32768x32) S4096x32.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4096x32.size a ≤ S32768x32.size a
  hwx9_1 : ∀ i : grid9.Coords, EltTy.bits .f32 = 32 ∨ (Rect.block (s := S32768x32) S4096x32.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S4096x32.size a ≤ S32768x32.size a
  hwx9_2 : ∀ i : grid9.Coords, EltTy.bits .f32 = 32 ∨ (Rect.block (s := S32768x32) S4096x32.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S3x32x16.size a ≤ S3x32x16.size a
  hwx9_3 : ∀ i : grid9.Coords, EltTy.bits .f32 = 32 ∨ (Rect.block (s := S3x32x16) S3x32x16.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S3x32x16.size a ≤ S3x32x16.size a
  hwx9_4 : ∀ i : grid9.Coords, EltTy.bits .f32 = 32 ∨ (Rect.block (s := S3x32x16) S3x32x16.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S1x16.size a ≤ S1x16.size a
  hwx9_5 : ∀ i : grid9.Coords, EltTy.bits .f32 = 32 ∨ (Rect.block (s := S1x16) S1x16.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x16.size a ≤ S1x16.size a
  hwx9_6 : ∀ i : grid9.Coords, EltTy.bits .f32 = 32 ∨ (Rect.block (s := S1x16) S1x16.size (cc9_transform_6 i) (hinb9_6 i)).WholeWords (EltTy.packing .f32)
  hstage9_7 : ∀ j, (stage9_7 j).IsWhole
  nbuf9_7 : grid9.bufCount reads9_7 false = 2
  hreads9_7 : ∀ i i' : grid9.Coords, (∀ a, reads9_7 a = true → i a = i' a) → cc9_transform_7 i = cc9_transform_7 i'
  hinb9_7 : ∀ (i : grid9.Coords) a, (cc9_transform_7 i a + 1) * S4096x16.size a ≤ S32768x16.size a
  hwx9_7 : ∀ i : grid9.Coords, EltTy.bits .f32 = 32 ∨ (Rect.block (s := S32768x16) S4096x16.size (cc9_transform_7 i) (hinb9_7 i)).WholeWords (EltTy.packing .f32)
  hstage9_8 : ∀ j, (stage9_8 j).IsWhole
  nbuf9_8 : grid9.bufCount reads9_8 false = 2
  hreads9_8 : ∀ i i' : grid9.Coords, (∀ a, reads9_8 a = true → i a = i' a) → cc9_transform_8 i = cc9_transform_8 i'
  hinb9_8 : ∀ (i : grid9.Coords) a, (cc9_transform_8 i a + 1) * S4096x16.size a ≤ S32768x16.size a
  hwx9_8 : ∀ i : grid9.Coords, EltTy.bits .f32 = 32 ∨ (Rect.block (s := S32768x16) S4096x16.size (cc9_transform_8 i) (hinb9_8 i)).WholeWords (EltTy.packing .f32)
  hstage9_9 : ∀ j, (stage9_9 j).IsWhole
  nbuf9_9 : grid9.bufCount reads9_9 false = 2
  hreads9_9 : ∀ i i' : grid9.Coords, (∀ a, reads9_9 a = true → i a = i' a) → cc9_transform_9 i = cc9_transform_9 i'
  hinb9_9 : ∀ (i : grid9.Coords) a, (cc9_transform_9 i a + 1) * S4096x16.size a ≤ S32768x16.size a
  hwx9_9 : ∀ i : grid9.Coords, EltTy.bits .f32 = 32 ∨ (Rect.block (s := S32768x16) S4096x16.size (cc9_transform_9 i) (hinb9_9 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S4096x512.size a ≤ S4096x4096.size a
  hwx10_0 : ∀ i : grid10.Coords, EltTy.bits .bf16 = 32 ∨ (Rect.block (s := S4096x4096) S4096x512.size (cc10_transform_0 i) (hinb10_0 i)).WholeWords (EltTy.packing .bf16)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S512x256.size a ≤ S4096x256.size a
  hwx10_1 : ∀ i : grid10.Coords, EltTy.bits .f32 = 32 ∨ (Rect.block (s := S4096x256) S512x256.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S512x1.size a ≤ S4096x1.size a
  hwx10_2 : ∀ i : grid10.Coords, EltTy.bits .f32 = 32 ∨ (Rect.block (s := S4096x1) S512x1.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S4096x1.size a ≤ S4096x1.size a
  hwx10_3 : ∀ i : grid10.Coords, EltTy.bits .f32 = 32 ∨ (Rect.block (s := S4096x1) S4096x1.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S4096x256.size a ≤ S4096x256.size a
  hwx10_4 : ∀ i : grid10.Coords, EltTy.bits .f32 = 32 ∨ (Rect.block (s := S4096x256) S4096x256.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S4096x256.size a ≤ S4096x256.size a
  hwx10_5 : ∀ i : grid10.Coords, EltTy.bits .f32 = 32 ∨ (Rect.block (s := S4096x256) S4096x256.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S4096x512.size a ≤ S4096x4096.size a
  hwx11_0 : ∀ i : grid11.Coords, EltTy.bits .bf16 = 32 ∨ (Rect.block (s := S4096x4096) S4096x512.size (cc11_transform_0 i) (hinb11_0 i)).WholeWords (EltTy.packing .bf16)
  hstage11_1 : ∀ j, (stage11_1 j).IsWhole
  nbuf11_1 : grid11.bufCount reads11_1 false = 2
  hreads11_1 : ∀ i i' : grid11.Coords, (∀ a, reads11_1 a = true → i a = i' a) → cc11_transform_1 i = cc11_transform_1 i'
  hinb11_1 : ∀ (i : grid11.Coords) a, (cc11_transform_1 i a + 1) * S512x256.size a ≤ S4096x256.size a
  hwx11_1 : ∀ i : grid11.Coords, EltTy.bits .f32 = 32 ∨ (Rect.block (s := S4096x256) S512x256.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S512x1.size a ≤ S4096x1.size a
  hwx11_2 : ∀ i : grid11.Coords, EltTy.bits .f32 = 32 ∨ (Rect.block (s := S4096x1) S512x1.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S4096x1.size a ≤ S4096x1.size a
  hwx11_3 : ∀ i : grid11.Coords, EltTy.bits .f32 = 32 ∨ (Rect.block (s := S4096x1) S4096x1.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S4096x256.size a ≤ S4096x256.size a
  hwx11_4 : ∀ i : grid11.Coords, EltTy.bits .f32 = 32 ∨ (Rect.block (s := S4096x256) S4096x256.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S4096x256.size a ≤ S4096x256.size a
  hwx11_5 : ∀ i : grid11.Coords, EltTy.bits .f32 = 32 ∨ (Rect.block (s := S4096x256) S4096x256.size (cc11_transform_5 i) (hinb11_5 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4096x32.size a ≤ S32768x32.size a
  hwx12_0 : ∀ i : grid12.Coords, EltTy.bits .f32 = 32 ∨ (Rect.block (s := S32768x32) S4096x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4096x32.size a ≤ S32768x32.size a
  hwx12_1 : ∀ i : grid12.Coords, EltTy.bits .f32 = 32 ∨ (Rect.block (s := S32768x32) S4096x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S4096x32.size a ≤ S32768x32.size a
  hwx12_2 : ∀ i : grid12.Coords, EltTy.bits .f32 = 32 ∨ (Rect.block (s := S32768x32) S4096x32.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S3x32x16.size a ≤ S3x32x16.size a
  hwx12_3 : ∀ i : grid12.Coords, EltTy.bits .f32 = 32 ∨ (Rect.block (s := S3x32x16) S3x32x16.size (cc12_transform_3 i) (hinb12_3 i)).WholeWords (EltTy.packing .f32)
  hstage12_4 : ∀ j, (stage12_4 j).IsWhole
  nbuf12_4 : grid12.bufCount reads12_4 true = 1
  hreads12_4 : ∀ i i' : grid12.Coords, (∀ a, reads12_4 a = true → i a = i' a) → cc12_transform_4 i = cc12_transform_4 i'
  hinb12_4 : ∀ (i : grid12.Coords) a, (cc12_transform_4 i a + 1) * S1x16.size a ≤ S1x16.size a
  hwx12_4 : ∀ i : grid12.Coords, EltTy.bits .f32 = 32 ∨ (Rect.block (s := S1x16) S1x16.size (cc12_transform_4 i) (hinb12_4 i)).WholeWords (EltTy.packing .f32)
  hstage12_5 : ∀ j, (stage12_5 j).IsWhole
  nbuf12_5 : grid12.bufCount reads12_5 false = 2
  hreads12_5 : ∀ i i' : grid12.Coords, (∀ a, reads12_5 a = true → i a = i' a) → cc12_transform_5 i = cc12_transform_5 i'
  hinb12_5 : ∀ (i : grid12.Coords) a, (cc12_transform_5 i a + 1) * S4096x16.size a ≤ S32768x16.size a
  hwx12_5 : ∀ i : grid12.Coords, EltTy.bits .f32 = 32 ∨ (Rect.block (s := S32768x16) S4096x16.size (cc12_transform_5 i) (hinb12_5 i)).WholeWords (EltTy.packing .f32)
  hstage12_6 : ∀ j, (stage12_6 j).IsWhole
  nbuf12_6 : grid12.bufCount reads12_6 false = 2
  hreads12_6 : ∀ i i' : grid12.Coords, (∀ a, reads12_6 a = true → i a = i' a) → cc12_transform_6 i = cc12_transform_6 i'
  hinb12_6 : ∀ (i : grid12.Coords) a, (cc12_transform_6 i a + 1) * S4096x16.size a ≤ S32768x16.size a
  hwx12_6 : ∀ i : grid12.Coords, EltTy.bits .f32 = 32 ∨ (Rect.block (s := S32768x16) S4096x16.size (cc12_transform_6 i) (hinb12_6 i)).WholeWords (EltTy.packing .f32)
  hstage12_7 : ∀ j, (stage12_7 j).IsWhole
  nbuf12_7 : grid12.bufCount reads12_7 false = 2
  hreads12_7 : ∀ i i' : grid12.Coords, (∀ a, reads12_7 a = true → i a = i' a) → cc12_transform_7 i = cc12_transform_7 i'
  hinb12_7 : ∀ (i : grid12.Coords) a, (cc12_transform_7 i a + 1) * S4096x16.size a ≤ S32768x16.size a
  hwx12_7 : ∀ i : grid12.Coords, EltTy.bits .f32 = 32 ∨ (Rect.block (s := S32768x16) S4096x16.size (cc12_transform_7 i) (hinb12_7 i)).WholeWords (EltTy.packing .f32)

variable [Facts₀]

def dot_S4096x512_S512x256_S4096x256_1_0_0_1_n_n : DotDims S4096x512 S512x256 S4096x256 where
  lhsContracting := [1]
  rhsContracting := [0]
  lhsNonContracting := [0]
  rhsNonContracting := [1]
  lhsBatch := []
  rhsBatch := []
  wf := dot_S4096x512_S512x256_S4096x256_1_0_0_1_n_n_wf
def dot_S4096x32_S32x16_S4096x16_1_0_0_1_n_n : DotDims S4096x32 S32x16 S4096x16 where
  lhsContracting := [1]
  rhsContracting := [0]
  lhsNonContracting := [0]
  rhsNonContracting := [1]
  lhsBatch := []
  rhsBatch := []
  wf := dot_S4096x32_S32x16_S4096x16_1_0_0_1_n_n_wf

abbrev win0_0 : Pipeline.Window sig grid0 :=
  Pipeline.Window.ofSpec (Memref.whole main_arg2) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v0_0) S4096x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_1) S512x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v0_1) S4096x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S4096x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S4096x256.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v0_0) S4096x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v0_1) S512x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v0_1) S4096x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v23) S4096x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S4096x256.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v26) S4096x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S4096x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v28) S4096x32.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v6) S3x32x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v7) S3x32x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v9) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v11) S1x16.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v20) S4096x16.size cc3_transform_7 reads3_7 false false 2 stage3_7 sem3_7
    hrank3 hreads3_7 hinb3_7 nbuf3_7 (Memref.isWhole_whole _) hwx3_7 hstage3_7

abbrev win3_8 : Pipeline.Window sig grid3 :=
  Pipeline.Window.ofSpec (Memref.whole main_v29_0) S4096x16.size cc3_transform_8 reads3_8 true false 2 stage3_8 sem3_8
    hrank3 hreads3_8 hinb3_8 nbuf3_8 (Memref.isWhole_whole _) hwx3_8 hstage3_8

abbrev win3_9 : Pipeline.Window sig grid3 :=
  Pipeline.Window.ofSpec (Memref.whole main_v29_1) S4096x16.size cc3_transform_9 reads3_9 true false 2 stage3_9 sem3_9
    hrank3 hreads3_9 hinb3_9 nbuf3_9 (Memref.isWhole_whole _) hwx3_9 hstage3_9

abbrev win3 : Fin 10 → Pipeline.Window sig grid3 := fun | 0 => win3_0 | 1 => win3_1 | 2 => win3_2 | 3 => win3_3 | 4 => win3_4 | 5 => win3_5 | 6 => win3_6 | 7 => win3_7 | 8 => win3_8 | 9 => win3_9 | ⟨_ + 10, h⟩ => absurd h (Nat.not_lt.2 (Nat.le_add_left _ _))
abbrev spec3 : Fin 10 → Pipeline.WinSpec sig grid3.rank := fun w => (win3 w).toWinSpec

abbrev win4_0 : Pipeline.Window sig grid4 :=
  Pipeline.Window.ofSpec (Memref.whole main_v0_0) S4096x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S512x256.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v0_1) S512x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v0_1) S4096x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v33) S4096x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v34) S4096x256.size cc4_transform_5 reads4_5 true true 1 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v0_0) S4096x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v34) S512x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v0_1) S512x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v0_1) S4096x1.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v33) S4096x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v35) S4096x256.size cc5_transform_5 reads5_5 true true 1 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v36) S4096x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v37) S4096x32.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v38) S4096x32.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v14) S3x32x16.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v15) S1x16.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v29_1) S4096x16.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v20) S4096x16.size cc6_transform_6 reads6_6 false false 2 stage6_6 sem6_6
    hrank6 hreads6_6 hinb6_6 nbuf6_6 (Memref.isWhole_whole _) hwx6_6 hstage6_6

abbrev win6_7 : Pipeline.Window sig grid6 :=
  Pipeline.Window.ofSpec (Memref.whole main_v39) S4096x16.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v0_0) S4096x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v63) S512x256.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v0_1) S512x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v0_1) S4096x1.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v63) S4096x256.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v64) S4096x256.size cc7_transform_5 reads7_5 true true 1 stage7_5 sem7_5
    hrank7 hreads7_5 hinb7_5 nbuf7_5 (Memref.isWhole_whole _) hwx7_5 hstage7_5

abbrev win7 : Fin 6 → Pipeline.Window sig grid7 := fun | 0 => win7_0 | 1 => win7_1 | 2 => win7_2 | 3 => win7_3 | 4 => win7_4 | 5 => win7_5 | ⟨_ + 6, h⟩ => absurd h (Nat.not_lt.2 (Nat.le_add_left _ _))
abbrev spec7 : Fin 6 → Pipeline.WinSpec sig grid7.rank := fun w => (win7 w).toWinSpec

abbrev win8_0 : Pipeline.Window sig grid8 :=
  Pipeline.Window.ofSpec (Memref.whole main_v0_0) S4096x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v64) S512x256.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v0_1) S512x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v0_1) S4096x1.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v63) S4096x256.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v65) S4096x256.size cc8_transform_5 reads8_5 true true 1 stage8_5 sem8_5
    hrank8 hreads8_5 hinb8_5 nbuf8_5 (Memref.isWhole_whole _) hwx8_5 hstage8_5

abbrev win8 : Fin 6 → Pipeline.Window sig grid8 := fun | 0 => win8_0 | 1 => win8_1 | 2 => win8_2 | 3 => win8_3 | 4 => win8_4 | 5 => win8_5 | ⟨_ + 6, h⟩ => absurd h (Nat.not_lt.2 (Nat.le_add_left _ _))
abbrev spec8 : Fin 6 → Pipeline.WinSpec sig grid8.rank := fun w => (win8 w).toWinSpec

abbrev win9_0 : Pipeline.Window sig grid9 :=
  Pipeline.Window.ofSpec (Memref.whole main_v66) S4096x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v67) S4096x32.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v68) S4096x32.size cc9_transform_2 reads9_2 false false 2 stage9_2 sem9_2
    hrank9 hreads9_2 hinb9_2 nbuf9_2 (Memref.isWhole_whole _) hwx9_2 hstage9_2

abbrev win9_3 : Pipeline.Window sig grid9 :=
  Pipeline.Window.ofSpec (Memref.whole main_v46) S3x32x16.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v47) S3x32x16.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v49) S1x16.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v51) S1x16.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_v60) S4096x16.size cc9_transform_7 reads9_7 false false 2 stage9_7 sem9_7
    hrank9 hreads9_7 hinb9_7 nbuf9_7 (Memref.isWhole_whole _) hwx9_7 hstage9_7

abbrev win9_8 : Pipeline.Window sig grid9 :=
  Pipeline.Window.ofSpec (Memref.whole main_v69_0) S4096x16.size cc9_transform_8 reads9_8 true false 2 stage9_8 sem9_8
    hrank9 hreads9_8 hinb9_8 nbuf9_8 (Memref.isWhole_whole _) hwx9_8 hstage9_8

abbrev win9_9 : Pipeline.Window sig grid9 :=
  Pipeline.Window.ofSpec (Memref.whole main_v69_1) S4096x16.size cc9_transform_9 reads9_9 true false 2 stage9_9 sem9_9
    hrank9 hreads9_9 hinb9_9 nbuf9_9 (Memref.isWhole_whole _) hwx9_9 hstage9_9

abbrev win9 : Fin 10 → Pipeline.Window sig grid9 := fun | 0 => win9_0 | 1 => win9_1 | 2 => win9_2 | 3 => win9_3 | 4 => win9_4 | 5 => win9_5 | 6 => win9_6 | 7 => win9_7 | 8 => win9_8 | 9 => win9_9 | ⟨_ + 10, h⟩ => absurd h (Nat.not_lt.2 (Nat.le_add_left _ _))
abbrev spec9 : Fin 10 → Pipeline.WinSpec sig grid9.rank := fun w => (win9 w).toWinSpec

abbrev win10_0 : Pipeline.Window sig grid10 :=
  Pipeline.Window.ofSpec (Memref.whole main_v0_0) S4096x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v73) S512x256.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v0_1) S512x1.size cc10_transform_2 reads10_2 false false 2 stage10_2 sem10_2
    hrank10 hreads10_2 hinb10_2 nbuf10_2 (Memref.isWhole_whole _) hwx10_2 hstage10_2

abbrev win10_3 : Pipeline.Window sig grid10 :=
  Pipeline.Window.ofSpec (Memref.whole main_v0_1) S4096x1.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v73) S4096x256.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_v74) S4096x256.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v0_0) S4096x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v74) S512x256.size cc11_transform_1 reads11_1 false false 2 stage11_1 sem11_1
    hrank11 hreads11_1 hinb11_1 nbuf11_1 (Memref.isWhole_whole _) hwx11_1 hstage11_1

abbrev win11_2 : Pipeline.Window sig grid11 :=
  Pipeline.Window.ofSpec (Memref.whole main_v0_1) S512x1.size cc11_transform_2 reads11_2 false false 2 stage11_2 sem11_2
    hrank11 hreads11_2 hinb11_2 nbuf11_2 (Memref.isWhole_whole _) hwx11_2 hstage11_2

abbrev win11_3 : Pipeline.Window sig grid11 :=
  Pipeline.Window.ofSpec (Memref.whole main_v0_1) S4096x1.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v73) S4096x256.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v75) S4096x256.size cc11_transform_5 reads11_5 true true 1 stage11_5 sem11_5
    hrank11 hreads11_5 hinb11_5 nbuf11_5 (Memref.isWhole_whole _) hwx11_5 hstage11_5

abbrev win11 : Fin 6 → Pipeline.Window sig grid11 := fun | 0 => win11_0 | 1 => win11_1 | 2 => win11_2 | 3 => win11_3 | 4 => win11_4 | 5 => win11_5 | ⟨_ + 6, h⟩ => absurd h (Nat.not_lt.2 (Nat.le_add_left _ _))
abbrev spec11 : Fin 6 → Pipeline.WinSpec sig grid11.rank := fun w => (win11 w).toWinSpec

abbrev win12_0 : Pipeline.Window sig grid12 :=
  Pipeline.Window.ofSpec (Memref.whole main_v76) S4096x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v77) S4096x32.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v78) S4096x32.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v54) S3x32x16.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v55) S1x16.size cc12_transform_4 reads12_4 false true 1 stage12_4 sem12_4
    hrank12 hreads12_4 hinb12_4 nbuf12_4 (Memref.isWhole_whole _) hwx12_4 hstage12_4

abbrev win12_5 : Pipeline.Window sig grid12 :=
  Pipeline.Window.ofSpec (Memref.whole main_v69_1) S4096x16.size cc12_transform_5 reads12_5 false false 2 stage12_5 sem12_5
    hrank12 hreads12_5 hinb12_5 nbuf12_5 (Memref.isWhole_whole _) hwx12_5 hstage12_5

abbrev win12_6 : Pipeline.Window sig grid12 :=
  Pipeline.Window.ofSpec (Memref.whole main_v60) S4096x16.size cc12_transform_6 reads12_6 false false 2 stage12_6 sem12_6
    hrank12 hreads12_6 hinb12_6 nbuf12_6 (Memref.isWhole_whole _) hwx12_6 hstage12_6

abbrev win12_7 : Pipeline.Window sig grid12 :=
  Pipeline.Window.ofSpec (Memref.whole main_v79) S4096x16.size cc12_transform_7 reads12_7 true false 2 stage12_7 sem12_7
    hrank12 hreads12_7 hinb12_7 nbuf12_7 (Memref.isWhole_whole _) hwx12_7 hstage12_7

abbrev win12 : Fin 8 → Pipeline.Window sig grid12 := fun | 0 => win12_0 | 1 => win12_1 | 2 => win12_2 | 3 => win12_3 | 4 => win12_4 | 5 => win12_5 | 6 => win12_6 | 7 => win12_7 | ⟨_ + 8, h⟩ => absurd h (Nat.not_lt.2 (Nat.le_add_left _ _))
abbrev spec12 : Fin 8 → Pipeline.WinSpec sig grid12.rank := fun w => (win12 w).toWinSpec

class Facts : Prop extends Facts₀ where

variable [Facts]
-- ==== ReferenceIdeal.lean ====
abbrev S8x4096 : Shape := ⟨2, ![8, 4096]⟩
abbrev S2x8x65536 : Shape := ⟨3, ![2, 8, 65536]⟩
abbrev S4096x4096 : Shape := ⟨2, ![4096, 4096]⟩
abbrev S51x32 : Shape := ⟨2, ![51, 32]⟩
abbrev S32 : Shape := ⟨1, ![32]⟩
abbrev S51x16 : Shape := ⟨2, ![51, 16]⟩
abbrev S16 : Shape := ⟨1, ![16]⟩
abbrev S96x32 : Shape := ⟨2, ![96, 32]⟩
abbrev S96x16 : Shape := ⟨2, ![96, 16]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x8x65536 : Shape := ⟨3, ![1, 8, 65536]⟩
abbrev S8x65536 : Shape := ⟨2, ![8, 65536]⟩
abbrev S8x4096x1 : Shape := ⟨3, ![8, 4096, 1]⟩
abbrev S8x4096x16 : Shape := ⟨3, ![8, 4096, 16]⟩
abbrev S8x4096x17 : Shape := ⟨3, ![8, 4096, 17]⟩
abbrev S4096x17x8 : Shape := ⟨3, ![4096, 17, 8]⟩
abbrev S4096x136 : Shape := ⟨2, ![4096, 136]⟩
abbrev S1x4096x136 : Shape := ⟨3, ![1, 4096, 136]⟩
abbrev S3x4096x136 : Shape := ⟨3, ![3, 4096, 136]⟩
abbrev S3x4096x17x8 : Shape := ⟨4, ![3, 4096, 17, 8]⟩
abbrev S8x4096x17x3 : Shape := ⟨4, ![8, 4096, 17, 3]⟩
abbrev S32768x51 : Shape := ⟨2, ![32768, 51]⟩
abbrev S32768x32 : Shape := ⟨2, ![32768, 32]⟩
abbrev S1x32 : Shape := ⟨2, ![1, 32]⟩
abbrev S8x131072 : Shape := ⟨2, ![8, 131072]⟩
abbrev S8x4096x32 : Shape := ⟨3, ![8, 4096, 32]⟩
abbrev S32768x16 : Shape := ⟨2, ![32768, 16]⟩
abbrev S1x16 : Shape := ⟨2, ![1, 16]⟩
abbrev S4096x32x8 : Shape := ⟨3, ![4096, 32, 8]⟩
abbrev S4096x256 : Shape := ⟨2, ![4096, 256]⟩
abbrev S1x4096x256 : Shape := ⟨3, ![1, 4096, 256]⟩
abbrev S3x4096x256 : Shape := ⟨3, ![3, 4096, 256]⟩
abbrev S3x4096x32x8 : Shape := ⟨4, ![3, 4096, 32, 8]⟩
abbrev S8x4096x32x3 : Shape := ⟨4, ![8, 4096, 32, 3]⟩
abbrev S32768x96 : Shape := ⟨2, ![32768, 96]⟩

abbrev nBuf : Space → Nat
  | .hbm => 182
  | .vmem => 0
  | .smem => 0
  | _ => 0

abbrev hbmTy0_0 (i : Nat) : BufTy := match i % 128 with
  | 0 => ⟨S8x4096, .f32⟩
  | 1 => ⟨S2x8x65536, .f32⟩
  | 2 => ⟨S4096x4096, .f32⟩
  | 3 => ⟨S51x32, .f32⟩
  | 4 => ⟨S32, .f32⟩
  | 5 => ⟨S51x16, .f32⟩
  | 6 => ⟨S16, .f32⟩
  | 7 => ⟨S96x32, .f32⟩
  | 8 => ⟨S32, .f32⟩
  | 9 => ⟨S96x16, .f32⟩
  | 10 => ⟨S16, .f32⟩
  | 11 => ⟨S4096x4096, .f32⟩
  | 12 => ⟨S4096x4096, .f32⟩
  | 13 => ⟨S_, .f32⟩
  | 14 => ⟨S4096, .f32⟩
  | 15 => ⟨S_, .f32⟩
  | 16 => ⟨S4096, .f32⟩
  | 17 => ⟨S4096, .i1⟩
  | 18 => ⟨S_, .f32⟩
  | 19 => ⟨S4096, .f32⟩
  | 20 => ⟨S4096, .f32⟩
  | 21 => ⟨S4096, .f32⟩
  | 22 => ⟨S_, .f32⟩
  | 23 => ⟨S_, .f32⟩
  | 24 => ⟨S4096, .f32⟩
  | 25 => ⟨S4096, .f32⟩
  | 26 => ⟨S4096x4096, .i32⟩
  | 27 => ⟨S4096x4096, .i32⟩
  | 28 => ⟨S_, .i32⟩
  | 29 => ⟨S4096x4096, .i32⟩
  | 30 => ⟨S4096x4096, .i32⟩
  | 31 => ⟨S4096x4096, .i1⟩
  | 32 => ⟨S4096x4096, .f32⟩
  | 33 => ⟨S4096x1, .f32⟩
  | 34 => ⟨S4096x4096, .f32⟩
  | 35 => ⟨S4096x4096, .f32⟩
  | 36 => ⟨S1x4096, .f32⟩
  | 37 => ⟨S4096x4096, .f32⟩
  | 38 => ⟨S4096x4096, .f32⟩
  | 39 => ⟨S4096x4096, .f32⟩
  | 40 => ⟨S4096x4096, .f32⟩
  | 41 => ⟨S1x8x65536, .f32⟩
  | 42 => ⟨S8x65536, .f32⟩
  | 43 => ⟨S8x4096x1, .f32⟩
  | 44 => ⟨S8x4096x16, .f32⟩
  | 45 => ⟨S8x4096x17, .f32⟩
  | 46 => ⟨S4096x17x8, .f32⟩
  | 47 => ⟨S4096x136, .f32⟩
  | 48 => ⟨S4096x136, .f32⟩
  | 49 => ⟨S4096x136, .f32⟩
  | 50 => ⟨S_, .f32⟩
  | 51 => ⟨S4096x136, .f32⟩
  | 52 => ⟨S4096x136, .f32⟩
  | 53 => ⟨S4096x136, .f32⟩
  | 54 => ⟨S1x4096x136, .f32⟩
  | 55 => ⟨S1x4096x136, .f32⟩
  | 56 => ⟨S1x4096x136, .f32⟩
  | 57 => ⟨S3x4096x136, .f32⟩
  | 58 => ⟨S3x4096x17x8, .f32⟩
  | 59 => ⟨S8x4096x17x3, .f32⟩
  | 60 => ⟨S32768x51, .f32⟩
  | 61 => ⟨S32768x32, .f32⟩
  | 62 => ⟨S1x32, .f32⟩
  | 63 => ⟨S32768x32, .f32⟩
  | 64 => ⟨S32768x32, .f32⟩
  | 65 => ⟨S8x131072, .f32⟩
  | 66 => ⟨S8x131072, .f32⟩
  | 67 => ⟨S8x131072, .f32⟩
  | 68 => ⟨S_, .f32⟩
  | 69 => ⟨S8x131072, .f32⟩
  | 70 => ⟨S8x131072, .f32⟩
  | 71 => ⟨S_, .f32⟩
  | 72 => ⟨S8x131072, .f32⟩
  | 73 => ⟨S8x131072, .f32⟩
  | 74 => ⟨S8x4096x32, .f32⟩
  | 75 => ⟨S8x4096x16, .f32⟩
  | 76 => ⟨S8x65536, .f32⟩
  | 77 => ⟨S8x4096x16, .f32⟩
  | 78 => ⟨S8x65536, .f32⟩
  | 79 => ⟨S8x65536, .f32⟩
  | 80 => ⟨S8x4096x1, .f32⟩
  | 81 => ⟨S8x4096x16, .f32⟩
  | 82 => ⟨S8x4096x17, .f32⟩
  | 83 => ⟨S4096x17x8, .f32⟩
  | 84 => ⟨S4096x136, .f32⟩
  | 85 => ⟨S4096x136, .f32⟩
  | 86 => ⟨S4096x136, .f32⟩
  | 87 => ⟨S_, .f32⟩
  | 88 => ⟨S4096x136, .f32⟩
  | 89 => ⟨S4096x136, .f32⟩
  | 90 => ⟨S4096x136, .f32⟩
  | 91 => ⟨S1x4096x136, .f32⟩
  | 92 => ⟨S1x4096x136, .f32⟩
  | 93 => ⟨S1x4096x136, .f32⟩
  | 94 => ⟨S3x4096x136, .f32⟩
  | 95 => ⟨S3x4096x17x8, .f32⟩
  | 96 => ⟨S8x4096x17x3, .f32⟩
  | 97 => ⟨S32768x51, .f32⟩
  | 98 => ⟨S32768x16, .f32⟩
  | 99 => ⟨S1x16, .f32⟩
  | 100 => ⟨S32768x16, .f32⟩
  | 101 => ⟨S32768x16, .f32⟩
  | 102 => ⟨S8x65536, .f32⟩
  | 103 => ⟨S8x65536, .f32⟩
  | 104 => ⟨S8x65536, .f32⟩
  | 105 => ⟨S_, .f32⟩
  | 106 => ⟨S8x65536, .f32⟩
  | 107 => ⟨S8x65536, .f32⟩
  | 108 => ⟨S8x65536, .f32⟩
  | 109 => ⟨S8x65536, .f32⟩
  | 110 => ⟨S1x8x65536, .f32⟩
  | 111 => ⟨S8x65536, .f32⟩
  | 112 => ⟨S8x4096x16, .f32⟩
  | 113 => ⟨S8x4096x16, .f32⟩
  | 114 => ⟨S8x4096x32, .f32⟩
  | 115 => ⟨S4096x32x8, .f32⟩
  | 116 => ⟨S4096x256, .f32⟩
  | 117 => ⟨S4096x256, .f32⟩
  | 118 => ⟨S4096x256, .f32⟩
  | 119 => ⟨S_, .f32⟩
  | 120 => ⟨S4096x256, .f32⟩
  | 121 => ⟨S4096x256, .f32⟩
  | 122 => ⟨S4096x256, .f32⟩
  | 123 => ⟨S1x4096x256, .f32⟩
  | 124 => ⟨S1x4096x256, .f32⟩
  | 125 => ⟨S1x4096x256, .f32⟩
  | 126 => ⟨S3x4096x256, .f32⟩
  | 127 => ⟨S3x4096x32x8, .f32⟩
  | _ => ⟨S8x4096, .f32⟩

abbrev hbmTy0_1 (i : Nat) : BufTy := match i % 128 with
  | 0 => ⟨S8x4096x32x3, .f32⟩
  | 1 => ⟨S32768x96, .f32⟩
  | 2 => ⟨S32768x32, .f32⟩
  | 3 => ⟨S1x32, .f32⟩
  | 4 => ⟨S32768x32, .f32⟩
  | 5 => ⟨S32768x32, .f32⟩
  | 6 => ⟨S8x131072, .f32⟩
  | 7 => ⟨S8x131072, .f32⟩
  | 8 => ⟨S8x131072, .f32⟩
  | 9 => ⟨S_, .f32⟩
  | 10 => ⟨S8x131072, .f32⟩
  | 11 => ⟨S8x131072, .f32⟩
  | 12 => ⟨S_, .f32⟩
  | 13 => ⟨S8x131072, .f32⟩
  | 14 => ⟨S8x131072, .f32⟩
  | 15 => ⟨S8x4096x32, .f32⟩
  | 16 => ⟨S8x4096x16, .f32⟩
  | 17 => ⟨S8x65536, .f32⟩
  | 18 => ⟨S8x4096x16, .f32⟩
  | 19 => ⟨S8x65536, .f32⟩
  | 20 => ⟨S8x65536, .f32⟩
  | 21 => ⟨S8x4096x16, .f32⟩
  | 22 => ⟨S8x4096x16, .f32⟩
  | 23 => ⟨S8x4096x32, .f32⟩
  | 24 => ⟨S4096x32x8, .f32⟩
  | 25 => ⟨S4096x256, .f32⟩
  | 26 => ⟨S4096x256, .f32⟩
  | 27 => ⟨S4096x256, .f32⟩
  | 28 => ⟨S_, .f32⟩
  | 29 => ⟨S4096x256, .f32⟩
  | 30 => ⟨S4096x256, .f32⟩
  | 31 => ⟨S4096x256, .f32⟩
  | 32 => ⟨S1x4096x256, .f32⟩
  | 33 => ⟨S1x4096x256, .f32⟩
  | 34 => ⟨S1x4096x256, .f32⟩
  | 35 => ⟨S3x4096x256, .f32⟩
  | 36 => ⟨S3x4096x32x8, .f32⟩
  | 37 => ⟨S8x4096x32x3, .f32⟩
  | 38 => ⟨S32768x96, .f32⟩
  | 39 => ⟨S32768x16, .f32⟩
  | 40 => ⟨S1x16, .f32⟩
  | 41 => ⟨S32768x16, .f32⟩
  | 42 => ⟨S32768x16, .f32⟩
  | 43 => ⟨S8x65536, .f32⟩
  | 44 => ⟨S8x65536, .f32⟩
  | 45 => ⟨S8x65536, .f32⟩
  | 46 => ⟨S_, .f32⟩
  | 47 => ⟨S8x65536, .f32⟩
  | 48 => ⟨S8x65536, .f32⟩
  | 49 => ⟨S8x65536, .f32⟩
  | 50 => ⟨S8x65536, .f32⟩
  | 51 => ⟨S1x8x65536, .f32⟩
  | 52 => ⟨S1x8x65536, .f32⟩
  | 53 => ⟨S2x8x65536, .f32⟩
  | _ => ⟨S8x4096, .f32⟩

abbrev hbmTy (i : Nat) : BufTy := match i / 128 with
  | 0 => hbmTy0_0 i
  | 1 => hbmTy0_1 i
  | _ => ⟨S8x4096, .f32⟩

abbrev bufTy : (tb : Table) → Fin (tcTables nBuf tb) → BufTy
  | .hbm, ⟨i, _⟩ => hbmTy i
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_3 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_6 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_cst_7 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_cst_8 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_9 : Ref sig .tc := ⟨.hbm, 137, rfl⟩
abbrev main_v113 : Ref sig .tc := ⟨.hbm, 138, rfl⟩
abbrev main_v114 : Ref sig .tc := ⟨.hbm, 139, rfl⟩
abbrev main_cst_10 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_cst_11 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_cst_12 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩

abbrev nD : Nat := 1
abbrev τ : Topo := Topo.v7x

variable {F : FTy → Type} [FloatOps F]

class Facts₀ : Prop where
  transposes_S4096x4096_S4096x4096_1_0 : S4096x4096.Transposes [1, 0] S4096x4096
  reducesTo_S4096x4096_S4096_d1 : S4096x4096.ReducesTo [1] S4096
  h_S_ : 0 < S_.numel
  bcast_S_S4096 : S_.BroadcastsInDim S4096 (![] : Fin 0 → Fin S4096.rank)
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S2x8x65536_S1x8x65536_0_0_0 : S2x8x65536.Slices ![0, 0, 0] S1x8x65536
  shapeCasts_S1x8x65536_S8x65536 : S1x8x65536.ShapeCasts S8x65536
  shapeCasts_S8x4096_S8x4096x1 : S8x4096.ShapeCasts S8x4096x1
  shapeCasts_S8x65536_S8x4096x16 : S8x65536.ShapeCasts S8x4096x16
  concatenates_S8x4096x1_S8x4096x16_S8x4096x17_d2 : Shape.Concatenates [S8x4096x1, S8x4096x16] S8x4096x17 2
  transposes_S8x4096x17_S4096x17x8_1_2_0 : S8x4096x17.Transposes [1, 2, 0] S4096x17x8
  shapeCasts_S4096x17x8_S4096x136 : S4096x17x8.ShapeCasts S4096x136
  bcast_S_S4096x136 : S_.BroadcastsInDim S4096x136 (![] : Fin 0 → Fin S4096x136.rank)
  bcast_S4096x136_S1x4096x136_1_2 : S4096x136.BroadcastsInDim S1x4096x136 (![1, 2] : Fin 2 → Fin S1x4096x136.rank)
  concatenates_S1x4096x136_S1x4096x136_S1x4096x136_S3x4096x136_d0 : Shape.Concatenates [S1x4096x136, S1x4096x136, S1x4096x136] S3x4096x136 0
  shapeCasts_S3x4096x136_S3x4096x17x8 : S3x4096x136.ShapeCasts S3x4096x17x8
  transposes_S3x4096x17x8_S8x4096x17x3_3_1_2_0 : S3x4096x17x8.Transposes [3, 1, 2, 0] S8x4096x17x3
  shapeCasts_S8x4096x17x3_S32768x51 : S8x4096x17x3.ShapeCasts S32768x51
  bcast_S32_S1x32_1 : S32.BroadcastsInDim S1x32 (![1] : Fin 1 → Fin S1x32.rank)
  bcast_S1x32_S32768x32_0_1 : S1x32.BroadcastsInDim S32768x32 (![0, 1] : Fin 2 → Fin S32768x32.rank)
  shapeCasts_S32768x32_S8x131072 : S32768x32.ShapeCasts S8x131072
  bcast_S_S8x131072 : S_.BroadcastsInDim S8x131072 (![] : Fin 0 → Fin S8x131072.rank)
  shapeCasts_S8x131072_S8x4096x32 : S8x131072.ShapeCasts S8x4096x32
  slices_S8x4096x32_S8x4096x16_0_0_0 : S8x4096x32.Slices ![0, 0, 0] S8x4096x16
  shapeCasts_S8x4096x16_S8x65536 : S8x4096x16.ShapeCasts S8x65536
  slices_S8x4096x32_S8x4096x16_0_0_16 : S8x4096x32.Slices ![0, 0, 16] S8x4096x16
  bcast_S16_S1x16_1 : S16.BroadcastsInDim S1x16 (![1] : Fin 1 → Fin S1x16.rank)
  bcast_S1x16_S32768x16_0_1 : S1x16.BroadcastsInDim S32768x16 (![0, 1] : Fin 2 → Fin S32768x16.rank)
  shapeCasts_S32768x16_S8x65536 : S32768x16.ShapeCasts S8x65536
  bcast_S_S8x65536 : S_.BroadcastsInDim S8x65536 (![] : Fin 0 → Fin S8x65536.rank)
  slices_S2x8x65536_S1x8x65536_1_0_0 : S2x8x65536.Slices ![1, 0, 0] S1x8x65536
  concatenates_S8x4096x16_S8x4096x16_S8x4096x32_d2 : Shape.Concatenates [S8x4096x16, S8x4096x16] S8x4096x32 2
  transposes_S8x4096x32_S4096x32x8_1_2_0 : S8x4096x32.Transposes [1, 2, 0] S4096x32x8
  shapeCasts_S4096x32x8_S4096x256 : S4096x32x8.ShapeCasts S4096x256
  bcast_S_S4096x256 : S_.BroadcastsInDim S4096x256 (![] : Fin 0 → Fin S4096x256.rank)
  bcast_S4096x256_S1x4096x256_1_2 : S4096x256.BroadcastsInDim S1x4096x256 (![1, 2] : Fin 2 → Fin S1x4096x256.rank)
  concatenates_S1x4096x256_S1x4096x256_S1x4096x256_S3x4096x256_d0 : Shape.Concatenates [S1x4096x256, S1x4096x256, S1x4096x256] S3x4096x256 0
  shapeCasts_S3x4096x256_S3x4096x32x8 : S3x4096x256.ShapeCasts S3x4096x32x8
  transposes_S3x4096x32x8_S8x4096x32x3_3_1_2_0 : S3x4096x32x8.Transposes [3, 1, 2, 0] S8x4096x32x3
  shapeCasts_S8x4096x32x3_S32768x96 : S8x4096x32x3.ShapeCasts S32768x96
  bcast_S8x65536_S1x8x65536_1_2 : S8x65536.BroadcastsInDim S1x8x65536 (![1, 2] : Fin 2 → Fin S1x8x65536.rank)
  concatenates_S1x8x65536_S1x8x65536_S2x8x65536_d0 : Shape.Concatenates [S1x8x65536, S1x8x65536] S2x8x65536 0
  dot_S4096x4096_S4096x136_S4096x136_1_0_0_1_n_n_wf : DotDims.WF S4096x4096 S4096x136 S4096x136 [1] [0] [0] [1] [] []
  dot_S32768x51_S51x32_S32768x32_1_0_0_1_n_n_wf : DotDims.WF S32768x51 S51x32 S32768x32 [1] [0] [0] [1] [] []
  dot_S32768x51_S51x16_S32768x16_1_0_0_1_n_n_wf : DotDims.WF S32768x51 S51x16 S32768x16 [1] [0] [0] [1] [] []
  dot_S4096x4096_S4096x256_S4096x256_1_0_0_1_n_n_wf : DotDims.WF S4096x4096 S4096x256 S4096x256 [1] [0] [0] [1] [] []
  dot_S32768x96_S96x32_S32768x32_1_0_0_1_n_n_wf : DotDims.WF S32768x96 S96x32 S32768x32 [1] [0] [0] [1] [] []
  dot_S32768x96_S96x16_S32768x16_1_0_0_1_n_n_wf : DotDims.WF S32768x96 S96x16 S32768x16 [1] [0] [0] [1] [] []

variable [Facts₀]

def dot_S4096x4096_S4096x136_S4096x136_1_0_0_1_n_n : DotDims S4096x4096 S4096x136 S4096x136 where
  lhsContracting := [1]
  rhsContracting := [0]
  lhsNonContracting := [0]
  rhsNonContracting := [1]
  lhsBatch := []
  rhsBatch := []
  wf := dot_S4096x4096_S4096x136_S4096x136_1_0_0_1_n_n_wf
def dot_S32768x51_S51x32_S32768x32_1_0_0_1_n_n : DotDims S32768x51 S51x32 S32768x32 where
  lhsContracting := [1]
  rhsContracting := [0]
  lhsNonContracting := [0]
  rhsNonContracting := [1]
  lhsBatch := []
  rhsBatch := []
  wf := dot_S32768x51_S51x32_S32768x32_1_0_0_1_n_n_wf
def dot_S32768x51_S51x16_S32768x16_1_0_0_1_n_n : DotDims S32768x51 S51x16 S32768x16 where
  lhsContracting := [1]
  rhsContracting := [0]
  lhsNonContracting := [0]
  rhsNonContracting := [1]
  lhsBatch := []
  rhsBatch := []
  wf := dot_S32768x51_S51x16_S32768x16_1_0_0_1_n_n_wf
def dot_S4096x4096_S4096x256_S4096x256_1_0_0_1_n_n : DotDims S4096x4096 S4096x256 S4096x256 where
  lhsContracting := [1]
  rhsContracting := [0]
  lhsNonContracting := [0]
  rhsNonContracting := [1]
  lhsBatch := []
  rhsBatch := []
  wf := dot_S4096x4096_S4096x256_S4096x256_1_0_0_1_n_n_wf
def dot_S32768x96_S96x32_S32768x32_1_0_0_1_n_n : DotDims S32768x96 S96x32 S32768x32 where
  lhsContracting := [1]
  rhsContracting := [0]
  lhsNonContracting := [0]
  rhsNonContracting := [1]
  lhsBatch := []
  rhsBatch := []
  wf := dot_S32768x96_S96x32_S32768x32_1_0_0_1_n_n_wf
def dot_S32768x96_S96x16_S32768x16_1_0_0_1_n_n : DotDims S32768x96 S96x16 S32768x16 where
  lhsContracting := [1]
  rhsContracting := [0]
  lhsNonContracting := [0]
  rhsNonContracting := [1]
  lhsBatch := []
  rhsBatch := []
  wf := dot_S32768x96_S96x16_S32768x16_1_0_0_1_n_n_wf

class Facts : Prop extends Facts₀ where

variable [Facts]
-- ==== Proof.KReg0Base.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the max-symmetrised adjacency and its row sums), at the entry contents `V`

What the three control cases of the body share: the windows' blocks read off `V`, the two branch conditions in
closed form over the 8 x 8 grid, where the row-sum output window is idle, the staging and scratch memrefs. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the transposed block of the same array). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the column-block coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column-block coordinate is 7). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second conditional fails the row-sum window 3 is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the window is live. -/
theorem liveAt0_3 : ∀ t : Fin cfg0.N, cond0_1 (grid0.coords t) → cfg0.idle 3 (grid0.coords t) = false := by decide +kernel

/-! ## The staging and scratch memrefs -/

/-- One staging buffer of each output window, through which its contents are stated. -/
abbrev VO0_2 : View sig .tc .vmem S512x512 .bf16 := (Memref.whole cc0_stg2_0 : Memref sig .tc .vmem S512x512 .bf16).view
abbrev VO0_3 : View sig .tc .vmem S512x1 .f32 := (Memref.whole cc0_stg3_0 : Memref sig .tc .vmem S512x1 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The scratch accumulator: a whole scoped buffer of the kernel's own, passed beside the windows. -/
abbrev scM0_0 : Memref sig .tc .vmem S512x1 .f32 := Memref.whole cc0_scratch0
/-- The same as a view: what it holds is stated through it. -/
abbrev VS0_0 : View sig .tc .vmem S512x1 .f32 := scM0_0.view

/-- The class invariant with the scratch accumulator as a memref owned at some contents, the other scoped buffers
    (the other regions') unopened. -/
theorem PhiA0_eq (c : Dev nD) :
    (Pipeline.ΦA spec0 c : sProp 𝕄)
      = iprop(iprop(iprop(∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.Kernel.Reg

end
-- ==== Proof.KReg0RunA.lean ====
import proofs.«172830_g53506702573898_cont_9to1_m_1152_4_alg».proof.Proof.KReg0Base

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE A (column block 0: the accumulator is zeroed first, the row-sum window idle). On whole staging memrefs — the two
    input blocks at their contents, the bf16 output at anything, the idle row-sum output at contents handed back
    untouched, the accumulator at anything — the body runs to the continuation holding the inputs as they were, the
    bf16 output and the accumulator with the pieces their stores wrote (last first): the witness the run finds. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) :
    Σ' (L2 : List (View.Piece (Elt F) S512x512 .bf16)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, fun xi3 E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Reg

end
-- ==== Proof.KReg0RunB.lean ====
import proofs.«172830_g53506702573898_cont_9to1_m_1152_4_alg».proof.Proof.KReg0RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE B (column blocks 1 … 6: neither conditional taken). As case A, but the accumulator enters at the contents
    `xs0` the point before left, and is read before it is stored. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) :
    Σ' (L2 : List (View.Piece (Elt F) S512x512 .bf16)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, fun xi3 E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.Kernel.Reg

end
-- ==== Proof.KReg0RunC.lean ====
import proofs.«172830_g53506702573898_cont_9to1_m_1152_4_alg».proof.Proof.KReg0RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE C (column block 7: the second conditional taken). The accumulator enters at the contents `xs0` the point
    before left; the row-sum output enters at anything and leaves with the piece its store wrote. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, ?_, fun E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.Kernel.Reg

end
-- ==== Proof.KReg0Dat.lean ====
import proofs.«172830_g53506702573898_cont_9to1_m_1152_4_alg».proof.Proof.KReg0RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the outputs and the accumulator hold point by point, the proof data, the body obligation -/

/-- Case A's pieces for the bf16 output's staging buffer tile it, so they cover it. -/
theorem cover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) (y : S512x512.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x512.size (by sl_kernel_rfl) y

/-- What case A leaves in the bf16 output's staging buffer: its pieces read back over junk. -/
def out0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) : Vec F S512x512 .bf16 :=
  VO0_2.read (Elt F) (VO0_2.writes (Elt F) VO0_2.junk (kernelRun0_A c i arg2 harg2 arg3 harg3 arg4 harg4 arg5 harg5 arg6 harg6 hc0 hc1 x0 x1).1)

/-- Case A's pieces for the accumulator tile it, so they cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) (y : S512x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x1.size (by sl_kernel_rfl) y

/-- What case A leaves in the accumulator: its pieces read back over junk. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) : Vec F S512x1 .f32 :=
  VS0_0.read (Elt F) (VS0_0.writes (Elt F) VS0_0.junk (kernelRun0_A c i arg2 harg2 arg3 harg3 arg4 harg4 arg5 harg5 arg6 harg6 hc0 hc1 x0 x1).2.1)

/-- Case B's pieces for the bf16 output's staging buffer tile it, so they cover it. -/
theorem cover0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) (y : S512x512.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S512x512.size (by sl_kernel_rfl) y

/-- What case B leaves in the bf16 output's staging buffer: its pieces read back over junk. -/
def out0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) : Vec F S512x512 .bf16 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the accumulator tile it, so they cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) (y : S512x1.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S512x1.size (by sl_kernel_rfl) y

/-- What case B leaves in the accumulator: its pieces read back over junk. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) : Vec F S512x1 .f32 :=
  VS0_0.read (Elt F) (VS0_0.writes (Elt F) VS0_0.junk (kernelRun0_B c i arg2 harg2 arg3 harg3 arg4 harg4 arg5 harg5 arg6 harg6 hc0 hc1 x0 x1 xs0).2.1)

/-- Case C's pieces for the bf16 output's staging buffer tile it, so they cover it. -/
theorem cover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x512.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S512x512.size (by sl_kernel_rfl) y

/-- What case C leaves in the bf16 output's staging buffer: its pieces read back over junk. -/
def out0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x512 .bf16 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the row-sum output's staging buffer tile it, so they cover it. -/
theorem cover0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x1.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S512x1.size (by sl_kernel_rfl) y

/-- What case C leaves in the row-sum output's staging buffer: its pieces read back over junk. -/
def out0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x1 .f32 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator tile it, so they cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S512x1.size (by sl_kernel_rfl) y

/-- What case C leaves in the accumulator: its pieces read back over junk. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x1 .f32 :=
  VS0_0.read (Elt F) (VS0_0.writes (Elt F) VS0_0.junk (kernelRun0_C c i arg2 harg2 arg3 harg3 arg4 harg4 arg5 harg5 arg6 harg6 hc0 hc1 x0 x1 xs0).2.2.1)

/-- Where the row-sum window is idle its buffer is handed back untouched and never written back: a placeholder that
    nothing consults. -/
def idle0_3 : Vec F S512x1 .f32 := VO0_3.read (Elt F) VO0_3.junk

/-! ## What the outputs and the accumulator hold after each point -/

/-- What the bf16 output's buffer, the row-sum output's buffer and the accumulator hold after the body at position `n`:
    the case the closed forms select at `n`, run at the point's memrefs and input blocks, the accumulator entering at
    what this leaves at `n - 1`. -/
def outsAt0 (c : Dev nD) : (n : ℕ) → n < cfg0.N → Vec F S512x512 .bf16 × Vec F S512x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, idle0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), idle0_3, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: over what the point before left in the accumulator. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, idle0_3, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left in the accumulator. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- Before the first point the class invariant (every scoped buffer that is no staging buffer at anything, the
    generator register at some state); afterwards the accumulator at what the point before left in it, the other
    scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of region 0 on core `c`: the arrays as the region finds them (`V`); after the body at point `t`
    each input's buffer at its block and the outputs' at `outsAt0`'s components; the invariant `PhiS0`; nothing
    owed; the two input windows hold their common array by the left and the right half share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- The shares: the two windows on the one input array hold it by halves, the outputs fully. -/
theorem share0_0 (c : Dev nD) : (dat0 V c).share 0 = fullShare.left := by unfold Dat.share; dsimp only [dat0]; rfl
theorem share0_1 (c : Dev nD) : (dat0 V c).share 1 = fullShare.right := by unfold Dat.share; dsimp only [dat0]; rfl
theorem share0_2 (c : Dev nD) : (dat0 V c).share 2 = fullShare := by unfold Dat.share; dsimp only [dat0]; rfl
theorem share0_3 (c : Dev nD) : (dat0 V c).share 3 = fullShare := by unfold Dat.share; dsimp only [dat0]; rfl

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.Kernel.Reg

end
-- ==== Proof.KReg1Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 1 (custom_call 1, `cc1__sapply_body`, pipeline 1) at the entry contents `V`: what its case runs share -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (`k1_h1`): the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): the grid coordinate is 7. -/
abbrev cond1_1 (i : grid1.Coords) : Prop := (Scalar.cmpi .ne (Scalar.extui (Scalar.cmpi .eq (BitVec.ofNat 32 (i 0).val) 7#32)) 0#32) = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging memrefs -/

/-- One staging buffer of output window 5, through which its contents are stated. -/
abbrev VO1_5 : View sig .tc .vmem S4096x256 .f32 := (Memref.whole cc1_stg5_0 : Memref sig .tc .vmem S4096x256 .f32).view
/-- Each window's current staging memref at point `t`, spelled as the pipeline passes it (`bodyAt1`), and its wholeness. -/
abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .f32 := win1_5.stage (cfg1.slots t 5)
abbrev hs1_5 (t : Fin cfg1.N) : (ms1_5 t).IsWhole := hstage1_5 ((cfg1.slots t 5).cast nbuf1_5)

end Cert.Kernel.Reg

end
-- ==== Proof.KReg1RunA.lean ====
import proofs.«172830_g53506702573898_cont_9to1_m_1152_4_alg».proof.Proof.KReg1Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun1_A (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg1RunB.lean ====
import proofs.«172830_g53506702573898_cont_9to1_m_1152_4_alg».proof.Proof.KReg1RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun1_B (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg1RunC.lean ====
import proofs.«172830_g53506702573898_cont_9to1_m_1152_4_alg».proof.Proof.KReg1RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun1_C (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg1Frame.lean ====
import proofs.«172830_g53506702573898_cont_9to1_m_1152_4_alg».proof.Proof.KReg1RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_1 (n : ℕ) (hn : n + 1 < cfg1.N) : ¬ (n + 1) % 8 = 0 := by
  have hN : cfg1.N = 8 := N_1
  omega

/-- Case A's pieces for output 5 tile its block, so they cover it. -/
theorem cover1_A_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun1_A c i arg1 harg1 arg2 harg2 arg3 harg3 arg4 harg4 arg5 harg5 arg6 harg6 hc0 hc1 x0 x1 x2 x3 x4).1, y ∈ pc.1.set :=
  View.cover_of_tiledL (kernelRun1_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out1_A_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) : Vec F S4096x256 .f32 :=
  VO1_5.read (Elt F) (VO1_5.writes (Elt F) VO1_5.junk (kernelRun1_A c i arg1 harg1 arg2 harg2 arg3 harg3 arg4 harg4 arg5 harg5 arg6 harg6 hc0 hc1 x0 x1 x2 x3 x4).1)

/-- Case B's pieces for output 5 tile its block, so they cover it. -/
theorem cover1_B_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun1_B c i arg1 harg1 arg2 harg2 arg3 harg3 arg4 harg4 arg5 harg5 arg6 harg6 hc0 hc1 x0 x1 x2 x3 x4 xo5).1, y ∈ pc.1.set :=
  View.cover_of_tiledL (kernelRun1_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out1_B_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO1_5.read (Elt F) (VO1_5.writes (Elt F) VO1_5.junk (kernelRun1_B c i arg1 harg1 arg2 harg2 arg3 harg3 arg4 harg4 arg5 harg5 arg6 harg6 hc0 hc1 x0 x1 x2 x3 x4 xo5).1)

/-- Case C's pieces for output 5 tile its block, so they cover it. -/
theorem cover1_C_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun1_C c i arg1 harg1 arg2 harg2 arg3 harg3 arg4 harg4 arg5 harg5 arg6 harg6 hc0 hc1 x0 x1 x2 x3 x4 xo5).1, y ∈ pc.1.set :=
  View.cover_of_tiledL (kernelRun1_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out1_C_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO1_5.read (Elt F) (VO1_5.writes (Elt F) VO1_5.junk (kernelRun1_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt1 (c : Dev nD) : (n : ℕ) → n < cfg1.N → Vec F S4096x256 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => absurd ((hcond1_1 ⟨0, hn⟩).mp h) (show ¬ (0 % 8 = 7) by decide)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h1 : (n + 1) % 8 = 7 then
      out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => succ_mod8_1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => succ_mod8_1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- `outsAt1` at the point of case A. -/
theorem outsAt1_A (c : Dev nD) (t : Fin cfg1.N) (h0 : t.val % 8 = 0) (h1 : ¬t.val % 8 = 7) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact absurd h0 (succ_mod8_1 n hn)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt1` at the point of case C: that case's contents, over what the point before left. -/
theorem outsAt1_C (c : Dev nD) (t : Fin cfg1.N) (h0 : ¬t.val % 8 = 0) (h1 : t.val % 8 = 7) :
    outsAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt1`; the invariant the scoped rest and the generator register;
    nothing owed; windows 2 and 3, which read one array, hold it by the left and the right half of the full share, and so
    do windows 1 and 4, which read another; the two remaining windows hold their arrays at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a point after the first, output 5's staging buffer holds what the body left at the point before: the buffer was
    not written back between, the window is live and uncut. -/
theorem before1_5_kept (c : Dev nD) (t : Fin cfg1.N) (h0 : ¬t.val % 8 = 0) (d) :
    (dat1 V c).before 5 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 8 := lt_of_lt_of_eq t.isLt (show cfg1.N = 8 from N_1)
  by_cases h0 : t.val % 8 = 0
  · have h1 : ¬t.val % 8 = 7 := by omega
    rw [outsAt1_A V c t h0 h1]
    unfold out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _ _)
  · by_cases h1 : t.val % 8 = 7
    · rw [outsAt1_C V c t h0 h1]
      simp only [before1_5_kept V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    · rw [outsAt1_B V c t h0 h1]
      simp only [before1_5_kept V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Reg

end
-- ==== Proof.KReg2Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 2 (custom_call 2, `cc2__sapply_body`, pipeline 2) at the entry contents `V`: what its case runs share -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (`k2_h1`): the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (`k2_h2`): the grid coordinate is 7. -/
abbrev cond2_1 (i : grid2.Coords) : Prop := (Scalar.cmpi .ne (Scalar.extui (Scalar.cmpi .eq (BitVec.ofNat 32 (i 0).val) 7#32)) 0#32) = 1#1
/-- It holds at the last point only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## The staging memrefs -/

/-- One staging buffer of output window 5, through which its contents are stated. -/
abbrev VO2_5 : View sig .tc .vmem S4096x256 .f32 := (Memref.whole cc2_stg5_0 : Memref sig .tc .vmem S4096x256 .f32).view
/-- Each window's current staging memref at point `t`, spelled as the pipeline passes it (`bodyAt2`), and its wholeness. -/
abbrev ms2_0 (t : Fin cfg2.N) : Memref sig .tc .vmem S4096x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x256 .f32 := win2_5.stage (cfg2.slots t 5)
abbrev hs2_5 (t : Fin cfg2.N) : (ms2_5 t).IsWhole := hstage2_5 ((cfg2.slots t 5).cast nbuf2_5)

end Cert.Kernel.Reg

end
-- ==== Proof.KReg2RunA.lean ====
import proofs.«172830_g53506702573898_cont_9to1_m_1152_4_alg».proof.Proof.KReg2Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun2_A (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg2RunB.lean ====
import proofs.«172830_g53506702573898_cont_9to1_m_1152_4_alg».proof.Proof.KReg2RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun2_B (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg2RunC.lean ====
import proofs.«172830_g53506702573898_cont_9to1_m_1152_4_alg».proof.Proof.KReg2RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun2_C (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg2Frame.lean ====
import proofs.«172830_g53506702573898_cont_9to1_m_1152_4_alg».proof.Proof.KReg2RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_2 (n : ℕ) (hn : n + 1 < cfg2.N) : ¬ (n + 1) % 8 = 0 := by
  have hN : cfg2.N = 8 := N_2
  omega

/-- Case A's pieces for output 5 tile its block, so they cover it. -/
theorem cover2_A_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun2_A c i arg1 harg1 arg2 harg2 arg3 harg3 arg4 harg4 arg5 harg5 arg6 harg6 hc0 hc1 x0 x1 x2 x3 x4).1, y ∈ pc.1.set :=
  View.cover_of_tiledL (kernelRun2_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out2_A_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) : Vec F S4096x256 .f32 :=
  VO2_5.read (Elt F) (VO2_5.writes (Elt F) VO2_5.junk (kernelRun2_A c i arg1 harg1 arg2 harg2 arg3 harg3 arg4 harg4 arg5 harg5 arg6 harg6 hc0 hc1 x0 x1 x2 x3 x4).1)

/-- Case B's pieces for output 5 tile its block, so they cover it. -/
theorem cover2_B_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun2_B c i arg1 harg1 arg2 harg2 arg3 harg3 arg4 harg4 arg5 harg5 arg6 harg6 hc0 hc1 x0 x1 x2 x3 x4 xo5).1, y ∈ pc.1.set :=
  View.cover_of_tiledL (kernelRun2_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out2_B_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO2_5.read (Elt F) (VO2_5.writes (Elt F) VO2_5.junk (kernelRun2_B c i arg1 harg1 arg2 harg2 arg3 harg3 arg4 harg4 arg5 harg5 arg6 harg6 hc0 hc1 x0 x1 x2 x3 x4 xo5).1)

/-- Case C's pieces for output 5 tile its block, so they cover it. -/
theorem cover2_C_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun2_C c i arg1 harg1 arg2 harg2 arg3 harg3 arg4 harg4 arg5 harg5 arg6 harg6 hc0 hc1 x0 x1 x2 x3 x4 xo5).1, y ∈ pc.1.set :=
  View.cover_of_tiledL (kernelRun2_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out2_C_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO2_5.read (Elt F) (VO2_5.writes (Elt F) VO2_5.junk (kernelRun2_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt2 (c : Dev nD) : (n : ℕ) → n < cfg2.N → Vec F S4096x256 .f32
  | 0, hn => out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => absurd ((hcond2_1 ⟨0, hn⟩).mp h) (show ¬ (0 % 8 = 7) by decide)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h1 : (n + 1) % 8 = 7 then
      out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => succ_mod8_2 n hn ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))
    else
      out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => succ_mod8_2 n hn ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

/-- `outsAt2` at the point of case A. -/
theorem outsAt2_A (c : Dev nD) (t : Fin cfg2.N) (h0 : t.val % 8 = 0) (h1 : ¬t.val % 8 = 7) :
    outsAt2 V c t.val t.isLt = out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t) (iblk2 V c 3 t) (iblk2 V c 4 t) := by
  obtain ⟨n, hn⟩ := t
  cases n with
  | zero => exact rfl
  | succ n => exact absurd h0 (succ_mod8_2 n hn)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt2` at the point of case C: that case's contents, over what the point before left. -/
theorem outsAt2_C (c : Dev nD) (t : Fin cfg2.N) (h0 : ¬t.val % 8 = 0) (h1 : t.val % 8 = 7) :
    outsAt2 V c t.val t.isLt = out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of pipeline 2 on core `c`: the arrays as the region finds them (`V`); after the body at point `t` each
    input's buffer at its block and the output's at `outsAt2`; the invariant the scoped rest and the generator register;
    nothing owed; windows 2 and 3, which read one array, hold it by the left and the right half of the full share,
    every other window its array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt)
  Φ _ := Pipeline.ΦA spec2 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a point after the first, output 5's staging buffer holds what the body left at the point before: the buffer was
    not written back between, the window is live and uncut. -/
theorem before2_5_kept (c : Dev nD) (t : Fin cfg2.N) (h0 : ¬t.val % 8 = 0) (d) :
    (dat2 V c).before 5 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 5 rfl t (by omega) (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 8 := lt_of_lt_of_eq t.isLt (show cfg2.N = 8 from N_2)
  by_cases h0 : t.val % 8 = 0
  · have h1 : ¬t.val % 8 = 7 := by omega
    rw [outsAt2_A V c t h0 h1]
    unfold out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_A_5 c _ _ _ _ _ _ _ _ _ _ _ _ _ _ _ _ _ _ _ _)
  · by_cases h1 : t.val % 8 = 7
    · rw [outsAt2_C V c t h0 h1]
      simp only [before2_5_kept V c t h0]
      unfold out2_C_5
      iintro ⟨HΦ, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _)
    · rw [outsAt2_B V c t h0 h1]
      simp only [before2_5_kept V c t h0]
      unfold out2_B_5
      iintro ⟨HΦ, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.Kernel.Reg

end
-- ==== Proof.KReg3Body.lean ====
/-
  The gate region of the first layer (kernel region 3 of @main, counting from 0) at a parameter `V`, the buffers' contents
  when the region is entered.

  The region has eight grid points; point `t` handles rows 4096·t … 4096·t+4095 of the node-major feature
  matrices. Its body reads three [4096, 32] blocks of diffusion terms, the two [3, 32, 16] weight stacks and the two
  [1, 16] bias rows (each a single block, fetched once), and the [4096, 16] block of the hidden state; it writes two
  [4096, 16] blocks: r ⊙ h with r the logistic of the first pre-activation, and u, the logistic of the second. Every
  load and store is through a literal rectangle and nothing is carried from one point to the next, so what each
  output buffer holds after the body is the canonical contents of its one store over the body's pure payload.
-/
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_x : Rect S4096x32 := Rect.unit (s := S4096x32) ![0, 0] S4096x32.size inb_S4096x32_S4096x32_0_0
abbrev r3_h : Rect S4096x16 := Rect.unit (s := S4096x16) ![0, 0] S4096x16.size inb_S4096x16_S4096x16_0_0
abbrev r3_b : Rect S1x16 := Rect.unit (s := S1x16) ![0, 0] S1x16.size inb_S1x16_S1x16_0_0
abbrev r3_w0 : Rect S3x32x16 := Rect.unit (s := S3x32x16) ![0, 0, 0] S1x32x16.size inb_S3x32x16_S1x32x16_0_0_0
abbrev r3_w1 : Rect S3x32x16 := Rect.unit (s := S3x32x16) ![1, 0, 0] S1x32x16.size inb_S3x32x16_S1x32x16_1_0_0
abbrev r3_w2 : Rect S3x32x16 := Rect.unit (s := S3x32x16) ![2, 0, 0] S1x32x16.size inb_S3x32x16_S1x32x16_2_0_0

/-! ## What the body leaves in each output window's buffer -/

/-- The first output's buffer after the body: logistic of (bias + three products) times the hidden block. -/
def out3_8 (x0 x1 x2 : Vec F S4096x32 .f32) (x3 : Vec F S3x32x16 .f32) (x5 : Vec F S1x16 .f32) (x7 : Vec F S4096x16 .f32) :
    Vec F S4096x16 .f32 :=
  View.canon [⟨r3_h, k3_pay2 (k3_pay5 (View.ld x5 r3_b) (View.ld x0 r3_x) (View.ld x3 r3_w0) (View.ld x1 r3_x) (View.ld x3 r3_w1))
    (k3_pay7 (View.ld x2 r3_x)) (k3_pay8 (View.ld x3 r3_w2)) (View.ld x7 r3_h)⟩]

/-- The second output's buffer after the body: logistic of (bias + three products) with the second weight stack. -/
def out3_9 (x0 x1 x2 : Vec F S4096x32 .f32) (x4 : Vec F S3x32x16 .f32) (x6 : Vec F S1x16 .f32) : Vec F S4096x16 .f32 :=
  View.canon [⟨r3_h, k3_pay1 (k3_pay6 (View.ld x6 r3_b) (View.ld x0 r3_x) (View.ld x4 r3_w0) (View.ld x1 r3_x) (View.ld x4 r3_w1))
    (k3_pay7 (View.ld x2 r3_x)) (View.ld x4 r3_w2)⟩]

/-- One store through the whole-block rectangle covers the block. -/
theorem cover3_h (p0 : Vec F S4096x16 .f32) (y : S4096x16.Idx) :
    ∃ pc ∈ ([⟨r3_h, p0⟩] : List (View.Piece (Elt F) S4096x16 .f32)), y ∈ pc.1.set :=
  View.cover_of_tiled [⟨r3_h, p0⟩] S4096x16.size (by rfl) y

/-! ## The body's triple -/

set_option maxHeartbeats 4000000 in
/-- The body on whole staging memrefs — the inputs' at read contents, the outputs' at anything — runs to the
    continuation holding the inputs' as they were and each output's at its canonical contents. -/
theorem sound_kernel3 (c : Dev nD) (E : Set ℕ) (i : grid3.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S3x32x16 .f32) (harg5 : arg5.IsWhole) (arg6 : Memref sig .tc .vmem S1x16 .f32) (harg6 : arg6.IsWhole)
    (arg7 : Memref sig .tc .vmem S1x16 .f32) (harg7 : arg7.IsWhole) (arg8 : Memref sig .tc .vmem S4096x16 .f32) (harg8 : arg8.IsWhole)
    (arg9 : Memref sig .tc .vmem S4096x16 .f32) (harg9 : arg9.IsWhole) (arg10 : Memref sig .tc .vmem S4096x16 .f32) (harg10 : arg10.IsWhole)
    (x0 x1 x2 : Vec F S4096x32 .f32) (x3 x4 : Vec F S3x32x16 .f32) (x5 x6 : Vec F S1x16 .f32) (x7 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out3_8 x0 x1 x2 x3 x5 x7)
            ∗ owns (c : Thread nD τ) arg10 fullShare (out3_9 x0 x1 x2 x4 x6)) -∗ K ⟨⟩))
      ⊢ wp frame (wpE (defs₀ (F := F)) Variants.none c none) E
          (cc3__gate_body i arg1 harg1 arg2 harg2 arg3 harg3 arg4 harg4 arg5 harg5 arg6 harg6 arg7 harg7 arg8 harg8 arg9 harg9 arg10 harg10) K := by
  simp only [cc3__gate_body_eq_skeleton]; unfold cc3__gate_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover3_h _)
  · iexists _; isplitr
    swap; · iexact H9
    ipureintro
    exact View.read_writes_eq_canon _ _ _ (cover3_h _)

end Region3

end Cert.Kernel.Reg
end
-- ==== Proof.KReg3Data.lean ====
/-
  The gate region of the first layer: its proof data and body obligation at a parameter `V`.

  Each of the eight input windows (three blocks of diffusion terms, two weight stacks, two bias rows, the hidden
  block) is only read, so its staging buffer holds its block of the array at every point whether or not the pipeline
  fetched it there; the two output buffers are overwritten whole at every point. The body obligation at a point is
  then the body's triple at the point's blocks.
-/
import proofs.«172830_g53506702573898_cont_9to1_m_1152_4_alg».proof.Proof.KReg3Body

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Each input window's staging buffer holds its block at every point, fetched there or not -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 5 t) (iblk3 V c 7 t)
    | ⟨9, _⟩ => out3_9 (iblk3 V c 0 t) (iblk3 V c 1 t) (iblk3 V c 2 t) (iblk3 V c 4 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 5 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 4 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.Kernel.Reg
end
-- ==== Proof.KReg4Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 4 (custom_call 4, `cc4__sapply_body`, pipeline 4) at the entry contents `V`: what its case runs share -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## The body's branch conditions -/

/-- The condition of the body's first `scf.if` (`k4_h1`): the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second `scf.if` (`k4_h2`): the grid coordinate is 7. -/
abbrev cond4_1 (i : grid4.Coords) : Prop := (Scalar.cmpi .ne (Scalar.extui (Scalar.cmpi .eq (BitVec.ofNat 32 (i 0).val) 7#32)) 0#32) = 1#1
/-- It holds at the last point only. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## The staging memrefs -/

/-- One staging buffer of output window 5, through which its contents are stated. -/
abbrev VO4_5 : View sig .tc .vmem S4096x256 .f32 := (Memref.whole cc4_stg5_0 : Memref sig .tc .vmem S4096x256 .f32).view
/-- Each window's current staging memref at point `t`, spelled as the pipeline passes it (`bodyAt4`), and its wholeness. -/
abbrev ms4_0 (t : Fin cfg4.N) : Memref sig .tc .vmem S4096x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S4096x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S4096x256 .f32 := win4_5.stage (cfg4.slots t 5)
abbrev hs4_5 (t : Fin cfg4.N) : (ms4_5 t).IsWhole := hstage4_5 ((cfg4.slots t 5).cast nbuf4_5)

end Cert.Kernel.Reg

end
-- ==== Proof.KReg4RunA.lean ====
import proofs.«172830_g53506702573898_cont_9to1_m_1152_4_alg».proof.Proof.KReg4Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun4_A (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg4RunB.lean ====
import proofs.«172830_g53506702573898_cont_9to1_m_1152_4_alg».proof.Proof.KReg4RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun4_B (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg4RunC.lean ====
import proofs.«172830_g53506702573898_cont_9to1_m_1152_4_alg».proof.Proof.KReg4RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun4_C (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg4Frame.lean ====
import proofs.«172830_g53506702573898_cont_9to1_m_1152_4_alg».proof.Proof.KReg4RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_4 (n : ℕ) (hn : n + 1 < cfg4.N) : ¬ (n + 1) % 8 = 0 := by
  have hN : cfg4.N = 8 := N_4
  omega

/-- Case A's pieces for output 5 tile its block, so they cover it. -/
theorem cover4_A_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun4_A c i arg1 harg1 arg2 harg2 arg3 harg3 arg4 harg4 arg5 harg5 arg6 harg6 hc0 hc1 x0 x1 x2 x3 x4).1, y ∈ pc.1.set :=
  View.cover_of_tiledL (kernelRun4_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out4_A_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) : Vec F S4096x256 .f32 :=
  VO4_5.read (Elt F) (VO4_5.writes (Elt F) VO4_5.junk (kernelRun4_A c i arg1 harg1 arg2 harg2 arg3 harg3 arg4 harg4 arg5 harg5 arg6 harg6 hc0 hc1 x0 x1 x2 x3 x4).1)

/-- Case B's pieces for output 5 tile its block, so they cover it. -/
theorem cover4_B_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun4_B c i arg1 harg1 arg2 harg2 arg3 harg3 arg4 harg4 arg5 harg5 arg6 harg6 hc0 hc1 x0 x1 x2 x3 x4 xo5).1, y ∈ pc.1.set :=
  View.cover_of_tiledL (kernelRun4_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out4_B_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO4_5.read (Elt F) (VO4_5.writes (Elt F) VO4_5.junk (kernelRun4_B c i arg1 harg1 arg2 harg2 arg3 harg3 arg4 harg4 arg5 harg5 arg6 harg6 hc0 hc1 x0 x1 x2 x3 x4 xo5).1)

/-- Case C's pieces for output 5 tile its block, so they cover it. -/
theorem cover4_C_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun4_C c i arg1 harg1 arg2 harg2 arg3 harg3 arg4 harg4 arg5 harg5 arg6 harg6 hc0 hc1 x0 x1 x2 x3 x4 xo5).1, y ∈ pc.1.set :=
  View.cover_of_tiledL (kernelRun4_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out4_C_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO4_5.read (Elt F) (VO4_5.writes (Elt F) VO4_5.junk (kernelRun4_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt4 (c : Dev nD) : (n : ℕ) → n < cfg4.N → Vec F S4096x256 .f32
  | 0, hn => out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (fun h => absurd ((hcond4_1 ⟨0, hn⟩).mp h) (show ¬ (0 % 8 = 7) by decide)) (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn =>
    if h1 : (n + 1) % 8 = 7 then
      out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => succ_mod8_4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn))
    else
      out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => succ_mod8_4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn))

/-- `outsAt4` at the point of case A. -/
theorem outsAt4_A (c : Dev nD) (t : Fin cfg4.N) (h0 : t.val % 8 = 0) (h1 : ¬t.val % 8 = 7) :
    outsAt4 V c t.val t.isLt = out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (fun h => h1 ((hcond4_1 t).mp h)) (iblk4 V c 0 t) (iblk4 V c 1 t) (iblk4 V c 2 t) (iblk4 V c 3 t) (iblk4 V c 4 t) := by
  obtain ⟨n, hn⟩ := t
  cases n with
  | zero => exact rfl
  | succ n => exact absurd h0 (succ_mod8_4 n hn)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt4` at the point of case C: that case's contents, over what the point before left. -/
theorem outsAt4_C (c : Dev nD) (t : Fin cfg4.N) (h0 : ¬t.val % 8 = 0) (h1 : t.val % 8 = 7) :
    outsAt4 V c t.val t.isLt = out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt4`; the invariant the scoped rest and the generator register;
    nothing owed; windows 2 and 3, which read one array, hold it by the left and the right half of the full share, and so
    do windows 1 and 4, which read another; the two remaining windows hold their arrays at the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt)
  Φ _ := Pipeline.ΦA spec4 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a point after the first, output 5's staging buffer holds what the body left at the point before: the buffer was
    not written back between, the window is live and uncut. -/
theorem before4_5_kept (c : Dev nD) (t : Fin cfg4.N) (h0 : ¬t.val % 8 = 0) (d) :
    (dat4 V c).before 5 t d = (outsAt4 V c (t.val - 1) (Nat.lt_of_le_of_lt (Nat.sub_le _ _) t.isLt)) := by
  have hN : t.val < 8 := lt_of_lt_of_eq t.isLt (show cfg4.N = 8 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 8 := lt_of_lt_of_eq t.isLt (show cfg4.N = 8 from N_4)
  by_cases h0 : t.val % 8 = 0
  · have h1 : ¬t.val % 8 = 7 := by omega
    rw [outsAt4_A V c t h0 h1]
    unfold out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover4_A_5 c _ _ _ _ _ _ _ _ _ _ _ _ _ _ _ _ _ _ _ _)
  · by_cases h1 : t.val % 8 = 7
    · rw [outsAt4_C V c t h0 h1]
      simp only [before4_5_kept V c t h0]
      unfold out4_C_5
      iintro ⟨HΦ, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover4_C_5 c _ _ _ _ _ _ _ _ _ _ _ _ _ _ _ _ _ _ _ _ _)
    · rw [outsAt4_B V c t h0 h1]
      simp only [before4_5_kept V c t h0]
      unfold out4_B_5
      iintro ⟨HΦ, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover4_B_5 c _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.Kernel.Reg

end
-- ==== Proof.KReg5Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 5 (custom_call 5, `cc5__sapply_body`, pipeline 5) at the entry contents `V`: what its case runs share -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Regions

/-! ## The body's branch conditions -/

/-- The condition of the body's first `scf.if` (`k5_h1`): the grid coordinate is 0. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 8 = 0 :=
  (by decide +kernel : ∀ t : Fin grid5.N, cond5_0 (grid5.coords t) ↔ t.val % 8 = 0)

/-- The condition of the body's second `scf.if` (`k5_h2`): the grid coordinate is 7. -/
abbrev cond5_1 (i : grid5.Coords) : Prop := (Scalar.cmpi .ne (Scalar.extui (Scalar.cmpi .eq (BitVec.ofNat 32 (i 0).val) 7#32)) 0#32) = 1#1
/-- It holds at the last point only. -/
theorem hcond5_1 : ∀ t : Fin cfg5.N, cond5_1 (grid5.coords t) ↔ t.val % 8 = 7 :=
  (by decide +kernel : ∀ t : Fin grid5.N, cond5_1 (grid5.coords t) ↔ t.val % 8 = 7)

/-! ## The staging memrefs -/

/-- One staging buffer of output window 5, through which its contents are stated. -/
abbrev VO5_5 : View sig .tc .vmem S4096x256 .f32 := (Memref.whole cc5_stg5_0 : Memref sig .tc .vmem S4096x256 .f32).view
/-- Each window's current staging memref at point `t`, spelled as the pipeline passes it (`bodyAt5`), and its wholeness. -/
abbrev ms5_0 (t : Fin cfg5.N) : Memref sig .tc .vmem S4096x512 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S4096x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x256 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S4096x256 .f32 := win5_5.stage (cfg5.slots t 5)
abbrev hs5_5 (t : Fin cfg5.N) : (ms5_5 t).IsWhole := hstage5_5 ((cfg5.slots t 5).cast nbuf5_5)

end Cert.Kernel.Reg

end
-- ==== Proof.KReg5RunA.lean ====
import proofs.«172830_g53506702573898_cont_9to1_m_1152_4_alg».proof.Proof.KReg5Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun5_A (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg5RunB.lean ====
import proofs.«172830_g53506702573898_cont_9to1_m_1152_4_alg».proof.Proof.KReg5RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun5_B (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg5RunC.lean ====
import proofs.«172830_g53506702573898_cont_9to1_m_1152_4_alg».proof.Proof.KReg5RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun5_C (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg5Frame.lean ====
import proofs.«172830_g53506702573898_cont_9to1_m_1152_4_alg».proof.Proof.KReg5RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_5 (n : ℕ) (hn : n + 1 < cfg5.N) : ¬ (n + 1) % 8 = 0 := by
  have hN : cfg5.N = 8 := N_5
  omega

/-- Case A's pieces for output 5 tile its block, so they cover it. -/
theorem cover5_A_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun5_A c i arg1 harg1 arg2 harg2 arg3 harg3 arg4 harg4 arg5 harg5 arg6 harg6 hc0 hc1 x0 x1 x2 x3 x4).1, y ∈ pc.1.set :=
  View.cover_of_tiledL (kernelRun5_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out5_A_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) : Vec F S4096x256 .f32 :=
  VO5_5.read (Elt F) (VO5_5.writes (Elt F) VO5_5.junk (kernelRun5_A c i arg1 harg1 arg2 harg2 arg3 harg3 arg4 harg4 arg5 harg5 arg6 harg6 hc0 hc1 x0 x1 x2 x3 x4).1)

/-- Case B's pieces for output 5 tile its block, so they cover it. -/
theorem cover5_B_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun5_B c i arg1 harg1 arg2 harg2 arg3 harg3 arg4 harg4 arg5 harg5 arg6 harg6 hc0 hc1 x0 x1 x2 x3 x4 xo5).1, y ∈ pc.1.set :=
  View.cover_of_tiledL (kernelRun5_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out5_B_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO5_5.read (Elt F) (VO5_5.writes (Elt F) VO5_5.junk (kernelRun5_B c i arg1 harg1 arg2 harg2 arg3 harg3 arg4 harg4 arg5 harg5 arg6 harg6 hc0 hc1 x0 x1 x2 x3 x4 xo5).1)

/-- Case C's pieces for output 5 tile its block, so they cover it. -/
theorem cover5_C_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun5_C c i arg1 harg1 arg2 harg2 arg3 harg3 arg4 harg4 arg5 harg5 arg6 harg6 hc0 hc1 x0 x1 x2 x3 x4 xo5).1, y ∈ pc.1.set :=
  View.cover_of_tiledL (kernelRun5_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out5_C_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO5_5.read (Elt F) (VO5_5.writes (Elt F) VO5_5.junk (kernelRun5_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt5 (c : Dev nD) : (n : ℕ) → n < cfg5.N → Vec F S4096x256 .f32
  | 0, hn => out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => absurd ((hcond5_1 ⟨0, hn⟩).mp h) (show ¬ (0 % 8 = 7) by decide)) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if h1 : (n + 1) % 8 = 7 then
      out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => succ_mod8_5 n hn ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn))
    else
      out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => succ_mod8_5 n hn ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn))

/-- `outsAt5` at the point of case A. -/
theorem outsAt5_A (c : Dev nD) (t : Fin cfg5.N) (h0 : t.val % 8 = 0) (h1 : ¬t.val % 8 = 7) :
    outsAt5 V c t.val t.isLt = out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (iblk5 V c 0 t) (iblk5 V c 1 t) (iblk5 V c 2 t) (iblk5 V c 3 t) (iblk5 V c 4 t) := by
  obtain ⟨n, hn⟩ := t
  cases n with
  | zero => exact rfl
  | succ n => exact absurd h0 (succ_mod8_5 n hn)

/-- `outsAt5` at a point of case B: that case's contents, over what the point before left. -/
theorem outsAt5_B (c : Dev nD) (t : Fin cfg5.N) (h0 : ¬t.val % 8 = 0) (h1 : ¬t.val % 8 = 7) :
    outsAt5 V c t.val t.isLt = out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt5` at the point of case C: that case's contents, over what the point before left. -/
theorem outsAt5_C (c : Dev nD) (t : Fin cfg5.N) (h0 : ¬t.val % 8 = 0) (h1 : t.val % 8 = 7) :
    outsAt5 V c t.val t.isLt = out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt5`; the invariant the scoped rest and the generator register;
    nothing owed; windows 2 and 3, which read one array, hold it by the left and the right half of the full share,
    every other window its array at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt)
  Φ _ := Pipeline.ΦA spec5 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- At a point after the first, output 5's staging buffer holds what the body left at the point before: the buffer was
    not written back between, the window is live and uncut. -/
theorem before5_5_kept (c : Dev nD) (t : Fin cfg5.N) (h0 : ¬t.val % 8 = 0) (d) :
    (dat5 V c).before 5 t d = (outsAt5 V c (t.val - 1) (Nat.lt_of_le_of_lt (Nat.sub_le _ _) t.isLt)) := by
  have hN : t.val < 8 := lt_of_lt_of_eq t.isLt (show cfg5.N = 8 from N_5)
  rw [Dat.before_out_kept _ 5 rfl t (by omega) (Bool.eq_false_iff.mpr fun h => by have := (flush5_5 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  have hN : t.val < 8 := lt_of_lt_of_eq t.isLt (show cfg5.N = 8 from N_5)
  by_cases h0 : t.val % 8 = 0
  · have h1 : ¬t.val % 8 = 7 := by omega
    rw [outsAt5_A V c t h0 h1]
    unfold out5_A_5
    iintro ⟨HΦ, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5_A_5 c _ _ _ _ _ _ _ _ _ _ _ _ _ _ _ _ _ _ _ _)
  · by_cases h1 : t.val % 8 = 7
    · rw [outsAt5_C V c t h0 h1]
      simp only [before5_5_kept V c t h0]
      unfold out5_C_5
      iintro ⟨HΦ, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _)
    · rw [outsAt5_B V c t h0 h1]
      simp only [before5_5_kept V c t h0]
      unfold out5_B_5
      iintro ⟨HΦ, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_B_5 c _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.Kernel.Reg

end
-- ==== Proof.KReg6Body.lean ====
/-
  The candidate region of the first layer (kernel region 6 of @main, counting from 0) at a parameter `V`, the buffers'
  contents when the region is entered.

  Eight grid points; point `t` handles rows 4096·t … 4096·t+4095. The body reads three [4096, 32] blocks of
  diffusion terms, the [3, 32, 16] weight stack and the [1, 16] bias row (single blocks, fetched once), the [4096, 16]
  blocks of the update gate u and of the hidden state h, and writes one [4096, 16] block: u ⊙ h + (1 − u) ⊙ tanh of
  the pre-activation. One store through the whole-block rectangle; nothing carried between points.
-/
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S4096x32 := Rect.unit (s := S4096x32) ![0, 0] S4096x32.size inb_S4096x32_S4096x32_0_0
abbrev r6_h : Rect S4096x16 := Rect.unit (s := S4096x16) ![0, 0] S4096x16.size inb_S4096x16_S4096x16_0_0
abbrev r6_b : Rect S1x16 := Rect.unit (s := S1x16) ![0, 0] S1x16.size inb_S1x16_S1x16_0_0
abbrev r6_w0 : Rect S3x32x16 := Rect.unit (s := S3x32x16) ![0, 0, 0] S1x32x16.size inb_S3x32x16_S1x32x16_0_0_0
abbrev r6_w1 : Rect S3x32x16 := Rect.unit (s := S3x32x16) ![1, 0, 0] S1x32x16.size inb_S3x32x16_S1x32x16_1_0_0
abbrev r6_w2 : Rect S3x32x16 := Rect.unit (s := S3x32x16) ![2, 0, 0] S1x32x16.size inb_S3x32x16_S1x32x16_2_0_0

/-- The output's buffer after the body: u ⊙ h + (1 − u) ⊙ tanh (bias + three products). -/
def out6_7 (x0 x1 x2 : Vec F S4096x32 .f32) (x3 : Vec F S3x32x16 .f32) (x4 : Vec F S1x16 .f32) (x5 x6 : Vec F S4096x16 .f32) :
    Vec F S4096x16 .f32 :=
  View.canon [⟨r6_h, k6_pay1 (View.ld x4 r6_b) (View.ld x0 r6_x) (View.ld x3 r6_w0) (View.ld x1 r6_x) (View.ld x3 r6_w1)
    (View.ld x2 r6_x) (View.ld x3 r6_w2) (View.ld x5 r6_h) (View.ld x6 r6_h)⟩]

/-- One store through the whole-block rectangle covers the block. -/
theorem cover6_h (p0 : Vec F S4096x16 .f32) (y : S4096x16.Idx) :
    ∃ pc ∈ ([⟨r6_h, p0⟩] : List (View.Piece (Elt F) S4096x16 .f32)), y ∈ pc.1.set :=
  View.cover_of_tiled [⟨r6_h, p0⟩] S4096x16.size (by rfl) y

set_option maxHeartbeats 4000000 in
/-- The body on whole staging memrefs — the inputs' at read contents, the output's at anything — runs to the
    continuation holding the inputs' as they were and the output's at its canonical contents. -/
theorem sound_kernel6 (c : Dev nD) (E : Set ℕ) (i : grid6.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S1x16 .f32) (harg5 : arg5.IsWhole) (arg6 : Memref sig .tc .vmem S4096x16 .f32) (harg6 : arg6.IsWhole)
    (arg7 : Memref sig .tc .vmem S4096x16 .f32) (harg7 : arg7.IsWhole) (arg8 : Memref sig .tc .vmem S4096x16 .f32) (harg8 : arg8.IsWhole)
    (x0 x1 x2 : Vec F S4096x32 .f32) (x3 : Vec F S3x32x16 .f32) (x4 : Vec F S1x16 .f32) (x5 x6 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E
          (cc6__cand_body i arg1 harg1 arg2 harg2 arg3 harg3 arg4 harg4 arg5 harg5 arg6 harg6 arg7 harg7 arg8 harg8) K := by
  simp only [cc6__cand_body_eq_skeleton]; unfold cc6__cand_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover6_h _)

end Region6

end Cert.Kernel.Reg
end
-- ==== Proof.KReg6Data.lean ====
/-
  The candidate region of the first layer: its proof data and body obligation at a parameter `V`.

  Each of the seven input windows (three blocks of diffusion terms, the weight stack, the bias row, the update gate's
  block, the hidden block) is only read, so its staging buffer holds its block of the array at every point whether or
  not the pipeline fetched it there; the output buffer is overwritten whole at every point. The body obligation at a
  point is then the body's triple at the point's blocks.
-/
import proofs.«172830_g53506702573898_cont_9to1_m_1152_4_alg».proof.Proof.KReg6Body

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-! ## Each input window's staging buffer holds its block at every point, fetched there or not -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.Kernel.Reg
end
-- ==== Proof.KReg7Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 7 (custom_call 7, `cc7__sapply_body`, pipeline 7) at the entry contents `V`: what its case runs share -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

end Regions

/-! ## The body's branch conditions -/

/-- The condition of the body's first `scf.if` (`k7_h1`): the grid coordinate is 0. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second `scf.if` (`k7_h2`): the grid coordinate is 7. -/
abbrev cond7_1 (i : grid7.Coords) : Prop := (Scalar.cmpi .ne (Scalar.extui (Scalar.cmpi .eq (BitVec.ofNat 32 (i 0).val) 7#32)) 0#32) = 1#1
/-- It holds at the last point only. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## The staging memrefs -/

/-- One staging buffer of output window 5, through which its contents are stated. -/
abbrev VO7_5 : View sig .tc .vmem S4096x256 .f32 := (Memref.whole cc7_stg5_0 : Memref sig .tc .vmem S4096x256 .f32).view
/-- Each window's current staging memref at point `t`, spelled as the pipeline passes it (`bodyAt7`), and its wholeness. -/
abbrev ms7_0 (t : Fin cfg7.N) : Memref sig .tc .vmem S4096x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S512x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S4096x1 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S4096x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S4096x256 .f32 := win7_5.stage (cfg7.slots t 5)
abbrev hs7_5 (t : Fin cfg7.N) : (ms7_5 t).IsWhole := hstage7_5 ((cfg7.slots t 5).cast nbuf7_5)

end Cert.Kernel.Reg

end
-- ==== Proof.KReg7RunA.lean ====
import proofs.«172830_g53506702573898_cont_9to1_m_1152_4_alg».proof.Proof.KReg7Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun7_A (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg7RunB.lean ====
import proofs.«172830_g53506702573898_cont_9to1_m_1152_4_alg».proof.Proof.KReg7RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun7_B (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg7RunC.lean ====
import proofs.«172830_g53506702573898_cont_9to1_m_1152_4_alg».proof.Proof.KReg7RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun7_C (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg7Frame.lean ====
import proofs.«172830_g53506702573898_cont_9to1_m_1152_4_alg».proof.Proof.KReg7RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_7 (n : ℕ) (hn : n + 1 < cfg7.N) : ¬ (n + 1) % 8 = 0 := by
  have hN : cfg7.N = 8 := N_7
  omega

/-- Case A's pieces for output 5 tile its block, so they cover it. -/
theorem cover7_A_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun7_A c i arg1 harg1 arg2 harg2 arg3 harg3 arg4 harg4 arg5 harg5 arg6 harg6 hc0 hc1 x0 x1 x2 x3 x4).1, y ∈ pc.1.set :=
  View.cover_of_tiledL (kernelRun7_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out7_A_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) : Vec F S4096x256 .f32 :=
  VO7_5.read (Elt F) (VO7_5.writes (Elt F) VO7_5.junk (kernelRun7_A c i arg1 harg1 arg2 harg2 arg3 harg3 arg4 harg4 arg5 harg5 arg6 harg6 hc0 hc1 x0 x1 x2 x3 x4).1)

/-- Case B's pieces for output 5 tile its block, so they cover it. -/
theorem cover7_B_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun7_B c i arg1 harg1 arg2 harg2 arg3 harg3 arg4 harg4 arg5 harg5 arg6 harg6 hc0 hc1 x0 x1 x2 x3 x4 xo5).1, y ∈ pc.1.set :=
  View.cover_of_tiledL (kernelRun7_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out7_B_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO7_5.read (Elt F) (VO7_5.writes (Elt F) VO7_5.junk (kernelRun7_B c i arg1 harg1 arg2 harg2 arg3 harg3 arg4 harg4 arg5 harg5 arg6 harg6 hc0 hc1 x0 x1 x2 x3 x4 xo5).1)

/-- Case C's pieces for output 5 tile its block, so they cover it. -/
theorem cover7_C_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun7_C c i arg1 harg1 arg2 harg2 arg3 harg3 arg4 harg4 arg5 harg5 arg6 harg6 hc0 hc1 x0 x1 x2 x3 x4 xo5).1, y ∈ pc.1.set :=
  View.cover_of_tiledL (kernelRun7_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out7_C_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO7_5.read (Elt F) (VO7_5.writes (Elt F) VO7_5.junk (kernelRun7_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt7 (c : Dev nD) : (n : ℕ) → n < cfg7.N → Vec F S4096x256 .f32
  | 0, hn => out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (fun h => absurd ((hcond7_1 ⟨0, hn⟩).mp h) (show ¬ (0 % 8 = 7) by decide)) (iblk7 V c 0 ⟨0, hn⟩) (iblk7 V c 1 ⟨0, hn⟩) (iblk7 V c 2 ⟨0, hn⟩) (iblk7 V c 3 ⟨0, hn⟩) (iblk7 V c 4 ⟨0, hn⟩)
  | n + 1, hn =>
    if h1 : (n + 1) % 8 = 7 then
      out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => succ_mod8_7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn))
    else
      out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => succ_mod8_7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn))

/-- `outsAt7` at the point of case A. -/
theorem outsAt7_A (c : Dev nD) (t : Fin cfg7.N) (h0 : t.val % 8 = 0) (h1 : ¬t.val % 8 = 7) :
    outsAt7 V c t.val t.isLt = out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (fun h => h1 ((hcond7_1 t).mp h)) (iblk7 V c 0 t) (iblk7 V c 1 t) (iblk7 V c 2 t) (iblk7 V c 3 t) (iblk7 V c 4 t) := by
  obtain ⟨n, hn⟩ := t
  cases n with
  | zero => exact rfl
  | succ n => exact absurd h0 (succ_mod8_7 n hn)

/-- `outsAt7` at a point of case B: that case's contents, over what the point before left. -/
theorem outsAt7_B (c : Dev nD) (t : Fin cfg7.N) (h0 : ¬t.val % 8 = 0) (h1 : ¬t.val % 8 = 7) :
    outsAt7 V c t.val t.isLt = out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt7` at the point of case C: that case's contents, over what the point before left. -/
theorem outsAt7_C (c : Dev nD) (t : Fin cfg7.N) (h0 : ¬t.val % 8 = 0) (h1 : t.val % 8 = 7) :
    outsAt7 V c t.val t.isLt = out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt7`; the invariant the scoped rest and the generator register;
    nothing owed; windows 2 and 3, which read one array, hold it by the left and the right half of the full share, and so
    do windows 1 and 4, which read another; the two remaining windows hold their arrays at the full share. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt)
  Φ _ := Pipeline.ΦA spec7 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- At a point after the first, output 5's staging buffer holds what the body left at the point before: the buffer was
    not written back between, the window is live and uncut. -/
theorem before7_5_kept (c : Dev nD) (t : Fin cfg7.N) (h0 : ¬t.val % 8 = 0) (d) :
    (dat7 V c).before 5 t d = (outsAt7 V c (t.val - 1) (Nat.lt_of_le_of_lt (Nat.sub_le _ _) t.isLt)) := by
  have hN : t.val < 8 := lt_of_lt_of_eq t.isLt (show cfg7.N = 8 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 8 := lt_of_lt_of_eq t.isLt (show cfg7.N = 8 from N_7)
  by_cases h0 : t.val % 8 = 0
  · have h1 : ¬t.val % 8 = 7 := by omega
    rw [outsAt7_A V c t h0 h1]
    unfold out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover7_A_5 c _ _ _ _ _ _ _ _ _ _ _ _ _ _ _ _ _ _ _ _)
  · by_cases h1 : t.val % 8 = 7
    · rw [outsAt7_C V c t h0 h1]
      simp only [before7_5_kept V c t h0]
      unfold out7_C_5
      iintro ⟨HΦ, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_C_5 c _ _ _ _ _ _ _ _ _ _ _ _ _ _ _ _ _ _ _ _ _)
    · rw [outsAt7_B V c t h0 h1]
      simp only [before7_5_kept V c t h0]
      unfold out7_B_5
      iintro ⟨HΦ, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_B_5 c _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.Kernel.Reg

end
-- ==== Proof.KReg8Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 8 (custom_call 8, `cc8__sapply_body`, pipeline 8) at the entry contents `V`: what its case runs share -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

end Regions

/-! ## The body's branch conditions -/

/-- The condition of the body's first `scf.if` (`k8_h1`): the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 8 = 0 :=
  (by decide +kernel : ∀ t : Fin grid8.N, cond8_0 (grid8.coords t) ↔ t.val % 8 = 0)

/-- The condition of the body's second `scf.if` (`k8_h2`): the grid coordinate is 7. -/
abbrev cond8_1 (i : grid8.Coords) : Prop := (Scalar.cmpi .ne (Scalar.extui (Scalar.cmpi .eq (BitVec.ofNat 32 (i 0).val) 7#32)) 0#32) = 1#1
/-- It holds at the last point only. -/
theorem hcond8_1 : ∀ t : Fin cfg8.N, cond8_1 (grid8.coords t) ↔ t.val % 8 = 7 :=
  (by decide +kernel : ∀ t : Fin grid8.N, cond8_1 (grid8.coords t) ↔ t.val % 8 = 7)

/-! ## The staging memrefs -/

/-- One staging buffer of output window 5, through which its contents are stated. -/
abbrev VO8_5 : View sig .tc .vmem S4096x256 .f32 := (Memref.whole cc8_stg5_0 : Memref sig .tc .vmem S4096x256 .f32).view
/-- Each window's current staging memref at point `t`, spelled as the pipeline passes it (`bodyAt8`), and its wholeness. -/
abbrev ms8_0 (t : Fin cfg8.N) : Memref sig .tc .vmem S4096x512 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S512x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S4096x1 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x256 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S4096x256 .f32 := win8_5.stage (cfg8.slots t 5)
abbrev hs8_5 (t : Fin cfg8.N) : (ms8_5 t).IsWhole := hstage8_5 ((cfg8.slots t 5).cast nbuf8_5)

end Cert.Kernel.Reg

end
-- ==== Proof.KReg8RunA.lean ====
import proofs.«172830_g53506702573898_cont_9to1_m_1152_4_alg».proof.Proof.KReg8Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun8_A (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg8RunB.lean ====
import proofs.«172830_g53506702573898_cont_9to1_m_1152_4_alg».proof.Proof.KReg8RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun8_B (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg8RunC.lean ====
import proofs.«172830_g53506702573898_cont_9to1_m_1152_4_alg».proof.Proof.KReg8RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun8_C (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg8Frame.lean ====
import proofs.«172830_g53506702573898_cont_9to1_m_1152_4_alg».proof.Proof.KReg8RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_8 (n : ℕ) (hn : n + 1 < cfg8.N) : ¬ (n + 1) % 8 = 0 := by
  have hN : cfg8.N = 8 := N_8
  omega

/-- Case A's pieces for output 5 tile its block, so they cover it. -/
theorem cover8_A_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun8_A c i arg1 harg1 arg2 harg2 arg3 harg3 arg4 harg4 arg5 harg5 arg6 harg6 hc0 hc1 x0 x1 x2 x3 x4).1, y ∈ pc.1.set :=
  View.cover_of_tiledL (kernelRun8_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out8_A_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) : Vec F S4096x256 .f32 :=
  VO8_5.read (Elt F) (VO8_5.writes (Elt F) VO8_5.junk (kernelRun8_A c i arg1 harg1 arg2 harg2 arg3 harg3 arg4 harg4 arg5 harg5 arg6 harg6 hc0 hc1 x0 x1 x2 x3 x4).1)

/-- Case B's pieces for output 5 tile its block, so they cover it. -/
theorem cover8_B_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun8_B c i arg1 harg1 arg2 harg2 arg3 harg3 arg4 harg4 arg5 harg5 arg6 harg6 hc0 hc1 x0 x1 x2 x3 x4 xo5).1, y ∈ pc.1.set :=
  View.cover_of_tiledL (kernelRun8_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out8_B_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO8_5.read (Elt F) (VO8_5.writes (Elt F) VO8_5.junk (kernelRun8_B c i arg1 harg1 arg2 harg2 arg3 harg3 arg4 harg4 arg5 harg5 arg6 harg6 hc0 hc1 x0 x1 x2 x3 x4 xo5).1)

/-- Case C's pieces for output 5 tile its block, so they cover it. -/
theorem cover8_C_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun8_C c i arg1 harg1 arg2 harg2 arg3 harg3 arg4 harg4 arg5 harg5 arg6 harg6 hc0 hc1 x0 x1 x2 x3 x4 xo5).1, y ∈ pc.1.set :=
  View.cover_of_tiledL (kernelRun8_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out8_C_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO8_5.read (Elt F) (VO8_5.writes (Elt F) VO8_5.junk (kernelRun8_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt8 (c : Dev nD) : (n : ℕ) → n < cfg8.N → Vec F S4096x256 .f32
  | 0, hn => out8_A_5 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) ((hcond8_0 ⟨0, hn⟩).mpr (Nat.zero_mod _)) (fun h => absurd ((hcond8_1 ⟨0, hn⟩).mp h) (show ¬ (0 % 8 = 7) by decide)) (iblk8 V c 0 ⟨0, hn⟩) (iblk8 V c 1 ⟨0, hn⟩) (iblk8 V c 2 ⟨0, hn⟩) (iblk8 V c 3 ⟨0, hn⟩) (iblk8 V c 4 ⟨0, hn⟩)
  | n + 1, hn =>
    if h1 : (n + 1) % 8 = 7 then
      out8_C_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (fun h => succ_mod8_8 n hn ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn))
    else
      out8_B_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (fun h => succ_mod8_8 n hn ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn))

/-- `outsAt8` at the point of case A. -/
theorem outsAt8_A (c : Dev nD) (t : Fin cfg8.N) (h0 : t.val % 8 = 0) (h1 : ¬t.val % 8 = 7) :
    outsAt8 V c t.val t.isLt = out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (fun h => h1 ((hcond8_1 t).mp h)) (iblk8 V c 0 t) (iblk8 V c 1 t) (iblk8 V c 2 t) (iblk8 V c 3 t) (iblk8 V c 4 t) := by
  obtain ⟨n, hn⟩ := t
  cases n with
  | zero => exact rfl
  | succ n => exact absurd h0 (succ_mod8_8 n hn)

/-- `outsAt8` at a point of case B: that case's contents, over what the point before left. -/
theorem outsAt8_B (c : Dev nD) (t : Fin cfg8.N) (h0 : ¬t.val % 8 = 0) (h1 : ¬t.val % 8 = 7) :
    outsAt8 V c t.val t.isLt = out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt8` at the point of case C: that case's contents, over what the point before left. -/
theorem outsAt8_C (c : Dev nD) (t : Fin cfg8.N) (h0 : ¬t.val % 8 = 0) (h1 : t.val % 8 = 7) :
    outsAt8 V c t.val t.isLt = out8_C_5 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt8`; the invariant the scoped rest and the generator register;
    nothing owed; windows 2 and 3, which read one array, hold it by the left and the right half of the full share,
    every other window its array at the full share. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt)
  Φ _ := Pipeline.ΦA spec8 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- At a point after the first, output 5's staging buffer holds what the body left at the point before: the buffer was
    not written back between, the window is live and uncut. -/
theorem before8_5_kept (c : Dev nD) (t : Fin cfg8.N) (h0 : ¬t.val % 8 = 0) (d) :
    (dat8 V c).before 5 t d = (outsAt8 V c (t.val - 1) (Nat.lt_of_le_of_lt (Nat.sub_le _ _) t.isLt)) := by
  have hN : t.val < 8 := lt_of_lt_of_eq t.isLt (show cfg8.N = 8 from N_8)
  rw [Dat.before_out_kept _ 5 rfl t (by omega) (Bool.eq_false_iff.mpr fun h => by have := (flush8_5 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  have hN : t.val < 8 := lt_of_lt_of_eq t.isLt (show cfg8.N = 8 from N_8)
  by_cases h0 : t.val % 8 = 0
  · have h1 : ¬t.val % 8 = 7 := by omega
    rw [outsAt8_A V c t h0 h1]
    unfold out8_A_5
    iintro ⟨HΦ, Ho, ⟨%d0, H0⟩, ⟨%d1, H1⟩, ⟨%d2, H2⟩, ⟨%d3, H3⟩, ⟨%d4, H4⟩, ⟨%d5, H5⟩⟩
    iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover8_A_5 c _ _ _ _ _ _ _ _ _ _ _ _ _ _ _ _ _ _ _ _)
  · by_cases h1 : t.val % 8 = 7
    · rw [outsAt8_C V c t h0 h1]
      simp only [before8_5_kept V c t h0]
      unfold out8_C_5
      iintro ⟨HΦ, Ho, ⟨%d0, H0⟩, ⟨%d1, H1⟩, ⟨%d2, H2⟩, ⟨%d3, H3⟩, ⟨%d4, H4⟩, ⟨%d5, H5⟩⟩
      iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover8_C_5 c _ _ _ _ _ _ _ _ _ _ _ _ _ _ _ _ _ _ _ _ _)
    · rw [outsAt8_B V c t h0 h1]
      simp only [before8_5_kept V c t h0]
      unfold out8_B_5
      iintro ⟨HΦ, Ho, ⟨%d0, H0⟩, ⟨%d1, H1⟩, ⟨%d2, H2⟩, ⟨%d3, H3⟩, ⟨%d4, H4⟩, ⟨%d5, H5⟩⟩
      iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover8_B_5 c _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.Kernel.Reg

end
-- ==== Proof.KReg9Body.lean ====
/-
  The gate region of the second layer (the ninth kernel region of @main, counting from 0) at a parameter `V`, the buffers' contents
  when the region is entered.

  The region has eight grid points; point `t` handles rows 4096·t … 4096·t+4095 of the node-major feature
  matrices. Its body reads three [4096, 32] blocks of diffusion terms, the two [3, 32, 16] weight stacks and the two
  [1, 16] bias rows (each a single block, fetched once), and the [4096, 16] block of the hidden state; it writes two
  [4096, 16] blocks: r ⊙ h with r the logistic of the first pre-activation, and u, the logistic of the second. Every
  load and store is through a literal rectangle and nothing is carried from one point to the next, so what each
  output buffer holds after the body is the canonical contents of its one store over the body's pure payload.
-/
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses -/

abbrev r9_x : Rect S4096x32 := Rect.unit (s := S4096x32) ![0, 0] S4096x32.size inb_S4096x32_S4096x32_0_0
abbrev r9_h : Rect S4096x16 := Rect.unit (s := S4096x16) ![0, 0] S4096x16.size inb_S4096x16_S4096x16_0_0
abbrev r9_b : Rect S1x16 := Rect.unit (s := S1x16) ![0, 0] S1x16.size inb_S1x16_S1x16_0_0
abbrev r9_w0 : Rect S3x32x16 := Rect.unit (s := S3x32x16) ![0, 0, 0] S1x32x16.size inb_S3x32x16_S1x32x16_0_0_0
abbrev r9_w1 : Rect S3x32x16 := Rect.unit (s := S3x32x16) ![1, 0, 0] S1x32x16.size inb_S3x32x16_S1x32x16_1_0_0
abbrev r9_w2 : Rect S3x32x16 := Rect.unit (s := S3x32x16) ![2, 0, 0] S1x32x16.size inb_S3x32x16_S1x32x16_2_0_0

/-! ## What the body leaves in each output window's buffer -/

/-- The first output's buffer after the body: logistic of (bias + three products) times the hidden block. -/
def out9_8 (x0 x1 x2 : Vec F S4096x32 .f32) (x3 : Vec F S3x32x16 .f32) (x5 : Vec F S1x16 .f32) (x7 : Vec F S4096x16 .f32) :
    Vec F S4096x16 .f32 :=
  View.canon [⟨r9_h, k9_pay2 (k9_pay5 (View.ld x5 r9_b) (View.ld x0 r9_x) (View.ld x3 r9_w0) (View.ld x1 r9_x) (View.ld x3 r9_w1))
    (k9_pay7 (View.ld x2 r9_x)) (k9_pay8 (View.ld x3 r9_w2)) (View.ld x7 r9_h)⟩]

/-- The second output's buffer after the body: logistic of (bias + three products) with the second weight stack. -/
def out9_9 (x0 x1 x2 : Vec F S4096x32 .f32) (x4 : Vec F S3x32x16 .f32) (x6 : Vec F S1x16 .f32) : Vec F S4096x16 .f32 :=
  View.canon [⟨r9_h, k9_pay1 (k9_pay6 (View.ld x6 r9_b) (View.ld x0 r9_x) (View.ld x4 r9_w0) (View.ld x1 r9_x) (View.ld x4 r9_w1))
    (k9_pay7 (View.ld x2 r9_x)) (View.ld x4 r9_w2)⟩]

/-- One store through the whole-block rectangle covers the block. -/
theorem cover9_h (p0 : Vec F S4096x16 .f32) (y : S4096x16.Idx) :
    ∃ pc ∈ ([⟨r9_h, p0⟩] : List (View.Piece (Elt F) S4096x16 .f32)), y ∈ pc.1.set :=
  View.cover_of_tiled [⟨r9_h, p0⟩] S4096x16.size (by rfl) y

/-! ## The body's triple -/

set_option maxHeartbeats 4000000 in
/-- The body on whole staging memrefs — the inputs' at read contents, the outputs' at anything — runs to the
    continuation holding the inputs' as they were and each output's at its canonical contents. -/
theorem sound_kernel9 (c : Dev nD) (E : Set ℕ) (i : grid9.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S3x32x16 .f32) (harg5 : arg5.IsWhole) (arg6 : Memref sig .tc .vmem S1x16 .f32) (harg6 : arg6.IsWhole)
    (arg7 : Memref sig .tc .vmem S1x16 .f32) (harg7 : arg7.IsWhole) (arg8 : Memref sig .tc .vmem S4096x16 .f32) (harg8 : arg8.IsWhole)
    (arg9 : Memref sig .tc .vmem S4096x16 .f32) (harg9 : arg9.IsWhole) (arg10 : Memref sig .tc .vmem S4096x16 .f32) (harg10 : arg10.IsWhole)
    (x0 x1 x2 : Vec F S4096x32 .f32) (x3 x4 : Vec F S3x32x16 .f32) (x5 x6 : Vec F S1x16 .f32) (x7 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out9_8 x0 x1 x2 x3 x5 x7)
            ∗ owns (c : Thread nD τ) arg10 fullShare (out9_9 x0 x1 x2 x4 x6)) -∗ K ⟨⟩))
      ⊢ wp frame (wpE (defs₀ (F := F)) Variants.none c none) E
          (cc9__gate_body i arg1 harg1 arg2 harg2 arg3 harg3 arg4 harg4 arg5 harg5 arg6 harg6 arg7 harg7 arg8 harg8 arg9 harg9 arg10 harg10) K := by
  simp only [cc9__gate_body_eq_skeleton]; unfold cc9__gate_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover9_h _)
  · iexists _; isplitr
    swap; · iexact H9
    ipureintro
    exact View.read_writes_eq_canon _ _ _ (cover9_h _)

end Region9

end Cert.Kernel.Reg
end
-- ==== Proof.KReg9Data.lean ====
/-
  The gate region of the second layer: its proof data and body obligation at a parameter `V`.

  Each of the eight input windows (three blocks of diffusion terms, two weight stacks, two bias rows, the hidden
  block) is only read, so its staging buffer holds its block of the array at every point whether or not the pipeline
  fetched it there; the two output buffers are overwritten whole at every point. The body obligation at a point is
  then the body's triple at the point's blocks.
-/
import proofs.«172830_g53506702573898_cont_9to1_m_1152_4_alg».proof.Proof.KReg9Body

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## Each input window's staging buffer holds its block at every point, fetched there or not -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 5 t) (iblk9 V c 7 t)
    | ⟨9, _⟩ => out9_9 (iblk9 V c 0 t) (iblk9 V c 1 t) (iblk9 V c 2 t) (iblk9 V c 4 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 3 t) (iblk9 V c 5 t) (iblk9 V c 7 t) := by dsimp only [dat9]
theorem after9_9 (c : Dev nD) (t : Fin cfg9.N) : (dat9 V c).after 9 t = out9_9 (iblk9 V c 0 t) (iblk9 V c 1 t) (iblk9 V c 2 t) (iblk9 V c 4 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t))

/-- The body at any point: the inputs' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.Kernel.Reg
end
-- ==== Proof.KReg10Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 10 (custom_call 10, `cc10__sapply_body`, pipeline 10) at the entry contents `V`: what its case runs share -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is `V`'s and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is `V`'s and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is `V`'s and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

end Regions

/-! ## The body's branch conditions -/

/-- The condition of the body's first `scf.if` (`k10_h1`): the grid coordinate is 0. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 8 = 0 :=
  (by decide +kernel : ∀ t : Fin grid10.N, cond10_0 (grid10.coords t) ↔ t.val % 8 = 0)

/-- The condition of the body's second `scf.if` (`k10_h2`): the grid coordinate is 7. -/
abbrev cond10_1 (i : grid10.Coords) : Prop := (Scalar.cmpi .ne (Scalar.extui (Scalar.cmpi .eq (BitVec.ofNat 32 (i 0).val) 7#32)) 0#32) = 1#1
/-- It holds at the last point only. -/
theorem hcond10_1 : ∀ t : Fin cfg10.N, cond10_1 (grid10.coords t) ↔ t.val % 8 = 7 :=
  (by decide +kernel : ∀ t : Fin grid10.N, cond10_1 (grid10.coords t) ↔ t.val % 8 = 7)

/-! ## The staging memrefs -/

/-- One staging buffer of output window 5, through which its contents are stated. -/
abbrev VO10_5 : View sig .tc .vmem S4096x256 .f32 := (Memref.whole cc10_stg5_0 : Memref sig .tc .vmem S4096x256 .f32).view
/-- Each window's current staging memref at point `t`, spelled as the pipeline passes it (`bodyAt10`), and its wholeness. -/
abbrev ms10_0 (t : Fin cfg10.N) : Memref sig .tc .vmem S4096x512 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S512x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S4096x1 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S4096x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S4096x256 .f32 := win10_5.stage (cfg10.slots t 5)
abbrev hs10_5 (t : Fin cfg10.N) : (ms10_5 t).IsWhole := hstage10_5 ((cfg10.slots t 5).cast nbuf10_5)

end Cert.Kernel.Reg

end
-- ==== Proof.KReg10RunA.lean ====
import proofs.«172830_g53506702573898_cont_9to1_m_1152_4_alg».proof.Proof.KReg10Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun10_A (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg10RunB.lean ====
import proofs.«172830_g53506702573898_cont_9to1_m_1152_4_alg».proof.Proof.KReg10RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun10_B (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg10RunC.lean ====
import proofs.«172830_g53506702573898_cont_9to1_m_1152_4_alg».proof.Proof.KReg10RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun10_C (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg10Frame.lean ====
import proofs.«172830_g53506702573898_cont_9to1_m_1152_4_alg».proof.Proof.KReg10RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_10 (n : ℕ) (hn : n + 1 < cfg10.N) : ¬ (n + 1) % 8 = 0 := by
  have hN : cfg10.N = 8 := N_10
  omega

/-- Case A's pieces for output 5 tile its block, so they cover it. -/
theorem cover10_A_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun10_A c i arg1 harg1 arg2 harg2 arg3 harg3 arg4 harg4 arg5 harg5 arg6 harg6 hc0 hc1 x0 x1 x2 x3 x4).1, y ∈ pc.1.set :=
  View.cover_of_tiledL (kernelRun10_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out10_A_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) : Vec F S4096x256 .f32 :=
  VO10_5.read (Elt F) (VO10_5.writes (Elt F) VO10_5.junk (kernelRun10_A c i arg1 harg1 arg2 harg2 arg3 harg3 arg4 harg4 arg5 harg5 arg6 harg6 hc0 hc1 x0 x1 x2 x3 x4).1)

/-- Case B's pieces for output 5 tile its block, so they cover it. -/
theorem cover10_B_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun10_B c i arg1 harg1 arg2 harg2 arg3 harg3 arg4 harg4 arg5 harg5 arg6 harg6 hc0 hc1 x0 x1 x2 x3 x4 xo5).1, y ∈ pc.1.set :=
  View.cover_of_tiledL (kernelRun10_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out10_B_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO10_5.read (Elt F) (VO10_5.writes (Elt F) VO10_5.junk (kernelRun10_B c i arg1 harg1 arg2 harg2 arg3 harg3 arg4 harg4 arg5 harg5 arg6 harg6 hc0 hc1 x0 x1 x2 x3 x4 xo5).1)

/-- Case C's pieces for output 5 tile its block, so they cover it. -/
theorem cover10_C_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun10_C c i arg1 harg1 arg2 harg2 arg3 harg3 arg4 harg4 arg5 harg5 arg6 harg6 hc0 hc1 x0 x1 x2 x3 x4 xo5).1, y ∈ pc.1.set :=
  View.cover_of_tiledL (kernelRun10_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out10_C_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO10_5.read (Elt F) (VO10_5.writes (Elt F) VO10_5.junk (kernelRun10_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt10 (c : Dev nD) : (n : ℕ) → n < cfg10.N → Vec F S4096x256 .f32
  | 0, hn => out10_A_5 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (fun h => absurd ((hcond10_1 ⟨0, hn⟩).mp h) (show ¬ (0 % 8 = 7) by decide)) (iblk10 V c 0 ⟨0, hn⟩) (iblk10 V c 1 ⟨0, hn⟩) (iblk10 V c 2 ⟨0, hn⟩) (iblk10 V c 3 ⟨0, hn⟩) (iblk10 V c 4 ⟨0, hn⟩)
  | n + 1, hn =>
    if h1 : (n + 1) % 8 = 7 then
      out10_C_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => succ_mod8_10 n hn ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (outsAt10 c n (Nat.lt_of_succ_lt hn))
    else
      out10_B_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => succ_mod8_10 n hn ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (outsAt10 c n (Nat.lt_of_succ_lt hn))

/-- `outsAt10` at the point of case A. -/
theorem outsAt10_A (c : Dev nD) (t : Fin cfg10.N) (h0 : t.val % 8 = 0) (h1 : ¬t.val % 8 = 7) :
    outsAt10 V c t.val t.isLt = out10_A_5 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (fun h => h1 ((hcond10_1 t).mp h)) (iblk10 V c 0 t) (iblk10 V c 1 t) (iblk10 V c 2 t) (iblk10 V c 3 t) (iblk10 V c 4 t) := by
  obtain ⟨n, hn⟩ := t
  cases n with
  | zero => exact rfl
  | succ n => exact absurd h0 (succ_mod8_10 n hn)

/-- `outsAt10` at a point of case B: that case's contents, over what the point before left. -/
theorem outsAt10_B (c : Dev nD) (t : Fin cfg10.N) (h0 : ¬t.val % 8 = 0) (h1 : ¬t.val % 8 = 7) :
    outsAt10 V c t.val t.isLt = out10_B_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (fun h => h1 ((hcond10_1 t).mp h)) (iblk10 V c 0 t) (iblk10 V c 1 t) (iblk10 V c 2 t) (iblk10 V c 3 t) (iblk10 V c 4 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt10` at the point of case C: that case's contents, over what the point before left. -/
theorem outsAt10_C (c : Dev nD) (t : Fin cfg10.N) (h0 : ¬t.val % 8 = 0) (h1 : t.val % 8 = 7) :
    outsAt10 V c t.val t.isLt = out10_C_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) ((hcond10_1 t).mpr h1) (iblk10 V c 0 t) (iblk10 V c 1 t) (iblk10 V c 2 t) (iblk10 V c 3 t) (iblk10 V c 4 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt10`; the invariant the scoped rest and the generator register;
    nothing owed; windows 2 and 3, which read one array, hold it by the left and the right half of the full share, and so
    do windows 1 and 4, which read another; the two remaining windows hold their arrays at the full share. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => (outsAt10 V c t.val t.isLt)
  Φ _ := Pipeline.ΦA spec10 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = (outsAt10 V c t.val t.isLt) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- At a point after the first, output 5's staging buffer holds what the body left at the point before: the buffer was
    not written back between, the window is live and uncut. -/
theorem before10_5_kept (c : Dev nD) (t : Fin cfg10.N) (h0 : ¬t.val % 8 = 0) (d) :
    (dat10 V c).before 5 t d = (outsAt10 V c (t.val - 1) (Nat.lt_of_le_of_lt (Nat.sub_le _ _) t.isLt)) := by
  have hN : t.val < 8 := lt_of_lt_of_eq t.isLt (show cfg10.N = 8 from N_10)
  rw [Dat.before_out_kept _ 5 rfl t (by omega) (Bool.eq_false_iff.mpr fun h => by have := (flush10_5 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 8 := lt_of_lt_of_eq t.isLt (show cfg10.N = 8 from N_10)
  by_cases h0 : t.val % 8 = 0
  · have h1 : ¬t.val % 8 = 7 := by omega
    rw [outsAt10_A V c t h0 h1]
    unfold out10_A_5
    iintro ⟨HΦ, Ho, ⟨%d0, H0⟩, ⟨%d1, H1⟩, ⟨%d2, H2⟩, ⟨%d3, H3⟩, ⟨%d4, H4⟩, ⟨%d5, H5⟩⟩
    iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t) (iblk10 V c 3 t) (iblk10 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover10_A_5 c _ _ _ _ _ _ _ _ _ _ _ _ _ _ _ _ _ _ _ _)
  · by_cases h1 : t.val % 8 = 7
    · rw [outsAt10_C V c t h0 h1]
      simp only [before10_5_kept V c t h0]
      unfold out10_C_5
      iintro ⟨HΦ, Ho, ⟨%d0, H0⟩, ⟨%d1, H1⟩, ⟨%d2, H2⟩, ⟨%d3, H3⟩, ⟨%d4, H4⟩, ⟨%d5, H5⟩⟩
      iapply ((kernelRun10_C c (grid10.coords t) _ _ _ _ _ _ _ _ _ _ _ _ (fun h => h0 ((hcond10_0 t).mp h)) ((hcond10_1 t).mpr h1) (iblk10 V c 0 t) (iblk10 V c 1 t) (iblk10 V c 2 t) (iblk10 V c 3 t) (iblk10 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover10_C_5 c _ _ _ _ _ _ _ _ _ _ _ _ _ _ _ _ _ _ _ _ _)
    · rw [outsAt10_B V c t h0 h1]
      simp only [before10_5_kept V c t h0]
      unfold out10_B_5
      iintro ⟨HΦ, Ho, ⟨%d0, H0⟩, ⟨%d1, H1⟩, ⟨%d2, H2⟩, ⟨%d3, H3⟩, ⟨%d4, H4⟩, ⟨%d5, H5⟩⟩
      iapply ((kernelRun10_B c (grid10.coords t) _ _ _ _ _ _ _ _ _ _ _ _ (fun h => h0 ((hcond10_0 t).mp h)) (fun h => h1 ((hcond10_1 t).mp h)) (iblk10 V c 0 t) (iblk10 V c 1 t) (iblk10 V c 2 t) (iblk10 V c 3 t) (iblk10 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover10_B_5 c _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Regions

end Cert.Kernel.Reg

end
-- ==== Proof.KReg11Runs.lean ====
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 11 (custom_call 11, `cc11__sapply_body`, pipeline 11) at the entry contents `V`: what its case runs share -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

end Regions

/-! ## The body's branch conditions -/

/-- The condition of the body's first `scf.if` (`k11_h1`): the grid coordinate is 0. -/
abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 8 = 0 :=
  (by decide +kernel : ∀ t : Fin grid11.N, cond11_0 (grid11.coords t) ↔ t.val % 8 = 0)

/-- The condition of the body's second `scf.if` (`k11_h2`): the grid coordinate is 7. -/
abbrev cond11_1 (i : grid11.Coords) : Prop := (Scalar.cmpi .ne (Scalar.extui (Scalar.cmpi .eq (BitVec.ofNat 32 (i 0).val) 7#32)) 0#32) = 1#1
/-- It holds at the last point only. -/
theorem hcond11_1 : ∀ t : Fin cfg11.N, cond11_1 (grid11.coords t) ↔ t.val % 8 = 7 :=
  (by decide +kernel : ∀ t : Fin grid11.N, cond11_1 (grid11.coords t) ↔ t.val % 8 = 7)

/-! ## The staging memrefs -/

/-- One staging buffer of output window 5, through which its contents are stated. -/
abbrev VO11_5 : View sig .tc .vmem S4096x256 .f32 := (Memref.whole cc11_stg5_0 : Memref sig .tc .vmem S4096x256 .f32).view
/-- Each window's current staging memref at point `t`, spelled as the pipeline passes it (`bodyAt11`), and its wholeness. -/
abbrev ms11_0 (t : Fin cfg11.N) : Memref sig .tc .vmem S4096x512 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S512x256 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S512x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S4096x1 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S4096x256 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S4096x256 .f32 := win11_5.stage (cfg11.slots t 5)
abbrev hs11_5 (t : Fin cfg11.N) : (ms11_5 t).IsWhole := hstage11_5 ((cfg11.slots t 5).cast nbuf11_5)

end Cert.Kernel.Reg

end
-- ==== Proof.KReg11RunA.lean ====
import proofs.«172830_g53506702573898_cont_9to1_m_1152_4_alg».proof.Proof.KReg11Runs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun11_A (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg11RunB.lean ====
import proofs.«172830_g53506702573898_cont_9to1_m_1152_4_alg».proof.Proof.KReg11RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun11_B (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg11RunC.lean ====
import proofs.«172830_g53506702573898_cont_9to1_m_1152_4_alg».proof.Proof.KReg11RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun11_C (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.Kernel.Reg

end
-- ==== Proof.KReg11Frame.lean ====
import proofs.«172830_g53506702573898_cont_9to1_m_1152_4_alg».proof.Proof.KReg11RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_11 (n : ℕ) (hn : n + 1 < cfg11.N) : ¬ (n + 1) % 8 = 0 := by
  have hN : cfg11.N = 8 := N_11
  omega

/-- Case A's pieces for output 5 tile its block, so they cover it. -/
theorem cover11_A_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun11_A c i arg1 harg1 arg2 harg2 arg3 harg3 arg4 harg4 arg5 harg5 arg6 harg6 hc0 hc1 x0 x1 x2 x3 x4).1, y ∈ pc.1.set :=
  View.cover_of_tiledL (kernelRun11_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out11_A_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) : Vec F S4096x256 .f32 :=
  VO11_5.read (Elt F) (VO11_5.writes (Elt F) VO11_5.junk (kernelRun11_A c i arg1 harg1 arg2 harg2 arg3 harg3 arg4 harg4 arg5 harg5 arg6 harg6 hc0 hc1 x0 x1 x2 x3 x4).1)

/-- Case B's pieces for output 5 tile its block, so they cover it. -/
theorem cover11_B_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun11_B c i arg1 harg1 arg2 harg2 arg3 harg3 arg4 harg4 arg5 harg5 arg6 harg6 hc0 hc1 x0 x1 x2 x3 x4 xo5).1, y ∈ pc.1.set :=
  View.cover_of_tiledL (kernelRun11_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out11_B_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO11_5.read (Elt F) (VO11_5.writes (Elt F) VO11_5.junk (kernelRun11_B c i arg1 harg1 arg2 harg2 arg3 harg3 arg4 harg4 arg5 harg5 arg6 harg6 hc0 hc1 x0 x1 x2 x3 x4 xo5).1)

/-- Case C's pieces for output 5 tile its block, so they cover it. -/
theorem cover11_C_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun11_C c i arg1 harg1 arg2 harg2 arg3 harg3 arg4 harg4 arg5 harg5 arg6 harg6 hc0 hc1 x0 x1 x2 x3 x4 xo5).1, y ∈ pc.1.set :=
  View.cover_of_tiledL (kernelRun11_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out11_C_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO11_5.read (Elt F) (VO11_5.writes (Elt F) VO11_5.junk (kernelRun11_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt11 (c : Dev nD) : (n : ℕ) → n < cfg11.N → Vec F S4096x256 .f32
  | 0, hn => out11_A_5 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (fun h => absurd ((hcond11_1 ⟨0, hn⟩).mp h) (show ¬ (0 % 8 = 7) by decide)) (iblk11 V c 0 ⟨0, hn⟩) (iblk11 V c 1 ⟨0, hn⟩) (iblk11 V c 2 ⟨0, hn⟩) (iblk11 V c 3 ⟨0, hn⟩) (iblk11 V c 4 ⟨0, hn⟩)
  | n + 1, hn =>
    if h1 : (n + 1) % 8 = 7 then
      out11_C_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => succ_mod8_11 n hn ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (outsAt11 c n (Nat.lt_of_succ_lt hn))
    else
      out11_B_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => succ_mod8_11 n hn ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (outsAt11 c n (Nat.lt_of_succ_lt hn))

/-- `outsAt11` at the point of case A. -/
theorem outsAt11_A (c : Dev nD) (t : Fin cfg11.N) (h0 : t.val % 8 = 0) (h1 : ¬t.val % 8 = 7) :
    outsAt11 V c t.val t.isLt = out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (fun h => h1 ((hcond11_1 t).mp h)) (iblk11 V c 0 t) (iblk11 V c 1 t) (iblk11 V c 2 t) (iblk11 V c 3 t) (iblk11 V c 4 t) := by
  obtain ⟨n, hn⟩ := t
  cases n with
  | zero => exact rfl
  | succ n => exact absurd h0 (succ_mod8_11 n hn)

/-- `outsAt11` at a point of case B: that case's contents, over what the point before left. -/
theorem outsAt11_B (c : Dev nD) (t : Fin cfg11.N) (h0 : ¬t.val % 8 = 0) (h1 : ¬t.val % 8 = 7) :
    outsAt11 V c t.val t.isLt = out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (fun h => h1 ((hcond11_1 t).mp h)) (iblk11 V c 0 t) (iblk11 V c 1 t) (iblk11 V c 2 t) (iblk11 V c 3 t) (iblk11 V c 4 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt11` at the point of case C: that case's contents, over what the point before left. -/
theorem outsAt11_C (c : Dev nD) (t : Fin cfg11.N) (h0 : ¬t.val % 8 = 0) (h1 : t.val % 8 = 7) :
    outsAt11 V c t.val t.isLt = out11_C_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) ((hcond11_1 t).mpr h1) (iblk11 V c 0 t) (iblk11 V c 1 t) (iblk11 V c 2 t) (iblk11 V c 3 t) (iblk11 V c 4 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt11`; the invariant the scoped rest and the generator register;
    nothing owed; windows 2 and 3, which read one array, hold it by the left and the right half of the full share,
    every other window its array at the full share. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => (outsAt11 V c t.val t.isLt)
  Φ _ := Pipeline.ΦA spec11 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = (outsAt11 V c t.val t.isLt) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- At a point after the first, output 5's staging buffer holds what the body left at the point before: the buffer was
    not written back between, the window is live and uncut. -/
theorem before11_5_kept (c : Dev nD) (t : Fin cfg11.N) (h0 : ¬t.val % 8 = 0) (d) :
    (dat11 V c).before 5 t d = (outsAt11 V c (t.val - 1) (Nat.lt_of_le_of_lt (Nat.sub_le _ _) t.isLt)) := by
  have hN : t.val < 8 := lt_of_lt_of_eq t.isLt (show cfg11.N = 8 from N_11)
  rw [Dat.before_out_kept _ 5 rfl t (by omega) (Bool.eq_false_iff.mpr fun h => by have := (flush11_5 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  have hN : t.val < 8 := lt_of_lt_of_eq t.isLt (show cfg11.N = 8 from N_11)
  by_cases h0 : t.val % 8 = 0
  · have h1 : ¬t.val % 8 = 7 := by omega
    rw [outsAt11_A V c t h0 h1]
    unfold out11_A_5
    iintro ⟨HΦ, Ho, ⟨%d0, H0⟩, ⟨%d1, H1⟩, ⟨%d2, H2⟩, ⟨%d3, H3⟩, ⟨%d4, H4⟩, ⟨%d5, H5⟩⟩
    iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t) (iblk11 V c 3 t) (iblk11 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover11_A_5 c _ _ _ _ _ _ _ _ _ _ _ _ _ _ _ _ _ _ _ _)
  · by_cases h1 : t.val % 8 = 7
    · rw [outsAt11_C V c t h0 h1]
      simp only [before11_5_kept V c t h0]
      unfold out11_C_5
      iintro ⟨HΦ, Ho, ⟨%d0, H0⟩, ⟨%d1, H1⟩, ⟨%d2, H2⟩, ⟨%d3, H3⟩, ⟨%d4, H4⟩, ⟨%d5, H5⟩⟩
      iapply ((kernelRun11_C c (grid11.coords t) _ _ _ _ _ _ _ _ _ _ _ _ (fun h => h0 ((hcond11_0 t).mp h)) ((hcond11_1 t).mpr h1) (iblk11 V c 0 t) (iblk11 V c 1 t) (iblk11 V c 2 t) (iblk11 V c 3 t) (iblk11 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover11_C_5 c _ _ _ _ _ _ _ _ _ _ _ _ _ _ _ _ _ _ _ _ _)
    · rw [outsAt11_B V c t h0 h1]
      simp only [before11_5_kept V c t h0]
      unfold out11_B_5
      iintro ⟨HΦ, Ho, ⟨%d0, H0⟩, ⟨%d1, H1⟩, ⟨%d2, H2⟩, ⟨%d3, H3⟩, ⟨%d4, H4⟩, ⟨%d5, H5⟩⟩
      iapply ((kernelRun11_B c (grid11.coords t) _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover11_B_5 c _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.Kernel.Reg

end
-- ==== Proof.KReg12Body.lean ====
/-
  The candidate region of the second layer (kernel region 12 of @main, counting from 0) at a parameter `V`, the buffers'
  contents when the region is entered.

  Eight grid points; point `t` handles rows 4096·t … 4096·t+4095. The body reads three [4096, 32] blocks of
  diffusion terms, the [3, 32, 16] weight stack and the [1, 16] bias row (single blocks, fetched once), the [4096, 16]
  blocks of the update gate u and of the hidden state h, and writes one [4096, 16] block: u ⊙ h + (1 − u) ⊙ tanh of
  the pre-activation. One store through the whole-block rectangle; nothing carried between points.
-/
import proofs.«172830_g53506702573898_cont_9to1_m_1152_4_alg».proof.Proof.Gen.Kernel.Launch
import proofs.«172830_g53506702573898_cont_9to1_m_1152_4_alg».proof.Proof.Gen.Kernel.Skeleton
import proofs.«172830_g53506702573898_cont_9to1_m_1152_4_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_x : Rect S4096x32 := Rect.unit (s := S4096x32) ![0, 0] S4096x32.size inb_S4096x32_S4096x32_0_0
abbrev r12_h : Rect S4096x16 := Rect.unit (s := S4096x16) ![0, 0] S4096x16.size inb_S4096x16_S4096x16_0_0
abbrev r12_b : Rect S1x16 := Rect.unit (s := S1x16) ![0, 0] S1x16.size inb_S1x16_S1x16_0_0
abbrev r12_w0 : Rect S3x32x16 := Rect.unit (s := S3x32x16) ![0, 0, 0] S1x32x16.size inb_S3x32x16_S1x32x16_0_0_0
abbrev r12_w1 : Rect S3x32x16 := Rect.unit (s := S3x32x16) ![1, 0, 0] S1x32x16.size inb_S3x32x16_S1x32x16_1_0_0
abbrev r12_w2 : Rect S3x32x16 := Rect.unit (s := S3x32x16) ![2, 0, 0] S1x32x16.size inb_S3x32x16_S1x32x16_2_0_0

/-- The output's buffer after the body: u ⊙ h + (1 − u) ⊙ tanh (bias + three products). -/
def out12_7 (x0 x1 x2 : Vec F S4096x32 .f32) (x3 : Vec F S3x32x16 .f32) (x4 : Vec F S1x16 .f32) (x5 x6 : Vec F S4096x16 .f32) :
    Vec F S4096x16 .f32 :=
  View.canon [⟨r12_h, k12_pay1 (View.ld x4 r12_b) (View.ld x0 r12_x) (View.ld x3 r12_w0) (View.ld x1 r12_x) (View.ld x3 r12_w1)
    (View.ld x2 r12_x) (View.ld x3 r12_w2) (View.ld x5 r12_h) (View.ld x6 r12_h)⟩]

/-- One store through the whole-block rectangle covers the block. -/
theorem cover12_h (p0 : Vec F S4096x16 .f32) (y : S4096x16.Idx) :
    ∃ pc ∈ ([⟨r12_h, p0⟩] : List (View.Piece (Elt F) S4096x16 .f32)), y ∈ pc.1.set :=
  View.cover_of_tiled [⟨r12_h, p0⟩] S4096x16.size (by rfl) y

set_option maxHeartbeats 4000000 in
/-- The body on whole staging memrefs — the inputs' at read contents, the output's at anything — runs to the
    continuation holding the inputs' as they were and the output's at its canonical contents. -/
theorem sound_kernel12 (c : Dev nD) (E : Set ℕ) (i : grid12.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S1x16 .f32) (harg5 : arg5.IsWhole) (arg6 : Memref sig .tc .vmem S4096x16 .f32) (harg6 : arg6.IsWhole)
    (arg7 : Memref sig .tc .vmem S4096x16 .f32) (harg7 : arg7.IsWhole) (arg8 : Memref sig .tc .vmem S4096x16 .f32) (harg8 : arg8.IsWhole)
    (x0 x1 x2 : Vec F S4096x32 .f32) (x3 : Vec F S3x32x16 .f32) (x4 : Vec F S1x16 .f32) (x5 x6 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out12_7 x0 x1 x2 x3 x4 x5 x6)) -∗ K ⟨⟩))
      ⊢ wp frame (wpE (defs₀ (F := F)) Variants.none c none) E
          (cc12__cand_body i arg1 harg1 arg2 harg2 arg3 harg3 arg4 harg4 arg5 harg5 arg6 harg6 arg7 harg7 arg8 harg8) K := by
  simp only [cc12__cand_body_eq_skeleton]; unfold cc12__cand_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover12_h _)

end Region12

end Cert.Kernel.Reg
end
-- ==== Proof.KReg12Data.lean ====
/-
  The candidate region of the second layer: its proof data and body obligation at a parameter `V`.

  Each of the seven input windows (three blocks of diffusion terms, the weight stack, the bias row, the update gate's
  block, the hidden block) is only read, so its staging buffer holds its block of the array at every point whether or
  not the pipeline fetched it there; the output buffer is overwritten whole at every point. The body obligation at a
  point is then the body's triple at the point's blocks.
-/
import proofs.«172830_g53506702573898_cont_9to1_m_1152_4_alg».proof.Proof.KReg12Body

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12

variable (V : (c : Dev nD) → (b : Ref sig .tc) → Buf (Elt F) ((c : Thread nD τ).loc b))

/-! ## Each input window's staging buffer holds its block at every point, fetched there or not -/

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region12

end Cert.Kernel.Reg
end
-- ==== Proof.KFold.lean ====
/-
  The buffers' contents between the items of @main, as an explicit fold from the launch memory.

  @main is thirty items: thirteen kernel regions among seventeen stretches of host operations. After a host stretch
  every buffer holds what the stretch's operations leave (`StableHlo.after`); after a region each output window's
  array holds what the pipeline's write-backs leave of it (the proof data's `arrAt` at the last point) and every other
  buffer is as the region found it. Each region's proof data are taken at the contents the region is entered from.
  The fold is then matched with the generated valuations, which are written over unknown region outputs.
-/
import proofs.«172830_g53506702573898_cont_9to1_m_1152_4_alg».proof.Proof.KReg0Dat
import proofs.«172830_g53506702573898_cont_9to1_m_1152_4_alg».proof.Proof.KReg1Frame
import proofs.«172830_g53506702573898_cont_9to1_m_1152_4_alg».proof.Proof.KReg2Frame
import proofs.«172830_g53506702573898_cont_9to1_m_1152_4_alg».proof.Proof.KReg3Data
import proofs.«172830_g53506702573898_cont_9to1_m_1152_4_alg».proof.Proof.KReg4Frame
import proofs.«172830_g53506702573898_cont_9to1_m_1152_4_alg».proof.Proof.KReg5Frame
import proofs.«172830_g53506702573898_cont_9to1_m_1152_4_alg».proof.Proof.KReg6Data
import proofs.«172830_g53506702573898_cont_9to1_m_1152_4_alg».proof.Proof.KReg7Frame
import proofs.«172830_g53506702573898_cont_9to1_m_1152_4_alg».proof.Proof.KReg8Frame
import proofs.«172830_g53506702573898_cont_9to1_m_1152_4_alg».proof.Proof.KReg9Data
import proofs.«172830_g53506702573898_cont_9to1_m_1152_4_alg».proof.Proof.KReg10Frame
import proofs.«172830_g53506702573898_cont_9to1_m_1152_4_alg».proof.Proof.KReg11Frame
import proofs.«172830_g53506702573898_cont_9to1_m_1152_4_alg».proof.Proof.KReg12Data
import proofs.«172830_g53506702573898_cont_9to1_m_1152_4_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A valuation read at the TensorCore's references (what a region's proof data take). -/
abbrev tcv (W : Dev nD → Valuation τ sig (Elt F)) : (c : Dev nD) → (b : Ref sig .tc) → Buf (Elt F) ((c : Thread nD τ).loc b) :=
  fun c b => W c b

/-- Core `c`'s buffers at launch. -/
abbrev W0 (c : Dev nD) : Valuation τ sig (Elt F) := fun b => m (c, b)
/-- After kernel region 0: its output arrays at what the write-backs leave. -/
def W1 (c : Dev nD) : Valuation τ sig (Elt F) :=
  Function.update (Function.update (W0 m c) main_v0_0 ((dat0 (tcv (W0 m)) c).arrAt 2 cfg0.N)) main_v0_1 ((dat0 (tcv (W0 m)) c).arrAt 3 cfg0.N)
/-- After the host stretch `hostOps1`. -/
abbrev W2 (c : Dev nD) : Valuation τ sig (Elt F) := StableHlo.after hostOps1 (W1 m c)
/-- After the host stretch `hostOps1_1`. -/
abbrev W3 (c : Dev nD) : Valuation τ sig (Elt F) := StableHlo.after hostOps1_1 (W2 m c)
/-- After the host stretch `hostOps1_2`. -/
abbrev W4 (c : Dev nD) : Valuation τ sig (Elt F) := StableHlo.after hostOps1_2 (W3 m c)
/-- After the host stretch `hostOps1_3`. -/
abbrev W5 (c : Dev nD) : Valuation τ sig (Elt F) := StableHlo.after hostOps1_3 (W4 m c)
/-- After the host stretch `hostOps1_4`. -/
abbrev W6 (c : Dev nD) : Valuation τ sig (Elt F) := StableHlo.after hostOps1_4 (W5 m c)
/-- After kernel region 1: its output array at what the write-backs leave. -/
def W7 (c : Dev nD) : Valuation τ sig (Elt F) :=
  Function.update (W6 m c) main_v24 ((dat1 (tcv (W6 m)) c).arrAt 5 cfg1.N)
/-- After kernel region 2: its output array at what the write-backs leave. -/
def W8 (c : Dev nD) : Valuation τ sig (Elt F) :=
  Function.update (W7 m c) main_v25 ((dat2 (tcv (W7 m)) c).arrAt 5 cfg2.N)
/-- After the host stretch `hostOps3`. -/
abbrev W9 (c : Dev nD) : Valuation τ sig (Elt F) := StableHlo.after hostOps3 (W8 m c)
/-- After kernel region 3: its output arrays at what the write-backs leave. -/
def W10 (c : Dev nD) : Valuation τ sig (Elt F) :=
  Function.update (Function.update (W9 m c) main_v29_0 ((dat3 (tcv (W9 m)) c).arrAt 8 cfg3.N)) main_v29_1 ((dat3 (tcv (W9 m)) c).arrAt 9 cfg3.N)
/-- After the host stretch `hostOps4`. -/
abbrev W11 (c : Dev nD) : Valuation τ sig (Elt F) := StableHlo.after hostOps4 (W10 m c)
/-- After kernel region 4: its output array at what the write-backs leave. -/
def W12 (c : Dev nD) : Valuation τ sig (Elt F) :=
  Function.update (W11 m c) main_v34 ((dat4 (tcv (W11 m)) c).arrAt 5 cfg4.N)
/-- After kernel region 5: its output array at what the write-backs leave. -/
def W13 (c : Dev nD) : Valuation τ sig (Elt F) :=
  Function.update (W12 m c) main_v35 ((dat5 (tcv (W12 m)) c).arrAt 5 cfg5.N)
/-- After the host stretch `hostOps6`. -/
abbrev W14 (c : Dev nD) : Valuation τ sig (Elt F) := StableHlo.after hostOps6 (W13 m c)
/-- After kernel region 6: its output array at what the write-backs leave. -/
def W15 (c : Dev nD) : Valuation τ sig (Elt F) :=
  Function.update (W14 m c) main_v39 ((dat6 (tcv (W14 m)) c).arrAt 7 cfg6.N)
/-- After the host stretch `hostOps7`. -/
abbrev W16 (c : Dev nD) : Valuation τ sig (Elt F) := StableHlo.after hostOps7 (W15 m c)
/-- After the host stretch `hostOps7_1`. -/
abbrev W17 (c : Dev nD) : Valuation τ sig (Elt F) := StableHlo.after hostOps7_1 (W16 m c)
/-- After the host stretch `hostOps7_2`. -/
abbrev W18 (c : Dev nD) : Valuation τ sig (Elt F) := StableHlo.after hostOps7_2 (W17 m c)
/-- After the host stretch `hostOps7_3`. -/
abbrev W19 (c : Dev nD) : Valuation τ sig (Elt F) := StableHlo.after hostOps7_3 (W18 m c)
/-- After the host stretch `hostOps7_4`. -/
abbrev W20 (c : Dev nD) : Valuation τ sig (Elt F) := StableHlo.after hostOps7_4 (W19 m c)
/-- After kernel region 7: its output array at what the write-backs leave. -/
def W21 (c : Dev nD) : Valuation τ sig (Elt F) :=
  Function.update (W20 m c) main_v64 ((dat7 (tcv (W20 m)) c).arrAt 5 cfg7.N)
/-- After kernel region 8: its output array at what the write-backs leave. -/
def W22 (c : Dev nD) : Valuation τ sig (Elt F) :=
  Function.update (W21 m c) main_v65 ((dat8 (tcv (W21 m)) c).arrAt 5 cfg8.N)
/-- After the host stretch `hostOps9`. -/
abbrev W23 (c : Dev nD) : Valuation τ sig (Elt F) := StableHlo.after hostOps9 (W22 m c)
/-- After kernel region 9: its output arrays at what the write-backs leave. -/
def W24 (c : Dev nD) : Valuation τ sig (Elt F) :=
  Function.update (Function.update (W23 m c) main_v69_0 ((dat9 (tcv (W23 m)) c).arrAt 8 cfg9.N)) main_v69_1 ((dat9 (tcv (W23 m)) c).arrAt 9 cfg9.N)
/-- After the host stretch `hostOps10`. -/
abbrev W25 (c : Dev nD) : Valuation τ sig (Elt F) := StableHlo.after hostOps10 (W24 m c)
/-- After kernel region 10: its output array at what the write-backs leave. -/
def W26 (c : Dev nD) : Valuation τ sig (Elt F) :=
  Function.update (W25 m c) main_v74 ((dat10 (tcv (W25 m)) c).arrAt 5 cfg10.N)
/-- After kernel region 11: its output array at what the write-backs leave. -/
def W27 (c : Dev nD) : Valuation τ sig (Elt F) :=
  Function.update (W26 m c) main_v75 ((dat11 (tcv (W26 m)) c).arrAt 5 cfg11.N)
/-- After the host stretch `hostOps12`. -/
abbrev W28 (c : Dev nD) : Valuation τ sig (Elt F) := StableHlo.after hostOps12 (W27 m c)
/-- After kernel region 12: its output array at what the write-backs leave. -/
def W29 (c : Dev nD) : Valuation τ sig (Elt F) :=
  Function.update (W28 m c) main_v79 ((dat12 (tcv (W28 m)) c).arrAt 7 cfg12.N)
/-- After the host stretch `hostOps13`. -/
abbrev W30 (c : Dev nD) : Valuation τ sig (Elt F) := StableHlo.after hostOps13 (W29 m c)

/-- What each region leaves in the buffers it may change, read off the fold. -/
def outs : Outs (F := F) := fun J r c => match J with
  | 1 => W1 m c r
  | 7 => W7 m c r
  | 8 => W8 m c r
  | 10 => W10 m c r
  | 12 => W12 m c r
  | 13 => W13 m c r
  | 15 => W15 m c r
  | 21 => W21 m c r
  | 22 => W22 m c r
  | 24 => W24 m c r
  | 26 => W26 m c r
  | 27 => W27 m c r
  | 29 => W29 m c r
  | _ => W0 m c r

/-! ## The generated valuations, at these outputs, are the fold -/
theorem V1_eq (c : Dev nD) : Gen.V1 m (outs m) c = W1 m c := by
  show Function.update (Function.update (Gen.V0 m c) main_v0_0 (W1 m c main_v0_0)) main_v0_1 (W1 m c main_v0_1) = _
  unfold W1; rw [Function.update_self, Function.update_of_ne (by decide), Function.update_self]
theorem V2_eq (c : Dev nD) : Gen.V2 m (outs m) c = W2 m c := by
  show StableHlo.after hostOps1 (Gen.V1 m (outs m) c) = _
  rw [V1_eq m c]
theorem V3_eq (c : Dev nD) : Gen.V3 m (outs m) c = W3 m c := by
  show StableHlo.after hostOps1_1 (Gen.V2 m (outs m) c) = _
  rw [V2_eq m c]
theorem V4_eq (c : Dev nD) : Gen.V4 m (outs m) c = W4 m c := by
  show StableHlo.after hostOps1_2 (Gen.V3 m (outs m) c) = _
  rw [V3_eq m c]
theorem V5_eq (c : Dev nD) : Gen.V5 m (outs m) c = W5 m c := by
  show StableHlo.after hostOps1_3 (Gen.V4 m (outs m) c) = _
  rw [V4_eq m c]
theorem V6_eq (c : Dev nD) : Gen.V6 m (outs m) c = W6 m c := by
  show StableHlo.after hostOps1_4 (Gen.V5 m (outs m) c) = _
  rw [V5_eq m c]
theorem V7_eq (c : Dev nD) : Gen.V7 m (outs m) c = W7 m c := by
  show Function.update (Gen.V6 m (outs m) c) main_v24 (W7 m c main_v24) = _
  rw [V6_eq m c]; unfold W7; rw [Function.update_self]
theorem V8_eq (c : Dev nD) : Gen.V8 m (outs m) c = W8 m c := by
  show Function.update (Gen.V7 m (outs m) c) main_v25 (W8 m c main_v25) = _
  rw [V7_eq m c]; unfold W8; rw [Function.update_self]
theorem V9_eq (c : Dev nD) : Gen.V9 m (outs m) c = W9 m c := by
  show StableHlo.after hostOps3 (Gen.V8 m (outs m) c) = _
  rw [V8_eq m c]
theorem V10_eq (c : Dev nD) : Gen.V10 m (outs m) c = W10 m c := by
  show Function.update (Function.update (Gen.V9 m (outs m) c) main_v29_0 (W10 m c main_v29_0)) main_v29_1 (W10 m c main_v29_1) = _
  rw [V9_eq m c]; unfold W10; rw [Function.update_self, Function.update_of_ne (by decide), Function.update_self]
theorem V11_eq (c : Dev nD) : Gen.V11 m (outs m) c = W11 m c := by
  show StableHlo.after hostOps4 (Gen.V10 m (outs m) c) = _
  rw [V10_eq m c]
theorem V12_eq (c : Dev nD) : Gen.V12 m (outs m) c = W12 m c := by
  show Function.update (Gen.V11 m (outs m) c) main_v34 (W12 m c main_v34) = _
  rw [V11_eq m c]; unfold W12; rw [Function.update_self]
theorem V13_eq (c : Dev nD) : Gen.V13 m (outs m) c = W13 m c := by
  show Function.update (Gen.V12 m (outs m) c) main_v35 (W13 m c main_v35) = _
  rw [V12_eq m c]; unfold W13; rw [Function.update_self]
theorem V14_eq (c : Dev nD) : Gen.V14 m (outs m) c = W14 m c := by
  show StableHlo.after hostOps6 (Gen.V13 m (outs m) c) = _
  rw [V13_eq m c]
theorem V15_eq (c : Dev nD) : Gen.V15 m (outs m) c = W15 m c := by
  show Function.update (Gen.V14 m (outs m) c) main_v39 (W15 m c main_v39) = _
  rw [V14_eq m c]; unfold W15; rw [Function.update_self]
theorem V16_eq (c : Dev nD) : Gen.V16 m (outs m) c = W16 m c := by
  show StableHlo.after hostOps7 (Gen.V15 m (outs m) c) = _
  rw [V15_eq m c]
theorem V17_eq (c : Dev nD) : Gen.V17 m (outs m) c = W17 m c := by
  show StableHlo.after hostOps7_1 (Gen.V16 m (outs m) c) = _
  rw [V16_eq m c]
theorem V18_eq (c : Dev nD) : Gen.V18 m (outs m) c = W18 m c := by
  show StableHlo.after hostOps7_2 (Gen.V17 m (outs m) c) = _
  rw [V17_eq m c]
theorem V19_eq (c : Dev nD) : Gen.V19 m (outs m) c = W19 m c := by
  show StableHlo.after hostOps7_3 (Gen.V18 m (outs m) c) = _
  rw [V18_eq m c]
theorem V20_eq (c : Dev nD) : Gen.V20 m (outs m) c = W20 m c := by
  show StableHlo.after hostOps7_4 (Gen.V19 m (outs m) c) = _
  rw [V19_eq m c]
theorem V21_eq (c : Dev nD) : Gen.V21 m (outs m) c = W21 m c := by
  show Function.update (Gen.V20 m (outs m) c) main_v64 (W21 m c main_v64) = _
  rw [V20_eq m c]; unfold W21; rw [Function.update_self]
theorem V22_eq (c : Dev nD) : Gen.V22 m (outs m) c = W22 m c := by
  show Function.update (Gen.V21 m (outs m) c) main_v65 (W22 m c main_v65) = _
  rw [V21_eq m c]; unfold W22; rw [Function.update_self]
theorem V23_eq (c : Dev nD) : Gen.V23 m (outs m) c = W23 m c := by
  show StableHlo.after hostOps9 (Gen.V22 m (outs m) c) = _
  rw [V22_eq m c]
theorem V24_eq (c : Dev nD) : Gen.V24 m (outs m) c = W24 m c := by
  show Function.update (Function.update (Gen.V23 m (outs m) c) main_v69_0 (W24 m c main_v69_0)) main_v69_1 (W24 m c main_v69_1) = _
  rw [V23_eq m c]; unfold W24; rw [Function.update_self, Function.update_of_ne (by decide), Function.update_self]
theorem V25_eq (c : Dev nD) : Gen.V25 m (outs m) c = W25 m c := by
  show StableHlo.after hostOps10 (Gen.V24 m (outs m) c) = _
  rw [V24_eq m c]
theorem V26_eq (c : Dev nD) : Gen.V26 m (outs m) c = W26 m c := by
  show Function.update (Gen.V25 m (outs m) c) main_v74 (W26 m c main_v74) = _
  rw [V25_eq m c]; unfold W26; rw [Function.update_self]
theorem V27_eq (c : Dev nD) : Gen.V27 m (outs m) c = W27 m c := by
  show Function.update (Gen.V26 m (outs m) c) main_v75 (W27 m c main_v75) = _
  rw [V26_eq m c]; unfold W27; rw [Function.update_self]
theorem V28_eq (c : Dev nD) : Gen.V28 m (outs m) c = W28 m c := by
  show StableHlo.after hostOps12 (Gen.V27 m (outs m) c) = _
  rw [V27_eq m c]
theorem V29_eq (c : Dev nD) : Gen.V29 m (outs m) c = W29 m c := by
  show Function.update (Gen.V28 m (outs m) c) main_v79 (W29 m c main_v79) = _
  rw [V28_eq m c]; unfold W29; rw [Function.update_self]
theorem V30_eq (c : Dev nD) : Gen.V30 m (outs m) c = W30 m c := by
  show StableHlo.after hostOps13 (Gen.V29 m (outs m) c) = _
  rw [V29_eq m c]

/-! ## The proof data family and what rides beside the buffers -/

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- Every pipeline's proof data, each at the contents its region is entered from. -/
def pdats : (p : Fin 13) → (c : Dev nD) → Dat τ (Elt F) Unit ℕ (UR sig nD τ) ℕ (Pipeline.pin (pcfgs (F := F)) adm p) c
  | ⟨0, _⟩ => fun c => dat0 (tcv (W0 m)) c
  | ⟨1, _⟩ => fun c => dat1 (tcv (W6 m)) c
  | ⟨2, _⟩ => fun c => dat2 (tcv (W7 m)) c
  | ⟨3, _⟩ => fun c => dat3 (tcv (W9 m)) c
  | ⟨4, _⟩ => fun c => dat4 (tcv (W11 m)) c
  | ⟨5, _⟩ => fun c => dat5 (tcv (W12 m)) c
  | ⟨6, _⟩ => fun c => dat6 (tcv (W14 m)) c
  | ⟨7, _⟩ => fun c => dat7 (tcv (W20 m)) c
  | ⟨8, _⟩ => fun c => dat8 (tcv (W21 m)) c
  | ⟨9, _⟩ => fun c => dat9 (tcv (W23 m)) c
  | ⟨10, _⟩ => fun c => dat10 (tcv (W25 m)) c
  | ⟨11, _⟩ => fun c => dat11 (tcv (W26 m)) c
  | ⟨12, _⟩ => fun c => dat12 (tcv (W28 m)) c

/-! ## At a region's exit each of its arrays holds what the pipeline leaves, every other buffer what it held at entry -/

set_option maxHeartbeats 1000000

theorem hF0 (c : Dev nD) : ∀ w : Fin cfg0.W, (dat0 (tcv (W0 m)) c).arrAt w cfg0.N = tcv (W1 m) c (Pipeline.arrRef spec0 w) := fun
  | ⟨0, _⟩ => ((dat0 (tcv (W0 m)) c).arrAt_in 0 rfl _).trans ((A_eq0 (tcv (W0 m)) c 0).trans (by
      show W0 m c (Proc.devRef .tc main_arg2) = W1 m c (Proc.devRef .tc main_arg2); unfold W1; rw [Function.update_of_ne (StableHlo.devRef_ne_of_ne (by decide)), Function.update_of_ne (StableHlo.devRef_ne_of_ne (by decide))]))
  | ⟨1, _⟩ => ((dat0 (tcv (W0 m)) c).arrAt_in 1 rfl _).trans ((A_eq0 (tcv (W0 m)) c 1).trans (by
      show W0 m c (Proc.devRef .tc main_arg2) = W1 m c (Proc.devRef .tc main_arg2); unfold W1; rw [Function.update_of_ne (StableHlo.devRef_ne_of_ne (by decide)), Function.update_of_ne (StableHlo.devRef_ne_of_ne (by decide))]))
  | ⟨2, _⟩ => by
      show _ = W1 m c (Proc.devRef .tc main_v0_0); unfold W1; rw [Function.update_of_ne (StableHlo.devRef_ne_of_ne (by decide)), Function.update_self]; rfl
  | ⟨3, _⟩ => by
      show _ = W1 m c (Proc.devRef .tc main_v0_1); unfold W1; rw [Function.update_self]; rfl

theorem hrest0 (c : Dev nD) : ∀ b, b ∉ Finset.univ.image (Pipeline.arrRef spec0) → tcv (W1 m) c b = tcv (W0 m) c b := fun b hb => by
  have hne : ∀ w, b ≠ Pipeline.arrRef spec0 w := fun w e => hb (Finset.mem_image.mpr ⟨w, Finset.mem_univ _, e.symm⟩)
  show W1 m c (Proc.devRef .tc b) = W0 m c (Proc.devRef .tc b); unfold W1
  rw [Function.update_of_ne (StableHlo.devRef_ne_of_ne (show b ≠ main_v0_1 from hne 3)), Function.update_of_ne (StableHlo.devRef_ne_of_ne (show b ≠ main_v0_0 from hne 2))]

theorem hF1 (c : Dev nD) : ∀ w : Fin cfg1.W, (dat1 (tcv (W6 m)) c).arrAt w cfg1.N = tcv (W7 m) c (Pipeline.arrRef spec1 w) := fun
  | ⟨0, _⟩ => ((dat1 (tcv (W6 m)) c).arrAt_in 0 rfl _).trans ((A_eq1 (tcv (W6 m)) c 0).trans (by
      show W6 m c (Proc.devRef .tc main_v0_0) = W7 m c (Proc.devRef .tc main_v0_0); unfold W7; rw [Function.update_of_ne (StableHlo.devRef_ne_of_ne (by decide))]))
  | ⟨1, _⟩ => ((dat1 (tcv (W6 m)) c).arrAt_in 1 rfl _).trans ((A_eq1 (tcv (W6 m)) c 1).trans (by
      show W6 m c (Proc.devRef .tc main_v23) = W7 m c (Proc.devRef .tc main_v23); unfold W7; rw [Function.update_of_ne (StableHlo.devRef_ne_of_ne (by decide))]))
  | ⟨2, _⟩ => ((dat1 (tcv (W6 m)) c).arrAt_in 2 rfl _).trans ((A_eq1 (tcv (W6 m)) c 2).trans (by
      show W6 m c (Proc.devRef .tc main_v0_1) = W7 m c (Proc.devRef .tc main_v0_1); unfold W7; rw [Function.update_of_ne (StableHlo.devRef_ne_of_ne (by decide))]))
  | ⟨3, _⟩ => ((dat1 (tcv (W6 m)) c).arrAt_in 3 rfl _).trans ((A_eq1 (tcv (W6 m)) c 3).trans (by
      show W6 m c (Proc.devRef .tc main_v0_1) = W7 m c (Proc.devRef .tc main_v0_1); unfold W7; rw [Function.update_of_ne (StableHlo.devRef_ne_of_ne (by decide))]))
  | ⟨4, _⟩ => ((dat1 (tcv (W6 m)) c).arrAt_in 4 rfl _).trans ((A_eq1 (tcv (W6 m)) c 4).trans (by
      show W6 m c (Proc.devRef .tc main_v23) = W7 m c (Proc.devRef .tc main_v23); unfold W7; rw [Function.update_of_ne (StableHlo.devRef_ne_of_ne (by decide))]))
  | ⟨5, _⟩ => by
      show _ = W7 m c (Proc.devRef .tc main_v24); unfold W7; rw [Function.update_self]; rfl

theorem hrest1 (c : Dev nD) : ∀ b, b ∉ Finset.univ.image (Pipeline.arrRef spec1) → tcv (W7 m) c b = tcv (W6 m) c b := fun b hb => by
  have hne : ∀ w, b ≠ Pipeline.arrRef spec1 w := fun w e => hb (Finset.mem_image.mpr ⟨w, Finset.mem_univ _, e.symm⟩)
  show W7 m c (Proc.devRef .tc b) = W6 m c (Proc.devRef .tc b); unfold W7
  rw [Function.update_of_ne (StableHlo.devRef_ne_of_ne (show b ≠ main_v24 from hne 5))]

theorem hF2 (c : Dev nD) : ∀ w : Fin cfg2.W, (dat2 (tcv (W7 m)) c).arrAt w cfg2.N = tcv (W8 m) c (Pipeline.arrRef spec2 w) := fun
  | ⟨0, _⟩ => ((dat2 (tcv (W7 m)) c).arrAt_in 0 rfl _).trans ((A_eq2 (tcv (W7 m)) c 0).trans (by
      show W7 m c (Proc.devRef .tc main_v0_0) = W8 m c (Proc.devRef .tc main_v0_0); unfold W8; rw [Function.update_of_ne (StableHlo.devRef_ne_of_ne (by decide))]))
  | ⟨1, _⟩ => ((dat2 (tcv (W7 m)) c).arrAt_in 1 rfl _).trans ((A_eq2 (tcv (W7 m)) c 1).trans (by
      show W7 m c (Proc.devRef .tc main_v24) = W8 m c (Proc.devRef .tc main_v24); unfold W8; rw [Function.update_of_ne (StableHlo.devRef_ne_of_ne (by decide))]))
  | ⟨2, _⟩ => ((dat2 (tcv (W7 m)) c).arrAt_in 2 rfl _).trans ((A_eq2 (tcv (W7 m)) c 2).trans (by
      show W7 m c (Proc.devRef .tc main_v0_1) = W8 m c (Proc.devRef .tc main_v0_1); unfold W8; rw [Function.update_of_ne (StableHlo.devRef_ne_of_ne (by decide))]))
  | ⟨3, _⟩ => ((dat2 (tcv (W7 m)) c).arrAt_in 3 rfl _).trans ((A_eq2 (tcv (W7 m)) c 3).trans (by
      show W7 m c (Proc.devRef .tc main_v0_1) = W8 m c (Proc.devRef .tc main_v0_1); unfold W8; rw [Function.update_of_ne (StableHlo.devRef_ne_of_ne (by decide))]))
  | ⟨4, _⟩ => ((dat2 (tcv (W7 m)) c).arrAt_in 4 rfl _).trans ((A_eq2 (tcv (W7 m)) c 4).trans (by
      show W7 m c (Proc.devRef .tc main_v23) = W8 m c (Proc.devRef .tc main_v23); unfold W8; rw [Function.update_of_ne (StableHlo.devRef_ne_of_ne (by decide))]))
  | ⟨5, _⟩ => by
      show _ = W8 m c (Proc.devRef .tc main_v25); unfold W8; rw [Function.update_self]; rfl

theorem hrest2 (c : Dev nD) : ∀ b, b ∉ Finset.univ.image (Pipeline.arrRef spec2) → tcv (W8 m) c b = tcv (W7 m) c b := fun b hb => by
  have hne : ∀ w, b ≠ Pipeline.arrRef spec2 w := fun w e => hb (Finset.mem_image.mpr ⟨w, Finset.mem_univ _, e.symm⟩)
  show W8 m c (Proc.devRef .tc b) = W7 m c (Proc.devRef .tc b); unfold W8
  rw [Function.update_of_ne (StableHlo.devRef_ne_of_ne (show b ≠ main_v25 from hne 5))]

theorem hF3 (c : Dev nD) : ∀ w : Fin cfg3.W, (dat3 (tcv (W9 m)) c).arrAt w cfg3.N = tcv (W10 m) c (Pipeline.arrRef spec3 w) := fun
  | ⟨0, _⟩ => ((dat3 (tcv (W9 m)) c).arrAt_in 0 rfl _).trans ((A_eq3 (tcv (W9 m)) c 0).trans (by
      show W9 m c (Proc.devRef .tc main_v26) = W10 m c (Proc.devRef .tc main_v26); unfold W10; rw [Function.update_of_ne (StableHlo.devRef_ne_of_ne (by decide)), Function.update_of_ne (StableHlo.devRef_ne_of_ne (by decide))]))
  | ⟨1, _⟩ => ((dat3 (tcv (W9 m)) c).arrAt_in 1 rfl _).trans ((A_eq3 (tcv (W9 m)) c 1).trans (by
      show W9 m c (Proc.devRef .tc main_v27) = W10 m c (Proc.devRef .tc main_v27); unfold W10; rw [Function.update_of_ne (StableHlo.devRef_ne_of_ne (by decide)), Function.update_of_ne (StableHlo.devRef_ne_of_ne (by decide))]))
  | ⟨2, _⟩ => ((dat3 (tcv (W9 m)) c).arrAt_in 2 rfl _).trans ((A_eq3 (tcv (W9 m)) c 2).trans (by
      show W9 m c (Proc.devRef .tc main_v28) = W10 m c (Proc.devRef .tc main_v28); unfold W10; rw [Function.update_of_ne (StableHlo.devRef_ne_of_ne (by decide)), Function.update_of_ne (StableHlo.devRef_ne_of_ne (by decide))]))
  | ⟨3, _⟩ => ((dat3 (tcv (W9 m)) c).arrAt_in 3 rfl _).trans ((A_eq3 (tcv (W9 m)) c 3).trans (by
      show W9 m c (Proc.devRef .tc main_v6) = W10 m c (Proc.devRef .tc main_v6); unfold W10; rw [Function.update_of_ne (StableHlo.devRef_ne_of_ne (by decide)), Function.update_of_ne (StableHlo.devRef_ne_of_ne (by decide))]))
  | ⟨4, _⟩ => ((dat3 (tcv (W9 m)) c).arrAt_in 4 rfl _).trans ((A_eq3 (tcv (W9 m)) c 4).trans (by
      show W9 m c (Proc.devRef .tc main_v7) = W10 m c (Proc.devRef .tc main_v7); unfold W10; rw [Function.update_of_ne (StableHlo.devRef_ne_of_ne (by decide)), Function.update_of_ne (StableHlo.devRef_ne_of_ne (by decide))]))
  | ⟨5, _⟩ => ((dat3 (tcv (W9 m)) c).arrAt_in 5 rfl _).trans ((A_eq3 (tcv (W9 m)) c 5).trans (by
      show W9 m c (Proc.devRef .tc main_v9) = W10 m c (Proc.devRef .tc main_v9); unfold W10; rw [Function.update_of_ne (StableHlo.devRef_ne_of_ne (by decide)), Function.update_of_ne (StableHlo.devRef_ne_of_ne (by decide))]))
  | ⟨6, _⟩ => ((dat3 (tcv (W9 m)) c).arrAt_in 6 rfl _).trans ((A_eq3 (tcv (W9 m)) c 6).trans (by
      show W9 m c (Proc.devRef .tc main_v11) = W10 m c (Proc.devRef .tc main_v11); unfold W10; rw [Function.update_of_ne (StableHlo.devRef_ne_of_ne (by decide)), Function.update_of_ne (StableHlo.devRef_ne_of_ne (by decide))]))
  | ⟨7, _⟩ => ((dat3 (tcv (W9 m)) c).arrAt_in 7 rfl _).trans ((A_eq3 (tcv (W9 m)) c 7).trans (by
      show W9 m c (Proc.devRef .tc main_v20) = W10 m c (Proc.devRef .tc main_v20); unfold W10; rw [Function.update_of_ne (StableHlo.devRef_ne_of_ne (by decide)), Function.update_of_ne (StableHlo.devRef_ne_of_ne (by decide))]))
  | ⟨8, _⟩ => by
      show _ = W10 m c (Proc.devRef .tc main_v29_0); unfold W10; rw [Function.update_of_ne (StableHlo.devRef_ne_of_ne (by decide)), Function.update_self]; rfl
  | ⟨9, _⟩ => by
      show _ = W10 m c (Proc.devRef .tc main_v29_1); unfold W10; rw [Function.update_self]; rfl

theorem hrest3 (c : Dev nD) : ∀ b, b ∉ Finset.univ.image (Pipeline.arrRef spec3) → tcv (W10 m) c b = tcv (W9 m) c b := fun b hb => by
  have hne : ∀ w, b ≠ Pipeline.arrRef spec3 w := fun w e => hb (Finset.mem_image.mpr ⟨w, Finset.mem_univ _, e.symm⟩)
  show W10 m c (Proc.devRef .tc b) = W9 m c (Proc.devRef .tc b); unfold W10
  rw [Function.update_of_ne (StableHlo.devRef_ne_of_ne (show b ≠ main_v29_1 from hne 9)), Function.update_of_ne (StableHlo.devRef_ne_of_ne (show b ≠ main_v29_0 from hne 8))]

theorem hF4 (c : Dev nD) : ∀ w : Fin cfg4.W, (dat4 (tcv (W11 m)) c).arrAt w cfg4.N = tcv (W12 m) c (Pipeline.arrRef spec4 w) := fun
  | ⟨0, _⟩ => ((dat4 (tcv (W11 m)) c).arrAt_in 0 rfl _).trans ((A_eq4 (tcv (W11 m)) c 0).trans (by
      show W11 m c (Proc.devRef .tc main_v0_0) = W12 m c (Proc.devRef .tc main_v0_0); unfold W12; rw [Function.update_of_ne (StableHlo.devRef_ne_of_ne (by decide))]))
  | ⟨1, _⟩ => ((dat4 (tcv (W11 m)) c).arrAt_in 1 rfl _).trans ((A_eq4 (tcv (W11 m)) c 1).trans (by
      show W11 m c (Proc.devRef .tc main_v33) = W12 m c (Proc.devRef .tc main_v33); unfold W12; rw [Function.update_of_ne (StableHlo.devRef_ne_of_ne (by decide))]))
  | ⟨2, _⟩ => ((dat4 (tcv (W11 m)) c).arrAt_in 2 rfl _).trans ((A_eq4 (tcv (W11 m)) c 2).trans (by
      show W11 m c (Proc.devRef .tc main_v0_1) = W12 m c (Proc.devRef .tc main_v0_1); unfold W12; rw [Function.update_of_ne (StableHlo.devRef_ne_of_ne (by decide))]))
  | ⟨3, _⟩ => ((dat4 (tcv (W11 m)) c).arrAt_in 3 rfl _).trans ((A_eq4 (tcv (W11 m)) c 3).trans (by
      show W11 m c (Proc.devRef .tc main_v0_1) = W12 m c (Proc.devRef .tc main_v0_1); unfold W12; rw [Function.update_of_ne (StableHlo.devRef_ne_of_ne (by decide))]))
  | ⟨4, _⟩ => ((dat4 (tcv (W11 m)) c).arrAt_in 4 rfl _).trans ((A_eq4 (tcv (W11 m)) c 4).trans (by
      show W11 m c (Proc.devRef .tc main_v33) = W12 m c (Proc.devRef .tc main_v33); unfold W12; rw [Function.update_of_ne (StableHlo.devRef_ne_of_ne (by decide))]))
  | ⟨5, _⟩ => by
      show _ = W12 m c (Proc.devRef .tc main_v34); unfold W12; rw [Function.update_self]; rfl

theorem hrest4 (c : Dev nD) : ∀ b, b ∉ Finset.univ.image (Pipeline.arrRef spec4) → tcv (W12 m) c b = tcv (W11 m) c b := fun b hb => by
  have hne : ∀ w, b ≠ Pipeline.arrRef spec4 w := fun w e => hb (Finset.mem_image.mpr ⟨w, Finset.mem_univ _, e.symm⟩)
  show W12 m c (Proc.devRef .tc b) = W11 m c (Proc.devRef .tc b); unfold W12
  rw [Function.update_of_ne (StableHlo.devRef_ne_of_ne (show b ≠ main_v34 from hne 5))]

theorem hF5 (c : Dev nD) : ∀ w : Fin cfg5.W, (dat5 (tcv (W12 m)) c).arrAt w cfg5.N = tcv (W13 m) c (Pipeline.arrRef spec5 w) := fun
  | ⟨0, _⟩ => ((dat5 (tcv (W12 m)) c).arrAt_in 0 rfl _).trans ((A_eq5 (tcv (W12 m)) c 0).trans (by
      show W12 m c (Proc.devRef .tc main_v0_0) = W13 m c (Proc.devRef .tc main_v0_0); unfold W13; rw [Function.update_of_ne (StableHlo.devRef_ne_of_ne (by decide))]))
  | ⟨1, _⟩ => ((dat5 (tcv (W12 m)) c).arrAt_in 1 rfl _).trans ((A_eq5 (tcv (W12 m)) c 1).trans (by
      show W12 m c (Proc.devRef .tc main_v34) = W13 m c (Proc.devRef .tc main_v34); unfold W13; rw [Function.update_of_ne (StableHlo.devRef_ne_of_ne (by decide))]))
  | ⟨2, _⟩ => ((dat5 (tcv (W12 m)) c).arrAt_in 2 rfl _).trans ((A_eq5 (tcv (W12 m)) c 2).trans (by
      show W12 m c (Proc.devRef .tc main_v0_1) = W13 m c (Proc.devRef .tc main_v0_1); unfold W13; rw [Function.update_of_ne (StableHlo.devRef_ne_of_ne (by decide))]))
  | ⟨3, _⟩ => ((dat5 (tcv (W12 m)) c).arrAt_in 3 rfl _).trans ((A_eq5 (tcv (W12 m)) c 3).trans (by
      show W12 m c (Proc.devRef .tc main_v0_1) = W13 m c (Proc.devRef .tc main_v0_1); unfold W13; rw [Function.update_of_ne (StableHlo.devRef_ne_of_ne (by decide))]))
  | ⟨4, _⟩ => ((dat5 (tcv (W12 m)) c).arrAt_in 4 rfl _).trans ((A_eq5 (tcv (W12 m)) c 4).trans (by
      show W12 m c (Proc.devRef .tc main_v33) = W13 m c (Proc.devRef .tc main_v33); unfold W13; rw [Function.update_of_ne (StableHlo.devRef_ne_of_ne (by decide))]))
  | ⟨5, _⟩ => by
      show _ = W13 m c (Proc.devRef .tc main_v35); unfold W13; rw [Function.update_self]; rfl

theorem hrest5 (c : Dev nD) : ∀ b, b ∉ Finset.univ.image (Pipeline.arrRef spec5) → tcv (W13 m) c b = tcv (W12 m) c b := fun b hb => by
  have hne : ∀ w, b ≠ Pipeline.arrRef spec5 w := fun w e => hb (Finset.mem_image.mpr ⟨w, Finset.mem_univ _, e.symm⟩)
  show W13 m c (Proc.devRef .tc b) = W12 m c (Proc.devRef .tc b); unfold W13
  rw [Function.update_of_ne (StableHlo.devRef_ne_of_ne (show b ≠ main_v35 from hne 5))]

theorem hF6 (c : Dev nD) : ∀ w : Fin cfg6.W, (dat6 (tcv (W14 m)) c).arrAt w cfg6.N = tcv (W15 m) c (Pipeline.arrRef spec6 w) := fun
  | ⟨0, _⟩ => ((dat6 (tcv (W14 m)) c).arrAt_in 0 rfl _).trans ((A_eq6 (tcv (W14 m)) c 0).trans (by
      show W14 m c (Proc.devRef .tc main_v36) = W15 m c (Proc.devRef .tc main_v36); unfold W15; rw [Function.update_of_ne (StableHlo.devRef_ne_of_ne (by decide))]))
  | ⟨1, _⟩ => ((dat6 (tcv (W14 m)) c).arrAt_in 1 rfl _).trans ((A_eq6 (tcv (W14 m)) c 1).trans (by
      show W14 m c (Proc.devRef .tc main_v37) = W15 m c (Proc.devRef .tc main_v37); unfold W15; rw [Function.update_of_ne (StableHlo.devRef_ne_of_ne (by decide))]))
  | ⟨2, _⟩ => ((dat6 (tcv (W14 m)) c).arrAt_in 2 rfl _).trans ((A_eq6 (tcv (W14 m)) c 2).trans (by
      show W14 m c (Proc.devRef .tc main_v38) = W15 m c (Proc.devRef .tc main_v38); unfold W15; rw [Function.update_of_ne (StableHlo.devRef_ne_of_ne (by decide))]))
  | ⟨3, _⟩ => ((dat6 (tcv (W14 m)) c).arrAt_in 3 rfl _).trans ((A_eq6 (tcv (W14 m)) c 3).trans (by
      show W14 m c (Proc.devRef .tc main_v14) = W15 m c (Proc.devRef .tc main_v14); unfold W15; rw [Function.update_of_ne (StableHlo.devRef_ne_of_ne (by decide))]))
  | ⟨4, _⟩ => ((dat6 (tcv (W14 m)) c).arrAt_in 4 rfl _).trans ((A_eq6 (tcv (W14 m)) c 4).trans (by
      show W14 m c (Proc.devRef .tc main_v15) = W15 m c (Proc.devRef .tc main_v15); unfold W15; rw [Function.update_of_ne (StableHlo.devRef_ne_of_ne (by decide))]))
  | ⟨5, _⟩ => ((dat6 (tcv (W14 m)) c).arrAt_in 5 rfl _).trans ((A_eq6 (tcv (W14 m)) c 5).trans (by
      show W14 m c (Proc.devRef .tc main_v29_1) = W15 m c (Proc.devRef .tc main_v29_1); unfold W15; rw [Function.update_of_ne (StableHlo.devRef_ne_of_ne (by decide))]))
  | ⟨6, _⟩ => ((dat6 (tcv (W14 m)) c).arrAt_in 6 rfl _).trans ((A_eq6 (tcv (W14 m)) c 6).trans (by
      show W14 m c (Proc.devRef .tc main_v20) = W15 m c (Proc.devRef .tc main_v20); unfold W15; rw [Function.update_of_ne (StableHlo.devRef_ne_of_ne (by decide))]))
  | ⟨7, _⟩ => by
      show _ = W15 m c (Proc.devRef .tc main_v39); unfold W15; rw [Function.update_self]; rfl

theorem hrest6 (c : Dev nD) : ∀ b, b ∉ Finset.univ.image (Pipeline.arrRef spec6) → tcv (W15 m) c b = tcv (W14 m) c b := fun b hb => by
  have hne : ∀ w, b ≠ Pipeline.arrRef spec6 w := fun w e => hb (Finset.mem_image.mpr ⟨w, Finset.mem_univ _, e.symm⟩)
  show W15 m c (Proc.devRef .tc b) = W14 m c (Proc.devRef .tc b); unfold W15
  rw [Function.update_of_ne (StableHlo.devRef_ne_of_ne (show b ≠ main_v39 from hne 7))]

theorem hF7 (c : Dev nD) : ∀ w : Fin cfg7.W, (dat7 (tcv (W20 m)) c).arrAt w cfg7.N = tcv (W21 m) c (Pipeline.arrRef spec7 w) := fun
  | ⟨0, _⟩ => ((dat7 (tcv (W20 m)) c).arrAt_in 0 rfl _).trans ((A_eq7 (tcv (W20 m)) c 0).trans (by
      show W20 m c (Proc.devRef .tc main_v0_0) = W21 m c (Proc.devRef .tc main_v0_0); unfold W21; rw [Function.update_of_ne (StableHlo.devRef_ne_of_ne (by decide))]))
  | ⟨1, _⟩ => ((dat7 (tcv (W20 m)) c).arrAt_in 1 rfl _).trans ((A_eq7 (tcv (W20 m)) c 1).trans (by
      show W20 m c (Proc.devRef .tc main_v63) = W21 m c (Proc.devRef .tc main_v63); unfold W21; rw [Function.update_of_ne (StableHlo.devRef_ne_of_ne (by decide))]))
  | ⟨2, _⟩ => ((dat7 (tcv (W20 m)) c).arrAt_in 2 rfl _).trans ((A_eq7 (tcv (W20 m)) c 2).trans (by
      show W20 m c (Proc.devRef .tc main_v0_1) = W21 m c (Proc.devRef .tc main_v0_1); unfold W21; rw [Function.update_of_ne (StableHlo.devRef_ne_of_ne (by decide))]))
  | ⟨3, _⟩ => ((dat7 (tcv (W20 m)) c).arrAt_in 3 rfl _).trans ((A_eq7 (tcv (W20 m)) c 3).trans (by
      show W20 m c (Proc.devRef .tc main_v0_1) = W21 m c (Proc.devRef .tc main_v0_1); unfold W21; rw [Function.update_of_ne (StableHlo.devRef_ne_of_ne (by decide))]))
  | ⟨4, _⟩ => ((dat7 (tcv (W20 m)) c).arrAt_in 4 rfl _).trans ((A_eq7 (tcv (W20 m)) c 4).trans (by
      show W20 m c (Proc.devRef .tc main_v63) = W21 m c (Proc.devRef .tc main_v63); unfold W21; rw [Function.update_of_ne (StableHlo.devRef_ne_of_ne (by decide))]))
  | ⟨5, _⟩ => by
      show _ = W21 m c (Proc.devRef .tc main_v64); unfold W21; rw [Function.update_self]; rfl

theorem hrest7 (c : Dev nD) : ∀ b, b ∉ Finset.univ.image (Pipeline.arrRef spec7) → tcv (W21 m) c b = tcv (W20 m) c b := fun b hb => by
  have hne : ∀ w, b ≠ Pipeline.arrRef spec7 w := fun w e => hb (Finset.mem_image.mpr ⟨w, Finset.mem_univ _, e.symm⟩)
  show W21 m c (Proc.devRef .tc b) = W20 m c (Proc.devRef .tc b); unfold W21
  rw [Function.update_of_ne (StableHlo.devRef_ne_of_ne (show b ≠ main_v64 from hne 5))]

theorem hF8 (c : Dev nD) : ∀ w : Fin cfg8.W, (dat8 (tcv (W21 m)) c).arrAt w cfg8.N = tcv (W22 m) c (Pipeline.arrRef spec8 w) := fun
  | ⟨0, _⟩ => ((dat8 (tcv (W21 m)) c).arrAt_in 0 rfl _).trans ((A_eq8 (tcv (W21 m)) c 0).trans (by
      show W21 m c (Proc.devRef .tc main_v0_0) = W22 m c (Proc.devRef .tc main_v0_0); unfold W22; rw [Function.update_of_ne (StableHlo.devRef_ne_of_ne (by decide))]))
  | ⟨1, _⟩ => ((dat8 (tcv (W21 m)) c).arrAt_in 1 rfl _).trans ((A_eq8 (tcv (W21 m)) c 1).trans (by
      show W21 m c (Proc.devRef .tc main_v64) = W22 m c (Proc.devRef .tc main_v64); unfold W22; rw [Function.update_of_ne (StableHlo.devRef_ne_of_ne (by decide))]))
  | ⟨2, _⟩ => ((dat8 (tcv (W21 m)) c).arrAt_in 2 rfl _).trans ((A_eq8 (tcv (W21 m)) c 2).trans (by
      show W21 m c (Proc.devRef .tc main_v0_1) = W22 m c (Proc.devRef .tc main_v0_1); unfold W22; rw [Function.update_of_ne (StableHlo.devRef_ne_of_ne (by decide))]))
  | ⟨3, _⟩ => ((dat8 (tcv (W21 m)) c).arrAt_in 3 rfl _).trans ((A_eq8 (tcv (W21 m)) c 3).trans (by
      show W21 m c (Proc.devRef .tc main_v0_1) = W22 m c (Proc.devRef .tc main_v0_1); unfold W22; rw [Function.update_of_ne (StableHlo.devRef_ne_of_ne (by decide))]))
  | ⟨4, _⟩ => ((dat8 (tcv (W21 m)) c).arrAt_in 4 rfl _).trans ((A_eq8 (tcv (W21 m)) c 4).trans (by
      show W21 m c (Proc.devRef .tc main_v63) = W22 m c (Proc.devRef .tc main_v63); unfold W22; rw [Function.update_of_ne (StableHlo.devRef_ne_of_ne (by decide))]))
  | ⟨5, _⟩ => by
      show _ = W22 m c (Proc.devRef .tc main_v65); unfold W22; rw [Function.update_self]; rfl

theorem hrest8 (c : Dev nD) : ∀ b, b ∉ Finset.univ.image (Pipeline.arrRef spec8) → tcv (W22 m) c b = tcv (W21 m) c b := fun b hb => by
  have hne : ∀ w, b ≠ Pipeline.arrRef spec8 w := fun w e => hb (Finset.mem_image.mpr ⟨w, Finset.mem_univ _, e.symm⟩)
  show W22 m c (Proc.devRef .tc b) = W21 m c (Proc.devRef .tc b); unfold W22
  rw [Function.update_of_ne (StableHlo.devRef_ne_of_ne (show b ≠ main_v65 from hne 5))]

theorem hF9 (c : Dev nD) : ∀ w : Fin cfg9.W, (dat9 (tcv (W23 m)) c).arrAt w cfg9.N = tcv (W24 m) c (Pipeline.arrRef spec9 w) := fun
  | ⟨0, _⟩ => ((dat9 (tcv (W23 m)) c).arrAt_in 0 rfl _).trans ((A_eq9 (tcv (W23 m)) c 0).trans (by
      show W23 m c (Proc.devRef .tc main_v66) = W24 m c (Proc.devRef .tc main_v66); unfold W24; rw [Function.update_of_ne (StableHlo.devRef_ne_of_ne (by decide)), Function.update_of_ne (StableHlo.devRef_ne_of_ne (by decide))]))
  | ⟨1, _⟩ => ((dat9 (tcv (W23 m)) c).arrAt_in 1 rfl _).trans ((A_eq9 (tcv (W23 m)) c 1).trans (by
      show W23 m c (Proc.devRef .tc main_v67) = W24 m c (Proc.devRef .tc main_v67); unfold W24; rw [Function.update_of_ne (StableHlo.devRef_ne_of_ne (by decide)), Function.update_of_ne (StableHlo.devRef_ne_of_ne (by decide))]))
  | ⟨2, _⟩ => ((dat9 (tcv (W23 m)) c).arrAt_in 2 rfl _).trans ((A_eq9 (tcv (W23 m)) c 2).trans (by
      show W23 m c (Proc.devRef .tc main_v68) = W24 m c (Proc.devRef .tc main_v68); unfold W24; rw [Function.update_of_ne (StableHlo.devRef_ne_of_ne (by decide)), Function.update_of_ne (StableHlo.devRef_ne_of_ne (by decide))]))
  | ⟨3, _⟩ => ((dat9 (tcv (W23 m)) c).arrAt_in 3 rfl _).trans ((A_eq9 (tcv (W23 m)) c 3).trans (by
      show W23 m c (Proc.devRef .tc main_v46) = W24 m c (Proc.devRef .tc main_v46); unfold W24; rw [Function.update_of_ne (StableHlo.devRef_ne_of_ne (by decide)), Function.update_of_ne (StableHlo.devRef_ne_of_ne (by decide))]))
  | ⟨4, _⟩ => ((dat9 (tcv (W23 m)) c).arrAt_in 4 rfl _).trans ((A_eq9 (tcv (W23 m)) c 4).trans (by
      show W23 m c (Proc.devRef .tc main_v47) = W24 m c (Proc.devRef .tc main_v47); unfold W24; rw [Function.update_of_ne (StableHlo.devRef_ne_of_ne (by decide)), Function.update_of_ne (StableHlo.devRef_ne_of_ne (by decide))]))
  | ⟨5, _⟩ => ((dat9 (tcv (W23 m)) c).arrAt_in 5 rfl _).trans ((A_eq9 (tcv (W23 m)) c 5).trans (by
      show W23 m c (Proc.devRef .tc main_v49) = W24 m c (Proc.devRef .tc main_v49); unfold W24; rw [Function.update_of_ne (StableHlo.devRef_ne_of_ne (by decide)), Function.update_of_ne (StableHlo.devRef_ne_of_ne (by decide))]))
  | ⟨6, _⟩ => ((dat9 (tcv (W23 m)) c).arrAt_in 6 rfl _).trans ((A_eq9 (tcv (W23 m)) c 6).trans (by
      show W23 m c (Proc.devRef .tc main_v51) = W24 m c (Proc.devRef .tc main_v51); unfold W24; rw [Function.update_of_ne (StableHlo.devRef_ne_of_ne (by decide)), Function.update_of_ne (StableHlo.devRef_ne_of_ne (by decide))]))
  | ⟨7, _⟩ => ((dat9 (tcv (W23 m)) c).arrAt_in 7 rfl _).trans ((A_eq9 (tcv (W23 m)) c 7).trans (by
      show W23 m c (Proc.devRef .tc main_v60) = W24 m c (Proc.devRef .tc main_v60); unfold W24; rw [Function.update_of_ne (StableHlo.devRef_ne_of_ne (by decide)), Function.update_of_ne (StableHlo.devRef_ne_of_ne (by decide))]))
  | ⟨8, _⟩ => by
      show _ = W24 m c (Proc.devRef .tc main_v69_0); unfold W24; rw [Function.update_of_ne (StableHlo.devRef_ne_of_ne (by decide)), Function.update_self]; rfl
  | ⟨9, _⟩ => by
      show _ = W24 m c (Proc.devRef .tc main_v69_1); unfold W24; rw [Function.update_self]; rfl

theorem hrest9 (c : Dev nD) : ∀ b, b ∉ Finset.univ.image (Pipeline.arrRef spec9) → tcv (W24 m) c b = tcv (W23 m) c b := fun b hb => by
  have hne : ∀ w, b ≠ Pipeline.arrRef spec9 w := fun w e => hb (Finset.mem_image.mpr ⟨w, Finset.mem_univ _, e.symm⟩)
  show W24 m c (Proc.devRef .tc b) = W23 m c (Proc.devRef .tc b); unfold W24
  rw [Function.update_of_ne (StableHlo.devRef_ne_of_ne (show b ≠ main_v69_1 from hne 9)), Function.update_of_ne (StableHlo.devRef_ne_of_ne (show b ≠ main_v69_0 from hne 8))]

theorem hF10 (c : Dev nD) : ∀ w : Fin cfg10.W, (dat10 (tcv (W25 m)) c).arrAt w cfg10.N = tcv (W26 m) c (Pipeline.arrRef spec10 w) := fun
  | ⟨0, _⟩ => ((dat10 (tcv (W25 m)) c).arrAt_in 0 rfl _).trans ((A_eq10 (tcv (W25 m)) c 0).trans (by
      show W25 m c (Proc.devRef .tc main_v0_0) = W26 m c (Proc.devRef .tc main_v0_0); unfold W26; rw [Function.update_of_ne (StableHlo.devRef_ne_of_ne (by decide))]))
  | ⟨1, _⟩ => ((dat10 (tcv (W25 m)) c).arrAt_in 1 rfl _).trans ((A_eq10 (tcv (W25 m)) c 1).trans (by
      show W25 m c (Proc.devRef .tc main_v73) = W26 m c (Proc.devRef .tc main_v73); unfold W26; rw [Function.update_of_ne (StableHlo.devRef_ne_of_ne (by decide))]))
  | ⟨2, _⟩ => ((dat10 (tcv (W25 m)) c).arrAt_in 2 rfl _).trans ((A_eq10 (tcv (W25 m)) c 2).trans (by
      show W25 m c (Proc.devRef .tc main_v0_1) = W26 m c (Proc.devRef .tc main_v0_1); unfold W26; rw [Function.update_of_ne (StableHlo.devRef_ne_of_ne (by decide))]))
  | ⟨3, _⟩ => ((dat10 (tcv (W25 m)) c).arrAt_in 3 rfl _).trans ((A_eq10 (tcv (W25 m)) c 3).trans (by
      show W25 m c (Proc.devRef .tc main_v0_1) = W26 m c (Proc.devRef .tc main_v0_1); unfold W26; rw [Function.update_of_ne (StableHlo.devRef_ne_of_ne (by decide))]))
  | ⟨4, _⟩ => ((dat10 (tcv (W25 m)) c).arrAt_in 4 rfl _).trans ((A_eq10 (tcv (W25 m)) c 4).trans (by
      show W25 m c (Proc.devRef .tc main_v73) = W26 m c (Proc.devRef .tc main_v73); unfold W26; rw [Function.update_of_ne (StableHlo.devRef_ne_of_ne (by decide))]))
  | ⟨5, _⟩ => by
      show _ = W26 m c (Proc.devRef .tc main_v74); unfold W26; rw [Function.update_self]; rfl

theorem hrest10 (c : Dev nD) : ∀ b, b ∉ Finset.univ.image (Pipeline.arrRef spec10) → tcv (W26 m) c b = tcv (W25 m) c b := fun b hb => by
  have hne : ∀ w, b ≠ Pipeline.arrRef spec10 w := fun w e => hb (Finset.mem_image.mpr ⟨w, Finset.mem_univ _, e.symm⟩)
  show W26 m c (Proc.devRef .tc b) = W25 m c (Proc.devRef .tc b); unfold W26
  rw [Function.update_of_ne (StableHlo.devRef_ne_of_ne (show b ≠ main_v74 from hne 5))]

theorem hF11 (c : Dev nD) : ∀ w : Fin cfg11.W, (dat11 (tcv (W26 m)) c).arrAt w cfg11.N = tcv (W27 m) c (Pipeline.arrRef spec11 w) := fun
  | ⟨0, _⟩ => ((dat11 (tcv (W26 m)) c).arrAt_in 0 rfl _).trans ((A_eq11 (tcv (W26 m)) c 0).trans (by
      show W26 m c (Proc.devRef .tc main_v0_0) = W27 m c (Proc.devRef .tc main_v0_0); unfold W27; rw [Function.update_of_ne (StableHlo.devRef_ne_of_ne (by decide))]))
  | ⟨1, _⟩ => ((dat11 (tcv (W26 m)) c).arrAt_in 1 rfl _).trans ((A_eq11 (tcv (W26 m)) c 1).trans (by
      show W26 m c (Proc.devRef .tc main_v74) = W27 m c (Proc.devRef .tc main_v74); unfold W27; rw [Function.update_of_ne (StableHlo.devRef_ne_of_ne (by decide))]))
  | ⟨2, _⟩ => ((dat11 (tcv (W26 m)) c).arrAt_in 2 rfl _).trans ((A_eq11 (tcv (W26 m)) c 2).trans (by
      show W26 m c (Proc.devRef .tc main_v0_1) = W27 m c (Proc.devRef .tc main_v0_1); unfold W27; rw [Function.update_of_ne (StableHlo.devRef_ne_of_ne (by decide))]))
  | ⟨3, _⟩ => ((dat11 (tcv (W26 m)) c).arrAt_in 3 rfl _).trans ((A_eq11 (tcv (W26 m)) c 3).trans (by
      show W26 m c (Proc.devRef .tc main_v0_1) = W27 m c (Proc.devRef .tc main_v0_1); unfold W27; rw [Function.update_of_ne (StableHlo.devRef_ne_of_ne (by decide))]))
  | ⟨4, _⟩ => ((dat11 (tcv (W26 m)) c).arrAt_in 4 rfl _).trans ((A_eq11 (tcv (W26 m)) c 4).trans (by
      show W26 m c (Proc.devRef .tc main_v73) = W27 m c (Proc.devRef .tc main_v73); unfold W27; rw [Function.update_of_ne (StableHlo.devRef_ne_of_ne (by decide))]))
  | ⟨5, _⟩ => by
      show _ = W27 m c (Proc.devRef .tc main_v75); unfold W27; rw [Function.update_self]; rfl

theorem hrest11 (c : Dev nD) : ∀ b, b ∉ Finset.univ.image (Pipeline.arrRef spec11) → tcv (W27 m) c b = tcv (W26 m) c b := fun b hb => by
  have hne : ∀ w, b ≠ Pipeline.arrRef spec11 w := fun w e => hb (Finset.mem_image.mpr ⟨w, Finset.mem_univ _, e.symm⟩)
  show W27 m c (Proc.devRef .tc b) = W26 m c (Proc.devRef .tc b); unfold W27
  rw [Function.update_of_ne (StableHlo.devRef_ne_of_ne (show b ≠ main_v75 from hne 5))]

theorem hF12 (c : Dev nD) : ∀ w : Fin cfg12.W, (dat12 (tcv (W28 m)) c).arrAt w cfg12.N = tcv (W29 m) c (Pipeline.arrRef spec12 w) := fun
  | ⟨0, _⟩ => ((dat12 (tcv (W28 m)) c).arrAt_in 0 rfl _).trans ((A_eq12 (tcv (W28 m)) c 0).trans (by
      show W28 m c (Proc.devRef .tc main_v76) = W29 m c (Proc.devRef .tc main_v76); unfold W29; rw [Function.update_of_ne (StableHlo.devRef_ne_of_ne (by decide))]))
  | ⟨1, _⟩ => ((dat12 (tcv (W28 m)) c).arrAt_in 1 rfl _).trans ((A_eq12 (tcv (W28 m)) c 1).trans (by
      show W28 m c (Proc.devRef .tc main_v77) = W29 m c (Proc.devRef .tc main_v77); unfold W29; rw [Function.update_of_ne (StableHlo.devRef_ne_of_ne (by decide))]))
  | ⟨2, _⟩ => ((dat12 (tcv (W28 m)) c).arrAt_in 2 rfl _).trans ((A_eq12 (tcv (W28 m)) c 2).trans (by
      show W28 m c (Proc.devRef .tc main_v78) = W29 m c (Proc.devRef .tc main_v78); unfold W29; rw [Function.update_of_ne (StableHlo.devRef_ne_of_ne (by decide))]))
  | ⟨3, _⟩ => ((dat12 (tcv (W28 m)) c).arrAt_in 3 rfl _).trans ((A_eq12 (tcv (W28 m)) c 3).trans (by
      show W28 m c (Proc.devRef .tc main_v54) = W29 m c (Proc.devRef .tc main_v54); unfold W29; rw [Function.update_of_ne (StableHlo.devRef_ne_of_ne (by decide))]))
  | ⟨4, _⟩ => ((dat12 (tcv (W28 m)) c).arrAt_in 4 rfl _).trans ((A_eq12 (tcv (W28 m)) c 4).trans (by
      show W28 m c (Proc.devRef .tc main_v55) = W29 m c (Proc.devRef .tc main_v55); unfold W29; rw [Function.update_of_ne (StableHlo.devRef_ne_of_ne (by decide))]))
  | ⟨5, _⟩ => ((dat12 (tcv (W28 m)) c).arrAt_in 5 rfl _).trans ((A_eq12 (tcv (W28 m)) c 5).trans (by
      show W28 m c (Proc.devRef .tc main_v69_1) = W29 m c (Proc.devRef .tc main_v69_1); unfold W29; rw [Function.update_of_ne (StableHlo.devRef_ne_of_ne (by decide))]))
  | ⟨6, _⟩ => ((dat12 (tcv (W28 m)) c).arrAt_in 6 rfl _).trans ((A_eq12 (tcv (W28 m)) c 6).trans (by
      show W28 m c (Proc.devRef .tc main_v60) = W29 m c (Proc.devRef .tc main_v60); unfold W29; rw [Function.update_of_ne (StableHlo.devRef_ne_of_ne (by decide))]))
  | ⟨7, _⟩ => by
      show _ = W29 m c (Proc.devRef .tc main_v79); unfold W29; rw [Function.update_self]; rfl

theorem hrest12 (c : Dev nD) : ∀ b, b ∉ Finset.univ.image (Pipeline.arrRef spec12) → tcv (W29 m) c b = tcv (W28 m) c b := fun b hb => by
  have hne : ∀ w, b ≠ Pipeline.arrRef spec12 w := fun w e => hb (Finset.mem_image.mpr ⟨w, Finset.mem_univ _, e.symm⟩)
  show W29 m c (Proc.devRef .tc b) = W28 m c (Proc.devRef .tc b); unfold W29
  rw [Function.update_of_ne (StableHlo.devRef_ne_of_ne (show b ≠ main_v79 from hne 7))]

end Cert.Kernel.Reg
end
-- ==== Proof.LibSharedSplit.lean ====
/-
  Windows that stand on one buffer.

  A pipeline holds its windows' arrays one window at a time, each at a share of its own, while the thread that enters
  the pipeline holds the DISTINCT buffers behind those arrays, each once, at the full share. When every window stands on
  a buffer of its own the two are the same separating conjunction re-indexed. Here two windows `w₁ ≠ w₂` stand on one
  buffer and every other window on a buffer of its own: the conjunction over the distinct buffers, each at the full
  share, is then the conjunction over the windows in which the shared buffer is dealt between `w₁` and `w₂` by two
  shares that compose to the full one, every other window holding its buffer at the full share.

  Nothing here mentions memory: a buffer's assertion is any family `Φ b s` indexed by the buffer and a share-like
  parameter, with `Φ b full = Φ b left ∗ Φ b right`; so the contents are those of the buffer, not of the window, and the
  statement has no dependent types.
-/
import Idealize.SL.ProofMode.BigOp

namespace Idealize.SL.BI

open Idealize.SL Idealize.SL.RA
open scoped Idealize.SL.BI
open Idealize.SL.BI.BIBase Idealize.SL.BI.Laws

universe u v w

variable {M : Type u} [URA M] {I : Type v} {J : Type w} [Fintype I] [DecidableEq I] [DecidableEq J]

/-- The buffers behind the windows `f w`, each once at `full`, against the windows one by one, when `w₁` and `w₂`
    stand on one buffer (`hf`) dealt between them as `left` and `right` (`hop`, `h₁`, `h₂`), `f` is injective
    away from `w₂` (`hinj`) and every other window holds its buffer at `full` (`hσ`). -/
theorem bigSep_image_two_on_one {S : Type*} (f : I → J) (w₁ w₂ : I) (hne : w₁ ≠ w₂) (hf : f w₁ = f w₂)
    (hinj : Set.InjOn f ((Finset.univ.erase w₂ : Finset I) : Set I))
    (Φ : J → S → sProp M) (full left right : S)
    (hop : ∀ b, Φ b full = iprop(Φ b left ∗ Φ b right))
    (σ : I → S) (h₁ : σ w₁ = left) (h₂ : σ w₂ = right) (hσ : ∀ w, w ≠ w₁ → w ≠ w₂ → σ w = full) :
    bigSep ((Finset.univ : Finset I).image f) (fun b => Φ b full) = bigSep Finset.univ (fun w => Φ (f w) (σ w)) := by
  classical
  have himg : (Finset.univ : Finset I).image f = (Finset.univ.erase w₂).image f := by
    ext b
    simp only [Finset.mem_image, Finset.mem_univ, true_and, Finset.mem_erase, and_true]
    constructor
    · rintro ⟨x, rfl⟩
      by_cases h : x = w₂
      · exact ⟨w₁, hne, by rw [h, hf]⟩
      · exact ⟨x, h, rfl⟩
    · rintro ⟨x, _, rfl⟩; exact ⟨x, rfl⟩
  have hw₁ : w₁ ∈ (Finset.univ.erase w₂ : Finset I) := Finset.mem_erase.mpr ⟨hne, Finset.mem_univ _⟩
  have hR : bigSep ((Finset.univ.erase w₂ : Finset I).erase w₁) (fun x => Φ (f x) full)
      = bigSep ((Finset.univ.erase w₂ : Finset I).erase w₁) (fun x => Φ (f x) (σ x)) :=
    bigSep_congr fun x hx => by
      rw [hσ x (Finset.ne_of_mem_erase hx) (Finset.ne_of_mem_erase (Finset.mem_of_mem_erase hx))]
  rw [himg, bigSep_image_of_injOn hinj, bigSep_erase hw₁, bigSep_univ_split w₂ (Φ := fun x => Φ (f x) (σ x)),
    bigSep_erase hw₁ (Φ := fun x => Φ (f x) (σ x)), hR, h₁, h₂, ← hf, hop (f w₁)]
  refine equiv_iff.mp ⟨?_, ?_⟩
  · exact fun a h => sep_assoc a (sep_mono sep_comm (fun _ h => h) a h)
  · exact fun a h => sep_mono sep_comm (fun _ h => h) a (sep_assoc' a h)

end Idealize.SL.BI
-- ==== Proof.LibSharedRegion.lean ====
/-
  Entering and leaving a pipeline two of whose windows stand on one array.

  Before a kernel region the thread owns each unscoped buffer of its core exactly once and entirely, with contents
  `V`. The pipeline instead accounts for arrays window by window (`Dat.arrays`), window `w` with share `dat.share w`. When two INPUT windows `w₁ ≠ w₂` read one array and every other window an array of its own, the proof
  data deal that array between the two by the left and the right half of the full share (an input is only read, and
  either half suffices to read), and the unscoped buffers at `V` ARE the arrays at `V`'s contents beside the buffers
  that are no window's array. Being an equation it serves in both directions: read left to right it is the region's
  entry, read right to left — at the contents the region leaves — its exit, the two halves put back together.
-/
import Idealize.ShloMosaic.Lib.Pipeline.Frame
import proofs.«172830_g53506702573898_cont_9to1_m_1152_4_alg».proof.Proof.LibSharedSplit

noncomputable section

namespace Idealize.ShloMosaic.Pipeline

open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- When every array is a whole buffer, the pipeline's arrays are one points-to per window, window `w` holding its
    buffer at the share `dat.share w`. -/
theorem Dat.arrays_eq_shares (harr : ∀ w, (cfg.spec w).arr.IsWhole)
    (F : (w : Fin cfg.W) → Buf Val ((cfg.spec w).arr.view.loc (c.tc : Thread nD τ))) :
    dat.arrays F = bigSep Finset.univ fun w => (((c.tc : Thread nD τ).loc (arrRef cfg.spec w)) ↦{dat.share w} F w : sProp 𝕄) := by
  unfold Dat.arrays
  exact bigSep_congr fun w _ => by rw [(harr w).set_eq_univ]

/-- One full points-to per DISTINCT array is the same resource as one points-to per WINDOW, provided `w₁` and `w₂` are
    the only two windows on a common array and hold it by the left and the right half, while each remaining window has
    an array to itself at the full share. The contents are `V`'s on both sides. -/
theorem arrBufs_eq_arrays_two_on_one (harr : ∀ w, (cfg.spec w).arr.IsWhole) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) = dat.arrays F := by
  classical
  rw [Dat.arrays_eq_shares dat harr F]
  unfold arrBufs
  rw [BI.bigSep_image_two_on_one (arrRef cfg.spec) w₁ w₂ hne hf hinj
    (fun b s => (((c.tc : Thread nD τ).loc b) ↦{s} V b : sProp 𝕄)) fullShare fullShare.left fullShare.right
    (fun b => BI.equiv_iff.mp
      ⟨(pointsTo_share (ℓ := (c.tc : Thread nD τ).loc b) (f := V b) (PosShare.mem_left_op_right fullShare)).1,
       (pointsTo_share (ℓ := (c.tc : Thread nD τ).loc b) (f := V b) (PosShare.mem_left_op_right fullShare)).2⟩) dat.share h₁ h₂ hσ]
  exact bigSep_congr fun w _ => by rw [hF w]

/-- Whatever the windows share, a core's unscoped buffers split into those some window reads or writes and the
    others (the library's split, at this one configuration). -/
theorem unscopedBufs_eq_arrBufs_rest (hunscoped : ∀ w, (arrRef cfg.spec w).isScoped = false)
    (V : (b : Ref sig .tc) → Buf Val ((c.tc : Thread nD τ).loc b)) :
    (unscopedBufs c V : sProp 𝕄) = iprop(arrBufs cfg.spec c V ∗ unscopedRest cfg.spec c V) :=
  PerCore.unscopedBufs_split₀ (P := Unit) (fun _ _ => cfg) () c hunscoped V

/-- ENTRY and EXIT in one equation: all unscoped buffers at `V` amount to the pipeline's per-window arrays, filled from
    `V`, together with the buffers no window touches — under the two-windows-on-one-array hypotheses above. -/
theorem unscopedBufs_eq_arrays_two_on_one (harr : ∀ w, (cfg.spec w).arr.IsWhole)
    (hunscoped : ∀ w, (arrRef cfg.spec w).isScoped = false) (w₁ w₂ : Fin cfg.W) (hne : w₁ ≠ w₂)
    (hf : arrRef cfg.spec w₁ = arrRef cfg.spec w₂)
    (hinj : Set.InjOn (arrRef cfg.spec) ((Finset.univ.erase w₂ : Finset (Fin cfg.W)) : Set (Fin cfg.W)))
    (h₁ : dat.share w₁ = fullShare.left) (h₂ : dat.share w₂ = fullShare.right)
    (hσ : ∀ w, w ≠ w₁ → w ≠ w₂ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (unscopedBufs c V : sProp 𝕄) = iprop(dat.arrays F ∗ unscopedRest cfg.spec c V) := by
  rw [unscopedBufs_eq_arrBufs_rest (cfg := cfg) hunscoped V,
    arrBufs_eq_arrays_two_on_one dat harr w₁ w₂ hne hf hinj h₁ h₂ hσ V F hF]

/-- Changing the contents only AT the windows' arrays does not change what is held of the untouched buffers. -/
theorem unscopedRest_congr {gr W : Nat} (win : Fin W → WinSpec sig gr) (c : Dev nD)
    (V V' : (b : Ref sig .tc) → Buf Val ((c.tc : Thread nD τ).loc b))
    (h : ∀ b, b ∉ Finset.univ.image (arrRef win) → V' b = V b) :
    (unscopedRest win c V : sProp 𝕄) = unscopedRest win c V' := by
  classical
  unfold unscopedRest
  exact bigSep_congr fun b hb => by rw [h b (Finset.mem_sdiff.mp hb).2]

end Idealize.ShloMosaic.Pipeline

end
-- ==== Proof.KReg0Entry.lean ====
import proofs.«172830_g53506702573898_cont_9to1_m_1152_4_alg».proof.Proof.KReg0Dat
import proofs.«172830_g53506702573898_cont_9to1_m_1152_4_alg».proof.Proof.LibSharedRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: entering and leaving the pipeline

The two input windows stand on the one adjacency array and hold it by the left and the right half of the full share;
the two output windows each have an array of their own. So the core's unscoped buffers at any contents `V'` are the
pipeline's per-window arrays filled from `V'` beside the buffers no window touches: read left to right the region's
entry, right to left — at the contents the region leaves — its exit. -/

/-- The windows' arrays are unscoped buffers. -/
theorem arr_unscoped0 : ∀ w : Fin cfg0.W, (Pipeline.arrRef cfg0.spec w).isScoped = false := by decide

/-- Away from window 1 no two windows stand on one array. -/
theorem arr_injOn0 : Set.InjOn (Pipeline.arrRef cfg0.spec) ((Finset.univ.erase 1 : Finset (Fin cfg0.W)) : Set (Fin cfg0.W)) := by
  intro a ha b hb h
  simp only [Finset.coe_erase, Finset.coe_univ, Set.mem_diff, Set.mem_univ, Set.mem_singleton_iff, true_and] at ha hb
  revert a b; decide

/-- ENTRY and EXIT in one equation, at the proof data `dat0 V c` (whose shares do not depend on `V`). -/
theorem unscopedBufs_eq_arrays0 (c : Dev nD) (V' : (b : Ref sig .tc) → Buf (Elt F) ((c : Thread nD τ).loc b))
    (Fw : (w : Fin cfg0.W) → Buf (Elt F) ((cfg0.spec w).arr.view.loc (c.tc : Thread nD τ)))
    (hF : ∀ w, Fw w = V' (Pipeline.arrRef cfg0.spec w)) :
    (unscopedBufs c V' : sProp 𝕄) = iprop((dat0 V c).arrays Fw ∗ Pipeline.unscopedRest cfg0.spec c V') :=
  Pipeline.unscopedBufs_eq_arrays_two_on_one (dat0 V c) arr_whole0 arr_unscoped0 0 1 (by decide) rfl arr_injOn0
    (share0_0 V c) (share0_1 V c)
    (fun w h0 h1 => by
      match w, h0, h1 with
      | ⟨0, _⟩, h0, _ => exact absurd rfl h0
      | ⟨1, _⟩, _, h1 => exact absurd rfl h1
      | ⟨2, _⟩, _, _ => exact share0_2 V c
      | ⟨3, _⟩, _, _ => exact share0_3 V c)
    V' Fw hF

end Cert.Kernel.Reg

end
-- ==== Proof.KReg0Body.lean ====
import proofs.«172830_g53506702573898_cont_9to1_m_1152_4_alg».proof.Proof.KReg0Dat

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulator at what the point before left (at anything at the first point) and
    takes it back at this point's contents; where the row-sum window is idle its buffer comes back untouched; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold out0_A_2 sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexists _; iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
  · have hz : t.val ≠ 0 := fun e => h0 (by rw [e])
    rw [PhiS0_castSucc V c t, PhiS0_pos V c _ _ hz]
    by_cases h1 : t.val % 8 = 7
    · rw [show (dat0 V c).leavesExact 3 t = owns (c : Thread nD τ) (ms0_3 t) fullShare ((dat0 V c).after 3 t) from by
      unfold Dat.leavesExact; rw [liveAt0_3 t ((hcond0_1 t).mpr h1)], after0_3]
      rw [outsAt0_C V c t h0 h1]
      unfold out0_C_2 out0_C_3 sout0_C_0; (try dsimp only)
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold out0_B_2 sout0_B_0; (try dsimp only)
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.Kernel.Reg

end
-- ==== Proof.KReg0Seg.lean ====
/-
  Kernel region 0 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg0Entry
import proofs.«172830_g53506702573898_cont_9to1_m_1152_4_alg».proof.Proof.KReg0Body
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (tcv (W0 m)) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (tcv (W0 m) c)
  hentry c := by
    rw [Pipeline.ownSems0_none]
    have hsplit : (unscopedBufs c (tcv (W0 m) c) : sProp 𝕄)
        ⊢ iprop((pdats m 0 c).arrays ((pdats m 0 c).arrAt · 0) ∗ Pipeline.unscopedRest spec0 c (tcv (W0 m) c)) :=
      Entails.of_eq (unscopedBufs_eq_arrays0 (tcv (W0 m)) c (tcv (W0 m) c) ((pdats m 0 c).arrAt · 0) (fun w => A_eq0 (tcv (W0 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (tcv (W0 m)) c).Φ 0 from rfl]
    iintro ⟨Hp, -, Hr⟩
    iapply (hin0 (tcv (W0 m)) c)
    unfold Pipeline.ΦA
    isplitl [Hr]; · iexact Hr
    iexact Hp
  hout c := by
    rw [Pipeline.ownSems0_none, show (pdats m 0 c).Φ (Fin.last _) = (dat0 (tcv (W0 m)) c).Φ (Fin.last cfg0.N) from rfl]
    iintro HP
    ihave H := (hout0 (tcv (W0 m)) c) $$ HP
    unfold Pipeline.ΦA
    icases H with ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (tcv (W0 m) c))
        ⊢ (unscopedBufs c (tcv (W1 m) c) : sProp 𝕄) := by
      rw [unscopedBufs_eq_arrays0 (tcv (W0 m)) c (tcv (W1 m) c) ((pdats m 0 c).arrAt · cfg0.N) (hF0 m c),
        Pipeline.unscopedRest_congr spec0 c (tcv (W0 m) c) (tcv (W1 m) c) (hrest0 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.LibSharedTwoPairs.lean ====
/-
  Two disjoint pairs of windows, each pair standing on one buffer.

  A pipeline holds its windows' arrays one window at a time, each at a share of its own, while the thread that enters the
  pipeline holds the DISTINCT buffers behind those arrays, each once, at the full share. Here the windows `w₁ ≠ w₂` stand
  on one buffer, the windows `w₃ ≠ w₄` on another, and every other window on a buffer of its own: the conjunction over
  the distinct buffers, each at the full share, is the conjunction over the windows in which each shared buffer is dealt
  between its two windows by two shares that compose to the full one, every other window holding its buffer at the full
  share. The first half is a statement about separating conjunctions alone (any family `Φ b s` with
  `Φ b full = Φ b left ∗ Φ b right`); the second reads it at a pipeline's arrays: the region's entry and exit equation.
-/
import Idealize.ShloMosaic.Lib.Pipeline.Frame
import proofs.«172830_g53506702573898_cont_9to1_m_1152_4_alg».proof.Proof.LibSharedRegion

namespace Idealize.SL.BI

open Idealize.SL Idealize.SL.RA
open scoped Idealize.SL.BI
open Idealize.SL.BI.BIBase Idealize.SL.BI.Laws Idealize.SL.ProofMode

universe u v w

variable {M : Type u} [URA M] {I : Type v} {J : Type w} [Fintype I] [DecidableEq I] [DecidableEq J]

/-- The buffers behind the windows `f w`, each once at `full`, against the windows one by one, when `w₁`, `w₂` stand
    on one buffer (`hf`) and `w₃`, `w₄` on another (`hg`), each dealt between its two windows as `left` and `right`
    (`hop`, `h₁` … `h₄`), `f` is injective away from `w₂` and `w₄` (`hinj`) and every other window holds its buffer
    at `full` (`hσ`). -/
theorem bigSep_image_two_pairs {S : Type*} (f : I → J) (w₁ w₂ w₃ w₄ : I)
    (h12 : w₁ ≠ w₂) (h13 : w₁ ≠ w₃) (h14 : w₁ ≠ w₄) (h23 : w₂ ≠ w₃) (h24 : w₂ ≠ w₄) (h34 : w₃ ≠ w₄)
    (hf : f w₁ = f w₂) (hg : f w₃ = f w₄)
    (hinj : Set.InjOn f (((Finset.univ.erase w₂).erase w₄ : Finset I) : Set I))
    (Φ : J → S → sProp M) (full left right : S)
    (hop : ∀ b, Φ b full = iprop(Φ b left ∗ Φ b right))
    (σ : I → S) (h₁ : σ w₁ = left) (h₂ : σ w₂ = right) (h₃ : σ w₃ = left) (h₄ : σ w₄ = right)
    (hσ : ∀ w, w ≠ w₁ → w ≠ w₂ → w ≠ w₃ → w ≠ w₄ → σ w = full) :
    bigSep ((Finset.univ : Finset I).image f) (fun b => Φ b full) = bigSep Finset.univ (fun w => Φ (f w) (σ w)) := by
  classical
  have himg : (Finset.univ : Finset I).image f = ((Finset.univ.erase w₂).erase w₄).image f := by
    ext b
    simp only [Finset.mem_image, Finset.mem_univ, true_and, Finset.mem_erase, and_true]
    constructor
    · rintro ⟨x, rfl⟩
      by_cases hx2 : x = w₂
      · exact ⟨w₁, ⟨h14, h12⟩, by rw [hx2, hf]⟩
      · by_cases hx4 : x = w₄
        · exact ⟨w₃, ⟨h34, h23.symm⟩, by rw [hx4, hg]⟩
        · exact ⟨x, ⟨hx4, hx2⟩, rfl⟩
    · rintro ⟨x, _, rfl⟩; exact ⟨x, rfl⟩
  have hw₄ : w₄ ∈ (Finset.univ.erase w₂ : Finset I) := Finset.mem_erase.mpr ⟨h24.symm, Finset.mem_univ _⟩
  have hw₁ : w₁ ∈ ((Finset.univ.erase w₂).erase w₄ : Finset I) :=
    Finset.mem_erase.mpr ⟨h14, Finset.mem_erase.mpr ⟨h12, Finset.mem_univ _⟩⟩
  have hw₃ : w₃ ∈ (((Finset.univ.erase w₂).erase w₄).erase w₁ : Finset I) :=
    Finset.mem_erase.mpr ⟨h13.symm, Finset.mem_erase.mpr ⟨h34, Finset.mem_erase.mpr ⟨h23.symm, Finset.mem_univ _⟩⟩⟩
  have hR : bigSep ((((Finset.univ.erase w₂).erase w₄).erase w₁).erase w₃) (fun x => Φ (f x) full)
      = bigSep ((((Finset.univ.erase w₂).erase w₄).erase w₁).erase w₃) (fun x => Φ (f x) (σ x)) :=
    bigSep_congr fun x hx => by
      have hx3 := Finset.ne_of_mem_erase hx
      have hx' := Finset.mem_of_mem_erase hx
      have hx1 := Finset.ne_of_mem_erase hx'
      have hx'' := Finset.mem_of_mem_erase hx'
      have hx4 := Finset.ne_of_mem_erase hx''
      have hx2 := Finset.ne_of_mem_erase (Finset.mem_of_mem_erase hx'')
      rw [hσ x hx1 hx2 hx3 hx4]
  have hL : bigSep ((Finset.univ : Finset I).image f) (fun b => Φ b full)
      = iprop((Φ (f w₁) left ∗ Φ (f w₁) right) ∗ (Φ (f w₃) left ∗ Φ (f w₃) right)
          ∗ bigSep ((((Finset.univ.erase w₂).erase w₄).erase w₁).erase w₃) (fun x => Φ (f x) (σ x))) := by
    rw [himg, bigSep_image_of_injOn hinj, bigSep_erase hw₁, bigSep_erase hw₃, hR, hop (f w₁), hop (f w₃)]
    rfl
  have hRt : bigSep Finset.univ (fun w => Φ (f w) (σ w))
      = iprop(Φ (f w₁) right ∗ Φ (f w₃) right ∗ Φ (f w₁) left ∗ Φ (f w₃) left
          ∗ bigSep ((((Finset.univ.erase w₂).erase w₄).erase w₁).erase w₃) (fun x => Φ (f x) (σ x))) := by
    rw [bigSep_univ_split w₂ (Φ := fun x => Φ (f x) (σ x)), bigSep_erase hw₄ (Φ := fun x => Φ (f x) (σ x)),
      bigSep_erase hw₁ (Φ := fun x => Φ (f x) (σ x)), bigSep_erase hw₃ (Φ := fun x => Φ (f x) (σ x)),
      h₁, h₂, h₃, h₄, ← hf, ← hg]
    rfl
  rw [hL, hRt]
  show sep (sep (Φ (f w₁) left) (Φ (f w₁) right)) (sep (sep (Φ (f w₃) left) (Φ (f w₃) right)) _)
    = sep (Φ (f w₁) right) (sep (Φ (f w₃) right) (sep (Φ (f w₁) left) (sep (Φ (f w₃) left) _)))
  ac_rfl

end Idealize.SL.BI

noncomputable section

namespace Idealize.ShloMosaic.Pipeline

open Idealize.SL
open Idealize.SL.BI (sProp bigSep bigSep_congr bigSep_sdiff_split)
open scoped Idealize.SL.BI
open Idealize.SL.BI.BIBase Idealize.SL.BI.Laws Idealize.SL.Sem Idealize.SL.ProofMode
open Idealize.SL.RA
open TcCoe

variable {nD : Nat} {τ : Topo} {sig : RefSig} {Val : EltTy → Type} {Λ₀ : SL.Sem.Labels}
variable {Ix : Type} [DecidableEq Ix] {Name : Type} [DecidableEq Name] {U : Type} [URA U] {Lvl : Type}

local notation "𝕄" => MT nD τ sig Ix Val Name U Lvl

variable {cfg : Cfg sig Λ₀} {c : Dev nD} (dat : Dat τ Val Ix Name U Lvl cfg c)

/-- One full points-to per DISTINCT array is the same resource as one points-to per WINDOW, provided `w₁`, `w₂` are the
    only windows on one array and `w₃`, `w₄` the only windows on another, each pair holding its array by the left and the
    right half, while each remaining window has an array to itself at the full share. The contents are `V`'s on both
    sides. -/
theorem arrBufs_eq_arrays_two_pairs (harr : ∀ w, (cfg.spec w).arr.IsWhole) (w₁ w₂ w₃ w₄ : Fin cfg.W)
    (h12 : w₁ ≠ w₂) (h13 : w₁ ≠ w₃) (h14 : w₁ ≠ w₄) (h23 : w₂ ≠ w₃) (h24 : w₂ ≠ w₄) (h34 : w₃ ≠ w₄)
    (hf : arrRef cfg.spec w₁ = arrRef cfg.spec w₂) (hg : arrRef cfg.spec w₃ = arrRef cfg.spec w₄)
    (hinj : Set.InjOn (arrRef cfg.spec) (((Finset.univ.erase w₂).erase w₄ : Finset (Fin cfg.W)) : Set (Fin cfg.W)))
    (h₁ : dat.share w₁ = fullShare.left) (h₂ : dat.share w₂ = fullShare.right)
    (h₃ : dat.share w₃ = fullShare.left) (h₄ : dat.share w₄ = fullShare.right)
    (hσ : ∀ w, w ≠ w₁ → w ≠ w₂ → w ≠ w₃ → w ≠ w₄ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (arrBufs cfg.spec c V : sProp 𝕄) = dat.arrays F := by
  classical
  rw [Dat.arrays_eq_shares dat harr F]
  unfold arrBufs
  rw [BI.bigSep_image_two_pairs (arrRef cfg.spec) w₁ w₂ w₃ w₄ h12 h13 h14 h23 h24 h34 hf hg hinj
    (fun b s => (((c.tc : Thread nD τ).loc b) ↦{s} V b : sProp 𝕄)) fullShare fullShare.left fullShare.right
    (fun b => BI.equiv_iff.mp
      ⟨(pointsTo_share (ℓ := (c.tc : Thread nD τ).loc b) (f := V b) (PosShare.mem_left_op_right fullShare)).1,
       (pointsTo_share (ℓ := (c.tc : Thread nD τ).loc b) (f := V b) (PosShare.mem_left_op_right fullShare)).2⟩) dat.share h₁ h₂ h₃ h₄ hσ]
  exact bigSep_congr fun w _ => by rw [hF w]

/-- ENTRY and EXIT in one equation: all unscoped buffers at `V` amount to the pipeline's per-window arrays, filled from
    `V`, together with the buffers no window touches — under the two-pairs hypotheses above. -/
theorem unscopedBufs_eq_arrays_two_pairs (harr : ∀ w, (cfg.spec w).arr.IsWhole)
    (hunscoped : ∀ w, (arrRef cfg.spec w).isScoped = false) (w₁ w₂ w₃ w₄ : Fin cfg.W)
    (h12 : w₁ ≠ w₂) (h13 : w₁ ≠ w₃) (h14 : w₁ ≠ w₄) (h23 : w₂ ≠ w₃) (h24 : w₂ ≠ w₄) (h34 : w₃ ≠ w₄)
    (hf : arrRef cfg.spec w₁ = arrRef cfg.spec w₂) (hg : arrRef cfg.spec w₃ = arrRef cfg.spec w₄)
    (hinj : Set.InjOn (arrRef cfg.spec) (((Finset.univ.erase w₂).erase w₄ : Finset (Fin cfg.W)) : Set (Fin cfg.W)))
    (h₁ : dat.share w₁ = fullShare.left) (h₂ : dat.share w₂ = fullShare.right)
    (h₃ : dat.share w₃ = fullShare.left) (h₄ : dat.share w₄ = fullShare.right)
    (hσ : ∀ w, w ≠ w₁ → w ≠ w₂ → w ≠ w₃ → w ≠ w₄ → dat.share w = fullShare)
    (V : (b : Ref sig .tc) → Buf Val ((c.tc : Thread nD τ).loc b))
    (F : (w : Fin cfg.W) → Buf Val ((cfg.spec w).arr.view.loc (c.tc : Thread nD τ))) (hF : ∀ w, F w = V (arrRef cfg.spec w)) :
    (unscopedBufs c V : sProp 𝕄) = iprop(dat.arrays F ∗ unscopedRest cfg.spec c V) := by
  rw [unscopedBufs_eq_arrBufs_rest (cfg := cfg) hunscoped V,
    arrBufs_eq_arrays_two_pairs dat harr w₁ w₂ w₃ w₄ h12 h13 h14 h23 h24 h34 hf hg hinj h₁ h₂ h₃ h₄ hσ V F hF]

end Idealize.ShloMosaic.Pipeline

end
-- ==== Proof.KReg1Entry.lean ====
import proofs.«172830_g53506702573898_cont_9to1_m_1152_4_alg».proof.Proof.KReg1Frame
import proofs.«172830_g53506702573898_cont_9to1_m_1152_4_alg».proof.Proof.LibSharedTwoPairs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: entering and leaving the pipeline, windows 2 and 3 standing on one array and windows 1 and 4 on another -/

/-- Windows 2 and 3 of pipeline 1 read one array. -/
theorem arrRef1_2_3 : Pipeline.arrRef spec1 2 = Pipeline.arrRef spec1 3 := by decide

/-- Windows 1 and 4 of pipeline 1 read one array. -/
theorem arrRef1_1_4 : Pipeline.arrRef spec1 1 = Pipeline.arrRef spec1 4 := by decide

/-- Away from windows 3 and 4 the windows of pipeline 1 stand on pairwise distinct arrays. -/
theorem arrRef1_injOn : Set.InjOn (Pipeline.arrRef spec1) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec1 a = Pipeline.arrRef spec1 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share1_0 (c : Dev nD) : (dat1 V c).share 0 = fullShare := by
  unfold Dat.share; rw [if_neg (by decide)]; dsimp only [dat1]
theorem share1_1 (c : Dev nD) : (dat1 V c).share 1 = fullShare.left := by
  unfold Dat.share; rw [if_neg (by decide)]; dsimp only [dat1]
theorem share1_2 (c : Dev nD) : (dat1 V c).share 2 = fullShare.left := by
  unfold Dat.share; rw [if_neg (by decide)]; dsimp only [dat1]
theorem share1_3 (c : Dev nD) : (dat1 V c).share 3 = fullShare.right := by
  unfold Dat.share; rw [if_neg (by decide)]; dsimp only [dat1]
theorem share1_4 (c : Dev nD) : (dat1 V c).share 4 = fullShare.right := by
  unfold Dat.share; rw [if_neg (by decide)]; dsimp only [dat1]
theorem share1_5 (c : Dev nD) : (dat1 V c).share 5 = fullShare := by
  unfold Dat.share; rw [if_pos (by decide)]

/-- Every window but 1, 2, 3 and 4 holds its array at the full share. -/
theorem share1_rest (c : Dev nD) : ∀ w : Fin cfg1.W, w ≠ 2 → w ≠ 3 → w ≠ 1 → w ≠ 4 → (dat1 V c).share w = fullShare := fun
  | ⟨0, _⟩ => fun _ _ _ _ => share1_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share1_5 V c

/-- ENTRY and EXIT of region 1 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays1 (c : Dev nD) (V' : (b : Ref sig .tc) → Buf (Elt F) ((c : Thread nD τ).loc b))
    (Fw : (w : Fin cfg1.W) → Buf (Elt F) ((cfg1.spec w).arr.view.loc (c.tc : Thread nD τ)))
    (hF : ∀ w, Fw w = V' (Pipeline.arrRef cfg1.spec w)) :
    (unscopedBufs c V' : sProp 𝕄) = iprop((dat1 V c).arrays Fw ∗ Pipeline.unscopedRest cfg1.spec c V') :=
  Pipeline.unscopedBufs_eq_arrays_two_pairs (dat1 V c) arr_whole1 winFacts₀1.arr_unscoped 2 3 1 4
    (by decide) (by decide) (by decide) (by decide) (by decide) (by decide) arrRef1_2_3 arrRef1_1_4 arrRef1_injOn
    (share1_2 V c) (share1_3 V c) (share1_1 V c) (share1_4 V c) (share1_rest V c) V' Fw hF

end Regions

end Cert.Kernel.Reg

end
-- ==== Proof.KReg1Seg.lean ====
/-
  Kernel region 1 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg1Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (tcv (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (tcv (W6 m) c)
  hentry c := by
    rw [Pipeline.ownSems0_none]
    have hsplit : (unscopedBufs c (tcv (W6 m) c) : sProp 𝕄)
        ⊢ iprop((pdats m 1 c).arrays ((pdats m 1 c).arrAt · 0) ∗ Pipeline.unscopedRest spec1 c (tcv (W6 m) c)) :=
      Entails.of_eq (unscopedBufs_eq_arrays1 (tcv (W6 m)) c (tcv (W6 m) c) ((pdats m 1 c).arrAt · 0) (fun w => A_eq1 (tcv (W6 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (tcv (W6 m) c))
        ⊢ (unscopedBufs c (tcv (W7 m) c) : sProp 𝕄) := by
      rw [unscopedBufs_eq_arrays1 (tcv (W6 m)) c (tcv (W7 m) c) ((pdats m 1 c).arrAt · cfg1.N) (hF1 m c),
        Pipeline.unscopedRest_congr spec1 c (tcv (W6 m) c) (tcv (W7 m) c) (hrest1 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg2Entry.lean ====
import proofs.«172830_g53506702573898_cont_9to1_m_1152_4_alg».proof.Proof.KReg2Frame
import proofs.«172830_g53506702573898_cont_9to1_m_1152_4_alg».proof.Proof.LibSharedRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: entering and leaving the pipeline, windows 2 and 3 standing on one array -/

/-- Windows 2 and 3 of pipeline 2 read one array. -/
theorem arrRef2_2_3 : Pipeline.arrRef spec2 2 = Pipeline.arrRef spec2 3 := by decide

/-- Away from window 3 the windows of pipeline 2 stand on pairwise distinct arrays. -/
theorem arrRef2_injOn : Set.InjOn (Pipeline.arrRef spec2) ((Finset.univ.erase (3 : Fin 6) : Finset (Fin 6)) : Set (Fin 6)) := by
  have h : ∀ a b : Fin 6, a ≠ 3 → b ≠ 3 → Pipeline.arrRef spec2 a = Pipeline.arrRef spec2 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share2_0 (c : Dev nD) : (dat2 V c).share 0 = fullShare := by
  unfold Dat.share; rw [if_neg (by decide)]; dsimp only [dat2]
theorem share2_1 (c : Dev nD) : (dat2 V c).share 1 = fullShare := by
  unfold Dat.share; rw [if_neg (by decide)]; dsimp only [dat2]
theorem share2_2 (c : Dev nD) : (dat2 V c).share 2 = fullShare.left := by
  unfold Dat.share; rw [if_neg (by decide)]; dsimp only [dat2]
theorem share2_3 (c : Dev nD) : (dat2 V c).share 3 = fullShare.right := by
  unfold Dat.share; rw [if_neg (by decide)]; dsimp only [dat2]
theorem share2_4 (c : Dev nD) : (dat2 V c).share 4 = fullShare := by
  unfold Dat.share; rw [if_neg (by decide)]; dsimp only [dat2]
theorem share2_5 (c : Dev nD) : (dat2 V c).share 5 = fullShare := by
  unfold Dat.share; rw [if_pos (by decide)]

/-- Every window but 2 and 3 holds its array at the full share. -/
theorem share2_rest (c : Dev nD) : ∀ w : Fin cfg2.W, w ≠ 2 → w ≠ 3 → (dat2 V c).share w = fullShare := fun
  | ⟨0, _⟩ => fun _ _ => share2_0 V c
  | ⟨1, _⟩ => fun _ _ => share2_1 V c
  | ⟨2, _⟩ => fun h _ => absurd rfl h
  | ⟨3, _⟩ => fun _ h => absurd rfl h
  | ⟨4, _⟩ => fun _ _ => share2_4 V c
  | ⟨5, _⟩ => fun _ _ => share2_5 V c

/-- ENTRY and EXIT of region 2 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays2 (c : Dev nD) (V' : (b : Ref sig .tc) → Buf (Elt F) ((c : Thread nD τ).loc b))
    (Fw : (w : Fin cfg2.W) → Buf (Elt F) ((cfg2.spec w).arr.view.loc (c.tc : Thread nD τ)))
    (hF : ∀ w, Fw w = V' (Pipeline.arrRef cfg2.spec w)) :
    (unscopedBufs c V' : sProp 𝕄) = iprop((dat2 V c).arrays Fw ∗ Pipeline.unscopedRest cfg2.spec c V') :=
  Pipeline.unscopedBufs_eq_arrays_two_on_one (dat2 V c) arr_whole2 winFacts₀2.arr_unscoped 2 3 (by decide) arrRef2_2_3 arrRef2_injOn
    (share2_2 V c) (share2_3 V c) (share2_rest V c) V' Fw hF

end Regions

end Cert.Kernel.Reg

end
-- ==== Proof.KReg2Seg.lean ====
/-
  Kernel region 2 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg2Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (tcv (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (tcv (W7 m) c)
  hentry c := by
    rw [Pipeline.ownSems0_none]
    have hsplit : (unscopedBufs c (tcv (W7 m) c) : sProp 𝕄)
        ⊢ iprop((pdats m 2 c).arrays ((pdats m 2 c).arrAt · 0) ∗ Pipeline.unscopedRest spec2 c (tcv (W7 m) c)) :=
      Entails.of_eq (unscopedBufs_eq_arrays2 (tcv (W7 m)) c (tcv (W7 m) c) ((pdats m 2 c).arrAt · 0) (fun w => A_eq2 (tcv (W7 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (tcv (W7 m) c))
        ⊢ (unscopedBufs c (tcv (W8 m) c) : sProp 𝕄) := by
      rw [unscopedBufs_eq_arrays2 (tcv (W7 m)) c (tcv (W8 m) c) ((pdats m 2 c).arrAt · cfg2.N) (hF2 m c),
        Pipeline.unscopedRest_congr spec2 c (tcv (W7 m) c) (tcv (W8 m) c) (hrest2 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg3Seg.lean ====
/-
  Kernel region 3 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold

import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (tcv (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (W9 m) c) (tcv (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg4Entry.lean ====
import proofs.«172830_g53506702573898_cont_9to1_m_1152_4_alg».proof.Proof.KReg4Frame
import proofs.«172830_g53506702573898_cont_9to1_m_1152_4_alg».proof.Proof.LibSharedTwoPairs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: entering and leaving the pipeline, windows 2 and 3 standing on one array and windows 1 and 4 on another -/

/-- Windows 2 and 3 of pipeline 4 read one array. -/
theorem arrRef4_2_3 : Pipeline.arrRef spec4 2 = Pipeline.arrRef spec4 3 := by decide

/-- Windows 1 and 4 of pipeline 4 read one array. -/
theorem arrRef4_1_4 : Pipeline.arrRef spec4 1 = Pipeline.arrRef spec4 4 := by decide

/-- Away from windows 3 and 4 the windows of pipeline 4 stand on pairwise distinct arrays. -/
theorem arrRef4_injOn : Set.InjOn (Pipeline.arrRef spec4) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec4 a = Pipeline.arrRef spec4 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share4_0 (c : Dev nD) : (dat4 V c).share 0 = fullShare := by
  unfold Dat.share; rw [if_neg (by decide)]; dsimp only [dat4]
theorem share4_1 (c : Dev nD) : (dat4 V c).share 1 = fullShare.left := by
  unfold Dat.share; rw [if_neg (by decide)]; dsimp only [dat4]
theorem share4_2 (c : Dev nD) : (dat4 V c).share 2 = fullShare.left := by
  unfold Dat.share; rw [if_neg (by decide)]; dsimp only [dat4]
theorem share4_3 (c : Dev nD) : (dat4 V c).share 3 = fullShare.right := by
  unfold Dat.share; rw [if_neg (by decide)]; dsimp only [dat4]
theorem share4_4 (c : Dev nD) : (dat4 V c).share 4 = fullShare.right := by
  unfold Dat.share; rw [if_neg (by decide)]; dsimp only [dat4]
theorem share4_5 (c : Dev nD) : (dat4 V c).share 5 = fullShare := by
  unfold Dat.share; rw [if_pos (by decide)]

/-- Every window but 1, 2, 3 and 4 holds its array at the full share. -/
theorem share4_rest (c : Dev nD) : ∀ w : Fin cfg4.W, w ≠ 2 → w ≠ 3 → w ≠ 1 → w ≠ 4 → (dat4 V c).share w = fullShare := fun
  | ⟨0, _⟩ => fun _ _ _ _ => share4_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share4_5 V c

/-- ENTRY and EXIT of region 4 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays4 (c : Dev nD) (V' : (b : Ref sig .tc) → Buf (Elt F) ((c : Thread nD τ).loc b))
    (Fw : (w : Fin cfg4.W) → Buf (Elt F) ((cfg4.spec w).arr.view.loc (c.tc : Thread nD τ)))
    (hF : ∀ w, Fw w = V' (Pipeline.arrRef cfg4.spec w)) :
    (unscopedBufs c V' : sProp 𝕄) = iprop((dat4 V c).arrays Fw ∗ Pipeline.unscopedRest cfg4.spec c V') :=
  Pipeline.unscopedBufs_eq_arrays_two_pairs (dat4 V c) arr_whole4 winFacts₀4.arr_unscoped 2 3 1 4
    (by decide) (by decide) (by decide) (by decide) (by decide) (by decide) arrRef4_2_3 arrRef4_1_4 arrRef4_injOn
    (share4_2 V c) (share4_3 V c) (share4_1 V c) (share4_4 V c) (share4_rest V c) V' Fw hF

end Regions

end Cert.Kernel.Reg

end
-- ==== Proof.KReg4Seg.lean ====
/-
  Kernel region 4 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg4Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (tcv (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (tcv (W11 m) c)
  hentry c := by
    rw [Pipeline.ownSems0_none]
    have hsplit : (unscopedBufs c (tcv (W11 m) c) : sProp 𝕄)
        ⊢ iprop((pdats m 4 c).arrays ((pdats m 4 c).arrAt · 0) ∗ Pipeline.unscopedRest spec4 c (tcv (W11 m) c)) :=
      Entails.of_eq (unscopedBufs_eq_arrays4 (tcv (W11 m)) c (tcv (W11 m) c) ((pdats m 4 c).arrAt · 0) (fun w => A_eq4 (tcv (W11 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (tcv (W11 m) c))
        ⊢ (unscopedBufs c (tcv (W12 m) c) : sProp 𝕄) := by
      rw [unscopedBufs_eq_arrays4 (tcv (W11 m)) c (tcv (W12 m) c) ((pdats m 4 c).arrAt · cfg4.N) (hF4 m c),
        Pipeline.unscopedRest_congr spec4 c (tcv (W11 m) c) (tcv (W12 m) c) (hrest4 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg5Entry.lean ====
import proofs.«172830_g53506702573898_cont_9to1_m_1152_4_alg».proof.Proof.KReg5Frame
import proofs.«172830_g53506702573898_cont_9to1_m_1152_4_alg».proof.Proof.LibSharedRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: entering and leaving the pipeline, windows 2 and 3 standing on one array -/

/-- Windows 2 and 3 of pipeline 5 read one array. -/
theorem arrRef5_2_3 : Pipeline.arrRef spec5 2 = Pipeline.arrRef spec5 3 := by decide

/-- Away from window 3 the windows of pipeline 5 stand on pairwise distinct arrays. -/
theorem arrRef5_injOn : Set.InjOn (Pipeline.arrRef spec5) ((Finset.univ.erase (3 : Fin 6) : Finset (Fin 6)) : Set (Fin 6)) := by
  have h : ∀ a b : Fin 6, a ≠ 3 → b ≠ 3 → Pipeline.arrRef spec5 a = Pipeline.arrRef spec5 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share5_0 (c : Dev nD) : (dat5 V c).share 0 = fullShare := by
  unfold Dat.share; rw [if_neg (by decide)]; dsimp only [dat5]
theorem share5_1 (c : Dev nD) : (dat5 V c).share 1 = fullShare := by
  unfold Dat.share; rw [if_neg (by decide)]; dsimp only [dat5]
theorem share5_2 (c : Dev nD) : (dat5 V c).share 2 = fullShare.left := by
  unfold Dat.share; rw [if_neg (by decide)]; dsimp only [dat5]
theorem share5_3 (c : Dev nD) : (dat5 V c).share 3 = fullShare.right := by
  unfold Dat.share; rw [if_neg (by decide)]; dsimp only [dat5]
theorem share5_4 (c : Dev nD) : (dat5 V c).share 4 = fullShare := by
  unfold Dat.share; rw [if_neg (by decide)]; dsimp only [dat5]
theorem share5_5 (c : Dev nD) : (dat5 V c).share 5 = fullShare := by
  unfold Dat.share; rw [if_pos (by decide)]

/-- Every window but 2 and 3 holds its array at the full share. -/
theorem share5_rest (c : Dev nD) : ∀ w : Fin cfg5.W, w ≠ 2 → w ≠ 3 → (dat5 V c).share w = fullShare := fun
  | ⟨0, _⟩ => fun _ _ => share5_0 V c
  | ⟨1, _⟩ => fun _ _ => share5_1 V c
  | ⟨2, _⟩ => fun h _ => absurd rfl h
  | ⟨3, _⟩ => fun _ h => absurd rfl h
  | ⟨4, _⟩ => fun _ _ => share5_4 V c
  | ⟨5, _⟩ => fun _ _ => share5_5 V c

/-- ENTRY and EXIT of region 5 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays5 (c : Dev nD) (V' : (b : Ref sig .tc) → Buf (Elt F) ((c : Thread nD τ).loc b))
    (Fw : (w : Fin cfg5.W) → Buf (Elt F) ((cfg5.spec w).arr.view.loc (c.tc : Thread nD τ)))
    (hF : ∀ w, Fw w = V' (Pipeline.arrRef cfg5.spec w)) :
    (unscopedBufs c V' : sProp 𝕄) = iprop((dat5 V c).arrays Fw ∗ Pipeline.unscopedRest cfg5.spec c V') :=
  Pipeline.unscopedBufs_eq_arrays_two_on_one (dat5 V c) arr_whole5 winFacts₀5.arr_unscoped 2 3 (by decide) arrRef5_2_3 arrRef5_injOn
    (share5_2 V c) (share5_3 V c) (share5_rest V c) V' Fw hF

end Regions

end Cert.Kernel.Reg

end
-- ==== Proof.KReg5Seg.lean ====
/-
  Kernel region 5 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg5Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (tcv (W12 m)) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (tcv (W12 m) c)
  hentry c := by
    rw [Pipeline.ownSems0_none]
    have hsplit : (unscopedBufs c (tcv (W12 m) c) : sProp 𝕄)
        ⊢ iprop((pdats m 5 c).arrays ((pdats m 5 c).arrAt · 0) ∗ Pipeline.unscopedRest spec5 c (tcv (W12 m) c)) :=
      Entails.of_eq (unscopedBufs_eq_arrays5 (tcv (W12 m)) c (tcv (W12 m) c) ((pdats m 5 c).arrAt · 0) (fun w => A_eq5 (tcv (W12 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N) ∗ Pipeline.unscopedRest spec5 c (tcv (W12 m) c))
        ⊢ (unscopedBufs c (tcv (W13 m) c) : sProp 𝕄) := by
      rw [unscopedBufs_eq_arrays5 (tcv (W12 m)) c (tcv (W13 m) c) ((pdats m 5 c).arrAt · cfg5.N) (hF5 m c),
        Pipeline.unscopedRest_congr spec5 c (tcv (W12 m) c) (tcv (W13 m) c) (hrest5 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg6Seg.lean ====
/-
  Kernel region 6 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold

import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (W14 m)) c).loose
  hwaits := Pipeline.hwaits_of_owed_zero _ _ _ _ L lv 6 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec6 c (tcv (W14 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (W14 m) c) (tcv (W15 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg7Entry.lean ====
import proofs.«172830_g53506702573898_cont_9to1_m_1152_4_alg».proof.Proof.KReg7Frame
import proofs.«172830_g53506702573898_cont_9to1_m_1152_4_alg».proof.Proof.LibSharedTwoPairs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: entering and leaving the pipeline, windows 2 and 3 standing on one array and windows 1 and 4 on another -/

/-- Windows 2 and 3 of pipeline 7 read one array. -/
theorem arrRef7_2_3 : Pipeline.arrRef spec7 2 = Pipeline.arrRef spec7 3 := by decide

/-- Windows 1 and 4 of pipeline 7 read one array. -/
theorem arrRef7_1_4 : Pipeline.arrRef spec7 1 = Pipeline.arrRef spec7 4 := by decide

/-- Away from windows 3 and 4 the windows of pipeline 7 stand on pairwise distinct arrays. -/
theorem arrRef7_injOn : Set.InjOn (Pipeline.arrRef spec7) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec7 a = Pipeline.arrRef spec7 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share7_0 (c : Dev nD) : (dat7 V c).share 0 = fullShare := by
  unfold Dat.share; rw [if_neg (by decide)]; dsimp only [dat7]
theorem share7_1 (c : Dev nD) : (dat7 V c).share 1 = fullShare.left := by
  unfold Dat.share; rw [if_neg (by decide)]; dsimp only [dat7]
theorem share7_2 (c : Dev nD) : (dat7 V c).share 2 = fullShare.left := by
  unfold Dat.share; rw [if_neg (by decide)]; dsimp only [dat7]
theorem share7_3 (c : Dev nD) : (dat7 V c).share 3 = fullShare.right := by
  unfold Dat.share; rw [if_neg (by decide)]; dsimp only [dat7]
theorem share7_4 (c : Dev nD) : (dat7 V c).share 4 = fullShare.right := by
  unfold Dat.share; rw [if_neg (by decide)]; dsimp only [dat7]
theorem share7_5 (c : Dev nD) : (dat7 V c).share 5 = fullShare := by
  unfold Dat.share; rw [if_pos (by decide)]

/-- Every window but 1, 2, 3 and 4 holds its array at the full share. -/
theorem share7_rest (c : Dev nD) : ∀ w : Fin cfg7.W, w ≠ 2 → w ≠ 3 → w ≠ 1 → w ≠ 4 → (dat7 V c).share w = fullShare := fun
  | ⟨0, _⟩ => fun _ _ _ _ => share7_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share7_5 V c

/-- ENTRY and EXIT of region 7 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays7 (c : Dev nD) (V' : (b : Ref sig .tc) → Buf (Elt F) ((c : Thread nD τ).loc b))
    (Fw : (w : Fin cfg7.W) → Buf (Elt F) ((cfg7.spec w).arr.view.loc (c.tc : Thread nD τ)))
    (hF : ∀ w, Fw w = V' (Pipeline.arrRef cfg7.spec w)) :
    (unscopedBufs c V' : sProp 𝕄) = iprop((dat7 V c).arrays Fw ∗ Pipeline.unscopedRest cfg7.spec c V') :=
  Pipeline.unscopedBufs_eq_arrays_two_pairs (dat7 V c) arr_whole7 winFacts₀7.arr_unscoped 2 3 1 4
    (by decide) (by decide) (by decide) (by decide) (by decide) (by decide) arrRef7_2_3 arrRef7_1_4 arrRef7_injOn
    (share7_2 V c) (share7_3 V c) (share7_1 V c) (share7_4 V c) (share7_rest V c) V' Fw hF

end Regions

end Cert.Kernel.Reg

end
-- ==== Proof.KReg7Seg.lean ====
/-
  Kernel region 7 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg7Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (tcv (W20 m)) c).loose
  hwaits := Pipeline.hwaits_of_owed_zero _ _ _ _ L lv 7 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec7 c (tcv (W20 m) c)
  hentry c := by
    rw [Pipeline.ownSems0_none]
    have hsplit : (unscopedBufs c (tcv (W20 m) c) : sProp 𝕄)
        ⊢ iprop((pdats m 7 c).arrays ((pdats m 7 c).arrAt · 0) ∗ Pipeline.unscopedRest spec7 c (tcv (W20 m) c)) :=
      Entails.of_eq (unscopedBufs_eq_arrays7 (tcv (W20 m)) c (tcv (W20 m) c) ((pdats m 7 c).arrAt · 0) (fun w => A_eq7 (tcv (W20 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin : iprop((pdats m 7 c).arrays ((pdats m 7 c).arrAt · cfg7.N) ∗ Pipeline.unscopedRest spec7 c (tcv (W20 m) c))
        ⊢ (unscopedBufs c (tcv (W21 m) c) : sProp 𝕄) := by
      rw [unscopedBufs_eq_arrays7 (tcv (W20 m)) c (tcv (W21 m) c) ((pdats m 7 c).arrAt · cfg7.N) (hF7 m c),
        Pipeline.unscopedRest_congr spec7 c (tcv (W20 m) c) (tcv (W21 m) c) (hrest7 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg8Entry.lean ====
import proofs.«172830_g53506702573898_cont_9to1_m_1152_4_alg».proof.Proof.KReg8Frame
import proofs.«172830_g53506702573898_cont_9to1_m_1152_4_alg».proof.Proof.LibSharedRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: entering and leaving the pipeline, windows 2 and 3 standing on one array -/

/-- Windows 2 and 3 of pipeline 8 read one array. -/
theorem arrRef8_2_3 : Pipeline.arrRef spec8 2 = Pipeline.arrRef spec8 3 := by decide

/-- Away from window 3 the windows of pipeline 8 stand on pairwise distinct arrays. -/
theorem arrRef8_injOn : Set.InjOn (Pipeline.arrRef spec8) ((Finset.univ.erase (3 : Fin 6) : Finset (Fin 6)) : Set (Fin 6)) := by
  have h : ∀ a b : Fin 6, a ≠ 3 → b ≠ 3 → Pipeline.arrRef spec8 a = Pipeline.arrRef spec8 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share8_0 (c : Dev nD) : (dat8 V c).share 0 = fullShare := by
  unfold Dat.share; rw [if_neg (by decide)]; dsimp only [dat8]
theorem share8_1 (c : Dev nD) : (dat8 V c).share 1 = fullShare := by
  unfold Dat.share; rw [if_neg (by decide)]; dsimp only [dat8]
theorem share8_2 (c : Dev nD) : (dat8 V c).share 2 = fullShare.left := by
  unfold Dat.share; rw [if_neg (by decide)]; dsimp only [dat8]
theorem share8_3 (c : Dev nD) : (dat8 V c).share 3 = fullShare.right := by
  unfold Dat.share; rw [if_neg (by decide)]; dsimp only [dat8]
theorem share8_4 (c : Dev nD) : (dat8 V c).share 4 = fullShare := by
  unfold Dat.share; rw [if_neg (by decide)]; dsimp only [dat8]
theorem share8_5 (c : Dev nD) : (dat8 V c).share 5 = fullShare := by
  unfold Dat.share; rw [if_pos (by decide)]

/-- Every window but 2 and 3 holds its array at the full share. -/
theorem share8_rest (c : Dev nD) : ∀ w : Fin cfg8.W, w ≠ 2 → w ≠ 3 → (dat8 V c).share w = fullShare := fun
  | ⟨0, _⟩ => fun _ _ => share8_0 V c
  | ⟨1, _⟩ => fun _ _ => share8_1 V c
  | ⟨2, _⟩ => fun h _ => absurd rfl h
  | ⟨3, _⟩ => fun _ h => absurd rfl h
  | ⟨4, _⟩ => fun _ _ => share8_4 V c
  | ⟨5, _⟩ => fun _ _ => share8_5 V c

/-- ENTRY and EXIT of region 8 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays8 (c : Dev nD) (V' : (b : Ref sig .tc) → Buf (Elt F) ((c : Thread nD τ).loc b))
    (Fw : (w : Fin cfg8.W) → Buf (Elt F) ((cfg8.spec w).arr.view.loc (c.tc : Thread nD τ)))
    (hF : ∀ w, Fw w = V' (Pipeline.arrRef cfg8.spec w)) :
    (unscopedBufs c V' : sProp 𝕄) = iprop((dat8 V c).arrays Fw ∗ Pipeline.unscopedRest cfg8.spec c V') :=
  Pipeline.unscopedBufs_eq_arrays_two_on_one (dat8 V c) arr_whole8 winFacts₀8.arr_unscoped 2 3 (by decide) arrRef8_2_3 arrRef8_injOn
    (share8_2 V c) (share8_3 V c) (share8_rest V c) V' Fw hF

end Regions

end Cert.Kernel.Reg

end
-- ==== Proof.KReg8Seg.lean ====
/-
  Kernel region 8 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg8Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (tcv (W21 m)) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (tcv (W21 m) c)
  hentry c := by
    rw [Pipeline.ownSems0_none]
    have hsplit : (unscopedBufs c (tcv (W21 m) c) : sProp 𝕄)
        ⊢ iprop((pdats m 8 c).arrays ((pdats m 8 c).arrAt · 0) ∗ Pipeline.unscopedRest spec8 c (tcv (W21 m) c)) :=
      Entails.of_eq (unscopedBufs_eq_arrays8 (tcv (W21 m)) c (tcv (W21 m) c) ((pdats m 8 c).arrAt · 0) (fun w => A_eq8 (tcv (W21 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin : iprop((pdats m 8 c).arrays ((pdats m 8 c).arrAt · cfg8.N) ∗ Pipeline.unscopedRest spec8 c (tcv (W21 m) c))
        ⊢ (unscopedBufs c (tcv (W22 m) c) : sProp 𝕄) := by
      rw [unscopedBufs_eq_arrays8 (tcv (W21 m)) c (tcv (W22 m) c) ((pdats m 8 c).arrAt · cfg8.N) (hF8 m c),
        Pipeline.unscopedRest_congr spec8 c (tcv (W21 m) c) (tcv (W22 m) c) (hrest8 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg9Seg.lean ====
/-
  Kernel region 9 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold

import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (W23 m)) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (tcv (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (W23 m) c) (tcv (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg10Entry.lean ====
import proofs.«172830_g53506702573898_cont_9to1_m_1152_4_alg».proof.Proof.KReg10Frame
import proofs.«172830_g53506702573898_cont_9to1_m_1152_4_alg».proof.Proof.LibSharedTwoPairs

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10: entering and leaving the pipeline, windows 2 and 3 standing on one array and windows 1 and 4 on another -/

/-- Windows 2 and 3 of pipeline 10 read one array. -/
theorem arrRef10_2_3 : Pipeline.arrRef spec10 2 = Pipeline.arrRef spec10 3 := by decide

/-- Windows 1 and 4 of pipeline 10 read one array. -/
theorem arrRef10_1_4 : Pipeline.arrRef spec10 1 = Pipeline.arrRef spec10 4 := by decide

/-- Away from windows 3 and 4 the windows of pipeline 10 stand on pairwise distinct arrays. -/
theorem arrRef10_injOn : Set.InjOn (Pipeline.arrRef spec10) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec10 a = Pipeline.arrRef spec10 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share10_0 (c : Dev nD) : (dat10 V c).share 0 = fullShare := by
  unfold Dat.share; rw [if_neg (by decide)]; dsimp only [dat10]
theorem share10_1 (c : Dev nD) : (dat10 V c).share 1 = fullShare.left := by
  unfold Dat.share; rw [if_neg (by decide)]; dsimp only [dat10]
theorem share10_2 (c : Dev nD) : (dat10 V c).share 2 = fullShare.left := by
  unfold Dat.share; rw [if_neg (by decide)]; dsimp only [dat10]
theorem share10_3 (c : Dev nD) : (dat10 V c).share 3 = fullShare.right := by
  unfold Dat.share; rw [if_neg (by decide)]; dsimp only [dat10]
theorem share10_4 (c : Dev nD) : (dat10 V c).share 4 = fullShare.right := by
  unfold Dat.share; rw [if_neg (by decide)]; dsimp only [dat10]
theorem share10_5 (c : Dev nD) : (dat10 V c).share 5 = fullShare := by
  unfold Dat.share; rw [if_pos (by decide)]

/-- Every window but 1, 2, 3 and 4 holds its array at the full share. -/
theorem share10_rest (c : Dev nD) : ∀ w : Fin cfg10.W, w ≠ 2 → w ≠ 3 → w ≠ 1 → w ≠ 4 → (dat10 V c).share w = fullShare := fun
  | ⟨0, _⟩ => fun _ _ _ _ => share10_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share10_5 V c

/-- ENTRY and EXIT of region 10 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays10 (c : Dev nD) (V' : (b : Ref sig .tc) → Buf (Elt F) ((c : Thread nD τ).loc b))
    (Fw : (w : Fin cfg10.W) → Buf (Elt F) ((cfg10.spec w).arr.view.loc (c.tc : Thread nD τ)))
    (hF : ∀ w, Fw w = V' (Pipeline.arrRef cfg10.spec w)) :
    (unscopedBufs c V' : sProp 𝕄) = iprop((dat10 V c).arrays Fw ∗ Pipeline.unscopedRest cfg10.spec c V') :=
  Pipeline.unscopedBufs_eq_arrays_two_pairs (dat10 V c) arr_whole10 winFacts₀10.arr_unscoped 2 3 1 4
    (by decide) (by decide) (by decide) (by decide) (by decide) (by decide) arrRef10_2_3 arrRef10_1_4 arrRef10_injOn
    (share10_2 V c) (share10_3 V c) (share10_1 V c) (share10_4 V c) (share10_rest V c) V' Fw hF

end Regions

end Cert.Kernel.Reg

end
-- ==== Proof.KReg10Seg.lean ====
/-
  Kernel region 10 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg10Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg10 : Pipeline.RegionSeg (pcfgs (F := F)) adm (pdats m) () defs₀ 𝒱₀ L lv 10 where
  win := winFacts₀10
  block_pos := block_pos10
  stage_whole := stage_whole10
  K := PEmpty
  osem k := k.elim
  ho := Pipeline.OwnSemFacts.none _
  hbody c := (body_obligation10 (tcv (W25 m)) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (tcv (W25 m) c)
  hentry c := by
    rw [Pipeline.ownSems0_none]
    have hsplit : (unscopedBufs c (tcv (W25 m) c) : sProp 𝕄)
        ⊢ iprop((pdats m 10 c).arrays ((pdats m 10 c).arrAt · 0) ∗ Pipeline.unscopedRest spec10 c (tcv (W25 m) c)) :=
      Entails.of_eq (unscopedBufs_eq_arrays10 (tcv (W25 m)) c (tcv (W25 m) c) ((pdats m 10 c).arrAt · 0) (fun w => A_eq10 (tcv (W25 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin : iprop((pdats m 10 c).arrays ((pdats m 10 c).arrAt · cfg10.N) ∗ Pipeline.unscopedRest spec10 c (tcv (W25 m) c))
        ⊢ (unscopedBufs c (tcv (W26 m) c) : sProp 𝕄) := by
      rw [unscopedBufs_eq_arrays10 (tcv (W25 m)) c (tcv (W26 m) c) ((pdats m 10 c).arrAt · cfg10.N) (hF10 m c),
        Pipeline.unscopedRest_congr spec10 c (tcv (W25 m) c) (tcv (W26 m) c) (hrest10 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg11Entry.lean ====
import proofs.«172830_g53506702573898_cont_9to1_m_1152_4_alg».proof.Proof.KReg11Frame
import proofs.«172830_g53506702573898_cont_9to1_m_1152_4_alg».proof.Proof.LibSharedRegion

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 11: entering and leaving the pipeline, windows 2 and 3 standing on one array -/

/-- Windows 2 and 3 of pipeline 11 read one array. -/
theorem arrRef11_2_3 : Pipeline.arrRef spec11 2 = Pipeline.arrRef spec11 3 := by decide

/-- Away from window 3 the windows of pipeline 11 stand on pairwise distinct arrays. -/
theorem arrRef11_injOn : Set.InjOn (Pipeline.arrRef spec11) ((Finset.univ.erase (3 : Fin 6) : Finset (Fin 6)) : Set (Fin 6)) := by
  have h : ∀ a b : Fin 6, a ≠ 3 → b ≠ 3 → Pipeline.arrRef spec11 a = Pipeline.arrRef spec11 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share11_0 (c : Dev nD) : (dat11 V c).share 0 = fullShare := by
  unfold Dat.share; rw [if_neg (by decide)]; dsimp only [dat11]
theorem share11_1 (c : Dev nD) : (dat11 V c).share 1 = fullShare := by
  unfold Dat.share; rw [if_neg (by decide)]; dsimp only [dat11]
theorem share11_2 (c : Dev nD) : (dat11 V c).share 2 = fullShare.left := by
  unfold Dat.share; rw [if_neg (by decide)]; dsimp only [dat11]
theorem share11_3 (c : Dev nD) : (dat11 V c).share 3 = fullShare.right := by
  unfold Dat.share; rw [if_neg (by decide)]; dsimp only [dat11]
theorem share11_4 (c : Dev nD) : (dat11 V c).share 4 = fullShare := by
  unfold Dat.share; rw [if_neg (by decide)]; dsimp only [dat11]
theorem share11_5 (c : Dev nD) : (dat11 V c).share 5 = fullShare := by
  unfold Dat.share; rw [if_pos (by decide)]

/-- Every window but 2 and 3 holds its array at the full share. -/
theorem share11_rest (c : Dev nD) : ∀ w : Fin cfg11.W, w ≠ 2 → w ≠ 3 → (dat11 V c).share w = fullShare := fun
  | ⟨0, _⟩ => fun _ _ => share11_0 V c
  | ⟨1, _⟩ => fun _ _ => share11_1 V c
  | ⟨2, _⟩ => fun h _ => absurd rfl h
  | ⟨3, _⟩ => fun _ h => absurd rfl h
  | ⟨4, _⟩ => fun _ _ => share11_4 V c
  | ⟨5, _⟩ => fun _ _ => share11_5 V c

/-- ENTRY and EXIT of region 11 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays11 (c : Dev nD) (V' : (b : Ref sig .tc) → Buf (Elt F) ((c : Thread nD τ).loc b))
    (Fw : (w : Fin cfg11.W) → Buf (Elt F) ((cfg11.spec w).arr.view.loc (c.tc : Thread nD τ)))
    (hF : ∀ w, Fw w = V' (Pipeline.arrRef cfg11.spec w)) :
    (unscopedBufs c V' : sProp 𝕄) = iprop((dat11 V c).arrays Fw ∗ Pipeline.unscopedRest cfg11.spec c V') :=
  Pipeline.unscopedBufs_eq_arrays_two_on_one (dat11 V c) arr_whole11 winFacts₀11.arr_unscoped 2 3 (by decide) arrRef11_2_3 arrRef11_injOn
    (share11_2 V c) (share11_3 V c) (share11_rest V c) V' Fw hF

end Regions

end Cert.Kernel.Reg

end
-- ==== Proof.KReg11Seg.lean ====
/-
  Kernel region 11 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold
import proofs.«172830_g53506702573898_cont_9to1_m_1152_4_alg».proof.Proof.KReg11Entry
import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg11 : Pipeline.RegionSeg (pcfgs (F := F)) adm (pdats m) () defs₀ 𝒱₀ L lv 11 where
  win := winFacts₀11
  block_pos := block_pos11
  stage_whole := stage_whole11
  K := PEmpty
  osem k := k.elim
  ho := Pipeline.OwnSemFacts.none _
  hbody c := (body_obligation11 (tcv (W26 m)) c).loose
  hwaits := Pipeline.hwaits_of_owed_zero _ _ _ _ L lv 11 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec11 c (tcv (W26 m) c)
  hentry c := by
    rw [Pipeline.ownSems0_none]
    have hsplit : (unscopedBufs c (tcv (W26 m) c) : sProp 𝕄)
        ⊢ iprop((pdats m 11 c).arrays ((pdats m 11 c).arrAt · 0) ∗ Pipeline.unscopedRest spec11 c (tcv (W26 m) c)) :=
      Entails.of_eq (unscopedBufs_eq_arrays11 (tcv (W26 m)) c (tcv (W26 m) c) ((pdats m 11 c).arrAt · 0) (fun w => A_eq11 (tcv (W26 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin : iprop((pdats m 11 c).arrays ((pdats m 11 c).arrAt · cfg11.N) ∗ Pipeline.unscopedRest spec11 c (tcv (W26 m) c))
        ⊢ (unscopedBufs c (tcv (W27 m) c) : sProp 𝕄) := by
      rw [unscopedBufs_eq_arrays11 (tcv (W26 m)) c (tcv (W27 m) c) ((pdats m 11 c).arrAt · cfg11.N) (hF11 m c),
        Pipeline.unscopedRest_congr spec11 c (tcv (W26 m) c) (tcv (W27 m) c) (hrest11 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KReg12Seg.lean ====
/-
  Kernel region 12 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.KFold

import Idealize.ShloMosaic.Lib.Pipeline.RegionsLoop

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (tcv (W28 m)) c).loose
  hwaits := Pipeline.hwaits_of_owed_zero _ _ _ _ L lv 12 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec12 c (tcv (W28 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcv (W28 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcv (W28 m) c) (tcv (W29 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg
end
-- ==== Proof.KRunAll.lean ====
/-
  The run of the whole kernel program: from any memory with zero counters every weakly fair execution of @main
  terminates, nothing faulting, and every unscoped buffer of every core ends at the last valuation of the fold —
  the thirteen regions' segments and the seventeen host stretches chained, the launch giving each core its generator
  register and its (empty) dues.
-/
import proofs.«172830_g53506702573898_cont_9to1_m_1152_4_alg».proof.Proof.KRunCond
import proofs.«172830_g53506702573898_cont_9to1_m_1152_4_alg».proof.Proof.KReg0Seg
import proofs.«172830_g53506702573898_cont_9to1_m_1152_4_alg».proof.Proof.KReg1Seg
import proofs.«172830_g53506702573898_cont_9to1_m_1152_4_alg».proof.Proof.KReg2Seg
import proofs.«172830_g53506702573898_cont_9to1_m_1152_4_alg».proof.Proof.KReg3Seg
import proofs.«172830_g53506702573898_cont_9to1_m_1152_4_alg».proof.Proof.KReg4Seg
import proofs.«172830_g53506702573898_cont_9to1_m_1152_4_alg».proof.Proof.KReg5Seg
import proofs.«172830_g53506702573898_cont_9to1_m_1152_4_alg».proof.Proof.KReg6Seg
import proofs.«172830_g53506702573898_cont_9to1_m_1152_4_alg».proof.Proof.KReg7Seg
import proofs.«172830_g53506702573898_cont_9to1_m_1152_4_alg».proof.Proof.KReg8Seg
import proofs.«172830_g53506702573898_cont_9to1_m_1152_4_alg».proof.Proof.KReg9Seg
import proofs.«172830_g53506702573898_cont_9to1_m_1152_4_alg».proof.Proof.KReg10Seg
import proofs.«172830_g53506702573898_cont_9to1_m_1152_4_alg».proof.Proof.KReg11Seg
import proofs.«172830_g53506702573898_cont_9to1_m_1152_4_alg».proof.Proof.KReg12Seg

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch leaves every core its generator register at some state and dues at nothing. -/
theorem rest_of_launch (O₀ : Dev nD → CellTallies nD τ sig Unit) (h0 : ∀ c, O₀ c = 0) (G : Dev nD → sProp 𝕄) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (fun c => R c) : sProp 𝕄) := by
  have hcore : ∀ c : Dev nD, (iprop(unscopedSems0 c ∗ owes (c : Thread nD τ) (O₀ c) ∅ ∗ Pipeline.launchCred O₀ c ∗ prngReg c (ρ c) ∗ G c) : sProp 𝕄) ⊢ R c := fun c => by
    rw [h0 c]
    iintro ⟨-, HO, -, Hp, -⟩
    isplitl [Hp]; · iexists _; iexact Hp
    iexists ∅; iexact HO
  have hmono : (bigSep Finset.univ fun c : Dev nD => iprop(unscopedSems0 c ∗ owes (c : Thread nD τ) (O₀ c) ∅ ∗ Pipeline.launchCred O₀ c ∗ prngReg c (ρ c) ∗ G c) : sProp 𝕄)
      ⊢ (bigSep Finset.univ (fun c => R c) : sProp 𝕄) :=
    bigSep_mono fun c _ => hcore c
  iintro ⟨H, -⟩
  imodintro
  iapply hmono
  iexact H

set_option backward.isDefEq.respectTransparency.types false in
set_option maxHeartbeats 4000000 in
/-- Every unscoped buffer of every core ends at the fold's last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W30 m c b) := by
  have h := Gen.run_cond m (F := F) (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := rest_of_launch (F := F) ρ 0 (fun _ => rfl) _)
    (hE13 := fun c => by iintro ⟨-, HO⟩; iexact HO)
    (reg0 m) (fun c => .rfl) (fun c => by rw [V1_eq m c]; exact .rfl)
    (reg1 m) (fun c => by rw [V6_eq m c]; exact .rfl) (fun c => by rw [V7_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V12_eq m c]; exact .rfl) (fun c => by rw [V13_eq m c]; exact .rfl)
    (reg6 m) (fun c => by rw [V14_eq m c]; exact .rfl) (fun c => by rw [V15_eq m c]; exact .rfl)
    (reg7 m) (fun c => by rw [V20_eq m c]; exact .rfl) (fun c => by rw [V21_eq m c]; exact .rfl)
    (reg8 m) (fun c => by rw [V21_eq m c]; exact .rfl) (fun c => by rw [V22_eq m c]; exact .rfl)
    (reg9 m) (fun c => by rw [V23_eq m c]; exact .rfl) (fun c => by rw [V24_eq m c]; exact .rfl)
    (reg10 m) (fun c => by rw [V25_eq m c]; exact .rfl) (fun c => by rw [V26_eq m c]; exact .rfl)
    (reg11 m) (fun c => by rw [V26_eq m c]; exact .rfl) (fun c => by rw [V27_eq m c]; exact .rfl)
    (reg12 m) (fun c => by rw [V28_eq m c]; exact .rfl) (fun c => by rw [V29_eq m c]; exact .rfl)
  exact (θ_run defs _ _).mono (fun r hr c b hb => (hr c b hb).trans (by rw [V30_eq m c])) h

/-- An unscoped TensorCore reference is among those the run describes. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W30_main_arg0 (c : Dev nD) : W30 m c main_arg0 = m ((c : Thread nD τ).loc main_arg0) := by
  rw [← V30_eq m c]; exact Gen.V30_main_arg0 m (outs m) c
theorem W30_main_arg1 (c : Dev nD) : W30 m c main_arg1 = m ((c : Thread nD τ).loc main_arg1) := by
  rw [← V30_eq m c]; exact Gen.V30_main_arg1 m (outs m) c
theorem W30_main_arg2 (c : Dev nD) : W30 m c main_arg2 = m ((c : Thread nD τ).loc main_arg2) := by
  rw [← V30_eq m c]; exact Gen.V30_main_arg2 m (outs m) c
theorem W30_main_arg3 (c : Dev nD) : W30 m c main_arg3 = m ((c : Thread nD τ).loc main_arg3) := by
  rw [← V30_eq m c]; exact Gen.V30_main_arg3 m (outs m) c
theorem W30_main_arg4 (c : Dev nD) : W30 m c main_arg4 = m ((c : Thread nD τ).loc main_arg4) := by
  rw [← V30_eq m c]; exact Gen.V30_main_arg4 m (outs m) c
theorem W30_main_arg5 (c : Dev nD) : W30 m c main_arg5 = m ((c : Thread nD τ).loc main_arg5) := by
  rw [← V30_eq m c]; exact Gen.V30_main_arg5 m (outs m) c
theorem W30_main_arg6 (c : Dev nD) : W30 m c main_arg6 = m ((c : Thread nD τ).loc main_arg6) := by
  rw [← V30_eq m c]; exact Gen.V30_main_arg6 m (outs m) c
theorem W30_main_arg7 (c : Dev nD) : W30 m c main_arg7 = m ((c : Thread nD τ).loc main_arg7) := by
  rw [← V30_eq m c]; exact Gen.V30_main_arg7 m (outs m) c
theorem W30_main_arg8 (c : Dev nD) : W30 m c main_arg8 = m ((c : Thread nD τ).loc main_arg8) := by
  rw [← V30_eq m c]; exact Gen.V30_main_arg8 m (outs m) c
theorem W30_main_arg9 (c : Dev nD) : W30 m c main_arg9 = m ((c : Thread nD τ).loc main_arg9) := by
  rw [← V30_eq m c]; exact Gen.V30_main_arg9 m (outs m) c
theorem W30_main_arg10 (c : Dev nD) : W30 m c main_arg10 = m ((c : Thread nD τ).loc main_arg10) := by
  rw [← V30_eq m c]; exact Gen.V30_main_arg10 m (outs m) c

/-- THE FRAME, at any `F`: every weakly fair execution of @main terminates, nothing faulting, and every argument array ends
    as launched — no host operation and no region writes an argument, so the fold at an argument walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c =>
    ⟨(hr c _ (mem_uc main_arg0 (by decide))).trans (W30_main_arg0 m c),
     (hr c _ (mem_uc main_arg1 (by decide))).trans (W30_main_arg1 m c),
     (hr c _ (mem_uc main_arg2 (by decide))).trans (W30_main_arg2 m c),
     (hr c _ (mem_uc main_arg3 (by decide))).trans (W30_main_arg3 m c),
     (hr c _ (mem_uc main_arg4 (by decide))).trans (W30_main_arg4 m c),
     (hr c _ (mem_uc main_arg5 (by decide))).trans (W30_main_arg5 m c),
     (hr c _ (mem_uc main_arg6 (by decide))).trans (W30_main_arg6 m c),
     (hr c _ (mem_uc main_arg7 (by decide))).trans (W30_main_arg7 m c),
     (hr c _ (mem_uc main_arg8 (by decide))).trans (W30_main_arg8 m c),
     (hr c _ (mem_uc main_arg9 (by decide))).trans (W30_main_arg9 m c),
     (hr c _ (mem_uc main_arg10 (by decide))).trans (W30_main_arg10 m c)⟩)
    (run_all m ρ)

end Cert.Kernel.Reg
end
-- ==== Proof.Reg0Base.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (the max-symmetrised adjacency and its row sums), at the entry contents `V`

What the three control cases of the body share: the windows' blocks read off `V`, the two branch conditions in
closed form over the 8 x 8 grid, where the row-sum output window is idle, the staging and scratch memrefs. -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1 (the transposed block of the same array). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the column-block coordinate is 0), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the column-block coordinate is 7). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the second conditional fails the row-sum window 3 is idle and not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- Where it holds the window is live. -/
theorem liveAt0_3 : ∀ t : Fin cfg0.N, cond0_1 (grid0.coords t) → cfg0.idle 3 (grid0.coords t) = false := by decide +kernel

/-! ## The staging and scratch memrefs -/

/-- One staging buffer of each output window, through which its contents are stated. -/
abbrev VO0_2 : View sig .tc .vmem S512x512 .bf16 := (Memref.whole cc0_stg2_0 : Memref sig .tc .vmem S512x512 .bf16).view
abbrev VO0_3 : View sig .tc .vmem S512x1 .f32 := (Memref.whole cc0_stg3_0 : Memref sig .tc .vmem S512x1 .f32).view
/-- Each window's current staging memref at point `t`, spelled as the pipeline passes it, and its wholeness. -/
abbrev ms0_0 (t : Fin cfg0.N) : Memref sig .tc .vmem S512x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
/-- The scratch accumulator: a whole scoped buffer of the kernel's own, passed beside the windows. -/
abbrev scM0_0 : Memref sig .tc .vmem S512x1 .f32 := Memref.whole cc0_scratch0
/-- The same as a view: what it holds is stated through it. -/
abbrev VS0_0 : View sig .tc .vmem S512x1 .f32 := scM0_0.view

/-- The class invariant with the scratch accumulator as a memref owned at some contents, the other scoped buffers
    (the other regions') unopened. -/
theorem PhiA0_eq (c : Dev nD) :
    (Pipeline.ΦA spec0 c : sProp 𝕄)
      = iprop(iprop(iprop(∃ d, owns (c : Thread nD τ) scM0_0 fullShare d)
          ∗ Pipeline.scopedRestBut (Ix := Unit) (Name := ℕ) (U := UR sig nD τ) (Lvl := ℕ) (Val := Elt F) spec0 c [cc0_scratch0]) ∗ (∃ r, prngReg c r)) := by
  unfold Pipeline.ΦA; rw [scopedRest0_split]; simp only [scM0_0, owns_whole]; try rfl

end Cert.KernelIdeal.Reg

end
-- ==== Proof.Reg0RunA.lean ====
import proofs.«172830_g53506702573898_cont_9to1_m_1152_4_alg».proof.Proof.Reg0Base

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE A (column block 0: the accumulator is zeroed first, the row-sum window idle). On whole staging memrefs — the two
    input blocks at their contents, the bf16 output at anything, the idle row-sum output at contents handed back
    untouched, the accumulator at anything — the body runs to the continuation holding the inputs as they were, the
    bf16 output and the accumulator with the pieces their stores wrote (last first): the witness the run finds. -/
noncomputable def kernelRun0_A (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) :
    Σ' (L2 : List (View.Piece (Elt F) S512x512 .bf16)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, fun xi3 E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg2.eq_unread hf0; obtain rfl := harg3.eq_unread hf1; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Reg

end
-- ==== Proof.Reg0RunB.lean ====
import proofs.«172830_g53506702573898_cont_9to1_m_1152_4_alg».proof.Proof.Reg0RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE B (column blocks 1 … 6: neither conditional taken). As case A, but the accumulator enters at the contents
    `xs0` the point before left, and is read before it is stored. -/
noncomputable def kernelRun0_B (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) :
    Σ' (L2 : List (View.Piece (Elt F) S512x512 .bf16)), { LS0 : List (View.Piece (Elt F) S512x1 .f32) //
      ∀ (xi3 : Vec F S512x1 .f32) (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xi3 ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, fun xi3 E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg2.eq_unread hf0; obtain rfl := harg3.eq_unread hf1; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]
    · iexists _; isplitr; · ipureintro; exact harg5.read_unread _
      iexact H3
    iexists _; iexact HS0

end Cert.KernelIdeal.Reg

end
-- ==== Proof.Reg0RunC.lean ====
import proofs.«172830_g53506702573898_cont_9to1_m_1152_4_alg».proof.Proof.Reg0RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

set_option maxHeartbeats 2000000 in
/-- CASE C (column block 7: the second conditional taken). The accumulator enters at the contents `xs0` the point
    before left; the row-sum output enters at anything and leaves with the piece its store wrote. -/
noncomputable def kernelRun0_C (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) :
    Σ' (L2 : List (View.Piece (Elt F) S512x512 .bf16)) (L3 : List (View.Piece (Elt F) S512x1 .f32)), { LS0 : List (View.Piece (Elt F) S512x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0__build_body i arg2 harg2 arg3 harg3 arg4 harg4 arg5 harg5 arg6 harg6) K } := by
  refine ⟨?_, ?_, ?_, fun E K => ?run⟩
  case run =>
    simp only [cc0__build_body_eq_skeleton]; unfold cc0__build_body_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg2.eq_unread hf0; obtain rfl := harg3.eq_unread hf1; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    iexists _; iexact HS0

end Cert.KernelIdeal.Reg

end
-- ==== Proof.Reg0Dat.lean ====
import proofs.«172830_g53506702573898_cont_9to1_m_1152_4_alg».proof.Proof.Reg0RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what the outputs and the accumulator hold point by point, the proof data, the body obligation -/

/-- Case A's pieces for the bf16 output's staging buffer tile it, so they cover it. -/
theorem cover0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) (y : S512x512.Idx) :
    ∃ pc ∈ (kernelRun0_A c i arg2 harg2 arg3 harg3 arg4 harg4 arg5 harg5 arg6 harg6 hc0 hc1 x0 x1).1, y ∈ pc.1.set :=
  View.cover_of_tiledL (kernelRun0_A c i arg2 harg2 arg3 harg3 arg4 harg4 arg5 harg5 arg6 harg6 hc0 hc1 x0 x1).1 S512x512.size (by sl_kernel_rfl) y

/-- What case A leaves in the bf16 output's staging buffer: its pieces read back over junk. -/
def out0_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) : Vec F S512x512 .bf16 :=
  VO0_2.read (Elt F) (VO0_2.writes (Elt F) VO0_2.junk (kernelRun0_A c i arg2 harg2 arg3 harg3 arg4 harg4 arg5 harg5 arg6 harg6 hc0 hc1 x0 x1).1)

/-- Case A's pieces for the accumulator tile it, so they cover it. -/
theorem scover0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) (y : S512x1.Idx) :
    ∃ pc ∈ (kernelRun0_A c i arg2 harg2 arg3 harg3 arg4 harg4 arg5 harg5 arg6 harg6 hc0 hc1 x0 x1).2.1, y ∈ pc.1.set :=
  View.cover_of_tiledL (kernelRun0_A c i arg2 harg2 arg3 harg3 arg4 harg4 arg5 harg5 arg6 harg6 hc0 hc1 x0 x1).2.1 S512x1.size (by sl_kernel_rfl) y

/-- What case A leaves in the accumulator: its pieces read back over junk. -/
def sout0_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i)
    (x0 : Vec F S512x512 .f32) (x1 : Vec F S512x512 .f32) : Vec F S512x1 .f32 :=
  VS0_0.read (Elt F) (VS0_0.writes (Elt F) VS0_0.junk (kernelRun0_A c i arg2 harg2 arg3 harg3 arg4 harg4 arg5 harg5 arg6 harg6 hc0 hc1 x0 x1).2.1)

/-- Case B's pieces for the bf16 output's staging buffer tile it, so they cover it. -/
theorem cover0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) (y : S512x512.Idx) :
    ∃ pc ∈ (kernelRun0_B c i arg2 harg2 arg3 harg3 arg4 harg4 arg5 harg5 arg6 harg6 hc0 hc1 x0 x1 xs0).1, y ∈ pc.1.set :=
  View.cover_of_tiledL (kernelRun0_B c i arg2 harg2 arg3 harg3 arg4 harg4 arg5 harg5 arg6 harg6 hc0 hc1 x0 x1 xs0).1 S512x512.size (by sl_kernel_rfl) y

/-- What case B leaves in the bf16 output's staging buffer: its pieces read back over junk. -/
def out0_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) : Vec F S512x512 .bf16 :=
  VO0_2.read (Elt F) (VO0_2.writes (Elt F) VO0_2.junk (kernelRun0_B c i arg2 harg2 arg3 harg3 arg4 harg4 arg5 harg5 arg6 harg6 hc0 hc1 x0 x1 xs0).1)

/-- Case B's pieces for the accumulator tile it, so they cover it. -/
theorem scover0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) (y : S512x1.Idx) :
    ∃ pc ∈ (kernelRun0_B c i arg2 harg2 arg3 harg3 arg4 harg4 arg5 harg5 arg6 harg6 hc0 hc1 x0 x1 xs0).2.1, y ∈ pc.1.set :=
  View.cover_of_tiledL (kernelRun0_B c i arg2 harg2 arg3 harg3 arg4 harg4 arg5 harg5 arg6 harg6 hc0 hc1 x0 x1 xs0).2.1 S512x1.size (by sl_kernel_rfl) y

/-- What case B leaves in the accumulator: its pieces read back over junk. -/
def sout0_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i)
    (x0 : Vec F S512x512 .f32) (x1 : Vec F S512x512 .f32) (xs0 : Vec F S512x1 .f32) : Vec F S512x1 .f32 :=
  VS0_0.read (Elt F) (VS0_0.writes (Elt F) VS0_0.junk (kernelRun0_B c i arg2 harg2 arg3 harg3 arg4 harg4 arg5 harg5 arg6 harg6 hc0 hc1 x0 x1 xs0).2.1)

/-- Case C's pieces for the bf16 output's staging buffer tile it, so they cover it. -/
theorem cover0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x512.Idx) :
    ∃ pc ∈ (kernelRun0_C c i arg2 harg2 arg3 harg3 arg4 harg4 arg5 harg5 arg6 harg6 hc0 hc1 x0 x1 xs0).1, y ∈ pc.1.set :=
  View.cover_of_tiledL (kernelRun0_C c i arg2 harg2 arg3 harg3 arg4 harg4 arg5 harg5 arg6 harg6 hc0 hc1 x0 x1 xs0).1 S512x512.size (by sl_kernel_rfl) y

/-- What case C leaves in the bf16 output's staging buffer: its pieces read back over junk. -/
def out0_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x512 .bf16 :=
  VO0_2.read (Elt F) (VO0_2.writes (Elt F) VO0_2.junk (kernelRun0_C c i arg2 harg2 arg3 harg3 arg4 harg4 arg5 harg5 arg6 harg6 hc0 hc1 x0 x1 xs0).1)

/-- Case C's pieces for the row-sum output's staging buffer tile it, so they cover it. -/
theorem cover0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x1.Idx) :
    ∃ pc ∈ (kernelRun0_C c i arg2 harg2 arg3 harg3 arg4 harg4 arg5 harg5 arg6 harg6 hc0 hc1 x0 x1 xs0).2.1, y ∈ pc.1.set :=
  View.cover_of_tiledL (kernelRun0_C c i arg2 harg2 arg3 harg3 arg4 harg4 arg5 harg5 arg6 harg6 hc0 hc1 x0 x1 xs0).2.1 S512x1.size (by sl_kernel_rfl) y

/-- What case C leaves in the row-sum output's staging buffer: its pieces read back over junk. -/
def out0_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x1 .f32 :=
  VO0_3.read (Elt F) (VO0_3.writes (Elt F) VO0_3.junk (kernelRun0_C c i arg2 harg2 arg3 harg3 arg4 harg4 arg5 harg5 arg6 harg6 hc0 hc1 x0 x1 xs0).2.1)

/-- Case C's pieces for the accumulator tile it, so they cover it. -/
theorem scover0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) (y : S512x1.Idx) :
    ∃ pc ∈ (kernelRun0_C c i arg2 harg2 arg3 harg3 arg4 harg4 arg5 harg5 arg6 harg6 hc0 hc1 x0 x1 xs0).2.2.1, y ∈ pc.1.set :=
  View.cover_of_tiledL (kernelRun0_C c i arg2 harg2 arg3 harg3 arg4 harg4 arg5 harg5 arg6 harg6 hc0 hc1 x0 x1 xs0).2.2.1 S512x1.size (by sl_kernel_rfl) y

/-- What case C leaves in the accumulator: its pieces read back over junk. -/
def sout0_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i)
    (x0 : Vec F S512x512 .f32) (x1 : Vec F S512x512 .f32) (xs0 : Vec F S512x1 .f32) : Vec F S512x1 .f32 :=
  VS0_0.read (Elt F) (VS0_0.writes (Elt F) VS0_0.junk (kernelRun0_C c i arg2 harg2 arg3 harg3 arg4 harg4 arg5 harg5 arg6 harg6 hc0 hc1 x0 x1 xs0).2.2.1)

/-- Where the row-sum window is idle its buffer is handed back untouched and never written back: a placeholder that
    nothing consults. -/
def idle0_3 : Vec F S512x1 .f32 := VO0_3.read (Elt F) VO0_3.junk

/-! ## What the outputs and the accumulator hold after each point -/

/-- What the bf16 output's buffer, the row-sum output's buffer and the accumulator hold after the body at position `n`:
    the case the closed forms select at `n`, run at the point's memrefs and input blocks, the accumulator entering at
    what this leaves at `n - 1`. -/
def outsAt0 (c : Dev nD) : (n : ℕ) → n < cfg0.N → Vec F S512x512 .bf16 × Vec F S512x1 .f32 × Vec F S512x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), idle0_3, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), idle0_3, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2.2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2, idle0_3, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2.2)

/-- `outsAt0` at a point of case A. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t), idle0_3, sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: over what the point before left in the accumulator. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2, idle0_3, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: over what the point before left in the accumulator. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, out0_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2, sout0_C_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-! ## The region invariant: the accumulator carried between points -/

/-- Before the first point the class invariant (every scoped buffer that is no staging buffer at anything, the
    generator register at some state); afterwards the accumulator at what the point before left in it, the other
    scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2.2)
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

/-! ## The proof data -/

/-- The proof data of region 0 on core `c`: the arrays as the region finds them (`V`); after the body at point `t`
    each input's buffer at its block and the outputs' at `outsAt0`'s components; the invariant `PhiS0`; nothing
    owed; the two input windows hold their common array by the left and the right half share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- The shares: the two windows on the one input array hold it by halves, the outputs fully. -/
theorem share0_0 (c : Dev nD) : (dat0 V c).share 0 = fullShare.left := by unfold Dat.share; dsimp only [dat0]; rfl
theorem share0_1 (c : Dev nD) : (dat0 V c).share 1 = fullShare.right := by unfold Dat.share; dsimp only [dat0]; rfl
theorem share0_2 (c : Dev nD) : (dat0 V c).share 2 = fullShare := by unfold Dat.share; dsimp only [dat0]; rfl
theorem share0_3 (c : Dev nD) : (dat0 V c).share 3 = fullShare := by unfold Dat.share; dsimp only [dat0]; rfl

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

end Cert.KernelIdeal.Reg

end
-- ==== Proof.Reg1Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 1 (custom_call 1, `cc1__sapply_body`, pipeline 1) at the entry contents `V`: what its case runs share -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof data
    whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof data
    whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof data
    whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof data
    whose array is `V`'s and whose body leaves the block in place. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof data
    whose array is `V`'s and whose body leaves the block in place. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end Regions

/-! ## The body's branch conditions -/

/-- The condition of the body's first `scf.if` (`k1_h1`): the grid coordinate is 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (`k1_h2`): the grid coordinate is 7. -/
abbrev cond1_1 (i : grid1.Coords) : Prop := (Scalar.cmpi .ne (Scalar.extui (Scalar.cmpi .eq (BitVec.ofNat 32 (i 0).val) 7#32)) 0#32) = 1#1
/-- It holds at the last point only. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## The staging memrefs -/

/-- One staging buffer of output window 5, through which its contents are stated. -/
abbrev VO1_5 : View sig .tc .vmem S4096x256 .f32 := (Memref.whole cc1_stg5_0 : Memref sig .tc .vmem S4096x256 .f32).view
/-- Each window's current staging memref at point `t`, spelled as the pipeline passes it (`bodyAt1`), and its wholeness. -/
abbrev ms1_0 (t : Fin cfg1.N) : Memref sig .tc .vmem S4096x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x1 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S4096x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S4096x256 .f32 := win1_5.stage (cfg1.slots t 5)
abbrev hs1_5 (t : Fin cfg1.N) : (ms1_5 t).IsWhole := hstage1_5 ((cfg1.slots t 5).cast nbuf1_5)

end Cert.KernelIdeal.Reg

end
-- ==== Proof.Reg1RunA.lean ====
import proofs.«172830_g53506702573898_cont_9to1_m_1152_4_alg».proof.Proof.Reg1Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun1_A (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg1RunB.lean ====
import proofs.«172830_g53506702573898_cont_9to1_m_1152_4_alg».proof.Proof.Reg1RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun1_B (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg1RunC.lean ====
import proofs.«172830_g53506702573898_cont_9to1_m_1152_4_alg».proof.Proof.Reg1RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun1_C (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc1__sapply_body i arg1 harg1 arg2 harg2 arg3 harg3 arg4 harg4 arg5 harg5 arg6 harg6) K } := by
  refine ⟨?_, fun E K => ?run⟩
  case run =>
    simp only [cc1__sapply_body_eq_skeleton]; unfold cc1__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg1Frame.lean ====
import proofs.«172830_g53506702573898_cont_9to1_m_1152_4_alg».proof.Proof.Reg1RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_1 (n : ℕ) (hn : n + 1 < cfg1.N) : ¬ (n + 1) % 8 = 0 := by
  have hN : cfg1.N = 8 := N_1
  omega

/-- Case A's pieces for output 5 tile its block, so they cover it. -/
theorem cover1_A_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun1_A c i arg1 harg1 arg2 harg2 arg3 harg3 arg4 harg4 arg5 harg5 arg6 harg6 hc0 hc1 x0 x1 x2 x3 x4).1, y ∈ pc.1.set :=
  View.cover_of_tiledL (kernelRun1_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out1_A_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond1_0 i) (hc1 : ¬cond1_1 i)
    (x0 : Vec F S4096x512 .bf16) (x1 : Vec F S512x256 .f32) (x2 : Vec F S512x1 .f32) (x3 : Vec F S4096x1 .f32) (x4 : Vec F S4096x256 .f32) : Vec F S4096x256 .f32 :=
  VO1_5.read (Elt F) (VO1_5.writes (Elt F) VO1_5.junk (kernelRun1_A c i arg1 harg1 arg2 harg2 arg3 harg3 arg4 harg4 arg5 harg5 arg6 harg6 hc0 hc1 x0 x1 x2 x3 x4).1)

/-- Case B's pieces for output 5 tile its block, so they cover it. -/
theorem cover1_B_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun1_B c i arg1 harg1 arg2 harg2 arg3 harg3 arg4 harg4 arg5 harg5 arg6 harg6 hc0 hc1 x0 x1 x2 x3 x4 xo5).1, y ∈ pc.1.set :=
  View.cover_of_tiledL (kernelRun1_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out1_B_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : ¬cond1_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO1_5.read (Elt F) (VO1_5.writes (Elt F) VO1_5.junk (kernelRun1_B c i arg1 harg1 arg2 harg2 arg3 harg3 arg4 harg4 arg5 harg5 arg6 harg6 hc0 hc1 x0 x1 x2 x3 x4 xo5).1)

/-- Case C's pieces for output 5 tile its block, so they cover it. -/
theorem cover1_C_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun1_C c i arg1 harg1 arg2 harg2 arg3 harg3 arg4 harg4 arg5 harg5 arg6 harg6 hc0 hc1 x0 x1 x2 x3 x4 xo5).1, y ∈ pc.1.set :=
  View.cover_of_tiledL (kernelRun1_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out1_C_5 (c : Dev nD) (i : grid1.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond1_0 i) (hc1 : cond1_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO1_5.read (Elt F) (VO1_5.writes (Elt F) VO1_5.junk (kernelRun1_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt1 (c : Dev nD) : (n : ℕ) → n < cfg1.N → Vec F S4096x256 .f32
  | 0, hn => out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (fun h => absurd ((hcond1_1 ⟨0, hn⟩).mp h) (show ¬ (0 % 8 = 7) by decide)) (iblk1 V c 0 ⟨0, hn⟩) (iblk1 V c 1 ⟨0, hn⟩) (iblk1 V c 2 ⟨0, hn⟩) (iblk1 V c 3 ⟨0, hn⟩) (iblk1 V c 4 ⟨0, hn⟩)
  | n + 1, hn =>
    if h1 : (n + 1) % 8 = 7 then
      out1_C_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => succ_mod8_1 n hn ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))
    else
      out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => succ_mod8_1 n hn ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (outsAt1 c n (Nat.lt_of_succ_lt hn))

/-- `outsAt1` at the point of case A. -/
theorem outsAt1_A (c : Dev nD) (t : Fin cfg1.N) (h0 : t.val % 8 = 0) (h1 : ¬t.val % 8 = 7) :
    outsAt1 V c t.val t.isLt = out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (fun h => h1 ((hcond1_1 t).mp h)) (iblk1 V c 0 t) (iblk1 V c 1 t) (iblk1 V c 2 t) (iblk1 V c 3 t) (iblk1 V c 4 t) := by
  obtain ⟨n, hn⟩ := t
  cases n with
  | zero => exact rfl
  | succ n => exact absurd h0 (succ_mod8_1 n hn)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (fun h => h1 ((hcond1_1 t).mp h)) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt1` at the point of case C: that case's contents, over what the point before left. -/
theorem outsAt1_C (c : Dev nD) (t : Fin cfg1.N) (h0 : ¬t.val % 8 = 0) (h1 : t.val % 8 = 7) :
    outsAt1 V c t.val t.isLt = out1_C_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) ((hcond1_1 t).mpr h1) (iblk1 V c 0 t) (iblk1 V c 1 t) (iblk1 V c 2 t) (iblk1 V c 3 t) (iblk1 V c 4 t) (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt1`; the invariant the scoped rest and the generator register;
    nothing owed; windows 2 and 3, which read one array, hold it by the left and the right half of the full share, and so
    do windows 1 and 4, which read another; the two remaining windows hold their arrays at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt)
  Φ _ := Pipeline.ΦA spec1 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- At a point after the first, output 5's staging buffer holds what the body left at the point before: the buffer was
    not written back between, the window is live and uncut. -/
theorem before1_5_kept (c : Dev nD) (t : Fin cfg1.N) (h0 : ¬t.val % 8 = 0) (d) :
    (dat1 V c).before 5 t d = (outsAt1 V c (t.val - 1) (Nat.lt_of_le_of_lt (Nat.sub_le _ _) t.isLt)) := by
  have hN : t.val < 8 := lt_of_lt_of_eq t.isLt (show cfg1.N = 8 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 8 := lt_of_lt_of_eq t.isLt (show cfg1.N = 8 from N_1)
  by_cases h0 : t.val % 8 = 0
  · have h1 : ¬t.val % 8 = 7 := by omega
    rw [outsAt1_A V c t h0 h1]
    unfold out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t) (iblk1 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover1_A_5 c _ _ _ _ _ _ _ _ _ _ _ _ _ _ _ _ _ _ _ _)
  · by_cases h1 : t.val % 8 = 7
    · rw [outsAt1_C V c t h0 h1]
      simp only [before1_5_kept V c t h0]
      unfold out1_C_5
      iintro ⟨HΦ, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_C_5 c _ _ _ _ _ _ _ _ _ _ _ _ _ _ _ _ _ _ _ _ _)
    · rw [outsAt1_B V c t h0 h1]
      simp only [before1_5_kept V c t h0]
      unfold out1_B_5
      iintro ⟨HΦ, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) (iblk1 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover1_B_5 c _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Reg

end
-- ==== Proof.Reg2Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 2 (custom_call 2, `cc2__sapply_body`, pipeline 2) at the entry contents `V`: what its case runs share -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof data
    whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof data
    whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof data
    whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof data
    whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not, for any proof data
    whose array is `V`'s and whose body leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

end Regions

/-! ## The body's branch conditions -/

/-- The condition of the body's first `scf.if` (`k2_h1`): the grid coordinate is 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second `scf.if` (`k2_h2`): the grid coordinate is 7. -/
abbrev cond2_1 (i : grid2.Coords) : Prop := (Scalar.cmpi .ne (Scalar.extui (Scalar.cmpi .eq (BitVec.ofNat 32 (i 0).val) 7#32)) 0#32) = 1#1
/-- It holds at the last point only. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## The staging memrefs -/

/-- One staging buffer of output window 5, through which its contents are stated. -/
abbrev VO2_5 : View sig .tc .vmem S4096x256 .f32 := (Memref.whole cc2_stg5_0 : Memref sig .tc .vmem S4096x256 .f32).view
/-- Each window's current staging memref at point `t`, spelled as the pipeline passes it (`bodyAt2`), and its wholeness. -/
abbrev ms2_0 (t : Fin cfg2.N) : Memref sig .tc .vmem S4096x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S512x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S4096x1 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S4096x256 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S4096x256 .f32 := win2_5.stage (cfg2.slots t 5)
abbrev hs2_5 (t : Fin cfg2.N) : (ms2_5 t).IsWhole := hstage2_5 ((cfg2.slots t 5).cast nbuf2_5)

end Cert.KernelIdeal.Reg

end
-- ==== Proof.Reg2RunA.lean ====
import proofs.«172830_g53506702573898_cont_9to1_m_1152_4_alg».proof.Proof.Reg2Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun2_A (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg2RunB.lean ====
import proofs.«172830_g53506702573898_cont_9to1_m_1152_4_alg».proof.Proof.Reg2RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun2_B (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg2RunC.lean ====
import proofs.«172830_g53506702573898_cont_9to1_m_1152_4_alg».proof.Proof.Reg2RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun2_C (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc2__sapply_body i arg1 harg1 arg2 harg2 arg3 harg3 arg4 harg4 arg5 harg5 arg6 harg6) K } := by
  refine ⟨?_, fun E K => ?run⟩
  case run =>
    simp only [cc2__sapply_body_eq_skeleton]; unfold cc2__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg2Frame.lean ====
import proofs.«172830_g53506702573898_cont_9to1_m_1152_4_alg».proof.Proof.Reg2RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_2 (n : ℕ) (hn : n + 1 < cfg2.N) : ¬ (n + 1) % 8 = 0 := by
  have hN : cfg2.N = 8 := N_2
  omega

/-- Case A's pieces for output 5 tile its block, so they cover it. -/
theorem cover2_A_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun2_A c i arg1 harg1 arg2 harg2 arg3 harg3 arg4 harg4 arg5 harg5 arg6 harg6 hc0 hc1 x0 x1 x2 x3 x4).1, y ∈ pc.1.set :=
  View.cover_of_tiledL (kernelRun2_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out2_A_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond2_0 i) (hc1 : ¬cond2_1 i)
    (x0 : Vec F S4096x512 .bf16) (x1 : Vec F S512x256 .f32) (x2 : Vec F S512x1 .f32) (x3 : Vec F S4096x1 .f32) (x4 : Vec F S4096x256 .f32) : Vec F S4096x256 .f32 :=
  VO2_5.read (Elt F) (VO2_5.writes (Elt F) VO2_5.junk (kernelRun2_A c i arg1 harg1 arg2 harg2 arg3 harg3 arg4 harg4 arg5 harg5 arg6 harg6 hc0 hc1 x0 x1 x2 x3 x4).1)

/-- Case B's pieces for output 5 tile its block, so they cover it. -/
theorem cover2_B_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun2_B c i arg1 harg1 arg2 harg2 arg3 harg3 arg4 harg4 arg5 harg5 arg6 harg6 hc0 hc1 x0 x1 x2 x3 x4 xo5).1, y ∈ pc.1.set :=
  View.cover_of_tiledL (kernelRun2_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out2_B_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : ¬cond2_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO2_5.read (Elt F) (VO2_5.writes (Elt F) VO2_5.junk (kernelRun2_B c i arg1 harg1 arg2 harg2 arg3 harg3 arg4 harg4 arg5 harg5 arg6 harg6 hc0 hc1 x0 x1 x2 x3 x4 xo5).1)

/-- Case C's pieces for output 5 tile its block, so they cover it. -/
theorem cover2_C_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun2_C c i arg1 harg1 arg2 harg2 arg3 harg3 arg4 harg4 arg5 harg5 arg6 harg6 hc0 hc1 x0 x1 x2 x3 x4 xo5).1, y ∈ pc.1.set :=
  View.cover_of_tiledL (kernelRun2_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out2_C_5 (c : Dev nD) (i : grid2.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond2_0 i) (hc1 : cond2_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO2_5.read (Elt F) (VO2_5.writes (Elt F) VO2_5.junk (kernelRun2_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt2 (c : Dev nD) : (n : ℕ) → n < cfg2.N → Vec F S4096x256 .f32
  | 0, hn => out2_A_5 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) ((hcond2_0 ⟨0, hn⟩).mpr (Nat.zero_mod _)) (fun h => absurd ((hcond2_1 ⟨0, hn⟩).mp h) (show ¬ (0 % 8 = 7) by decide)) (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn =>
    if h1 : (n + 1) % 8 = 7 then
      out2_C_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => succ_mod8_2 n hn ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))
    else
      out2_B_5 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (fun h => succ_mod8_2 n hn ((hcond2_0 ⟨n + 1, hn⟩).mp h)) (fun h => h1 ((hcond2_1 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (outsAt2 c n (Nat.lt_of_succ_lt hn))

/-- `outsAt2` at the point of case A. -/
theorem outsAt2_A (c : Dev nD) (t : Fin cfg2.N) (h0 : t.val % 8 = 0) (h1 : ¬t.val % 8 = 7) :
    outsAt2 V c t.val t.isLt = out2_A_5 c (grid2.coords t) (ms2_0 t) (hs2_0 t) (ms2_1 t) (hs2_1 t) (ms2_2 t) (hs2_2 t) (ms2_3 t) (hs2_3 t) (ms2_4 t) (hs2_4 t) (ms2_5 t) (hs2_5 t) ((hcond2_0 t).mpr h0) (fun h => h1 ((hcond2_1 t).mp h)) (iblk2 V c 0 t) (iblk2 V c 1 t) (iblk2 V c 2 t) (iblk2 V c 3 t) (iblk2 V c 4 t) := by
  obtain ⟨n, hn⟩ := t
  cases n with
  | zero => exact rfl
  | succ n => exact absurd h0 (succ_mod8_2 n hn)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = out2_B_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) (fun h => h1 ((hcond2_1 t).mp h)) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt2` at the point of case C: that case's contents, over what the point before left. -/
theorem outsAt2_C (c : Dev nD) (t : Fin cfg2.N) (h0 : ¬t.val % 8 = 0) (h1 : t.val % 8 = 7) :
    outsAt2 V c t.val t.isLt = out2_C_5 c (grid2.coords t) (ms2_0 t) (hs2_0 t) (ms2_1 t) (hs2_1 t) (ms2_2 t) (hs2_2 t) (ms2_3 t) (hs2_3 t) (ms2_4 t) (hs2_4 t) (ms2_5 t) (hs2_5 t) (fun h => h0 ((hcond2_0 t).mp h)) ((hcond2_1 t).mpr h1) (iblk2 V c 0 t) (iblk2 V c 1 t) (iblk2 V c 2 t) (iblk2 V c 3 t) (iblk2 V c 4 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of pipeline 2 on core `c`: the arrays as the region finds them (`V`); after the body at point `t` each
    input's buffer at its block and the output's at `outsAt2`; the invariant the scoped rest and the generator register;
    nothing owed; windows 2 and 3, which read one array, hold it by the left and the right half of the full share,
    every other window its array at the full share. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t.val t.isLt)
  Φ _ := Pipeline.ΦA spec2 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = (outsAt2 V c t.val t.isLt) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a point after the first, output 5's staging buffer holds what the body left at the point before: the buffer was
    not written back between, the window is live and uncut. -/
theorem before2_5_kept (c : Dev nD) (t : Fin cfg2.N) (h0 : ¬t.val % 8 = 0) (d) :
    (dat2 V c).before 5 t d = (outsAt2 V c (t.val - 1) (Nat.lt_of_le_of_lt (Nat.sub_le _ _) t.isLt)) := by
  have hN : t.val < 8 := lt_of_lt_of_eq t.isLt (show cfg2.N = 8 from N_2)
  rw [Dat.before_out_kept _ 5 rfl t (by omega) (Bool.eq_false_iff.mpr fun h => by have := (flush2_5 _).mp h; dsimp only at this; omega)
    (fun _ => rfl) (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  have hN : t.val < 8 := lt_of_lt_of_eq t.isLt (show cfg2.N = 8 from N_2)
  by_cases h0 : t.val % 8 = 0
  · have h1 : ¬t.val % 8 = 7 := by omega
    rw [outsAt2_A V c t h0 h1]
    unfold out2_A_5
    iintro ⟨HΦ, Ho, ⟨%d0, H0⟩, ⟨%d1, H1⟩, ⟨%d2, H2⟩, ⟨%d3, H3⟩, ⟨%d4, H4⟩, ⟨%d5, H5⟩⟩
    iapply ((kernelRun2_A c (grid2.coords t) _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover2_A_5 c _ _ _ _ _ _ _ _ _ _ _ _ _ _ _ _ _ _ _ _)
  · by_cases h1 : t.val % 8 = 7
    · rw [outsAt2_C V c t h0 h1]
      simp only [before2_5_kept V c t h0]
      unfold out2_C_5
      iintro ⟨HΦ, Ho, ⟨%d0, H0⟩, ⟨%d1, H1⟩, ⟨%d2, H2⟩, ⟨%d3, H3⟩, ⟨%d4, H4⟩, ⟨%d5, H5⟩⟩
      iapply ((kernelRun2_C c (grid2.coords t) _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_C_5 c _ _ _ _ _ _ _ _ _ _ _ _ _ _ _ _ _ _ _ _ _)
    · rw [outsAt2_B V c t h0 h1]
      simp only [before2_5_kept V c t h0]
      unfold out2_B_5
      iintro ⟨HΦ, Ho, ⟨%d0, H0⟩, ⟨%d1, H1⟩, ⟨%d2, H2⟩, ⟨%d3, H3⟩, ⟨%d4, H4⟩, ⟨%d5, H5⟩⟩
      iapply ((kernelRun2_B c (grid2.coords t) _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover2_B_5 c _ _ _ _ _ _ _ _ _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

end Regions

end Cert.KernelIdeal.Reg

end
-- ==== Proof.Reg3Body.lean ====
/-
  The gate region of the first layer (kernel region 3 of @main, counting from 0) at a parameter `V`, the buffers' contents
  when the region is entered.

  The region has eight grid points; point `t` handles rows 4096·t … 4096·t+4095 of the node-major feature
  matrices. Its body reads three [4096, 32] blocks of diffusion terms, the two [3, 32, 16] weight stacks and the two
  [1, 16] bias rows (each a single block, fetched once), and the [4096, 16] block of the hidden state; it writes two
  [4096, 16] blocks: r ⊙ h with r the logistic of the first pre-activation, and u, the logistic of the second. Every
  load and store is through a literal rectangle and nothing is carried from one point to the next, so what each
  output buffer holds after the body is the canonical contents of its one store over the body's pure payload.
-/
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

abbrev r3_x : Rect S4096x32 := Rect.unit (s := S4096x32) ![0, 0] S4096x32.size inb_S4096x32_S4096x32_0_0
abbrev r3_h : Rect S4096x16 := Rect.unit (s := S4096x16) ![0, 0] S4096x16.size inb_S4096x16_S4096x16_0_0
abbrev r3_b : Rect S1x16 := Rect.unit (s := S1x16) ![0, 0] S1x16.size inb_S1x16_S1x16_0_0
abbrev r3_w0 : Rect S3x32x16 := Rect.unit (s := S3x32x16) ![0, 0, 0] S1x32x16.size inb_S3x32x16_S1x32x16_0_0_0
abbrev r3_w1 : Rect S3x32x16 := Rect.unit (s := S3x32x16) ![1, 0, 0] S1x32x16.size inb_S3x32x16_S1x32x16_1_0_0
abbrev r3_w2 : Rect S3x32x16 := Rect.unit (s := S3x32x16) ![2, 0, 0] S1x32x16.size inb_S3x32x16_S1x32x16_2_0_0

/-! ## What the body leaves in each output window's buffer -/

/-- The first output's buffer after the body: logistic of (bias + three products) times the hidden block. -/
def out3_8 (x0 x1 x2 : Vec F S4096x32 .f32) (x3 : Vec F S3x32x16 .f32) (x5 : Vec F S1x16 .f32) (x7 : Vec F S4096x16 .f32) :
    Vec F S4096x16 .f32 :=
  View.canon [⟨r3_h, k3_pay2 (k3_pay5 (View.ld x5 r3_b) (View.ld x0 r3_x) (View.ld x3 r3_w0) (View.ld x1 r3_x) (View.ld x3 r3_w1))
    (k3_pay7 (View.ld x2 r3_x)) (k3_pay8 (View.ld x3 r3_w2)) (View.ld x7 r3_h)⟩]

/-- The second output's buffer after the body: logistic of (bias + three products) with the second weight stack. -/
def out3_9 (x0 x1 x2 : Vec F S4096x32 .f32) (x4 : Vec F S3x32x16 .f32) (x6 : Vec F S1x16 .f32) : Vec F S4096x16 .f32 :=
  View.canon [⟨r3_h, k3_pay1 (k3_pay6 (View.ld x6 r3_b) (View.ld x0 r3_x) (View.ld x4 r3_w0) (View.ld x1 r3_x) (View.ld x4 r3_w1))
    (k3_pay7 (View.ld x2 r3_x)) (View.ld x4 r3_w2)⟩]

/-- One store through the whole-block rectangle covers the block. -/
theorem cover3_h (p0 : Vec F S4096x16 .f32) (y : S4096x16.Idx) :
    ∃ pc ∈ ([⟨r3_h, p0⟩] : List (View.Piece (Elt F) S4096x16 .f32)), y ∈ pc.1.set :=
  View.cover_of_tiled [⟨r3_h, p0⟩] S4096x16.size (by rfl) y

/-! ## The body's triple -/

set_option maxHeartbeats 4000000 in
/-- The body on whole staging memrefs — the inputs' at read contents, the outputs' at anything — runs to the
    continuation holding the inputs' as they were and each output's at its canonical contents. -/
theorem sound_kernel3 (c : Dev nD) (E : Set ℕ) (i : grid3.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S3x32x16 .f32) (harg5 : arg5.IsWhole) (arg6 : Memref sig .tc .vmem S1x16 .f32) (harg6 : arg6.IsWhole)
    (arg7 : Memref sig .tc .vmem S1x16 .f32) (harg7 : arg7.IsWhole) (arg8 : Memref sig .tc .vmem S4096x16 .f32) (harg8 : arg8.IsWhole)
    (arg9 : Memref sig .tc .vmem S4096x16 .f32) (harg9 : arg9.IsWhole) (arg10 : Memref sig .tc .vmem S4096x16 .f32) (harg10 : arg10.IsWhole)
    (x0 x1 x2 : Vec F S4096x32 .f32) (x3 x4 : Vec F S3x32x16 .f32) (x5 x6 : Vec F S1x16 .f32) (x7 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out3_8 x0 x1 x2 x3 x5 x7)
            ∗ owns (c : Thread nD τ) arg10 fullShare (out3_9 x0 x1 x2 x4 x6)) -∗ K ⟨⟩))
      ⊢ wp frame (wpE (defs₀ (F := F)) Variants.none c none) E
          (cc3__gate_body i arg1 harg1 arg2 harg2 arg3 harg3 arg4 harg4 arg5 harg5 arg6 harg6 arg7 harg7 arg8 harg8 arg9 harg9 arg10 harg10) K := by
  simp only [cc3__gate_body_eq_skeleton]; unfold cc3__gate_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover3_h _)
  · iexists _; isplitr
    swap; · iexact H9
    ipureintro
    exact View.read_writes_eq_canon _ _ _ (cover3_h _)

end Region3

end Cert.KernelIdeal.Reg
end
-- ==== Proof.Reg3Data.lean ====
/-
  The gate region of the first layer: its proof data and body obligation at a parameter `V`.

  Each of the eight input windows (three blocks of diffusion terms, two weight stacks, two bias rows, the hidden
  block) is only read, so its staging buffer holds its block of the array at every point whether or not the pipeline
  fetched it there; the two output buffers are overwritten whole at every point. The body obligation at a point is
  then the body's triple at the point's blocks.
-/
import proofs.«172830_g53506702573898_cont_9to1_m_1152_4_alg».proof.Proof.Reg3Body

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region3

variable (V : (c : Dev nD) → (b : Ref sig .tc) → Buf (Elt F) ((c : Thread nD τ).loc b))

/-! ## Each input window's staging buffer holds its block at every point, fetched there or not -/

theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)

theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)

theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => out3_8 (iblk3 V c 0 t) (iblk3 V c 1 t) (iblk3 V c 2 t) (iblk3 V c 3 t) (iblk3 V c 5 t) (iblk3 V c 7 t)
    | ⟨9, _⟩ => out3_9 (iblk3 V c 0 t) (iblk3 V c 1 t) (iblk3 V c 2 t) (iblk3 V c 4 t) (iblk3 V c 6 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = out3_8 (iblk3 V c 0 t) (iblk3 V c 1 t) (iblk3 V c 2 t) (iblk3 V c 3 t) (iblk3 V c 5 t) (iblk3 V c 7 t) := by dsimp only [dat3]
theorem after3_9 (c : Dev nD) (t : Fin cfg3.N) : (dat3 V c).after 9 t = out3_9 (iblk3 V c 0 t) (iblk3 V c 1 t) (iblk3 V c 2 t) (iblk3 V c 4 t) (iblk3 V c 6 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t))

/-- The body at any point: the inputs' memrefs hold their blocks, so the body's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel3 c Set.univ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation3 (c : Dev nD) : BodyObligation (dat3 (F := F) V c) (defs₀ (F := F)) Variants.none () Set.univ := fun t => by
  rw [bigSep_W3, bigSep_W3]
  exact sound_body3 V c t

end Region3

end Cert.KernelIdeal.Reg
end
-- ==== Proof.Reg4Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 4 (custom_call 4, `cc4__sapply_body`, pipeline 4) at the entry contents `V`: what its case runs share -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for any proof data
    whose array is `V`'s and whose body leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not, for any proof data
    whose array is `V`'s and whose body leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not, for any proof data
    whose array is `V`'s and whose body leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not, for any proof data
    whose array is `V`'s and whose body leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not, for any proof data
    whose array is `V`'s and whose body leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

end Regions

/-! ## The body's branch conditions -/

/-- The condition of the body's first `scf.if` (`k4_h1`): the grid coordinate is 0. -/
abbrev cond4_0 (i : grid4.Coords) : Prop := (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second `scf.if` (`k4_h2`): the grid coordinate is 7. -/
abbrev cond4_1 (i : grid4.Coords) : Prop := (Scalar.cmpi .ne (Scalar.extui (Scalar.cmpi .eq (BitVec.ofNat 32 (i 0).val) 7#32)) 0#32) = 1#1
/-- It holds at the last point only. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## The staging memrefs -/

/-- One staging buffer of output window 5, through which its contents are stated. -/
abbrev VO4_5 : View sig .tc .vmem S4096x256 .f32 := (Memref.whole cc4_stg5_0 : Memref sig .tc .vmem S4096x256 .f32).view
/-- Each window's current staging memref at point `t`, spelled as the pipeline passes it (`bodyAt4`), and its wholeness. -/
abbrev ms4_0 (t : Fin cfg4.N) : Memref sig .tc .vmem S4096x512 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S512x256 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S512x1 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x1 .f32 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S4096x256 .f32 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S4096x256 .f32 := win4_5.stage (cfg4.slots t 5)
abbrev hs4_5 (t : Fin cfg4.N) : (ms4_5 t).IsWhole := hstage4_5 ((cfg4.slots t 5).cast nbuf4_5)

end Cert.KernelIdeal.Reg

end
-- ==== Proof.Reg4RunA.lean ====
import proofs.«172830_g53506702573898_cont_9to1_m_1152_4_alg».proof.Proof.Reg4Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun4_A (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg4RunB.lean ====
import proofs.«172830_g53506702573898_cont_9to1_m_1152_4_alg».proof.Proof.Reg4RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun4_B (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg4RunC.lean ====
import proofs.«172830_g53506702573898_cont_9to1_m_1152_4_alg».proof.Proof.Reg4RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun4_C (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc4__sapply_body i arg1 harg1 arg2 harg2 arg3 harg3 arg4 harg4 arg5 harg5 arg6 harg6) K } := by
  refine ⟨?_, fun E K => ?run⟩
  case run =>
    simp only [cc4__sapply_body_eq_skeleton]; unfold cc4__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg4Frame.lean ====
import proofs.«172830_g53506702573898_cont_9to1_m_1152_4_alg».proof.Proof.Reg4RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_4 (n : ℕ) (hn : n + 1 < cfg4.N) : ¬ (n + 1) % 8 = 0 := by
  have hN : cfg4.N = 8 := N_4
  omega

/-- Case A's pieces for output 5 tile its block, so they cover it. -/
theorem cover4_A_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun4_A c i arg1 harg1 arg2 harg2 arg3 harg3 arg4 harg4 arg5 harg5 arg6 harg6 hc0 hc1 x0 x1 x2 x3 x4).1, y ∈ pc.1.set :=
  View.cover_of_tiledL (kernelRun4_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out4_A_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond4_0 i) (hc1 : ¬cond4_1 i)
    (x0 : Vec F S4096x512 .bf16) (x1 : Vec F S512x256 .f32) (x2 : Vec F S512x1 .f32) (x3 : Vec F S4096x1 .f32) (x4 : Vec F S4096x256 .f32) : Vec F S4096x256 .f32 :=
  VO4_5.read (Elt F) (VO4_5.writes (Elt F) VO4_5.junk (kernelRun4_A c i arg1 harg1 arg2 harg2 arg3 harg3 arg4 harg4 arg5 harg5 arg6 harg6 hc0 hc1 x0 x1 x2 x3 x4).1)

/-- Case B's pieces for output 5 tile its block, so they cover it. -/
theorem cover4_B_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun4_B c i arg1 harg1 arg2 harg2 arg3 harg3 arg4 harg4 arg5 harg5 arg6 harg6 hc0 hc1 x0 x1 x2 x3 x4 xo5).1, y ∈ pc.1.set :=
  View.cover_of_tiledL (kernelRun4_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out4_B_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : ¬cond4_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO4_5.read (Elt F) (VO4_5.writes (Elt F) VO4_5.junk (kernelRun4_B c i arg1 harg1 arg2 harg2 arg3 harg3 arg4 harg4 arg5 harg5 arg6 harg6 hc0 hc1 x0 x1 x2 x3 x4 xo5).1)

/-- Case C's pieces for output 5 tile its block, so they cover it. -/
theorem cover4_C_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun4_C c i arg1 harg1 arg2 harg2 arg3 harg3 arg4 harg4 arg5 harg5 arg6 harg6 hc0 hc1 x0 x1 x2 x3 x4 xo5).1, y ∈ pc.1.set :=
  View.cover_of_tiledL (kernelRun4_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out4_C_5 (c : Dev nD) (i : grid4.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond4_0 i) (hc1 : cond4_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO4_5.read (Elt F) (VO4_5.writes (Elt F) VO4_5.junk (kernelRun4_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt4 (c : Dev nD) : (n : ℕ) → n < cfg4.N → Vec F S4096x256 .f32
  | 0, hn => out4_A_5 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) ((hcond4_0 ⟨0, hn⟩).mpr (Nat.zero_mod _)) (fun h => absurd ((hcond4_1 ⟨0, hn⟩).mp h) (show ¬ (0 % 8 = 7) by decide)) (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn =>
    if h1 : (n + 1) % 8 = 7 then
      out4_C_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => succ_mod8_4 n hn ((hcond4_0 ⟨n + 1, hn⟩).mp h)) ((hcond4_1 ⟨n + 1, hn⟩).mpr h1) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn))
    else
      out4_B_5 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (fun h => succ_mod8_4 n hn ((hcond4_0 ⟨n + 1, hn⟩).mp h)) (fun h => h1 ((hcond4_1 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (outsAt4 c n (Nat.lt_of_succ_lt hn))

/-- `outsAt4` at the point of case A. -/
theorem outsAt4_A (c : Dev nD) (t : Fin cfg4.N) (h0 : t.val % 8 = 0) (h1 : ¬t.val % 8 = 7) :
    outsAt4 V c t.val t.isLt = out4_A_5 c (grid4.coords t) (ms4_0 t) (hs4_0 t) (ms4_1 t) (hs4_1 t) (ms4_2 t) (hs4_2 t) (ms4_3 t) (hs4_3 t) (ms4_4 t) (hs4_4 t) (ms4_5 t) (hs4_5 t) ((hcond4_0 t).mpr h0) (fun h => h1 ((hcond4_1 t).mp h)) (iblk4 V c 0 t) (iblk4 V c 1 t) (iblk4 V c 2 t) (iblk4 V c 3 t) (iblk4 V c 4 t) := by
  obtain ⟨n, hn⟩ := t
  cases n with
  | zero => exact rfl
  | succ n => exact absurd h0 (succ_mod8_4 n hn)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = out4_B_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) (fun h => h1 ((hcond4_1 t).mp h)) (iblk4 V c 0 t) (iblk4 V c 1 t) (iblk4 V c 2 t) (iblk4 V c 3 t) (iblk4 V c 4 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt4` at the point of case C: that case's contents, over what the point before left. -/
theorem outsAt4_C (c : Dev nD) (t : Fin cfg4.N) (h0 : ¬t.val % 8 = 0) (h1 : t.val % 8 = 7) :
    outsAt4 V c t.val t.isLt = out4_C_5 c (grid4.coords t) (ms4_0 t) (hs4_0 t) (ms4_1 t) (hs4_1 t) (ms4_2 t) (hs4_2 t) (ms4_3 t) (hs4_3 t) (ms4_4 t) (hs4_4 t) (ms4_5 t) (hs4_5 t) (fun h => h0 ((hcond4_0 t).mp h)) ((hcond4_1 t).mpr h1) (iblk4 V c 0 t) (iblk4 V c 1 t) (iblk4 V c 2 t) (iblk4 V c 3 t) (iblk4 V c 4 t) (outsAt4 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt4`; the invariant the scoped rest and the generator register;
    nothing owed; windows 2 and 3, which read one array, hold it by the left and the right half of the full share, and so
    do windows 1 and 4, which read another; the two remaining windows hold their arrays at the full share. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt)
  Φ _ := Pipeline.ΦA spec4 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt) := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a point after the first, output 5's staging buffer holds what the body left at the point before: the buffer was
    not written back between, the window is live and uncut. -/
theorem before4_5_kept (c : Dev nD) (t : Fin cfg4.N) (h0 : ¬t.val % 8 = 0) (d) :
    (dat4 V c).before 5 t d = (outsAt4 V c (t.val - 1) (Nat.lt_of_le_of_lt (Nat.sub_le _ _) t.isLt)) := by
  have hN : t.val < 8 := lt_of_lt_of_eq t.isLt (show cfg4.N = 8 from N_4)
  rw [Dat.before_out_kept _ 5 rfl t (by omega) (Bool.eq_false_iff.mpr fun h => by have := (flush4_5 _).mp h; dsimp only at this; omega)
    (fun _ => rfl) (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (ms4_0 t) fullShare ((dat4 V c).after 0 t)
    ∗ owns (c : Thread nD τ) (ms4_1 t) fullShare ((dat4 V c).after 1 t)
    ∗ owns (c : Thread nD τ) (ms4_2 t) fullShare ((dat4 V c).after 2 t)
    ∗ owns (c : Thread nD τ) (ms4_3 t) fullShare ((dat4 V c).after 3 t)
    ∗ owns (c : Thread nD τ) (ms4_4 t) fullShare ((dat4 V c).after 4 t)
    ∗ owns (c : Thread nD τ) (ms4_5 t) fullShare ((dat4 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  have hN : t.val < 8 := lt_of_lt_of_eq t.isLt (show cfg4.N = 8 from N_4)
  by_cases h0 : t.val % 8 = 0
  · have h1 : ¬t.val % 8 = 7 := by omega
    rw [outsAt4_A V c t h0 h1]
    unfold out4_A_5
    iintro ⟨HΦ, Ho, ⟨%d0, H0⟩, ⟨%d1, H1⟩, ⟨%d2, H2⟩, ⟨%d3, H3⟩, ⟨%d4, H4⟩, ⟨%d5, H5⟩⟩
    iapply ((kernelRun4_A c (grid4.coords t) _ _ _ _ _ _ _ _ _ _ _ _ ((hcond4_0 t).mpr h0) (fun h => h1 ((hcond4_1 t).mp h)) (iblk4 V c 0 t) (iblk4 V c 1 t) (iblk4 V c 2 t) (iblk4 V c 3 t) (iblk4 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover4_A_5 c _ _ _ _ _ _ _ _ _ _ _ _ _ _ _ _ _ _ _ _)
  · by_cases h1 : t.val % 8 = 7
    · rw [outsAt4_C V c t h0 h1]
      simp only [before4_5_kept V c t h0]
      unfold out4_C_5
      iintro ⟨HΦ, Ho, ⟨%d0, H0⟩, ⟨%d1, H1⟩, ⟨%d2, H2⟩, ⟨%d3, H3⟩, ⟨%d4, H4⟩, ⟨%d5, H5⟩⟩
      iapply ((kernelRun4_C c (grid4.coords t) _ _ _ _ _ _ _ _ _ _ _ _ (fun h => h0 ((hcond4_0 t).mp h)) ((hcond4_1 t).mpr h1) (iblk4 V c 0 t) (iblk4 V c 1 t) (iblk4 V c 2 t) (iblk4 V c 3 t) (iblk4 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover4_C_5 c _ _ _ _ _ _ _ _ _ _ _ _ _ _ _ _ _ _ _ _ _)
    · rw [outsAt4_B V c t h0 h1]
      simp only [before4_5_kept V c t h0]
      unfold out4_B_5
      iintro ⟨HΦ, Ho, ⟨%d0, H0⟩, ⟨%d1, H1⟩, ⟨%d2, H2⟩, ⟨%d3, H3⟩, ⟨%d4, H4⟩, ⟨%d5, H5⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) (iblk4 V c 2 t) (iblk4 V c 3 t) (iblk4 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover4_B_5 c _ _ _ _ _ _ _ _ _ _ _ _ _ _ _ _ _ _ _ _ _)

/-- The library's body obligation, at every point. -/
theorem body_obligation4 (c : Dev nD) : BodyObligation (dat4 (F := F) V c) (defs₀ (F := F)) Variants.none () Set.univ := fun t => by
  rw [bigSep_W4, bigSep_W4]
  exact sound_body4 V c t

end Regions

end Cert.KernelIdeal.Reg

end
-- ==== Proof.Reg5Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 5 (custom_call 5, `cc5__sapply_body`, pipeline 5) at the entry contents `V`: what its case runs share -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof data
    whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof data
    whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof data
    whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof data
    whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof data
    whose array is `V`'s and whose body leaves the block in place. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

end Regions

/-! ## The body's branch conditions -/

/-- The condition of the body's first `scf.if` (`k5_h1`): the grid coordinate is 0. -/
abbrev cond5_0 (i : grid5.Coords) : Prop := (Scalar.cmpi .ne (Scalar.extui (Scalar.cmpi .eq (BitVec.ofNat 32 (i 0).val) 0#32)) 0#32) = 1#1
/-- It holds at the first point only. -/
theorem hcond5_0 : ∀ t : Fin cfg5.N, cond5_0 (grid5.coords t) ↔ t.val % 8 = 0 :=
  (by decide +kernel : ∀ t : Fin grid5.N, cond5_0 (grid5.coords t) ↔ t.val % 8 = 0)

/-- The condition of the body's second `scf.if` (`k5_h2`): the grid coordinate is 7. -/
abbrev cond5_1 (i : grid5.Coords) : Prop := (Scalar.cmpi .ne (Scalar.extui (Scalar.cmpi .eq (BitVec.ofNat 32 (i 0).val) 7#32)) 0#32) = 1#1
/-- It holds at the last point only. -/
theorem hcond5_1 : ∀ t : Fin cfg5.N, cond5_1 (grid5.coords t) ↔ t.val % 8 = 7 :=
  (by decide +kernel : ∀ t : Fin grid5.N, cond5_1 (grid5.coords t) ↔ t.val % 8 = 7)

/-! ## The staging memrefs -/

/-- One staging buffer of output window 5, through which its contents are stated. -/
abbrev VO5_5 : View sig .tc .vmem S4096x256 .f32 := (Memref.whole cc5_stg5_0 : Memref sig .tc .vmem S4096x256 .f32).view
/-- Each window's current staging memref at point `t`, spelled as the pipeline passes it (`bodyAt5`), and its wholeness. -/
abbrev ms5_0 (t : Fin cfg5.N) : Memref sig .tc .vmem S4096x512 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x256 .f32 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S512x1 .f32 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S4096x1 .f32 := win5_3.stage (cfg5.slots t 3)
abbrev hs5_3 (t : Fin cfg5.N) : (ms5_3 t).IsWhole := hstage5_3 ((cfg5.slots t 3).cast nbuf5_3)
abbrev ms5_4 (t : Fin cfg5.N) : Memref sig .tc .vmem S4096x256 .f32 := win5_4.stage (cfg5.slots t 4)
abbrev hs5_4 (t : Fin cfg5.N) : (ms5_4 t).IsWhole := hstage5_4 ((cfg5.slots t 4).cast nbuf5_4)
abbrev ms5_5 (t : Fin cfg5.N) : Memref sig .tc .vmem S4096x256 .f32 := win5_5.stage (cfg5.slots t 5)
abbrev hs5_5 (t : Fin cfg5.N) : (ms5_5 t).IsWhole := hstage5_5 ((cfg5.slots t 5).cast nbuf5_5)

end Cert.KernelIdeal.Reg

end
-- ==== Proof.Reg5RunA.lean ====
import proofs.«172830_g53506702573898_cont_9to1_m_1152_4_alg».proof.Proof.Reg5Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun5_A (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg5RunB.lean ====
import proofs.«172830_g53506702573898_cont_9to1_m_1152_4_alg».proof.Proof.Reg5RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun5_B (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg5RunC.lean ====
import proofs.«172830_g53506702573898_cont_9to1_m_1152_4_alg».proof.Proof.Reg5RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun5_C (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc5__sapply_body i arg1 harg1 arg2 harg2 arg3 harg3 arg4 harg4 arg5 harg5 arg6 harg6) K } := by
  refine ⟨?_, fun E K => ?run⟩
  case run =>
    simp only [cc5__sapply_body_eq_skeleton]; unfold cc5__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg5Frame.lean ====
import proofs.«172830_g53506702573898_cont_9to1_m_1152_4_alg».proof.Proof.Reg5RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_5 (n : ℕ) (hn : n + 1 < cfg5.N) : ¬ (n + 1) % 8 = 0 := by
  have hN : cfg5.N = 8 := N_5
  omega

/-- Case A's pieces for output 5 tile its block, so they cover it. -/
theorem cover5_A_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun5_A c i arg1 harg1 arg2 harg2 arg3 harg3 arg4 harg4 arg5 harg5 arg6 harg6 hc0 hc1 x0 x1 x2 x3 x4).1, y ∈ pc.1.set :=
  View.cover_of_tiledL (kernelRun5_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out5_A_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond5_0 i) (hc1 : ¬cond5_1 i)
    (x0 : Vec F S4096x512 .bf16) (x1 : Vec F S512x256 .f32) (x2 : Vec F S512x1 .f32) (x3 : Vec F S4096x1 .f32) (x4 : Vec F S4096x256 .f32) : Vec F S4096x256 .f32 :=
  VO5_5.read (Elt F) (VO5_5.writes (Elt F) VO5_5.junk (kernelRun5_A c i arg1 harg1 arg2 harg2 arg3 harg3 arg4 harg4 arg5 harg5 arg6 harg6 hc0 hc1 x0 x1 x2 x3 x4).1)

/-- Case B's pieces for output 5 tile its block, so they cover it. -/
theorem cover5_B_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun5_B c i arg1 harg1 arg2 harg2 arg3 harg3 arg4 harg4 arg5 harg5 arg6 harg6 hc0 hc1 x0 x1 x2 x3 x4 xo5).1, y ∈ pc.1.set :=
  View.cover_of_tiledL (kernelRun5_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out5_B_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : ¬cond5_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO5_5.read (Elt F) (VO5_5.writes (Elt F) VO5_5.junk (kernelRun5_B c i arg1 harg1 arg2 harg2 arg3 harg3 arg4 harg4 arg5 harg5 arg6 harg6 hc0 hc1 x0 x1 x2 x3 x4 xo5).1)

/-- Case C's pieces for output 5 tile its block, so they cover it. -/
theorem cover5_C_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun5_C c i arg1 harg1 arg2 harg2 arg3 harg3 arg4 harg4 arg5 harg5 arg6 harg6 hc0 hc1 x0 x1 x2 x3 x4 xo5).1, y ∈ pc.1.set :=
  View.cover_of_tiledL (kernelRun5_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out5_C_5 (c : Dev nD) (i : grid5.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond5_0 i) (hc1 : cond5_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO5_5.read (Elt F) (VO5_5.writes (Elt F) VO5_5.junk (kernelRun5_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt5 (c : Dev nD) : (n : ℕ) → n < cfg5.N → Vec F S4096x256 .f32
  | 0, hn => out5_A_5 c (grid5.coords ⟨0, hn⟩) (ms5_0 ⟨0, hn⟩) (hs5_0 ⟨0, hn⟩) (ms5_1 ⟨0, hn⟩) (hs5_1 ⟨0, hn⟩) (ms5_2 ⟨0, hn⟩) (hs5_2 ⟨0, hn⟩) (ms5_3 ⟨0, hn⟩) (hs5_3 ⟨0, hn⟩) (ms5_4 ⟨0, hn⟩) (hs5_4 ⟨0, hn⟩) (ms5_5 ⟨0, hn⟩) (hs5_5 ⟨0, hn⟩) ((hcond5_0 ⟨0, hn⟩).mpr (Nat.zero_mod _)) (fun h => absurd ((hcond5_1 ⟨0, hn⟩).mp h) (show ¬ (0 % 8 = 7) by decide)) (iblk5 V c 0 ⟨0, hn⟩) (iblk5 V c 1 ⟨0, hn⟩) (iblk5 V c 2 ⟨0, hn⟩) (iblk5 V c 3 ⟨0, hn⟩) (iblk5 V c 4 ⟨0, hn⟩)
  | n + 1, hn =>
    if h1 : (n + 1) % 8 = 7 then
      out5_C_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => succ_mod8_5 n hn ((hcond5_0 ⟨n + 1, hn⟩).mp h)) ((hcond5_1 ⟨n + 1, hn⟩).mpr h1) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn))
    else
      out5_B_5 c (grid5.coords ⟨n + 1, hn⟩) (ms5_0 ⟨n + 1, hn⟩) (hs5_0 ⟨n + 1, hn⟩) (ms5_1 ⟨n + 1, hn⟩) (hs5_1 ⟨n + 1, hn⟩) (ms5_2 ⟨n + 1, hn⟩) (hs5_2 ⟨n + 1, hn⟩) (ms5_3 ⟨n + 1, hn⟩) (hs5_3 ⟨n + 1, hn⟩) (ms5_4 ⟨n + 1, hn⟩) (hs5_4 ⟨n + 1, hn⟩) (ms5_5 ⟨n + 1, hn⟩) (hs5_5 ⟨n + 1, hn⟩) (fun h => succ_mod8_5 n hn ((hcond5_0 ⟨n + 1, hn⟩).mp h)) (fun h => h1 ((hcond5_1 ⟨n + 1, hn⟩).mp h)) (iblk5 V c 0 ⟨n + 1, hn⟩) (iblk5 V c 1 ⟨n + 1, hn⟩) (iblk5 V c 2 ⟨n + 1, hn⟩) (iblk5 V c 3 ⟨n + 1, hn⟩) (iblk5 V c 4 ⟨n + 1, hn⟩) (outsAt5 c n (Nat.lt_of_succ_lt hn))

/-- `outsAt5` at the point of case A. -/
theorem outsAt5_A (c : Dev nD) (t : Fin cfg5.N) (h0 : t.val % 8 = 0) (h1 : ¬t.val % 8 = 7) :
    outsAt5 V c t.val t.isLt = out5_A_5 c (grid5.coords t) (ms5_0 t) (hs5_0 t) (ms5_1 t) (hs5_1 t) (ms5_2 t) (hs5_2 t) (ms5_3 t) (hs5_3 t) (ms5_4 t) (hs5_4 t) (ms5_5 t) (hs5_5 t) ((hcond5_0 t).mpr h0) (fun h => h1 ((hcond5_1 t).mp h)) (iblk5 V c 0 t) (iblk5 V c 1 t) (iblk5 V c 2 t) (iblk5 V c 3 t) (iblk5 V c 4 t) := by
  obtain ⟨n, hn⟩ := t
  cases n with
  | zero => exact rfl
  | succ n => exact absurd h0 (succ_mod8_5 n hn)

/-- `outsAt5` at a point of case B: that case's contents, over what the point before left. -/
theorem outsAt5_B (c : Dev nD) (t : Fin cfg5.N) (h0 : ¬t.val % 8 = 0) (h1 : ¬t.val % 8 = 7) :
    outsAt5 V c t.val t.isLt = out5_B_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) (fun h => h1 ((hcond5_1 t).mp h)) (iblk5 V c 0 t) (iblk5 V c 1 t) (iblk5 V c 2 t) (iblk5 V c 3 t) (iblk5 V c 4 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt5` at the point of case C: that case's contents, over what the point before left. -/
theorem outsAt5_C (c : Dev nD) (t : Fin cfg5.N) (h0 : ¬t.val % 8 = 0) (h1 : t.val % 8 = 7) :
    outsAt5 V c t.val t.isLt = out5_C_5 c (grid5.coords t) (ms5_0 t) (hs5_0 t) (ms5_1 t) (hs5_1 t) (ms5_2 t) (hs5_2 t) (ms5_3 t) (hs5_3 t) (ms5_4 t) (hs5_4 t) (ms5_5 t) (hs5_5 t) (fun h => h0 ((hcond5_0 t).mp h)) ((hcond5_1 t).mpr h1) (iblk5 V c 0 t) (iblk5 V c 1 t) (iblk5 V c 2 t) (iblk5 V c 3 t) (iblk5 V c 4 t) (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt5`; the invariant the scoped rest and the generator register;
    nothing owed; windows 2 and 3, which read one array, hold it by the left and the right half of the full share,
    every other window its array at the full share. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => (outsAt5 V c t.val t.isLt)
  Φ _ := Pipeline.ΦA spec5 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = (outsAt5 V c t.val t.isLt) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- At a point after the first, output 5's staging buffer holds what the body left at the point before: the buffer was
    not written back between, the window is live and uncut. -/
theorem before5_5_kept (c : Dev nD) (t : Fin cfg5.N) (h0 : ¬t.val % 8 = 0) (d) :
    (dat5 V c).before 5 t d = (outsAt5 V c (t.val - 1) (Nat.lt_of_le_of_lt (Nat.sub_le _ _) t.isLt)) := by
  have hN : t.val < 8 := lt_of_lt_of_eq t.isLt (show cfg5.N = 8 from N_5)
  rw [Dat.before_out_kept _ 5 rfl t (by omega) (Bool.eq_false_iff.mpr fun h => by have := (flush5_5 _).mp h; dsimp only at this; omega)
    (fun _ => rfl) (fun _ _ => rfl)]
  dsimp only [dat5]

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d))
    ∗ (∃ d, owns (c : Thread nD τ) (ms5_4 t) fullShare ((dat5 V c).before 4 t d))
    ∗ (∃ d, owns (c : Thread nD τ) (ms5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t)
    ∗ owns (c : Thread nD τ) (ms5_4 t) fullShare ((dat5 V c).after 4 t)
    ∗ owns (c : Thread nD τ) (ms5_5 t) fullShare ((dat5 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  have hN : t.val < 8 := lt_of_lt_of_eq t.isLt (show cfg5.N = 8 from N_5)
  by_cases h0 : t.val % 8 = 0
  · have h1 : ¬t.val % 8 = 7 := by omega
    rw [outsAt5_A V c t h0 h1]
    unfold out5_A_5
    iintro ⟨HΦ, Ho, ⟨%d0, H0⟩, ⟨%d1, H1⟩, ⟨%d2, H2⟩, ⟨%d3, H3⟩, ⟨%d4, H4⟩, ⟨%d5, H5⟩⟩
    iapply ((kernelRun5_A c (grid5.coords t) _ _ _ _ _ _ _ _ _ _ _ _ ((hcond5_0 t).mpr h0) (fun h => h1 ((hcond5_1 t).mp h)) (iblk5 V c 0 t) (iblk5 V c 1 t) (iblk5 V c 2 t) (iblk5 V c 3 t) (iblk5 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover5_A_5 c _ _ _ _ _ _ _ _ _ _ _ _ _ _ _ _ _ _ _ _)
  · by_cases h1 : t.val % 8 = 7
    · rw [outsAt5_C V c t h0 h1]
      simp only [before5_5_kept V c t h0]
      unfold out5_C_5
      iintro ⟨HΦ, Ho, ⟨%d0, H0⟩, ⟨%d1, H1⟩, ⟨%d2, H2⟩, ⟨%d3, H3⟩, ⟨%d4, H4⟩, ⟨%d5, H5⟩⟩
      iapply ((kernelRun5_C c (grid5.coords t) _ _ _ _ _ _ _ _ _ _ _ _ (fun h => h0 ((hcond5_0 t).mp h)) ((hcond5_1 t).mpr h1) (iblk5 V c 0 t) (iblk5 V c 1 t) (iblk5 V c 2 t) (iblk5 V c 3 t) (iblk5 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_C_5 c _ _ _ _ _ _ _ _ _ _ _ _ _ _ _ _ _ _ _ _ _)
    · rw [outsAt5_B V c t h0 h1]
      simp only [before5_5_kept V c t h0]
      unfold out5_B_5
      iintro ⟨HΦ, Ho, ⟨%d0, H0⟩, ⟨%d1, H1⟩, ⟨%d2, H2⟩, ⟨%d3, H3⟩, ⟨%d4, H4⟩, ⟨%d5, H5⟩⟩
      iapply ((kernelRun5_B c (grid5.coords t) _ _ _ _ _ _ _ _ _ _ _ _ (fun h => h0 ((hcond5_0 t).mp h)) (fun h => h1 ((hcond5_1 t).mp h)) (iblk5 V c 0 t) (iblk5 V c 1 t) (iblk5 V c 2 t) (iblk5 V c 3 t) (iblk5 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover5_B_5 c _ _ _ _ _ _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

end Regions

end Cert.KernelIdeal.Reg

end
-- ==== Proof.Reg6Body.lean ====
/-
  The candidate region of the first layer (kernel region 6 of @main, counting from 0) at a parameter `V`, the buffers'
  contents when the region is entered.

  Eight grid points; point `t` handles rows 4096·t … 4096·t+4095. The body reads three [4096, 32] blocks of
  diffusion terms, the [3, 32, 16] weight stack and the [1, 16] bias row (single blocks, fetched once), the [4096, 16]
  blocks of the update gate u and of the hidden state h, and writes one [4096, 16] block: u ⊙ h + (1 − u) ⊙ tanh of
  the pre-activation. One store through the whole-block rectangle; nothing carried between points.
-/
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev r6_x : Rect S4096x32 := Rect.unit (s := S4096x32) ![0, 0] S4096x32.size inb_S4096x32_S4096x32_0_0
abbrev r6_h : Rect S4096x16 := Rect.unit (s := S4096x16) ![0, 0] S4096x16.size inb_S4096x16_S4096x16_0_0
abbrev r6_b : Rect S1x16 := Rect.unit (s := S1x16) ![0, 0] S1x16.size inb_S1x16_S1x16_0_0
abbrev r6_w0 : Rect S3x32x16 := Rect.unit (s := S3x32x16) ![0, 0, 0] S1x32x16.size inb_S3x32x16_S1x32x16_0_0_0
abbrev r6_w1 : Rect S3x32x16 := Rect.unit (s := S3x32x16) ![1, 0, 0] S1x32x16.size inb_S3x32x16_S1x32x16_1_0_0
abbrev r6_w2 : Rect S3x32x16 := Rect.unit (s := S3x32x16) ![2, 0, 0] S1x32x16.size inb_S3x32x16_S1x32x16_2_0_0

/-- The output's buffer after the body: u ⊙ h + (1 − u) ⊙ tanh (bias + three products). -/
def out6_7 (x0 x1 x2 : Vec F S4096x32 .f32) (x3 : Vec F S3x32x16 .f32) (x4 : Vec F S1x16 .f32) (x5 x6 : Vec F S4096x16 .f32) :
    Vec F S4096x16 .f32 :=
  View.canon [⟨r6_h, k6_pay1 (View.ld x4 r6_b) (View.ld x0 r6_x) (View.ld x3 r6_w0) (View.ld x1 r6_x) (View.ld x3 r6_w1)
    (View.ld x2 r6_x) (View.ld x3 r6_w2) (View.ld x5 r6_h) (View.ld x6 r6_h)⟩]

/-- One store through the whole-block rectangle covers the block. -/
theorem cover6_h (p0 : Vec F S4096x16 .f32) (y : S4096x16.Idx) :
    ∃ pc ∈ ([⟨r6_h, p0⟩] : List (View.Piece (Elt F) S4096x16 .f32)), y ∈ pc.1.set :=
  View.cover_of_tiled [⟨r6_h, p0⟩] S4096x16.size (by rfl) y

set_option maxHeartbeats 4000000 in
/-- The body on whole staging memrefs — the inputs' at read contents, the output's at anything — runs to the
    continuation holding the inputs' as they were and the output's at its canonical contents. -/
theorem sound_kernel6 (c : Dev nD) (E : Set ℕ) (i : grid6.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S1x16 .f32) (harg5 : arg5.IsWhole) (arg6 : Memref sig .tc .vmem S4096x16 .f32) (harg6 : arg6.IsWhole)
    (arg7 : Memref sig .tc .vmem S4096x16 .f32) (harg7 : arg7.IsWhole) (arg8 : Memref sig .tc .vmem S4096x16 .f32) (harg8 : arg8.IsWhole)
    (x0 x1 x2 : Vec F S4096x32 .f32) (x3 : Vec F S3x32x16 .f32) (x4 : Vec F S1x16 .f32) (x5 x6 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out6_7 x0 x1 x2 x3 x4 x5 x6)) -∗ K ⟨⟩))
      ⊢ wp frame (wpE (defs₀ (F := F)) Variants.none c none) E
          (cc6__cand_body i arg1 harg1 arg2 harg2 arg3 harg3 arg4 harg4 arg5 harg5 arg6 harg6 arg7 harg7 arg8 harg8) K := by
  simp only [cc6__cand_body_eq_skeleton]; unfold cc6__cand_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover6_h _)

end Region6

end Cert.KernelIdeal.Reg
end
-- ==== Proof.Reg6Data.lean ====
/-
  The candidate region of the first layer: its proof data and body obligation at a parameter `V`.

  Each of the seven input windows (three blocks of diffusion terms, the weight stack, the bias row, the update gate's
  block, the hidden block) is only read, so its staging buffer holds its block of the array at every point whether or
  not the pipeline fetched it there; the output buffer is overwritten whole at every point. The body obligation at a
  point is then the body's triple at the point's blocks.
-/
import proofs.«172830_g53506702573898_cont_9to1_m_1152_4_alg».proof.Proof.Reg6Body

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region6

variable (V : (c : Dev nD) → (b : Ref sig .tc) → Buf (Elt F) ((c : Thread nD τ).loc b))

/-! ## Each input window's staging buffer holds its block at every point, fetched there or not -/

theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the body's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Region6

end Cert.KernelIdeal.Reg
end
-- ==== Proof.Reg7Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 7 (custom_call 7, `cc7__sapply_body`, pipeline 7) at the entry contents `V`: what its case runs share -/

/-- Window `w`'s block at point `t`, read off its array as the region finds it (`V`). -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0's current staging buffer holds its block at every point, fetched there or not, for any proof data
    whose array is `V`'s and whose body leaves the block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1's current staging buffer holds its block at every point, fetched there or not, for any proof data
    whose array is `V`'s and whose body leaves the block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2's current staging buffer holds its block at every point, fetched there or not, for any proof data
    whose array is `V`'s and whose body leaves the block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-- Input window 3's current staging buffer holds its block at every point, fetched there or not, for any proof data
    whose array is `V`'s and whose body leaves the block in place. -/
theorem before7_3_of {c : Dev nD} (dat : Dat τ (Elt F) Unit ℕ (UR sig nD τ) ℕ cfg7 c) (hA : dat.A 3 = V c (Pipeline.arrRef spec7 3))
    (hafter : ∀ t, dat.after 3 t = iblk7 V c 3 t) (t : Fin cfg7.N) (d) : dat.before 3 t d = iblk7 V c 3 t :=
  (dat.before_in_eq_fetched 3 rfl (fun _ => rfl) (fun _ _ _ => rfl) (fun t => by rw [hafter]; unfold Dat.blockOf iblk7; rw [hA]; try rfl) t d).trans
    (by unfold Dat.fetched Dat.blockOf iblk7; rw [hA]; try rfl)

/-- Input window 4's current staging buffer holds its block at every point, fetched there or not, for any proof data
    whose array is `V`'s and whose body leaves the block in place. -/
theorem before7_4_of {c : Dev nD} (dat : Dat τ (Elt F) Unit ℕ (UR sig nD τ) ℕ cfg7 c) (hA : dat.A 4 = V c (Pipeline.arrRef spec7 4))
    (hafter : ∀ t, dat.after 4 t = iblk7 V c 4 t) (t : Fin cfg7.N) (d) : dat.before 4 t d = iblk7 V c 4 t :=
  (dat.before_in_eq_fetched 4 rfl (fun _ => rfl) (fun _ _ _ => rfl) (fun t => by rw [hafter]; unfold Dat.blockOf iblk7; rw [hA]; try rfl) t d).trans
    (by unfold Dat.fetched Dat.blockOf iblk7; rw [hA]; try rfl)

end Regions

/-! ## The body's branch conditions -/

/-- The condition of the body's first `scf.if` (`k7_h1`): the grid coordinate is 0. -/
abbrev cond7_0 (i : grid7.Coords) : Prop := (Scalar.cmpi .ne (Scalar.extui (Scalar.cmpi .eq (BitVec.ofNat 32 (i 0).val) 0#32)) 0#32) = 1#1
/-- It holds at the first point only. -/
theorem hcond7_0 : ∀ t : Fin cfg7.N, cond7_0 (grid7.coords t) ↔ t.val % 8 = 0 :=
  (by decide +kernel : ∀ t : Fin grid7.N, cond7_0 (grid7.coords t) ↔ t.val % 8 = 0)

/-- The condition of the body's second `scf.if` (`k7_h2`): the grid coordinate is 7. -/
abbrev cond7_1 (i : grid7.Coords) : Prop := (Scalar.cmpi .ne (Scalar.extui (Scalar.cmpi .eq (BitVec.ofNat 32 (i 0).val) 7#32)) 0#32) = 1#1
/-- It holds at the last point only. -/
theorem hcond7_1 : ∀ t : Fin cfg7.N, cond7_1 (grid7.coords t) ↔ t.val % 8 = 7 :=
  (by decide +kernel : ∀ t : Fin grid7.N, cond7_1 (grid7.coords t) ↔ t.val % 8 = 7)

/-! ## The staging memrefs -/

/-- One staging buffer of output window 5, through which its contents are stated. -/
abbrev VO7_5 : View sig .tc .vmem S4096x256 .f32 := (Memref.whole cc7_stg5_0 : Memref sig .tc .vmem S4096x256 .f32).view
/-- Each window's current staging memref at point `t`, spelled as the pipeline passes it (`bodyAt7`), and its wholeness. -/
abbrev ms7_0 (t : Fin cfg7.N) : Memref sig .tc .vmem S4096x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x256 .f32 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S512x1 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S4096x1 .f32 := win7_3.stage (cfg7.slots t 3)
abbrev hs7_3 (t : Fin cfg7.N) : (ms7_3 t).IsWhole := hstage7_3 ((cfg7.slots t 3).cast nbuf7_3)
abbrev ms7_4 (t : Fin cfg7.N) : Memref sig .tc .vmem S4096x256 .f32 := win7_4.stage (cfg7.slots t 4)
abbrev hs7_4 (t : Fin cfg7.N) : (ms7_4 t).IsWhole := hstage7_4 ((cfg7.slots t 4).cast nbuf7_4)
abbrev ms7_5 (t : Fin cfg7.N) : Memref sig .tc .vmem S4096x256 .f32 := win7_5.stage (cfg7.slots t 5)
abbrev hs7_5 (t : Fin cfg7.N) : (ms7_5 t).IsWhole := hstage7_5 ((cfg7.slots t 5).cast nbuf7_5)

end Cert.KernelIdeal.Reg

end
-- ==== Proof.Reg7RunA.lean ====
import proofs.«172830_g53506702573898_cont_9to1_m_1152_4_alg».proof.Proof.Reg7Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun7_A (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg7RunB.lean ====
import proofs.«172830_g53506702573898_cont_9to1_m_1152_4_alg».proof.Proof.Reg7RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun7_B (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg7RunC.lean ====
import proofs.«172830_g53506702573898_cont_9to1_m_1152_4_alg».proof.Proof.Reg7RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun7_C (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc7__sapply_body i arg1 harg1 arg2 harg2 arg3 harg3 arg4 harg4 arg5 harg5 arg6 harg6) K } := by
  refine ⟨?_, fun E K => ?run⟩
  case run =>
    simp only [cc7__sapply_body_eq_skeleton]; unfold cc7__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg7Frame.lean ====
import proofs.«172830_g53506702573898_cont_9to1_m_1152_4_alg».proof.Proof.Reg7RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_7 (n : ℕ) (hn : n + 1 < cfg7.N) : ¬ (n + 1) % 8 = 0 := by
  have hN : cfg7.N = 8 := N_7
  omega

/-- Case A's pieces for output 5 tile its block, so they cover it. -/
theorem cover7_A_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun7_A c i arg1 harg1 arg2 harg2 arg3 harg3 arg4 harg4 arg5 harg5 arg6 harg6 hc0 hc1 x0 x1 x2 x3 x4).1, y ∈ pc.1.set :=
  View.cover_of_tiledL (kernelRun7_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out7_A_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond7_0 i) (hc1 : ¬cond7_1 i)
    (x0 : Vec F S4096x512 .bf16) (x1 : Vec F S512x256 .f32) (x2 : Vec F S512x1 .f32) (x3 : Vec F S4096x1 .f32) (x4 : Vec F S4096x256 .f32) : Vec F S4096x256 .f32 :=
  VO7_5.read (Elt F) (VO7_5.writes (Elt F) VO7_5.junk (kernelRun7_A c i arg1 harg1 arg2 harg2 arg3 harg3 arg4 harg4 arg5 harg5 arg6 harg6 hc0 hc1 x0 x1 x2 x3 x4).1)

/-- Case B's pieces for output 5 tile its block, so they cover it. -/
theorem cover7_B_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun7_B c i arg1 harg1 arg2 harg2 arg3 harg3 arg4 harg4 arg5 harg5 arg6 harg6 hc0 hc1 x0 x1 x2 x3 x4 xo5).1, y ∈ pc.1.set :=
  View.cover_of_tiledL (kernelRun7_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out7_B_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : ¬cond7_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO7_5.read (Elt F) (VO7_5.writes (Elt F) VO7_5.junk (kernelRun7_B c i arg1 harg1 arg2 harg2 arg3 harg3 arg4 harg4 arg5 harg5 arg6 harg6 hc0 hc1 x0 x1 x2 x3 x4 xo5).1)

/-- Case C's pieces for output 5 tile its block, so they cover it. -/
theorem cover7_C_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun7_C c i arg1 harg1 arg2 harg2 arg3 harg3 arg4 harg4 arg5 harg5 arg6 harg6 hc0 hc1 x0 x1 x2 x3 x4 xo5).1, y ∈ pc.1.set :=
  View.cover_of_tiledL (kernelRun7_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out7_C_5 (c : Dev nD) (i : grid7.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond7_0 i) (hc1 : cond7_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO7_5.read (Elt F) (VO7_5.writes (Elt F) VO7_5.junk (kernelRun7_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt7 (c : Dev nD) : (n : ℕ) → n < cfg7.N → Vec F S4096x256 .f32
  | 0, hn => out7_A_5 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) (ms7_4 ⟨0, hn⟩) (hs7_4 ⟨0, hn⟩) (ms7_5 ⟨0, hn⟩) (hs7_5 ⟨0, hn⟩) ((hcond7_0 ⟨0, hn⟩).mpr (Nat.zero_mod _)) (fun h => absurd ((hcond7_1 ⟨0, hn⟩).mp h) (show ¬ (0 % 8 = 7) by decide)) (iblk7 V c 0 ⟨0, hn⟩) (iblk7 V c 1 ⟨0, hn⟩) (iblk7 V c 2 ⟨0, hn⟩) (iblk7 V c 3 ⟨0, hn⟩) (iblk7 V c 4 ⟨0, hn⟩)
  | n + 1, hn =>
    if h1 : (n + 1) % 8 = 7 then
      out7_C_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => succ_mod8_7 n hn ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn))
    else
      out7_B_5 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) (ms7_4 ⟨n + 1, hn⟩) (hs7_4 ⟨n + 1, hn⟩) (ms7_5 ⟨n + 1, hn⟩) (hs7_5 ⟨n + 1, hn⟩) (fun h => succ_mod8_7 n hn ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (iblk7 V c 3 ⟨n + 1, hn⟩) (iblk7 V c 4 ⟨n + 1, hn⟩) (outsAt7 c n (Nat.lt_of_succ_lt hn))

/-- `outsAt7` at the point of case A. -/
theorem outsAt7_A (c : Dev nD) (t : Fin cfg7.N) (h0 : t.val % 8 = 0) (h1 : ¬t.val % 8 = 7) :
    outsAt7 V c t.val t.isLt = out7_A_5 c (grid7.coords t) (ms7_0 t) (hs7_0 t) (ms7_1 t) (hs7_1 t) (ms7_2 t) (hs7_2 t) (ms7_3 t) (hs7_3 t) (ms7_4 t) (hs7_4 t) (ms7_5 t) (hs7_5 t) ((hcond7_0 t).mpr h0) (fun h => h1 ((hcond7_1 t).mp h)) (iblk7 V c 0 t) (iblk7 V c 1 t) (iblk7 V c 2 t) (iblk7 V c 3 t) (iblk7 V c 4 t) := by
  obtain ⟨n, hn⟩ := t
  cases n with
  | zero => exact rfl
  | succ n => exact absurd h0 (succ_mod8_7 n hn)

/-- `outsAt7` at a point of case B: that case's contents, over what the point before left. -/
theorem outsAt7_B (c : Dev nD) (t : Fin cfg7.N) (h0 : ¬t.val % 8 = 0) (h1 : ¬t.val % 8 = 7) :
    outsAt7 V c t.val t.isLt = out7_B_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) (fun h => h1 ((hcond7_1 t).mp h)) (iblk7 V c 0 t) (iblk7 V c 1 t) (iblk7 V c 2 t) (iblk7 V c 3 t) (iblk7 V c 4 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt7` at the point of case C: that case's contents, over what the point before left. -/
theorem outsAt7_C (c : Dev nD) (t : Fin cfg7.N) (h0 : ¬t.val % 8 = 0) (h1 : t.val % 8 = 7) :
    outsAt7 V c t.val t.isLt = out7_C_5 c (grid7.coords t) (ms7_0 t) (hs7_0 t) (ms7_1 t) (hs7_1 t) (ms7_2 t) (hs7_2 t) (ms7_3 t) (hs7_3 t) (ms7_4 t) (hs7_4 t) (ms7_5 t) (hs7_5 t) (fun h => h0 ((hcond7_0 t).mp h)) ((hcond7_1 t).mpr h1) (iblk7 V c 0 t) (iblk7 V c 1 t) (iblk7 V c 2 t) (iblk7 V c 3 t) (iblk7 V c 4 t) (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt7`; the invariant the scoped rest and the generator register;
    nothing owed; windows 2 and 3, which read one array, hold it by the left and the right half of the full share, and so
    do windows 1 and 4, which read another; the two remaining windows hold their arrays at the full share. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => iblk7 V c 3 t
    | ⟨4, _⟩ => iblk7 V c 4 t
    | ⟨5, _⟩ => (outsAt7 V c t.val t.isLt)
  Φ _ := Pipeline.ΦA spec7 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = iblk7 V c 3 t := by dsimp only [dat7]
theorem after7_4 (c : Dev nD) (t : Fin cfg7.N) : (dat7 V c).after 4 t = iblk7 V c 4 t := by dsimp only [dat7]
theorem after7_5 (c : Dev nD) (t : Fin cfg7.N) : (dat7 V c).after 5 t = (outsAt7 V c t.val t.isLt) := by dsimp only [dat7]

/-- Each input's current staging buffer holds its block at every point, fetched there or not. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d
theorem before7_3 (c : Dev nD) (t : Fin cfg7.N) (d) : (dat7 V c).before 3 t d = iblk7 V c 3 t :=
  before7_3_of V (dat7 V c) (A_eq7 V c 3) (after7_3 V c) t d
theorem before7_4 (c : Dev nD) (t : Fin cfg7.N) (d) : (dat7 V c).before 4 t d = iblk7 V c 4 t :=
  before7_4_of V (dat7 V c) (A_eq7 V c 4) (after7_4 V c) t d

/-- At a point after the first, output 5's staging buffer holds what the body left at the point before: the buffer was
    not written back between, the window is live and uncut. -/
theorem before7_5_kept (c : Dev nD) (t : Fin cfg7.N) (h0 : ¬t.val % 8 = 0) (d) :
    (dat7 V c).before 5 t d = (outsAt7 V c (t.val - 1) (Nat.lt_of_le_of_lt (Nat.sub_le _ _) t.isLt)) := by
  have hN : t.val < 8 := lt_of_lt_of_eq t.isLt (show cfg7.N = 8 from N_7)
  rw [Dat.before_out_kept _ 5 rfl t (by omega) (Bool.eq_false_iff.mpr fun h => by have := (flush7_5 _).mp h; dsimp only at this; omega)
    (fun _ => rfl) (fun _ _ => rfl)]
  dsimp only [dat7]

/-! ## The body obligation, at a generic point -/

/-- What the body is called with at point `t`, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d))
    ∗ (∃ d, owns (c : Thread nD τ) (ms7_4 t) fullShare ((dat7 V c).before 4 t d))
    ∗ (∃ d, owns (c : Thread nD τ) (ms7_5 t) fullShare ((dat7 V c).before 5 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t)
    ∗ owns (c : Thread nD τ) (ms7_4 t) fullShare ((dat7 V c).after 4 t)
    ∗ owns (c : Thread nD τ) (ms7_5 t) fullShare ((dat7 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2, before7_3, before7_4]
  rw [show (dat7 V c).Φ t.succ = (dat7 V c).Φ t.castSucc from rfl,
    show (dat7 V c).owesAt () t.succ = (dat7 V c).owesAt () t.castSucc from rfl,
    after7_0, after7_1, after7_2, after7_3, after7_4, after7_5]
  have hN : t.val < 8 := lt_of_lt_of_eq t.isLt (show cfg7.N = 8 from N_7)
  by_cases h0 : t.val % 8 = 0
  · have h1 : ¬t.val % 8 = 7 := by omega
    rw [outsAt7_A V c t h0 h1]
    unfold out7_A_5
    iintro ⟨HΦ, Ho, ⟨%d0, H0⟩, ⟨%d1, H1⟩, ⟨%d2, H2⟩, ⟨%d3, H3⟩, ⟨%d4, H4⟩, ⟨%d5, H5⟩⟩
    iapply ((kernelRun7_A c (grid7.coords t) _ _ _ _ _ _ _ _ _ _ _ _ ((hcond7_0 t).mpr h0) (fun h => h1 ((hcond7_1 t).mp h)) (iblk7 V c 0 t) (iblk7 V c 1 t) (iblk7 V c 2 t) (iblk7 V c 3 t) (iblk7 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover7_A_5 c _ _ _ _ _ _ _ _ _ _ _ _ _ _ _ _ _ _ _ _)
  · by_cases h1 : t.val % 8 = 7
    · rw [outsAt7_C V c t h0 h1]
      simp only [before7_5_kept V c t h0]
      unfold out7_C_5
      iintro ⟨HΦ, Ho, ⟨%d0, H0⟩, ⟨%d1, H1⟩, ⟨%d2, H2⟩, ⟨%d3, H3⟩, ⟨%d4, H4⟩, ⟨%d5, H5⟩⟩
      iapply ((kernelRun7_C c (grid7.coords t) _ _ _ _ _ _ _ _ _ _ _ _ (fun h => h0 ((hcond7_0 t).mp h)) ((hcond7_1 t).mpr h1) (iblk7 V c 0 t) (iblk7 V c 1 t) (iblk7 V c 2 t) (iblk7 V c 3 t) (iblk7 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_C_5 c _ _ _ _ _ _ _ _ _ _ _ _ _ _ _ _ _ _ _ _ _)
    · rw [outsAt7_B V c t h0 h1]
      simp only [before7_5_kept V c t h0]
      unfold out7_B_5
      iintro ⟨HΦ, Ho, ⟨%d0, H0⟩, ⟨%d1, H1⟩, ⟨%d2, H2⟩, ⟨%d3, H3⟩, ⟨%d4, H4⟩, ⟨%d5, H5⟩⟩
      iapply ((kernelRun7_B c (grid7.coords t) _ _ _ _ _ _ _ _ _ _ _ _ (fun h => h0 ((hcond7_0 t).mp h)) (fun h => h1 ((hcond7_1 t).mp h)) (iblk7 V c 0 t) (iblk7 V c 1 t) (iblk7 V c 2 t) (iblk7 V c 3 t) (iblk7 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover7_B_5 c _ _ _ _ _ _ _ _ _ _ _ _ _ _ _ _ _ _ _ _ _)

/-- The library's body obligation, at every point. -/
theorem body_obligation7 (c : Dev nD) : BodyObligation (dat7 (F := F) V c) (defs₀ (F := F)) Variants.none () Set.univ := fun t => by
  rw [bigSep_W7, bigSep_W7]
  exact sound_body7 V c t

end Regions

end Cert.KernelIdeal.Reg

end
-- ==== Proof.Reg8Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 8 (custom_call 8, `cc8__sapply_body`, pipeline 8) at the entry contents `V`: what its case runs share -/

/-- Window `w`'s block at point `t`, read off its array as the region finds it (`V`). -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0's current staging buffer holds its block at every point, fetched there or not, for any proof data
    whose array is `V`'s and whose body leaves the block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1's current staging buffer holds its block at every point, fetched there or not, for any proof data
    whose array is `V`'s and whose body leaves the block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2's current staging buffer holds its block at every point, fetched there or not, for any proof data
    whose array is `V`'s and whose body leaves the block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-- Input window 3's current staging buffer holds its block at every point, fetched there or not, for any proof data
    whose array is `V`'s and whose body leaves the block in place. -/
theorem before8_3_of {c : Dev nD} (dat : Dat τ (Elt F) Unit ℕ (UR sig nD τ) ℕ cfg8 c) (hA : dat.A 3 = V c (Pipeline.arrRef spec8 3))
    (hafter : ∀ t, dat.after 3 t = iblk8 V c 3 t) (t : Fin cfg8.N) (d) : dat.before 3 t d = iblk8 V c 3 t :=
  (dat.before_in_eq_fetched 3 rfl (fun _ => rfl) (fun _ _ _ => rfl) (fun t => by rw [hafter]; unfold Dat.blockOf iblk8; rw [hA]; try rfl) t d).trans
    (by unfold Dat.fetched Dat.blockOf iblk8; rw [hA]; try rfl)

/-- Input window 4's current staging buffer holds its block at every point, fetched there or not, for any proof data
    whose array is `V`'s and whose body leaves the block in place. -/
theorem before8_4_of {c : Dev nD} (dat : Dat τ (Elt F) Unit ℕ (UR sig nD τ) ℕ cfg8 c) (hA : dat.A 4 = V c (Pipeline.arrRef spec8 4))
    (hafter : ∀ t, dat.after 4 t = iblk8 V c 4 t) (t : Fin cfg8.N) (d) : dat.before 4 t d = iblk8 V c 4 t :=
  (dat.before_in_eq_fetched 4 rfl (fun _ => rfl) (fun _ _ _ => rfl) (fun t => by rw [hafter]; unfold Dat.blockOf iblk8; rw [hA]; try rfl) t d).trans
    (by unfold Dat.fetched Dat.blockOf iblk8; rw [hA]; try rfl)

end Regions

/-! ## The body's branch conditions -/

/-- The condition of the body's first `scf.if` (`k8_h1`): the grid coordinate is 0. -/
abbrev cond8_0 (i : grid8.Coords) : Prop := (Scalar.cmpi .ne (Scalar.extui (Scalar.cmpi .eq (BitVec.ofNat 32 (i 0).val) 0#32)) 0#32) = 1#1
/-- It holds at the first point only. -/
theorem hcond8_0 : ∀ t : Fin cfg8.N, cond8_0 (grid8.coords t) ↔ t.val % 8 = 0 :=
  (by decide +kernel : ∀ t : Fin grid8.N, cond8_0 (grid8.coords t) ↔ t.val % 8 = 0)

/-- The condition of the body's second `scf.if` (`k8_h2`): the grid coordinate is 7. -/
abbrev cond8_1 (i : grid8.Coords) : Prop := (Scalar.cmpi .ne (Scalar.extui (Scalar.cmpi .eq (BitVec.ofNat 32 (i 0).val) 7#32)) 0#32) = 1#1
/-- It holds at the last point only. -/
theorem hcond8_1 : ∀ t : Fin cfg8.N, cond8_1 (grid8.coords t) ↔ t.val % 8 = 7 :=
  (by decide +kernel : ∀ t : Fin grid8.N, cond8_1 (grid8.coords t) ↔ t.val % 8 = 7)

/-! ## The staging memrefs -/

/-- One staging buffer of output window 5, through which its contents are stated. -/
abbrev VO8_5 : View sig .tc .vmem S4096x256 .f32 := (Memref.whole cc8_stg5_0 : Memref sig .tc .vmem S4096x256 .f32).view
/-- Each window's current staging memref at point `t`, spelled as the pipeline passes it (`bodyAt8`), and its wholeness. -/
abbrev ms8_0 (t : Fin cfg8.N) : Memref sig .tc .vmem S4096x512 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x256 .f32 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S512x1 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S4096x1 .f32 := win8_3.stage (cfg8.slots t 3)
abbrev hs8_3 (t : Fin cfg8.N) : (ms8_3 t).IsWhole := hstage8_3 ((cfg8.slots t 3).cast nbuf8_3)
abbrev ms8_4 (t : Fin cfg8.N) : Memref sig .tc .vmem S4096x256 .f32 := win8_4.stage (cfg8.slots t 4)
abbrev hs8_4 (t : Fin cfg8.N) : (ms8_4 t).IsWhole := hstage8_4 ((cfg8.slots t 4).cast nbuf8_4)
abbrev ms8_5 (t : Fin cfg8.N) : Memref sig .tc .vmem S4096x256 .f32 := win8_5.stage (cfg8.slots t 5)
abbrev hs8_5 (t : Fin cfg8.N) : (ms8_5 t).IsWhole := hstage8_5 ((cfg8.slots t 5).cast nbuf8_5)

end Cert.KernelIdeal.Reg

end
-- ==== Proof.Reg8RunA.lean ====
import proofs.«172830_g53506702573898_cont_9to1_m_1152_4_alg».proof.Proof.Reg8Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun8_A (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg8RunB.lean ====
import proofs.«172830_g53506702573898_cont_9to1_m_1152_4_alg».proof.Proof.Reg8RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun8_B (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg8RunC.lean ====
import proofs.«172830_g53506702573898_cont_9to1_m_1152_4_alg».proof.Proof.Reg8RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun8_C (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc8__sapply_body i arg1 harg1 arg2 harg2 arg3 harg3 arg4 harg4 arg5 harg5 arg6 harg6) K } := by
  refine ⟨?_, fun E K => ?run⟩
  case run =>
    simp only [cc8__sapply_body_eq_skeleton]; unfold cc8__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg8Frame.lean ====
import proofs.«172830_g53506702573898_cont_9to1_m_1152_4_alg».proof.Proof.Reg8RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_8 (n : ℕ) (hn : n + 1 < cfg8.N) : ¬ (n + 1) % 8 = 0 := by
  have hN : cfg8.N = 8 := N_8
  omega

/-- Case A's pieces for output 5 tile its block, so they cover it. -/
theorem cover8_A_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun8_A c i arg1 harg1 arg2 harg2 arg3 harg3 arg4 harg4 arg5 harg5 arg6 harg6 hc0 hc1 x0 x1 x2 x3 x4).1, y ∈ pc.1.set :=
  View.cover_of_tiledL (kernelRun8_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out8_A_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond8_0 i) (hc1 : ¬cond8_1 i)
    (x0 : Vec F S4096x512 .bf16) (x1 : Vec F S512x256 .f32) (x2 : Vec F S512x1 .f32) (x3 : Vec F S4096x1 .f32) (x4 : Vec F S4096x256 .f32) : Vec F S4096x256 .f32 :=
  VO8_5.read (Elt F) (VO8_5.writes (Elt F) VO8_5.junk (kernelRun8_A c i arg1 harg1 arg2 harg2 arg3 harg3 arg4 harg4 arg5 harg5 arg6 harg6 hc0 hc1 x0 x1 x2 x3 x4).1)

/-- Case B's pieces for output 5 tile its block, so they cover it. -/
theorem cover8_B_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun8_B c i arg1 harg1 arg2 harg2 arg3 harg3 arg4 harg4 arg5 harg5 arg6 harg6 hc0 hc1 x0 x1 x2 x3 x4 xo5).1, y ∈ pc.1.set :=
  View.cover_of_tiledL (kernelRun8_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out8_B_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : ¬cond8_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO8_5.read (Elt F) (VO8_5.writes (Elt F) VO8_5.junk (kernelRun8_B c i arg1 harg1 arg2 harg2 arg3 harg3 arg4 harg4 arg5 harg5 arg6 harg6 hc0 hc1 x0 x1 x2 x3 x4 xo5).1)

/-- Case C's pieces for output 5 tile its block, so they cover it. -/
theorem cover8_C_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun8_C c i arg1 harg1 arg2 harg2 arg3 harg3 arg4 harg4 arg5 harg5 arg6 harg6 hc0 hc1 x0 x1 x2 x3 x4 xo5).1, y ∈ pc.1.set :=
  View.cover_of_tiledL (kernelRun8_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out8_C_5 (c : Dev nD) (i : grid8.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond8_0 i) (hc1 : cond8_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO8_5.read (Elt F) (VO8_5.writes (Elt F) VO8_5.junk (kernelRun8_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt8 (c : Dev nD) : (n : ℕ) → n < cfg8.N → Vec F S4096x256 .f32
  | 0, hn => out8_A_5 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) (ms8_4 ⟨0, hn⟩) (hs8_4 ⟨0, hn⟩) (ms8_5 ⟨0, hn⟩) (hs8_5 ⟨0, hn⟩) ((hcond8_0 ⟨0, hn⟩).mpr (Nat.zero_mod _)) (fun h => absurd ((hcond8_1 ⟨0, hn⟩).mp h) (show ¬ (0 % 8 = 7) by decide)) (iblk8 V c 0 ⟨0, hn⟩) (iblk8 V c 1 ⟨0, hn⟩) (iblk8 V c 2 ⟨0, hn⟩) (iblk8 V c 3 ⟨0, hn⟩) (iblk8 V c 4 ⟨0, hn⟩)
  | n + 1, hn =>
    if h1 : (n + 1) % 8 = 7 then
      out8_C_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (fun h => succ_mod8_8 n hn ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn))
    else
      out8_B_5 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) (ms8_4 ⟨n + 1, hn⟩) (hs8_4 ⟨n + 1, hn⟩) (ms8_5 ⟨n + 1, hn⟩) (hs8_5 ⟨n + 1, hn⟩) (fun h => succ_mod8_8 n hn ((hcond8_0 ⟨n + 1, hn⟩).mp h)) (fun h => h1 ((hcond8_1 ⟨n + 1, hn⟩).mp h)) (iblk8 V c 0 ⟨n + 1, hn⟩) (iblk8 V c 1 ⟨n + 1, hn⟩) (iblk8 V c 2 ⟨n + 1, hn⟩) (iblk8 V c 3 ⟨n + 1, hn⟩) (iblk8 V c 4 ⟨n + 1, hn⟩) (outsAt8 c n (Nat.lt_of_succ_lt hn))

/-- `outsAt8` at the point of case A. -/
theorem outsAt8_A (c : Dev nD) (t : Fin cfg8.N) (h0 : t.val % 8 = 0) (h1 : ¬t.val % 8 = 7) :
    outsAt8 V c t.val t.isLt = out8_A_5 c (grid8.coords t) (ms8_0 t) (hs8_0 t) (ms8_1 t) (hs8_1 t) (ms8_2 t) (hs8_2 t) (ms8_3 t) (hs8_3 t) (ms8_4 t) (hs8_4 t) (ms8_5 t) (hs8_5 t) ((hcond8_0 t).mpr h0) (fun h => h1 ((hcond8_1 t).mp h)) (iblk8 V c 0 t) (iblk8 V c 1 t) (iblk8 V c 2 t) (iblk8 V c 3 t) (iblk8 V c 4 t) := by
  obtain ⟨n, hn⟩ := t
  cases n with
  | zero => exact rfl
  | succ n => exact absurd h0 (succ_mod8_8 n hn)

/-- `outsAt8` at a point of case B: that case's contents, over what the point before left. -/
theorem outsAt8_B (c : Dev nD) (t : Fin cfg8.N) (h0 : ¬t.val % 8 = 0) (h1 : ¬t.val % 8 = 7) :
    outsAt8 V c t.val t.isLt = out8_B_5 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) (fun h => h1 ((hcond8_1 t).mp h)) (iblk8 V c 0 t) (iblk8 V c 1 t) (iblk8 V c 2 t) (iblk8 V c 3 t) (iblk8 V c 4 t) (outsAt8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt8` at the point of case C: that case's contents, over what the point before left. -/
theorem outsAt8_C (c : Dev nD) (t : Fin cfg8.N) (h0 : ¬t.val % 8 = 0) (h1 : t.val % 8 = 7) :
    outsAt8 V c t.val t.isLt = out8_C_5 c (grid8.coords t) (ms8_0 t) (hs8_0 t) (ms8_1 t) (hs8_1 t) (ms8_2 t) (hs8_2 t) (ms8_3 t) (hs8_3 t) (ms8_4 t) (hs8_4 t) (ms8_5 t) (hs8_5 t) (fun h => h0 ((hcond8_0 t).mp h)) ((hcond8_1 t).mpr h1) (iblk8 V c 0 t) (iblk8 V c 1 t) (iblk8 V c 2 t) (iblk8 V c 3 t) (iblk8 V c 4 t) (outsAt8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt8`; the invariant the scoped rest and the generator register;
    nothing owed; windows 2 and 3, which read one array, hold it by the left and the right half of the full share,
    every other window its array at the full share. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => iblk8 V c 3 t
    | ⟨4, _⟩ => iblk8 V c 4 t
    | ⟨5, _⟩ => (outsAt8 V c t.val t.isLt)
  Φ _ := Pipeline.ΦA spec8 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = iblk8 V c 3 t := by dsimp only [dat8]
theorem after8_4 (c : Dev nD) (t : Fin cfg8.N) : (dat8 V c).after 4 t = iblk8 V c 4 t := by dsimp only [dat8]
theorem after8_5 (c : Dev nD) (t : Fin cfg8.N) : (dat8 V c).after 5 t = (outsAt8 V c t.val t.isLt) := by dsimp only [dat8]

/-- Each input's current staging buffer holds its block at every point, fetched there or not. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d
theorem before8_3 (c : Dev nD) (t : Fin cfg8.N) (d) : (dat8 V c).before 3 t d = iblk8 V c 3 t :=
  before8_3_of V (dat8 V c) (A_eq8 V c 3) (after8_3 V c) t d
theorem before8_4 (c : Dev nD) (t : Fin cfg8.N) (d) : (dat8 V c).before 4 t d = iblk8 V c 4 t :=
  before8_4_of V (dat8 V c) (A_eq8 V c 4) (after8_4 V c) t d

/-- At a point after the first, output 5's staging buffer holds what the body left at the point before: the buffer was
    not written back between, the window is live and uncut. -/
theorem before8_5_kept (c : Dev nD) (t : Fin cfg8.N) (h0 : ¬t.val % 8 = 0) (d) :
    (dat8 V c).before 5 t d = (outsAt8 V c (t.val - 1) (Nat.lt_of_le_of_lt (Nat.sub_le _ _) t.isLt)) := by
  have hN : t.val < 8 := lt_of_lt_of_eq t.isLt (show cfg8.N = 8 from N_8)
  rw [Dat.before_out_kept _ 5 rfl t (by omega) (Bool.eq_false_iff.mpr fun h => by have := (flush8_5 _).mp h; dsimp only at this; omega)
    (fun _ => rfl) (fun _ _ => rfl)]
  dsimp only [dat8]

/-! ## The body obligation, at a generic point -/

/-- What the body is called with at point `t`, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d))
    ∗ (∃ d, owns (c : Thread nD τ) (ms8_4 t) fullShare ((dat8 V c).before 4 t d))
    ∗ (∃ d, owns (c : Thread nD τ) (ms8_5 t) fullShare ((dat8 V c).before 5 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t)
    ∗ owns (c : Thread nD τ) (ms8_4 t) fullShare ((dat8 V c).after 4 t)
    ∗ owns (c : Thread nD τ) (ms8_5 t) fullShare ((dat8 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2, before8_3, before8_4]
  rw [show (dat8 V c).Φ t.succ = (dat8 V c).Φ t.castSucc from rfl,
    show (dat8 V c).owesAt () t.succ = (dat8 V c).owesAt () t.castSucc from rfl,
    after8_0, after8_1, after8_2, after8_3, after8_4, after8_5]
  have hN : t.val < 8 := lt_of_lt_of_eq t.isLt (show cfg8.N = 8 from N_8)
  by_cases h0 : t.val % 8 = 0
  · have h1 : ¬t.val % 8 = 7 := by omega
    rw [outsAt8_A V c t h0 h1]
    unfold out8_A_5
    iintro ⟨HΦ, Ho, ⟨%d0, H0⟩, ⟨%d1, H1⟩, ⟨%d2, H2⟩, ⟨%d3, H3⟩, ⟨%d4, H4⟩, ⟨%d5, H5⟩⟩
    iapply ((kernelRun8_A c (grid8.coords t) _ _ _ _ _ _ _ _ _ _ _ _ ((hcond8_0 t).mpr h0) (fun h => h1 ((hcond8_1 t).mp h)) (iblk8 V c 0 t) (iblk8 V c 1 t) (iblk8 V c 2 t) (iblk8 V c 3 t) (iblk8 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover8_A_5 c _ _ _ _ _ _ _ _ _ _ _ _ _ _ _ _ _ _ _ _)
  · by_cases h1 : t.val % 8 = 7
    · rw [outsAt8_C V c t h0 h1]
      simp only [before8_5_kept V c t h0]
      unfold out8_C_5
      iintro ⟨HΦ, Ho, ⟨%d0, H0⟩, ⟨%d1, H1⟩, ⟨%d2, H2⟩, ⟨%d3, H3⟩, ⟨%d4, H4⟩, ⟨%d5, H5⟩⟩
      iapply ((kernelRun8_C c (grid8.coords t) _ _ _ _ _ _ _ _ _ _ _ _ (fun h => h0 ((hcond8_0 t).mp h)) ((hcond8_1 t).mpr h1) (iblk8 V c 0 t) (iblk8 V c 1 t) (iblk8 V c 2 t) (iblk8 V c 3 t) (iblk8 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover8_C_5 c _ _ _ _ _ _ _ _ _ _ _ _ _ _ _ _ _ _ _ _ _)
    · rw [outsAt8_B V c t h0 h1]
      simp only [before8_5_kept V c t h0]
      unfold out8_B_5
      iintro ⟨HΦ, Ho, ⟨%d0, H0⟩, ⟨%d1, H1⟩, ⟨%d2, H2⟩, ⟨%d3, H3⟩, ⟨%d4, H4⟩, ⟨%d5, H5⟩⟩
      iapply ((kernelRun8_B c (grid8.coords t) _ _ _ _ _ _ _ _ _ _ _ _ (fun h => h0 ((hcond8_0 t).mp h)) (fun h => h1 ((hcond8_1 t).mp h)) (iblk8 V c 0 t) (iblk8 V c 1 t) (iblk8 V c 2 t) (iblk8 V c 3 t) (iblk8 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover8_B_5 c _ _ _ _ _ _ _ _ _ _ _ _ _ _ _ _ _ _ _ _ _)

/-- The library's body obligation, at every point. -/
theorem body_obligation8 (c : Dev nD) : BodyObligation (dat8 (F := F) V c) (defs₀ (F := F)) Variants.none () Set.univ := fun t => by
  rw [bigSep_W8, bigSep_W8]
  exact sound_body8 V c t

end Regions

end Cert.KernelIdeal.Reg

end
-- ==== Proof.Reg9Body.lean ====
/-
  The gate region of the second layer (the ninth kernel region of @main, counting from 0) at a parameter `V`, the buffers' contents
  when the region is entered.

  The region has eight grid points; point `t` handles rows 4096·t … 4096·t+4095 of the node-major feature
  matrices. Its body reads three [4096, 32] blocks of diffusion terms, the two [3, 32, 16] weight stacks and the two
  [1, 16] bias rows (each a single block, fetched once), and the [4096, 16] block of the hidden state; it writes two
  [4096, 16] blocks: r ⊙ h with r the logistic of the first pre-activation, and u, the logistic of the second. Every
  load and store is through a literal rectangle and nothing is carried from one point to the next, so what each
  output buffer holds after the body is the canonical contents of its one store over the body's pure payload.
-/
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## The windows' blocks -/

/-- Window `w`'s block at point `t`, read off its array as the region finds it. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-! ## The body's accesses -/

abbrev r9_x : Rect S4096x32 := Rect.unit (s := S4096x32) ![0, 0] S4096x32.size inb_S4096x32_S4096x32_0_0
abbrev r9_h : Rect S4096x16 := Rect.unit (s := S4096x16) ![0, 0] S4096x16.size inb_S4096x16_S4096x16_0_0
abbrev r9_b : Rect S1x16 := Rect.unit (s := S1x16) ![0, 0] S1x16.size inb_S1x16_S1x16_0_0
abbrev r9_w0 : Rect S3x32x16 := Rect.unit (s := S3x32x16) ![0, 0, 0] S1x32x16.size inb_S3x32x16_S1x32x16_0_0_0
abbrev r9_w1 : Rect S3x32x16 := Rect.unit (s := S3x32x16) ![1, 0, 0] S1x32x16.size inb_S3x32x16_S1x32x16_1_0_0
abbrev r9_w2 : Rect S3x32x16 := Rect.unit (s := S3x32x16) ![2, 0, 0] S1x32x16.size inb_S3x32x16_S1x32x16_2_0_0

/-! ## What the body leaves in each output window's buffer -/

/-- The first output's buffer after the body: logistic of (bias + three products) times the hidden block. -/
def out9_8 (x0 x1 x2 : Vec F S4096x32 .f32) (x3 : Vec F S3x32x16 .f32) (x5 : Vec F S1x16 .f32) (x7 : Vec F S4096x16 .f32) :
    Vec F S4096x16 .f32 :=
  View.canon [⟨r9_h, k9_pay2 (k9_pay5 (View.ld x5 r9_b) (View.ld x0 r9_x) (View.ld x3 r9_w0) (View.ld x1 r9_x) (View.ld x3 r9_w1))
    (k9_pay7 (View.ld x2 r9_x)) (k9_pay8 (View.ld x3 r9_w2)) (View.ld x7 r9_h)⟩]

/-- The second output's buffer after the body: logistic of (bias + three products) with the second weight stack. -/
def out9_9 (x0 x1 x2 : Vec F S4096x32 .f32) (x4 : Vec F S3x32x16 .f32) (x6 : Vec F S1x16 .f32) : Vec F S4096x16 .f32 :=
  View.canon [⟨r9_h, k9_pay1 (k9_pay6 (View.ld x6 r9_b) (View.ld x0 r9_x) (View.ld x4 r9_w0) (View.ld x1 r9_x) (View.ld x4 r9_w1))
    (k9_pay7 (View.ld x2 r9_x)) (View.ld x4 r9_w2)⟩]

/-- One store through the whole-block rectangle covers the block. -/
theorem cover9_h (p0 : Vec F S4096x16 .f32) (y : S4096x16.Idx) :
    ∃ pc ∈ ([⟨r9_h, p0⟩] : List (View.Piece (Elt F) S4096x16 .f32)), y ∈ pc.1.set :=
  View.cover_of_tiled [⟨r9_h, p0⟩] S4096x16.size (by rfl) y

/-! ## The body's triple -/

set_option maxHeartbeats 4000000 in
/-- The body on whole staging memrefs — the inputs' at read contents, the outputs' at anything — runs to the
    continuation holding the inputs' as they were and each output's at its canonical contents. -/
theorem sound_kernel9 (c : Dev nD) (E : Set ℕ) (i : grid9.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S3x32x16 .f32) (harg5 : arg5.IsWhole) (arg6 : Memref sig .tc .vmem S1x16 .f32) (harg6 : arg6.IsWhole)
    (arg7 : Memref sig .tc .vmem S1x16 .f32) (harg7 : arg7.IsWhole) (arg8 : Memref sig .tc .vmem S4096x16 .f32) (harg8 : arg8.IsWhole)
    (arg9 : Memref sig .tc .vmem S4096x16 .f32) (harg9 : arg9.IsWhole) (arg10 : Memref sig .tc .vmem S4096x16 .f32) (harg10 : arg10.IsWhole)
    (x0 x1 x2 : Vec F S4096x32 .f32) (x3 x4 : Vec F S3x32x16 .f32) (x5 x6 : Vec F S1x16 .f32) (x7 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ owns (c : Thread nD τ) arg8 fullShare x7
        ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare (out9_8 x0 x1 x2 x3 x5 x7)
            ∗ owns (c : Thread nD τ) arg10 fullShare (out9_9 x0 x1 x2 x4 x6)) -∗ K ⟨⟩))
      ⊢ wp frame (wpE (defs₀ (F := F)) Variants.none c none) E
          (cc9__gate_body i arg1 harg1 arg2 harg2 arg3 harg3 arg4 harg4 arg5 harg5 arg6 harg6 arg7 harg7 arg8 harg8 arg9 harg9 arg10 harg10) K := by
  simp only [cc9__gate_body_eq_skeleton]; unfold cc9__gate_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  isplitl [H7]; · iexists f7; isplitr; · ipureintro; rfl
                  iexact H7
  isplitl [H8]
  · iexists _; isplitr
    swap; · iexact H8
    ipureintro
    exact View.read_writes_eq_canon _ _ _ (cover9_h _)
  · iexists _; isplitr
    swap; · iexact H9
    ipureintro
    exact View.read_writes_eq_canon _ _ _ (cover9_h _)

end Region9

end Cert.KernelIdeal.Reg
end
-- ==== Proof.Reg9Data.lean ====
/-
  The gate region of the second layer: its proof data and body obligation at a parameter `V`.

  Each of the eight input windows (three blocks of diffusion terms, two weight stacks, two bias rows, the hidden
  block) is only read, so its staging buffer holds its block of the array at every point whether or not the pipeline
  fetched it there; the two output buffers are overwritten whole at every point. The body obligation at a point is
  then the body's triple at the point's blocks.
-/
import proofs.«172830_g53506702573898_cont_9to1_m_1152_4_alg».proof.Proof.Reg9Body

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region9

variable (V : (c : Dev nD) → (b : Ref sig .tc) → Buf (Elt F) ((c : Thread nD τ).loc b))

/-! ## Each input window's staging buffer holds its block at every point, fetched there or not -/

theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

theorem before9_3_of {c : Dev nD} (dat : Dat τ (Elt F) Unit ℕ (UR sig nD τ) ℕ cfg9 c) (hA : dat.A 3 = V c (Pipeline.arrRef spec9 3))
    (hafter : ∀ t, dat.after 3 t = iblk9 V c 3 t) (t : Fin cfg9.N) (d) : dat.before 3 t d = iblk9 V c 3 t :=
  (dat.before_in_eq_fetched 3 rfl (fun _ => rfl) (fun _ _ _ => rfl) (fun t => by rw [hafter]; unfold Dat.blockOf iblk9; rw [hA]; try rfl) t d).trans
    (by unfold Dat.fetched Dat.blockOf iblk9; rw [hA]; try rfl)

theorem before9_4_of {c : Dev nD} (dat : Dat τ (Elt F) Unit ℕ (UR sig nD τ) ℕ cfg9 c) (hA : dat.A 4 = V c (Pipeline.arrRef spec9 4))
    (hafter : ∀ t, dat.after 4 t = iblk9 V c 4 t) (t : Fin cfg9.N) (d) : dat.before 4 t d = iblk9 V c 4 t :=
  (dat.before_in_eq_fetched 4 rfl (fun _ => rfl) (fun _ _ _ => rfl) (fun t => by rw [hafter]; unfold Dat.blockOf iblk9; rw [hA]; try rfl) t d).trans
    (by unfold Dat.fetched Dat.blockOf iblk9; rw [hA]; try rfl)

theorem before9_5_of {c : Dev nD} (dat : Dat τ (Elt F) Unit ℕ (UR sig nD τ) ℕ cfg9 c) (hA : dat.A 5 = V c (Pipeline.arrRef spec9 5))
    (hafter : ∀ t, dat.after 5 t = iblk9 V c 5 t) (t : Fin cfg9.N) (d) : dat.before 5 t d = iblk9 V c 5 t :=
  (dat.before_in_eq_fetched 5 rfl (fun _ => rfl) (fun _ _ _ => rfl) (fun t => by rw [hafter]; unfold Dat.blockOf iblk9; rw [hA]; try rfl) t d).trans
    (by unfold Dat.fetched Dat.blockOf iblk9; rw [hA]; try rfl)

theorem before9_6_of {c : Dev nD} (dat : Dat τ (Elt F) Unit ℕ (UR sig nD τ) ℕ cfg9 c) (hA : dat.A 6 = V c (Pipeline.arrRef spec9 6))
    (hafter : ∀ t, dat.after 6 t = iblk9 V c 6 t) (t : Fin cfg9.N) (d) : dat.before 6 t d = iblk9 V c 6 t :=
  (dat.before_in_eq_fetched 6 rfl (fun _ => rfl) (fun _ _ _ => rfl) (fun t => by rw [hafter]; unfold Dat.blockOf iblk9; rw [hA]; try rfl) t d).trans
    (by unfold Dat.fetched Dat.blockOf iblk9; rw [hA]; try rfl)

theorem before9_7_of {c : Dev nD} (dat : Dat τ (Elt F) Unit ℕ (UR sig nD τ) ℕ cfg9 c) (hA : dat.A 7 = V c (Pipeline.arrRef spec9 7))
    (hafter : ∀ t, dat.after 7 t = iblk9 V c 7 t) (t : Fin cfg9.N) (d) : dat.before 7 t d = iblk9 V c 7 t :=
  (dat.before_in_eq_fetched 7 rfl (fun _ => rfl) (fun _ _ _ => rfl) (fun t => by rw [hafter]; unfold Dat.blockOf iblk9; rw [hA]; try rfl) t d).trans
    (by unfold Dat.fetched Dat.blockOf iblk9; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => iblk9 V c 3 t
    | ⟨4, _⟩ => iblk9 V c 4 t
    | ⟨5, _⟩ => iblk9 V c 5 t
    | ⟨6, _⟩ => iblk9 V c 6 t
    | ⟨7, _⟩ => iblk9 V c 7 t
    | ⟨8, _⟩ => out9_8 (iblk9 V c 0 t) (iblk9 V c 1 t) (iblk9 V c 2 t) (iblk9 V c 3 t) (iblk9 V c 5 t) (iblk9 V c 7 t)
    | ⟨9, _⟩ => out9_9 (iblk9 V c 0 t) (iblk9 V c 1 t) (iblk9 V c 2 t) (iblk9 V c 4 t) (iblk9 V c 6 t)
  Φ _ := Pipeline.ΦA spec9 c
  q _ := fullShare
  owed _ := 0

theorem A_eq9 (c : Dev nD) (w : Fin cfg9.W) : (dat9 V c).A w = V c (Pipeline.arrRef spec9 w) := by
  dsimp only [dat9]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = iblk9 V c 3 t := by dsimp only [dat9]
theorem after9_4 (c : Dev nD) (t : Fin cfg9.N) : (dat9 V c).after 4 t = iblk9 V c 4 t := by dsimp only [dat9]
theorem after9_5 (c : Dev nD) (t : Fin cfg9.N) : (dat9 V c).after 5 t = iblk9 V c 5 t := by dsimp only [dat9]
theorem after9_6 (c : Dev nD) (t : Fin cfg9.N) : (dat9 V c).after 6 t = iblk9 V c 6 t := by dsimp only [dat9]
theorem after9_7 (c : Dev nD) (t : Fin cfg9.N) : (dat9 V c).after 7 t = iblk9 V c 7 t := by dsimp only [dat9]
theorem after9_8 (c : Dev nD) (t : Fin cfg9.N) : (dat9 V c).after 8 t = out9_8 (iblk9 V c 0 t) (iblk9 V c 1 t) (iblk9 V c 2 t) (iblk9 V c 3 t) (iblk9 V c 5 t) (iblk9 V c 7 t) := by dsimp only [dat9]
theorem after9_9 (c : Dev nD) (t : Fin cfg9.N) : (dat9 V c).after 9 t = out9_9 (iblk9 V c 0 t) (iblk9 V c 1 t) (iblk9 V c 2 t) (iblk9 V c 4 t) (iblk9 V c 6 t) := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d
theorem before9_3 (c : Dev nD) (t : Fin cfg9.N) (d) : (dat9 V c).before 3 t d = iblk9 V c 3 t :=
  before9_3_of V (dat9 V c) (A_eq9 V c 3) (after9_3 V c) t d
theorem before9_4 (c : Dev nD) (t : Fin cfg9.N) (d) : (dat9 V c).before 4 t d = iblk9 V c 4 t :=
  before9_4_of V (dat9 V c) (A_eq9 V c 4) (after9_4 V c) t d
theorem before9_5 (c : Dev nD) (t : Fin cfg9.N) (d) : (dat9 V c).before 5 t d = iblk9 V c 5 t :=
  before9_5_of V (dat9 V c) (A_eq9 V c 5) (after9_5 V c) t d
theorem before9_6 (c : Dev nD) (t : Fin cfg9.N) (d) : (dat9 V c).before 6 t d = iblk9 V c 6 t :=
  before9_6_of V (dat9 V c) (A_eq9 V c 6) (after9_6 V c) t d
theorem before9_7 (c : Dev nD) (t : Fin cfg9.N) (d) : (dat9 V c).before 7 t d = iblk9 V c 7 t :=
  before9_7_of V (dat9 V c) (A_eq9 V c 7) (after9_7 V c) t d

/-! ## The body obligation, at a generic point -/

/-- What the body is called with at point `t`, the windows one by one, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d))
    ∗ (∃ d, owns (c : Thread nD τ) (st9_4 t) fullShare ((dat9 V c).before 4 t d))
    ∗ (∃ d, owns (c : Thread nD τ) (st9_5 t) fullShare ((dat9 V c).before 5 t d))
    ∗ (∃ d, owns (c : Thread nD τ) (st9_6 t) fullShare ((dat9 V c).before 6 t d))
    ∗ (∃ d, owns (c : Thread nD τ) (st9_7 t) fullShare ((dat9 V c).before 7 t d))
    ∗ (∃ d, owns (c : Thread nD τ) (st9_8 t) fullShare ((dat9 V c).before 8 t d))
    ∗ (∃ d, owns (c : Thread nD τ) (st9_9 t) fullShare ((dat9 V c).before 9 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t)
    ∗ owns (c : Thread nD τ) (st9_4 t) fullShare ((dat9 V c).after 4 t)
    ∗ owns (c : Thread nD τ) (st9_5 t) fullShare ((dat9 V c).after 5 t)
    ∗ owns (c : Thread nD τ) (st9_6 t) fullShare ((dat9 V c).after 6 t)
    ∗ owns (c : Thread nD τ) (st9_7 t) fullShare ((dat9 V c).after 7 t)
    ∗ owns (c : Thread nD τ) (st9_8 t) fullShare ((dat9 V c).after 8 t)
    ∗ owns (c : Thread nD τ) (st9_9 t) fullShare ((dat9 V c).after 9 t))

/-- The body at any point: the inputs' memrefs hold their blocks, so the body's triple applies; the invariant and the
    core's dues pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2, before9_3, before9_4, before9_5, before9_6, before9_7]
  rw [show (dat9 V c).Φ t.succ = (dat9 V c).Φ t.castSucc from rfl,
    show (dat9 V c).owesAt () t.succ = (dat9 V c).owesAt () t.castSucc from rfl,
    after9_0, after9_1, after9_2, after9_3, after9_4, after9_5, after9_6, after9_7, after9_8, after9_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel9 c Set.univ _ _ _ _ _ _ _ _ _ _ _ _ _ _ _ _ _ _ _ _ _ (iblk9 V c 0 t) (iblk9 V c 1 t) (iblk9 V c 2 t) (iblk9 V c 3 t) (iblk9 V c 4 t) (iblk9 V c 5 t) (iblk9 V c 6 t) (iblk9 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation9 (c : Dev nD) : BodyObligation (dat9 (F := F) V c) (defs₀ (F := F)) Variants.none () Set.univ := fun t => by
  rw [bigSep_W9, bigSep_W9]
  exact sound_body9 V c t

end Region9

end Cert.KernelIdeal.Reg
end
-- ==== Proof.Reg10Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 10 (custom_call 10, `cc10__sapply_body`, pipeline 10) at the entry contents `V`: what its case runs share -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof data
    whose array is `V`'s and whose body leaves the block in place. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof data
    whose array is `V`'s and whose body leaves the block in place. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof data
    whose array is `V`'s and whose body leaves the block in place. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof data
    whose array is `V`'s and whose body leaves the block in place. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-- Input window 4's current staging buffer holds its block at every point, fetched there or not, for any proof data
    whose array is `V`'s and whose body leaves the block in place. -/
theorem before10_4_of {c : Dev nD} (dat : Dat τ (Elt F) Unit ℕ (UR sig nD τ) ℕ cfg10 c) (hA : dat.A 4 = V c (Pipeline.arrRef spec10 4))
    (hafter : ∀ t, dat.after 4 t = iblk10 V c 4 t) (t : Fin cfg10.N) (d) : dat.before 4 t d = iblk10 V c 4 t :=
  (dat.before_in_eq_fetched 4 rfl (fun _ => rfl) (fun _ _ _ => rfl) (fun t => by rw [hafter]; unfold Dat.blockOf iblk10; rw [hA]; try rfl) t d).trans
    (by unfold Dat.fetched Dat.blockOf iblk10; rw [hA]; try rfl)

end Regions

/-! ## The body's branch conditions -/

/-- The condition of the body's first `scf.if` (`k10_h1`): the grid coordinate is 0. -/
abbrev cond10_0 (i : grid10.Coords) : Prop := (Scalar.cmpi .ne (Scalar.extui (Scalar.cmpi .eq (BitVec.ofNat 32 (i 0).val) 0#32)) 0#32) = 1#1
/-- It holds at the first point only. -/
theorem hcond10_0 : ∀ t : Fin cfg10.N, cond10_0 (grid10.coords t) ↔ t.val % 8 = 0 :=
  (by decide +kernel : ∀ t : Fin grid10.N, cond10_0 (grid10.coords t) ↔ t.val % 8 = 0)

/-- The condition of the body's second `scf.if` (`k10_h2`): the grid coordinate is 7. -/
abbrev cond10_1 (i : grid10.Coords) : Prop := (Scalar.cmpi .ne (Scalar.extui (Scalar.cmpi .eq (BitVec.ofNat 32 (i 0).val) 7#32)) 0#32) = 1#1
/-- It holds at the last point only. -/
theorem hcond10_1 : ∀ t : Fin cfg10.N, cond10_1 (grid10.coords t) ↔ t.val % 8 = 7 :=
  (by decide +kernel : ∀ t : Fin grid10.N, cond10_1 (grid10.coords t) ↔ t.val % 8 = 7)

/-! ## The staging memrefs -/

/-- One staging buffer of output window 5, through which its contents are stated. -/
abbrev VO10_5 : View sig .tc .vmem S4096x256 .f32 := (Memref.whole cc10_stg5_0 : Memref sig .tc .vmem S4096x256 .f32).view
/-- Each window's current staging memref at point `t`, spelled as the pipeline passes it (`bodyAt10`), and its wholeness. -/
abbrev ms10_0 (t : Fin cfg10.N) : Memref sig .tc .vmem S4096x512 .bf16 := win10_0.stage (cfg10.slots t 0)
abbrev hs10_0 (t : Fin cfg10.N) : (ms10_0 t).IsWhole := hstage10_0 ((cfg10.slots t 0).cast nbuf10_0)
abbrev ms10_1 (t : Fin cfg10.N) : Memref sig .tc .vmem S512x256 .f32 := win10_1.stage (cfg10.slots t 1)
abbrev hs10_1 (t : Fin cfg10.N) : (ms10_1 t).IsWhole := hstage10_1 ((cfg10.slots t 1).cast nbuf10_1)
abbrev ms10_2 (t : Fin cfg10.N) : Memref sig .tc .vmem S512x1 .f32 := win10_2.stage (cfg10.slots t 2)
abbrev hs10_2 (t : Fin cfg10.N) : (ms10_2 t).IsWhole := hstage10_2 ((cfg10.slots t 2).cast nbuf10_2)
abbrev ms10_3 (t : Fin cfg10.N) : Memref sig .tc .vmem S4096x1 .f32 := win10_3.stage (cfg10.slots t 3)
abbrev hs10_3 (t : Fin cfg10.N) : (ms10_3 t).IsWhole := hstage10_3 ((cfg10.slots t 3).cast nbuf10_3)
abbrev ms10_4 (t : Fin cfg10.N) : Memref sig .tc .vmem S4096x256 .f32 := win10_4.stage (cfg10.slots t 4)
abbrev hs10_4 (t : Fin cfg10.N) : (ms10_4 t).IsWhole := hstage10_4 ((cfg10.slots t 4).cast nbuf10_4)
abbrev ms10_5 (t : Fin cfg10.N) : Memref sig .tc .vmem S4096x256 .f32 := win10_5.stage (cfg10.slots t 5)
abbrev hs10_5 (t : Fin cfg10.N) : (ms10_5 t).IsWhole := hstage10_5 ((cfg10.slots t 5).cast nbuf10_5)

end Cert.KernelIdeal.Reg

end
-- ==== Proof.Reg10RunA.lean ====
import proofs.«172830_g53506702573898_cont_9to1_m_1152_4_alg».proof.Proof.Reg10Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun10_A (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg10RunB.lean ====
import proofs.«172830_g53506702573898_cont_9to1_m_1152_4_alg».proof.Proof.Reg10RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun10_B (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg10RunC.lean ====
import proofs.«172830_g53506702573898_cont_9to1_m_1152_4_alg».proof.Proof.Reg10RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun10_C (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc10__sapply_body i arg1 harg1 arg2 harg2 arg3 harg3 arg4 harg4 arg5 harg5 arg6 harg6) K } := by
  refine ⟨?_, fun E K => ?run⟩
  case run =>
    simp only [cc10__sapply_body_eq_skeleton]; unfold cc10__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg10Frame.lean ====
import proofs.«172830_g53506702573898_cont_9to1_m_1152_4_alg».proof.Proof.Reg10RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_10 (n : ℕ) (hn : n + 1 < cfg10.N) : ¬ (n + 1) % 8 = 0 := by
  have hN : cfg10.N = 8 := N_10
  omega

/-- Case A's pieces for output 5 tile its block, so they cover it. -/
theorem cover10_A_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun10_A c i arg1 harg1 arg2 harg2 arg3 harg3 arg4 harg4 arg5 harg5 arg6 harg6 hc0 hc1 x0 x1 x2 x3 x4).1, y ∈ pc.1.set :=
  View.cover_of_tiledL (kernelRun10_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out10_A_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond10_0 i) (hc1 : ¬cond10_1 i)
    (x0 : Vec F S4096x512 .bf16) (x1 : Vec F S512x256 .f32) (x2 : Vec F S512x1 .f32) (x3 : Vec F S4096x1 .f32) (x4 : Vec F S4096x256 .f32) : Vec F S4096x256 .f32 :=
  VO10_5.read (Elt F) (VO10_5.writes (Elt F) VO10_5.junk (kernelRun10_A c i arg1 harg1 arg2 harg2 arg3 harg3 arg4 harg4 arg5 harg5 arg6 harg6 hc0 hc1 x0 x1 x2 x3 x4).1)

/-- Case B's pieces for output 5 tile its block, so they cover it. -/
theorem cover10_B_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun10_B c i arg1 harg1 arg2 harg2 arg3 harg3 arg4 harg4 arg5 harg5 arg6 harg6 hc0 hc1 x0 x1 x2 x3 x4 xo5).1, y ∈ pc.1.set :=
  View.cover_of_tiledL (kernelRun10_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out10_B_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : ¬cond10_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO10_5.read (Elt F) (VO10_5.writes (Elt F) VO10_5.junk (kernelRun10_B c i arg1 harg1 arg2 harg2 arg3 harg3 arg4 harg4 arg5 harg5 arg6 harg6 hc0 hc1 x0 x1 x2 x3 x4 xo5).1)

/-- Case C's pieces for output 5 tile its block, so they cover it. -/
theorem cover10_C_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun10_C c i arg1 harg1 arg2 harg2 arg3 harg3 arg4 harg4 arg5 harg5 arg6 harg6 hc0 hc1 x0 x1 x2 x3 x4 xo5).1, y ∈ pc.1.set :=
  View.cover_of_tiledL (kernelRun10_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out10_C_5 (c : Dev nD) (i : grid10.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond10_0 i) (hc1 : cond10_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO10_5.read (Elt F) (VO10_5.writes (Elt F) VO10_5.junk (kernelRun10_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt10 (c : Dev nD) : (n : ℕ) → n < cfg10.N → Vec F S4096x256 .f32
  | 0, hn => out10_A_5 c (grid10.coords ⟨0, hn⟩) (ms10_0 ⟨0, hn⟩) (hs10_0 ⟨0, hn⟩) (ms10_1 ⟨0, hn⟩) (hs10_1 ⟨0, hn⟩) (ms10_2 ⟨0, hn⟩) (hs10_2 ⟨0, hn⟩) (ms10_3 ⟨0, hn⟩) (hs10_3 ⟨0, hn⟩) (ms10_4 ⟨0, hn⟩) (hs10_4 ⟨0, hn⟩) (ms10_5 ⟨0, hn⟩) (hs10_5 ⟨0, hn⟩) ((hcond10_0 ⟨0, hn⟩).mpr (Nat.zero_mod _)) (fun h => absurd ((hcond10_1 ⟨0, hn⟩).mp h) (show ¬ (0 % 8 = 7) by decide)) (iblk10 V c 0 ⟨0, hn⟩) (iblk10 V c 1 ⟨0, hn⟩) (iblk10 V c 2 ⟨0, hn⟩) (iblk10 V c 3 ⟨0, hn⟩) (iblk10 V c 4 ⟨0, hn⟩)
  | n + 1, hn =>
    if h1 : (n + 1) % 8 = 7 then
      out10_C_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => succ_mod8_10 n hn ((hcond10_0 ⟨n + 1, hn⟩).mp h)) ((hcond10_1 ⟨n + 1, hn⟩).mpr h1) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (outsAt10 c n (Nat.lt_of_succ_lt hn))
    else
      out10_B_5 c (grid10.coords ⟨n + 1, hn⟩) (ms10_0 ⟨n + 1, hn⟩) (hs10_0 ⟨n + 1, hn⟩) (ms10_1 ⟨n + 1, hn⟩) (hs10_1 ⟨n + 1, hn⟩) (ms10_2 ⟨n + 1, hn⟩) (hs10_2 ⟨n + 1, hn⟩) (ms10_3 ⟨n + 1, hn⟩) (hs10_3 ⟨n + 1, hn⟩) (ms10_4 ⟨n + 1, hn⟩) (hs10_4 ⟨n + 1, hn⟩) (ms10_5 ⟨n + 1, hn⟩) (hs10_5 ⟨n + 1, hn⟩) (fun h => succ_mod8_10 n hn ((hcond10_0 ⟨n + 1, hn⟩).mp h)) (fun h => h1 ((hcond10_1 ⟨n + 1, hn⟩).mp h)) (iblk10 V c 0 ⟨n + 1, hn⟩) (iblk10 V c 1 ⟨n + 1, hn⟩) (iblk10 V c 2 ⟨n + 1, hn⟩) (iblk10 V c 3 ⟨n + 1, hn⟩) (iblk10 V c 4 ⟨n + 1, hn⟩) (outsAt10 c n (Nat.lt_of_succ_lt hn))

/-- `outsAt10` at the point of case A. -/
theorem outsAt10_A (c : Dev nD) (t : Fin cfg10.N) (h0 : t.val % 8 = 0) (h1 : ¬t.val % 8 = 7) :
    outsAt10 V c t.val t.isLt = out10_A_5 c (grid10.coords t) (ms10_0 t) (hs10_0 t) (ms10_1 t) (hs10_1 t) (ms10_2 t) (hs10_2 t) (ms10_3 t) (hs10_3 t) (ms10_4 t) (hs10_4 t) (ms10_5 t) (hs10_5 t) ((hcond10_0 t).mpr h0) (fun h => h1 ((hcond10_1 t).mp h)) (iblk10 V c 0 t) (iblk10 V c 1 t) (iblk10 V c 2 t) (iblk10 V c 3 t) (iblk10 V c 4 t) := by
  obtain ⟨n, hn⟩ := t
  cases n with
  | zero => exact rfl
  | succ n => exact absurd h0 (succ_mod8_10 n hn)

/-- `outsAt10` at a point of case B: that case's contents, over what the point before left. -/
theorem outsAt10_B (c : Dev nD) (t : Fin cfg10.N) (h0 : ¬t.val % 8 = 0) (h1 : ¬t.val % 8 = 7) :
    outsAt10 V c t.val t.isLt = out10_B_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) (fun h => h1 ((hcond10_1 t).mp h)) (iblk10 V c 0 t) (iblk10 V c 1 t) (iblk10 V c 2 t) (iblk10 V c 3 t) (iblk10 V c 4 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt10` at the point of case C: that case's contents, over what the point before left. -/
theorem outsAt10_C (c : Dev nD) (t : Fin cfg10.N) (h0 : ¬t.val % 8 = 0) (h1 : t.val % 8 = 7) :
    outsAt10 V c t.val t.isLt = out10_C_5 c (grid10.coords t) (ms10_0 t) (hs10_0 t) (ms10_1 t) (hs10_1 t) (ms10_2 t) (hs10_2 t) (ms10_3 t) (hs10_3 t) (ms10_4 t) (hs10_4 t) (ms10_5 t) (hs10_5 t) (fun h => h0 ((hcond10_0 t).mp h)) ((hcond10_1 t).mpr h1) (iblk10 V c 0 t) (iblk10 V c 1 t) (iblk10 V c 2 t) (iblk10 V c 3 t) (iblk10 V c 4 t) (outsAt10 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt10`; the invariant the scoped rest and the generator register;
    nothing owed; windows 2 and 3, which read one array, hold it by the left and the right half of the full share, and so
    do windows 1 and 4, which read another; the two remaining windows hold their arrays at the full share. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => iblk10 V c 4 t
    | ⟨5, _⟩ => (outsAt10 V c t.val t.isLt)
  Φ _ := Pipeline.ΦA spec10 c
  q w := match w with
    | ⟨0, _⟩ => fullShare
    | ⟨1, _⟩ => fullShare.left
    | ⟨2, _⟩ => fullShare.left
    | ⟨3, _⟩ => fullShare.right
    | ⟨4, _⟩ => fullShare.right
    | ⟨5, _⟩ => fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) : (dat10 V c).after 4 t = iblk10 V c 4 t := by dsimp only [dat10]
theorem after10_5 (c : Dev nD) (t : Fin cfg10.N) : (dat10 V c).after 5 t = (outsAt10 V c t.val t.isLt) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d
theorem before10_4 (c : Dev nD) (t : Fin cfg10.N) (d) : (dat10 V c).before 4 t d = iblk10 V c 4 t :=
  before10_4_of V (dat10 V c) (A_eq10 V c 4) (after10_4 V c) t d

/-- At a point after the first, output 5's staging buffer holds what the body left at the point before: the buffer was
    not written back between, the window is live and uncut. -/
theorem before10_5_kept (c : Dev nD) (t : Fin cfg10.N) (h0 : ¬t.val % 8 = 0) (d) :
    (dat10 V c).before 5 t d = (outsAt10 V c (t.val - 1) (Nat.lt_of_le_of_lt (Nat.sub_le _ _) t.isLt)) := by
  have hN : t.val < 8 := lt_of_lt_of_eq t.isLt (show cfg10.N = 8 from N_10)
  rw [Dat.before_out_kept _ 5 rfl t (by omega) (Bool.eq_false_iff.mpr fun h => by have := (flush10_5 _).mp h; dsimp only at this; omega)
    (fun _ => rfl) (fun _ _ => rfl)]
  dsimp only [dat10]

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (ms10_0 t) fullShare ((dat10 V c).before 0 t d))
    ∗ (∃ d, owns (c : Thread nD τ) (ms10_1 t) fullShare ((dat10 V c).before 1 t d))
    ∗ (∃ d, owns (c : Thread nD τ) (ms10_2 t) fullShare ((dat10 V c).before 2 t d))
    ∗ (∃ d, owns (c : Thread nD τ) (ms10_3 t) fullShare ((dat10 V c).before 3 t d))
    ∗ (∃ d, owns (c : Thread nD τ) (ms10_4 t) fullShare ((dat10 V c).before 4 t d))
    ∗ (∃ d, owns (c : Thread nD τ) (ms10_5 t) fullShare ((dat10 V c).before 5 t d)))

/-- and what it returns. -/
def bodyPost10 (c : Dev nD) (t : Fin cfg10.N) : sProp 𝕄 :=
  iprop((dat10 V c).Φ t.succ ∗ (dat10 V c).owesAt () t.succ
    ∗ owns (c : Thread nD τ) (ms10_0 t) fullShare ((dat10 V c).after 0 t)
    ∗ owns (c : Thread nD τ) (ms10_1 t) fullShare ((dat10 V c).after 1 t)
    ∗ owns (c : Thread nD τ) (ms10_2 t) fullShare ((dat10 V c).after 2 t)
    ∗ owns (c : Thread nD τ) (ms10_3 t) fullShare ((dat10 V c).after 3 t)
    ∗ owns (c : Thread nD τ) (ms10_4 t) fullShare ((dat10 V c).after 4 t)
    ∗ owns (c : Thread nD τ) (ms10_5 t) fullShare ((dat10 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3, before10_4]
  rw [show (dat10 V c).Φ t.succ = (dat10 V c).Φ t.castSucc from rfl,
    show (dat10 V c).owesAt () t.succ = (dat10 V c).owesAt () t.castSucc from rfl,
    after10_0, after10_1, after10_2, after10_3, after10_4, after10_5]
  have hN : t.val < 8 := lt_of_lt_of_eq t.isLt (show cfg10.N = 8 from N_10)
  by_cases h0 : t.val % 8 = 0
  · have h1 : ¬t.val % 8 = 7 := by omega
    rw [outsAt10_A V c t h0 h1]
    unfold out10_A_5
    iintro ⟨HΦ, Ho, ⟨%d0, H0⟩, ⟨%d1, H1⟩, ⟨%d2, H2⟩, ⟨%d3, H3⟩, ⟨%d4, H4⟩, ⟨%d5, H5⟩⟩
    iapply ((kernelRun10_A c (grid10.coords t) _ _ _ _ _ _ _ _ _ _ _ _ ((hcond10_0 t).mpr h0) (fun h => h1 ((hcond10_1 t).mp h)) (iblk10 V c 0 t) (iblk10 V c 1 t) (iblk10 V c 2 t) (iblk10 V c 3 t) (iblk10 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover10_A_5 c _ _ _ _ _ _ _ _ _ _ _ _ _ _ _ _ _ _ _ _)
  · by_cases h1 : t.val % 8 = 7
    · rw [outsAt10_C V c t h0 h1]
      simp only [before10_5_kept V c t h0]
      unfold out10_C_5
      iintro ⟨HΦ, Ho, ⟨%d0, H0⟩, ⟨%d1, H1⟩, ⟨%d2, H2⟩, ⟨%d3, H3⟩, ⟨%d4, H4⟩, ⟨%d5, H5⟩⟩
      iapply ((kernelRun10_C c (grid10.coords t) _ _ _ _ _ _ _ _ _ _ _ _ (fun h => h0 ((hcond10_0 t).mp h)) ((hcond10_1 t).mpr h1) (iblk10 V c 0 t) (iblk10 V c 1 t) (iblk10 V c 2 t) (iblk10 V c 3 t) (iblk10 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover10_C_5 c _ _ _ _ _ _ _ _ _ _ _ _ _ _ _ _ _ _ _ _ _)
    · rw [outsAt10_B V c t h0 h1]
      simp only [before10_5_kept V c t h0]
      unfold out10_B_5
      iintro ⟨HΦ, Ho, ⟨%d0, H0⟩, ⟨%d1, H1⟩, ⟨%d2, H2⟩, ⟨%d3, H3⟩, ⟨%d4, H4⟩, ⟨%d5, H5⟩⟩
      iapply ((kernelRun10_B c (grid10.coords t) _ _ _ _ _ _ _ _ _ _ _ _ (fun h => h0 ((hcond10_0 t).mp h)) (fun h => h1 ((hcond10_1 t).mp h)) (iblk10 V c 0 t) (iblk10 V c 1 t) (iblk10 V c 2 t) (iblk10 V c 3 t) (iblk10 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover10_B_5 c _ _ _ _ _ _ _ _ _ _ _ _ _ _ _ _ _ _ _ _ _)

/-- The library's body obligation, at every point. -/
theorem body_obligation10 (c : Dev nD) : BodyObligation (dat10 (F := F) V c) (defs₀ (F := F)) Variants.none () Set.univ := fun t => by
  rw [bigSep_W10, bigSep_W10]
  exact sound_body10 V c t

end Regions

end Cert.KernelIdeal.Reg

end
-- ==== Proof.Reg11Runs.lean ====
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when the region is entered
variable (V : (c : Dev nD) → (b : Ref sig .tc) → Buf (Elt F) ((c : Thread nD τ).loc b))

/-! # Region 11 (custom_call 11, `cc11__sapply_body`, pipeline 11) at the entry contents `V`: what its case runs share -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof data
    whose array is `V`'s and whose body leaves the block in place. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof data
    whose array is `V`'s and whose body leaves the block in place. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof data
    whose array is `V`'s and whose body leaves the block in place. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof data
    whose array is `V`'s and whose body leaves the block in place. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-- Input window 4's current staging buffer holds its block at every point, fetched there or not, for any proof data
    whose array is `V`'s and whose body leaves the block in place. -/
theorem before11_4_of {c : Dev nD} (dat : Dat τ (Elt F) Unit ℕ (UR sig nD τ) ℕ cfg11 c) (hA : dat.A 4 = V c (Pipeline.arrRef spec11 4))
    (hafter : ∀ t, dat.after 4 t = iblk11 V c 4 t) (t : Fin cfg11.N) (d) : dat.before 4 t d = iblk11 V c 4 t :=
  (dat.before_in_eq_fetched 4 rfl (fun _ => rfl) (fun _ _ _ => rfl) (fun t => by rw [hafter]; unfold Dat.blockOf iblk11; rw [hA]; try rfl) t d).trans
    (by unfold Dat.fetched Dat.blockOf iblk11; rw [hA]; try rfl)

end Regions

/-! ## The body's branch conditions -/

/-- The condition of the body's first `scf.if` (`k11_h1`): the grid coordinate is 0. -/
abbrev cond11_0 (i : grid11.Coords) : Prop := (Scalar.cmpi .ne (Scalar.extui (Scalar.cmpi .eq (BitVec.ofNat 32 (i 0).val) 0#32)) 0#32) = 1#1
/-- It holds at the first point only. -/
theorem hcond11_0 : ∀ t : Fin cfg11.N, cond11_0 (grid11.coords t) ↔ t.val % 8 = 0 :=
  (by decide +kernel : ∀ t : Fin grid11.N, cond11_0 (grid11.coords t) ↔ t.val % 8 = 0)

/-- The condition of the body's second `scf.if` (`k11_h2`): the grid coordinate is 7. -/
abbrev cond11_1 (i : grid11.Coords) : Prop := (Scalar.cmpi .ne (Scalar.extui (Scalar.cmpi .eq (BitVec.ofNat 32 (i 0).val) 7#32)) 0#32) = 1#1
/-- It holds at the last point only. -/
theorem hcond11_1 : ∀ t : Fin cfg11.N, cond11_1 (grid11.coords t) ↔ t.val % 8 = 7 :=
  (by decide +kernel : ∀ t : Fin grid11.N, cond11_1 (grid11.coords t) ↔ t.val % 8 = 7)

/-! ## The staging memrefs -/

/-- One staging buffer of output window 5, through which its contents are stated. -/
abbrev VO11_5 : View sig .tc .vmem S4096x256 .f32 := (Memref.whole cc11_stg5_0 : Memref sig .tc .vmem S4096x256 .f32).view
/-- Each window's current staging memref at point `t`, spelled as the pipeline passes it (`bodyAt11`), and its wholeness. -/
abbrev ms11_0 (t : Fin cfg11.N) : Memref sig .tc .vmem S4096x512 .bf16 := win11_0.stage (cfg11.slots t 0)
abbrev hs11_0 (t : Fin cfg11.N) : (ms11_0 t).IsWhole := hstage11_0 ((cfg11.slots t 0).cast nbuf11_0)
abbrev ms11_1 (t : Fin cfg11.N) : Memref sig .tc .vmem S512x256 .f32 := win11_1.stage (cfg11.slots t 1)
abbrev hs11_1 (t : Fin cfg11.N) : (ms11_1 t).IsWhole := hstage11_1 ((cfg11.slots t 1).cast nbuf11_1)
abbrev ms11_2 (t : Fin cfg11.N) : Memref sig .tc .vmem S512x1 .f32 := win11_2.stage (cfg11.slots t 2)
abbrev hs11_2 (t : Fin cfg11.N) : (ms11_2 t).IsWhole := hstage11_2 ((cfg11.slots t 2).cast nbuf11_2)
abbrev ms11_3 (t : Fin cfg11.N) : Memref sig .tc .vmem S4096x1 .f32 := win11_3.stage (cfg11.slots t 3)
abbrev hs11_3 (t : Fin cfg11.N) : (ms11_3 t).IsWhole := hstage11_3 ((cfg11.slots t 3).cast nbuf11_3)
abbrev ms11_4 (t : Fin cfg11.N) : Memref sig .tc .vmem S4096x256 .f32 := win11_4.stage (cfg11.slots t 4)
abbrev hs11_4 (t : Fin cfg11.N) : (ms11_4 t).IsWhole := hstage11_4 ((cfg11.slots t 4).cast nbuf11_4)
abbrev ms11_5 (t : Fin cfg11.N) : Memref sig .tc .vmem S4096x256 .f32 := win11_5.stage (cfg11.slots t 5)
abbrev hs11_5 (t : Fin cfg11.N) : (ms11_5 t).IsWhole := hstage11_5 ((cfg11.slots t 5).cast nbuf11_5)

end Cert.KernelIdeal.Reg

end
-- ==== Proof.Reg11RunA.lean ====
import proofs.«172830_g53506702573898_cont_9to1_m_1152_4_alg».proof.Proof.Reg11Runs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case A (the first `scf.if` taken, the second not: point 0), with the
    proof that on whole staging memrefs — the inputs' at their contents, the output's at anything — the body runs to
    the continuation holding the inputs' as they were and the output's buffer with its pieces written. -/
noncomputable def kernelRun11_A (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg11RunB.lean ====
import proofs.«172830_g53506702573898_cont_9to1_m_1152_4_alg».proof.Proof.Reg11RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case B (neither `scf.if` taken: points 1 to 6), with the
    proof that on whole staging memrefs — the inputs' at their contents, the output's at its running contents `xo5` — the body runs to
    the continuation holding the inputs' as they were and the output's buffer with its pieces written. -/
noncomputable def kernelRun11_B (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg11RunC.lean ====
import proofs.«172830_g53506702573898_cont_9to1_m_1152_4_alg».proof.Proof.Reg11RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in output window 5's staging memref, as pieces (last first), in case C (the second `scf.if` taken, the first not: point 7), with the
    proof that on whole staging memrefs — the inputs' at their contents, the output's at its running contents `xo5` — the body runs to
    the continuation holding the inputs' as they were and the output's buffer with its pieces written. -/
noncomputable def kernelRun11_C (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) :
    { L5 : List (View.Piece (Elt F) S4096x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare xo5
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5)) -∗ K ⟨⟩))
          ⊢ wp frame (wpE (defs₀ (F := F)) Variants.none c none) E (cc11__sapply_body i arg1 harg1 arg2 harg2 arg3 harg3 arg4 harg4 arg5 harg5 arg6 harg6) K } := by
  refine ⟨?_, fun E K => ?run⟩
  case run =>
    simp only [cc11__sapply_body_eq_skeleton]; unfold cc11__sapply_body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

end Cert.KernelIdeal.Reg

end
-- ==== Proof.Reg11Frame.lean ====
import proofs.«172830_g53506702573898_cont_9to1_m_1152_4_alg».proof.Proof.Reg11RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point after the first is not the first. -/
theorem succ_mod8_11 (n : ℕ) (hn : n + 1 < cfg11.N) : ¬ (n + 1) % 8 = 0 := by
  have hN : cfg11.N = 8 := N_11
  omega

/-- Case A's pieces for output 5 tile its block, so they cover it. -/
theorem cover11_A_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) (y : S4096x256.Idx) :
    ∃ pc ∈ (kernelRun11_A c i arg1 harg1 arg2 harg2 arg3 harg3 arg4 harg4 arg5 harg5 arg6 harg6 hc0 hc1 x0 x1 x2 x3 x4).1, y ∈ pc.1.set :=
  View.cover_of_tiledL (kernelRun11_A c i arg1 harg1 arg2 harg2 arg3 harg3 arg4 harg4 arg5 harg5 arg6 harg6 hc0 hc1 x0 x1 x2 x3 x4).1 S4096x256.size (by sl_kernel_rfl) y

/-- What case A leaves in output 5's staging buffer: its pieces read back over junk. -/
def out11_A_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : cond11_0 i) (hc1 : ¬cond11_1 i)
    (x0 : Vec F S4096x512 .bf16) (x1 : Vec F S512x256 .f32) (x2 : Vec F S512x1 .f32) (x3 : Vec F S4096x1 .f32) (x4 : Vec F S4096x256 .f32) : Vec F S4096x256 .f32 :=
  VO11_5.read (Elt F) (VO11_5.writes (Elt F) VO11_5.junk (kernelRun11_A c i arg1 harg1 arg2 harg2 arg3 harg3 arg4 harg4 arg5 harg5 arg6 harg6 hc0 hc1 x0 x1 x2 x3 x4).1)

/-- Case B's pieces for output 5 tile its block, so they cover it. -/
theorem cover11_B_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun11_B c i arg1 harg1 arg2 harg2 arg3 harg3 arg4 harg4 arg5 harg5 arg6 harg6 hc0 hc1 x0 x1 x2 x3 x4 xo5).1, y ∈ pc.1.set :=
  View.cover_of_tiledL (kernelRun11_B c i arg1 harg1 arg2 harg2 arg3 harg3 arg4 harg4 arg5 harg5 arg6 harg6 hc0 hc1 x0 x1 x2 x3 x4 xo5).1 S4096x256.size (by sl_kernel_rfl) y

/-- What case B leaves in output 5's staging buffer: its pieces read back over junk. -/
def out11_B_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : ¬cond11_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO11_5.read (Elt F) (VO11_5.writes (Elt F) VO11_5.junk (kernelRun11_B c i arg1 harg1 arg2 harg2 arg3 harg3 arg4 harg4 arg5 harg5 arg6 harg6 hc0 hc1 x0 x1 x2 x3 x4 xo5).1)

/-- Case C's pieces for output 5 tile its block, so they cover it. -/
theorem cover11_C_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) (y : S4096x256.Idx) :
    ∃ pc ∈ (kernelRun11_C c i arg1 harg1 arg2 harg2 arg3 harg3 arg4 harg4 arg5 harg5 arg6 harg6 hc0 hc1 x0 x1 x2 x3 x4 xo5).1, y ∈ pc.1.set :=
  View.cover_of_tiledL (kernelRun11_C c i arg1 harg1 arg2 harg2 arg3 harg3 arg4 harg4 arg5 harg5 arg6 harg6 hc0 hc1 x0 x1 x2 x3 x4 xo5).1 S4096x256.size (by sl_kernel_rfl) y

/-- What case C leaves in output 5's staging buffer: its pieces read back over junk. -/
def out11_C_5 (c : Dev nD) (i : grid11.Coords) (arg1 : Memref sig .tc .vmem S4096x512 .bf16) (harg1 : arg1.IsWhole) (arg2 : Memref sig .tc .vmem S512x256 .f32) (harg2 : arg2.IsWhole) (arg3 : Memref sig .tc .vmem S512x1 .f32) (harg3 : arg3.IsWhole) (arg4 : Memref sig .tc .vmem S4096x1 .f32) (harg4 : arg4.IsWhole) (arg5 : Memref sig .tc .vmem S4096x256 .f32) (harg5 : arg5.IsWhole) (arg6 : Memref sig .tc .vmem S4096x256 .f32) (harg6 : arg6.IsWhole) (hc0 : ¬cond11_0 i) (hc1 : cond11_1 i)
    (x0 : Vec F S4096x512 .bf16) (x1 : Vec F S512x256 .f32) (x2 : Vec F S512x1 .f32) (x3 : Vec F S4096x1 .f32) (x4 : Vec F S4096x256 .f32) (xo5 : Vec F S4096x256 .f32) : Vec F S4096x256 .f32 :=
  VO11_5.read (Elt F) (VO11_5.writes (Elt F) VO11_5.junk (kernelRun11_C c i arg1 harg1 arg2 harg2 arg3 harg3 arg4 harg4 arg5 harg5 arg6 harg6 hc0 hc1 x0 x1 x2 x3 x4 xo5).1)

section Regions
variable (V : (c : Dev nD) → (b : Ref sig .tc) → Buf (Elt F) ((c : Thread nD τ).loc b))

/-! ## What the output holds after each point -/

/-- THE ACCUMULATION. What output 5's staging buffer holds after the body at position `n`: the case the closed forms select
    at `n`, run at the point's memrefs and input blocks, over what this leaves at `n - 1` (the buffer is not written
    back between). -/
def outsAt11 (c : Dev nD) : (n : ℕ) → n < cfg11.N → Vec F S4096x256 .f32
  | 0, hn => out11_A_5 c (grid11.coords ⟨0, hn⟩) (ms11_0 ⟨0, hn⟩) (hs11_0 ⟨0, hn⟩) (ms11_1 ⟨0, hn⟩) (hs11_1 ⟨0, hn⟩) (ms11_2 ⟨0, hn⟩) (hs11_2 ⟨0, hn⟩) (ms11_3 ⟨0, hn⟩) (hs11_3 ⟨0, hn⟩) (ms11_4 ⟨0, hn⟩) (hs11_4 ⟨0, hn⟩) (ms11_5 ⟨0, hn⟩) (hs11_5 ⟨0, hn⟩) ((hcond11_0 ⟨0, hn⟩).mpr (Nat.zero_mod _)) (fun h => absurd ((hcond11_1 ⟨0, hn⟩).mp h) (show ¬ (0 % 8 = 7) by decide)) (iblk11 V c 0 ⟨0, hn⟩) (iblk11 V c 1 ⟨0, hn⟩) (iblk11 V c 2 ⟨0, hn⟩) (iblk11 V c 3 ⟨0, hn⟩) (iblk11 V c 4 ⟨0, hn⟩)
  | n + 1, hn =>
    if h1 : (n + 1) % 8 = 7 then
      out11_C_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => succ_mod8_11 n hn ((hcond11_0 ⟨n + 1, hn⟩).mp h)) ((hcond11_1 ⟨n + 1, hn⟩).mpr h1) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (outsAt11 c n (Nat.lt_of_succ_lt hn))
    else
      out11_B_5 c (grid11.coords ⟨n + 1, hn⟩) (ms11_0 ⟨n + 1, hn⟩) (hs11_0 ⟨n + 1, hn⟩) (ms11_1 ⟨n + 1, hn⟩) (hs11_1 ⟨n + 1, hn⟩) (ms11_2 ⟨n + 1, hn⟩) (hs11_2 ⟨n + 1, hn⟩) (ms11_3 ⟨n + 1, hn⟩) (hs11_3 ⟨n + 1, hn⟩) (ms11_4 ⟨n + 1, hn⟩) (hs11_4 ⟨n + 1, hn⟩) (ms11_5 ⟨n + 1, hn⟩) (hs11_5 ⟨n + 1, hn⟩) (fun h => succ_mod8_11 n hn ((hcond11_0 ⟨n + 1, hn⟩).mp h)) (fun h => h1 ((hcond11_1 ⟨n + 1, hn⟩).mp h)) (iblk11 V c 0 ⟨n + 1, hn⟩) (iblk11 V c 1 ⟨n + 1, hn⟩) (iblk11 V c 2 ⟨n + 1, hn⟩) (iblk11 V c 3 ⟨n + 1, hn⟩) (iblk11 V c 4 ⟨n + 1, hn⟩) (outsAt11 c n (Nat.lt_of_succ_lt hn))

/-- `outsAt11` at the point of case A. -/
theorem outsAt11_A (c : Dev nD) (t : Fin cfg11.N) (h0 : t.val % 8 = 0) (h1 : ¬t.val % 8 = 7) :
    outsAt11 V c t.val t.isLt = out11_A_5 c (grid11.coords t) (ms11_0 t) (hs11_0 t) (ms11_1 t) (hs11_1 t) (ms11_2 t) (hs11_2 t) (ms11_3 t) (hs11_3 t) (ms11_4 t) (hs11_4 t) (ms11_5 t) (hs11_5 t) ((hcond11_0 t).mpr h0) (fun h => h1 ((hcond11_1 t).mp h)) (iblk11 V c 0 t) (iblk11 V c 1 t) (iblk11 V c 2 t) (iblk11 V c 3 t) (iblk11 V c 4 t) := by
  obtain ⟨n, hn⟩ := t
  cases n with
  | zero => exact rfl
  | succ n => exact absurd h0 (succ_mod8_11 n hn)

/-- `outsAt11` at a point of case B: that case's contents, over what the point before left. -/
theorem outsAt11_B (c : Dev nD) (t : Fin cfg11.N) (h0 : ¬t.val % 8 = 0) (h1 : ¬t.val % 8 = 7) :
    outsAt11 V c t.val t.isLt = out11_B_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) (fun h => h1 ((hcond11_1 t).mp h)) (iblk11 V c 0 t) (iblk11 V c 1 t) (iblk11 V c 2 t) (iblk11 V c 3 t) (iblk11 V c 4 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h1).trans rfl

/-- `outsAt11` at the point of case C: that case's contents, over what the point before left. -/
theorem outsAt11_C (c : Dev nD) (t : Fin cfg11.N) (h0 : ¬t.val % 8 = 0) (h1 : t.val % 8 = 7) :
    outsAt11 V c t.val t.isLt = out11_C_5 c (grid11.coords t) (ms11_0 t) (hs11_0 t) (ms11_1 t) (hs11_1 t) (ms11_2 t) (hs11_2 t) (ms11_3 t) (hs11_3 t) (ms11_4 t) (hs11_4 t) (ms11_5 t) (hs11_5 t) (fun h => h0 ((hcond11_0 t).mp h)) ((hcond11_1 t).mpr h1) (iblk11 V c 0 t) (iblk11 V c 1 t) (iblk11 V c 2 t) (iblk11 V c 3 t) (iblk11 V c 4 t) (outsAt11 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_pos h1).trans rfl

/-! ## The pipeline's proof data -/

/-- The proof data of this region's pipeline on core `c`: the arrays as the region finds them (`V`); after the body at point `t` each
    input's buffer at its block and the output's at `outsAt11`; the invariant the scoped rest and the generator register;
    nothing owed; windows 2 and 3, which read one array, hold it by the left and the right half of the full share,
    every other window its array at the full share. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => iblk11 V c 4 t
    | ⟨5, _⟩ => (outsAt11 V c t.val t.isLt)
  Φ _ := Pipeline.ΦA spec11 c
  q w := match w with
    | ⟨0, _⟩ => fullShare
    | ⟨1, _⟩ => fullShare
    | ⟨2, _⟩ => fullShare.left
    | ⟨3, _⟩ => fullShare.right
    | ⟨4, _⟩ => fullShare
    | ⟨5, _⟩ => fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) : (dat11 V c).after 4 t = iblk11 V c 4 t := by dsimp only [dat11]
theorem after11_5 (c : Dev nD) (t : Fin cfg11.N) : (dat11 V c).after 5 t = (outsAt11 V c t.val t.isLt) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d
theorem before11_4 (c : Dev nD) (t : Fin cfg11.N) (d) : (dat11 V c).before 4 t d = iblk11 V c 4 t :=
  before11_4_of V (dat11 V c) (A_eq11 V c 4) (after11_4 V c) t d

/-- At a point after the first, output 5's staging buffer holds what the body left at the point before: the buffer was
    not written back between, the window is live and uncut. -/
theorem before11_5_kept (c : Dev nD) (t : Fin cfg11.N) (h0 : ¬t.val % 8 = 0) (d) :
    (dat11 V c).before 5 t d = (outsAt11 V c (t.val - 1) (Nat.lt_of_le_of_lt (Nat.sub_le _ _) t.isLt)) := by
  have hN : t.val < 8 := lt_of_lt_of_eq t.isLt (show cfg11.N = 8 from N_11)
  rw [Dat.before_out_kept _ 5 rfl t (by omega) (Bool.eq_false_iff.mpr fun h => by have := (flush11_5 _).mp h; dsimp only at this; omega)
    (fun _ => rfl) (fun _ _ => rfl)]
  dsimp only [dat11]

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (ms11_0 t) fullShare ((dat11 V c).before 0 t d))
    ∗ (∃ d, owns (c : Thread nD τ) (ms11_1 t) fullShare ((dat11 V c).before 1 t d))
    ∗ (∃ d, owns (c : Thread nD τ) (ms11_2 t) fullShare ((dat11 V c).before 2 t d))
    ∗ (∃ d, owns (c : Thread nD τ) (ms11_3 t) fullShare ((dat11 V c).before 3 t d))
    ∗ (∃ d, owns (c : Thread nD τ) (ms11_4 t) fullShare ((dat11 V c).before 4 t d))
    ∗ (∃ d, owns (c : Thread nD τ) (ms11_5 t) fullShare ((dat11 V c).before 5 t d)))

/-- and what it returns. -/
def bodyPost11 (c : Dev nD) (t : Fin cfg11.N) : sProp 𝕄 :=
  iprop((dat11 V c).Φ t.succ ∗ (dat11 V c).owesAt () t.succ
    ∗ owns (c : Thread nD τ) (ms11_0 t) fullShare ((dat11 V c).after 0 t)
    ∗ owns (c : Thread nD τ) (ms11_1 t) fullShare ((dat11 V c).after 1 t)
    ∗ owns (c : Thread nD τ) (ms11_2 t) fullShare ((dat11 V c).after 2 t)
    ∗ owns (c : Thread nD τ) (ms11_3 t) fullShare ((dat11 V c).after 3 t)
    ∗ owns (c : Thread nD τ) (ms11_4 t) fullShare ((dat11 V c).after 4 t)
    ∗ owns (c : Thread nD τ) (ms11_5 t) fullShare ((dat11 V c).after 5 t))

set_option maxHeartbeats 1600000 in
/-- The body at any point: the inputs' memrefs hold their blocks; the closed forms say which case the point is in; after
    the first point the output's buffer holds what the point before left; so the case's run applies; the invariant
    passes through unread; the core owes nothing throughout. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3, before11_4]
  rw [show (dat11 V c).Φ t.succ = (dat11 V c).Φ t.castSucc from rfl,
    show (dat11 V c).owesAt () t.succ = (dat11 V c).owesAt () t.castSucc from rfl,
    after11_0, after11_1, after11_2, after11_3, after11_4, after11_5]
  have hN : t.val < 8 := lt_of_lt_of_eq t.isLt (show cfg11.N = 8 from N_11)
  by_cases h0 : t.val % 8 = 0
  · have h1 : ¬t.val % 8 = 7 := by omega
    rw [outsAt11_A V c t h0 h1]
    unfold out11_A_5
    iintro ⟨HΦ, Ho, ⟨%d0, H0⟩, ⟨%d1, H1⟩, ⟨%d2, H2⟩, ⟨%d3, H3⟩, ⟨%d4, H4⟩, ⟨%d5, H5⟩⟩
    iapply ((kernelRun11_A c (grid11.coords t) _ _ _ _ _ _ _ _ _ _ _ _ ((hcond11_0 t).mpr h0) (fun h => h1 ((hcond11_1 t).mp h)) (iblk11 V c 0 t) (iblk11 V c 1 t) (iblk11 V c 2 t) (iblk11 V c 3 t) (iblk11 V c 4 t)).2 Set.univ _)
    isplitl [H0]; · iexact H0
    isplitl [H1]; · iexact H1
    isplitl [H2]; · iexact H2
    isplitl [H3]; · iexact H3
    isplitl [H4]; · iexact H4
    isplitl [H5]; · iexists _; iexact H5
    iintro ⟨H0, H1, H2, H3, H4, ⟨%e5, H5⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro; exact View.read_writes_of_cover _ _ _ _ _ (cover11_A_5 c _ _ _ _ _ _ _ _ _ _ _ _ _ _ _ _ _ _ _ _)
  · by_cases h1 : t.val % 8 = 7
    · rw [outsAt11_C V c t h0 h1]
      simp only [before11_5_kept V c t h0]
      unfold out11_C_5
      iintro ⟨HΦ, Ho, ⟨%d0, H0⟩, ⟨%d1, H1⟩, ⟨%d2, H2⟩, ⟨%d3, H3⟩, ⟨%d4, H4⟩, ⟨%d5, H5⟩⟩
      iapply ((kernelRun11_C c (grid11.coords t) _ _ _ _ _ _ _ _ _ _ _ _ (fun h => h0 ((hcond11_0 t).mp h)) ((hcond11_1 t).mpr h1) (iblk11 V c 0 t) (iblk11 V c 1 t) (iblk11 V c 2 t) (iblk11 V c 3 t) (iblk11 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover11_C_5 c _ _ _ _ _ _ _ _ _ _ _ _ _ _ _ _ _ _ _ _ _)
    · rw [outsAt11_B V c t h0 h1]
      simp only [before11_5_kept V c t h0]
      unfold out11_B_5
      iintro ⟨HΦ, Ho, ⟨%d0, H0⟩, ⟨%d1, H1⟩, ⟨%d2, H2⟩, ⟨%d3, H3⟩, ⟨%d4, H4⟩, ⟨%d5, H5⟩⟩
      iapply ((kernelRun11_B c (grid11.coords t) _ _ _ _ _ _ _ _ _ _ _ _ (fun h => h0 ((hcond11_0 t).mp h)) (fun h => h1 ((hcond11_1 t).mp h)) (iblk11 V c 0 t) (iblk11 V c 1 t) (iblk11 V c 2 t) (iblk11 V c 3 t) (iblk11 V c 4 t) _).2 Set.univ _)
      isplitl [H0]; · iexact H0
      isplitl [H1]; · iexact H1
      isplitl [H2]; · iexact H2
      isplitl [H3]; · iexact H3
      isplitl [H4]; · iexact H4
      isplitl [H5]; · iexact H5
      iintro ⟨H0, H1, H2, H3, H4, ⟨%e5, H5⟩⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (cover11_B_5 c _ _ _ _ _ _ _ _ _ _ _ _ _ _ _ _ _ _ _ _ _)

/-- The library's body obligation, at every point. -/
theorem body_obligation11 (c : Dev nD) : BodyObligation (dat11 (F := F) V c) (defs₀ (F := F)) Variants.none () Set.univ := fun t => by
  rw [bigSep_W11, bigSep_W11]
  exact sound_body11 V c t

end Regions

end Cert.KernelIdeal.Reg

end
-- ==== Proof.Reg12Body.lean ====
/-
  The candidate region of the second layer (kernel region 12 of @main, counting from 0) at a parameter `V`, the buffers'
  contents when the region is entered.

  Eight grid points; point `t` handles rows 4096·t … 4096·t+4095. The body reads three [4096, 32] blocks of
  diffusion terms, the [3, 32, 16] weight stack and the [1, 16] bias row (single blocks, fetched once), the [4096, 16]
  blocks of the update gate u and of the hidden state h, and writes one [4096, 16] block: u ⊙ h + (1 − u) ⊙ tanh of
  the pre-activation. One store through the whole-block rectangle; nothing carried between points.
-/
import proofs.«172830_g53506702573898_cont_9to1_m_1152_4_alg».proof.Proof.Gen.KernelIdeal.Launch
import proofs.«172830_g53506702573898_cont_9to1_m_1152_4_alg».proof.Proof.Gen.KernelIdeal.Skeleton
import proofs.«172830_g53506702573898_cont_9to1_m_1152_4_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12

variable (V : (c : Dev nD) → (b : Ref sig .tc) → Buf (Elt F) ((c : Thread nD τ).loc b))

/-- Window `w`'s block at point `t`, read off its array as the region finds it. -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_x : Rect S4096x32 := Rect.unit (s := S4096x32) ![0, 0] S4096x32.size inb_S4096x32_S4096x32_0_0
abbrev r12_h : Rect S4096x16 := Rect.unit (s := S4096x16) ![0, 0] S4096x16.size inb_S4096x16_S4096x16_0_0
abbrev r12_b : Rect S1x16 := Rect.unit (s := S1x16) ![0, 0] S1x16.size inb_S1x16_S1x16_0_0
abbrev r12_w0 : Rect S3x32x16 := Rect.unit (s := S3x32x16) ![0, 0, 0] S1x32x16.size inb_S3x32x16_S1x32x16_0_0_0
abbrev r12_w1 : Rect S3x32x16 := Rect.unit (s := S3x32x16) ![1, 0, 0] S1x32x16.size inb_S3x32x16_S1x32x16_1_0_0
abbrev r12_w2 : Rect S3x32x16 := Rect.unit (s := S3x32x16) ![2, 0, 0] S1x32x16.size inb_S3x32x16_S1x32x16_2_0_0

/-- The output's buffer after the body: u ⊙ h + (1 − u) ⊙ tanh (bias + three products). -/
def out12_7 (x0 x1 x2 : Vec F S4096x32 .f32) (x3 : Vec F S3x32x16 .f32) (x4 : Vec F S1x16 .f32) (x5 x6 : Vec F S4096x16 .f32) :
    Vec F S4096x16 .f32 :=
  View.canon [⟨r12_h, k12_pay1 (View.ld x4 r12_b) (View.ld x0 r12_x) (View.ld x3 r12_w0) (View.ld x1 r12_x) (View.ld x3 r12_w1)
    (View.ld x2 r12_x) (View.ld x3 r12_w2) (View.ld x5 r12_h) (View.ld x6 r12_h)⟩]

/-- One store through the whole-block rectangle covers the block. -/
theorem cover12_h (p0 : Vec F S4096x16 .f32) (y : S4096x16.Idx) :
    ∃ pc ∈ ([⟨r12_h, p0⟩] : List (View.Piece (Elt F) S4096x16 .f32)), y ∈ pc.1.set :=
  View.cover_of_tiled [⟨r12_h, p0⟩] S4096x16.size (by rfl) y

set_option maxHeartbeats 4000000 in
/-- The body on whole staging memrefs — the inputs' at read contents, the output's at anything — runs to the
    continuation holding the inputs' as they were and the output's at its canonical contents. -/
theorem sound_kernel12 (c : Dev nD) (E : Set ℕ) (i : grid12.Coords)
    (arg1 : Memref sig .tc .vmem S4096x32 .f32) (harg1 : arg1.IsWhole) (arg2 : Memref sig .tc .vmem S4096x32 .f32) (harg2 : arg2.IsWhole)
    (arg3 : Memref sig .tc .vmem S4096x32 .f32) (harg3 : arg3.IsWhole) (arg4 : Memref sig .tc .vmem S3x32x16 .f32) (harg4 : arg4.IsWhole)
    (arg5 : Memref sig .tc .vmem S1x16 .f32) (harg5 : arg5.IsWhole) (arg6 : Memref sig .tc .vmem S4096x16 .f32) (harg6 : arg6.IsWhole)
    (arg7 : Memref sig .tc .vmem S4096x16 .f32) (harg7 : arg7.IsWhole) (arg8 : Memref sig .tc .vmem S4096x16 .f32) (harg8 : arg8.IsWhole)
    (x0 x1 x2 : Vec F S4096x32 .f32) (x3 : Vec F S3x32x16 .f32) (x4 : Vec F S1x16 .f32) (x5 x6 : Vec F S4096x16 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6
        ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6
            ∗ owns (c : Thread nD τ) arg8 fullShare (out12_7 x0 x1 x2 x3 x4 x5 x6)) -∗ K ⟨⟩))
      ⊢ wp frame (wpE (defs₀ (F := F)) Variants.none c none) E
          (cc12__cand_body i arg1 harg1 arg2 harg2 arg3 harg3 arg4 harg4 arg5 harg5 arg6 harg6 arg7 harg7 arg8 harg8) K := by
  simp only [cc12__cand_body_eq_skeleton]; unfold cc12__cand_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  isplitl [H6]; · iexists f6; isplitr; · ipureintro; rfl
                  iexact H6
  iexists _; isplitr
  swap; · iexact H7
  ipureintro
  exact View.read_writes_eq_canon _ _ _ (cover12_h _)

end Region12

end Cert.KernelIdeal.Reg
end
-- ==== Proof.Reg12Data.lean ====
/-
  The candidate region of the second layer: its proof data and body obligation at a parameter `V`.

  Each of the seven input windows (three blocks of diffusion terms, the weight stack, the bias row, the update gate's
  block, the hidden block) is only read, so its staging buffer holds its block of the array at every point whether or
  not the pipeline fetched it there; the output buffer is overwritten whole at every point. The body obligation at a
  point is then the body's triple at the point's blocks.
-/
import proofs.«172830_g53506702573898_cont_9to1_m_1152_4_alg».proof.Proof.Reg12Body

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region12

variable (V : (c : Dev nD) → (b : Ref sig .tc) → Buf (Elt F) ((c : Thread nD τ).loc b))

/-! ## Each input window's staging buffer holds its block at every point, fetched there or not -/

theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

theorem before12_4_of {c : Dev nD} (dat : Dat τ (Elt F) Unit ℕ (UR sig nD τ) ℕ cfg12 c) (hA : dat.A 4 = V c (Pipeline.arrRef spec12 4))
    (hafter : ∀ t, dat.after 4 t = iblk12 V c 4 t) (t : Fin cfg12.N) (d) : dat.before 4 t d = iblk12 V c 4 t :=
  (dat.before_in_eq_fetched 4 rfl (fun _ => rfl) (fun _ _ _ => rfl) (fun t => by rw [hafter]; unfold Dat.blockOf iblk12; rw [hA]; try rfl) t d).trans
    (by unfold Dat.fetched Dat.blockOf iblk12; rw [hA]; try rfl)

theorem before12_5_of {c : Dev nD} (dat : Dat τ (Elt F) Unit ℕ (UR sig nD τ) ℕ cfg12 c) (hA : dat.A 5 = V c (Pipeline.arrRef spec12 5))
    (hafter : ∀ t, dat.after 5 t = iblk12 V c 5 t) (t : Fin cfg12.N) (d) : dat.before 5 t d = iblk12 V c 5 t :=
  (dat.before_in_eq_fetched 5 rfl (fun _ => rfl) (fun _ _ _ => rfl) (fun t => by rw [hafter]; unfold Dat.blockOf iblk12; rw [hA]; try rfl) t d).trans
    (by unfold Dat.fetched Dat.blockOf iblk12; rw [hA]; try rfl)

theorem before12_6_of {c : Dev nD} (dat : Dat τ (Elt F) Unit ℕ (UR sig nD τ) ℕ cfg12 c) (hA : dat.A 6 = V c (Pipeline.arrRef spec12 6))
    (hafter : ∀ t, dat.after 6 t = iblk12 V c 6 t) (t : Fin cfg12.N) (d) : dat.before 6 t d = iblk12 V c 6 t :=
  (dat.before_in_eq_fetched 6 rfl (fun _ => rfl) (fun _ _ _ => rfl) (fun t => by rw [hafter]; unfold Dat.blockOf iblk12; rw [hA]; try rfl) t d).trans
    (by unfold Dat.fetched Dat.blockOf iblk12; rw [hA]; try rfl)

/-! ## The pipeline's proof data -/

/-- The proof data of this region on core `c`: the arrays as the region finds them; after the body at point `t` each
    input's buffer at its block and each output's at its canonical contents over the input blocks; the class
    invariant (the scoped rest and the generator register, untouched); nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => iblk12 V c 4 t
    | ⟨5, _⟩ => iblk12 V c 5 t
    | ⟨6, _⟩ => iblk12 V c 6 t
    | ⟨7, _⟩ => out12_7 (iblk12 V c 0 t) (iblk12 V c 1 t) (iblk12 V c 2 t) (iblk12 V c 3 t) (iblk12 V c 4 t) (iblk12 V c 5 t) (iblk12 V c 6 t)
  Φ _ := Pipeline.ΦA spec12 c
  q _ := fullShare
  owed _ := 0

theorem A_eq12 (c : Dev nD) (w : Fin cfg12.W) : (dat12 V c).A w = V c (Pipeline.arrRef spec12 w) := by
  dsimp only [dat12]

theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) : (dat12 V c).after 4 t = iblk12 V c 4 t := by dsimp only [dat12]
theorem after12_5 (c : Dev nD) (t : Fin cfg12.N) : (dat12 V c).after 5 t = iblk12 V c 5 t := by dsimp only [dat12]
theorem after12_6 (c : Dev nD) (t : Fin cfg12.N) : (dat12 V c).after 6 t = iblk12 V c 6 t := by dsimp only [dat12]
theorem after12_7 (c : Dev nD) (t : Fin cfg12.N) : (dat12 V c).after 7 t = out12_7 (iblk12 V c 0 t) (iblk12 V c 1 t) (iblk12 V c 2 t) (iblk12 V c 3 t) (iblk12 V c 4 t) (iblk12 V c 5 t) (iblk12 V c 6 t) := by dsimp only [dat12]

theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d
theorem before12_4 (c : Dev nD) (t : Fin cfg12.N) (d) : (dat12 V c).before 4 t d = iblk12 V c 4 t :=
  before12_4_of V (dat12 V c) (A_eq12 V c 4) (after12_4 V c) t d
theorem before12_5 (c : Dev nD) (t : Fin cfg12.N) (d) : (dat12 V c).before 5 t d = iblk12 V c 5 t :=
  before12_5_of V (dat12 V c) (A_eq12 V c 5) (after12_5 V c) t d
theorem before12_6 (c : Dev nD) (t : Fin cfg12.N) (d) : (dat12 V c).before 6 t d = iblk12 V c 6 t :=
  before12_6_of V (dat12 V c) (A_eq12 V c 6) (after12_6 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d))
    ∗ (∃ d, owns (c : Thread nD τ) (st12_5 t) fullShare ((dat12 V c).before 5 t d))
    ∗ (∃ d, owns (c : Thread nD τ) (st12_6 t) fullShare ((dat12 V c).before 6 t d))
    ∗ (∃ d, owns (c : Thread nD τ) (st12_7 t) fullShare ((dat12 V c).before 7 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t)
    ∗ owns (c : Thread nD τ) (st12_5 t) fullShare ((dat12 V c).after 5 t)
    ∗ owns (c : Thread nD τ) (st12_6 t) fullShare ((dat12 V c).after 6 t)
    ∗ owns (c : Thread nD τ) (st12_7 t) fullShare ((dat12 V c).after 7 t))

/-- The body at any point: the inputs' memrefs hold their blocks, so the body's triple applies; the invariant and the
    core's dues pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3, before12_4, before12_5, before12_6]
  rw [show (dat12 V c).Φ t.succ = (dat12 V c).Φ t.castSucc from rfl,
    show (dat12 V c).owesAt () t.succ = (dat12 V c).owesAt () t.castSucc from rfl,
    after12_0, after12_1, after12_2, after12_3, after12_4, after12_5, after12_6, after12_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel12 c Set.univ _ _ _ _ _ _ _ _ _ _ _ _ _ _ _ _ _ (iblk12 V c 0 t) (iblk12 V c 1 t) (iblk12 V c 2 t) (iblk12 V c 3 t) (iblk12 V c 4 t) (iblk12 V c 5 t) (iblk12 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation12 (c : Dev nD) : BodyObligation (dat12 (F := F) V c) (defs₀ (F := F)) Variants.none () Set.univ := fun t => by
  rw [bigSep_W12, bigSep_W12]
  exact sound_body12 V c t

end Region12

end Cert.KernelIdeal.Reg
end
-- ==== Proof.Fold.lean ====
/-
  The buffers' contents between the items of @main, as an explicit fold from the launch memory.

  @main is thirty items: thirteen kernel regions among seventeen stretches of host operations. After a host stretch
  every buffer holds what the stretch's operations leave (`StableHlo.after`); after a region each output window's
  array holds what the pipeline's write-backs leave of it (the proof data's `arrAt` at the last point) and every other
  buffer is as the region found it. Each region's proof data are taken at the contents the region is entered from.
  The fold is then matched with the generated valuations, which are written over unknown region outputs.
-/
import proofs.«172830_g53506702573898_cont_9to1_m_1152_4_alg».proof.Proof.Reg0Dat
import proofs.«172830_g53506702573898_cont_9to1_m_1152_4_alg».proof.Proof.Reg1Frame
import proofs.«172830_g53506702573898_cont_9to1_m_1152_4_alg».proof.Proof.Reg2Frame
import proofs.«172830_g53506702573898_cont_9to1_m_1152_4_alg».proof.Proof.Reg3Data
import proofs.«172830_g53506702573898_cont_9to1_m_1152_4_alg».proof.Proof.Reg4Frame
import proofs.«172830_g53506702573898_cont_9to1_m_1152_4_alg».proof.Proof.Reg5Frame
import proofs.«172830_g53506702573898_cont_9to1_m_1152_4_alg».proof.Proof.Reg6Data
import proofs.«172830_g53506702573898_cont_9to1_m_1152_4_alg».proof.Proof.Reg7Frame
import proofs.«172830_g53506702573898_cont_9to1_m_1152_4_alg».proof.Proof.Reg8Frame
import proofs.«172830_g53506702573898_cont_9to1_m_1152_4_alg».proof.Proof.Reg9Data
import proofs.«172830_g53506702573898_cont_9to1_m_1152_4_alg».proof.Proof.Reg10Frame
import proofs.«172830_g53506702573898_cont_9to1_m_1152_4_alg».proof.Proof.Reg11Frame
import proofs.«172830_g53506702573898_cont_9to1_m_1152_4_alg».proof.Proof.Reg12Data
import proofs.«172830_g53506702573898_cont_9to1_m_1152_4_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ)

/-- A valuation read at the TensorCore's references (what a region's proof data take). -/
abbrev tcv (W : Dev nD → Valuation τ sig (Elt F)) : (c : Dev nD) → (b : Ref sig .tc) → Buf (Elt F) ((c : Thread nD τ).loc b) :=
  fun c b => W c b

/-- Core `c`'s buffers at launch. -/
abbrev W0 (c : Dev nD) : Valuation τ sig (Elt F) := fun b => m (c, b)
/-- After kernel region 0: its output arrays at what the write-backs leave. -/
def W1 (c : Dev nD) : Valuation τ sig (Elt F) :=
  Function.update (Function.update (W0 m c) main_v0_0 ((dat0 (tcv (W0 m)) c).arrAt 2 cfg0.N)) main_v0_1 ((dat0 (tcv (W0 m)) c).arrAt 3 cfg0.N)
/-- After the host stretch `hostOps1`. -/
abbrev W2 (c : Dev nD) : Valuation τ sig (Elt F) := StableHlo.after hostOps1 (W1 m c)
/-- After the host stretch `hostOps1_1`. -/
abbrev W3 (c : Dev nD) : Valuation τ sig (Elt F) := StableHlo.after hostOps1_1 (W2 m c)
/-- After the host stretch `hostOps1_2`. -/
abbrev W4 (c : Dev nD) : Valuation τ sig (Elt F) := StableHlo.after hostOps1_2 (W3 m c)
/-- After the host stretch `hostOps1_3`. -/
abbrev W5 (c : Dev nD) : Valuation τ sig (Elt F) := StableHlo.after hostOps1_3 (W4 m c)
/-- After the host stretch `hostOps1_4`. -/
abbrev W6 (c : Dev nD) : Valuation τ sig (Elt F) := StableHlo.after hostOps1_4 (W5 m c)
/-- After kernel region 1: its output array at what the write-backs leave. -/
def W7 (c : Dev nD) : Valuation τ sig (Elt F) :=
  Function.update (W6 m c) main_v24 ((dat1 (tcv (W6 m)) c).arrAt 5 cfg1.N)
/-- After kernel region 2: its output array at what the write-backs leave. -/
def W8 (c : Dev nD) : Valuation τ sig (Elt F) :=
  Function.update (W7 m c) main_v25 ((dat2 (tcv (W7 m)) c).arrAt 5 cfg2.N)
/-- After the host stretch `hostOps3`. -/
abbrev W9 (c : Dev nD) : Valuation τ sig (Elt F) := StableHlo.after hostOps3 (W8 m c)
/-- After kernel region 3: its output arrays at what the write-backs leave. -/
def W10 (c : Dev nD) : Valuation τ sig (Elt F) :=
  Function.update (Function.update (W9 m c) main_v29_0 ((dat3 (tcv (W9 m)) c).arrAt 8 cfg3.N)) main_v29_1 ((dat3 (tcv (W9 m)) c).arrAt 9 cfg3.N)
/-- After the host stretch `hostOps4`. -/
abbrev W11 (c : Dev nD) : Valuation τ sig (Elt F) := StableHlo.after hostOps4 (W10 m c)
/-- After kernel region 4: its output array at what the write-backs leave. -/
def W12 (c : Dev nD) : Valuation τ sig (Elt F) :=
  Function.update (W11 m c) main_v34 ((dat4 (tcv (W11 m)) c).arrAt 5 cfg4.N)
/-- After kernel region 5: its output array at what the write-backs leave. -/
def W13 (c : Dev nD) : Valuation τ sig (Elt F) :=
  Function.update (W12 m c) main_v35 ((dat5 (tcv (W12 m)) c).arrAt 5 cfg5.N)
/-- After the host stretch `hostOps6`. -/
abbrev W14 (c : Dev nD) : Valuation τ sig (Elt F) := StableHlo.after hostOps6 (W13 m c)
/-- After kernel region 6: its output array at what the write-backs leave. -/
def W15 (c : Dev nD) : Valuation τ sig (Elt F) :=
  Function.update (W14 m c) main_v39 ((dat6 (tcv (W14 m)) c).arrAt 7 cfg6.N)
/-- After the host stretch `hostOps7`. -/
abbrev W16 (c : Dev nD) : Valuation τ sig (Elt F) := StableHlo.after hostOps7 (W15 m c)
/-- After the host stretch `hostOps7_1`. -/
abbrev W17 (c : Dev nD) : Valuation τ sig (Elt F) := StableHlo.after hostOps7_1 (W16 m c)
/-- After the host stretch `hostOps7_2`. -/
abbrev W18 (c : Dev nD) : Valuation τ sig (Elt F) := StableHlo.after hostOps7_2 (W17 m c)
/-- After the host stretch `hostOps7_3`. -/
abbrev W19 (c : Dev nD) : Valuation τ sig (Elt F) := StableHlo.after hostOps7_3 (W18 m c)
/-- After the host stretch `hostOps7_4`. -/
abbrev W20 (c : Dev nD) : Valuation τ sig (Elt F) := StableHlo.after hostOps7_4 (W19 m c)
/-- After kernel region 7: its output array at what the write-backs leave. -/
def W21 (c : Dev nD) : Valuation τ sig (Elt F) :=
  Function.update (W20 m c) main_v64 ((dat7 (tcv (W20 m)) c).arrAt 5 cfg7.N)
/-- After kernel region 8: its output array at what the write-backs leave. -/
def W22 (c : Dev nD) : Valuation τ sig (Elt F) :=
  Function.update (W21 m c) main_v65 ((dat8 (tcv (W21 m)) c).arrAt 5 cfg8.N)
/-- After the host stretch `hostOps9`. -/
abbrev W23 (c : Dev nD) : Valuation τ sig (Elt F) := StableHlo.after hostOps9 (W22 m c)
/-- After kernel region 9: its output arrays at what the write-backs leave. -/
def W24 (c : Dev nD) : Valuation τ sig (Elt F) :=
  Function.update (Function.update (W23 m c) main_v69_0 ((dat9 (tcv (W23 m)) c).arrAt 8 cfg9.N)) main_v69_1 ((dat9 (tcv (W23 m)) c).arrAt 9 cfg9.N)
/-- After the host stretch `hostOps10`. -/
abbrev W25 (c : Dev nD) : Valuation τ sig (Elt F) := StableHlo.after hostOps10 (W24 m c)
/-- After kernel region 10: its output array at what the write-backs leave. -/
def W26 (c : Dev nD) : Valuation τ sig (Elt F) :=
  Function.update (W25 m c) main_v74 ((dat10 (tcv (W25 m)) c).arrAt 5 cfg10.N)
/-- After kernel region 11: its output array at what the write-backs leave. -/
def W27 (c : Dev nD) : Valuation τ sig (Elt F) :=
  Function.update (W26 m c) main_v75 ((dat11 (tcv (W26 m)) c).arrAt 5 cfg11.N)
/-- After the host stretch `hostOps12`. -/
abbrev W28 (c : Dev nD) : Valuation τ sig (Elt F) := StableHlo.after hostOps12 (W27 m c)
/-- After kernel region 12: its output array at what the write-backs leave. -/
def W29 (c : Dev nD) : Valuation τ sig (Elt F) :=
  Function.update (W28 m c) main_v79 ((dat12 (tcv (W28 m)) c).arrAt 7 cfg12.N)
/-- After the host stretch `hostOps13`. -/
abbrev W30 (c : Dev nD) : Valuation τ sig (Elt F) := StableHlo.after hostOps13 (W29 m c)

/-- What each region leaves in the buffers it may change, read off the fold. -/
def outs : Outs (F := F) := fun J r c => match J with
  | 1 => W1 m c r
  | 7 => W7 m c r
  | 8 => W8 m c r
  | 10 => W10 m c r
  | 12 => W12 m c r
  | 13 => W13 m c r
  | 15 => W15 m c r
  | 21 => W21 m c r
  | 22 => W22 m c r
  | 24 => W24 m c r
  | 26 => W26 m c r
  | 27 => W27 m c r
  | 29 => W29 m c r
  | _ => W0 m c r

/-! ## The generated valuations, at these outputs, are the fold -/
theorem V1_eq (c : Dev nD) : Gen.V1 m (outs m) c = W1 m c := by
  show Function.update (Function.update (Gen.V0 m c) main_v0_0 (W1 m c main_v0_0)) main_v0_1 (W1 m c main_v0_1) = _
  unfold W1; rw [Function.update_self, Function.update_of_ne (by decide), Function.update_self]
theorem V2_eq (c : Dev nD) : Gen.V2 m (outs m) c = W2 m c := by
  show StableHlo.after hostOps1 (Gen.V1 m (outs m) c) = _
  rw [V1_eq m c]
theorem V3_eq (c : Dev nD) : Gen.V3 m (outs m) c = W3 m c := by
  show StableHlo.after hostOps1_1 (Gen.V2 m (outs m) c) = _
  rw [V2_eq m c]
theorem V4_eq (c : Dev nD) : Gen.V4 m (outs m) c = W4 m c := by
  show StableHlo.after hostOps1_2 (Gen.V3 m (outs m) c) = _
  rw [V3_eq m c]
theorem V5_eq (c : Dev nD) : Gen.V5 m (outs m) c = W5 m c := by
  show StableHlo.after hostOps1_3 (Gen.V4 m (outs m) c) = _
  rw [V4_eq m c]
theorem V6_eq (c : Dev nD) : Gen.V6 m (outs m) c = W6 m c := by
  show StableHlo.after hostOps1_4 (Gen.V5 m (outs m) c) = _
  rw [V5_eq m c]
theorem V7_eq (c : Dev nD) : Gen.V7 m (outs m) c = W7 m c := by
  show Function.update (Gen.V6 m (outs m) c) main_v24 (W7 m c main_v24) = _
  rw [V6_eq m c]; unfold W7; rw [Function.update_self]
theorem V8_eq (c : Dev nD) : Gen.V8 m (outs m) c = W8 m c := by
  show Function.update (Gen.V7 m (outs m) c) main_v25 (W8 m c main_v25) = _
  rw [V7_eq m c]; unfold W8; rw [Function.update_self]
theorem V9_eq (c : Dev nD) : Gen.V9 m (outs m) c = W9 m c := by
  show StableHlo.after hostOps3 (Gen.V8 m (outs m) c) = _
  rw [V8_eq m c]
theorem V10_eq (c : Dev nD) : Gen.V10 m (outs m) c = W10 m c := by
  show Function.update (Function.update (Gen.V9 m (outs m) c) main_v29_0 (W10 m c main_v29_0)) main_v29_1 (W10 m c main_v29_1) = _
  rw [V9_eq m c]; unfold W10; rw [Function.update_self, Function.update_of_ne (by decide), Function.update_self]
theorem V11_eq (c : Dev nD) : Gen.V11 m (outs m) c = W11 m c := by
  show StableHlo.after hostOps4 (Gen.V10 m (outs m) c) = _
  rw [V10_eq m c]
theorem V12_eq (c : Dev nD) : Gen.V12 m (outs m) c = W12 m c := by
  show Function.update (Gen.V11 m (outs m) c) main_v34 (W12 m c main_v34) = _
  rw [V11_eq m c]; unfold W12; rw [Function.update_self]
theorem V13_eq (c : Dev nD) : Gen.V13 m (outs m) c = W13 m c := by
  show Function.update (Gen.V12 m (outs m) c) main_v35 (W13 m c main_v35) = _
  rw [V12_eq m c]; unfold W13; rw [Function.update_self]
theorem V14_eq (c : Dev nD) : Gen.V14 m (outs m) c = W14 m c := by
  show StableHlo.after hostOps6 (Gen.V13 m (outs m) c) = _
  rw [V13_eq m c]
theorem V15_eq (c : Dev nD) : Gen.V15 m (outs m) c = W15 m c := by
  show Function.update (Gen.V14 m (outs m) c) main_v39 (W15 m c main_v39) = _
  rw [V14_eq m c]; unfold W15; rw [Function.update_self]
theorem V16_eq (c : Dev nD) : Gen.V16 m (outs m) c = W16 m c := by
  show StableHlo.after hostOps7 (Gen.V15 m (outs m) c) = _
  rw [V15_eq m c]
theorem V17_eq (c : Dev nD) : Gen.V17 m (outs m) c = W17 m c := by
  show StableHlo.after hostOps7_1 (Gen.V16 m (outs m) c) = _
  rw [V16_eq m c]
theorem V18_eq (c : Dev nD) : Gen.V18 m (outs m) c = W18 m c := by
  show StableHlo.after hostOps7_2 (Gen.V17 m (outs m) c) = _
  rw [V17_eq m c]
theorem V19_eq (c : Dev nD) : Gen.V19 m (outs m) c = W19 m c := by
  show StableHlo.after hostOps7_3 (Gen.V18 m (outs m) c) = _
  rw [V18_eq m c]
theorem V20_eq (c : Dev nD) : Gen.V20 m (outs m) c = W20 m c := by
  show StableHlo.after hostOps7_4 (Gen.V19 m (outs m) c) = _
  rw [V19_eq m c]
theorem V21_eq (c : Dev nD) : Gen.V21 m (outs m) c = W21 m c := by
  show Function.update (Gen.V20 m (outs m) c) main_v64 (W21 m c main_v64) = _
  rw [V20_eq m c]; unfold W21; rw [Function.update_self]
theorem V22_eq (c : Dev nD) : Gen.V22 m (outs m) c = W22 m c := by
  show Function.update (Gen.V21 m (outs m) c) main_v65 (W22 m c main_v65) = _
  rw [V21_eq m c]; unfold W22; rw [Function.update_self]
theorem V23_eq (c : Dev nD) : Gen.V23 m (outs m) c = W23 m c := by
  show StableHlo.after hostOps9 (Gen.V22 m (outs m) c) = _
  rw [V22_eq m c]
theorem V24_eq (c : Dev nD) : Gen.V24 m (outs m) c = W24 m c := by
  show Function.update (Function.update (Gen.V23 m (outs m) c) main_v69_0 (W24 m c main_v69_0)) main_v69_1 (W24 m c main_v69_1) = _
  rw [V23_eq m c]; unfold W24; rw [Function.update_self, Function.update_of_ne (by decide), Function.update_self]
theorem V25_eq (c : Dev nD) : Gen.V25 m (outs m) c = W25 m c := by
  show StableHlo.after hostOps10 (Gen.V24 m (outs m) c) = _
  rw [V24_eq m c]
theorem V26_eq (c : Dev nD) : Gen.V26 m (outs m) c = W26 m c := by
  show Function.update (Gen.V25 m (outs m) c) main_v74 (W26 m c main_v74) = _
  rw [V25_eq m c]; unfold W26; rw [Function.update_self]
theorem V27_eq (c : Dev nD) : Gen.V27 m (outs m) c = W27 m c := by
  show Function.update (Gen.V26 m (outs m) c) main_v75 (W27 m c main_v75) = _
  rw [V26_eq m c]; unfold W27; rw [Function.update_self]
theorem V28_eq (c : Dev nD) : Gen.V28 m (outs m) c = W28 m c := by
  show StableHlo.after hostOps12 (Gen.V27 m (outs m) c) = _
  rw [V27_eq m c]
theorem V29_eq (c : Dev nD) : Gen.V29 m (outs m) c = W29 m c := by
  show Function.update (Gen.V28 m (outs m) c) main_v79 (W29 m c main_v79) = _
  rw [V28_eq m c]; unfold W29; rw [Function.update_self]
theorem V30_eq (c : Dev nD) : Gen.V30 m (outs m) c = W30 m c := by
  show StableHlo.after hostOps13 (Gen.V29 m (outs m) c) = _
  rw [V29_eq m c]

/-! ## The proof data family and what rides beside the buffers -/

local notation "𝕄" => MT nD τ sig Unit (Elt F) ℕ (UR sig nD τ) ℕ

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at nothing. -/
abbrev R (c : Dev nD) : sProp 𝕄 := iprop((∃ r, prngReg c r) ∗ ∃ W, owes (c : Thread nD τ) (0 : CellTallies nD τ sig Unit) W)

/-- Every pipeline's proof data, each at the contents its region is entered from. -/
def pdats : (p : Fin 13) → (c : Dev nD) → Dat τ (Elt F) Unit ℕ (UR sig nD τ) ℕ (Pipeline.pin (pcfgs (F := F)) adm p) c
  | ⟨0, _⟩ => fun c => dat0 (tcv (W0 m)) c
  | ⟨1, _⟩ => fun c => dat1 (tcv (W6 m)) c
  | ⟨2, _⟩ => fun c => dat2 (tcv (W7 m)) c
  | ⟨3, _⟩ => fun c => dat3 (tcv (W9 m)) c
  | ⟨4, _⟩ => fun c => dat4 (tcv (W11 m)) c
  | ⟨5, _⟩ => fun c => dat5 (tcv (W12 m)) c
  | ⟨6, _⟩ => fun c => dat6 (tcv (W14 m)) c
  | ⟨7, _⟩ => fun c => dat7 (tcv (W20 m)) c
  | ⟨8, _⟩ => fun c => dat8 (tcv (W21 m)) c
  | ⟨9, _⟩ => fun c => dat9 (tcv (W23 m)) c
  | ⟨10, _⟩ => fun c => dat10 (tcv (W25 m)) c
  | ⟨11, _⟩ => fun c => dat11 (tcv (W26 m)) c
  | ⟨12, _⟩ => fun c => dat12 (tcv (W28 m)) c

/-! ## At a region's exit each of its arrays holds what the pipeline leaves, every other buffer what it held at entry -/

set_option maxHeartbeats 1000000

theorem hF0 (c : Dev nD) : ∀ w : Fin cfg0.W, (dat0 (tcv (W0 m)) c).arrAt w cfg0.N = tcv (W1 m) c (Pipeline.arrRef spec0 w) := fun
  | ⟨0, _⟩ => ((dat0 (tcv (W0 m)) c).arrAt_in 0 rfl _).trans ((A_eq0 (tcv (W0 m)) c 0).trans (by
      show W0 m c (Proc.devRef .tc main_arg2) = W1 m c (Proc.devRef .tc main_arg2); unfold W1; rw [Function.update_of_ne (StableHlo.devRef_ne_of_ne (by decide)), Function.update_of_ne (StableHlo.devRef_ne_of_ne (by decide))]))
  | ⟨1, _⟩ => ((dat0 (tcv (W0 m)) c).arrAt_in 1 rfl _).trans ((A_eq0 (tcv (W0 m)) c 1).trans (by
      show W0 m c (Proc.devRef .tc main_arg2) = W1 m c (Proc.devRef .tc main_arg2); unfold W1; rw [Function.update_of_ne (StableHlo.devRef_ne_of_ne (by decide)), Function.update_of_ne (StableHlo.devRef_ne_of_ne (by decide))]))
  | ⟨2, _⟩ => by
      show _ = W1 m c (Proc.devRef .tc main_v0_0); unfold W1; rw [Function.update_of_ne (StableHlo.devRef_ne_of_ne (by decide)), Function.update_self]; rfl
  | ⟨3, _⟩ => by
      show _ = W1 m c (Proc.devRef .tc main_v0_1); unfold W1; rw [Function.update_self]; rfl

theorem hrest0 (c : Dev nD) : ∀ b, b ∉ Finset.univ.image (Pipeline.arrRef spec0) → tcv (W1 m) c b = tcv (W0 m) c b := fun b hb => by
  have hne : ∀ w, b ≠ Pipeline.arrRef spec0 w := fun w e => hb (Finset.mem_image.mpr ⟨w, Finset.mem_univ _, e.symm⟩)
  show W1 m c (Proc.devRef .tc b) = W0 m c (Proc.devRef .tc b); unfold W1
  rw [Function.update_of_ne (StableHlo.devRef_ne_of_ne (show b ≠ main_v0_1 from hne 3)), Function.update_of_ne (StableHlo.devRef_ne_of_ne (show b ≠ main_v0_0 from hne 2))]

theorem hF1 (c : Dev nD) : ∀ w : Fin cfg1.W, (dat1 (tcv (W6 m)) c).arrAt w cfg1.N = tcv (W7 m) c (Pipeline.arrRef spec1 w) := fun
  | ⟨0, _⟩ => ((dat1 (tcv (W6 m)) c).arrAt_in 0 rfl _).trans ((A_eq1 (tcv (W6 m)) c 0).trans (by
      show W6 m c (Proc.devRef .tc main_v0_0) = W7 m c (Proc.devRef .tc main_v0_0); unfold W7; rw [Function.update_of_ne (StableHlo.devRef_ne_of_ne (by decide))]))
  | ⟨1, _⟩ => ((dat1 (tcv (W6 m)) c).arrAt_in 1 rfl _).trans ((A_eq1 (tcv (W6 m)) c 1).trans (by
      show W6 m c (Proc.devRef .tc main_v23) = W7 m c (Proc.devRef .tc main_v23); unfold W7; rw [Function.update_of_ne (StableHlo.devRef_ne_of_ne (by decide))]))
  | ⟨2, _⟩ => ((dat1 (tcv (W6 m)) c).arrAt_in 2 rfl _).trans ((A_eq1 (tcv (W6 m)) c 2).trans (by
      show W6 m c (Proc.devRef .tc main_v0_1) = W7 m c (Proc.devRef .tc main_v0_1); unfold W7; rw [Function.update_of_ne (StableHlo.devRef_ne_of_ne (by decide))]))
  | ⟨3, _⟩ => ((dat1 (tcv (W6 m)) c).arrAt_in 3 rfl _).trans ((A_eq1 (tcv (W6 m)) c 3).trans (by
      show W6 m c (Proc.devRef .tc main_v0_1) = W7 m c (Proc.devRef .tc main_v0_1); unfold W7; rw [Function.update_of_ne (StableHlo.devRef_ne_of_ne (by decide))]))
  | ⟨4, _⟩ => ((dat1 (tcv (W6 m)) c).arrAt_in 4 rfl _).trans ((A_eq1 (tcv (W6 m)) c 4).trans (by
      show W6 m c (Proc.devRef .tc main_v23) = W7 m c (Proc.devRef .tc main_v23); unfold W7; rw [Function.update_of_ne (StableHlo.devRef_ne_of_ne (by decide))]))
  | ⟨5, _⟩ => by
      show _ = W7 m c (Proc.devRef .tc main_v24); unfold W7; rw [Function.update_self]; rfl

theorem hrest1 (c : Dev nD) : ∀ b, b ∉ Finset.univ.image (Pipeline.arrRef spec1) → tcv (W7 m) c b = tcv (W6 m) c b := fun b hb => by
  have hne : ∀ w, b ≠ Pipeline.arrRef spec1 w := fun w e => hb (Finset.mem_image.mpr ⟨w, Finset.mem_univ _, e.symm⟩)
  show W7 m c (Proc.devRef .tc b) = W6 m c (Proc.devRef .tc b); unfold W7
  rw [Function.update_of_ne (StableHlo.devRef_ne_of_ne (show b ≠ main_v24 from hne 5))]

theorem hF2 (c : Dev nD) : ∀ w : Fin cfg2.W, (dat2 (tcv (W7 m)) c).arrAt w cfg2.N = tcv (W8 m) c (Pipeline.arrRef spec2 w) := fun
  | ⟨0, _⟩ => ((dat2 (tcv (W7 m)) c).arrAt_in 0 rfl _).trans ((A_eq2 (tcv (W7 m)) c 0).trans (by
      show W7 m c (Proc.devRef .tc main_v0_0) = W8 m c (Proc.devRef .tc main_v0_0); unfold W8; rw [Function.update_of_ne (StableHlo.devRef_ne_of_ne (by decide))]))
  | ⟨1, _⟩ => ((dat2 (tcv (W7 m)) c).arrAt_in 1 rfl _).trans ((A_eq2 (tcv (W7 m)) c 1).trans (by
      show W7 m c (Proc.devRef .tc main_v24) = W8 m c (Proc.devRef .tc main_v24); unfold W8; rw [Function.update_of_ne (StableHlo.devRef_ne_of_ne (by decide))]))
  | ⟨2, _⟩ => ((dat2 (tcv (W7 m)) c).arrAt_in 2 rfl _).trans ((A_eq2 (tcv (W7 m)) c 2).trans (by
      show W7 m c (Proc.devRef .tc main_v0_1) = W8 m c (Proc.devRef .tc main_v0_1); unfold W8; rw [Function.update_of_ne (StableHlo.devRef_ne_of_ne (by decide))]))
  | ⟨3, _⟩ => ((dat2 (tcv (W7 m)) c).arrAt_in 3 rfl _).trans ((A_eq2 (tcv (W7 m)) c 3).trans (by
      show W7 m c (Proc.devRef .tc main_v0_1) = W8 m c (Proc.devRef .tc main_v0_1); unfold W8; rw [Function.update_of_ne (StableHlo.devRef_ne_of_ne (by decide))]))
  | ⟨4, _⟩ => ((dat2 (tcv (W7 m)) c).arrAt_in 4 rfl _).trans ((A_eq2 (tcv (W7 m)) c 4).trans (by
      show W7 m c (Proc.devRef .tc main_v23) = W8 m c (Proc.devRef .tc main_v23); unfold W8; rw [Function.update_of_ne (StableHlo.devRef_ne_of_ne (by decide))]))
  | ⟨5, _⟩ => by
      show _ = W8 m c (Proc.devRef .tc main_v25); unfold W8; rw [Function.update_self]; rfl

theorem hrest2 (c : Dev nD) : ∀ b, b ∉ Finset.univ.image (Pipeline.arrRef spec2) → tcv (W8 m) c b = tcv (W7 m) c b := fun b hb => by
  have hne : ∀ w, b ≠ Pipeline.arrRef spec2 w := fun w e => hb (Finset.mem_image.mpr ⟨w, Finset.mem_univ _, e.symm⟩)
  show W8 m c (Proc.devRef .tc b) = W7 m c (Proc.devRef .tc b); unfold W8
  rw [Function.update_of_ne (StableHlo.devRef_ne_of_ne (show b ≠ main_v25 from hne 5))]

theorem hF3 (c : Dev nD) : ∀ w : Fin cfg3.W, (dat3 (tcv (W9 m)) c).arrAt w cfg3.N = tcv (W10 m) c (Pipeline.arrRef spec3 w) := fun
  | ⟨0, _⟩ => ((dat3 (tcv (W9 m)) c).arrAt_in 0 rfl _).trans ((A_eq3 (tcv (W9 m)) c 0).trans (by
      show W9 m c (Proc.devRef .tc main_v26) = W10 m c (Proc.devRef .tc main_v26); unfold W10; rw [Function.update_of_ne (StableHlo.devRef_ne_of_ne (by decide)), Function.update_of_ne (StableHlo.devRef_ne_of_ne (by decide))]))
  | ⟨1, _⟩ => ((dat3 (tcv (W9 m)) c).arrAt_in 1 rfl _).trans ((A_eq3 (tcv (W9 m)) c 1).trans (by
      show W9 m c (Proc.devRef .tc main_v27) = W10 m c (Proc.devRef .tc main_v27); unfold W10; rw [Function.update_of_ne (StableHlo.devRef_ne_of_ne (by decide)), Function.update_of_ne (StableHlo.devRef_ne_of_ne (by decide))]))
  | ⟨2, _⟩ => ((dat3 (tcv (W9 m)) c).arrAt_in 2 rfl _).trans ((A_eq3 (tcv (W9 m)) c 2).trans (by
      show W9 m c (Proc.devRef .tc main_v28) = W10 m c (Proc.devRef .tc main_v28); unfold W10; rw [Function.update_of_ne (StableHlo.devRef_ne_of_ne (by decide)), Function.update_of_ne (StableHlo.devRef_ne_of_ne (by decide))]))
  | ⟨3, _⟩ => ((dat3 (tcv (W9 m)) c).arrAt_in 3 rfl _).trans ((A_eq3 (tcv (W9 m)) c 3).trans (by
      show W9 m c (Proc.devRef .tc main_v6) = W10 m c (Proc.devRef .tc main_v6); unfold W10; rw [Function.update_of_ne (StableHlo.devRef_ne_of_ne (by decide)), Function.update_of_ne (StableHlo.devRef_ne_of_ne (by decide))]))
  | ⟨4, _⟩ => ((dat3 (tcv (W9 m)) c).arrAt_in 4 rfl _).trans ((A_eq3 (tcv (W9 m)) c 4).trans (by
      show W9 m c (Proc.devRef .tc main_v7) = W10 m c (Proc.devRef .tc main_v7); unfold W10; rw [Function.update_of_ne (StableHlo.devRef_ne_of_ne (by decide)), Function.update_of_ne (StableHlo.devRef_ne_of_ne (by decide))]))
  | ⟨5, _⟩ => ((dat3 (tcv (W9 m)) c).arrAt_in 5 rfl _).trans ((A_eq3 (tcv (W9 m)) c 5).trans (by
      show W9 m c (Proc.devRef .tc main_v9) = W10 m c (Proc.devRef .tc main_v9); unfold W10; rw [Function.update_of_ne (StableHlo.devRef_ne_of_ne (by decide)), Function.update_of_ne (StableHlo.devRef_ne_of_ne (by decide))]))
  | ⟨6, _⟩ => ((dat3 (tcv (W9 m)) c).arrAt_in 6 rfl _).trans ((A_eq3 (tcv (W9 m)) c 6).trans (by
      show W9 m c (Proc.devRef .tc main_v11) = W10 m c (Proc.devRef .tc main_v11); unfold W10; rw [Function.update_of_ne (StableHlo.devRef_ne_of_ne (by decide)), Function.update_of_ne (StableHlo.devRef_ne_of_ne (by decide))]))
  | ⟨7, _⟩ => ((dat3 (tcv (W9 m)) c).arrAt_in 7 rfl _).trans ((A_eq3 (tcv (W9 m)) c 7).trans (by
      show W9 m c (Proc.devRef .tc main_v20) = W10 m c (Proc.devRef .tc main_v20); unfold W10; rw [Function.update_of_ne (StableHlo.devRef_ne_of_ne (by decide)), Function.update_of_ne (StableHlo.devRef_ne_of_ne (by decide))]))
  | ⟨8, _⟩ => by
      show _ = W10 m c (Proc.devRef .tc main_v29_0); unfold W10; rw [Function.update_of_ne (StableHlo.devRef_ne_of_ne (by decide)), Function.update_self]; rfl
  | ⟨9, _⟩ => by
      show _ = W10 m c (Proc.devRef .tc main_v29_1); unfold W10; rw [Function.update_self]; rfl

theorem hrest3 (c : Dev nD) : ∀ b, b ∉ Finset.univ.image (Pipeline.arrRef spec3) → tcv (W10 m) c b = tcv (W9 m) c b := fun b hb => by
  have hne : ∀ w, b ≠ Pipeline.arrRef spec3 w := fun w e => hb (Finset.mem_image.mpr ⟨w, Finset.mem_univ _, e.symm⟩)
  show W10 m c (Proc.devRef .tc b) = W9 m c (Proc.devRef .tc b); unfold W10
  rw [Function.update_of_ne (StableHlo.devRef_ne_of_ne (show b ≠ main_v29_1 from hne 9)), Function.update_of_ne (StableHlo.devRef_ne_of_ne (show b ≠ main_v29_0 from hne 8))]

theorem hF4 (c : Dev nD) : ∀ w : Fin cfg4.W, (dat4 (tcv (W11 m)) c).arrAt w cfg4.N = tcv (W12 m) c (Pipeline.arrRef spec4 w) := fun
  | ⟨0, _⟩ => ((dat4 (tcv (W11 m)) c).arrAt_in 0 rfl _).trans ((A_eq4 (tcv (W11 m)) c 0).trans (by
      show W11 m c (Proc.devRef .tc main_v0_0) = W12 m c (Proc.devRef .tc main_v0_0); unfold W12; rw [Function.update_of_ne (StableHlo.devRef_ne_of_ne (by decide))]))
  | ⟨1, _⟩ => ((dat4 (tcv (W11 m)) c).arrAt_in 1 rfl _).trans ((A_eq4 (tcv (W11 m)) c 1).trans (by
      show W11 m c (Proc.devRef .tc main_v33) = W12 m c (Proc.devRef .tc main_v33); unfold W12; rw [Function.update_of_ne (StableHlo.devRef_ne_of_ne (by decide))]))
  | ⟨2, _⟩ => ((dat4 (tcv (W11 m)) c).arrAt_in 2 rfl _).trans ((A_eq4 (tcv (W11 m)) c 2).trans (by
      show W11 m c (Proc.devRef .tc main_v0_1) = W12 m c (Proc.devRef .tc main_v0_1); unfold W12; rw [Function.update_of_ne (StableHlo.devRef_ne_of_ne (by decide))]))
  | ⟨3, _⟩ => ((dat4 (tcv (W11 m)) c).arrAt_in 3 rfl _).trans ((A_eq4 (tcv (W11 m)) c 3).trans (by
      show W11 m c (Proc.devRef .tc main_v0_1) = W12 m c (Proc.devRef .tc main_v0_1); unfold W12; rw [Function.update_of_ne (StableHlo.devRef_ne_of_ne (by decide))]))
  | ⟨4, _⟩ => ((dat4 (tcv (W11 m)) c).arrAt_in 4 rfl _).trans ((A_eq4 (tcv (W11 m)) c 4).trans (by
      show W11 m c (Proc.devRef .tc main_v33) = W12 m c (Proc.devRef .tc main_v33); unfold W12; rw [Function.update_of_ne (StableHlo.devRef_ne_of_ne (by decide))]))
  | ⟨5, _⟩ => by
      show _ = W12 m c (Proc.devRef .tc main_v34); unfold W12; rw [Function.update_self]; rfl

theorem hrest4 (c : Dev nD) : ∀ b, b ∉ Finset.univ.image (Pipeline.arrRef spec4) → tcv (W12 m) c b = tcv (W11 m) c b := fun b hb => by
  have hne : ∀ w, b ≠ Pipeline.arrRef spec4 w := fun w e => hb (Finset.mem_image.mpr ⟨w, Finset.mem_univ _, e.symm⟩)
  show W12 m c (Proc.devRef .tc b) = W11 m c (Proc.devRef .tc b); unfold W12
  rw [Function.update_of_ne (StableHlo.devRef_ne_of_ne (show b ≠ main_v34 from hne 5))]

theorem hF5 (c : Dev nD) : ∀ w : Fin cfg5.W, (dat5 (tcv (W12 m)) c).arrAt w cfg5.N = tcv (W13 m) c (Pipeline.arrRef spec5 w) := fun
  | ⟨0, _⟩ => ((dat5 (tcv (W12 m)) c).arrAt_in 0 rfl _).trans ((A_eq5 (tcv (W12 m)) c 0).trans (by
      show W12 m c (Proc.devRef .tc main_v0_0) = W13 m c (Proc.devRef .tc main_v0_0); unfold W13; rw [Function.update_of_ne (StableHlo.devRef_ne_of_ne (by decide))]))
  | ⟨1, _⟩ => ((dat5 (tcv (W12 m)) c).arrAt_in 1 rfl _).trans ((A_eq5 (tcv (W12 m)) c 1).trans (by
      show W12 m c (Proc.devRef .tc main_v34) = W13 m c (Proc.devRef .tc main_v34); unfold W13; rw [Function.update_of_ne (StableHlo.devRef_ne_of_ne (by decide))]))
  | ⟨2, _⟩ => ((dat5 (tcv (W12 m)) c).arrAt_in 2 rfl _).trans ((A_eq5 (tcv (W12 m)) c 2).trans (by
      show W12 m c (Proc.devRef .tc main_v0_1) = W13 m c (Proc.devRef .tc main_v0_1); unfold W13; rw [Function.update_of_ne (StableHlo.devRef_ne_of_ne (by decide))]))
  | ⟨3, _⟩ => ((dat5 (tcv (W12 m)) c).arrAt_in 3 rfl _).trans ((A_eq5 (tcv (W12 m)) c 3).trans (by
      show W12 m c (Proc.devRef .tc main_v0_1) = W13 m c (Proc.devRef .tc main_v0_1); unfold W13; rw [Function.update_of_ne (StableHlo.devRef_ne_of_ne (by decide))]))
  | ⟨4, _⟩ => ((dat5 (tcv (W12 m)) c).arrAt_in 4 rfl _).trans ((A_eq5 (tcv (W12 m)) c 4).trans (by
      show W12 m c (Proc.devRef .tc main_v33) = W13 m c (Proc.devRef .tc main_v33); unfold W13; rw [Function.update_of_ne (StableHlo.devRef_ne_of_ne (by decide))]))
  | ⟨5, _⟩ => by
      show _ = W13 m c (Proc.devRef .tc main_v35); unfold W13; rw [Function.update_self]; rfl

theorem hrest5 (c : Dev nD) : ∀ b, b ∉ Finset.univ.image (Pipeline.arrRef spec5) → tcv (W13 m) c b = tcv (W12 m) c b := fun b hb => by
  have hne : ∀ w, b ≠ Pipeline.arrRef spec5 w := fun w e => hb (Finset.mem_image.mpr ⟨w, Finset.mem_univ _, e.symm⟩)
  show W13 m c (Proc.devRef .tc b) = W12 m c (Proc.devRef .tc b); unfold W13
  rw [Function.update_of_ne (StableHlo.devRef_ne_of_ne (show b ≠ main_v35 from hne 5))]

theorem hF6 (c : Dev nD) : ∀ w : Fin cfg6.W, (dat6 (tcv (W14 m)) c).arrAt w cfg6.N = tcv (W15 m) c (Pipeline.arrRef spec6 w) := fun
  | ⟨0, _⟩ => ((dat6 (tcv (W14 m)) c).arrAt_in 0 rfl _).trans ((A_eq6 (tcv (W14 m)) c 0).trans (by
      show W14 m c (Proc.devRef .tc main_v36) = W15 m c (Proc.devRef .tc main_v36); unfold W15; rw [Function.update_of_ne (StableHlo.devRef_ne_of_ne (by decide))]))
  | ⟨1, _⟩ => ((dat6 (tcv (W14 m)) c).arrAt_in 1 rfl _).trans ((A_eq6 (tcv (W14 m)) c 1).trans (by
      show W14 m c (Proc.devRef .tc main_v37) = W15 m c (Proc.devRef .tc main_v37); unfold W15; rw [Function.update_of_ne (StableHlo.devRef_ne_of_ne (by decide))]))
  | ⟨2, _⟩ => ((dat6 (tcv (W14 m)) c).arrAt_in 2 rfl _).trans ((A_eq6 (tcv (W14 m)) c 2).trans (by
      show W14 m c (Proc.devRef .tc main_v38) = W15 m c (Proc.devRef .tc main_v38); unfold W15; rw [Function.update_of_ne (StableHlo.devRef_ne_of_ne (by decide))]))
  | ⟨3, _⟩ => ((dat6 (tcv (W14 m)) c).arrAt_in 3 rfl _).trans ((A_eq6 (tcv (W14 m)) c 3).trans (by
      show W14 m c (Proc.devRef .tc main_v14) = W15 m c (Proc.devRef .tc main_v14); unfold W15; rw [Function.update_of_ne (StableHlo.devRef_ne_of_ne (by decide))]))
  | ⟨4, _⟩ => ((dat6 (tcv (W14 m)) c).arrAt_in 4 rfl _).trans ((A_eq6 (tcv (W14 m)) c 4).trans (by
      show W14 m c (Proc.devRef .tc main_v15) = W15 m c (Proc.devRef .tc main_v15); unfold W15; rw [Function.update_of_ne (StableHlo.devRef_ne_of_ne (by decide))]))
  | ⟨5, _⟩ => ((dat6 (tcv (W14 m)) c).arrAt_in 5 rfl _).trans ((A_eq6 (tcv (W14 m)) c 5).trans (by
      show W14 m c (Proc.devRef .tc main_v29_1) = W15 m c (Proc.devRef .tc main_v29_1); unfold W15; rw [Function.update_of_ne (StableHlo.devRef_ne_of_ne (by decide))]))
  | ⟨6, _⟩ => ((dat6 (tcv (W14 m)) c).arrAt_in 6 rfl _).trans ((A_eq6 (tcv (W14 m)) c 6).trans (by
      show W14 m c (Proc.devRef .tc main_v20) = W15 m c (Proc.devRef .tc main_v20); unfold W15; rw [Function.update_of_ne (StableHlo.devRef_ne_of_ne (by decide))]))
  | ⟨7, _⟩ => by
      show _ = W15 m c (Proc.devRef .tc main_v39); unfold W15; rw [Function.update_self]; rfl

theorem hrest6 (c : Dev nD) : ∀ b, b ∉ Finset.univ.image (Pipeline.arrRef spec6) → tcv (W15 m) c b = tcv (W14 m) c b := fun b hb => by
  have hne : ∀ w, b ≠ Pipeline.arrRef spec6 w := fun w e => hb (Finset.mem_image.mpr ⟨w, Finset.mem_univ _, e.symm⟩)
  show W15 m c (Proc.devRef .tc b) = W14 m c (Proc.devRef .tc b); unfold W15
  rw [Function.update_of_ne (StableHlo.devRef_ne_of_ne (show b ≠ main_v39 from hne 7))]

theorem hF7 (c : Dev nD) : ∀ w : Fin cfg7.W, (dat7 (tcv (W20 m)) c).arrAt w cfg7.N = tcv (W21 m) c (Pipeline.arrRef spec7 w) := fun
  | ⟨0, _⟩ => ((dat7 (tcv (W20 m)) c).arrAt_in 0 rfl _).trans ((A_eq7 (tcv (W20 m)) c 0).trans (by
      show W20 m c (Proc.devRef .tc main_v0_0) = W21 m c (Proc.devRef .tc main_v0_0); unfold W21; rw [Function.update_of_ne (StableHlo.devRef_ne_of_ne (by decide))]))
  | ⟨1, _⟩ => ((dat7 (tcv (W20 m)) c).arrAt_in 1 rfl _).trans ((A_eq7 (tcv (W20 m)) c 1).trans (by
      show W20 m c (Proc.devRef .tc main_v63) = W21 m c (Proc.devRef .tc main_v63); unfold W21; rw [Function.update_of_ne (StableHlo.devRef_ne_of_ne (by decide))]))
  | ⟨2, _⟩ => ((dat7 (tcv (W20 m)) c).arrAt_in 2 rfl _).trans ((A_eq7 (tcv (W20 m)) c 2).trans (by
      show W20 m c (Proc.devRef .tc main_v0_1) = W21 m c (Proc.devRef .tc main_v0_1); unfold W21; rw [Function.update_of_ne (StableHlo.devRef_ne_of_ne (by decide))]))
  | ⟨3, _⟩ => ((dat7 (tcv (W20 m)) c).arrAt_in 3 rfl _).trans ((A_eq7 (tcv (W20 m)) c 3).trans (by
      show W20 m c (Proc.devRef .tc main_v0_1) = W21 m c (Proc.devRef .tc main_v0_1); unfold W21; rw [Function.update_of_ne (StableHlo.devRef_ne_of_ne (by decide))]))
  | ⟨4, _⟩ => ((dat7 (tcv (W20 m)) c).arrAt_in 4 rfl _).trans ((A_eq7 (tcv (W20 m)) c 4).trans (by
      show W20 m c (Proc.devRef .tc main_v63) = W21 m c (Proc.devRef .tc main_v63); unfold W21; rw [Function.update_of_ne (StableHlo.devRef_ne_of_ne (by decide))]))
  | ⟨5, _⟩ => by
      show _ = W21 m c (Proc.devRef .tc main_v64); unfold W21; rw [Function.update_self]; rfl

theorem hrest7 (c : Dev nD) : ∀ b, b ∉ Finset.univ.image (Pipeline.arrRef spec7) → tcv (W21 m) c b = tcv (W20 m) c b := fun b hb => by
  have hne : ∀ w, b ≠ Pipeline.arrRef spec7 w := fun w e => hb (Finset.mem_image.mpr ⟨w, Finset.mem_univ _, e.symm⟩)
  show W21 m c (Proc.devRef .tc b) = W20 m c (Proc.devRef .tc b); unfold W21
  rw [Function.update_of_ne (StableHlo.devRef_ne_of_ne (show b ≠ main_v64 from hne 5))]

theorem hF8 (c : Dev nD) : ∀ w : Fin cfg8.W, (dat8 (tcv (W21 m)) c).arrAt w cfg8.N = tcv (W22 m) c (Pipeline.arrRef spec8 w) := fun
  | ⟨0, _⟩ => ((dat8 (tcv (W21 m)) c).arrAt_in 0 rfl _).trans ((A_eq8 (tcv (W21 m)) c 0).trans (by
      show W21 m c (Proc.devRef .tc main_v0_0) = W22 m c (Proc.devRef .tc main_v0_0); unfold W22; rw [Function.update_of_ne (StableHlo.devRef_ne_of_ne (by decide))]))
  | ⟨1, _⟩ => ((dat8 (tcv (W21 m)) c).arrAt_in 1 rfl _).trans ((A_eq8 (tcv (W21 m)) c 1).trans (by
      show W21 m c (Proc.devRef .tc main_v64) = W22 m c (Proc.devRef .tc main_v64); unfold W22; rw [Function.update_of_ne (StableHlo.devRef_ne_of_ne (by decide))]))
  | ⟨2, _⟩ => ((dat8 (tcv (W21 m)) c).arrAt_in 2 rfl _).trans ((A_eq8 (tcv (W21 m)) c 2).trans (by
      show W21 m c (Proc.devRef .tc main_v0_1) = W22 m c (Proc.devRef .tc main_v0_1); unfold W22; rw [Function.update_of_ne (StableHlo.devRef_ne_of_ne (by decide))]))
  | ⟨3, _⟩ => ((dat8 (tcv (W21 m)) c).arrAt_in 3 rfl _).trans ((A_eq8 (tcv (W21 m)) c 3).trans (by
      show W21 m c (Proc.devRef .tc main_v0_1) = W22 m c (Proc.devRef .tc main_v0_1); unfold W22; rw [Function.update_of_ne (StableHlo.devRef_ne_of_ne (by decide))]))
  | ⟨4, _⟩ => ((dat8 (tcv (W21 m)) c).arrAt_in 4 rfl _).trans ((A_eq8 (tcv (W21 m)) c 4).trans (by
      show W21 m c (Proc.devRef .tc main_v63) = W22 m c (Proc.devRef .tc main_v63); unfold W22; rw [Function.update_of_ne (StableHlo.devRef_ne_of_ne (by decide))]))
  | ⟨5, _⟩ => by
      show _ = W22 m c (Proc.devRef .tc main_v65); unfold W22; rw [Function.update_self]; rfl

theorem hrest8 (c : Dev nD) : ∀ b, b ∉ Finset.univ.image (Pipeline.arrRef spec8) → tcv (W22 m) c b = tcv (W21 m) c b := fun b hb => by
  have hne : ∀ w, b ≠ Pipeline.arrRef spec8 w := fun w e => hb (Finset.mem_image.mpr ⟨w, Finset.mem_univ _, e.symm⟩)
  show W22 m c (Proc.devRef .tc b) = W21 m c (Proc.devRef .tc b); unfold W22
  rw [Function.update_of_ne (StableHlo.devRef_ne_of_ne (show b ≠ main_v65 from hne 5))]

theorem hF9 (c : Dev nD) : ∀ w : Fin cfg9.W, (dat9 (tcv (W23 m)) c).arrAt w cfg9.N = tcv (W24 m) c (Pipeline.arrRef spec9 w) := fun
  | ⟨0, _⟩ => ((dat9 (tcv (W23 m)) c).arrAt_in 0 rfl _).trans ((A_eq9 (tcv (W23 m)) c 0).trans (by
      show W23 m c (Proc.devRef .tc main_v66) = W24 m c (Proc.devRef .tc main_v66); unfold W24; rw [Function.update_of_ne (StableHlo.devRef_ne_of_ne (by decide)), Function.update_of_ne (StableHlo.devRef_ne_of_ne (by decide))]))
  | ⟨1, _⟩ => ((dat9 (tcv (W23 m)) c).arrAt_in 1 rfl _).trans ((A_eq9 (tcv (W23 m)) c 1).trans (by
      show W23 m c (Proc.devRef .tc main_v67) = W24 m c (Proc.devRef .tc main_v67); unfold W24; rw [Function.update_of_ne (StableHlo.devRef_ne_of_ne (by decide)), Function.update_of_ne (StableHlo.devRef_ne_of_ne (by decide))]))
  | ⟨2, _⟩ => ((dat9 (tcv (W23 m)) c).arrAt_in 2 rfl _).trans ((A_eq9 (tcv (W23 m)) c 2).trans (by
      show W23 m c (Proc.devRef .tc main_v68) = W24 m c (Proc.devRef .tc main_v68); unfold W24; rw [Function.update_of_ne (StableHlo.devRef_ne_of_ne (by decide)), Function.update_of_ne (StableHlo.devRef_ne_of_ne (by decide))]))
  | ⟨3, _⟩ => ((dat9 (tcv (W23 m)) c).arrAt_in 3 rfl _).trans ((A_eq9 (tcv (W23 m)) c 3).trans (by
      show W23 m c (Proc.devRef .tc main_v46) = W24 m c (Proc.devRef .tc main_v46); unfold W24; rw [Function.update_of_ne (StableHlo.devRef_ne_of_ne (by decide)), Function.update_of_ne (StableHlo.devRef_ne_of_ne (by decide))]))
  | ⟨4, _⟩ => ((dat9 (tcv (W23 m)) c).arrAt_in 4 rfl _).trans ((A_eq9 (tcv (W23 m)) c 4).trans (by
      show W23 m c (Proc.devRef .tc main_v47) = W24 m c (Proc.devRef .tc main_v47); unfold W24; rw [Function.update_of_ne (StableHlo.devRef_ne_of_ne (by decide)), Function.update_of_ne (StableHlo.devRef_ne_of_ne (by decide))]))
  | ⟨5, _⟩ => ((dat9 (tcv (W23 m)) c).arrAt_in 5 rfl _).trans ((A_eq9 (tcv (W23 m)) c 5).trans (by
      show W23 m c (Proc.devRef .tc main_v49) = W24 m c (Proc.devRef .tc main_v49); unfold W24; rw [Function.update_of_ne (StableHlo.devRef_ne_of_ne (by decide)), Function.update_of_ne (StableHlo.devRef_ne_of_ne (by decide))]))
  | ⟨6, _⟩ => ((dat9 (tcv (W23 m)) c).arrAt_in 6 rfl _).trans ((A_eq9 (tcv (W23 m)) c 6).trans (by
      show W23 m c (Proc.devRef .tc main_v51) = W24 m c (Proc.devRef .tc main_v51); unfold W24; rw [Function.update_of_ne (StableHlo.devRef_ne_of_ne (by decide)), Function.update_of_ne (StableHlo.devRef_ne_of_ne (by decide))]))
  | ⟨7, _⟩ => ((dat9 (tcv (W23 m)) c).arrAt_in 7 rfl _).trans ((A_eq9 (tcv (W23 m)) c 7).trans (by
      show W23 m c (Proc.devRef .tc main_v60) = W24 m c (Proc.devRef .tc main_v60); unfold W24; rw [Function.update_of_ne (StableHlo.devRef_ne_of_ne (by decide)), Function.update_of_ne (StableHlo.devRef_ne_of_ne (by decide))]))
  | ⟨8, _⟩ => by
      show _ = W24 m c (Proc.devRef .tc main_v69_0); unfold W24; rw [Function.update_of_ne (StableHlo.devRef_ne_of_ne (by decide)), Function.update_self]; rfl
  | ⟨9, _⟩ => by
      show _ = W24 m c (Proc.devRef .tc main_v69_1); unfold W24; rw [Function.update_self]; rfl

theorem hrest9 (c : Dev nD) : ∀ b, b ∉ Finset.univ.image (Pipeline.arrRef spec9) → tcv (W24 m) c b = tcv (W23 m) c b := fun b hb => by
  have hne : ∀ w, b ≠ Pipeline.arrRef spec9 w := fun w e => hb (Finset.mem_image.mpr ⟨w, Finset.mem_univ _, e.symm⟩)
  show W24 m c (Proc.devRef .tc b) = W23 m c (Proc.devRef .tc b); unfold W24
  rw [Function.update_of_ne (StableHlo.devRef_ne_of_ne (show b ≠ main_v69_1 from hne 9)), Function.update_of_ne (StableHlo.devRef_ne_of_ne (show b ≠ main_v69_0 from hne 8))]

theorem hF10 (c : Dev nD) : ∀ w : Fin cfg10.W, (dat10 (tcv (W25 m)) c).arrAt w cfg10.N = tcv (W26 m) c (Pipeline.arrRef spec10 w) := fun
  | ⟨0, _⟩ => ((dat10 (tcv (W25 m)) c).arrAt_in 0 rfl _).trans ((A_eq10 (tcv (W25 m)) c 0).trans (by
      show W25 m c (Proc.devRef .tc main_v0_0) = W26 m c (Proc.devRef .tc main_v0_0); unfold W26; rw [Function.update_of_ne (StableHlo.devRef_ne_of_ne (by decide))]))
  | ⟨1, _⟩ => ((dat10 (tcv (W25 m)) c).arrAt_in 1 rfl _).trans ((A_eq10 (tcv (W25 m)) c 1).trans (by
      show W25 m c (Proc.devRef .tc main_v73) = W26 m c (Proc.devRef .tc main_v73); unfold W26; rw [Function.update_of_ne (StableHlo.devRef_ne_of_ne (by decide))]))
  | ⟨2, _⟩ => ((dat10 (tcv (W25 m)) c).arrAt_in 2 rfl _).trans ((A_eq10 (tcv (W25 m)) c 2).trans (by
      show W25 m c (Proc.devRef .tc main_v0_1) = W26 m c (Proc.devRef .tc main_v0_1); unfold W26; rw [Function.update_of_ne (StableHlo.devRef_ne_of_ne (by decide))]))
  | ⟨3, _⟩ => ((dat10 (tcv (W25 m)) c).arrAt_in 3 rfl _).trans ((A_eq10 (tcv (W25 m)) c 3).trans (by
      show W25 m c (Proc.devRef .tc main_v0_1) = W26 m c (Proc.devRef .tc main_v0_1); unfold W26; rw [Function.update_of_ne (StableHlo.devRef_ne_of_ne (by decide))]))
  | ⟨4, _⟩ => ((dat10 (tcv (W25 m)) c).arrAt_in 4 rfl _).trans ((A_eq10 (tcv (W25 m)) c 4).trans (by
      show W25 m c (Proc.devRef .tc main_v73) = W26 m c (Proc.devRef .tc main_v73); unfold W26; rw [Function.update_of_ne (StableHlo.devRef_ne_of_ne (by decide))]))
  | ⟨5, _⟩ => by
      show _ = W26 m c (Proc.devRef .tc main_v74); unfold W26; rw [Function.update_self]; rfl

theorem hrest10 (c : Dev nD) : ∀ b, b ∉ Finset.univ.image (Pipeline.arrRef spec10) → tcv (W26 m) c b = tcv (W25 m) c b := fun b hb => by
  have hne : ∀ w, b ≠ Pipeline.arrRef spec10 w := fun w e => hb (Finset.mem_image.mpr ⟨w, Finset.mem_univ _, e.symm⟩)
  show W26 m c (Proc.devRef .tc b) = W25 m c (Proc.devRef .tc b); unfold W26
  rw [Function.update_of_ne (StableHlo.devRef_ne_of_ne (show b ≠ main_v74 from hne 5))]

theorem hF11 (c : Dev nD) : ∀ w : Fin cfg11.W, (dat11 (tcv (W26 m)) c).arrAt w cfg11.N = tcv (W27 m) c (Pipeline.arrRef spec11 w) := fun
  | ⟨0, _⟩ => ((dat11 (tcv (W26 m)) c).arrAt_in 0 rfl _).trans ((A_eq11 (tcv (W26 m)) c 0).trans (by
      show W26 m c (Proc.devRef .tc main_v0_0) = W27 m c (Proc.devRef .tc main_v0_0); unfold W27; rw [Function.update_of_ne (StableHlo.devRef_ne_of_ne (by decide))]))
  | ⟨1, _⟩ => ((dat11 (tcv (W26 m)) c).arrAt_in 1 rfl _).trans ((A_eq11 (tcv (W26 m)) c 1).trans (by
      show W26 m c (Proc.devRef .tc main_v74) = W27 m c (Proc.devRef .tc main_v74); unfold W27; rw [Function.update_of_ne (StableHlo.devRef_ne_of_ne (by decide))]))
  | ⟨2, _⟩ => ((dat11 (tcv (W26 m)) c).arrAt_in 2 rfl _).trans ((A_eq11 (tcv (W26 m)) c 2).trans (by
      show W26 m c (Proc.devRef .tc main_v0_1) = W27 m c (Proc.devRef .tc main_v0_1); unfold W27; rw [Function.update_of_ne (StableHlo.devRef_ne_of_ne (by decide))]))
  | ⟨3, _⟩ => ((dat11 (tcv (W26 m)) c).arrAt_in 3 rfl _).trans ((A_eq11 (tcv (W26 m)) c 3).trans (by
      show W26 m c (Proc.devRef .tc main_v0_1) = W27 m c (Proc.devRef .tc main_v0_1); unfold W27; rw [Function.update_of_ne (StableHlo.devRef_ne_of_ne (by decide))]))
  | ⟨4, _⟩ => ((dat11 (tcv (W26 m)) c).arrAt_in 4 rfl _).trans ((A_eq11 (tcv (W26 m)) c 4).trans (by
      show W26 m c (Proc.devRef .tc main_v73) = W27 m c (Proc.devRef .tc main_v73); unfold W27; rw [Function.update_of_ne (StableHlo.devRef_ne_of_ne (by decide))]))
  | ⟨5, _⟩ => by
      show _ = W27 m c (Proc.devRef .tc main_v75); unfold W27; rw [Function.update_self]; rfl

theorem hrest11 (c : Dev nD) : ∀ b, b ∉ Finset.univ.image (Pipeline.arrRef spec11) → tcv (W27 m) c b = tcv (W26 m) c b := fun b hb => by
  have hne : ∀ w, b ≠ Pipeline.arrRef spec11 w := fun w e => hb (Finset.mem_image.mpr ⟨w, Finset.mem_univ _, e.symm⟩)
  show W27 m c (Proc.devRef .tc b) = W26 m c (Proc.devRef .tc b); unfold W27
  rw [Function.update_of_ne (StableHlo.devRef_ne_of_ne (show b ≠ main_v75 from hne 5))]

theorem hF12 (c : Dev nD) : ∀ w : Fin cfg12.W, (dat12 (tcv (W28 m)) c).arrAt w cfg12.N = tcv (W29 m) c (Pipeline.arrRef spec12 w) := fun
  | ⟨0, _⟩ => ((dat12 (tcv (W28 m)) c).arrAt_in 0 rfl _).trans ((A_eq12 (tcv (W28 m)) c 0).trans (by
      show W28 m c (Proc.devRef .tc main_v76) = W29 m c (Proc.devRef .tc main_v76); unfold W29; rw [Function.update_of_ne (StableHlo.devRef_ne_of_ne (by decide))]))
  | ⟨1, _⟩ => ((dat12 (tcv (W28 m)) c).arrAt_in 1 rfl _).trans ((A_eq12 (tcv (W28 m)) c 1).trans (by
      show W28 m c (Proc.devRef .tc main_v77) = W29 m c (Proc.devRef .tc main_v77); unfold W29; rw [Function.update_of_ne (StableHlo.devRef_ne_of_ne (by decide))]))
  | ⟨2, _⟩ => ((dat12 (tcv (W28 m)) c).arrAt_in 2 rfl _).trans ((A_eq12 (tcv (W28 m)) c 2).trans (by
      show W28 m c (Proc.devRef .tc main_v78) = W29 m c (Proc.devRef .tc main_v78); unfold W29; rw [Function.update_of_ne (StableHlo.devRef_ne_of_ne (by decide))]))
  | ⟨3, _⟩ => ((dat12 (tcv (W28 m)) c).arrAt_in 3 rfl _).trans ((A_eq12 (tcv (W28 m)) c 3).trans (by
      show W28 m c (Proc.devRef .tc main_v54) = W29 m c (Proc.devRef .tc main_v54); unfold W29; rw [Function.update_of_ne (StableHlo.devRef_ne_of_ne (by decide))]))
  | ⟨4, _⟩ => ((dat12 (tcv (W28 m)) c).arrAt_in 4 rfl _).trans ((A_eq12 (tcv (W28 m)) c 4).trans (by
      show W28 m c (Proc.devRef .tc main_v55) = W29 m c (Proc.devRef .tc main_v55); unfold W29; rw [Function.update_of_ne (StableHlo.devRef_ne_of_ne (by decide))]))
  | ⟨5, _⟩ => ((dat12 (tcv (W28 m)) c).arrAt_in 5 rfl _).trans ((A_eq12 (tcv (W28 m)) c 5).trans (by
      show W28 m c (Proc.devRef .tc main_v69_1) = W29 m c (Proc.devRef .tc main_v69_1); unfold W29; rw [Function.update_of_ne (StableHlo.devRef_ne_of_ne (by decide))]))
  | ⟨6, _⟩ => ((dat12 (tcv (W28 m)) c).arrAt_in 6 rfl _).trans ((A_eq12 (tcv (W28 m)) c 6).trans (by
      show W28 m c (Proc.devRef .tc main_v60) = W29 m c (Proc.devRef .tc main_v60); unfold W29; rw [Function.update_of_ne (StableHlo.devRef_ne_of_ne (by decide))]))
  | ⟨7, _⟩ => by
      show _ = W29 m c (Proc.devRef .tc main_v79); unfold W29; rw [Function.update_self]; rfl

theorem hrest12 (c : Dev nD) : ∀ b, b ∉ Finset.univ.image (Pipeline.arrRef spec12) → tcv (W29 m) c b = tcv (W28 m) c b := fun b hb => by
  have hne : ∀ w, b ≠ Pipeline.arrRef spec12 w := fun w e => hb (Finset.mem_image.mpr ⟨w, Finset.mem_univ _, e.symm⟩)
  show W29 m c (Proc.devRef .tc b) = W28 m c (Proc.devRef .tc b); unfold W29
  rw [Function.update_of_ne (StableHlo.devRef_ne_of_ne (show b ≠ main_v79 from hne 7))]

end Cert.KernelIdeal.Reg
end
-- ==== Proof.Reg0Entry.lean ====
import proofs.«172830_g53506702573898_cont_9to1_m_1152_4_alg».proof.Proof.Reg0Dat
import proofs.«172830_g53506702573898_cont_9to1_m_1152_4_alg».proof.Proof.LibSharedRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: entering and leaving the pipeline

The two input windows stand on the one adjacency array and hold it by the left and the right half of the full share;
the two output windows each have an array of their own. So the core's unscoped buffers at any contents `V'` are the
pipeline's per-window arrays filled from `V'` beside the buffers no window touches: read left to right the region's
entry, right to left — at the contents the region leaves — its exit. -/

/-- The windows' arrays are unscoped buffers. -/
theorem arr_unscoped0 : ∀ w : Fin cfg0.W, (Pipeline.arrRef cfg0.spec w).isScoped = false := by decide

/-- Away from window 1 no two windows stand on one array. -/
theorem arr_injOn0 : Set.InjOn (Pipeline.arrRef cfg0.spec) ((Finset.univ.erase 1 : Finset (Fin cfg0.W)) : Set (Fin cfg0.W)) := by
  intro a ha b hb h
  simp only [Finset.coe_erase, Finset.coe_univ, Set.mem_diff, Set.mem_univ, Set.mem_singleton_iff, true_and] at ha hb
  revert a b; decide

/-- ENTRY and EXIT in one equation, at the proof data `dat0 V c` (whose shares do not depend on `V`). -/
theorem unscopedBufs_eq_arrays0 (c : Dev nD) (V' : (b : Ref sig .tc) → Buf (Elt F) ((c : Thread nD τ).loc b))
    (Fw : (w : Fin cfg0.W) → Buf (Elt F) ((cfg0.spec w).arr.view.loc (c.tc : Thread nD τ)))
    (hF : ∀ w, Fw w = V' (Pipeline.arrRef cfg0.spec w)) :
    (unscopedBufs c V' : sProp 𝕄) = iprop((dat0 V c).arrays Fw ∗ Pipeline.unscopedRest cfg0.spec c V') :=
  Pipeline.unscopedBufs_eq_arrays_two_on_one (dat0 V c) arr_whole0 arr_unscoped0 0 1 (by decide) rfl arr_injOn0
    (share0_0 V c) (share0_1 V c)
    (fun w h0 h1 => by
      match w, h0, h1 with
      | ⟨0, _⟩, h0, _ => exact absurd rfl h0
      | ⟨1, _⟩, _, h1 => exact absurd rfl h1
      | ⟨2, _⟩, _, _ => exact share0_2 V c
      | ⟨3, _⟩, _, _ => exact share0_3 V c)
    V' Fw hF

end Cert.KernelIdeal.Reg

end
-- ==== Proof.Reg0Body.lean ====
import proofs.«172830_g53506702573898_cont_9to1_m_1152_4_alg».proof.Proof.Reg0Dat

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the body obligation, at a generic point -/

/-- What the body is called with at point `t` (the obligation's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point: the inputs' memrefs hold their blocks; the closed forms say which case the point is in;
    the invariant hands the body the accumulator at what the point before left (at anything at the first point) and
    takes it back at this point's contents; where the row-sum window is idle its buffer comes back untouched; the core
    owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
      unfold Dat.leavesExact; rw [liveAt0_0 t], after0_0]
  rw [show (dat0 V c).leavesExact 1 t = owns (c : Thread nD τ) (ms0_1 t) fullShare ((dat0 V c).after 1 t) from by
      unfold Dat.leavesExact; rw [liveAt0_1 t], after0_1]
  rw [show (dat0 V c).leavesExact 2 t = owns (c : Thread nD τ) (ms0_2 t) fullShare ((dat0 V c).after 2 t) from by
      unfold Dat.leavesExact; rw [liveAt0_2 t], after0_2]
  by_cases h0 : t.val % 8 = 0
  · by_cases h1 : t.val % 8 = 7
    · exfalso; omega
    · rw [Dat.leavesExact_idle (dat0 V c) 3 t (idleAt0_3 t (fun h => h1 ((hcond0_1 t).mp h))) (noFlush0_3 t (fun h => h1 ((hcond0_1 t).mp h)))]
      rw [outsAt0_A V c t h0 h1]
      unfold out0_A_2 sout0_A_0; (try dsimp only)
      by_cases hz : t.val = 0
      · rw [PhiS0_castSucc V c t, PhiS0_zero V c _ _ hz, PhiA0_eq]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
      · rw [PhiS0_castSucc V c t, PhiS0_pos V c _ _ hz]
        iintro ⟨⟨⟨HS0, HR⟩, Hg⟩, Ho, ⟨%d0, H0⟩, ⟨%d1, H1⟩, ⟨%d2, H2⟩, ⟨%d3, H3⟩⟩
        iapply ((kernelRun0_A c (grid0.coords t) _ _ _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexists _; iexact H2
        isplitl [H3]; · iexact H3
        isplitl [HS0]; · iexists _; iexact HS0
        iintro ⟨H0, H1, ⟨%e2, H2⟩, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover0_A_0 c _ _ _ _ _ _ _ _ _ _ _ _ _ _ _)
            iexact HR
          iexact Hg
        isplitl [Ho]; · iexact Ho
        isplitl [H0]; · iexact H0
        isplitl [H1]; · iexact H1
        isplitl [H2]
        · unfold owns; iexists _; isplitr
          swap; · iexact H2
          ipureintro; exact View.read_writes_of_cover _ _ _ _ _ (cover0_A_2 c _ _ _ _ _ _ _ _ _ _ _ _ _ _ _)
        iexists _; iexact H3
  · have hz : t.val ≠ 0 := fun e => h0 (by rw [e])
    rw [PhiS0_castSucc V c t, PhiS0_pos V c _ _ hz]
    by_cases h1 : t.val % 8 = 7
    · rw [show (dat0 V c).leavesExact 3 t = owns (c : Thread nD τ) (ms0_3 t) fullShare ((dat0 V c).after 3 t) from by
      unfold Dat.leavesExact; rw [liveAt0_3 t ((hcond0_1 t).mpr h1)], after0_3]
      rw [outsAt0_C V c t h0 h1]
      unfold out0_C_2 out0_C_3 sout0_C_0; (try dsimp only)
      iintro ⟨⟨⟨HS0, HR⟩, Hg⟩, Ho, ⟨%d0, H0⟩, ⟨%d1, H1⟩, ⟨%d2, H2⟩, ⟨%d3, H3⟩⟩
      iapply ((kernelRun0_C c (grid0.coords t) _ _ _ _ _ _ _ _ _ _ (fun h => h0 ((hcond0_0 t).mp h)) ((hcond0_1 t).mpr h1) (iblk0 V c 0 t) (iblk0 V c 1 t) _).2.2.2 Set.univ _)
      isplitl [H0]; · iexact H0
      isplitl [H1]; · iexact H1
      isplitl [H2]; · iexists _; iexact H2
      isplitl [H3]; · iexists _; iexact H3
      isplitl [HS0]; · iexact HS0
      iintro ⟨H0, H1, ⟨%e2, H2⟩, ⟨%e3, H3⟩, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_C_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_C_2 c _ _ _ _ _ _ _ _ _ _ _ _ _ _ _ _)
      unfold owns; iexists _; isplitr
      swap; · iexact H3
      ipureintro; exact View.read_writes_of_cover _ _ _ _ _ (cover0_C_3 c _ _ _ _ _ _ _ _ _ _ _ _ _ _ _ _)
    · rw [Dat.leavesExact_idle (dat0 V c) 3 t (idleAt0_3 t (fun h => h1 ((hcond0_1 t).mp h))) (noFlush0_3 t (fun h => h1 ((hcond0_1 t).mp h)))]
      rw [outsAt0_B V c t h0 h1]
      unfold out0_B_2 sout0_B_0; (try dsimp only)
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexists _; iexact H2
      isplitl [H3]; · iexact H3
      isplitl [HS0]; · iexact HS0
      iintro ⟨H0, H1, ⟨%e2, H2⟩, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _)
          iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover0_B_2 c _ _ _ _ _ _ _ _ _ _ _ _ _ _ _ _)
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region (the class invariant) is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class invariant back: the accumulator's named contents are
    forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HR⟩, Hg⟩
  isplitl [HS0 HR]
  · isplitl [HS0]
    · iexists _; iexact HS0
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Reg

end
-- ==== Proof.Reg0Seg.lean ====
/-
  Kernel region 0 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg0Entry
import proofs.«172830_g53506702573898_cont_9to1_m_1152_4_alg».proof.Proof.Reg0Body
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := winFacts₀0
  block_pos := block_pos0
  stage_whole := stage_whole0
  K := PEmpty
  osem k := k.elim
  ho := Pipeline.OwnSemFacts.none _
  hbody c := (body_obligation0 (tcv (W0 m)) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (tcv (W0 m) c)
  hentry c := by
    rw [Pipeline.ownSems0_none]
    have hsplit : (unscopedBufs c (tcv (W0 m) c) : sProp 𝕄)
        ⊢ iprop((pdats m 0 c).arrays ((pdats m 0 c).arrAt · 0) ∗ Pipeline.unscopedRest spec0 c (tcv (W0 m) c)) :=
      Entails.of_eq (unscopedBufs_eq_arrays0 (tcv (W0 m)) c (tcv (W0 m) c) ((pdats m 0 c).arrAt · 0) (fun w => A_eq0 (tcv (W0 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (tcv (W0 m)) c).Φ 0 from rfl]
    iintro ⟨Hp, -, Hr⟩
    iapply (hin0 (tcv (W0 m)) c)
    unfold Pipeline.ΦA
    isplitl [Hr]; · iexact Hr
    iexact Hp
  hout c := by
    rw [Pipeline.ownSems0_none, show (pdats m 0 c).Φ (Fin.last _) = (dat0 (tcv (W0 m)) c).Φ (Fin.last cfg0.N) from rfl]
    iintro HP
    ihave H := (hout0 (tcv (W0 m)) c) $$ HP
    unfold Pipeline.ΦA
    icases H with ⟨Hr, Hp⟩
    isplitl [Hp]; · iexact Hp
    isplitr; · iempintro
    iexact Hr
  hexit c := by
    have hjoin : iprop((pdats m 0 c).arrays ((pdats m 0 c).arrAt · cfg0.N) ∗ Pipeline.unscopedRest spec0 c (tcv (W0 m) c))
        ⊢ (unscopedBufs c (tcv (W1 m) c) : sProp 𝕄) := by
      rw [unscopedBufs_eq_arrays0 (tcv (W0 m)) c (tcv (W1 m) c) ((pdats m 0 c).arrAt · cfg0.N) (hF0 m c),
        Pipeline.unscopedRest_congr spec0 c (tcv (W0 m) c) (tcv (W1 m) c) (hrest0 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg1Entry.lean ====
import proofs.«172830_g53506702573898_cont_9to1_m_1152_4_alg».proof.Proof.Reg1Frame
import proofs.«172830_g53506702573898_cont_9to1_m_1152_4_alg».proof.Proof.LibSharedTwoPairs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: entering and leaving the pipeline, windows 2 and 3 standing on one array and windows 1 and 4 on another -/

/-- Windows 2 and 3 of pipeline 1 read one array. -/
theorem arrRef1_2_3 : Pipeline.arrRef spec1 2 = Pipeline.arrRef spec1 3 := by decide

/-- Windows 1 and 4 of pipeline 1 read one array. -/
theorem arrRef1_1_4 : Pipeline.arrRef spec1 1 = Pipeline.arrRef spec1 4 := by decide

/-- Away from windows 3 and 4 the windows of pipeline 1 stand on pairwise distinct arrays. -/
theorem arrRef1_injOn : Set.InjOn (Pipeline.arrRef spec1) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec1 a = Pipeline.arrRef spec1 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share1_0 (c : Dev nD) : (dat1 V c).share 0 = fullShare := by
  unfold Dat.share; rw [if_neg (by decide)]; dsimp only [dat1]
theorem share1_1 (c : Dev nD) : (dat1 V c).share 1 = fullShare.left := by
  unfold Dat.share; rw [if_neg (by decide)]; dsimp only [dat1]
theorem share1_2 (c : Dev nD) : (dat1 V c).share 2 = fullShare.left := by
  unfold Dat.share; rw [if_neg (by decide)]; dsimp only [dat1]
theorem share1_3 (c : Dev nD) : (dat1 V c).share 3 = fullShare.right := by
  unfold Dat.share; rw [if_neg (by decide)]; dsimp only [dat1]
theorem share1_4 (c : Dev nD) : (dat1 V c).share 4 = fullShare.right := by
  unfold Dat.share; rw [if_neg (by decide)]; dsimp only [dat1]
theorem share1_5 (c : Dev nD) : (dat1 V c).share 5 = fullShare := by
  unfold Dat.share; rw [if_pos (by decide)]

/-- Every window but 1, 2, 3 and 4 holds its array at the full share. -/
theorem share1_rest (c : Dev nD) : ∀ w : Fin cfg1.W, w ≠ 2 → w ≠ 3 → w ≠ 1 → w ≠ 4 → (dat1 V c).share w = fullShare := fun
  | ⟨0, _⟩ => fun _ _ _ _ => share1_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share1_5 V c

/-- ENTRY and EXIT of region 1 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays1 (c : Dev nD) (V' : (b : Ref sig .tc) → Buf (Elt F) ((c : Thread nD τ).loc b))
    (Fw : (w : Fin cfg1.W) → Buf (Elt F) ((cfg1.spec w).arr.view.loc (c.tc : Thread nD τ)))
    (hF : ∀ w, Fw w = V' (Pipeline.arrRef cfg1.spec w)) :
    (unscopedBufs c V' : sProp 𝕄) = iprop((dat1 V c).arrays Fw ∗ Pipeline.unscopedRest cfg1.spec c V') :=
  Pipeline.unscopedBufs_eq_arrays_two_pairs (dat1 V c) arr_whole1 winFacts₀1.arr_unscoped 2 3 1 4
    (by decide) (by decide) (by decide) (by decide) (by decide) (by decide) arrRef1_2_3 arrRef1_1_4 arrRef1_injOn
    (share1_2 V c) (share1_3 V c) (share1_1 V c) (share1_4 V c) (share1_rest V c) V' Fw hF

end Regions

end Cert.KernelIdeal.Reg

end
-- ==== Proof.Reg1Seg.lean ====
/-
  Kernel region 1 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg1Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (tcv (W6 m)) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (tcv (W6 m) c)
  hentry c := by
    rw [Pipeline.ownSems0_none]
    have hsplit : (unscopedBufs c (tcv (W6 m) c) : sProp 𝕄)
        ⊢ iprop((pdats m 1 c).arrays ((pdats m 1 c).arrAt · 0) ∗ Pipeline.unscopedRest spec1 c (tcv (W6 m) c)) :=
      Entails.of_eq (unscopedBufs_eq_arrays1 (tcv (W6 m)) c (tcv (W6 m) c) ((pdats m 1 c).arrAt · 0) (fun w => A_eq1 (tcv (W6 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin : iprop((pdats m 1 c).arrays ((pdats m 1 c).arrAt · cfg1.N) ∗ Pipeline.unscopedRest spec1 c (tcv (W6 m) c))
        ⊢ (unscopedBufs c (tcv (W7 m) c) : sProp 𝕄) := by
      rw [unscopedBufs_eq_arrays1 (tcv (W6 m)) c (tcv (W7 m) c) ((pdats m 1 c).arrAt · cfg1.N) (hF1 m c),
        Pipeline.unscopedRest_congr spec1 c (tcv (W6 m) c) (tcv (W7 m) c) (hrest1 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg2Entry.lean ====
import proofs.«172830_g53506702573898_cont_9to1_m_1152_4_alg».proof.Proof.Reg2Frame
import proofs.«172830_g53506702573898_cont_9to1_m_1152_4_alg».proof.Proof.LibSharedRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 2: entering and leaving the pipeline, windows 2 and 3 standing on one array -/

/-- Windows 2 and 3 of pipeline 2 read one array. -/
theorem arrRef2_2_3 : Pipeline.arrRef spec2 2 = Pipeline.arrRef spec2 3 := by decide

/-- Away from window 3 the windows of pipeline 2 stand on pairwise distinct arrays. -/
theorem arrRef2_injOn : Set.InjOn (Pipeline.arrRef spec2) ((Finset.univ.erase (3 : Fin 6) : Finset (Fin 6)) : Set (Fin 6)) := by
  have h : ∀ a b : Fin 6, a ≠ 3 → b ≠ 3 → Pipeline.arrRef spec2 a = Pipeline.arrRef spec2 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share2_0 (c : Dev nD) : (dat2 V c).share 0 = fullShare := by
  unfold Dat.share; rw [if_neg (by decide)]; dsimp only [dat2]
theorem share2_1 (c : Dev nD) : (dat2 V c).share 1 = fullShare := by
  unfold Dat.share; rw [if_neg (by decide)]; dsimp only [dat2]
theorem share2_2 (c : Dev nD) : (dat2 V c).share 2 = fullShare.left := by
  unfold Dat.share; rw [if_neg (by decide)]; dsimp only [dat2]
theorem share2_3 (c : Dev nD) : (dat2 V c).share 3 = fullShare.right := by
  unfold Dat.share; rw [if_neg (by decide)]; dsimp only [dat2]
theorem share2_4 (c : Dev nD) : (dat2 V c).share 4 = fullShare := by
  unfold Dat.share; rw [if_neg (by decide)]; dsimp only [dat2]
theorem share2_5 (c : Dev nD) : (dat2 V c).share 5 = fullShare := by
  unfold Dat.share; rw [if_pos (by decide)]

/-- Every window but 2 and 3 holds its array at the full share. -/
theorem share2_rest (c : Dev nD) : ∀ w : Fin cfg2.W, w ≠ 2 → w ≠ 3 → (dat2 V c).share w = fullShare := fun
  | ⟨0, _⟩ => fun _ _ => share2_0 V c
  | ⟨1, _⟩ => fun _ _ => share2_1 V c
  | ⟨2, _⟩ => fun h _ => absurd rfl h
  | ⟨3, _⟩ => fun _ h => absurd rfl h
  | ⟨4, _⟩ => fun _ _ => share2_4 V c
  | ⟨5, _⟩ => fun _ _ => share2_5 V c

/-- ENTRY and EXIT of region 2 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays2 (c : Dev nD) (V' : (b : Ref sig .tc) → Buf (Elt F) ((c : Thread nD τ).loc b))
    (Fw : (w : Fin cfg2.W) → Buf (Elt F) ((cfg2.spec w).arr.view.loc (c.tc : Thread nD τ)))
    (hF : ∀ w, Fw w = V' (Pipeline.arrRef cfg2.spec w)) :
    (unscopedBufs c V' : sProp 𝕄) = iprop((dat2 V c).arrays Fw ∗ Pipeline.unscopedRest cfg2.spec c V') :=
  Pipeline.unscopedBufs_eq_arrays_two_on_one (dat2 V c) arr_whole2 winFacts₀2.arr_unscoped 2 3 (by decide) arrRef2_2_3 arrRef2_injOn
    (share2_2 V c) (share2_3 V c) (share2_rest V c) V' Fw hF

end Regions

end Cert.KernelIdeal.Reg

end
-- ==== Proof.Reg2Seg.lean ====
/-
  Kernel region 2 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg2Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := winFacts₀2
  block_pos := block_pos2
  stage_whole := stage_whole2
  K := PEmpty
  osem k := k.elim
  ho := Pipeline.OwnSemFacts.none _
  hbody c := (body_obligation2 (tcv (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (tcv (W7 m) c)
  hentry c := by
    rw [Pipeline.ownSems0_none]
    have hsplit : (unscopedBufs c (tcv (W7 m) c) : sProp 𝕄)
        ⊢ iprop((pdats m 2 c).arrays ((pdats m 2 c).arrAt · 0) ∗ Pipeline.unscopedRest spec2 c (tcv (W7 m) c)) :=
      Entails.of_eq (unscopedBufs_eq_arrays2 (tcv (W7 m)) c (tcv (W7 m) c) ((pdats m 2 c).arrAt · 0) (fun w => A_eq2 (tcv (W7 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin : iprop((pdats m 2 c).arrays ((pdats m 2 c).arrAt · cfg2.N) ∗ Pipeline.unscopedRest spec2 c (tcv (W7 m) c))
        ⊢ (unscopedBufs c (tcv (W8 m) c) : sProp 𝕄) := by
      rw [unscopedBufs_eq_arrays2 (tcv (W7 m)) c (tcv (W8 m) c) ((pdats m 2 c).arrAt · cfg2.N) (hF2 m c),
        Pipeline.unscopedRest_congr spec2 c (tcv (W7 m) c) (tcv (W8 m) c) (hrest2 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg3Seg.lean ====
/-
  Kernel region 3 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold

import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (tcv (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (tcv (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (tcv (W9 m) c) (tcv (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg4Entry.lean ====
import proofs.«172830_g53506702573898_cont_9to1_m_1152_4_alg».proof.Proof.Reg4Frame
import proofs.«172830_g53506702573898_cont_9to1_m_1152_4_alg».proof.Proof.LibSharedTwoPairs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 4: entering and leaving the pipeline, windows 2 and 3 standing on one array and windows 1 and 4 on another -/

/-- Windows 2 and 3 of pipeline 4 read one array. -/
theorem arrRef4_2_3 : Pipeline.arrRef spec4 2 = Pipeline.arrRef spec4 3 := by decide

/-- Windows 1 and 4 of pipeline 4 read one array. -/
theorem arrRef4_1_4 : Pipeline.arrRef spec4 1 = Pipeline.arrRef spec4 4 := by decide

/-- Away from windows 3 and 4 the windows of pipeline 4 stand on pairwise distinct arrays. -/
theorem arrRef4_injOn : Set.InjOn (Pipeline.arrRef spec4) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec4 a = Pipeline.arrRef spec4 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share4_0 (c : Dev nD) : (dat4 V c).share 0 = fullShare := by
  unfold Dat.share; rw [if_neg (by decide)]; dsimp only [dat4]
theorem share4_1 (c : Dev nD) : (dat4 V c).share 1 = fullShare.left := by
  unfold Dat.share; rw [if_neg (by decide)]; dsimp only [dat4]
theorem share4_2 (c : Dev nD) : (dat4 V c).share 2 = fullShare.left := by
  unfold Dat.share; rw [if_neg (by decide)]; dsimp only [dat4]
theorem share4_3 (c : Dev nD) : (dat4 V c).share 3 = fullShare.right := by
  unfold Dat.share; rw [if_neg (by decide)]; dsimp only [dat4]
theorem share4_4 (c : Dev nD) : (dat4 V c).share 4 = fullShare.right := by
  unfold Dat.share; rw [if_neg (by decide)]; dsimp only [dat4]
theorem share4_5 (c : Dev nD) : (dat4 V c).share 5 = fullShare := by
  unfold Dat.share; rw [if_pos (by decide)]

/-- Every window but 1, 2, 3 and 4 holds its array at the full share. -/
theorem share4_rest (c : Dev nD) : ∀ w : Fin cfg4.W, w ≠ 2 → w ≠ 3 → w ≠ 1 → w ≠ 4 → (dat4 V c).share w = fullShare := fun
  | ⟨0, _⟩ => fun _ _ _ _ => share4_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share4_5 V c

/-- ENTRY and EXIT of region 4 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays4 (c : Dev nD) (V' : (b : Ref sig .tc) → Buf (Elt F) ((c : Thread nD τ).loc b))
    (Fw : (w : Fin cfg4.W) → Buf (Elt F) ((cfg4.spec w).arr.view.loc (c.tc : Thread nD τ)))
    (hF : ∀ w, Fw w = V' (Pipeline.arrRef cfg4.spec w)) :
    (unscopedBufs c V' : sProp 𝕄) = iprop((dat4 V c).arrays Fw ∗ Pipeline.unscopedRest cfg4.spec c V') :=
  Pipeline.unscopedBufs_eq_arrays_two_pairs (dat4 V c) arr_whole4 winFacts₀4.arr_unscoped 2 3 1 4
    (by decide) (by decide) (by decide) (by decide) (by decide) (by decide) arrRef4_2_3 arrRef4_1_4 arrRef4_injOn
    (share4_2 V c) (share4_3 V c) (share4_1 V c) (share4_4 V c) (share4_rest V c) V' Fw hF

end Regions

end Cert.KernelIdeal.Reg

end
-- ==== Proof.Reg4Seg.lean ====
/-
  Kernel region 4 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg4Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := winFacts₀4
  block_pos := block_pos4
  stage_whole := stage_whole4
  K := PEmpty
  osem k := k.elim
  ho := Pipeline.OwnSemFacts.none _
  hbody c := (body_obligation4 (tcv (W11 m)) c).loose
  hwaits := Pipeline.hwaits_of_owed_zero _ _ _ _ L lv 4 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec4 c (tcv (W11 m) c)
  hentry c := by
    rw [Pipeline.ownSems0_none]
    have hsplit : (unscopedBufs c (tcv (W11 m) c) : sProp 𝕄)
        ⊢ iprop((pdats m 4 c).arrays ((pdats m 4 c).arrAt · 0) ∗ Pipeline.unscopedRest spec4 c (tcv (W11 m) c)) :=
      Entails.of_eq (unscopedBufs_eq_arrays4 (tcv (W11 m)) c (tcv (W11 m) c) ((pdats m 4 c).arrAt · 0) (fun w => A_eq4 (tcv (W11 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin : iprop((pdats m 4 c).arrays ((pdats m 4 c).arrAt · cfg4.N) ∗ Pipeline.unscopedRest spec4 c (tcv (W11 m) c))
        ⊢ (unscopedBufs c (tcv (W12 m) c) : sProp 𝕄) := by
      rw [unscopedBufs_eq_arrays4 (tcv (W11 m)) c (tcv (W12 m) c) ((pdats m 4 c).arrAt · cfg4.N) (hF4 m c),
        Pipeline.unscopedRest_congr spec4 c (tcv (W11 m) c) (tcv (W12 m) c) (hrest4 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg5Entry.lean ====
import proofs.«172830_g53506702573898_cont_9to1_m_1152_4_alg».proof.Proof.Reg5Frame
import proofs.«172830_g53506702573898_cont_9to1_m_1152_4_alg».proof.Proof.LibSharedRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 5: entering and leaving the pipeline, windows 2 and 3 standing on one array -/

/-- Windows 2 and 3 of pipeline 5 read one array. -/
theorem arrRef5_2_3 : Pipeline.arrRef spec5 2 = Pipeline.arrRef spec5 3 := by decide

/-- Away from window 3 the windows of pipeline 5 stand on pairwise distinct arrays. -/
theorem arrRef5_injOn : Set.InjOn (Pipeline.arrRef spec5) ((Finset.univ.erase (3 : Fin 6) : Finset (Fin 6)) : Set (Fin 6)) := by
  have h : ∀ a b : Fin 6, a ≠ 3 → b ≠ 3 → Pipeline.arrRef spec5 a = Pipeline.arrRef spec5 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share5_0 (c : Dev nD) : (dat5 V c).share 0 = fullShare := by
  unfold Dat.share; rw [if_neg (by decide)]; dsimp only [dat5]
theorem share5_1 (c : Dev nD) : (dat5 V c).share 1 = fullShare := by
  unfold Dat.share; rw [if_neg (by decide)]; dsimp only [dat5]
theorem share5_2 (c : Dev nD) : (dat5 V c).share 2 = fullShare.left := by
  unfold Dat.share; rw [if_neg (by decide)]; dsimp only [dat5]
theorem share5_3 (c : Dev nD) : (dat5 V c).share 3 = fullShare.right := by
  unfold Dat.share; rw [if_neg (by decide)]; dsimp only [dat5]
theorem share5_4 (c : Dev nD) : (dat5 V c).share 4 = fullShare := by
  unfold Dat.share; rw [if_neg (by decide)]; dsimp only [dat5]
theorem share5_5 (c : Dev nD) : (dat5 V c).share 5 = fullShare := by
  unfold Dat.share; rw [if_pos (by decide)]

/-- Every window but 2 and 3 holds its array at the full share. -/
theorem share5_rest (c : Dev nD) : ∀ w : Fin cfg5.W, w ≠ 2 → w ≠ 3 → (dat5 V c).share w = fullShare := fun
  | ⟨0, _⟩ => fun _ _ => share5_0 V c
  | ⟨1, _⟩ => fun _ _ => share5_1 V c
  | ⟨2, _⟩ => fun h _ => absurd rfl h
  | ⟨3, _⟩ => fun _ h => absurd rfl h
  | ⟨4, _⟩ => fun _ _ => share5_4 V c
  | ⟨5, _⟩ => fun _ _ => share5_5 V c

/-- ENTRY and EXIT of region 5 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays5 (c : Dev nD) (V' : (b : Ref sig .tc) → Buf (Elt F) ((c : Thread nD τ).loc b))
    (Fw : (w : Fin cfg5.W) → Buf (Elt F) ((cfg5.spec w).arr.view.loc (c.tc : Thread nD τ)))
    (hF : ∀ w, Fw w = V' (Pipeline.arrRef cfg5.spec w)) :
    (unscopedBufs c V' : sProp 𝕄) = iprop((dat5 V c).arrays Fw ∗ Pipeline.unscopedRest cfg5.spec c V') :=
  Pipeline.unscopedBufs_eq_arrays_two_on_one (dat5 V c) arr_whole5 winFacts₀5.arr_unscoped 2 3 (by decide) arrRef5_2_3 arrRef5_injOn
    (share5_2 V c) (share5_3 V c) (share5_rest V c) V' Fw hF

end Regions

end Cert.KernelIdeal.Reg

end
-- ==== Proof.Reg5Seg.lean ====
/-
  Kernel region 5 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg5Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := winFacts₀5
  block_pos := block_pos5
  stage_whole := stage_whole5
  K := PEmpty
  osem k := k.elim
  ho := Pipeline.OwnSemFacts.none _
  hbody c := (body_obligation5 (tcv (W12 m)) c).loose
  hwaits := Pipeline.hwaits_of_owed_zero _ _ _ _ L lv 5 fun _ _ => rfl
  pre c := iprop(StableHlo.held (c : Thread nD τ) (Pipeline.ucRefs τ sig) (W12 m c) ∗ R c)
  post c := iprop(StableHlo.held (c : Thread nD τ) (Pipeline.ucRefs τ sig) (W13 m c) ∗ R c)
  X c := iprop(∃ r, prngReg c r)
  Y c := iprop(∃ r, prngReg c r)
  Z c := Pipeline.unscopedRest (Ix := Unit) (Name := ℕ) (U := UR sig nD τ) (Lvl := ℕ) spec5 c (tcv (W12 m) c)
  hentry c := by
    rw [Pipeline.ownSems0_none]
    have hsplit : (unscopedBufs c (tcv (W12 m) c) : sProp 𝕄)
        ⊢ iprop((pdats m 5 c).arrays ((pdats m 5 c).arrAt · 0) ∗ Pipeline.unscopedRest spec5 c (tcv (W12 m) c)) :=
      Entails.of_eq (unscopedBufs_eq_arrays5 (tcv (W12 m)) c (tcv (W12 m) c) ((pdats m 5 c).arrAt · 0) (fun w => A_eq5 (tcv (W12 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin : iprop((pdats m 5 c).arrays ((pdats m 5 c).arrAt · cfg5.N) ∗ Pipeline.unscopedRest spec5 c (tcv (W12 m) c))
        ⊢ (unscopedBufs c (tcv (W13 m) c) : sProp 𝕄) := by
      rw [unscopedBufs_eq_arrays5 (tcv (W12 m)) c (tcv (W13 m) c) ((pdats m 5 c).arrAt · cfg5.N) (hF5 m c),
        Pipeline.unscopedRest_congr spec5 c (tcv (W12 m) c) (tcv (W13 m) c) (hrest5 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg6Seg.lean ====
/-
  Kernel region 6 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold

import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (W14 m)) c).loose
  hwaits := Pipeline.hwaits_of_owed_zero _ _ _ _ L lv 6 fun _ _ => rfl
  pre c := iprop(StableHlo.held (c : Thread nD τ) (Pipeline.ucRefs τ sig) (W14 m c) ∗ R c)
  post c := iprop(StableHlo.held (c : Thread nD τ) (Pipeline.ucRefs τ sig) (W15 m c) ∗ R c)
  X c := iprop(∃ r, prngReg c r)
  Y c := iprop(∃ r, prngReg c r)
  Z c := Pipeline.unscopedRest (Ix := Unit) (Name := ℕ) (U := UR sig nD τ) (Lvl := ℕ) spec6 c (tcv (W14 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (tcv (W14 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (tcv (W14 m) c) (tcv (W15 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg7Entry.lean ====
import proofs.«172830_g53506702573898_cont_9to1_m_1152_4_alg».proof.Proof.Reg7Frame
import proofs.«172830_g53506702573898_cont_9to1_m_1152_4_alg».proof.Proof.LibSharedTwoPairs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 7: entering and leaving the pipeline, windows 2 and 3 standing on one array and windows 1 and 4 on another -/

/-- Windows 2 and 3 of pipeline 7 read one array. -/
theorem arrRef7_2_3 : Pipeline.arrRef spec7 2 = Pipeline.arrRef spec7 3 := by decide

/-- Windows 1 and 4 of pipeline 7 read one array. -/
theorem arrRef7_1_4 : Pipeline.arrRef spec7 1 = Pipeline.arrRef spec7 4 := by decide

/-- Away from windows 3 and 4 the windows of pipeline 7 stand on pairwise distinct arrays. -/
theorem arrRef7_injOn : Set.InjOn (Pipeline.arrRef spec7) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec7 a = Pipeline.arrRef spec7 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share7_0 (c : Dev nD) : (dat7 V c).share 0 = fullShare := by
  unfold Dat.share; rw [if_neg (by decide)]; dsimp only [dat7]
theorem share7_1 (c : Dev nD) : (dat7 V c).share 1 = fullShare.left := by
  unfold Dat.share; rw [if_neg (by decide)]; dsimp only [dat7]
theorem share7_2 (c : Dev nD) : (dat7 V c).share 2 = fullShare.left := by
  unfold Dat.share; rw [if_neg (by decide)]; dsimp only [dat7]
theorem share7_3 (c : Dev nD) : (dat7 V c).share 3 = fullShare.right := by
  unfold Dat.share; rw [if_neg (by decide)]; dsimp only [dat7]
theorem share7_4 (c : Dev nD) : (dat7 V c).share 4 = fullShare.right := by
  unfold Dat.share; rw [if_neg (by decide)]; dsimp only [dat7]
theorem share7_5 (c : Dev nD) : (dat7 V c).share 5 = fullShare := by
  unfold Dat.share; rw [if_pos (by decide)]

/-- Every window but 1, 2, 3 and 4 holds its array at the full share. -/
theorem share7_rest (c : Dev nD) : ∀ w : Fin cfg7.W, w ≠ 2 → w ≠ 3 → w ≠ 1 → w ≠ 4 → (dat7 V c).share w = fullShare := fun
  | ⟨0, _⟩ => fun _ _ _ _ => share7_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share7_5 V c

/-- ENTRY and EXIT of region 7 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays7 (c : Dev nD) (V' : (b : Ref sig .tc) → Buf (Elt F) ((c : Thread nD τ).loc b))
    (Fw : (w : Fin cfg7.W) → Buf (Elt F) ((cfg7.spec w).arr.view.loc (c.tc : Thread nD τ)))
    (hF : ∀ w, Fw w = V' (Pipeline.arrRef cfg7.spec w)) :
    (unscopedBufs c V' : sProp 𝕄) = iprop((dat7 V c).arrays Fw ∗ Pipeline.unscopedRest cfg7.spec c V') :=
  Pipeline.unscopedBufs_eq_arrays_two_pairs (dat7 V c) arr_whole7 winFacts₀7.arr_unscoped 2 3 1 4
    (by decide) (by decide) (by decide) (by decide) (by decide) (by decide) arrRef7_2_3 arrRef7_1_4 arrRef7_injOn
    (share7_2 V c) (share7_3 V c) (share7_1 V c) (share7_4 V c) (share7_rest V c) V' Fw hF

end Regions

end Cert.KernelIdeal.Reg

end
-- ==== Proof.Reg7Seg.lean ====
/-
  Kernel region 7 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg7Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := winFacts₀7
  block_pos := block_pos7
  stage_whole := stage_whole7
  K := PEmpty
  osem k := k.elim
  ho := Pipeline.OwnSemFacts.none _
  hbody c := (body_obligation7 (tcv (W20 m)) c).loose
  hwaits := Pipeline.hwaits_of_owed_zero _ _ _ _ L lv 7 fun _ _ => rfl
  pre c := iprop(StableHlo.held (c : Thread nD τ) (Pipeline.ucRefs τ sig) (W20 m c) ∗ R c)
  post c := iprop(StableHlo.held (c : Thread nD τ) (Pipeline.ucRefs τ sig) (W21 m c) ∗ R c)
  X c := iprop(∃ r, prngReg c r)
  Y c := iprop(∃ r, prngReg c r)
  Z c := Pipeline.unscopedRest (Ix := Unit) (Name := ℕ) (U := UR sig nD τ) (Lvl := ℕ) spec7 c (tcv (W20 m) c)
  hentry c := by
    rw [Pipeline.ownSems0_none]
    have hsplit : (unscopedBufs c (tcv (W20 m) c) : sProp 𝕄)
        ⊢ iprop((pdats m 7 c).arrays ((pdats m 7 c).arrAt · 0) ∗ Pipeline.unscopedRest spec7 c (tcv (W20 m) c)) :=
      Entails.of_eq (unscopedBufs_eq_arrays7 (tcv (W20 m)) c (tcv (W20 m) c) ((pdats m 7 c).arrAt · 0) (fun w => A_eq7 (tcv (W20 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin : iprop((pdats m 7 c).arrays ((pdats m 7 c).arrAt · cfg7.N) ∗ Pipeline.unscopedRest spec7 c (tcv (W20 m) c))
        ⊢ (unscopedBufs c (tcv (W21 m) c) : sProp 𝕄) := by
      rw [unscopedBufs_eq_arrays7 (tcv (W20 m)) c (tcv (W21 m) c) ((pdats m 7 c).arrAt · cfg7.N) (hF7 m c),
        Pipeline.unscopedRest_congr spec7 c (tcv (W20 m) c) (tcv (W21 m) c) (hrest7 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg8Entry.lean ====
import proofs.«172830_g53506702573898_cont_9to1_m_1152_4_alg».proof.Proof.Reg8Frame
import proofs.«172830_g53506702573898_cont_9to1_m_1152_4_alg».proof.Proof.LibSharedRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 8: entering and leaving the pipeline, windows 2 and 3 standing on one array -/

/-- Windows 2 and 3 of pipeline 8 read one array. -/
theorem arrRef8_2_3 : Pipeline.arrRef spec8 2 = Pipeline.arrRef spec8 3 := by decide

/-- Away from window 3 the windows of pipeline 8 stand on pairwise distinct arrays. -/
theorem arrRef8_injOn : Set.InjOn (Pipeline.arrRef spec8) ((Finset.univ.erase (3 : Fin 6) : Finset (Fin 6)) : Set (Fin 6)) := by
  have h : ∀ a b : Fin 6, a ≠ 3 → b ≠ 3 → Pipeline.arrRef spec8 a = Pipeline.arrRef spec8 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share8_0 (c : Dev nD) : (dat8 V c).share 0 = fullShare := by
  unfold Dat.share; rw [if_neg (by decide)]; dsimp only [dat8]
theorem share8_1 (c : Dev nD) : (dat8 V c).share 1 = fullShare := by
  unfold Dat.share; rw [if_neg (by decide)]; dsimp only [dat8]
theorem share8_2 (c : Dev nD) : (dat8 V c).share 2 = fullShare.left := by
  unfold Dat.share; rw [if_neg (by decide)]; dsimp only [dat8]
theorem share8_3 (c : Dev nD) : (dat8 V c).share 3 = fullShare.right := by
  unfold Dat.share; rw [if_neg (by decide)]; dsimp only [dat8]
theorem share8_4 (c : Dev nD) : (dat8 V c).share 4 = fullShare := by
  unfold Dat.share; rw [if_neg (by decide)]; dsimp only [dat8]
theorem share8_5 (c : Dev nD) : (dat8 V c).share 5 = fullShare := by
  unfold Dat.share; rw [if_pos (by decide)]

/-- Every window but 2 and 3 holds its array at the full share. -/
theorem share8_rest (c : Dev nD) : ∀ w : Fin cfg8.W, w ≠ 2 → w ≠ 3 → (dat8 V c).share w = fullShare := fun
  | ⟨0, _⟩ => fun _ _ => share8_0 V c
  | ⟨1, _⟩ => fun _ _ => share8_1 V c
  | ⟨2, _⟩ => fun h _ => absurd rfl h
  | ⟨3, _⟩ => fun _ h => absurd rfl h
  | ⟨4, _⟩ => fun _ _ => share8_4 V c
  | ⟨5, _⟩ => fun _ _ => share8_5 V c

/-- ENTRY and EXIT of region 8 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays8 (c : Dev nD) (V' : (b : Ref sig .tc) → Buf (Elt F) ((c : Thread nD τ).loc b))
    (Fw : (w : Fin cfg8.W) → Buf (Elt F) ((cfg8.spec w).arr.view.loc (c.tc : Thread nD τ)))
    (hF : ∀ w, Fw w = V' (Pipeline.arrRef cfg8.spec w)) :
    (unscopedBufs c V' : sProp 𝕄) = iprop((dat8 V c).arrays Fw ∗ Pipeline.unscopedRest cfg8.spec c V') :=
  Pipeline.unscopedBufs_eq_arrays_two_on_one (dat8 V c) arr_whole8 winFacts₀8.arr_unscoped 2 3 (by decide) arrRef8_2_3 arrRef8_injOn
    (share8_2 V c) (share8_3 V c) (share8_rest V c) V' Fw hF

end Regions

end Cert.KernelIdeal.Reg

end
-- ==== Proof.Reg8Seg.lean ====
/-
  Kernel region 8 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg8Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := winFacts₀8
  block_pos := block_pos8
  stage_whole := stage_whole8
  K := PEmpty
  osem k := k.elim
  ho := Pipeline.OwnSemFacts.none _
  hbody c := (body_obligation8 (tcv (W21 m)) c).loose
  hwaits := Pipeline.hwaits_of_owed_zero _ _ _ _ L lv 8 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec8 c (tcv (W21 m) c)
  hentry c := by
    rw [Pipeline.ownSems0_none]
    have hsplit : (unscopedBufs c (tcv (W21 m) c) : sProp 𝕄)
        ⊢ iprop((pdats m 8 c).arrays ((pdats m 8 c).arrAt · 0) ∗ Pipeline.unscopedRest spec8 c (tcv (W21 m) c)) :=
      Entails.of_eq (unscopedBufs_eq_arrays8 (tcv (W21 m)) c (tcv (W21 m) c) ((pdats m 8 c).arrAt · 0) (fun w => A_eq8 (tcv (W21 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin : iprop((pdats m 8 c).arrays ((pdats m 8 c).arrAt · cfg8.N) ∗ Pipeline.unscopedRest spec8 c (tcv (W21 m) c))
        ⊢ (unscopedBufs c (tcv (W22 m) c) : sProp 𝕄) := by
      rw [unscopedBufs_eq_arrays8 (tcv (W21 m)) c (tcv (W22 m) c) ((pdats m 8 c).arrAt · cfg8.N) (hF8 m c),
        Pipeline.unscopedRest_congr spec8 c (tcv (W21 m) c) (tcv (W22 m) c) (hrest8 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg9Seg.lean ====
/-
  Kernel region 9 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold

import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (tcv (W23 m)) c).loose
  hwaits := Pipeline.hwaits_of_owed_zero _ _ _ _ L lv 9 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec9 c (tcv (W23 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (tcv (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (tcv (W23 m) c) (tcv (W24 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg10Entry.lean ====
import proofs.«172830_g53506702573898_cont_9to1_m_1152_4_alg».proof.Proof.Reg10Frame
import proofs.«172830_g53506702573898_cont_9to1_m_1152_4_alg».proof.Proof.LibSharedTwoPairs

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 10: entering and leaving the pipeline, windows 2 and 3 standing on one array and windows 1 and 4 on another -/

/-- Windows 2 and 3 of pipeline 10 read one array. -/
theorem arrRef10_2_3 : Pipeline.arrRef spec10 2 = Pipeline.arrRef spec10 3 := by decide

/-- Windows 1 and 4 of pipeline 10 read one array. -/
theorem arrRef10_1_4 : Pipeline.arrRef spec10 1 = Pipeline.arrRef spec10 4 := by decide

/-- Away from windows 3 and 4 the windows of pipeline 10 stand on pairwise distinct arrays. -/
theorem arrRef10_injOn : Set.InjOn (Pipeline.arrRef spec10) (((Finset.univ.erase (3 : Fin 6)).erase (4 : Fin 6) : Finset (Fin 6)) : Set (Fin 6)) := by
  have h : ∀ a b : Fin 6, a ≠ 3 → a ≠ 4 → b ≠ 3 → b ≠ 4 → Pipeline.arrRef spec10 a = Pipeline.arrRef spec10 b → a = b := by decide
  intro a ha b hb hab
  have ha' := Finset.mem_coe.mp ha
  have hb' := Finset.mem_coe.mp hb
  exact h a b (Finset.ne_of_mem_erase (Finset.mem_of_mem_erase ha')) (Finset.ne_of_mem_erase ha')
    (Finset.ne_of_mem_erase (Finset.mem_of_mem_erase hb')) (Finset.ne_of_mem_erase hb') hab

section Regions
variable (V : (c : Dev nD) → (b : Ref sig .tc) → Buf (Elt F) ((c : Thread nD τ).loc b))

/-- The shares the proof data hold the arrays at, window by window. -/
theorem share10_0 (c : Dev nD) : (dat10 V c).share 0 = fullShare := by
  unfold Dat.share; rw [if_neg (by decide)]; dsimp only [dat10]
theorem share10_1 (c : Dev nD) : (dat10 V c).share 1 = fullShare.left := by
  unfold Dat.share; rw [if_neg (by decide)]; dsimp only [dat10]
theorem share10_2 (c : Dev nD) : (dat10 V c).share 2 = fullShare.left := by
  unfold Dat.share; rw [if_neg (by decide)]; dsimp only [dat10]
theorem share10_3 (c : Dev nD) : (dat10 V c).share 3 = fullShare.right := by
  unfold Dat.share; rw [if_neg (by decide)]; dsimp only [dat10]
theorem share10_4 (c : Dev nD) : (dat10 V c).share 4 = fullShare.right := by
  unfold Dat.share; rw [if_neg (by decide)]; dsimp only [dat10]
theorem share10_5 (c : Dev nD) : (dat10 V c).share 5 = fullShare := by
  unfold Dat.share; rw [if_pos (by decide)]

/-- Every window but 1, 2, 3 and 4 holds its array at the full share. -/
theorem share10_rest (c : Dev nD) : ∀ w : Fin cfg10.W, w ≠ 2 → w ≠ 3 → w ≠ 1 → w ≠ 4 → (dat10 V c).share w = fullShare := fun
  | ⟨0, _⟩ => fun _ _ _ _ => share10_0 V c
  | ⟨1, _⟩ => fun _ _ h _ => absurd rfl h
  | ⟨2, _⟩ => fun h _ _ _ => absurd rfl h
  | ⟨3, _⟩ => fun _ h _ _ => absurd rfl h
  | ⟨4, _⟩ => fun _ _ _ h => absurd rfl h
  | ⟨5, _⟩ => fun _ _ _ _ => share10_5 V c

/-- ENTRY and EXIT of region 10 in one equation: core `c`'s unscoped buffers at any contents `V'` are the pipeline's arrays,
    window by window at `V'`'s contents `Fw` (the array windows 2 and 3 share and the array windows 1 and 4 share each dealt
    between its two windows by the two halves of the full share), beside the unscoped buffers no window stands on. Read
    left to right at the entry contents it is the region's entry; read right to left at the contents the region leaves,
    its exit. -/
theorem unscopedBufs_eq_arrays10 (c : Dev nD) (V' : (b : Ref sig .tc) → Buf (Elt F) ((c : Thread nD τ).loc b))
    (Fw : (w : Fin cfg10.W) → Buf (Elt F) ((cfg10.spec w).arr.view.loc (c.tc : Thread nD τ)))
    (hF : ∀ w, Fw w = V' (Pipeline.arrRef cfg10.spec w)) :
    (unscopedBufs c V' : sProp 𝕄) = iprop((dat10 V c).arrays Fw ∗ Pipeline.unscopedRest cfg10.spec c V') :=
  Pipeline.unscopedBufs_eq_arrays_two_pairs (dat10 V c) arr_whole10 winFacts₀10.arr_unscoped 2 3 1 4
    (by decide) (by decide) (by decide) (by decide) (by decide) (by decide) arrRef10_2_3 arrRef10_1_4 arrRef10_injOn
    (share10_2 V c) (share10_3 V c) (share10_1 V c) (share10_4 V c) (share10_rest V c) V' Fw hF

end Regions

end Cert.KernelIdeal.Reg

end
-- ==== Proof.Reg10Seg.lean ====
/-
  Kernel region 10 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg10Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg10 : Pipeline.RegionSeg (pcfgs (F := F)) adm (pdats m) () defs₀ 𝒱₀ L lv 10 where
  win := winFacts₀10
  block_pos := block_pos10
  stage_whole := stage_whole10
  K := PEmpty
  osem k := k.elim
  ho := Pipeline.OwnSemFacts.none _
  hbody c := (body_obligation10 (tcv (W25 m)) c).loose
  hwaits := Pipeline.hwaits_of_owed_zero _ _ _ _ L lv 10 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec10 c (tcv (W25 m) c)
  hentry c := by
    rw [Pipeline.ownSems0_none]
    have hsplit : (unscopedBufs c (tcv (W25 m) c) : sProp 𝕄)
        ⊢ iprop((pdats m 10 c).arrays ((pdats m 10 c).arrAt · 0) ∗ Pipeline.unscopedRest spec10 c (tcv (W25 m) c)) :=
      Entails.of_eq (unscopedBufs_eq_arrays10 (tcv (W25 m)) c (tcv (W25 m) c) ((pdats m 10 c).arrAt · 0) (fun w => A_eq10 (tcv (W25 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = Pipeline.ΦA spec10 c from rfl]; unfold Pipeline.ΦA
    iintro ⟨Hp, -, Hr⟩
    isplitl [Hr]; · iexact Hr
    iexact Hp
  hout c := by
    rw [Pipeline.ownSems0_none, show (pdats m 10 c).Φ (Fin.last _) = Pipeline.ΦA spec10 c from rfl]; unfold Pipeline.ΦA
    iintro ⟨Hr, Hp⟩
    isplitl [Hp]; · iexact Hp
    isplitr; · iempintro
    iexact Hr
  hexit c := by
    have hjoin : iprop((pdats m 10 c).arrays ((pdats m 10 c).arrAt · cfg10.N) ∗ Pipeline.unscopedRest spec10 c (tcv (W25 m) c))
        ⊢ (unscopedBufs c (tcv (W26 m) c) : sProp 𝕄) := by
      rw [unscopedBufs_eq_arrays10 (tcv (W25 m)) c (tcv (W26 m) c) ((pdats m 10 c).arrAt · cfg10.N) (hF10 m c),
        Pipeline.unscopedRest_congr spec10 c (tcv (W25 m) c) (tcv (W26 m) c) (hrest10 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg11Entry.lean ====
import proofs.«172830_g53506702573898_cont_9to1_m_1152_4_alg».proof.Proof.Reg11Frame
import proofs.«172830_g53506702573898_cont_9to1_m_1152_4_alg».proof.Proof.LibSharedRegion

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 11: entering and leaving the pipeline, windows 2 and 3 standing on one array -/

/-- Windows 2 and 3 of pipeline 11 read one array. -/
theorem arrRef11_2_3 : Pipeline.arrRef spec11 2 = Pipeline.arrRef spec11 3 := by decide

/-- Away from window 3 the windows of pipeline 11 stand on pairwise distinct arrays. -/
theorem arrRef11_injOn : Set.InjOn (Pipeline.arrRef spec11) ((Finset.univ.erase (3 : Fin 6) : Finset (Fin 6)) : Set (Fin 6)) := by
  have h : ∀ a b : Fin 6, a ≠ 3 → b ≠ 3 → Pipeline.arrRef spec11 a = Pipeline.arrRef spec11 b → a = b := by decide
  intro a ha b hb hab
  exact h a b (Finset.ne_of_mem_erase (Finset.mem_coe.mp ha)) (Finset.ne_of_mem_erase (Finset.mem_coe.mp hb)) hab

section Regions
variable (V : (c : Dev nD) → (b : Ref sig .tc) → Buf (Elt F) ((c : Thread nD τ).loc b))

/-- The shares the proof data hold the arrays at, window by window. -/
theorem share11_0 (c : Dev nD) : (dat11 V c).share 0 = fullShare := by
  unfold Dat.share; rw [if_neg (by decide)]; dsimp only [dat11]
theorem share11_1 (c : Dev nD) : (dat11 V c).share 1 = fullShare := by
  unfold Dat.share; rw [if_neg (by decide)]; dsimp only [dat11]
theorem share11_2 (c : Dev nD) : (dat11 V c).share 2 = fullShare.left := by
  unfold Dat.share; rw [if_neg (by decide)]; dsimp only [dat11]
theorem share11_3 (c : Dev nD) : (dat11 V c).share 3 = fullShare.right := by
  unfold Dat.share; rw [if_neg (by decide)]; dsimp only [dat11]
theorem share11_4 (c : Dev nD) : (dat11 V c).share 4 = fullShare := by
  unfold Dat.share; rw [if_neg (by decide)]; dsimp only [dat11]
theorem share11_5 (c : Dev nD) : (dat11 V c).share 5 = fullShare := by
  unfold Dat.share; rw [if_pos (by decide)]

/-- Every window but 2 and 3 holds its array at the full share. -/
theorem share11_rest (c : Dev nD) : ∀ w : Fin cfg11.W, w ≠ 2 → w ≠ 3 → (dat11 V c).share w = fullShare := fun
  | ⟨0, _⟩ => fun _ _ => share11_0 V c
  | ⟨1, _⟩ => fun _ _ => share11_1 V c
  | ⟨2, _⟩ => fun h _ => absurd rfl h
  | ⟨3, _⟩ => fun _ h => absurd rfl h
  | ⟨4, _⟩ => fun _ _ => share11_4 V c
  | ⟨5, _⟩ => fun _ _ => share11_5 V c

/-- ENTRY and EXIT of region 11 in one equation: core `c`'s unscoped buffers at any contents `V'` are the pipeline's arrays,
    window by window at `V'`'s contents `Fw` (the array windows 2 and 3 share dealt between them by the two halves of the
    full share), beside the unscoped buffers no window stands on. Read left to right at the entry contents it is the
    region's entry; read right to left at the contents the region leaves, its exit. -/
theorem unscopedBufs_eq_arrays11 (c : Dev nD) (V' : (b : Ref sig .tc) → Buf (Elt F) ((c : Thread nD τ).loc b))
    (Fw : (w : Fin cfg11.W) → Buf (Elt F) ((cfg11.spec w).arr.view.loc (c.tc : Thread nD τ)))
    (hF : ∀ w, Fw w = V' (Pipeline.arrRef cfg11.spec w)) :
    (unscopedBufs c V' : sProp 𝕄) = iprop((dat11 V c).arrays Fw ∗ Pipeline.unscopedRest cfg11.spec c V') :=
  Pipeline.unscopedBufs_eq_arrays_two_on_one (dat11 V c) arr_whole11 winFacts₀11.arr_unscoped 2 3 (by decide) arrRef11_2_3 arrRef11_injOn
    (share11_2 V c) (share11_3 V c) (share11_rest V c) V' Fw hF

end Regions

end Cert.KernelIdeal.Reg

end
-- ==== Proof.Reg11Seg.lean ====
/-
  Kernel region 11 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold
import proofs.«172830_g53506702573898_cont_9to1_m_1152_4_alg».proof.Proof.Reg11Entry
import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg11 : Pipeline.RegionSeg (pcfgs (F := F)) adm (pdats m) () defs₀ 𝒱₀ L lv 11 where
  win := winFacts₀11
  block_pos := block_pos11
  stage_whole := stage_whole11
  K := PEmpty
  osem k := k.elim
  ho := Pipeline.OwnSemFacts.none _
  hbody c := (body_obligation11 (tcv (W26 m)) c).loose
  hwaits := Pipeline.hwaits_of_owed_zero _ _ _ _ L lv 11 fun _ _ => rfl
  pre c := iprop(StableHlo.held (c : Thread nD τ) (Pipeline.ucRefs τ sig) (W26 m c) ∗ R c)
  post c := iprop(StableHlo.held (c : Thread nD τ) (Pipeline.ucRefs τ sig) (W27 m c) ∗ R c)
  X c := iprop(∃ r, prngReg c r)
  Y c := iprop(∃ r, prngReg c r)
  Z c := Pipeline.unscopedRest (Ix := Unit) (Name := ℕ) (U := UR sig nD τ) (Lvl := ℕ) spec11 c (tcv (W26 m) c)
  hentry c := by
    rw [Pipeline.ownSems0_none]
    have hsplit : (unscopedBufs c (tcv (W26 m) c) : sProp 𝕄)
        ⊢ iprop((pdats m 11 c).arrays ((pdats m 11 c).arrAt · 0) ∗ Pipeline.unscopedRest spec11 c (tcv (W26 m) c)) :=
      Entails.of_eq (unscopedBufs_eq_arrays11 (tcv (W26 m)) c (tcv (W26 m) c) ((pdats m 11 c).arrAt · 0) (fun w => A_eq11 (tcv (W26 m)) c w))
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = Pipeline.ΦA spec11 c from rfl]; unfold Pipeline.ΦA
    iintro ⟨Hp, -, Hr⟩
    isplitl [Hr]; · iexact Hr
    iexact Hp
  hout c := by
    rw [Pipeline.ownSems0_none, show (pdats m 11 c).Φ (Fin.last _) = Pipeline.ΦA spec11 c from rfl]; unfold Pipeline.ΦA
    iintro ⟨Hr, Hp⟩
    isplitl [Hp]; · iexact Hp
    isplitr; · iempintro
    iexact Hr
  hexit c := by
    have hjoin : iprop((pdats m 11 c).arrays ((pdats m 11 c).arrAt · cfg11.N) ∗ Pipeline.unscopedRest spec11 c (tcv (W26 m) c))
        ⊢ (unscopedBufs c (tcv (W27 m) c) : sProp 𝕄) := by
      rw [unscopedBufs_eq_arrays11 (tcv (W26 m)) c (tcv (W27 m) c) ((pdats m 11 c).arrAt · cfg11.N) (hF11 m c),
        Pipeline.unscopedRest_congr spec11 c (tcv (W26 m) c) (tcv (W27 m) c) (hrest11 m c)]
      exact .rfl
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.Reg12Seg.lean ====
/-
  Kernel region 12 of @main as a segment of the run: entered with every unscoped buffer of the core at the contents
  the fold gives before the region, left with them at the contents it gives after it. The region's arrays are sorted
  out of the unscoped buffers at entry and put back, at what the pipeline leaves, at exit; the generator register
  passes through the pipeline's invariant; nothing is owed; the kernel has no semaphore of its own.
-/
import proofs.«172830_g53506702573898_cont_9to1_m_1152_4_alg».proof.Proof.Fold

import Idealize.ShloMosaic.Lib.Pipeline.RegionsLoop

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg12 : Pipeline.RegionSeg (pcfgs (F := F)) adm (pdats m) () defs₀ 𝒱₀ L lv 12 where
  win := launch12.win.to₀
  block_pos := launch12.block_pos
  stage_whole := launch12.stage_whole
  K := PEmpty
  osem k := k.elim
  ho := Pipeline.OwnSemFacts.none _
  hbody c := (body_obligation12 (tcv (W28 m)) c).loose
  hwaits := Pipeline.hwaits_of_owed_zero _ _ _ _ L lv 12 fun _ _ => rfl
  pre c := iprop(StableHlo.held (c : Thread nD τ) (Pipeline.ucRefs τ sig) (W28 m c) ∗ R c)
  post c := iprop(StableHlo.held (c : Thread nD τ) (Pipeline.ucRefs τ sig) (W29 m c) ∗ R c)
  X c := iprop(∃ r, prngReg c r)
  Y c := iprop(∃ r, prngReg c r)
  Z c := Pipeline.unscopedRest (Ix := Unit) (Name := ℕ) (U := UR sig nD τ) (Lvl := ℕ) spec12 c (tcv (W28 m) c)
  hentry c := by
    rw [Pipeline.ownSems0_none]
    have hsplit := Pipeline.arrays_of_unscopedBufs (p := 12) (pcfgs (F := F)) adm (pdats m) launch12.win launch12.arr_whole c
      ((pdats m 12 c).share_full fun _ => rfl) (tcv (W28 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = Pipeline.ΦA spec12 c from rfl]; unfold Pipeline.ΦA
    iintro ⟨Hp, -, Hr⟩
    isplitl [Hr]; · iexact Hr
    iexact Hp
  hout c := by
    rw [Pipeline.ownSems0_none, show (pdats m 12 c).Φ (Fin.last _) = Pipeline.ΦA spec12 c from rfl]; unfold Pipeline.ΦA
    iintro ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (tcv (W28 m) c) (tcv (W29 m) c) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg
end
-- ==== Proof.RunAll.lean ====
/-
  The run of the whole kernel program: from any memory with zero counters every weakly fair execution of @main
  terminates, nothing faulting, and every unscoped buffer of every core ends at the last valuation of the fold —
  the thirteen regions' segments and the seventeen host stretches chained, the launch giving each core its generator
  register and its (empty) dues.
-/
import proofs.«172830_g53506702573898_cont_9to1_m_1152_4_alg».proof.Proof.RunCond
import proofs.«172830_g53506702573898_cont_9to1_m_1152_4_alg».proof.Proof.Reg0Seg
import proofs.«172830_g53506702573898_cont_9to1_m_1152_4_alg».proof.Proof.Reg1Seg
import proofs.«172830_g53506702573898_cont_9to1_m_1152_4_alg».proof.Proof.Reg2Seg
import proofs.«172830_g53506702573898_cont_9to1_m_1152_4_alg».proof.Proof.Reg3Seg
import proofs.«172830_g53506702573898_cont_9to1_m_1152_4_alg».proof.Proof.Reg4Seg
import proofs.«172830_g53506702573898_cont_9to1_m_1152_4_alg».proof.Proof.Reg5Seg
import proofs.«172830_g53506702573898_cont_9to1_m_1152_4_alg».proof.Proof.Reg6Seg
import proofs.«172830_g53506702573898_cont_9to1_m_1152_4_alg».proof.Proof.Reg7Seg
import proofs.«172830_g53506702573898_cont_9to1_m_1152_4_alg».proof.Proof.Reg8Seg
import proofs.«172830_g53506702573898_cont_9to1_m_1152_4_alg».proof.Proof.Reg9Seg
import proofs.«172830_g53506702573898_cont_9to1_m_1152_4_alg».proof.Proof.Reg10Seg
import proofs.«172830_g53506702573898_cont_9to1_m_1152_4_alg».proof.Proof.Reg11Seg
import proofs.«172830_g53506702573898_cont_9to1_m_1152_4_alg».proof.Proof.Reg12Seg

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch leaves every core its generator register at some state and dues at nothing. -/
theorem rest_of_launch (O₀ : Dev nD → CellTallies nD τ sig Unit) (h0 : ∀ c, O₀ c = 0) (G : Dev nD → sProp 𝕄) :
    iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (fun c => R c) : sProp 𝕄) := by
  have hcore : ∀ c : Dev nD, (iprop(unscopedSems0 c ∗ owes (c : Thread nD τ) (O₀ c) ∅ ∗ Pipeline.launchCred O₀ c ∗ prngReg c (ρ c) ∗ G c) : sProp 𝕄) ⊢ R c := fun c => by
    rw [h0 c]
    iintro ⟨-, HO, -, Hp, -⟩
    isplitl [Hp]; · iexists _; iexact Hp
    iexists ∅; iexact HO
  have hmono : (bigSep Finset.univ fun c : Dev nD => iprop(unscopedSems0 c ∗ owes (c : Thread nD τ) (O₀ c) ∅ ∗ Pipeline.launchCred O₀ c ∗ prngReg c (ρ c) ∗ G c) : sProp 𝕄)
      ⊢ (bigSep Finset.univ (fun c => R c) : sProp 𝕄) :=
    bigSep_mono fun c _ => hcore c
  iintro ⟨H, -⟩
  imodintro
  iapply hmono
  iexact H

set_option backward.isDefEq.respectTransparency.types false in
set_option maxHeartbeats 4000000 in
/-- Every unscoped buffer of every core ends at the fold's last valuation. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W30 m c b) := by
  have h := Gen.run_cond m (F := F) (Ix := Unit) (U := UR sig nD τ) (Lvl := ℕ) emb₁ () 𝒱₀ L lv (fun _ _ => rfl) ρ (outs m) (pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => R c)
    (hE0 := rest_of_launch (F := F) ρ 0 (fun _ => rfl) _)
    (hE13 := fun c => by iintro ⟨-, HO⟩; iexact HO)
    (reg0 m) (fun c => .rfl) (fun c => by rw [V1_eq m c]; exact .rfl)
    (reg1 m) (fun c => by rw [V6_eq m c]; exact .rfl) (fun c => by rw [V7_eq m c]; exact .rfl)
    (reg2 m) (fun c => by rw [V7_eq m c]; exact .rfl) (fun c => by rw [V8_eq m c]; exact .rfl)
    (reg3 m) (fun c => by rw [V9_eq m c]; exact .rfl) (fun c => by rw [V10_eq m c]; exact .rfl)
    (reg4 m) (fun c => by rw [V11_eq m c]; exact .rfl) (fun c => by rw [V12_eq m c]; exact .rfl)
    (reg5 m) (fun c => by rw [V12_eq m c]; exact .rfl) (fun c => by rw [V13_eq m c]; exact .rfl)
    (reg6 m) (fun c => by rw [V14_eq m c]; exact .rfl) (fun c => by rw [V15_eq m c]; exact .rfl)
    (reg7 m) (fun c => by rw [V20_eq m c]; exact .rfl) (fun c => by rw [V21_eq m c]; exact .rfl)
    (reg8 m) (fun c => by rw [V21_eq m c]; exact .rfl) (fun c => by rw [V22_eq m c]; exact .rfl)
    (reg9 m) (fun c => by rw [V23_eq m c]; exact .rfl) (fun c => by rw [V24_eq m c]; exact .rfl)
    (reg10 m) (fun c => by rw [V25_eq m c]; exact .rfl) (fun c => by rw [V26_eq m c]; exact .rfl)
    (reg11 m) (fun c => by rw [V26_eq m c]; exact .rfl) (fun c => by rw [V27_eq m c]; exact .rfl)
    (reg12 m) (fun c => by rw [V28_eq m c]; exact .rfl) (fun c => by rw [V29_eq m c]; exact .rfl)
  exact (θ_run defs _ _).mono (fun r hr c b hb => (hr c b hb).trans (by rw [V30_eq m c])) h

/-- An unscoped TensorCore reference is among those the run describes. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

theorem W30_main_arg0 (c : Dev nD) : W30 m c main_arg0 = m ((c : Thread nD τ).loc main_arg0) := by
  rw [← V30_eq m c]; exact Gen.V30_main_arg0 m (outs m) c
theorem W30_main_arg1 (c : Dev nD) : W30 m c main_arg1 = m ((c : Thread nD τ).loc main_arg1) := by
  rw [← V30_eq m c]; exact Gen.V30_main_arg1 m (outs m) c
theorem W30_main_arg2 (c : Dev nD) : W30 m c main_arg2 = m ((c : Thread nD τ).loc main_arg2) := by
  rw [← V30_eq m c]; exact Gen.V30_main_arg2 m (outs m) c
theorem W30_main_arg3 (c : Dev nD) : W30 m c main_arg3 = m ((c : Thread nD τ).loc main_arg3) := by
  rw [← V30_eq m c]; exact Gen.V30_main_arg3 m (outs m) c
theorem W30_main_arg4 (c : Dev nD) : W30 m c main_arg4 = m ((c : Thread nD τ).loc main_arg4) := by
  rw [← V30_eq m c]; exact Gen.V30_main_arg4 m (outs m) c
theorem W30_main_arg5 (c : Dev nD) : W30 m c main_arg5 = m ((c : Thread nD τ).loc main_arg5) := by
  rw [← V30_eq m c]; exact Gen.V30_main_arg5 m (outs m) c
theorem W30_main_arg6 (c : Dev nD) : W30 m c main_arg6 = m ((c : Thread nD τ).loc main_arg6) := by
  rw [← V30_eq m c]; exact Gen.V30_main_arg6 m (outs m) c
theorem W30_main_arg7 (c : Dev nD) : W30 m c main_arg7 = m ((c : Thread nD τ).loc main_arg7) := by
  rw [← V30_eq m c]; exact Gen.V30_main_arg7 m (outs m) c
theorem W30_main_arg8 (c : Dev nD) : W30 m c main_arg8 = m ((c : Thread nD τ).loc main_arg8) := by
  rw [← V30_eq m c]; exact Gen.V30_main_arg8 m (outs m) c
theorem W30_main_arg9 (c : Dev nD) : W30 m c main_arg9 = m ((c : Thread nD τ).loc main_arg9) := by
  rw [← V30_eq m c]; exact Gen.V30_main_arg9 m (outs m) c
theorem W30_main_arg10 (c : Dev nD) : W30 m c main_arg10 = m ((c : Thread nD τ).loc main_arg10) := by
  rw [← V30_eq m c]; exact Gen.V30_main_arg10 m (outs m) c

/-- THE FRAME, at any `F`: every weakly fair execution of @main terminates, nothing faulting, and every argument array ends
    as launched — no host operation and no region writes an argument, so the fold at an argument walks back to the
    launch memory. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r hr c =>
    ⟨(hr c _ (mem_uc main_arg0 (by decide))).trans (W30_main_arg0 m c),
     (hr c _ (mem_uc main_arg1 (by decide))).trans (W30_main_arg1 m c),
     (hr c _ (mem_uc main_arg2 (by decide))).trans (W30_main_arg2 m c),
     (hr c _ (mem_uc main_arg3 (by decide))).trans (W30_main_arg3 m c),
     (hr c _ (mem_uc main_arg4 (by decide))).trans (W30_main_arg4 m c),
     (hr c _ (mem_uc main_arg5 (by decide))).trans (W30_main_arg5 m c),
     (hr c _ (mem_uc main_arg6 (by decide))).trans (W30_main_arg6 m c),
     (hr c _ (mem_uc main_arg7 (by decide))).trans (W30_main_arg7 m c),
     (hr c _ (mem_uc main_arg8 (by decide))).trans (W30_main_arg8 m c),
     (hr c _ (mem_uc main_arg9 (by decide))).trans (W30_main_arg9 m c),
     (hr c _ (mem_uc main_arg10 (by decide))).trans (W30_main_arg10 m c)⟩)
    (run_all m ρ)

end Cert.KernelIdeal.Reg
end
-- ==== Proof.LibFoldSteps.lean ====
/-
  A straight-line program in single-assignment form, read one operation at a time at the END valuation.

  A line of operations runs from given buffer contents; each operation rewrites the one buffer it writes, as a
  function of the contents of its operand buffers at that moment, and leaves every other buffer alone. Suppose each
  buffer is written by at most one operation of the line, and an operation's operands are written before it (or not
  at all). Then an operand is never written again after the operation has read it, and neither is the operation's
  own result: so at the END of the line the operation's buffer holds its function of the END contents of its
  operands. That is one equation per operation about one and the same valuation — the contents after the whole
  line — and the end contents of every buffer follow in program order, each from the equations of its operands; no
  composed term is ever built.

  The line is a list `ops`; `wrs` names, in order, the buffer each operation writes (one fact, `hw`, ties the two
  lists together), and "not written from the `k`-th operation on" is non-membership in `wrs.drop k`, decided over the
  references. `step_nullary … step_ternary` are the equation for an operation of zero to three operands, given which
  operation stands at position `k`. The variants `step_nullaryT … step_ternaryT` are the same for the operations of a
  called function, which carry each buffer with the type of the value it holds and move contents between that type and
  the buffer's own along the equation of the two: at a literal buffer that equation is `rfl`, the moves are the
  identity, and the variants' conclusion is the operation's own function at the operands' end contents, with no
  move left in it.
-/
import Idealize.ShloMosaic.Lib.StableHlo.Run

noncomputable section

namespace Cert.LibFoldSteps

open Idealize.ShloMosaic Idealize.ShloMosaic.TcCoe Idealize.SL.Sem Idealize.ShloMosaic.StableHlo

section General

variable {τ : Topo} {sig : RefSig} {Val : EltTy → Type}

/-- Running two lines one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

variable {ops : List (HloOp τ sig Val)} {wrs : List (Ref sig .tc)}

/-- A buffer that none of the operations from the `k`-th on writes keeps its contents through them: `wrs` names, in
    order, the one buffer each operation writes. -/
theorem after_drop_frame (hw : ops.map HloOp.writes = wrs.map fun r => ({Proc.devRef .tc r} : Finset (DevRef τ sig)))
    (k : ℕ) (X : Valuation τ sig Val) (r : Ref sig .tc) (hr : r ∉ wrs.drop k) :
    after (ops.drop k) X (Proc.devRef .tc r) = X (Proc.devRef .tc r) := by
  refine after_of_forall_not_mem _ X fun op hop hmem => hr ?_
  have h1 : op.writes ∈ ((ops.map HloOp.writes).drop k) := by
    rw [← List.map_drop]; exact List.mem_map_of_mem hop
  rw [hw, ← List.map_drop] at h1
  obtain ⟨r', hr', he⟩ := List.mem_map.mp h1
  rw [← he, Finset.mem_singleton] at hmem
  exact (Proc.devRef_injective _ hmem) ▸ hr'

/-- The line split at its `k`-th operation. -/
theorem after_split {k : ℕ} {op : HloOp τ sig Val} (hk : ops[k]? = some op) (V₀ : Valuation τ sig Val) :
    after ops V₀ = after (ops.drop (k + 1)) (op.result (after (ops.take k) V₀)) := by
  obtain ⟨h, rfl⟩ := List.getElem?_eq_some_iff.mp hk
  conv_lhs => rw [← List.take_append_drop k ops, after_append, List.drop_eq_getElem_cons h, after_cons]

/-- An operand of the `k`-th operation, not written from there on, holds at the end what it held before the operation. -/
theorem read_operand (hw : ops.map HloOp.writes = wrs.map fun r => ({Proc.devRef .tc r} : Finset (DevRef τ sig)))
    (k : ℕ) (V₀ : Valuation τ sig Val) (a : Ref sig .tc) (ha : a ∉ wrs.drop k) :
    after (ops.take k) V₀ (Proc.devRef .tc a) = after ops V₀ (Proc.devRef .tc a) := by
  conv_rhs => rw [← List.take_append_drop k ops, after_append]
  exact (after_drop_frame hw k _ a ha).symm

/-- The end contents of the buffer of a `k`-th operation without operands. -/
theorem step_nullary (hw : ops.map HloOp.writes = wrs.map fun r => ({Proc.devRef .tc r} : Finset (DevRef τ sig)))
    (k : ℕ) {y : Ref sig .tc} {v : y.ty.Contents Val} {hy}
    (hk : ops[k]? = some (nullary y v hy)) (hy' : y ∉ wrs.drop (k + 1)) (V₀ : Valuation τ sig Val) :
    after ops V₀ (Proc.devRef .tc y) = v := by
  rw [after_split hk V₀, after_drop_frame hw (k + 1) _ y hy', nullary_result]

/-- The end contents of the buffer of a `k`-th operation of one operand, from the operand's. -/
theorem step_unary (hw : ops.map HloOp.writes = wrs.map fun r => ({Proc.devRef .tc r} : Finset (DevRef τ sig)))
    (k : ℕ) {x y : Ref sig .tc} {f : x.ty.Contents Val → y.ty.Contents Val} {hx hy}
    (hk : ops[k]? = some (unary x y f hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = f vx := by
  rw [after_split hk V₀, after_drop_frame hw (k + 1) _ y hy', unary_result, read_operand hw k V₀ x hx', Hx]

/-- The same for two operands. -/
theorem step_binary (hw : ops.map HloOp.writes = wrs.map fun r => ({Proc.devRef .tc r} : Finset (DevRef τ sig)))
    (k : ℕ) {a b y : Ref sig .tc} {f : a.ty.Contents Val → b.ty.Contents Val → y.ty.Contents Val} {ha hb hy}
    (hk : ops[k]? = some (binary a b y f ha hb hy)) (hy' : y ∉ wrs.drop (k + 1)) (ha' : a ∉ wrs.drop k)
    (hb' : b ∉ wrs.drop k) (V₀ : Valuation τ sig Val) {va : a.ty.Contents Val} {vb : b.ty.Contents Val}
    (Ha : after ops V₀ (Proc.devRef .tc a) = va) (Hb : after ops V₀ (Proc.devRef .tc b) = vb) :
    after ops V₀ (Proc.devRef .tc y) = f va vb := by
  rw [after_split hk V₀, after_drop_frame hw (k + 1) _ y hy', binary_result, read_operand hw k V₀ a ha',
    read_operand hw k V₀ b hb', Ha, Hb]

/-- The same for three operands. -/
theorem step_ternary (hw : ops.map HloOp.writes = wrs.map fun r => ({Proc.devRef .tc r} : Finset (DevRef τ sig)))
    (k : ℕ) {c a b y : Ref sig .tc} {f : c.ty.Contents Val → a.ty.Contents Val → b.ty.Contents Val → y.ty.Contents Val}
    {hc ha hb hy}
    (hk : ops[k]? = some (ternary c a b y f hc ha hb hy)) (hy' : y ∉ wrs.drop (k + 1)) (hc' : c ∉ wrs.drop k)
    (ha' : a ∉ wrs.drop k) (hb' : b ∉ wrs.drop k) (V₀ : Valuation τ sig Val)
    {vc : c.ty.Contents Val} {va : a.ty.Contents Val} {vb : b.ty.Contents Val}
    (Hc : after ops V₀ (Proc.devRef .tc c) = vc) (Ha : after ops V₀ (Proc.devRef .tc a) = va)
    (Hb : after ops V₀ (Proc.devRef .tc b) = vb) :
    after ops V₀ (Proc.devRef .tc y) = f vc va vb := by
  rw [after_split hk V₀, after_drop_frame hw (k + 1) _ y hy', ternary_result, read_operand hw k V₀ c hc',
    read_operand hw k V₀ a ha', read_operand hw k V₀ b hb', Hc, Ha, Hb]

/-! A called function's operations carry each buffer with the type of the value it holds, and move contents between
that type and the buffer's own along the equation of the two; at a literal buffer the equation is `rfl` and the
moves are the identity. The four steps again for such operations, stated without the moves, so that what a step
concludes is the operation's own function at the operands' end contents. -/

/-- The end contents of the buffer of a `k`-th operation without operands, in a called function. -/
theorem step_nullaryT (hw : ops.map HloOp.writes = wrs.map fun r => ({Proc.devRef .tc r} : Finset (DevRef τ sig)))
    (k : ℕ) {ry : Ref sig .tc} {hdy : ry.space ≠ .host} {huy : ry.isScoped = false} {v : ry.ty.Contents Val}
    (hk : ops[k]? = some (TRef.nullary (TRef.of (T := ry.ty) ry rfl hdy huy) v))
    (hy' : ry ∉ wrs.drop (k + 1)) (V₀ : Valuation τ sig Val) :
    after ops V₀ (Proc.devRef .tc ry) = v :=
  step_nullary hw k hk hy' V₀

/-- One operand. -/
theorem step_unaryT (hw : ops.map HloOp.writes = wrs.map fun r => ({Proc.devRef .tc r} : Finset (DevRef τ sig)))
    (k : ℕ) {rx ry : Ref sig .tc} {hdx : rx.space ≠ .host} {hux : rx.isScoped = false}
    {hdy : ry.space ≠ .host} {huy : ry.isScoped = false} {f : rx.ty.Contents Val → ry.ty.Contents Val}
    (hk : ops[k]? = some (TRef.unary (TRef.of (T := rx.ty) rx rfl hdx hux) (TRef.of (T := ry.ty) ry rfl hdy huy) f))
    (hy' : ry ∉ wrs.drop (k + 1)) (hx' : rx ∉ wrs.drop k) (V₀ : Valuation τ sig Val)
    {vx : rx.ty.Contents Val} (Hx : after ops V₀ (Proc.devRef .tc rx) = vx) :
    after ops V₀ (Proc.devRef .tc ry) = f vx :=
  step_unary hw k hk hy' hx' V₀ Hx

/-- Two operands. -/
theorem step_binaryT (hw : ops.map HloOp.writes = wrs.map fun r => ({Proc.devRef .tc r} : Finset (DevRef τ sig)))
    (k : ℕ) {ra rb ry : Ref sig .tc} {hda : ra.space ≠ .host} {hua : ra.isScoped = false}
    {hdb : rb.space ≠ .host} {hub : rb.isScoped = false} {hdy : ry.space ≠ .host} {huy : ry.isScoped = false}
    {f : ra.ty.Contents Val → rb.ty.Contents Val → ry.ty.Contents Val}
    (hk : ops[k]? = some (TRef.binary (TRef.of (T := ra.ty) ra rfl hda hua) (TRef.of (T := rb.ty) rb rfl hdb hub)
      (TRef.of (T := ry.ty) ry rfl hdy huy) f))
    (hy' : ry ∉ wrs.drop (k + 1)) (ha' : ra ∉ wrs.drop k) (hb' : rb ∉ wrs.drop k) (V₀ : Valuation τ sig Val)
    {va : ra.ty.Contents Val} {vb : rb.ty.Contents Val}
    (Ha : after ops V₀ (Proc.devRef .tc ra) = va) (Hb : after ops V₀ (Proc.devRef .tc rb) = vb) :
    after ops V₀ (Proc.devRef .tc ry) = f va vb :=
  step_binary hw k hk hy' ha' hb' V₀ Ha Hb

/-- Three operands. -/
theorem step_ternaryT (hw : ops.map HloOp.writes = wrs.map fun r => ({Proc.devRef .tc r} : Finset (DevRef τ sig)))
    (k : ℕ) {rc ra rb ry : Ref sig .tc} {hdc : rc.space ≠ .host} {huc : rc.isScoped = false}
    {hda : ra.space ≠ .host} {hua : ra.isScoped = false}
    {hdb : rb.space ≠ .host} {hub : rb.isScoped = false} {hdy : ry.space ≠ .host} {huy : ry.isScoped = false}
    {f : rc.ty.Contents Val → ra.ty.Contents Val → rb.ty.Contents Val → ry.ty.Contents Val}
    (hk : ops[k]? = some (TRef.ternary (TRef.of (T := rc.ty) rc rfl hdc huc) (TRef.of (T := ra.ty) ra rfl hda hua)
      (TRef.of (T := rb.ty) rb rfl hdb hub) (TRef.of (T := ry.ty) ry rfl hdy huy) f))
    (hy' : ry ∉ wrs.drop (k + 1)) (hc' : rc ∉ wrs.drop k) (ha' : ra ∉ wrs.drop k) (hb' : rb ∉ wrs.drop k)
    (V₀ : Valuation τ sig Val)
    {vc : rc.ty.Contents Val} {va : ra.ty.Contents Val} {vb : rb.ty.Contents Val}
    (Hc : after ops V₀ (Proc.devRef .tc rc) = vc) (Ha : after ops V₀ (Proc.devRef .tc ra) = va)
    (Hb : after ops V₀ (Proc.devRef .tc rb) = vb) :
    after ops V₀ (Proc.devRef .tc ry) = f vc va vb :=
  step_ternary hw k hk hy' hc' ha' hb' V₀ Hc Ha Hb

end General

end Cert.LibFoldSteps

end
-- ==== Proof.RefLineLib.lean ====
/-
  Two more steps of a single-assignment line of host operations read at its end valuation: a reshape, and an operation
  over a family of operands. Each is the equation, about the contents after the WHOLE line, between the operation's
  buffer and its function of its operands' buffers.
-/
import proofs.«172830_g53506702573898_cont_9to1_m_1152_4_alg».proof.Proof.LibFoldSteps

noncomputable section

namespace Cert.RefLine

open Idealize.ShloMosaic Idealize.ShloMosaic.TcCoe Idealize.SL.Sem Idealize.ShloMosaic.StableHlo Cert.LibFoldSteps

variable {τ : Topo} {sig : RefSig} {Val : EltTy → Type}
variable {ops : List (HloOp τ sig Val)} {wrs : List (Ref sig .tc)}

/-- The end contents of the buffer of a `k`-th operation that is a reshape, from its operand's. -/
theorem step_reshape (hw : ops.map HloOp.writes = wrs.map fun r => ({Proc.devRef .tc r} : Finset (DevRef τ sig)))
    (k : ℕ) {x y : Ref sig .tc} {he : x.ty.elt = y.ty.elt} {hn : x.ty.shape.ShapeCasts y.ty.shape} {hx hy}
    (hk : ops[k]? = some (reshape x y he hn hx hy)) (hy' : y ∉ wrs.drop (k + 1)) (hx' : x ∉ wrs.drop k)
    (V₀ : Valuation τ sig Val) {vx : x.ty.Contents Val} (Hx : after ops V₀ (Proc.devRef .tc x) = vx) :
    after ops V₀ (Proc.devRef .tc y) = fun i => he ▸ shapeCast y.ty.shape vx hn i := by
  rw [after_split hk V₀, after_drop_frame hw (k + 1) _ y hy', reshape_result, read_operand hw k V₀ x hx', Hx]

/-- The end contents of the buffer of a `k`-th operation over a family of operands, from the operands' end contents. -/
theorem step_nary (hw : ops.map HloOp.writes = wrs.map fun r => ({Proc.devRef .tc r} : Finset (DevRef τ sig)))
    (k : ℕ) {n : ℕ} {xs : Fin n → Ref sig .tc} {y : Ref sig .tc}
    {f : ((j : Fin n) → (xs j).ty.Contents Val) → y.ty.Contents Val} {hxs hy}
    (hk : ops[k]? = some (nary xs y f hxs hy)) (hy' : y ∉ wrs.drop (k + 1)) (hx' : ∀ j, xs j ∉ wrs.drop k)
    (V₀ : Valuation τ sig Val) :
    after ops V₀ (Proc.devRef .tc y) = f (fun j => after ops V₀ (Proc.devRef .tc (xs j))) := by
  have e : ∀ j, after (ops.take k) V₀ (Proc.devRef .tc (xs j)) = after ops V₀ (Proc.devRef .tc (xs j)) :=
    fun j => read_operand hw k V₀ (xs j) (hx' j)
  conv_lhs => rw [after_split hk V₀, after_drop_frame hw (k + 1) _ y hy', nary_result]
  exact congrArg f (funext e)

/-- A buffer the line never writes holds at the end what it held at the start. -/
theorem end_unwritten (hw : ops.map HloOp.writes = wrs.map fun r => ({Proc.devRef .tc r} : Finset (DevRef τ sig)))
    (V₀ : Valuation τ sig Val) (r : Ref sig .tc) (hr : r ∉ wrs) :
    after ops V₀ (Proc.devRef .tc r) = V₀ (Proc.devRef .tc r) := by
  have h := after_drop_frame hw 0 V₀ r (by simpa using hr)
  simpa using h

end Cert.RefLine

end
-- ==== Proof.RefLineBase.lean ====
/-
  The reference program's line of 171 host operations read at its END valuation: the buffers it writes, in order; that
  each operation writes exactly its own; the valuation after the whole line from a device's launch contents; the
  arguments of @main, which the line never writes, unchanged at the end.
-/
import proofs.«172830_g53506702573898_cont_9to1_m_1152_4_alg».proof.Proof.RefRead
import proofs.«172830_g53506702573898_cont_9to1_m_1152_4_alg».proof.Proof.RefLineLib

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo Cert.LibFoldSteps Cert.RefLine

variable {F : FTy → Type} [FloatOps F]

/-- The buffer each operation writes, in program order. -/
def wrs : List (Ref sig .tc) :=
  [main_v0, main_v1, main_cst, main_v2, main_cst_0, main_v3, main_v4, main_cst_1, main_v5, main_v6, main_v7, main_cst_2, main_call0_v0, main_call0_v1, main_v8, main_v9, main_v10, main_c, main_v11, main_v12, main_v13, main_v14, main_v15, main_v16, main_v17, main_v18, main_v19, main_v20, main_v21, main_v22, main_v23, main_v24, main_v25, main_v26, main_v27, main_v28, main_v29, main_v30, main_v31, main_cst_3, main_v32, main_v33, main_v34, main_v35, main_v36, main_v37, main_v38, main_v39, main_v40, main_v41, main_v42, main_v43, main_v44, main_v45, main_v46, main_v47, main_v48, main_cst_4, main_v49, main_v50, main_cst_5, main_v51, main_v52, main_v53, main_v54, main_v55, main_v56, main_v57, main_v58, main_v59, main_v60, main_v61, main_v62, main_v63, main_v64, main_v65, main_cst_6, main_v66, main_v67, main_v68, main_v69, main_v70, main_v71, main_v72, main_v73, main_v74, main_v75, main_v76, main_v77, main_v78, main_v79, main_v80, main_v81, main_v82, main_cst_7, main_v83, main_v84, main_v85, main_v86, main_v87, main_v88, main_v89, main_v90, main_v91, main_v92, main_v93, main_v94, main_v95, main_cst_8, main_v96, main_v97, main_v98, main_v99, main_v100, main_v101, main_v102, main_v103, main_v104, main_v105, main_v106, main_v107, main_v108, main_v109, main_v110, main_v111, main_v112, main_cst_9, main_v113, main_v114, main_cst_10, main_v115, main_v116, main_v117, main_v118, main_v119, main_v120, main_v121, main_v122, main_v123, main_v124, main_v125, main_v126, main_v127, main_v128, main_v129, main_cst_11, main_v130, main_v131, main_v132, main_v133, main_v134, main_v135, main_v136, main_v137, main_v138, main_v139, main_v140, main_v141, main_v142, main_v143, main_v144, main_v145, main_v146, main_cst_12, main_v147, main_v148, main_v149, main_v150, main_v151, main_v152, main_v153]

set_option maxRecDepth 16384 in
/-- Each operation writes exactly the buffer `wrs` names for it. -/
theorem hw : (ops (F := F)).map HloOp.writes = wrs.map fun r => ({Proc.devRef .tc r} : Finset (DevRef τ sig)) := rfl

variable (m : (ℓ : Loc nD τ sig) → Buf (Elt F) ℓ) (c : Dev nD)

/-- The contents of a device's buffers after the whole line, from its launch contents. -/
abbrev E : Valuation τ sig (Elt F) := after (ops (F := F)) (launchContents m c)

/-- Argument 0 of @main at launch. -/
abbrev A0 := m ((c.tc : Thread nD τ).loc main_arg0)
/-- Argument 1 of @main at launch. -/
abbrev A1 := m ((c.tc : Thread nD τ).loc main_arg1)
/-- Argument 2 of @main at launch. -/
abbrev A2 := m ((c.tc : Thread nD τ).loc main_arg2)
/-- Argument 3 of @main at launch. -/
abbrev A3 := m ((c.tc : Thread nD τ).loc main_arg3)
/-- Argument 4 of @main at launch. -/
abbrev A4 := m ((c.tc : Thread nD τ).loc main_arg4)
/-- Argument 5 of @main at launch. -/
abbrev A5 := m ((c.tc : Thread nD τ).loc main_arg5)
/-- Argument 6 of @main at launch. -/
abbrev A6 := m ((c.tc : Thread nD τ).loc main_arg6)
/-- Argument 7 of @main at launch. -/
abbrev A7 := m ((c.tc : Thread nD τ).loc main_arg7)
/-- Argument 8 of @main at launch. -/
abbrev A8 := m ((c.tc : Thread nD τ).loc main_arg8)
/-- Argument 9 of @main at launch. -/
abbrev A9 := m ((c.tc : Thread nD τ).loc main_arg9)
/-- Argument 10 of @main at launch. -/
abbrev A10 := m ((c.tc : Thread nD τ).loc main_arg10)

theorem end_arg0 : E m c (Proc.devRef .tc main_arg0) = A0 m c := end_unwritten (hw (F := F)) _ main_arg0 (by decide)
theorem end_arg1 : E m c (Proc.devRef .tc main_arg1) = A1 m c := end_unwritten (hw (F := F)) _ main_arg1 (by decide)
theorem end_arg2 : E m c (Proc.devRef .tc main_arg2) = A2 m c := end_unwritten (hw (F := F)) _ main_arg2 (by decide)
theorem end_arg3 : E m c (Proc.devRef .tc main_arg3) = A3 m c := end_unwritten (hw (F := F)) _ main_arg3 (by decide)
theorem end_arg4 : E m c (Proc.devRef .tc main_arg4) = A4 m c := end_unwritten (hw (F := F)) _ main_arg4 (by decide)
theorem end_arg5 : E m c (Proc.devRef .tc main_arg5) = A5 m c := end_unwritten (hw (F := F)) _ main_arg5 (by decide)
theorem end_arg6 : E m c (Proc.devRef .tc main_arg6) = A6 m c := end_unwritten (hw (F := F)) _ main_arg6 (by decide)
theorem end_arg7 : E m c (Proc.devRef .tc main_arg7) = A7 m c := end_unwritten (hw (F := F)) _ main_arg7 (by decide)
theorem end_arg8 : E m c (Proc.devRef .tc main_arg8) = A8 m c := end_unwritten (hw (F := F)) _ main_arg8 (by decide)
theorem end_arg9 : E m c (Proc.devRef .tc main_arg9) = A9 m c := end_unwritten (hw (F := F)) _ main_arg9 (by decide)
theorem end_arg10 : E m c (Proc.devRef .tc main_arg10) = A10 m c := end_unwritten (hw (F := F)) _ main_arg10 (by decide)

end Cert.ReferenceIdeal.LineP

end
-- ==== Proof.RefFrame.lean ====
/-
  The reference program's frame: under the precondition every weakly fair execution of @main terminates with the
  arguments unchanged. The program is a straight line of host operations, so its run ends with every buffer at the
  line's end contents; the line writes no argument.
-/
import proofs.«172830_g53506702573898_cont_9to1_m_1152_4_alg».proof.Defs
import proofs.«172830_g53506702573898_cont_9to1_m_1152_4_alg».proof.Proof.Gen.ReferenceIdeal
import proofs.«172830_g53506702573898_cont_9to1_m_1152_4_alg».proof.Proof.Gen.Pre_finite_inputs
import proofs.«172830_g53506702573898_cont_9to1_m_1152_4_alg».proof.Proof.RefLineBase

noncomputable section

namespace Cert.ReferenceIdeal.LineP

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

set_option maxRecDepth 8192 in
set_option maxHeartbeats 4000000 in
/-- From any memory with zero counters, every weakly fair execution of @main terminates with every buffer of every core
    at the contents after the whole line of operations from that core's launch contents. -/
theorem run_end (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = E m c (Proc.devRef .tc b) :=
  run_seq scopedRefs_eq scopedSems_eq defs main (fun _ => ops) main_eq (fun _ => ops_sub) m ρ

end Cert.ReferenceIdeal.LineP

namespace Cert.Proof.RefClaims

open Cert.ReferenceIdeal Cert.ReferenceIdeal.Gen Cert.ReferenceIdeal.LineP Idealize.ShloMosaic Idealize.ShloMosaic.TcCoe Idealize.SL.Sem Idealize.ShloMosaic.StableHlo

theorem frame_ri : Cert.frame_ReferenceIdeal := fun m ρ _ =>
  (θ_run Cert.ReferenceIdeal.defs _ _).mono (fun _ h c =>
   ⟨(h c main_arg0).trans (end_arg0 m c),
    (h c main_arg1).trans (end_arg1 m c),
    (h c main_arg2).trans (end_arg2 m c),
    (h c main_arg3).trans (end_arg3 m c),
    (h c main_arg4).trans (end_arg4 m c),
    (h c main_arg5).trans (end_arg5 m c),
    (h c main_arg6).trans (end_arg6 m c),
    (h c main_arg7).trans (end_arg7 m c),
    (h c main_arg8).trans (end_arg8 m c),
    (h c main_arg9).trans (end_arg9 m c),
    (h c main_arg10).trans (end_arg10 m c)⟩)
    (run_end (F := Ideal) m ρ)

end Cert.Proof.RefClaims

end
-- ==== Proof.Claims.lean ====
/-
  The frame claims and the (empty) idealization ledger.

  Each kernel program's frame is the run of its thirteen regions and seventeen host stretches with every argument
  array read back off the last valuation of the buffers; the word-level program and its idealization are one text
  read at two instances, so one proof, generic in the instance, serves both. The reference is host operations only:
  its frame is its run with the results dropped. The ideal pass rewrote nothing, so there is nothing to preserve.
-/
import proofs.«172830_g53506702573898_cont_9to1_m_1152_4_alg».proof.Defs
import proofs.«172830_g53506702573898_cont_9to1_m_1152_4_alg».proof.Proof.KRunAll
import proofs.«172830_g53506702573898_cont_9to1_m_1152_4_alg».proof.Proof.RunAll
import proofs.«172830_g53506702573898_cont_9to1_m_1152_4_alg».proof.Proof.RefFrame

noncomputable section

namespace Cert.Proof.Claims

open Idealize.ShloMosaic Idealize.SL.Sem

theorem frame_p : Cert.frame_Kernel := fun m ρ _ => Cert.Kernel.Reg.frame (F := Bits) m ρ

theorem frame_pi : Cert.frame_KernelIdeal := fun m ρ _ => Cert.KernelIdeal.Reg.frame (F := Ideal) m ρ

theorem frame_ri : Cert.frame_ReferenceIdeal := Cert.Proof.RefClaims.frame_ri

theorem preserves : Cert.preserves_Kernel_KernelIdeal := trivial

end Cert.Proof.Claims

end
-- ==== Proof.RefLine1.lean ====
/-
  The reference program's operations 0 to 44, each read at the END valuation of the whole line: the buffer an
  operation writes holds the operation's stage of the arguments of @main, from the same fact for its operands.
-/
import proofs.«172830_g53506702573898_cont_9to1_m_1152_4_alg».proof.Proof.RefRead
import proofs.«172830_g53506702573898_cont_9to1_m_1152_4_alg».proof.Proof.RefLineLib
import proofs.«172830_g53506702573898_cont_9to1_m_1152_4_alg».proof.Proof.RefLineBase

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo Cert.LibFoldSteps Cert.RefLine

variable {F : FTy → Type} [FloatOps F]

variable (m : (ℓ : Loc nD τ sig) → Buf (Elt F) ℓ) (c : Dev nD)

theorem end_main_v0 : E m c (Proc.devRef .tc main_v0) = val_main_v0 (F := F) (A2 m c) := by
  have h := step_unary (hw (F := F)) 0 (x := main_arg2) (y := main_v0) (f := ((transpose S4096x4096 [1, 0] · transposes_S4096x4096_S4096x4096_1_0) : (⟨S4096x4096, .f32⟩ : BufTy).Contents (Elt F) → (⟨S4096x4096, .f32⟩ : BufTy).Contents (Elt F))) rfl (by decide) (by decide) (launchContents m c) (end_arg2 m c)
  exact h

theorem end_main_v1 : E m c (Proc.devRef .tc main_v1) = val_main_v1 (F := F) (A2 m c) := by
  have h := step_binary (hw (F := F)) 1 (a := main_arg2) (b := main_v0) (y := main_v1) (f := (maximumf : (⟨S4096x4096, .f32⟩ : BufTy).Contents (Elt F) → (⟨S4096x4096, .f32⟩ : BufTy).Contents (Elt F) → (⟨S4096x4096, .f32⟩ : BufTy).Contents (Elt F))) rfl (by decide) (by decide) (by decide) (launchContents m c) (end_arg2 m c) (end_main_v0 m c)
  exact h

theorem end_main_cst : E m c (Proc.devRef .tc main_cst) = val_main_cst (F := F) := by
  exact step_nullary (hw (F := F)) 2 (y := main_cst) rfl (by decide) (launchContents m c)

theorem end_main_v2 : E m c (Proc.devRef .tc main_v2) = val_main_v2 (F := F) (A2 m c) := by
  have h := step_binary (hw (F := F)) 3 (a := main_v1) (b := main_cst) (y := main_v2) (f := ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F))) rfl (by decide) (by decide) (by decide) (launchContents m c) (end_main_v1 m c) (end_main_cst m c)
  exact h

theorem end_main_cst_0 : E m c (Proc.devRef .tc main_cst_0) = val_main_cst_0 (F := F) := by
  exact step_nullary (hw (F := F)) 4 (y := main_cst_0) rfl (by decide) (launchContents m c)

theorem end_main_v3 : E m c (Proc.devRef .tc main_v3) = val_main_v3 (F := F) := by
  have h := step_unary (hw (F := F)) 5 (x := main_cst_0) (y := main_v3) (f := (broadcastInDim S4096 ![] bcast_S_S4096 : (⟨S_, .f32⟩ : BufTy).Contents (Elt F) → (⟨S4096, .f32⟩ : BufTy).Contents (Elt F))) rfl (by decide) (by decide) (launchContents m c) (end_main_cst_0 m c)
  exact h

theorem end_main_v4 : E m c (Proc.devRef .tc main_v4) = val_main_v4 (F := F) (A2 m c) := by
  have h := step_binary (hw (F := F)) 6 (a := main_v2) (b := main_v3) (y := main_v4) (f := (cmpf .ogt : (⟨S4096, .f32⟩ : BufTy).Contents (Elt F) → (⟨S4096, .f32⟩ : BufTy).Contents (Elt F) → (⟨S4096, .i1⟩ : BufTy).Contents (Elt F))) rfl (by decide) (by decide) (by decide) (launchContents m c) (end_main_v2 m c) (end_main_v3 m c)
  exact h

theorem end_main_cst_1 : E m c (Proc.devRef .tc main_cst_1) = val_main_cst_1 (F := F) := by
  exact step_nullary (hw (F := F)) 7 (y := main_cst_1) rfl (by decide) (launchContents m c)

theorem end_main_v5 : E m c (Proc.devRef .tc main_v5) = val_main_v5 (F := F) := by
  have h := step_unary (hw (F := F)) 8 (x := main_cst_1) (y := main_v5) (f := (broadcastInDim S4096 ![] bcast_S_S4096 : (⟨S_, .f32⟩ : BufTy).Contents (Elt F) → (⟨S4096, .f32⟩ : BufTy).Contents (Elt F))) rfl (by decide) (by decide) (launchContents m c) (end_main_cst_1 m c)
  exact h

theorem end_main_v6 : E m c (Proc.devRef .tc main_v6) = val_main_v6 (F := F) (A2 m c) := by
  have h := step_binary (hw (F := F)) 9 (a := main_v2) (b := main_v5) (y := main_v6) (f := (maximumf : (⟨S4096, .f32⟩ : BufTy).Contents (Elt F) → (⟨S4096, .f32⟩ : BufTy).Contents (Elt F) → (⟨S4096, .f32⟩ : BufTy).Contents (Elt F))) rfl (by decide) (by decide) (by decide) (launchContents m c) (end_main_v2 m c) (end_main_v5 m c)
  exact h

theorem end_main_v7 : E m c (Proc.devRef .tc main_v7) = val_main_v7 (F := F) (A2 m c) := by
  have h := step_unary (hw (F := F)) 10 (x := main_v6) (y := main_v7) (f := (Host.rsqrt : (⟨S4096, .f32⟩ : BufTy).Contents (Elt F) → (⟨S4096, .f32⟩ : BufTy).Contents (Elt F))) rfl (by decide) (by decide) (launchContents m c) (end_main_v6 m c)
  exact h

theorem end_main_cst_2 : E m c (Proc.devRef .tc main_cst_2) = val_main_cst_2 (F := F) := by
  exact step_nullary (hw (F := F)) 11 (y := main_cst_2) rfl (by decide) (launchContents m c)

theorem end_main_call0_v0 : E m c (Proc.devRef .tc main_call0_v0) = val_main_call0_v0 (F := F) := by
  have h := step_unaryT (hw (F := F)) 12 (rx := main_cst_2) (ry := main_call0_v0) (f := id) rfl (by decide) (by decide) (launchContents m c) (end_main_cst_2 m c)
  exact h

theorem end_main_call0_v1 : E m c (Proc.devRef .tc main_call0_v1) = val_main_call0_v1 (F := F) := by
  have h := step_unaryT (hw (F := F)) 13 (rx := main_call0_v0) (ry := main_call0_v1) (f := (broadcastInDim S4096 ![] bcast_S_S4096)) rfl (by decide) (by decide) (launchContents m c) (end_main_call0_v0 m c)
  exact h

theorem end_main_v8 : E m c (Proc.devRef .tc main_v8) = val_main_v8 (F := F) (A2 m c) := by
  have h := step_ternaryT (hw (F := F)) 14 (rc := main_v4) (ra := main_v7) (rb := main_call0_v1) (ry := main_v8) (f := select) rfl (by decide) (by decide) (by decide) (by decide) (launchContents m c) (end_main_v4 m c) (end_main_v7 m c) (end_main_call0_v1 m c)
  exact h

theorem end_main_v9 : E m c (Proc.devRef .tc main_v9) = val_main_v9 (F := F) := by
  exact step_nullary (hw (F := F)) 15 (y := main_v9) rfl (by decide) (launchContents m c)

theorem end_main_v10 : E m c (Proc.devRef .tc main_v10) = val_main_v10 (F := F) := by
  exact step_nullary (hw (F := F)) 16 (y := main_v10) rfl (by decide) (launchContents m c)

theorem end_main_c : E m c (Proc.devRef .tc main_c) = val_main_c (F := F) := by
  exact step_nullary (hw (F := F)) 17 (y := main_c) rfl (by decide) (launchContents m c)

theorem end_main_v11 : E m c (Proc.devRef .tc main_v11) = val_main_v11 (F := F) := by
  have h := step_unary (hw (F := F)) 18 (x := main_c) (y := main_v11) (f := (broadcastInDim S4096x4096 ![] bcast_S_S4096x4096 : (⟨S_, .i32⟩ : BufTy).Contents (Elt F) → (⟨S4096x4096, .i32⟩ : BufTy).Contents (Elt F))) rfl (by decide) (by decide) (launchContents m c) (end_main_c m c)
  exact h

theorem end_main_v12 : E m c (Proc.devRef .tc main_v12) = val_main_v12 (F := F) := by
  have h := step_binary (hw (F := F)) 19 (a := main_v9) (b := main_v11) (y := main_v12) (f := (addi : (⟨S4096x4096, .i32⟩ : BufTy).Contents (Elt F) → (⟨S4096x4096, .i32⟩ : BufTy).Contents (Elt F) → (⟨S4096x4096, .i32⟩ : BufTy).Contents (Elt F))) rfl (by decide) (by decide) (by decide) (launchContents m c) (end_main_v9 m c) (end_main_v11 m c)
  exact h

theorem end_main_v13 : E m c (Proc.devRef .tc main_v13) = val_main_v13 (F := F) := by
  have h := step_binary (hw (F := F)) 20 (a := main_v12) (b := main_v10) (y := main_v13) (f := (cmpi .eq : (⟨S4096x4096, .i32⟩ : BufTy).Contents (Elt F) → (⟨S4096x4096, .i32⟩ : BufTy).Contents (Elt F) → (⟨S4096x4096, .i1⟩ : BufTy).Contents (Elt F))) rfl (by decide) (by decide) (by decide) (launchContents m c) (end_main_v12 m c) (end_main_v10 m c)
  exact h

theorem end_main_v14 : E m c (Proc.devRef .tc main_v14) = val_main_v14 (F := F) := by
  have h := step_unary (hw (F := F)) 21 (x := main_v13) (y := main_v14) (f := (uitofp .f32 : (⟨S4096x4096, .i1⟩ : BufTy).Contents (Elt F) → (⟨S4096x4096, .f32⟩ : BufTy).Contents (Elt F))) rfl (by decide) (by decide) (launchContents m c) (end_main_v13 m c)
  exact h

theorem end_main_v15 : E m c (Proc.devRef .tc main_v15) = val_main_v15 (F := F) (A2 m c) := by
  have h := step_unary (hw (F := F)) 22 (x := main_v8) (y := main_v15) (f := (broadcastInDim S4096x1 ![0] bcast_S4096_S4096x1_0 : (⟨S4096, .f32⟩ : BufTy).Contents (Elt F) → (⟨S4096x1, .f32⟩ : BufTy).Contents (Elt F))) rfl (by decide) (by decide) (launchContents m c) (end_main_v8 m c)
  exact h

theorem end_main_v16 : E m c (Proc.devRef .tc main_v16) = val_main_v16 (F := F) (A2 m c) := by
  have h := step_unary (hw (F := F)) 23 (x := main_v15) (y := main_v16) (f := (broadcastInDim S4096x4096 ![0, 1] bcast_S4096x1_S4096x4096_0_1 : (⟨S4096x1, .f32⟩ : BufTy).Contents (Elt F) → (⟨S4096x4096, .f32⟩ : BufTy).Contents (Elt F))) rfl (by decide) (by decide) (launchContents m c) (end_main_v15 m c)
  exact h

theorem end_main_v17 : E m c (Proc.devRef .tc main_v17) = val_main_v17 (F := F) (A2 m c) := by
  have h := step_binary (hw (F := F)) 24 (a := main_v16) (b := main_v1) (y := main_v17) (f := (mulf : (⟨S4096x4096, .f32⟩ : BufTy).Contents (Elt F) → (⟨S4096x4096, .f32⟩ : BufTy).Contents (Elt F) → (⟨S4096x4096, .f32⟩ : BufTy).Contents (Elt F))) rfl (by decide) (by decide) (by decide) (launchContents m c) (end_main_v16 m c) (end_main_v1 m c)
  exact h

theorem end_main_v18 : E m c (Proc.devRef .tc main_v18) = val_main_v18 (F := F) (A2 m c) := by
  have h := step_unary (hw (F := F)) 25 (x := main_v8) (y := main_v18) (f := (broadcastInDim S1x4096 ![1] bcast_S4096_S1x4096_1 : (⟨S4096, .f32⟩ : BufTy).Contents (Elt F) → (⟨S1x4096, .f32⟩ : BufTy).Contents (Elt F))) rfl (by decide) (by decide) (launchContents m c) (end_main_v8 m c)
  exact h

theorem end_main_v19 : E m c (Proc.devRef .tc main_v19) = val_main_v19 (F := F) (A2 m c) := by
  have h := step_unary (hw (F := F)) 26 (x := main_v18) (y := main_v19) (f := (broadcastInDim S4096x4096 ![0, 1] bcast_S1x4096_S4096x4096_0_1 : (⟨S1x4096, .f32⟩ : BufTy).Contents (Elt F) → (⟨S4096x4096, .f32⟩ : BufTy).Contents (Elt F))) rfl (by decide) (by decide) (launchContents m c) (end_main_v18 m c)
  exact h

theorem end_main_v20 : E m c (Proc.devRef .tc main_v20) = val_main_v20 (F := F) (A2 m c) := by
  have h := step_binary (hw (F := F)) 27 (a := main_v17) (b := main_v19) (y := main_v20) (f := (mulf : (⟨S4096x4096, .f32⟩ : BufTy).Contents (Elt F) → (⟨S4096x4096, .f32⟩ : BufTy).Contents (Elt F) → (⟨S4096x4096, .f32⟩ : BufTy).Contents (Elt F))) rfl (by decide) (by decide) (by decide) (launchContents m c) (end_main_v17 m c) (end_main_v19 m c)
  exact h

theorem end_main_v21 : E m c (Proc.devRef .tc main_v21) = val_main_v21 (F := F) (A2 m c) := by
  have h := step_binary (hw (F := F)) 28 (a := main_v14) (b := main_v20) (y := main_v21) (f := (subf : (⟨S4096x4096, .f32⟩ : BufTy).Contents (Elt F) → (⟨S4096x4096, .f32⟩ : BufTy).Contents (Elt F) → (⟨S4096x4096, .f32⟩ : BufTy).Contents (Elt F))) rfl (by decide) (by decide) (by decide) (launchContents m c) (end_main_v14 m c) (end_main_v20 m c)
  exact h

theorem end_main_v22 : E m c (Proc.devRef .tc main_v22) = val_main_v22 (F := F) (A2 m c) := by
  have h := step_binary (hw (F := F)) 29 (a := main_v21) (b := main_v14) (y := main_v22) (f := (subf : (⟨S4096x4096, .f32⟩ : BufTy).Contents (Elt F) → (⟨S4096x4096, .f32⟩ : BufTy).Contents (Elt F) → (⟨S4096x4096, .f32⟩ : BufTy).Contents (Elt F))) rfl (by decide) (by decide) (by decide) (launchContents m c) (end_main_v21 m c) (end_main_v14 m c)
  exact h

theorem end_main_v23 : E m c (Proc.devRef .tc main_v23) = val_main_v23 (F := F) (A1 m c) := by
  have h := step_unary (hw (F := F)) 30 (x := main_arg1) (y := main_v23) (f := ((extractStridedSlice S1x8x65536 ![0, 0, 0] · slices_S2x8x65536_S1x8x65536_0_0_0) : (⟨S2x8x65536, .f32⟩ : BufTy).Contents (Elt F) → (⟨S1x8x65536, .f32⟩ : BufTy).Contents (Elt F))) rfl (by decide) (by decide) (launchContents m c) (end_arg1 m c)
  exact h

theorem end_main_v24 : E m c (Proc.devRef .tc main_v24) = val_main_v24 (F := F) (A1 m c) := by
  have h := step_reshape (hw (F := F)) 31 (x := main_v23) (y := main_v24) rfl (by decide) (by decide) (launchContents m c) (end_main_v23 m c)
  exact h

theorem end_main_v25 : E m c (Proc.devRef .tc main_v25) = val_main_v25 (F := F) (A0 m c) := by
  have h := step_reshape (hw (F := F)) 32 (x := main_arg0) (y := main_v25) rfl (by decide) (by decide) (launchContents m c) (end_arg0 m c)
  exact h

theorem end_main_v26 : E m c (Proc.devRef .tc main_v26) = val_main_v26 (F := F) (A1 m c) := by
  have h := step_reshape (hw (F := F)) 33 (x := main_v24) (y := main_v26) rfl (by decide) (by decide) (launchContents m c) (end_main_v24 m c)
  exact h

theorem end_main_v27 : E m c (Proc.devRef .tc main_v27) = val_main_v27 (F := F) (A0 m c) (A1 m c) := by
  have h := step_binary (hw (F := F)) 34 (a := main_v25) (b := main_v26) (y := main_v27) (f := ((fun a b => concatenate S8x4096x17 2 [⟨S8x4096x1, a⟩, ⟨S8x4096x16, b⟩] concatenates_S8x4096x1_S8x4096x16_S8x4096x17_d2) : (⟨S8x4096x1, .f32⟩ : BufTy).Contents (Elt F) → (⟨S8x4096x16, .f32⟩ : BufTy).Contents (Elt F) → (⟨S8x4096x17, .f32⟩ : BufTy).Contents (Elt F))) rfl (by decide) (by decide) (by decide) (launchContents m c) (end_main_v25 m c) (end_main_v26 m c)
  exact h

theorem end_main_v28 : E m c (Proc.devRef .tc main_v28) = val_main_v28 (F := F) (A0 m c) (A1 m c) := by
  have h := step_unary (hw (F := F)) 35 (x := main_v27) (y := main_v28) (f := ((transpose S4096x17x8 [1, 2, 0] · transposes_S8x4096x17_S4096x17x8_1_2_0) : (⟨S8x4096x17, .f32⟩ : BufTy).Contents (Elt F) → (⟨S4096x17x8, .f32⟩ : BufTy).Contents (Elt F))) rfl (by decide) (by decide) (launchContents m c) (end_main_v27 m c)
  exact h

theorem end_main_v29 : E m c (Proc.devRef .tc main_v29) = val_main_v29 (F := F) (A0 m c) (A1 m c) := by
  have h := step_reshape (hw (F := F)) 36 (x := main_v28) (y := main_v29) rfl (by decide) (by decide) (launchContents m c) (end_main_v28 m c)
  exact h

theorem end_main_v30 : E m c (Proc.devRef .tc main_v30) = val_main_v30 (F := F) (A0 m c) (A1 m c) (A2 m c) := by
  have h := step_binary (hw (F := F)) 37 (a := main_v22) (b := main_v29) (y := main_v30) (f := ((fun l r => Host.dotGeneral dot_S4096x4096_S4096x136_S4096x136_1_0_0_1_n_n none l r) : (⟨S4096x4096, .f32⟩ : BufTy).Contents (Elt F) → (⟨S4096x136, .f32⟩ : BufTy).Contents (Elt F) → (⟨S4096x136, .f32⟩ : BufTy).Contents (Elt F))) rfl (by decide) (by decide) (by decide) (launchContents m c) (end_main_v22 m c) (end_main_v29 m c)
  exact h

theorem end_main_v31 : E m c (Proc.devRef .tc main_v31) = val_main_v31 (F := F) (A0 m c) (A1 m c) (A2 m c) := by
  have h := step_binary (hw (F := F)) 38 (a := main_v22) (b := main_v30) (y := main_v31) (f := ((fun l r => Host.dotGeneral dot_S4096x4096_S4096x136_S4096x136_1_0_0_1_n_n none l r) : (⟨S4096x4096, .f32⟩ : BufTy).Contents (Elt F) → (⟨S4096x136, .f32⟩ : BufTy).Contents (Elt F) → (⟨S4096x136, .f32⟩ : BufTy).Contents (Elt F))) rfl (by decide) (by decide) (by decide) (launchContents m c) (end_main_v22 m c) (end_main_v30 m c)
  exact h

theorem end_main_cst_3 : E m c (Proc.devRef .tc main_cst_3) = val_main_cst_3 (F := F) := by
  exact step_nullary (hw (F := F)) 39 (y := main_cst_3) rfl (by decide) (launchContents m c)

theorem end_main_v32 : E m c (Proc.devRef .tc main_v32) = val_main_v32 (F := F) := by
  have h := step_unary (hw (F := F)) 40 (x := main_cst_3) (y := main_v32) (f := (broadcastInDim S4096x136 ![] bcast_S_S4096x136 : (⟨S_, .f32⟩ : BufTy).Contents (Elt F) → (⟨S4096x136, .f32⟩ : BufTy).Contents (Elt F))) rfl (by decide) (by decide) (launchContents m c) (end_main_cst_3 m c)
  exact h

theorem end_main_v33 : E m c (Proc.devRef .tc main_v33) = val_main_v33 (F := F) (A0 m c) (A1 m c) (A2 m c) := by
  have h := step_binary (hw (F := F)) 41 (a := main_v32) (b := main_v31) (y := main_v33) (f := (mulf : (⟨S4096x136, .f32⟩ : BufTy).Contents (Elt F) → (⟨S4096x136, .f32⟩ : BufTy).Contents (Elt F) → (⟨S4096x136, .f32⟩ : BufTy).Contents (Elt F))) rfl (by decide) (by decide) (by decide) (launchContents m c) (end_main_v32 m c) (end_main_v31 m c)
  exact h

theorem end_main_v34 : E m c (Proc.devRef .tc main_v34) = val_main_v34 (F := F) (A0 m c) (A1 m c) (A2 m c) := by
  have h := step_binary (hw (F := F)) 42 (a := main_v33) (b := main_v29) (y := main_v34) (f := (subf : (⟨S4096x136, .f32⟩ : BufTy).Contents (Elt F) → (⟨S4096x136, .f32⟩ : BufTy).Contents (Elt F) → (⟨S4096x136, .f32⟩ : BufTy).Contents (Elt F))) rfl (by decide) (by decide) (by decide) (launchContents m c) (end_main_v33 m c) (end_main_v29 m c)
  exact h

theorem end_main_v35 : E m c (Proc.devRef .tc main_v35) = val_main_v35 (F := F) (A0 m c) (A1 m c) := by
  have h := step_unary (hw (F := F)) 43 (x := main_v29) (y := main_v35) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v29 m c)
  exact h

theorem end_main_v36 : E m c (Proc.devRef .tc main_v36) = val_main_v36 (F := F) (A0 m c) (A1 m c) (A2 m c) := by
  have h := step_unary (hw (F := F)) 44 (x := main_v30) (y := main_v36) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v30 m c)
  exact h

end Cert.ReferenceIdeal.LineP

end
-- ==== Proof.RefLine2.lean ====
/-
  The reference program's operations 45 to 89, each read at the END valuation of the whole line: the buffer an
  operation writes holds the operation's stage of the arguments of @main, from the same fact for its operands.
-/
import proofs.«172830_g53506702573898_cont_9to1_m_1152_4_alg».proof.Proof.RefRead
import proofs.«172830_g53506702573898_cont_9to1_m_1152_4_alg».proof.Proof.RefLineLib
import proofs.«172830_g53506702573898_cont_9to1_m_1152_4_alg».proof.Proof.RefLine1

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo Cert.LibFoldSteps Cert.RefLine

variable {F : FTy → Type} [FloatOps F]

variable (m : (ℓ : Loc nD τ sig) → Buf (Elt F) ℓ) (c : Dev nD)

theorem end_main_v37 : E m c (Proc.devRef .tc main_v37) = val_main_v37 (F := F) (A0 m c) (A1 m c) (A2 m c) := by
  have h := step_unary (hw (F := F)) 45 (x := main_v34) (y := main_v37) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v34 m c)
  exact h

theorem end_main_v38 : E m c (Proc.devRef .tc main_v38) = val_main_v38 (F := F) (A0 m c) (A1 m c) (A2 m c) := by
  refine (step_nary (hw (F := F)) 46 (xs := ![main_v35, main_v36, main_v37]) (y := main_v38) rfl (by decide) (by decide) (launchContents m c)).trans ?_
  show concatenate S3x4096x136 0 [⟨S1x4096x136, E m c (Proc.devRef .tc main_v35)⟩, ⟨S1x4096x136, E m c (Proc.devRef .tc main_v36)⟩, ⟨S1x4096x136, E m c (Proc.devRef .tc main_v37)⟩] concatenates_S1x4096x136_S1x4096x136_S1x4096x136_S3x4096x136_d0 = _
  rw [end_main_v35 m c, end_main_v36 m c, end_main_v37 m c]
  rfl

theorem end_main_v39 : E m c (Proc.devRef .tc main_v39) = val_main_v39 (F := F) (A0 m c) (A1 m c) (A2 m c) := by
  have h := step_reshape (hw (F := F)) 47 (x := main_v38) (y := main_v39) rfl (by decide) (by decide) (launchContents m c) (end_main_v38 m c)
  exact h

theorem end_main_v40 : E m c (Proc.devRef .tc main_v40) = val_main_v40 (F := F) (A0 m c) (A1 m c) (A2 m c) := by
  have h := step_unary (hw (F := F)) 48 (x := main_v39) (y := main_v40) (f := ((transpose S8x4096x17x3 [3, 1, 2, 0] · transposes_S3x4096x17x8_S8x4096x17x3_3_1_2_0) : (⟨S3x4096x17x8, .f32⟩ : BufTy).Contents (Elt F) → (⟨S8x4096x17x3, .f32⟩ : BufTy).Contents (Elt F))) rfl (by decide) (by decide) (launchContents m c) (end_main_v39 m c)
  exact h

theorem end_main_v41 : E m c (Proc.devRef .tc main_v41) = val_main_v41 (F := F) (A0 m c) (A1 m c) (A2 m c) := by
  have h := step_reshape (hw (F := F)) 49 (x := main_v40) (y := main_v41) rfl (by decide) (by decide) (launchContents m c) (end_main_v40 m c)
  exact h

theorem end_main_v42 : E m c (Proc.devRef .tc main_v42) = val_main_v42 (F := F) (A0 m c) (A1 m c) (A2 m c) (A3 m c) := by
  have h := step_binary (hw (F := F)) 50 (a := main_v41) (b := main_arg3) (y := main_v42) (f := ((fun l r => Host.dotGeneral dot_S32768x51_S51x32_S32768x32_1_0_0_1_n_n none l r) : (⟨S32768x51, .f32⟩ : BufTy).Contents (Elt F) → (⟨S51x32, .f32⟩ : BufTy).Contents (Elt F) → (⟨S32768x32, .f32⟩ : BufTy).Contents (Elt F))) rfl (by decide) (by decide) (by decide) (launchContents m c) (end_main_v41 m c) (end_arg3 m c)
  exact h

theorem end_main_v43 : E m c (Proc.devRef .tc main_v43) = val_main_v43 (F := F) (A4 m c) := by
  have h := step_unary (hw (F := F)) 51 (x := main_arg4) (y := main_v43) (f := (broadcastInDim S1x32 ![1] bcast_S32_S1x32_1 : (⟨S32, .f32⟩ : BufTy).Contents (Elt F) → (⟨S1x32, .f32⟩ : BufTy).Contents (Elt F))) rfl (by decide) (by decide) (launchContents m c) (end_arg4 m c)
  exact h

theorem end_main_v44 : E m c (Proc.devRef .tc main_v44) = val_main_v44 (F := F) (A4 m c) := by
  have h := step_unary (hw (F := F)) 52 (x := main_v43) (y := main_v44) (f := (broadcastInDim S32768x32 ![0, 1] bcast_S1x32_S32768x32_0_1 : (⟨S1x32, .f32⟩ : BufTy).Contents (Elt F) → (⟨S32768x32, .f32⟩ : BufTy).Contents (Elt F))) rfl (by decide) (by decide) (launchContents m c) (end_main_v43 m c)
  exact h

theorem end_main_v45 : E m c (Proc.devRef .tc main_v45) = val_main_v45 (F := F) (A0 m c) (A1 m c) (A2 m c) (A3 m c) (A4 m c) := by
  have h := step_binary (hw (F := F)) 53 (a := main_v42) (b := main_v44) (y := main_v45) (f := (addf : (⟨S32768x32, .f32⟩ : BufTy).Contents (Elt F) → (⟨S32768x32, .f32⟩ : BufTy).Contents (Elt F) → (⟨S32768x32, .f32⟩ : BufTy).Contents (Elt F))) rfl (by decide) (by decide) (by decide) (launchContents m c) (end_main_v42 m c) (end_main_v44 m c)
  exact h

theorem end_main_v46 : E m c (Proc.devRef .tc main_v46) = val_main_v46 (F := F) (A0 m c) (A1 m c) (A2 m c) (A3 m c) (A4 m c) := by
  have h := step_reshape (hw (F := F)) 54 (x := main_v45) (y := main_v46) rfl (by decide) (by decide) (launchContents m c) (end_main_v45 m c)
  exact h

theorem end_main_v47 : E m c (Proc.devRef .tc main_v47) = val_main_v47 (F := F) (A0 m c) (A1 m c) (A2 m c) (A3 m c) (A4 m c) := by
  have h := step_unary (hw (F := F)) 55 (x := main_v46) (y := main_v47) (f := (Host.negf : (⟨S8x131072, .f32⟩ : BufTy).Contents (Elt F) → (⟨S8x131072, .f32⟩ : BufTy).Contents (Elt F))) rfl (by decide) (by decide) (launchContents m c) (end_main_v46 m c)
  exact h

theorem end_main_v48 : E m c (Proc.devRef .tc main_v48) = val_main_v48 (F := F) (A0 m c) (A1 m c) (A2 m c) (A3 m c) (A4 m c) := by
  have h := step_unary (hw (F := F)) 56 (x := main_v47) (y := main_v48) (f := (Host.exp : (⟨S8x131072, .f32⟩ : BufTy).Contents (Elt F) → (⟨S8x131072, .f32⟩ : BufTy).Contents (Elt F))) rfl (by decide) (by decide) (launchContents m c) (end_main_v47 m c)
  exact h

theorem end_main_cst_4 : E m c (Proc.devRef .tc main_cst_4) = val_main_cst_4 (F := F) := by
  exact step_nullary (hw (F := F)) 57 (y := main_cst_4) rfl (by decide) (launchContents m c)

theorem end_main_v49 : E m c (Proc.devRef .tc main_v49) = val_main_v49 (F := F) := by
  have h := step_unary (hw (F := F)) 58 (x := main_cst_4) (y := main_v49) (f := (broadcastInDim S8x131072 ![] bcast_S_S8x131072 : (⟨S_, .f32⟩ : BufTy).Contents (Elt F) → (⟨S8x131072, .f32⟩ : BufTy).Contents (Elt F))) rfl (by decide) (by decide) (launchContents m c) (end_main_cst_4 m c)
  exact h

theorem end_main_v50 : E m c (Proc.devRef .tc main_v50) = val_main_v50 (F := F) (A0 m c) (A1 m c) (A2 m c) (A3 m c) (A4 m c) := by
  have h := step_binary (hw (F := F)) 59 (a := main_v49) (b := main_v48) (y := main_v50) (f := (addf : (⟨S8x131072, .f32⟩ : BufTy).Contents (Elt F) → (⟨S8x131072, .f32⟩ : BufTy).Contents (Elt F) → (⟨S8x131072, .f32⟩ : BufTy).Contents (Elt F))) rfl (by decide) (by decide) (by decide) (launchContents m c) (end_main_v49 m c) (end_main_v48 m c)
  exact h

theorem end_main_cst_5 : E m c (Proc.devRef .tc main_cst_5) = val_main_cst_5 (F := F) := by
  exact step_nullary (hw (F := F)) 60 (y := main_cst_5) rfl (by decide) (launchContents m c)

theorem end_main_v51 : E m c (Proc.devRef .tc main_v51) = val_main_v51 (F := F) := by
  have h := step_unary (hw (F := F)) 61 (x := main_cst_5) (y := main_v51) (f := (broadcastInDim S8x131072 ![] bcast_S_S8x131072 : (⟨S_, .f32⟩ : BufTy).Contents (Elt F) → (⟨S8x131072, .f32⟩ : BufTy).Contents (Elt F))) rfl (by decide) (by decide) (launchContents m c) (end_main_cst_5 m c)
  exact h

theorem end_main_v52 : E m c (Proc.devRef .tc main_v52) = val_main_v52 (F := F) (A0 m c) (A1 m c) (A2 m c) (A3 m c) (A4 m c) := by
  have h := step_binary (hw (F := F)) 62 (a := main_v51) (b := main_v50) (y := main_v52) (f := (Host.divf : (⟨S8x131072, .f32⟩ : BufTy).Contents (Elt F) → (⟨S8x131072, .f32⟩ : BufTy).Contents (Elt F) → (⟨S8x131072, .f32⟩ : BufTy).Contents (Elt F))) rfl (by decide) (by decide) (by decide) (launchContents m c) (end_main_v51 m c) (end_main_v50 m c)
  exact h

theorem end_main_v53 : E m c (Proc.devRef .tc main_v53) = val_main_v53 (F := F) (A0 m c) (A1 m c) (A2 m c) (A3 m c) (A4 m c) := by
  have h := step_reshape (hw (F := F)) 63 (x := main_v52) (y := main_v53) rfl (by decide) (by decide) (launchContents m c) (end_main_v52 m c)
  exact h

theorem end_main_v54 : E m c (Proc.devRef .tc main_v54) = val_main_v54 (F := F) (A0 m c) (A1 m c) (A2 m c) (A3 m c) (A4 m c) := by
  have h := step_unary (hw (F := F)) 64 (x := main_v53) (y := main_v54) (f := ((extractStridedSlice S8x4096x16 ![0, 0, 0] · slices_S8x4096x32_S8x4096x16_0_0_0) : (⟨S8x4096x32, .f32⟩ : BufTy).Contents (Elt F) → (⟨S8x4096x16, .f32⟩ : BufTy).Contents (Elt F))) rfl (by decide) (by decide) (launchContents m c) (end_main_v53 m c)
  exact h

theorem end_main_v55 : E m c (Proc.devRef .tc main_v55) = val_main_v55 (F := F) (A0 m c) (A1 m c) (A2 m c) (A3 m c) (A4 m c) := by
  have h := step_reshape (hw (F := F)) 65 (x := main_v54) (y := main_v55) rfl (by decide) (by decide) (launchContents m c) (end_main_v54 m c)
  exact h

theorem end_main_v56 : E m c (Proc.devRef .tc main_v56) = val_main_v56 (F := F) (A0 m c) (A1 m c) (A2 m c) (A3 m c) (A4 m c) := by
  have h := step_unary (hw (F := F)) 66 (x := main_v53) (y := main_v56) (f := ((extractStridedSlice S8x4096x16 ![0, 0, 16] · slices_S8x4096x32_S8x4096x16_0_0_16) : (⟨S8x4096x32, .f32⟩ : BufTy).Contents (Elt F) → (⟨S8x4096x16, .f32⟩ : BufTy).Contents (Elt F))) rfl (by decide) (by decide) (launchContents m c) (end_main_v53 m c)
  exact h

theorem end_main_v57 : E m c (Proc.devRef .tc main_v57) = val_main_v57 (F := F) (A0 m c) (A1 m c) (A2 m c) (A3 m c) (A4 m c) := by
  have h := step_reshape (hw (F := F)) 67 (x := main_v56) (y := main_v57) rfl (by decide) (by decide) (launchContents m c) (end_main_v56 m c)
  exact h

theorem end_main_v58 : E m c (Proc.devRef .tc main_v58) = val_main_v58 (F := F) (A0 m c) (A1 m c) (A2 m c) (A3 m c) (A4 m c) := by
  have h := step_binary (hw (F := F)) 68 (a := main_v55) (b := main_v24) (y := main_v58) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v55 m c) (end_main_v24 m c)
  exact h

theorem end_main_v59 : E m c (Proc.devRef .tc main_v59) = val_main_v59 (F := F) (A0 m c) := by
  have h := step_reshape (hw (F := F)) 69 (x := main_arg0) (y := main_v59) rfl (by decide) (by decide) (launchContents m c) (end_arg0 m c)
  exact h

theorem end_main_v60 : E m c (Proc.devRef .tc main_v60) = val_main_v60 (F := F) (A0 m c) (A1 m c) (A2 m c) (A3 m c) (A4 m c) := by
  have h := step_reshape (hw (F := F)) 70 (x := main_v58) (y := main_v60) rfl (by decide) (by decide) (launchContents m c) (end_main_v58 m c)
  exact h

theorem end_main_v61 : E m c (Proc.devRef .tc main_v61) = val_main_v61 (F := F) (A0 m c) (A1 m c) (A2 m c) (A3 m c) (A4 m c) := by
  have h := step_binary (hw (F := F)) 71 (a := main_v59) (b := main_v60) (y := main_v61) (f := ((fun a b => concatenate S8x4096x17 2 [⟨S8x4096x1, a⟩, ⟨S8x4096x16, b⟩] concatenates_S8x4096x1_S8x4096x16_S8x4096x17_d2) : (⟨S8x4096x1, .f32⟩ : BufTy).Contents (Elt F) → (⟨S8x4096x16, .f32⟩ : BufTy).Contents (Elt F) → (⟨S8x4096x17, .f32⟩ : BufTy).Contents (Elt F))) rfl (by decide) (by decide) (by decide) (launchContents m c) (end_main_v59 m c) (end_main_v60 m c)
  exact h

theorem end_main_v62 : E m c (Proc.devRef .tc main_v62) = val_main_v62 (F := F) (A0 m c) (A1 m c) (A2 m c) (A3 m c) (A4 m c) := by
  have h := step_unary (hw (F := F)) 72 (x := main_v61) (y := main_v62) (f := ((transpose S4096x17x8 [1, 2, 0] · transposes_S8x4096x17_S4096x17x8_1_2_0) : (⟨S8x4096x17, .f32⟩ : BufTy).Contents (Elt F) → (⟨S4096x17x8, .f32⟩ : BufTy).Contents (Elt F))) rfl (by decide) (by decide) (launchContents m c) (end_main_v61 m c)
  exact h

theorem end_main_v63 : E m c (Proc.devRef .tc main_v63) = val_main_v63 (F := F) (A0 m c) (A1 m c) (A2 m c) (A3 m c) (A4 m c) := by
  have h := step_reshape (hw (F := F)) 73 (x := main_v62) (y := main_v63) rfl (by decide) (by decide) (launchContents m c) (end_main_v62 m c)
  exact h

theorem end_main_v64 : E m c (Proc.devRef .tc main_v64) = val_main_v64 (F := F) (A0 m c) (A1 m c) (A2 m c) (A3 m c) (A4 m c) := by
  have h := step_binary (hw (F := F)) 74 (a := main_v22) (b := main_v63) (y := main_v64) (f := ((fun l r => Host.dotGeneral dot_S4096x4096_S4096x136_S4096x136_1_0_0_1_n_n none l r) : (⟨S4096x4096, .f32⟩ : BufTy).Contents (Elt F) → (⟨S4096x136, .f32⟩ : BufTy).Contents (Elt F) → (⟨S4096x136, .f32⟩ : BufTy).Contents (Elt F))) rfl (by decide) (by decide) (by decide) (launchContents m c) (end_main_v22 m c) (end_main_v63 m c)
  exact h

theorem end_main_v65 : E m c (Proc.devRef .tc main_v65) = val_main_v65 (F := F) (A0 m c) (A1 m c) (A2 m c) (A3 m c) (A4 m c) := by
  have h := step_binary (hw (F := F)) 75 (a := main_v22) (b := main_v64) (y := main_v65) (f := ((fun l r => Host.dotGeneral dot_S4096x4096_S4096x136_S4096x136_1_0_0_1_n_n none l r) : (⟨S4096x4096, .f32⟩ : BufTy).Contents (Elt F) → (⟨S4096x136, .f32⟩ : BufTy).Contents (Elt F) → (⟨S4096x136, .f32⟩ : BufTy).Contents (Elt F))) rfl (by decide) (by decide) (by decide) (launchContents m c) (end_main_v22 m c) (end_main_v64 m c)
  exact h

theorem end_main_cst_6 : E m c (Proc.devRef .tc main_cst_6) = val_main_cst_6 (F := F) := by
  exact step_nullary (hw (F := F)) 76 (y := main_cst_6) rfl (by decide) (launchContents m c)

theorem end_main_v66 : E m c (Proc.devRef .tc main_v66) = val_main_v66 (F := F) := by
  have h := step_unary (hw (F := F)) 77 (x := main_cst_6) (y := main_v66) (f := (broadcastInDim S4096x136 ![] bcast_S_S4096x136 : (⟨S_, .f32⟩ : BufTy).Contents (Elt F) → (⟨S4096x136, .f32⟩ : BufTy).Contents (Elt F))) rfl (by decide) (by decide) (launchContents m c) (end_main_cst_6 m c)
  exact h

theorem end_main_v67 : E m c (Proc.devRef .tc main_v67) = val_main_v67 (F := F) (A0 m c) (A1 m c) (A2 m c) (A3 m c) (A4 m c) := by
  have h := step_binary (hw (F := F)) 78 (a := main_v66) (b := main_v65) (y := main_v67) (f := (mulf : (⟨S4096x136, .f32⟩ : BufTy).Contents (Elt F) → (⟨S4096x136, .f32⟩ : BufTy).Contents (Elt F) → (⟨S4096x136, .f32⟩ : BufTy).Contents (Elt F))) rfl (by decide) (by decide) (by decide) (launchContents m c) (end_main_v66 m c) (end_main_v65 m c)
  exact h

theorem end_main_v68 : E m c (Proc.devRef .tc main_v68) = val_main_v68 (F := F) (A0 m c) (A1 m c) (A2 m c) (A3 m c) (A4 m c) := by
  have h := step_binary (hw (F := F)) 79 (a := main_v67) (b := main_v63) (y := main_v68) (f := (subf : (⟨S4096x136, .f32⟩ : BufTy).Contents (Elt F) → (⟨S4096x136, .f32⟩ : BufTy).Contents (Elt F) → (⟨S4096x136, .f32⟩ : BufTy).Contents (Elt F))) rfl (by decide) (by decide) (by decide) (launchContents m c) (end_main_v67 m c) (end_main_v63 m c)
  exact h

theorem end_main_v69 : E m c (Proc.devRef .tc main_v69) = val_main_v69 (F := F) (A0 m c) (A1 m c) (A2 m c) (A3 m c) (A4 m c) := by
  have h := step_unary (hw (F := F)) 80 (x := main_v63) (y := main_v69) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v63 m c)
  exact h

theorem end_main_v70 : E m c (Proc.devRef .tc main_v70) = val_main_v70 (F := F) (A0 m c) (A1 m c) (A2 m c) (A3 m c) (A4 m c) := by
  have h := step_unary (hw (F := F)) 81 (x := main_v64) (y := main_v70) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v64 m c)
  exact h

theorem end_main_v71 : E m c (Proc.devRef .tc main_v71) = val_main_v71 (F := F) (A0 m c) (A1 m c) (A2 m c) (A3 m c) (A4 m c) := by
  have h := step_unary (hw (F := F)) 82 (x := main_v68) (y := main_v71) (f := (broadcastInDim S1x4096x136 ![1, 2] bcast_S4096x136_S1x4096x136_1_2 : (⟨S4096x136, .f32⟩ : BufTy).Contents (Elt F) → (⟨S1x4096x136, .f32⟩ : BufTy).Contents (Elt F))) rfl (by decide) (by decide) (launchContents m c) (end_main_v68 m c)
  exact h

theorem end_main_v72 : E m c (Proc.devRef .tc main_v72) = val_main_v72 (F := F) (A0 m c) (A1 m c) (A2 m c) (A3 m c) (A4 m c) := by
  refine (step_nary (hw (F := F)) 83 (xs := ![main_v69, main_v70, main_v71]) (y := main_v72) rfl (by decide) (by decide) (launchContents m c)).trans ?_
  show concatenate S3x4096x136 0 [⟨S1x4096x136, E m c (Proc.devRef .tc main_v69)⟩, ⟨S1x4096x136, E m c (Proc.devRef .tc main_v70)⟩, ⟨S1x4096x136, E m c (Proc.devRef .tc main_v71)⟩] concatenates_S1x4096x136_S1x4096x136_S1x4096x136_S3x4096x136_d0 = _
  rw [end_main_v69 m c, end_main_v70 m c, end_main_v71 m c]
  rfl

theorem end_main_v73 : E m c (Proc.devRef .tc main_v73) = val_main_v73 (F := F) (A0 m c) (A1 m c) (A2 m c) (A3 m c) (A4 m c) := by
  have h := step_reshape (hw (F := F)) 84 (x := main_v72) (y := main_v73) rfl (by decide) (by decide) (launchContents m c) (end_main_v72 m c)
  exact h

theorem end_main_v74 : E m c (Proc.devRef .tc main_v74) = val_main_v74 (F := F) (A0 m c) (A1 m c) (A2 m c) (A3 m c) (A4 m c) := by
  have h := step_unary (hw (F := F)) 85 (x := main_v73) (y := main_v74) (f := ((transpose S8x4096x17x3 [3, 1, 2, 0] · transposes_S3x4096x17x8_S8x4096x17x3_3_1_2_0) : (⟨S3x4096x17x8, .f32⟩ : BufTy).Contents (Elt F) → (⟨S8x4096x17x3, .f32⟩ : BufTy).Contents (Elt F))) rfl (by decide) (by decide) (launchContents m c) (end_main_v73 m c)
  exact h

theorem end_main_v75 : E m c (Proc.devRef .tc main_v75) = val_main_v75 (F := F) (A0 m c) (A1 m c) (A2 m c) (A3 m c) (A4 m c) := by
  have h := step_reshape (hw (F := F)) 86 (x := main_v74) (y := main_v75) rfl (by decide) (by decide) (launchContents m c) (end_main_v74 m c)
  exact h

theorem end_main_v76 : E m c (Proc.devRef .tc main_v76) = val_main_v76 (F := F) (A0 m c) (A1 m c) (A2 m c) (A3 m c) (A4 m c) (A5 m c) := by
  have h := step_binary (hw (F := F)) 87 (a := main_v75) (b := main_arg5) (y := main_v76) (f := ((fun l r => Host.dotGeneral dot_S32768x51_S51x16_S32768x16_1_0_0_1_n_n none l r) : (⟨S32768x51, .f32⟩ : BufTy).Contents (Elt F) → (⟨S51x16, .f32⟩ : BufTy).Contents (Elt F) → (⟨S32768x16, .f32⟩ : BufTy).Contents (Elt F))) rfl (by decide) (by decide) (by decide) (launchContents m c) (end_main_v75 m c) (end_arg5 m c)
  exact h

theorem end_main_v77 : E m c (Proc.devRef .tc main_v77) = val_main_v77 (F := F) (A6 m c) := by
  have h := step_unary (hw (F := F)) 88 (x := main_arg6) (y := main_v77) (f := (broadcastInDim S1x16 ![1] bcast_S16_S1x16_1 : (⟨S16, .f32⟩ : BufTy).Contents (Elt F) → (⟨S1x16, .f32⟩ : BufTy).Contents (Elt F))) rfl (by decide) (by decide) (launchContents m c) (end_arg6 m c)
  exact h

theorem end_main_v78 : E m c (Proc.devRef .tc main_v78) = val_main_v78 (F := F) (A6 m c) := by
  have h := step_unary (hw (F := F)) 89 (x := main_v77) (y := main_v78) (f := (broadcastInDim S32768x16 ![0, 1] bcast_S1x16_S32768x16_0_1 : (⟨S1x16, .f32⟩ : BufTy).Contents (Elt F) → (⟨S32768x16, .f32⟩ : BufTy).Contents (Elt F))) rfl (by decide) (by decide) (launchContents m c) (end_main_v77 m c)
  exact h

end Cert.ReferenceIdeal.LineP

end
-- ==== Proof.RefLine3.lean ====
/-
  The reference program's operations 90 to 134, each read at the END valuation of the whole line: the buffer an
  operation writes holds the operation's stage of the arguments of @main, from the same fact for its operands.
-/
import proofs.«172830_g53506702573898_cont_9to1_m_1152_4_alg».proof.Proof.RefRead
import proofs.«172830_g53506702573898_cont_9to1_m_1152_4_alg».proof.Proof.RefLineLib
import proofs.«172830_g53506702573898_cont_9to1_m_1152_4_alg».proof.Proof.RefLine2

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo Cert.LibFoldSteps Cert.RefLine

variable {F : FTy → Type} [FloatOps F]

variable (m : (ℓ : Loc nD τ sig) → Buf (Elt F) ℓ) (c : Dev nD)

theorem end_main_v79 : E m c (Proc.devRef .tc main_v79) = val_main_v79 (F := F) (A0 m c) (A1 m c) (A2 m c) (A3 m c) (A4 m c) (A5 m c) (A6 m c) := by
  have h := step_binary (hw (F := F)) 90 (a := main_v76) (b := main_v78) (y := main_v79) (f := (addf : (⟨S32768x16, .f32⟩ : BufTy).Contents (Elt F) → (⟨S32768x16, .f32⟩ : BufTy).Contents (Elt F) → (⟨S32768x16, .f32⟩ : BufTy).Contents (Elt F))) rfl (by decide) (by decide) (by decide) (launchContents m c) (end_main_v76 m c) (end_main_v78 m c)
  exact h

theorem end_main_v80 : E m c (Proc.devRef .tc main_v80) = val_main_v80 (F := F) (A0 m c) (A1 m c) (A2 m c) (A3 m c) (A4 m c) (A5 m c) (A6 m c) := by
  have h := step_reshape (hw (F := F)) 91 (x := main_v79) (y := main_v80) rfl (by decide) (by decide) (launchContents m c) (end_main_v79 m c)
  exact h

theorem end_main_v81 : E m c (Proc.devRef .tc main_v81) = val_main_v81 (F := F) (A0 m c) (A1 m c) (A2 m c) (A3 m c) (A4 m c) (A5 m c) (A6 m c) := by
  have h := step_unary (hw (F := F)) 92 (x := main_v80) (y := main_v81) (f := (Host.tanh : (⟨S8x65536, .f32⟩ : BufTy).Contents (Elt F) → (⟨S8x65536, .f32⟩ : BufTy).Contents (Elt F))) rfl (by decide) (by decide) (launchContents m c) (end_main_v80 m c)
  exact h

theorem end_main_v82 : E m c (Proc.devRef .tc main_v82) = val_main_v82 (F := F) (A0 m c) (A1 m c) (A2 m c) (A3 m c) (A4 m c) := by
  have h := step_binary (hw (F := F)) 93 (a := main_v57) (b := main_v24) (y := main_v82) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v57 m c) (end_main_v24 m c)
  exact h

theorem end_main_cst_7 : E m c (Proc.devRef .tc main_cst_7) = val_main_cst_7 (F := F) := by
  exact step_nullary (hw (F := F)) 94 (y := main_cst_7) rfl (by decide) (launchContents m c)

theorem end_main_v83 : E m c (Proc.devRef .tc main_v83) = val_main_v83 (F := F) := by
  have h := step_unary (hw (F := F)) 95 (x := main_cst_7) (y := main_v83) (f := (broadcastInDim S8x65536 ![] bcast_S_S8x65536 : (⟨S_, .f32⟩ : BufTy).Contents (Elt F) → (⟨S8x65536, .f32⟩ : BufTy).Contents (Elt F))) rfl (by decide) (by decide) (launchContents m c) (end_main_cst_7 m c)
  exact h

theorem end_main_v84 : E m c (Proc.devRef .tc main_v84) = val_main_v84 (F := F) (A0 m c) (A1 m c) (A2 m c) (A3 m c) (A4 m c) := by
  have h := step_binary (hw (F := F)) 96 (a := main_v83) (b := main_v57) (y := main_v84) (f := (subf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v83 m c) (end_main_v57 m c)
  exact h

theorem end_main_v85 : E m c (Proc.devRef .tc main_v85) = val_main_v85 (F := F) (A0 m c) (A1 m c) (A2 m c) (A3 m c) (A4 m c) (A5 m c) (A6 m c) := by
  have h := step_binary (hw (F := F)) 97 (a := main_v84) (b := main_v81) (y := main_v85) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v84 m c) (end_main_v81 m c)
  exact h

theorem end_main_v86 : E m c (Proc.devRef .tc main_v86) = val_main_v86 (F := F) (A0 m c) (A1 m c) (A2 m c) (A3 m c) (A4 m c) (A5 m c) (A6 m c) := by
  have h := step_binary (hw (F := F)) 98 (a := main_v82) (b := main_v85) (y := main_v86) (f := (addf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v82 m c) (end_main_v85 m c)
  exact h

theorem end_main_v87 : E m c (Proc.devRef .tc main_v87) = val_main_v87 (F := F) (A1 m c) := by
  have h := step_unary (hw (F := F)) 99 (x := main_arg1) (y := main_v87) (f := ((extractStridedSlice S1x8x65536 ![1, 0, 0] · slices_S2x8x65536_S1x8x65536_1_0_0) : (⟨S2x8x65536, .f32⟩ : BufTy).Contents (Elt F) → (⟨S1x8x65536, .f32⟩ : BufTy).Contents (Elt F))) rfl (by decide) (by decide) (launchContents m c) (end_arg1 m c)
  exact h

theorem end_main_v88 : E m c (Proc.devRef .tc main_v88) = val_main_v88 (F := F) (A1 m c) := by
  have h := step_reshape (hw (F := F)) 100 (x := main_v87) (y := main_v88) rfl (by decide) (by decide) (launchContents m c) (end_main_v87 m c)
  exact h

theorem end_main_v89 : E m c (Proc.devRef .tc main_v89) = val_main_v89 (F := F) (A0 m c) (A1 m c) (A2 m c) (A3 m c) (A4 m c) (A5 m c) (A6 m c) := by
  have h := step_reshape (hw (F := F)) 101 (x := main_v86) (y := main_v89) rfl (by decide) (by decide) (launchContents m c) (end_main_v86 m c)
  exact h

theorem end_main_v90 : E m c (Proc.devRef .tc main_v90) = val_main_v90 (F := F) (A1 m c) := by
  have h := step_reshape (hw (F := F)) 102 (x := main_v88) (y := main_v90) rfl (by decide) (by decide) (launchContents m c) (end_main_v88 m c)
  exact h

theorem end_main_v91 : E m c (Proc.devRef .tc main_v91) = val_main_v91 (F := F) (A0 m c) (A1 m c) (A2 m c) (A3 m c) (A4 m c) (A5 m c) (A6 m c) := by
  have h := step_binary (hw (F := F)) 103 (a := main_v89) (b := main_v90) (y := main_v91) (f := ((fun a b => concatenate S8x4096x32 2 [⟨S8x4096x16, a⟩, ⟨S8x4096x16, b⟩] concatenates_S8x4096x16_S8x4096x16_S8x4096x32_d2) : (⟨S8x4096x16, .f32⟩ : BufTy).Contents (Elt F) → (⟨S8x4096x16, .f32⟩ : BufTy).Contents (Elt F) → (⟨S8x4096x32, .f32⟩ : BufTy).Contents (Elt F))) rfl (by decide) (by decide) (by decide) (launchContents m c) (end_main_v89 m c) (end_main_v90 m c)
  exact h

theorem end_main_v92 : E m c (Proc.devRef .tc main_v92) = val_main_v92 (F := F) (A0 m c) (A1 m c) (A2 m c) (A3 m c) (A4 m c) (A5 m c) (A6 m c) := by
  have h := step_unary (hw (F := F)) 104 (x := main_v91) (y := main_v92) (f := ((transpose S4096x32x8 [1, 2, 0] · transposes_S8x4096x32_S4096x32x8_1_2_0) : (⟨S8x4096x32, .f32⟩ : BufTy).Contents (Elt F) → (⟨S4096x32x8, .f32⟩ : BufTy).Contents (Elt F))) rfl (by decide) (by decide) (launchContents m c) (end_main_v91 m c)
  exact h

theorem end_main_v93 : E m c (Proc.devRef .tc main_v93) = val_main_v93 (F := F) (A0 m c) (A1 m c) (A2 m c) (A3 m c) (A4 m c) (A5 m c) (A6 m c) := by
  have h := step_reshape (hw (F := F)) 105 (x := main_v92) (y := main_v93) rfl (by decide) (by decide) (launchContents m c) (end_main_v92 m c)
  exact h

theorem end_main_v94 : E m c (Proc.devRef .tc main_v94) = val_main_v94 (F := F) (A0 m c) (A1 m c) (A2 m c) (A3 m c) (A4 m c) (A5 m c) (A6 m c) := by
  have h := step_binary (hw (F := F)) 106 (a := main_v22) (b := main_v93) (y := main_v94) (f := ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F))) rfl (by decide) (by decide) (by decide) (launchContents m c) (end_main_v22 m c) (end_main_v93 m c)
  exact h

theorem end_main_v95 : E m c (Proc.devRef .tc main_v95) = val_main_v95 (F := F) (A0 m c) (A1 m c) (A2 m c) (A3 m c) (A4 m c) (A5 m c) (A6 m c) := by
  have h := step_binary (hw (F := F)) 107 (a := main_v22) (b := main_v94) (y := main_v95) (f := ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F))) rfl (by decide) (by decide) (by decide) (launchContents m c) (end_main_v22 m c) (end_main_v94 m c)
  exact h

theorem end_main_cst_8 : E m c (Proc.devRef .tc main_cst_8) = val_main_cst_8 (F := F) := by
  exact step_nullary (hw (F := F)) 108 (y := main_cst_8) rfl (by decide) (launchContents m c)

theorem end_main_v96 : E m c (Proc.devRef .tc main_v96) = val_main_v96 (F := F) := by
  have h := step_unary (hw (F := F)) 109 (x := main_cst_8) (y := main_v96) (f := (broadcastInDim S4096x256 ![] bcast_S_S4096x256 : (⟨S_, .f32⟩ : BufTy).Contents (Elt F) → (⟨S4096x256, .f32⟩ : BufTy).Contents (Elt F))) rfl (by decide) (by decide) (launchContents m c) (end_main_cst_8 m c)
  exact h

theorem end_main_v97 : E m c (Proc.devRef .tc main_v97) = val_main_v97 (F := F) (A0 m c) (A1 m c) (A2 m c) (A3 m c) (A4 m c) (A5 m c) (A6 m c) := by
  have h := step_binary (hw (F := F)) 110 (a := main_v96) (b := main_v95) (y := main_v97) (f := (mulf : (⟨S4096x256, .f32⟩ : BufTy).Contents (Elt F) → (⟨S4096x256, .f32⟩ : BufTy).Contents (Elt F) → (⟨S4096x256, .f32⟩ : BufTy).Contents (Elt F))) rfl (by decide) (by decide) (by decide) (launchContents m c) (end_main_v96 m c) (end_main_v95 m c)
  exact h

theorem end_main_v98 : E m c (Proc.devRef .tc main_v98) = val_main_v98 (F := F) (A0 m c) (A1 m c) (A2 m c) (A3 m c) (A4 m c) (A5 m c) (A6 m c) := by
  have h := step_binary (hw (F := F)) 111 (a := main_v97) (b := main_v93) (y := main_v98) (f := (subf : (⟨S4096x256, .f32⟩ : BufTy).Contents (Elt F) → (⟨S4096x256, .f32⟩ : BufTy).Contents (Elt F) → (⟨S4096x256, .f32⟩ : BufTy).Contents (Elt F))) rfl (by decide) (by decide) (by decide) (launchContents m c) (end_main_v97 m c) (end_main_v93 m c)
  exact h

theorem end_main_v99 : E m c (Proc.devRef .tc main_v99) = val_main_v99 (F := F) (A0 m c) (A1 m c) (A2 m c) (A3 m c) (A4 m c) (A5 m c) (A6 m c) := by
  have h := step_unary (hw (F := F)) 112 (x := main_v93) (y := main_v99) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v93 m c)
  exact h

theorem end_main_v100 : E m c (Proc.devRef .tc main_v100) = val_main_v100 (F := F) (A0 m c) (A1 m c) (A2 m c) (A3 m c) (A4 m c) (A5 m c) (A6 m c) := by
  have h := step_unary (hw (F := F)) 113 (x := main_v94) (y := main_v100) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v94 m c)
  exact h

theorem end_main_v101 : E m c (Proc.devRef .tc main_v101) = val_main_v101 (F := F) (A0 m c) (A1 m c) (A2 m c) (A3 m c) (A4 m c) (A5 m c) (A6 m c) := by
  have h := step_unary (hw (F := F)) 114 (x := main_v98) (y := main_v101) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v98 m c)
  exact h

theorem end_main_v102 : E m c (Proc.devRef .tc main_v102) = val_main_v102 (F := F) (A0 m c) (A1 m c) (A2 m c) (A3 m c) (A4 m c) (A5 m c) (A6 m c) := by
  refine (step_nary (hw (F := F)) 115 (xs := ![main_v99, main_v100, main_v101]) (y := main_v102) rfl (by decide) (by decide) (launchContents m c)).trans ?_
  show concatenate S3x4096x256 0 [⟨S1x4096x256, E m c (Proc.devRef .tc main_v99)⟩, ⟨S1x4096x256, E m c (Proc.devRef .tc main_v100)⟩, ⟨S1x4096x256, E m c (Proc.devRef .tc main_v101)⟩] concatenates_S1x4096x256_S1x4096x256_S1x4096x256_S3x4096x256_d0 = _
  rw [end_main_v99 m c, end_main_v100 m c, end_main_v101 m c]
  rfl

theorem end_main_v103 : E m c (Proc.devRef .tc main_v103) = val_main_v103 (F := F) (A0 m c) (A1 m c) (A2 m c) (A3 m c) (A4 m c) (A5 m c) (A6 m c) := by
  have h := step_reshape (hw (F := F)) 116 (x := main_v102) (y := main_v103) rfl (by decide) (by decide) (launchContents m c) (end_main_v102 m c)
  exact h

theorem end_main_v104 : E m c (Proc.devRef .tc main_v104) = val_main_v104 (F := F) (A0 m c) (A1 m c) (A2 m c) (A3 m c) (A4 m c) (A5 m c) (A6 m c) := by
  have h := step_unary (hw (F := F)) 117 (x := main_v103) (y := main_v104) (f := ((transpose S8x4096x32x3 [3, 1, 2, 0] · transposes_S3x4096x32x8_S8x4096x32x3_3_1_2_0) : (⟨S3x4096x32x8, .f32⟩ : BufTy).Contents (Elt F) → (⟨S8x4096x32x3, .f32⟩ : BufTy).Contents (Elt F))) rfl (by decide) (by decide) (launchContents m c) (end_main_v103 m c)
  exact h

theorem end_main_v105 : E m c (Proc.devRef .tc main_v105) = val_main_v105 (F := F) (A0 m c) (A1 m c) (A2 m c) (A3 m c) (A4 m c) (A5 m c) (A6 m c) := by
  have h := step_reshape (hw (F := F)) 118 (x := main_v104) (y := main_v105) rfl (by decide) (by decide) (launchContents m c) (end_main_v104 m c)
  exact h

theorem end_main_v106 : E m c (Proc.devRef .tc main_v106) = val_main_v106 (F := F) (A0 m c) (A1 m c) (A2 m c) (A3 m c) (A4 m c) (A5 m c) (A6 m c) (A7 m c) := by
  have h := step_binary (hw (F := F)) 119 (a := main_v105) (b := main_arg7) (y := main_v106) (f := ((fun l r => Host.dotGeneral dot_S32768x96_S96x32_S32768x32_1_0_0_1_n_n none l r) : (⟨S32768x96, .f32⟩ : BufTy).Contents (Elt F) → (⟨S96x32, .f32⟩ : BufTy).Contents (Elt F) → (⟨S32768x32, .f32⟩ : BufTy).Contents (Elt F))) rfl (by decide) (by decide) (by decide) (launchContents m c) (end_main_v105 m c) (end_arg7 m c)
  exact h

theorem end_main_v107 : E m c (Proc.devRef .tc main_v107) = val_main_v107 (F := F) (A8 m c) := by
  have h := step_unary (hw (F := F)) 120 (x := main_arg8) (y := main_v107) (f := (broadcastInDim S1x32 ![1] bcast_S32_S1x32_1 : (⟨S32, .f32⟩ : BufTy).Contents (Elt F) → (⟨S1x32, .f32⟩ : BufTy).Contents (Elt F))) rfl (by decide) (by decide) (launchContents m c) (end_arg8 m c)
  exact h

theorem end_main_v108 : E m c (Proc.devRef .tc main_v108) = val_main_v108 (F := F) (A8 m c) := by
  have h := step_unary (hw (F := F)) 121 (x := main_v107) (y := main_v108) (f := (broadcastInDim S32768x32 ![0, 1] bcast_S1x32_S32768x32_0_1 : (⟨S1x32, .f32⟩ : BufTy).Contents (Elt F) → (⟨S32768x32, .f32⟩ : BufTy).Contents (Elt F))) rfl (by decide) (by decide) (launchContents m c) (end_main_v107 m c)
  exact h

theorem end_main_v109 : E m c (Proc.devRef .tc main_v109) = val_main_v109 (F := F) (A0 m c) (A1 m c) (A2 m c) (A3 m c) (A4 m c) (A5 m c) (A6 m c) (A7 m c) (A8 m c) := by
  have h := step_binary (hw (F := F)) 122 (a := main_v106) (b := main_v108) (y := main_v109) (f := (addf : (⟨S32768x32, .f32⟩ : BufTy).Contents (Elt F) → (⟨S32768x32, .f32⟩ : BufTy).Contents (Elt F) → (⟨S32768x32, .f32⟩ : BufTy).Contents (Elt F))) rfl (by decide) (by decide) (by decide) (launchContents m c) (end_main_v106 m c) (end_main_v108 m c)
  exact h

theorem end_main_v110 : E m c (Proc.devRef .tc main_v110) = val_main_v110 (F := F) (A0 m c) (A1 m c) (A2 m c) (A3 m c) (A4 m c) (A5 m c) (A6 m c) (A7 m c) (A8 m c) := by
  have h := step_reshape (hw (F := F)) 123 (x := main_v109) (y := main_v110) rfl (by decide) (by decide) (launchContents m c) (end_main_v109 m c)
  exact h

theorem end_main_v111 : E m c (Proc.devRef .tc main_v111) = val_main_v111 (F := F) (A0 m c) (A1 m c) (A2 m c) (A3 m c) (A4 m c) (A5 m c) (A6 m c) (A7 m c) (A8 m c) := by
  have h := step_unary (hw (F := F)) 124 (x := main_v110) (y := main_v111) (f := (Host.negf : (⟨S8x131072, .f32⟩ : BufTy).Contents (Elt F) → (⟨S8x131072, .f32⟩ : BufTy).Contents (Elt F))) rfl (by decide) (by decide) (launchContents m c) (end_main_v110 m c)
  exact h

theorem end_main_v112 : E m c (Proc.devRef .tc main_v112) = val_main_v112 (F := F) (A0 m c) (A1 m c) (A2 m c) (A3 m c) (A4 m c) (A5 m c) (A6 m c) (A7 m c) (A8 m c) := by
  have h := step_unary (hw (F := F)) 125 (x := main_v111) (y := main_v112) (f := (Host.exp : (⟨S8x131072, .f32⟩ : BufTy).Contents (Elt F) → (⟨S8x131072, .f32⟩ : BufTy).Contents (Elt F))) rfl (by decide) (by decide) (launchContents m c) (end_main_v111 m c)
  exact h

theorem end_main_cst_9 : E m c (Proc.devRef .tc main_cst_9) = val_main_cst_9 (F := F) := by
  exact step_nullary (hw (F := F)) 126 (y := main_cst_9) rfl (by decide) (launchContents m c)

theorem end_main_v113 : E m c (Proc.devRef .tc main_v113) = val_main_v113 (F := F) := by
  have h := step_unary (hw (F := F)) 127 (x := main_cst_9) (y := main_v113) (f := (broadcastInDim S8x131072 ![] bcast_S_S8x131072 : (⟨S_, .f32⟩ : BufTy).Contents (Elt F) → (⟨S8x131072, .f32⟩ : BufTy).Contents (Elt F))) rfl (by decide) (by decide) (launchContents m c) (end_main_cst_9 m c)
  exact h

theorem end_main_v114 : E m c (Proc.devRef .tc main_v114) = val_main_v114 (F := F) (A0 m c) (A1 m c) (A2 m c) (A3 m c) (A4 m c) (A5 m c) (A6 m c) (A7 m c) (A8 m c) := by
  have h := step_binary (hw (F := F)) 128 (a := main_v113) (b := main_v112) (y := main_v114) (f := (addf : (⟨S8x131072, .f32⟩ : BufTy).Contents (Elt F) → (⟨S8x131072, .f32⟩ : BufTy).Contents (Elt F) → (⟨S8x131072, .f32⟩ : BufTy).Contents (Elt F))) rfl (by decide) (by decide) (by decide) (launchContents m c) (end_main_v113 m c) (end_main_v112 m c)
  exact h

theorem end_main_cst_10 : E m c (Proc.devRef .tc main_cst_10) = val_main_cst_10 (F := F) := by
  exact step_nullary (hw (F := F)) 129 (y := main_cst_10) rfl (by decide) (launchContents m c)

theorem end_main_v115 : E m c (Proc.devRef .tc main_v115) = val_main_v115 (F := F) := by
  have h := step_unary (hw (F := F)) 130 (x := main_cst_10) (y := main_v115) (f := (broadcastInDim S8x131072 ![] bcast_S_S8x131072 : (⟨S_, .f32⟩ : BufTy).Contents (Elt F) → (⟨S8x131072, .f32⟩ : BufTy).Contents (Elt F))) rfl (by decide) (by decide) (launchContents m c) (end_main_cst_10 m c)
  exact h

theorem end_main_v116 : E m c (Proc.devRef .tc main_v116) = val_main_v116 (F := F) (A0 m c) (A1 m c) (A2 m c) (A3 m c) (A4 m c) (A5 m c) (A6 m c) (A7 m c) (A8 m c) := by
  have h := step_binary (hw (F := F)) 131 (a := main_v115) (b := main_v114) (y := main_v116) (f := (Host.divf : (⟨S8x131072, .f32⟩ : BufTy).Contents (Elt F) → (⟨S8x131072, .f32⟩ : BufTy).Contents (Elt F) → (⟨S8x131072, .f32⟩ : BufTy).Contents (Elt F))) rfl (by decide) (by decide) (by decide) (launchContents m c) (end_main_v115 m c) (end_main_v114 m c)
  exact h

theorem end_main_v117 : E m c (Proc.devRef .tc main_v117) = val_main_v117 (F := F) (A0 m c) (A1 m c) (A2 m c) (A3 m c) (A4 m c) (A5 m c) (A6 m c) (A7 m c) (A8 m c) := by
  have h := step_reshape (hw (F := F)) 132 (x := main_v116) (y := main_v117) rfl (by decide) (by decide) (launchContents m c) (end_main_v116 m c)
  exact h

theorem end_main_v118 : E m c (Proc.devRef .tc main_v118) = val_main_v118 (F := F) (A0 m c) (A1 m c) (A2 m c) (A3 m c) (A4 m c) (A5 m c) (A6 m c) (A7 m c) (A8 m c) := by
  have h := step_unary (hw (F := F)) 133 (x := main_v117) (y := main_v118) (f := ((extractStridedSlice S8x4096x16 ![0, 0, 0] · slices_S8x4096x32_S8x4096x16_0_0_0) : (⟨S8x4096x32, .f32⟩ : BufTy).Contents (Elt F) → (⟨S8x4096x16, .f32⟩ : BufTy).Contents (Elt F))) rfl (by decide) (by decide) (launchContents m c) (end_main_v117 m c)
  exact h

theorem end_main_v119 : E m c (Proc.devRef .tc main_v119) = val_main_v119 (F := F) (A0 m c) (A1 m c) (A2 m c) (A3 m c) (A4 m c) (A5 m c) (A6 m c) (A7 m c) (A8 m c) := by
  have h := step_reshape (hw (F := F)) 134 (x := main_v118) (y := main_v119) rfl (by decide) (by decide) (launchContents m c) (end_main_v118 m c)
  exact h

end Cert.ReferenceIdeal.LineP

end
-- ==== Proof.RefLine4.lean ====
/-
  The reference program's operations 135 to 170, each read at the END valuation of the whole line: the buffer an
  operation writes holds the operation's stage of the arguments of @main, from the same fact for its operands.
-/
import proofs.«172830_g53506702573898_cont_9to1_m_1152_4_alg».proof.Proof.RefRead
import proofs.«172830_g53506702573898_cont_9to1_m_1152_4_alg».proof.Proof.RefLineLib
import proofs.«172830_g53506702573898_cont_9to1_m_1152_4_alg».proof.Proof.RefLine3

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo Cert.LibFoldSteps Cert.RefLine

variable {F : FTy → Type} [FloatOps F]

variable (m : (ℓ : Loc nD τ sig) → Buf (Elt F) ℓ) (c : Dev nD)

theorem end_main_v120 : E m c (Proc.devRef .tc main_v120) = val_main_v120 (F := F) (A0 m c) (A1 m c) (A2 m c) (A3 m c) (A4 m c) (A5 m c) (A6 m c) (A7 m c) (A8 m c) := by
  have h := step_unary (hw (F := F)) 135 (x := main_v117) (y := main_v120) (f := ((extractStridedSlice S8x4096x16 ![0, 0, 16] · slices_S8x4096x32_S8x4096x16_0_0_16) : (⟨S8x4096x32, .f32⟩ : BufTy).Contents (Elt F) → (⟨S8x4096x16, .f32⟩ : BufTy).Contents (Elt F))) rfl (by decide) (by decide) (launchContents m c) (end_main_v117 m c)
  exact h

theorem end_main_v121 : E m c (Proc.devRef .tc main_v121) = val_main_v121 (F := F) (A0 m c) (A1 m c) (A2 m c) (A3 m c) (A4 m c) (A5 m c) (A6 m c) (A7 m c) (A8 m c) := by
  have h := step_reshape (hw (F := F)) 136 (x := main_v120) (y := main_v121) rfl (by decide) (by decide) (launchContents m c) (end_main_v120 m c)
  exact h

theorem end_main_v122 : E m c (Proc.devRef .tc main_v122) = val_main_v122 (F := F) (A0 m c) (A1 m c) (A2 m c) (A3 m c) (A4 m c) (A5 m c) (A6 m c) (A7 m c) (A8 m c) := by
  have h := step_binary (hw (F := F)) 137 (a := main_v119) (b := main_v88) (y := main_v122) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v119 m c) (end_main_v88 m c)
  exact h

theorem end_main_v123 : E m c (Proc.devRef .tc main_v123) = val_main_v123 (F := F) (A0 m c) (A1 m c) (A2 m c) (A3 m c) (A4 m c) (A5 m c) (A6 m c) := by
  have h := step_reshape (hw (F := F)) 138 (x := main_v86) (y := main_v123) rfl (by decide) (by decide) (launchContents m c) (end_main_v86 m c)
  exact h

theorem end_main_v124 : E m c (Proc.devRef .tc main_v124) = val_main_v124 (F := F) (A0 m c) (A1 m c) (A2 m c) (A3 m c) (A4 m c) (A5 m c) (A6 m c) (A7 m c) (A8 m c) := by
  have h := step_reshape (hw (F := F)) 139 (x := main_v122) (y := main_v124) rfl (by decide) (by decide) (launchContents m c) (end_main_v122 m c)
  exact h

theorem end_main_v125 : E m c (Proc.devRef .tc main_v125) = val_main_v125 (F := F) (A0 m c) (A1 m c) (A2 m c) (A3 m c) (A4 m c) (A5 m c) (A6 m c) (A7 m c) (A8 m c) := by
  have h := step_binary (hw (F := F)) 140 (a := main_v123) (b := main_v124) (y := main_v125) (f := ((fun a b => concatenate S8x4096x32 2 [⟨S8x4096x16, a⟩, ⟨S8x4096x16, b⟩] concatenates_S8x4096x16_S8x4096x16_S8x4096x32_d2) : (⟨S8x4096x16, .f32⟩ : BufTy).Contents (Elt F) → (⟨S8x4096x16, .f32⟩ : BufTy).Contents (Elt F) → (⟨S8x4096x32, .f32⟩ : BufTy).Contents (Elt F))) rfl (by decide) (by decide) (by decide) (launchContents m c) (end_main_v123 m c) (end_main_v124 m c)
  exact h

theorem end_main_v126 : E m c (Proc.devRef .tc main_v126) = val_main_v126 (F := F) (A0 m c) (A1 m c) (A2 m c) (A3 m c) (A4 m c) (A5 m c) (A6 m c) (A7 m c) (A8 m c) := by
  have h := step_unary (hw (F := F)) 141 (x := main_v125) (y := main_v126) (f := ((transpose S4096x32x8 [1, 2, 0] · transposes_S8x4096x32_S4096x32x8_1_2_0) : (⟨S8x4096x32, .f32⟩ : BufTy).Contents (Elt F) → (⟨S4096x32x8, .f32⟩ : BufTy).Contents (Elt F))) rfl (by decide) (by decide) (launchContents m c) (end_main_v125 m c)
  exact h

theorem end_main_v127 : E m c (Proc.devRef .tc main_v127) = val_main_v127 (F := F) (A0 m c) (A1 m c) (A2 m c) (A3 m c) (A4 m c) (A5 m c) (A6 m c) (A7 m c) (A8 m c) := by
  have h := step_reshape (hw (F := F)) 142 (x := main_v126) (y := main_v127) rfl (by decide) (by decide) (launchContents m c) (end_main_v126 m c)
  exact h

theorem end_main_v128 : E m c (Proc.devRef .tc main_v128) = val_main_v128 (F := F) (A0 m c) (A1 m c) (A2 m c) (A3 m c) (A4 m c) (A5 m c) (A6 m c) (A7 m c) (A8 m c) := by
  have h := step_binary (hw (F := F)) 143 (a := main_v22) (b := main_v127) (y := main_v128) (f := ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F))) rfl (by decide) (by decide) (by decide) (launchContents m c) (end_main_v22 m c) (end_main_v127 m c)
  exact h

theorem end_main_v129 : E m c (Proc.devRef .tc main_v129) = val_main_v129 (F := F) (A0 m c) (A1 m c) (A2 m c) (A3 m c) (A4 m c) (A5 m c) (A6 m c) (A7 m c) (A8 m c) := by
  have h := step_binary (hw (F := F)) 144 (a := main_v22) (b := main_v128) (y := main_v129) (f := ((fun l r => Host.dotGeneral dot_S4096x4096_S4096x256_S4096x256_1_0_0_1_n_n none l r) : (⟨S4096x4096, .f32⟩ : BufTy).Contents (Elt F) → (⟨S4096x256, .f32⟩ : BufTy).Contents (Elt F) → (⟨S4096x256, .f32⟩ : BufTy).Contents (Elt F))) rfl (by decide) (by decide) (by decide) (launchContents m c) (end_main_v22 m c) (end_main_v128 m c)
  exact h

theorem end_main_cst_11 : E m c (Proc.devRef .tc main_cst_11) = val_main_cst_11 (F := F) := by
  exact step_nullary (hw (F := F)) 145 (y := main_cst_11) rfl (by decide) (launchContents m c)

theorem end_main_v130 : E m c (Proc.devRef .tc main_v130) = val_main_v130 (F := F) := by
  have h := step_unary (hw (F := F)) 146 (x := main_cst_11) (y := main_v130) (f := (broadcastInDim S4096x256 ![] bcast_S_S4096x256 : (⟨S_, .f32⟩ : BufTy).Contents (Elt F) → (⟨S4096x256, .f32⟩ : BufTy).Contents (Elt F))) rfl (by decide) (by decide) (launchContents m c) (end_main_cst_11 m c)
  exact h

theorem end_main_v131 : E m c (Proc.devRef .tc main_v131) = val_main_v131 (F := F) (A0 m c) (A1 m c) (A2 m c) (A3 m c) (A4 m c) (A5 m c) (A6 m c) (A7 m c) (A8 m c) := by
  have h := step_binary (hw (F := F)) 147 (a := main_v130) (b := main_v129) (y := main_v131) (f := (mulf : (⟨S4096x256, .f32⟩ : BufTy).Contents (Elt F) → (⟨S4096x256, .f32⟩ : BufTy).Contents (Elt F) → (⟨S4096x256, .f32⟩ : BufTy).Contents (Elt F))) rfl (by decide) (by decide) (by decide) (launchContents m c) (end_main_v130 m c) (end_main_v129 m c)
  exact h

theorem end_main_v132 : E m c (Proc.devRef .tc main_v132) = val_main_v132 (F := F) (A0 m c) (A1 m c) (A2 m c) (A3 m c) (A4 m c) (A5 m c) (A6 m c) (A7 m c) (A8 m c) := by
  have h := step_binary (hw (F := F)) 148 (a := main_v131) (b := main_v127) (y := main_v132) (f := (subf : (⟨S4096x256, .f32⟩ : BufTy).Contents (Elt F) → (⟨S4096x256, .f32⟩ : BufTy).Contents (Elt F) → (⟨S4096x256, .f32⟩ : BufTy).Contents (Elt F))) rfl (by decide) (by decide) (by decide) (launchContents m c) (end_main_v131 m c) (end_main_v127 m c)
  exact h

theorem end_main_v133 : E m c (Proc.devRef .tc main_v133) = val_main_v133 (F := F) (A0 m c) (A1 m c) (A2 m c) (A3 m c) (A4 m c) (A5 m c) (A6 m c) (A7 m c) (A8 m c) := by
  have h := step_unary (hw (F := F)) 149 (x := main_v127) (y := main_v133) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v127 m c)
  exact h

theorem end_main_v134 : E m c (Proc.devRef .tc main_v134) = val_main_v134 (F := F) (A0 m c) (A1 m c) (A2 m c) (A3 m c) (A4 m c) (A5 m c) (A6 m c) (A7 m c) (A8 m c) := by
  have h := step_unary (hw (F := F)) 150 (x := main_v128) (y := main_v134) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v128 m c)
  exact h

theorem end_main_v135 : E m c (Proc.devRef .tc main_v135) = val_main_v135 (F := F) (A0 m c) (A1 m c) (A2 m c) (A3 m c) (A4 m c) (A5 m c) (A6 m c) (A7 m c) (A8 m c) := by
  have h := step_unary (hw (F := F)) 151 (x := main_v132) (y := main_v135) (f := (broadcastInDim S1x4096x256 ![1, 2] bcast_S4096x256_S1x4096x256_1_2 : (⟨S4096x256, .f32⟩ : BufTy).Contents (Elt F) → (⟨S1x4096x256, .f32⟩ : BufTy).Contents (Elt F))) rfl (by decide) (by decide) (launchContents m c) (end_main_v132 m c)
  exact h

theorem end_main_v136 : E m c (Proc.devRef .tc main_v136) = val_main_v136 (F := F) (A0 m c) (A1 m c) (A2 m c) (A3 m c) (A4 m c) (A5 m c) (A6 m c) (A7 m c) (A8 m c) := by
  refine (step_nary (hw (F := F)) 152 (xs := ![main_v133, main_v134, main_v135]) (y := main_v136) rfl (by decide) (by decide) (launchContents m c)).trans ?_
  show concatenate S3x4096x256 0 [⟨S1x4096x256, E m c (Proc.devRef .tc main_v133)⟩, ⟨S1x4096x256, E m c (Proc.devRef .tc main_v134)⟩, ⟨S1x4096x256, E m c (Proc.devRef .tc main_v135)⟩] concatenates_S1x4096x256_S1x4096x256_S1x4096x256_S3x4096x256_d0 = _
  rw [end_main_v133 m c, end_main_v134 m c, end_main_v135 m c]
  rfl

theorem end_main_v137 : E m c (Proc.devRef .tc main_v137) = val_main_v137 (F := F) (A0 m c) (A1 m c) (A2 m c) (A3 m c) (A4 m c) (A5 m c) (A6 m c) (A7 m c) (A8 m c) := by
  have h := step_reshape (hw (F := F)) 153 (x := main_v136) (y := main_v137) rfl (by decide) (by decide) (launchContents m c) (end_main_v136 m c)
  exact h

theorem end_main_v138 : E m c (Proc.devRef .tc main_v138) = val_main_v138 (F := F) (A0 m c) (A1 m c) (A2 m c) (A3 m c) (A4 m c) (A5 m c) (A6 m c) (A7 m c) (A8 m c) := by
  have h := step_unary (hw (F := F)) 154 (x := main_v137) (y := main_v138) (f := ((transpose S8x4096x32x3 [3, 1, 2, 0] · transposes_S3x4096x32x8_S8x4096x32x3_3_1_2_0) : (⟨S3x4096x32x8, .f32⟩ : BufTy).Contents (Elt F) → (⟨S8x4096x32x3, .f32⟩ : BufTy).Contents (Elt F))) rfl (by decide) (by decide) (launchContents m c) (end_main_v137 m c)
  exact h

theorem end_main_v139 : E m c (Proc.devRef .tc main_v139) = val_main_v139 (F := F) (A0 m c) (A1 m c) (A2 m c) (A3 m c) (A4 m c) (A5 m c) (A6 m c) (A7 m c) (A8 m c) := by
  have h := step_reshape (hw (F := F)) 155 (x := main_v138) (y := main_v139) rfl (by decide) (by decide) (launchContents m c) (end_main_v138 m c)
  exact h

theorem end_main_v140 : E m c (Proc.devRef .tc main_v140) = val_main_v140 (F := F) (A0 m c) (A1 m c) (A2 m c) (A3 m c) (A4 m c) (A5 m c) (A6 m c) (A7 m c) (A8 m c) (A9 m c) := by
  have h := step_binary (hw (F := F)) 156 (a := main_v139) (b := main_arg9) (y := main_v140) (f := ((fun l r => Host.dotGeneral dot_S32768x96_S96x16_S32768x16_1_0_0_1_n_n none l r) : (⟨S32768x96, .f32⟩ : BufTy).Contents (Elt F) → (⟨S96x16, .f32⟩ : BufTy).Contents (Elt F) → (⟨S32768x16, .f32⟩ : BufTy).Contents (Elt F))) rfl (by decide) (by decide) (by decide) (launchContents m c) (end_main_v139 m c) (end_arg9 m c)
  exact h

theorem end_main_v141 : E m c (Proc.devRef .tc main_v141) = val_main_v141 (F := F) (A10 m c) := by
  have h := step_unary (hw (F := F)) 157 (x := main_arg10) (y := main_v141) (f := (broadcastInDim S1x16 ![1] bcast_S16_S1x16_1 : (⟨S16, .f32⟩ : BufTy).Contents (Elt F) → (⟨S1x16, .f32⟩ : BufTy).Contents (Elt F))) rfl (by decide) (by decide) (launchContents m c) (end_arg10 m c)
  exact h

theorem end_main_v142 : E m c (Proc.devRef .tc main_v142) = val_main_v142 (F := F) (A10 m c) := by
  have h := step_unary (hw (F := F)) 158 (x := main_v141) (y := main_v142) (f := (broadcastInDim S32768x16 ![0, 1] bcast_S1x16_S32768x16_0_1 : (⟨S1x16, .f32⟩ : BufTy).Contents (Elt F) → (⟨S32768x16, .f32⟩ : BufTy).Contents (Elt F))) rfl (by decide) (by decide) (launchContents m c) (end_main_v141 m c)
  exact h

theorem end_main_v143 : E m c (Proc.devRef .tc main_v143) = val_main_v143 (F := F) (A0 m c) (A1 m c) (A2 m c) (A3 m c) (A4 m c) (A5 m c) (A6 m c) (A7 m c) (A8 m c) (A9 m c) (A10 m c) := by
  have h := step_binary (hw (F := F)) 159 (a := main_v140) (b := main_v142) (y := main_v143) (f := (addf : (⟨S32768x16, .f32⟩ : BufTy).Contents (Elt F) → (⟨S32768x16, .f32⟩ : BufTy).Contents (Elt F) → (⟨S32768x16, .f32⟩ : BufTy).Contents (Elt F))) rfl (by decide) (by decide) (by decide) (launchContents m c) (end_main_v140 m c) (end_main_v142 m c)
  exact h

theorem end_main_v144 : E m c (Proc.devRef .tc main_v144) = val_main_v144 (F := F) (A0 m c) (A1 m c) (A2 m c) (A3 m c) (A4 m c) (A5 m c) (A6 m c) (A7 m c) (A8 m c) (A9 m c) (A10 m c) := by
  have h := step_reshape (hw (F := F)) 160 (x := main_v143) (y := main_v144) rfl (by decide) (by decide) (launchContents m c) (end_main_v143 m c)
  exact h

theorem end_main_v145 : E m c (Proc.devRef .tc main_v145) = val_main_v145 (F := F) (A0 m c) (A1 m c) (A2 m c) (A3 m c) (A4 m c) (A5 m c) (A6 m c) (A7 m c) (A8 m c) (A9 m c) (A10 m c) := by
  have h := step_unary (hw (F := F)) 161 (x := main_v144) (y := main_v145) (f := (Host.tanh : (⟨S8x65536, .f32⟩ : BufTy).Contents (Elt F) → (⟨S8x65536, .f32⟩ : BufTy).Contents (Elt F))) rfl (by decide) (by decide) (launchContents m c) (end_main_v144 m c)
  exact h

theorem end_main_v146 : E m c (Proc.devRef .tc main_v146) = val_main_v146 (F := F) (A0 m c) (A1 m c) (A2 m c) (A3 m c) (A4 m c) (A5 m c) (A6 m c) (A7 m c) (A8 m c) := by
  have h := step_binary (hw (F := F)) 162 (a := main_v121) (b := main_v88) (y := main_v146) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v121 m c) (end_main_v88 m c)
  exact h

theorem end_main_cst_12 : E m c (Proc.devRef .tc main_cst_12) = val_main_cst_12 (F := F) := by
  exact step_nullary (hw (F := F)) 163 (y := main_cst_12) rfl (by decide) (launchContents m c)

theorem end_main_v147 : E m c (Proc.devRef .tc main_v147) = val_main_v147 (F := F) := by
  have h := step_unary (hw (F := F)) 164 (x := main_cst_12) (y := main_v147) (f := (broadcastInDim S8x65536 ![] bcast_S_S8x65536 : (⟨S_, .f32⟩ : BufTy).Contents (Elt F) → (⟨S8x65536, .f32⟩ : BufTy).Contents (Elt F))) rfl (by decide) (by decide) (launchContents m c) (end_main_cst_12 m c)
  exact h

theorem end_main_v148 : E m c (Proc.devRef .tc main_v148) = val_main_v148 (F := F) (A0 m c) (A1 m c) (A2 m c) (A3 m c) (A4 m c) (A5 m c) (A6 m c) (A7 m c) (A8 m c) := by
  have h := step_binary (hw (F := F)) 165 (a := main_v147) (b := main_v121) (y := main_v148) (f := (subf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v147 m c) (end_main_v121 m c)
  exact h

theorem end_main_v149 : E m c (Proc.devRef .tc main_v149) = val_main_v149 (F := F) (A0 m c) (A1 m c) (A2 m c) (A3 m c) (A4 m c) (A5 m c) (A6 m c) (A7 m c) (A8 m c) (A9 m c) (A10 m c) := by
  have h := step_binary (hw (F := F)) 166 (a := main_v148) (b := main_v145) (y := main_v149) (f := (mulf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v148 m c) (end_main_v145 m c)
  exact h

theorem end_main_v150 : E m c (Proc.devRef .tc main_v150) = val_main_v150 (F := F) (A0 m c) (A1 m c) (A2 m c) (A3 m c) (A4 m c) (A5 m c) (A6 m c) (A7 m c) (A8 m c) (A9 m c) (A10 m c) := by
  have h := step_binary (hw (F := F)) 167 (a := main_v146) (b := main_v149) (y := main_v150) (f := (addf : (⟨S8x65536, .f32⟩ : BufTy).Contents (Elt F) → (⟨S8x65536, .f32⟩ : BufTy).Contents (Elt F) → (⟨S8x65536, .f32⟩ : BufTy).Contents (Elt F))) rfl (by decide) (by decide) (by decide) (launchContents m c) (end_main_v146 m c) (end_main_v149 m c)
  exact h

theorem end_main_v151 : E m c (Proc.devRef .tc main_v151) = val_main_v151 (F := F) (A0 m c) (A1 m c) (A2 m c) (A3 m c) (A4 m c) (A5 m c) (A6 m c) := by
  have h := step_unary (hw (F := F)) 168 (x := main_v86) (y := main_v151) (f := (broadcastInDim S1x8x65536 ![1, 2] bcast_S8x65536_S1x8x65536_1_2 : (⟨S8x65536, .f32⟩ : BufTy).Contents (Elt F) → (⟨S1x8x65536, .f32⟩ : BufTy).Contents (Elt F))) rfl (by decide) (by decide) (launchContents m c) (end_main_v86 m c)
  exact h

theorem end_main_v152 : E m c (Proc.devRef .tc main_v152) = val_main_v152 (F := F) (A0 m c) (A1 m c) (A2 m c) (A3 m c) (A4 m c) (A5 m c) (A6 m c) (A7 m c) (A8 m c) (A9 m c) (A10 m c) := by
  have h := step_unary (hw (F := F)) 169 (x := main_v150) (y := main_v152) (f := (broadcastInDim S1x8x65536 ![1, 2] bcast_S8x65536_S1x8x65536_1_2 : (⟨S8x65536, .f32⟩ : BufTy).Contents (Elt F) → (⟨S1x8x65536, .f32⟩ : BufTy).Contents (Elt F))) rfl (by decide) (by decide) (launchContents m c) (end_main_v150 m c)
  exact h

theorem end_main_v153 : E m c (Proc.devRef .tc main_v153) = val_main_v153 (F := F) (A0 m c) (A1 m c) (A2 m c) (A3 m c) (A4 m c) (A5 m c) (A6 m c) (A7 m c) (A8 m c) (A9 m c) (A10 m c) := by
  have h := step_binary (hw (F := F)) 170 (a := main_v151) (b := main_v152) (y := main_v153) (f := ((fun a b => concatenate S2x8x65536 0 [⟨S1x8x65536, a⟩, ⟨S1x8x65536, b⟩] concatenates_S1x8x65536_S1x8x65536_S2x8x65536_d0) : (⟨S1x8x65536, .f32⟩ : BufTy).Contents (Elt F) → (⟨S1x8x65536, .f32⟩ : BufTy).Contents (Elt F) → (⟨S2x8x65536, .f32⟩ : BufTy).Contents (Elt F))) rfl (by decide) (by decide) (by decide) (launchContents m c) (end_main_v151 m c) (end_main_v152 m c)
  exact h

end Cert.ReferenceIdeal.LineP

end
-- ==== Proof.RefRun.lean ====
/-
  The reference program's run with its two results named by their last stages: every weakly fair execution of @main
  terminates with the first result at the stage `val_main_v150` and the second at the stage `val_main_v153` of the
  arguments' launch contents, the arguments unchanged. No composed term of the arguments is formed: each buffer's end
  contents are its stage of the arguments, from the same fact for the operands of the operation that writes it.
-/
import proofs.«172830_g53506702573898_cont_9to1_m_1152_4_alg».proof.Proof.RefFrame
import proofs.«172830_g53506702573898_cont_9to1_m_1152_4_alg».proof.Proof.RefLine4

noncomputable section

namespace Cert.ReferenceIdeal.LineP

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

theorem run_vals (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v150) = val_main_v150 (F := F) (A0 m c) (A1 m c) (A2 m c) (A3 m c) (A4 m c) (A5 m c) (A6 m c) (A7 m c) (A8 m c) (A9 m c) (A10 m c)
      ∧ r.2.mem ((c.tc : Thread nD τ).loc main_v153) = val_main_v153 (F := F) (A0 m c) (A1 m c) (A2 m c) (A3 m c) (A4 m c) (A5 m c) (A6 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
   ⟨(h c main_v150).trans (end_main_v150 m c), (h c main_v153).trans (end_main_v153 m c),
    (h c main_arg0).trans (end_arg0 m c),
    (h c main_arg1).trans (end_arg1 m c),
    (h c main_arg2).trans (end_arg2 m c),
    (h c main_arg3).trans (end_arg3 m c),
    (h c main_arg4).trans (end_arg4 m c),
    (h c main_arg5).trans (end_arg5 m c),
    (h c main_arg6).trans (end_arg6 m c),
    (h c main_arg7).trans (end_arg7 m c),
    (h c main_arg8).trans (end_arg8 m c),
    (h c main_arg9).trans (end_arg9 m c),
    (h c main_arg10).trans (end_arg10 m c)⟩)
    (run_end (F := F) m ρ)

end Cert.ReferenceIdeal.LineP

end
-- ==== Proof.SpecRef.lean ====
/-
  The reference's mathematics as plain functions of Fin-indexed arguments over the extended reals, arranged as the
  reference arranges it: the symmetrised adjacency, its degrees, the scaled Laplacian minus the identity (the support),
  the Chebyshev features of a graph convolution, the two gates and the candidate of a diffusion-convolution GRU cell,
  two cells in sequence. A feature array is read at (batch b, node n, channel c); a state at (batch b, node n, unit u).
-/
import Idealize.ShloMosaic.PureOps.Ideal
import Idealize.ShloMosaic.Lib.ValueIdx

noncomputable section

open scoped BigOperators

namespace Cert.SpecRef

open Idealize.ShloMosaic

/-! ## Flat positions: a state row of length 4096 * 16 read at (node, unit) -/

/-- The flat position of (node n, unit u) in a row of 4096 * 16 entries. -/
def flat16 (n : Fin 4096) (u : Fin 16) : Fin 65536 := ⟨n.val * 16 + u.val, by omega⟩
/-- The node of a flat position. -/
def node16 (j : Fin 65536) : Fin 4096 := ⟨j.val / 16, by omega⟩
/-- The unit of a flat position. -/
def unit16 (j : Fin 65536) : Fin 16 := ⟨j.val % 16, Nat.mod_lt _ (by norm_num)⟩

theorem node16_flat16 (n : Fin 4096) (u : Fin 16) : node16 (flat16 n u) = n :=
  Fin.ext (by simp only [node16, flat16]; omega)
theorem unit16_flat16 (n : Fin 4096) (u : Fin 16) : unit16 (flat16 n u) = u :=
  Fin.ext (by simp only [unit16, flat16]; omega)
theorem flat16_node16_unit16 (j : Fin 65536) : flat16 (node16 j) (unit16 j) = j :=
  Fin.ext (by simp only [node16, unit16, flat16]; omega)

/-! ## The support matrix -/

/-- The floor under a degree before its reciprocal square root: the f32 word of the literal 1e-12. -/
def eps : EReal := Ideal.ofBits .f32 0x2B8CBCCC#32

section Support
variable (adj : Fin 4096 → Fin 4096 → EReal)

/-- The symmetrised adjacency: the larger of an entry and its transpose's. -/
def amax (i j : Fin 4096) : EReal := max (adj i j) (adj j i)
/-- A node's degree: its row sum of the symmetrised adjacency. -/
def deg (i : Fin 4096) : EReal := ∑ j : Fin 4096, amax adj i j
/-- The inverse square root of a positive degree (floored at `eps`), and zero at a degree that is not positive. -/
def dis (i : Fin 4096) : EReal := if 0 < deg adj i then Ideal.rsqrt (max (deg adj i) eps) else 0
/-- The identity matrix. -/
def eye (i j : Fin 4096) : EReal := if i = j then 1 else 0
/-- The support: (I − D^(-1/2) A D^(-1/2)) − I, in the reference's order of operations. -/
def supp (i j : Fin 4096) : EReal := (eye i j - (dis adj i * amax adj i j) * dis adj j) - eye i j

end Support

/-! ## One graph convolution -/

section Gconv
variable {C K O : Nat} (S : Fin 4096 → Fin 4096 → EReal)

/-- First Chebyshev feature: the support applied along the node axis. -/
def cheb1 (x : Fin 8 → Fin 4096 → Fin C → EReal) (b : Fin 8) (n : Fin 4096) (c : Fin C) : EReal :=
  ∑ k : Fin 4096, S n k * x b k c
/-- Second Chebyshev feature: twice the support applied to the first feature, minus the input. -/
def cheb2 (x : Fin 8 → Fin 4096 → Fin C → EReal) (b : Fin 8) (n : Fin 4096) (c : Fin C) : EReal :=
  2 * (∑ k : Fin 4096, S n k * cheb1 S x b k c) - x b n c
/-- The three features, by order m = 0, 1, 2. -/
def cheb (x : Fin 8 → Fin 4096 → Fin C → EReal) (m : Fin 3) (b : Fin 8) (n : Fin 4096) (c : Fin C) : EReal :=
  if m.val = 0 then x b n c else if m.val = 1 then cheb1 S x b n c else cheb2 S x b n c
/-- The convolution's output at (batch, node, output unit): the features at row k = c * 3 + m of the weights, plus the bias. -/
def gconv (hK : K = C * 3) (x : Fin 8 → Fin 4096 → Fin C → EReal) (W : Fin K → Fin O → EReal) (bias : Fin O → EReal)
    (b : Fin 8) (n : Fin 4096) (o : Fin O) : EReal :=
  (∑ k : Fin K, cheb S x ⟨k.val % 3, Nat.mod_lt _ (by norm_num)⟩ b n ⟨k.val / 3, by have := k.isLt; omega⟩ * W k o) + bias o

end Gconv

/-! ## One cell -/

/-- The logistic function in the reference's spelling: 1 / (1 + exp (−x)). -/
def sig (x : EReal) : EReal := Ideal.div 1 (1 + Ideal.exp (-x))

section Cell
variable {C K : Nat} (hK : K = C * 3) (S : Fin 4096 → Fin 4096 → EReal)
  (feat : (Fin 8 → Fin 4096 → Fin 16 → EReal) → Fin 8 → Fin 4096 → Fin C → EReal)
  (h : Fin 8 → Fin 4096 → Fin 16 → EReal)
  (Wg : Fin K → Fin 32 → EReal) (bg : Fin 32 → EReal) (Wc : Fin K → Fin 16 → EReal) (bc : Fin 16 → EReal)

/-- Both gates before they are split: the logistic of the gate convolution of the input joined with the state. -/
def gates (b : Fin 8) (n : Fin 4096) (o : Fin 32) : EReal := sig (gconv S hK (feat h) Wg bg b n o)
/-- The reset gate: the first 16 units. -/
def rgate (b : Fin 8) (n : Fin 4096) (u : Fin 16) : EReal := gates hK S feat h Wg bg b n ⟨u.val, by omega⟩
/-- The update gate: the last 16 units. -/
def ugate (b : Fin 8) (n : Fin 4096) (u : Fin 16) : EReal := gates hK S feat h Wg bg b n ⟨u.val + 16, by omega⟩
/-- The candidate: tanh of the candidate convolution of the input joined with the reset state. -/
def cand (b : Fin 8) (n : Fin 4096) (u : Fin 16) : EReal :=
  Ideal.tanh (gconv S hK (feat fun b n u => rgate hK S feat h Wg bg b n u * h b n u) Wc bc b n u)
/-- The new state: u * h + (1 − u) * c. -/
def cell (b : Fin 8) (n : Fin 4096) (u : Fin 16) : EReal :=
  ugate hK S feat h Wg bg b n u * h b n u + (1 - ugate hK S feat h Wg bg b n u) * cand hK S feat h Wg bg Wc bc b n u

end Cell

/-! ## The two layers -/

section Model
variable (inp : Fin 8 → Fin 4096 → EReal) (hid : Fin 2 → Fin 8 → Fin 65536 → EReal) (adj : Fin 4096 → Fin 4096 → EReal)
  (W0g : Fin 51 → Fin 32 → EReal) (b0g : Fin 32 → EReal) (W0c : Fin 51 → Fin 16 → EReal) (b0c : Fin 16 → EReal)
  (W1g : Fin 96 → Fin 32 → EReal) (b1g : Fin 32 → EReal) (W1c : Fin 96 → Fin 16 → EReal) (b1c : Fin 16 → EReal)

/-- Layer l's incoming state at (batch, node, unit). -/
def hidAt (l : Fin 2) (b : Fin 8) (n : Fin 4096) (u : Fin 16) : EReal := hid l b (flat16 n u)

/-- Layer 1's features: the input (one channel) joined with a state (16 channels). -/
def feat0 (st : Fin 8 → Fin 4096 → Fin 16 → EReal) (b : Fin 8) (n : Fin 4096) (c : Fin 17) : EReal :=
  if hc : c.val < 1 then inp b n else st b n ⟨c.val - 1, by omega⟩
/-- Layer 2's features: layer 1's new state (16 channels) joined with a state (16 channels). -/
def feat1 (a : Fin 8 → Fin 4096 → Fin 16 → EReal) (st : Fin 8 → Fin 4096 → Fin 16 → EReal) (b : Fin 8) (n : Fin 4096)
    (c : Fin 32) : EReal :=
  if hc : c.val < 16 then a b n ⟨c.val, hc⟩ else st b n ⟨c.val - 16, by omega⟩

/-- Layer 1's new state. -/
def h1 : Fin 8 → Fin 4096 → Fin 16 → EReal :=
  cell (C := 17) (K := 51) rfl (supp adj) (feat0 inp) (hidAt hid 0) W0g b0g W0c b0c
/-- Layer 2's new state. -/
def h2 : Fin 8 → Fin 4096 → Fin 16 → EReal :=
  cell (C := 32) (K := 96) rfl (supp adj) (feat1 (h1 inp hid adj W0g b0g W0c b0c)) (hidAt hid 1) W1g b1g W1c b1c

/-- The first result: layer 2's new state, each batch row flat over (node, unit). -/
def out0 (b : Fin 8) (j : Fin 65536) : EReal :=
  h2 inp hid adj W0g b0g W0c b0c W1g b1g W1c b1c b (node16 j) (unit16 j)
/-- The second result: both layers' new states, stacked. -/
def out1 (l : Fin 2) (b : Fin 8) (j : Fin 65536) : EReal :=
  if l.val = 0 then h1 inp hid adj W0g b0g W0c b0c b (node16 j) (unit16 j)
  else h2 inp hid adj W0g b0g W0c b0c W1g b1g W1c b1c b (node16 j) (unit16 j)

end Model

end Cert.SpecRef

end
-- ==== Proof.RefValueSupp.lean ====
/-
  The reference's support matrix, stage by stage at an index: the symmetrised adjacency, the degrees, their inverse
  square roots, the identity matrix, and (I − D^(-1/2) A D^(-1/2)) − I, each equal to the specification's function of the
  adjacency read at its two coordinates.
-/
import proofs.«172830_g53506702573898_cont_9to1_m_1152_4_alg».proof.Proof.RefRead
import proofs.«172830_g53506702573898_cont_9to1_m_1152_4_alg».proof.Proof.SpecRef

noncomputable section

namespace Cert.ReferenceIdeal.RefValue

open Cert.ReferenceIdeal Cert.ReferenceIdeal.Gen Cert.ReferenceIdeal.ReadP Idealize.ShloMosaic Idealize.ShloMosaic.ValueIdx Cert.SpecRef

/-- The adjacency array read at its two coordinates. -/
def adjOf (x2 : (⟨S4096x4096, .f32⟩ : BufTy).Contents (Elt Ideal)) (i j : Fin 4096) : EReal := x2 (ix2 i j)

variable (x2 : (⟨S4096x4096, .f32⟩ : BufTy).Contents (Elt Ideal))

/-- The symmetrised adjacency. -/
theorem v1_at (i j : Fin 4096) : val_main_v1 (F := Ideal) x2 (ix2 i j) = amax (adjOf x2) i j := by
  have e : idx_main_v0 (ix2 i j) = ix2 j i :=
    funext fun a => Fin.ext (by match a with | ⟨0, _⟩ => rfl | ⟨1, _⟩ => rfl)
  rw [val_main_v1_apply, val_main_v0_apply, e]
  rfl

/-- The degrees. -/
theorem v2_at (i : Fin 4096) : val_main_v2 (F := Ideal) x2 (ix1 i) = deg (adjOf x2) i := by
  rw [val_main_v2_apply, val_main_cst_apply]
  simp only [Ideal.ofBits_def, Ideal.ofBits_zero_f32, zero_add]
  unfold deg
  refine Finset.sum_congr rfl fun k _ => ?_
  have e : idx_main_v2 (ix1 i) k = ix2 i k :=
    funext fun a => Fin.ext (by match a with | ⟨0, _⟩ => rfl | ⟨1, _⟩ => rfl)
  rw [e, v1_at]

/-- A select on the bit of "0 < d" is the `if`. -/
theorem select_ogt_zero (d A B : EReal) :
    Scalar.select (Ideal.cmp .ogt d 0) A B = if 0 < d then A else B := by
  by_cases h : 0 < d
  · simp [Ideal.cmp, Scalar.select, h]
  · simp [Ideal.cmp, Scalar.select, h]

/-- The inverse square roots of the degrees. -/
theorem v8_at (i : Fin 4096) : val_main_v8 (F := Ideal) x2 (ix1 i) = dis (adjOf x2) i := by
  rw [val_main_v8_apply, val_main_v4_apply, val_main_v7_apply, val_main_v6_apply, val_main_v3_apply, val_main_v5_apply,
    val_main_call0_v1_apply, val_main_call0_v0_apply, val_main_cst_0_apply, val_main_cst_1_apply, val_main_cst_2_apply, v2_at]
  simp only [Ideal.ofBits_def, Ideal.ofBits_zero_f32, Ideal.cmpf_def, Ideal.hostUnary_rsqrt_def, Ideal.maximumf_def]
  rw [select_ogt_zero]
  rfl

/-- Two naturals below 2^32 have the same 32-bit word only if they are equal. -/
theorem ofNat32_eq_iff {a b : Nat} (ha : a < 4096) (hb : b < 4096) : BitVec.ofNat 32 a = BitVec.ofNat 32 b ↔ a = b := by
  constructor
  · intro h
    have h' := congrArg BitVec.toNat h
    simp only [BitVec.toNat_ofNat] at h'
    omega
  · intro h; rw [h]

/-- The identity matrix. -/
theorem v14_at (i j : Fin 4096) : val_main_v14 (F := Ideal) (ix2 i j) = eye i j := by
  rw [val_main_v14_apply, val_main_v13_apply, val_main_v12_apply, val_main_v9_apply, val_main_v10_apply, val_main_v11_apply,
    val_main_c_apply]
  show FloatOps.uitofp (F := Ideal) .f32 (IntOp.cmpi .eq (IntOp.addi (BitVec.ofNat 32 i.val) 0#32) (BitVec.ofNat 32 j.val)) = _
  unfold eye
  have h0 : IntOp.addi (BitVec.ofNat 32 i.val) 0#32 = BitVec.ofNat 32 i.val := by simp [IntOp.addi]
  rw [h0]
  by_cases h : i = j
  · subst h; simp [IntOp.cmpi, FloatOps.uitofp]
  · have hv : i.val ≠ j.val := fun e => h (Fin.ext e)
    have hne : BitVec.ofNat 32 i.val ≠ BitVec.ofNat 32 j.val := fun e => hv ((ofNat32_eq_iff i.isLt j.isLt).mp e)
    simp [IntOp.cmpi, FloatOps.uitofp, h, hne]

/-- The support. -/
theorem v22_at (i j : Fin 4096) : val_main_v22 (F := Ideal) x2 (ix2 i j) = supp (adjOf x2) i j := by
  have e1 : idx_main_v15 (idx_main_v16 (ix2 i j)) = ix1 i :=
    funext fun a => Fin.ext (by match a with | ⟨0, _⟩ => rfl)
  have e2 : idx_main_v18 (idx_main_v19 (ix2 i j)) = ix1 j :=
    funext fun a => Fin.ext (by match a with | ⟨0, _⟩ => rfl)
  rw [val_main_v22_apply, val_main_v21_apply, val_main_v20_apply, val_main_v17_apply, val_main_v16_apply, val_main_v15_apply,
    val_main_v19_apply, val_main_v18_apply, e1, e2, v8_at, v8_at, v14_at, v1_at]
  rfl

end Cert.ReferenceIdeal.RefValue

end
-- ==== Proof.RefValueLib.lean ====
/-
  Small facts the reference's stages are read with: the f32 words of one and two as extended reals; a concatenation of
  two rank-3 arrays along the last axis, and of three (or two) unit-thick rank-3 arrays along the first axis, read at
  coordinates.
-/
import Idealize.ShloMosaic.PureOps.Ideal.Laws
import Idealize.ShloMosaic.Lib.Pipeline.Value
import Idealize.ShloMosaic.Lib.ValueIdx

noncomputable section

namespace Cert.RefValueLib

open Idealize.ShloMosaic Idealize.ShloMosaic.ValueIdx

/-- The f32 word of 1.0 denotes the real one. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The f32 word of 2.0 denotes the real two. -/
theorem ofBits_two_f32 : Ideal.ofBits .f32 0x40000000#32 = 2 := by
  rw [show (2 : EReal) = ((2 : ℝ) : EReal) by norm_cast]
  simp [Ideal.ofBits, Ideal.ieee, -EReal.coe_mul]; norm_num

variable {α : Type}

/-- Two rank-3 arrays joined along the last axis, read at coordinates: the first below its extent, the second past it. -/
theorem concat_last_apply {A B C1 C2 C : Nat} (y1 : (⟨3, ![A, B, C1]⟩ : Shape).Idx → α)
    (y2 : (⟨3, ![A, B, C2]⟩ : Shape).Idx → α)
    (h : Shape.Concatenates [⟨3, ![A, B, C1]⟩, ⟨3, ![A, B, C2]⟩] ⟨3, ![A, B, C]⟩ 2) (hC : C = C1 + C2)
    (a : Fin A) (b : Fin B) (c : Fin C) :
    concatenate ⟨3, ![A, B, C]⟩ 2 [⟨⟨3, ![A, B, C1]⟩, y1⟩, ⟨⟨3, ![A, B, C2]⟩, y2⟩] h (ix3 a b c)
      = if hc : c.val < C1 then y1 (ix3 a b ⟨c.val, hc⟩) else y2 (ix3 a b ⟨c.val - C1, by omega⟩) := by
  by_cases hc : c.val < C1
  · rw [dif_pos hc]
    exact concatenate_pair_apply_left 2 y1 y2 h (ix3 a b c) rfl (ix3 a b ⟨c.val, hc⟩)
      (fun d => by match d with | ⟨0, _⟩ => rfl | ⟨1, _⟩ => rfl | ⟨2, _⟩ => rfl)
  · rw [dif_neg hc]
    exact concatenate_pair_apply_right 2 y1 y2 h (ix3 a b c) rfl rfl (ix3 a b ⟨c.val - C1, by omega⟩)
      (fun d hd => by match d with | ⟨0, _⟩ => rfl | ⟨1, _⟩ => rfl | ⟨2, _⟩ => exact absurd rfl hd)
      (by show (c.val - C1) + C1 = c.val; omega)

/-- Three unit-thick rank-3 arrays stacked along the first axis, read at coordinates: piece `mm`. -/
theorem concat3_first_apply {A B : Nat} (y0 y1 y2 : (⟨3, ![1, A, B]⟩ : Shape).Idx → α)
    (h : Shape.Concatenates [⟨3, ![1, A, B]⟩, ⟨3, ![1, A, B]⟩, ⟨3, ![1, A, B]⟩] ⟨3, ![3, A, B]⟩ 0)
    (mm : Fin 3) (n : Fin A) (q : Fin B) :
    concatenate ⟨3, ![3, A, B]⟩ 0 [⟨⟨3, ![1, A, B]⟩, y0⟩, ⟨⟨3, ![1, A, B]⟩, y1⟩, ⟨⟨3, ![1, A, B]⟩, y2⟩] h (ix3 mm n q)
      = if mm.val = 0 then y0 (ix3 0 n q) else if mm.val = 1 then y1 (ix3 0 n q) else y2 (ix3 0 n q) := by
  have hi : ∀ d : Fin 3, d.cast rfl ≠ (0 : Fin 3) →
      ((ix3 (0 : Fin 1) n q : (⟨3, ![1, A, B]⟩ : Shape).Idx) d).val = ((ix3 mm n q : (⟨3, ![3, A, B]⟩ : Shape).Idx) (d.cast rfl)).val :=
    fun d hd => by match d with | ⟨0, _⟩ => exact absurd rfl hd | ⟨1, _⟩ => rfl | ⟨2, _⟩ => rfl
  obtain ⟨mv, hm⟩ := mm
  match mv, hm with
  | 0, _ =>
    rw [if_pos rfl]
    exact concatenate_apply_piece 0 [⟨⟨3, ![1, A, B]⟩, y0⟩, ⟨⟨3, ![1, A, B]⟩, y1⟩, ⟨⟨3, ![1, A, B]⟩, y2⟩] h _ 0 (by simp) ⟨3, ![1, A, B]⟩ y0 rfl rfl 0 rfl (ix3 0 n q) hi rfl
  | 1, _ =>
    rw [if_neg (show ¬((1 : Nat) = 0) by decide), if_pos rfl]
    exact concatenate_apply_piece 0 [⟨⟨3, ![1, A, B]⟩, y0⟩, ⟨⟨3, ![1, A, B]⟩, y1⟩, ⟨⟨3, ![1, A, B]⟩, y2⟩] h _ 1 (by simp) ⟨3, ![1, A, B]⟩ y1 rfl rfl 1 rfl (ix3 0 n q) hi rfl
  | 2, _ =>
    rw [if_neg (show ¬((2 : Nat) = 0) by decide), if_neg (show ¬((2 : Nat) = 1) by decide)]
    exact concatenate_apply_piece 0 [⟨⟨3, ![1, A, B]⟩, y0⟩, ⟨⟨3, ![1, A, B]⟩, y1⟩, ⟨⟨3, ![1, A, B]⟩, y2⟩] h _ 2 (by simp) ⟨3, ![1, A, B]⟩ y2 rfl rfl 2 rfl (ix3 0 n q) hi rfl

/-- Two unit-thick rank-3 arrays stacked along the first axis, read at coordinates. -/
theorem concat2_first_apply {A B : Nat} (y0 y1 : (⟨3, ![1, A, B]⟩ : Shape).Idx → α)
    (h : Shape.Concatenates [⟨3, ![1, A, B]⟩, ⟨3, ![1, A, B]⟩] ⟨3, ![2, A, B]⟩ 0)
    (l : Fin 2) (n : Fin A) (q : Fin B) :
    concatenate ⟨3, ![2, A, B]⟩ 0 [⟨⟨3, ![1, A, B]⟩, y0⟩, ⟨⟨3, ![1, A, B]⟩, y1⟩] h (ix3 l n q)
      = if l.val = 0 then y0 (ix3 0 n q) else y1 (ix3 0 n q) := by
  have hi : ∀ d : Fin 3, d.cast rfl ≠ (0 : Fin 3) →
      ((ix3 (0 : Fin 1) n q : (⟨3, ![1, A, B]⟩ : Shape).Idx) d).val = ((ix3 l n q : (⟨3, ![2, A, B]⟩ : Shape).Idx) (d.cast rfl)).val :=
    fun d hd => by match d with | ⟨0, _⟩ => exact absurd rfl hd | ⟨1, _⟩ => rfl | ⟨2, _⟩ => rfl
  obtain ⟨lv, hl⟩ := l
  match lv, hl with
  | 0, _ =>
    rw [if_pos rfl]
    exact concatenate_apply_piece 0 [⟨⟨3, ![1, A, B]⟩, y0⟩, ⟨⟨3, ![1, A, B]⟩, y1⟩] h _ 0 (by simp) ⟨3, ![1, A, B]⟩ y0 rfl rfl 0 rfl (ix3 0 n q) hi rfl
  | 1, _ =>
    rw [if_neg (show ¬((1 : Nat) = 0) by decide)]
    exact concatenate_apply_piece 0 [⟨⟨3, ![1, A, B]⟩, y0⟩, ⟨⟨3, ![1, A, B]⟩, y1⟩] h _ 1 (by simp) ⟨3, ![1, A, B]⟩ y1 rfl rfl 1 rfl (ix3 0 n q) hi rfl

end Cert.RefValueLib

end
-- ==== Proof.RefValueConvA.lean ====
/-
  The first graph convolution of the reference (layer 1's gates), stage by stage at an index, from ANY reading of its
  feature array: the re-laid features, the two applications of the support, the three Chebyshev features stacked and
  re-laid, the product with the weights plus the bias, and its flat form — each the specification's function.
-/
import proofs.«172830_g53506702573898_cont_9to1_m_1152_4_alg».proof.Proof.RefValueSupp
import proofs.«172830_g53506702573898_cont_9to1_m_1152_4_alg».proof.Proof.RefValueLib

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-- Order m, node n, channel y, batch b in the stacked features: flat position and its three coordinates. -/
theorem nat_stack_51 (m n y b : Nat) (hm : m < 3) (hn : n < 4096) (hy : y < 17) (hb : b < 8) :
    (((m * 4096 + n) * 17 + y) * 8 + b) / 557056 = m ∧ (((m * 4096 + n) * 17 + y) * 8 + b) / 136 % 4096 = n ∧ (((m * 4096 + n) * 17 + y) * 8 + b) % 136 = y * 8 + b := by
  refine ⟨by omega, by omega, by omega⟩

/-- Row b * 4096 + n, column k of the re-laid feature matrix sits at order k % 3, node n, column (k / 3) * 8 + b of the stack. -/
theorem nat_xm_51 (b n k : Nat) (hb : b < 8) (hn : n < 4096) (hk : k < 51) :
    ((((((b * 4096 + n) * 51 + k) % 3) * 4096 + ((b * 4096 + n) * 51 + k) / 51 % 4096) * 17 + ((b * 4096 + n) * 51 + k) / 3 % 17) * 8 + ((b * 4096 + n) * 51 + k) / 208896) / 557056 = k % 3
    ∧ ((((((b * 4096 + n) * 51 + k) % 3) * 4096 + ((b * 4096 + n) * 51 + k) / 51 % 4096) * 17 + ((b * 4096 + n) * 51 + k) / 3 % 17) * 8 + ((b * 4096 + n) * 51 + k) / 208896) / 136 % 4096 = n
    ∧ ((((((b * 4096 + n) * 51 + k) % 3) * 4096 + ((b * 4096 + n) * 51 + k) / 51 % 4096) * 17 + ((b * 4096 + n) * 51 + k) / 3 % 17) * 8 + ((b * 4096 + n) * 51 + k) / 208896) % 136 = k / 3 * 8 + b := by
  have h1 : ((b * 4096 + n) * 51 + k) / 51 = b * 4096 + n := by omega
  have h2 : ((b * 4096 + n) * 51 + k) % 3 = k % 3 := by omega
  have h3 : ((b * 4096 + n) * 51 + k) / 3 % 17 = k / 3 := by omega
  have h4 : ((b * 4096 + n) * 51 + k) / 208896 = b := by omega
  have h5 : (b * 4096 + n) % 4096 = n := by omega
  rw [h1, h2, h3, h4, h5]
  exact nat_stack_51 (k % 3) n (k / 3) b (Nat.mod_lt _ (by norm_num)) hn (by omega) hb

/-! ### The graph convolution whose features are stage 27 and whose output is stage 46 -/

theorem v29_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (n : Fin 4096) (c : Fin 17) (b : Fin 8) :
    val_main_v29 (F := Ideal) x0 x1 (ix2 n (⟨c.val * 8 + b.val, by omega⟩ : Fin 136)) = X b n c := by
  have e : idx_main_v28 (idx_main_v29 (ix2 n (⟨c.val * 8 + b.val, by omega⟩ : Fin 136))) = ix3 b n c :=
    funext fun a => Fin.ext (by
      match a with
      | ⟨0, _⟩ => show (n.val * 136 + (c.val * 8 + b.val)) % 8 = b.val; omega
      | ⟨1, _⟩ => show (n.val * 136 + (c.val * 8 + b.val)) / 136 = n.val; omega
      | ⟨2, _⟩ => show (n.val * 136 + (c.val * 8 + b.val)) / 8 % 17 = c.val; omega)
  rw [val_main_v29_apply, val_main_v28_apply, e, hX]

theorem v30_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (n : Fin 4096) (c : Fin 17) (b : Fin 8) :
    val_main_v30 (F := Ideal) x0 x1 x2 (ix2 n (⟨c.val * 8 + b.val, by omega⟩ : Fin 136)) = cheb1 (supp (adjOf x2)) X b n c := by
  rw [val_main_v30_apply]
  unfold cheb1
  refine Finset.sum_congr rfl fun k _ => ?_
  have el : lidx_main_v30 (ix2 n (⟨c.val * 8 + b.val, by omega⟩ : Fin 136)) k = ix2 n k := funext fun a => Fin.ext (by match a with | ⟨0, _⟩ => rfl | ⟨1, _⟩ => rfl)
  have er : ridx_main_v30 (ix2 n (⟨c.val * 8 + b.val, by omega⟩ : Fin 136)) k = ix2 k (⟨c.val * 8 + b.val, by omega⟩ : Fin 136) := funext fun a => Fin.ext (by match a with | ⟨0, _⟩ => rfl | ⟨1, _⟩ => rfl)
  rw [el, er, v22_at, v29_at x0 x1 x2 x3 x4 X hX]

theorem v31_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (n : Fin 4096) (c : Fin 17) (b : Fin 8) :
    val_main_v31 (F := Ideal) x0 x1 x2 (ix2 n (⟨c.val * 8 + b.val, by omega⟩ : Fin 136)) = ∑ k : Fin 4096, supp (adjOf x2) n k * cheb1 (supp (adjOf x2)) X b k c := by
  rw [val_main_v31_apply]
  refine Finset.sum_congr rfl fun k _ => ?_
  have el : lidx_main_v31 (ix2 n (⟨c.val * 8 + b.val, by omega⟩ : Fin 136)) k = ix2 n k := funext fun a => Fin.ext (by match a with | ⟨0, _⟩ => rfl | ⟨1, _⟩ => rfl)
  have er : ridx_main_v31 (ix2 n (⟨c.val * 8 + b.val, by omega⟩ : Fin 136)) k = ix2 k (⟨c.val * 8 + b.val, by omega⟩ : Fin 136) := funext fun a => Fin.ext (by match a with | ⟨0, _⟩ => rfl | ⟨1, _⟩ => rfl)
  rw [el, er, v22_at, v30_at x0 x1 x2 x3 x4 X hX]

theorem v34_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (n : Fin 4096) (c : Fin 17) (b : Fin 8) :
    val_main_v34 (F := Ideal) x0 x1 x2 (ix2 n (⟨c.val * 8 + b.val, by omega⟩ : Fin 136)) = cheb2 (supp (adjOf x2)) X b n c := by
  rw [val_main_v34_apply, val_main_v33_apply, val_main_v32_apply, val_main_cst_3_apply,
    v31_at x0 x1 x2 x3 x4 X hX, v29_at x0 x1 x2 x3 x4 X hX]
  simp only [Ideal.subf_def, Ideal.mulf_def, Ideal.ofBits_def, ofBits_two_f32]
  rfl

theorem v38_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (mm : Fin 3) (n : Fin 4096) (c : Fin 17) (b : Fin 8) :
    val_main_v38 (F := Ideal) x0 x1 x2 (ix3 mm n (⟨c.val * 8 + b.val, by omega⟩ : Fin 136)) = cheb (supp (adjOf x2)) X mm b n c := by
  have e8 : idx_main_v35 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  have e9 : idx_main_v36 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  have e10 : idx_main_v37 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  unfold val_main_v38
  refine (concat3_first_apply _ _ _ _ mm n (⟨c.val * 8 + b.val, by omega⟩ : Fin 136)).trans ?_
  rw [val_main_v35_apply, val_main_v36_apply, val_main_v37_apply, e8, e9, e10,
    v29_at x0 x1 x2 x3 x4 X hX, v30_at x0 x1 x2 x3 x4 X hX, v34_at x0 x1 x2 x3 x4 X hX]
  rfl

theorem v41_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (b : Fin 8) (n : Fin 4096) (k : Fin 51) :
    val_main_v41 (F := Ideal) x0 x1 x2 (ix2 (⟨b.val * 4096 + n.val, by omega⟩ : Fin 32768) k)
      = cheb (supp (adjOf x2)) X ⟨k.val % 3, Nat.mod_lt _ (by norm_num)⟩ b n ⟨k.val / 3, by omega⟩ := by
  have e : idx_main_v39 (idx_main_v40 (idx_main_v41 (ix2 (⟨b.val * 4096 + n.val, by omega⟩ : Fin 32768) k)))
      = ix3 (⟨k.val % 3, Nat.mod_lt _ (by norm_num)⟩ : Fin 3) n (⟨k.val / 3 * 8 + b.val, by omega⟩ : Fin 136) :=
    funext fun a => Fin.ext (by
      match a with
      | ⟨0, _⟩ => exact (nat_xm_51 b.val n.val k.val b.isLt n.isLt k.isLt).1
      | ⟨1, _⟩ => exact (nat_xm_51 b.val n.val k.val b.isLt n.isLt k.isLt).2.1
      | ⟨2, _⟩ => exact (nat_xm_51 b.val n.val k.val b.isLt n.isLt k.isLt).2.2)
  rw [val_main_v41_apply, val_main_v40_apply, val_main_v39_apply, e]
  exact v38_at x0 x1 x2 x3 x4 X hX ⟨k.val % 3, Nat.mod_lt _ (by norm_num)⟩ n ⟨k.val / 3, by omega⟩ b

theorem v45_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (b : Fin 8) (n : Fin 4096) (o : Fin 32) :
    val_main_v45 (F := Ideal) x0 x1 x2 x3 x4 (ix2 (⟨b.val * 4096 + n.val, by omega⟩ : Fin 32768) o)
      = gconv (C := 17) (K := 51) (supp (adjOf x2)) rfl X (fun k o => x3 (ix2 k o)) (fun o => x4 (ix1 o)) b n o := by
  have eb : idx_main_v43 (idx_main_v44 (ix2 (⟨b.val * 4096 + n.val, by omega⟩ : Fin 32768) o)) = ix1 o :=
    funext fun a => Fin.ext (by match a with | ⟨0, _⟩ => rfl)
  rw [val_main_v45_apply, val_main_v42_apply, val_main_v44_apply, val_main_v43_apply, eb]
  unfold gconv
  simp only [Ideal.addf_def]
  refine congrArg (· + x4 (ix1 o)) (Finset.sum_congr rfl fun k _ => ?_)
  have el : lidx_main_v42 (ix2 (⟨b.val * 4096 + n.val, by omega⟩ : Fin 32768) o) k = ix2 (⟨b.val * 4096 + n.val, by omega⟩ : Fin 32768) k := funext fun a => Fin.ext (by match a with | ⟨0, _⟩ => rfl | ⟨1, _⟩ => rfl)
  have er : ridx_main_v42 (ix2 (⟨b.val * 4096 + n.val, by omega⟩ : Fin 32768) o) k = ix2 k o := funext fun a => Fin.ext (by match a with | ⟨0, _⟩ => rfl | ⟨1, _⟩ => rfl)
  rw [el, er, v41_at x0 x1 x2 x3 x4 X hX]

theorem v46_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (X : Fin 8 → Fin 4096 → Fin 17 → EReal)
    (hX : ∀ (b : Fin 8) (n : Fin 4096) (c : Fin 17), val_main_v27 (F := Ideal) x0 x1 (ix3 b n c) = X b n c)
    (b : Fin 8) (n : Fin 4096) (o : Fin 32) :
    val_main_v46 (F := Ideal) x0 x1 x2 x3 x4 (ix2 b (⟨n.val * 32 + o.val, by omega⟩ : Fin 131072))
      = gconv (C := 17) (K := 51) (supp (adjOf x2)) rfl X (fun k o => x3 (ix2 k o)) (fun o => x4 (ix1 o)) b n o := by
  have e : idx_main_v46 (ix2 b (⟨n.val * 32 + o.val, by omega⟩ : Fin 131072)) = ix2 (⟨b.val * 4096 + n.val, by omega⟩ : Fin 32768) o :=
    funext fun a => Fin.ext (by
      match a with
      | ⟨0, _⟩ => show (b.val * 131072 + (n.val * 32 + o.val)) / 32 = b.val * 4096 + n.val; omega
      | ⟨1, _⟩ => show (b.val * 131072 + (n.val * 32 + o.val)) % 32 = o.val; omega)
  rw [val_main_v46_apply, e, v45_at x0 x1 x2 x3 x4 X hX]

end Cert.ReferenceIdeal.RefValue

end
-- ==== Proof.RefValueConvB.lean ====
/-
  The second graph convolution of the reference (layer 1's candidate), stage by stage at an index, from ANY reading of
  its feature array; the statements are those of the first convolution's file at this convolution's stages.
-/
import proofs.«172830_g53506702573898_cont_9to1_m_1152_4_alg».proof.Proof.RefValueConvA

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-! ### The graph convolution whose features are stage 61 and whose output is stage 80 -/

theorem v63_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (n : Fin 4096) (c : Fin 17) (b : Fin 8) :
    val_main_v63 (F := Ideal) x0 x1 x2 x3 x4 (ix2 n (⟨c.val * 8 + b.val, by omega⟩ : Fin 136)) = X b n c := by
  have e : idx_main_v62 (idx_main_v63 (ix2 n (⟨c.val * 8 + b.val, by omega⟩ : Fin 136))) = ix3 b n c :=
    funext fun a => Fin.ext (by
      match a with
      | ⟨0, _⟩ => show (n.val * 136 + (c.val * 8 + b.val)) % 8 = b.val; omega
      | ⟨1, _⟩ => show (n.val * 136 + (c.val * 8 + b.val)) / 136 = n.val; omega
      | ⟨2, _⟩ => show (n.val * 136 + (c.val * 8 + b.val)) / 8 % 17 = c.val; omega)
  rw [val_main_v63_apply, val_main_v62_apply, e, hX]

theorem v64_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (n : Fin 4096) (c : Fin 17) (b : Fin 8) :
    val_main_v64 (F := Ideal) x0 x1 x2 x3 x4 (ix2 n (⟨c.val * 8 + b.val, by omega⟩ : Fin 136)) = cheb1 (supp (adjOf x2)) X b n c := by
  rw [val_main_v64_apply]
  unfold cheb1
  refine Finset.sum_congr rfl fun k _ => ?_
  have el : lidx_main_v64 (ix2 n (⟨c.val * 8 + b.val, by omega⟩ : Fin 136)) k = ix2 n k := funext fun a => Fin.ext (by match a with | ⟨0, _⟩ => rfl | ⟨1, _⟩ => rfl)
  have er : ridx_main_v64 (ix2 n (⟨c.val * 8 + b.val, by omega⟩ : Fin 136)) k = ix2 k (⟨c.val * 8 + b.val, by omega⟩ : Fin 136) := funext fun a => Fin.ext (by match a with | ⟨0, _⟩ => rfl | ⟨1, _⟩ => rfl)
  rw [el, er, v22_at, v63_at x0 x1 x2 x3 x4 x5 x6 X hX]

theorem v65_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (n : Fin 4096) (c : Fin 17) (b : Fin 8) :
    val_main_v65 (F := Ideal) x0 x1 x2 x3 x4 (ix2 n (⟨c.val * 8 + b.val, by omega⟩ : Fin 136)) = ∑ k : Fin 4096, supp (adjOf x2) n k * cheb1 (supp (adjOf x2)) X b k c := by
  rw [val_main_v65_apply]
  refine Finset.sum_congr rfl fun k _ => ?_
  have el : lidx_main_v65 (ix2 n (⟨c.val * 8 + b.val, by omega⟩ : Fin 136)) k = ix2 n k := funext fun a => Fin.ext (by match a with | ⟨0, _⟩ => rfl | ⟨1, _⟩ => rfl)
  have er : ridx_main_v65 (ix2 n (⟨c.val * 8 + b.val, by omega⟩ : Fin 136)) k = ix2 k (⟨c.val * 8 + b.val, by omega⟩ : Fin 136) := funext fun a => Fin.ext (by match a with | ⟨0, _⟩ => rfl | ⟨1, _⟩ => rfl)
  rw [el, er, v22_at, v64_at x0 x1 x2 x3 x4 x5 x6 X hX]

theorem v68_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (n : Fin 4096) (c : Fin 17) (b : Fin 8) :
    val_main_v68 (F := Ideal) x0 x1 x2 x3 x4 (ix2 n (⟨c.val * 8 + b.val, by omega⟩ : Fin 136)) = cheb2 (supp (adjOf x2)) X b n c := by
  rw [val_main_v68_apply, val_main_v67_apply, val_main_v66_apply, val_main_cst_6_apply,
    v65_at x0 x1 x2 x3 x4 x5 x6 X hX, v63_at x0 x1 x2 x3 x4 x5 x6 X hX]
  simp only [Ideal.subf_def, Ideal.mulf_def, Ideal.ofBits_def, ofBits_two_f32]
  rfl

theorem v72_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (mm : Fin 3) (n : Fin 4096) (c : Fin 17) (b : Fin 8) :
    val_main_v72 (F := Ideal) x0 x1 x2 x3 x4 (ix3 mm n (⟨c.val * 8 + b.val, by omega⟩ : Fin 136)) = cheb (supp (adjOf x2)) X mm b n c := by
  have e8 : idx_main_v69 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  have e9 : idx_main_v70 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  have e10 : idx_main_v71 (ix3 (0 : Fin 1) n (⟨c.val * 8 + b.val, by omega⟩ : Fin 136)) = ix2 n (⟨c.val * 8 + b.val, by omega⟩ : Fin 136) := funext fun a => Fin.ext (by match a with | ⟨0, _⟩ => rfl | ⟨1, _⟩ => rfl)
  unfold val_main_v72
  refine (concat3_first_apply _ _ _ _ mm n (⟨c.val * 8 + b.val, by omega⟩ : Fin 136)).trans ?_
  rw [val_main_v69_apply, val_main_v70_apply, val_main_v71_apply, e8, e9, e10,
    v63_at x0 x1 x2 x3 x4 x5 x6 X hX, v64_at x0 x1 x2 x3 x4 x5 x6 X hX, v68_at x0 x1 x2 x3 x4 x5 x6 X hX]
  rfl

theorem v75_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (b : Fin 8) (n : Fin 4096) (k : Fin 51) :
    val_main_v75 (F := Ideal) x0 x1 x2 x3 x4 (ix2 (⟨b.val * 4096 + n.val, by omega⟩ : Fin 32768) k)
      = cheb (supp (adjOf x2)) X ⟨k.val % 3, Nat.mod_lt _ (by norm_num)⟩ b n ⟨k.val / 3, by omega⟩ := by
  have e : idx_main_v73 (idx_main_v74 (idx_main_v75 (ix2 (⟨b.val * 4096 + n.val, by omega⟩ : Fin 32768) k)))
      = ix3 (⟨k.val % 3, Nat.mod_lt _ (by norm_num)⟩ : Fin 3) n (⟨k.val / 3 * 8 + b.val, by omega⟩ : Fin 136) :=
    funext fun a => Fin.ext (by
      match a with
      | ⟨0, _⟩ => exact (nat_xm_51 b.val n.val k.val b.isLt n.isLt k.isLt).1
      | ⟨1, _⟩ => exact (nat_xm_51 b.val n.val k.val b.isLt n.isLt k.isLt).2.1
      | ⟨2, _⟩ => exact (nat_xm_51 b.val n.val k.val b.isLt n.isLt k.isLt).2.2)
  rw [val_main_v75_apply, val_main_v74_apply, val_main_v73_apply, e]
  exact v72_at x0 x1 x2 x3 x4 x5 x6 X hX ⟨k.val % 3, Nat.mod_lt _ (by norm_num)⟩ n ⟨k.val / 3, by omega⟩ b

theorem v79_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (b : Fin 8) (n : Fin 4096) (o : Fin 16) :
    val_main_v79 (F := Ideal) x0 x1 x2 x3 x4 x5 x6 (ix2 (⟨b.val * 4096 + n.val, by omega⟩ : Fin 32768) o)
      = gconv (C := 17) (K := 51) (supp (adjOf x2)) rfl X (fun k o => x5 (ix2 k o)) (fun o => x6 (ix1 o)) b n o := by
  have eb : idx_main_v77 (idx_main_v78 (ix2 (⟨b.val * 4096 + n.val, by omega⟩ : Fin 32768) o)) = ix1 o :=
    funext fun a => Fin.ext (by match a with | ⟨0, _⟩ => rfl)
  rw [val_main_v79_apply, val_main_v76_apply, val_main_v78_apply, val_main_v77_apply, eb]
  unfold gconv
  simp only [Ideal.addf_def]
  refine congrArg (· + x6 (ix1 o)) (Finset.sum_congr rfl fun k _ => ?_)
  have el : lidx_main_v76 (ix2 (⟨b.val * 4096 + n.val, by omega⟩ : Fin 32768) o) k = ix2 (⟨b.val * 4096 + n.val, by omega⟩ : Fin 32768) k := funext fun a => Fin.ext (by match a with | ⟨0, _⟩ => rfl | ⟨1, _⟩ => rfl)
  have er : ridx_main_v76 (ix2 (⟨b.val * 4096 + n.val, by omega⟩ : Fin 32768) o) k = ix2 k o := funext fun a => Fin.ext (by match a with | ⟨0, _⟩ => rfl | ⟨1, _⟩ => rfl)
  rw [el, er, v75_at x0 x1 x2 x3 x4 x5 x6 X hX]

theorem v80_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (X : Fin 8 → Fin 4096 → Fin 17 → EReal)
    (hX : ∀ (b : Fin 8) (n : Fin 4096) (c : Fin 17), val_main_v61 (F := Ideal) x0 x1 x2 x3 x4 (ix3 b n c) = X b n c)
    (b : Fin 8) (n : Fin 4096) (o : Fin 16) :
    val_main_v80 (F := Ideal) x0 x1 x2 x3 x4 x5 x6 (ix2 b (⟨n.val * 16 + o.val, by omega⟩ : Fin 65536))
      = gconv (C := 17) (K := 51) (supp (adjOf x2)) rfl X (fun k o => x5 (ix2 k o)) (fun o => x6 (ix1 o)) b n o := by
  have e : idx_main_v80 (ix2 b (⟨n.val * 16 + o.val, by omega⟩ : Fin 65536)) = ix2 (⟨b.val * 4096 + n.val, by omega⟩ : Fin 32768) o :=
    funext fun a => Fin.ext (by
      match a with
      | ⟨0, _⟩ => show (b.val * 65536 + (n.val * 16 + o.val)) / 16 = b.val * 4096 + n.val; omega
      | ⟨1, _⟩ => show (b.val * 65536 + (n.val * 16 + o.val)) % 16 = o.val; omega)
  rw [val_main_v80_apply, e, v79_at x0 x1 x2 x3 x4 x5 x6 X hX]

end Cert.ReferenceIdeal.RefValue

end
-- ==== Proof.RefValueCell1.lean ====
/-
  The gates and the new state of the reference's first layer, stage by stage at an index, from ANY reading of the gate
  convolution's output, of the incoming state and of the candidate convolution's output: the logistic gates, the reset
  state, and u * h + (1 − u) * tanh c.
-/
import proofs.«172830_g53506702573898_cont_9to1_m_1152_4_alg».proof.Proof.RefRead
import proofs.«172830_g53506702573898_cont_9to1_m_1152_4_alg».proof.Proof.SpecRef
import proofs.«172830_g53506702573898_cont_9to1_m_1152_4_alg».proof.Proof.RefValueLib

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-- Flat position n * 16 + u of batch row b, read through the 16-unit slice at offset 0 of the 32-unit rows, sits at flat
    position n * 32 + u of the same batch row. -/
theorem nat_gate_lo (b n u : Nat) (hb : b < 8) (hn : n < 4096) (hu : u < 16) :
    (((b * 65536 + (n * 16 + u)) / 65536 * 4096 + (b * 65536 + (n * 16 + u)) / 16 % 4096) * 32 + (b * 65536 + (n * 16 + u)) % 16) / 131072 = b
    ∧ (((b * 65536 + (n * 16 + u)) / 65536 * 4096 + (b * 65536 + (n * 16 + u)) / 16 % 4096) * 32 + (b * 65536 + (n * 16 + u)) % 16) % 131072 = n * 32 + u := by
  have h1 : (b * 65536 + (n * 16 + u)) / 65536 = b := by omega
  have h2 : (b * 65536 + (n * 16 + u)) / 16 % 4096 = n := by omega
  have h3 : (b * 65536 + (n * 16 + u)) % 16 = u := by omega
  rw [h1, h2, h3]
  refine ⟨by omega, by omega⟩

/-- The same through the slice at offset 16: flat position n * 32 + (u + 16). -/
theorem nat_gate_hi (b n u : Nat) (hb : b < 8) (hn : n < 4096) (hu : u < 16) :
    (((b * 65536 + (n * 16 + u)) / 65536 * 4096 + (b * 65536 + (n * 16 + u)) / 16 % 4096) * 32 + (16 + (b * 65536 + (n * 16 + u)) % 16)) / 131072 = b
    ∧ (((b * 65536 + (n * 16 + u)) / 65536 * 4096 + (b * 65536 + (n * 16 + u)) / 16 % 4096) * 32 + (16 + (b * 65536 + (n * 16 + u)) % 16)) % 131072 = n * 32 + (u + 16) := by
  have h1 : (b * 65536 + (n * 16 + u)) / 65536 = b := by omega
  have h2 : (b * 65536 + (n * 16 + u)) / 16 % 4096 = n := by omega
  have h3 : (b * 65536 + (n * 16 + u)) % 16 = u := by omega
  rw [h1, h2, h3]
  refine ⟨by omega, by omega⟩

/-! ### The gates and the new state of layer 1: stages 47 to 86 -/

theorem v52_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (G : Fin 8 → Fin 4096 → Fin 32 → EReal)
    (hG : ∀ (b : Fin 8) (n : Fin 4096) (o : Fin 32), val_main_v46 (F := Ideal) x0 x1 x2 x3 x4 (ix2 b (⟨n.val * 32 + o.val, by omega⟩ : Fin 131072)) = G b n o)
    (b : Fin 8) (n : Fin 4096) (o : Fin 32) :
    val_main_v52 (F := Ideal) x0 x1 x2 x3 x4 (ix2 b (⟨n.val * 32 + o.val, by omega⟩ : Fin 131072)) = Cert.SpecRef.sig (G b n o) := by
  rw [val_main_v52_apply, val_main_v51_apply, val_main_v50_apply, val_main_v49_apply, val_main_v48_apply,
    val_main_v47_apply, val_main_cst_4_apply, val_main_cst_5_apply, hG]
  simp only [Ideal.hostDivf_def, Ideal.addf_def, Ideal.hostUnary_exp_def, Ideal.hostNegf_def, Ideal.negf_def, Ideal.ofBits_def,
    ofBits_one_f32]
  rfl

theorem v55_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (G : Fin 8 → Fin 4096 → Fin 32 → EReal)
    (hG : ∀ (b : Fin 8) (n : Fin 4096) (o : Fin 32), val_main_v46 (F := Ideal) x0 x1 x2 x3 x4 (ix2 b (⟨n.val * 32 + o.val, by omega⟩ : Fin 131072)) = G b n o)
    (b : Fin 8) (n : Fin 4096) (u : Fin 16) :
    val_main_v55 (F := Ideal) x0 x1 x2 x3 x4 (ix2 b (⟨n.val * 16 + u.val, by omega⟩ : Fin 65536)) = Cert.SpecRef.sig (G b n (⟨u.val, by omega⟩ : Fin 32)) := by
  have e : idx_main_v53 (idx_main_v54 (idx_main_v55 (ix2 b (⟨n.val * 16 + u.val, by omega⟩ : Fin 65536))))
      = ix2 b (⟨n.val * 32 + (u.val), by omega⟩ : Fin 131072) :=
    funext fun a => Fin.ext (by
      match a with
      | ⟨0, _⟩ => exact (nat_gate_lo b.val n.val u.val b.isLt n.isLt u.isLt).1
      | ⟨1, _⟩ => exact (nat_gate_lo b.val n.val u.val b.isLt n.isLt u.isLt).2)
  rw [val_main_v55_apply, val_main_v54_apply, val_main_v53_apply, e]
  exact v52_at x0 x1 x2 x3 x4 G hG b n (⟨u.val, by omega⟩ : Fin 32)

theorem v57_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (G : Fin 8 → Fin 4096 → Fin 32 → EReal)
    (hG : ∀ (b : Fin 8) (n : Fin 4096) (o : Fin 32), val_main_v46 (F := Ideal) x0 x1 x2 x3 x4 (ix2 b (⟨n.val * 32 + o.val, by omega⟩ : Fin 131072)) = G b n o)
    (b : Fin 8) (n : Fin 4096) (u : Fin 16) :
    val_main_v57 (F := Ideal) x0 x1 x2 x3 x4 (ix2 b (⟨n.val * 16 + u.val, by omega⟩ : Fin 65536)) = Cert.SpecRef.sig (G b n (⟨u.val + 16, by omega⟩ : Fin 32)) := by
  have e : idx_main_v53 (idx_main_v56 (idx_main_v57 (ix2 b (⟨n.val * 16 + u.val, by omega⟩ : Fin 65536))))
      = ix2 b (⟨n.val * 32 + (u.val + 16), by omega⟩ : Fin 131072) :=
    funext fun a => Fin.ext (by
      match a with
      | ⟨0, _⟩ => exact (nat_gate_hi b.val n.val u.val b.isLt n.isLt u.isLt).1
      | ⟨1, _⟩ => exact (nat_gate_hi b.val n.val u.val b.isLt n.isLt u.isLt).2)
  rw [val_main_v57_apply, val_main_v56_apply, val_main_v53_apply, e]
  exact v52_at x0 x1 x2 x3 x4 G hG b n (⟨u.val + 16, by omega⟩ : Fin 32)

theorem v60_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (G : Fin 8 → Fin 4096 → Fin 32 → EReal)
    (hG : ∀ (b : Fin 8) (n : Fin 4096) (o : Fin 32), val_main_v46 (F := Ideal) x0 x1 x2 x3 x4 (ix2 b (⟨n.val * 32 + o.val, by omega⟩ : Fin 131072)) = G b n o)
    (H : Fin 8 → Fin 4096 → Fin 16 → EReal)
    (hH : ∀ (b : Fin 8) (n : Fin 4096) (u : Fin 16), val_main_v24 (F := Ideal) x1 (ix2 b (⟨n.val * 16 + u.val, by omega⟩ : Fin 65536)) = H b n u)
    (b : Fin 8) (n : Fin 4096) (u : Fin 16) :
    val_main_v60 (F := Ideal) x0 x1 x2 x3 x4 (ix3 b n u) = Cert.SpecRef.sig (G b n (⟨u.val, by omega⟩ : Fin 32)) * H b n u := by
  have e : idx_main_v60 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v60_apply, e, val_main_v58_apply, v55_at x0 x1 x2 x3 x4 G hG, hH]
  rfl

theorem v86_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (G : Fin 8 → Fin 4096 → Fin 32 → EReal)
    (hG : ∀ (b : Fin 8) (n : Fin 4096) (o : Fin 32), val_main_v46 (F := Ideal) x0 x1 x2 x3 x4 (ix2 b (⟨n.val * 32 + o.val, by omega⟩ : Fin 131072)) = G b n o)
    (H : Fin 8 → Fin 4096 → Fin 16 → EReal)
    (hH : ∀ (b : Fin 8) (n : Fin 4096) (u : Fin 16), val_main_v24 (F := Ideal) x1 (ix2 b (⟨n.val * 16 + u.val, by omega⟩ : Fin 65536)) = H b n u)
    (Cc : Fin 8 → Fin 4096 → Fin 16 → EReal)
    (hC : ∀ (b : Fin 8) (n : Fin 4096) (u : Fin 16), val_main_v80 (F := Ideal) x0 x1 x2 x3 x4 x5 x6 (ix2 b (⟨n.val * 16 + u.val, by omega⟩ : Fin 65536)) = Cc b n u)
    (b : Fin 8) (n : Fin 4096) (u : Fin 16) :
    val_main_v86 (F := Ideal) x0 x1 x2 x3 x4 x5 x6 (ix2 b (⟨n.val * 16 + u.val, by omega⟩ : Fin 65536))
      = Cert.SpecRef.sig (G b n (⟨u.val + 16, by omega⟩ : Fin 32)) * H b n u + (1 - Cert.SpecRef.sig (G b n (⟨u.val + 16, by omega⟩ : Fin 32))) * Ideal.tanh (Cc b n u) := by
  rw [val_main_v86_apply, val_main_v85_apply, val_main_v84_apply, val_main_v83_apply, val_main_v82_apply,
    val_main_v81_apply, val_main_cst_7_apply, v57_at x0 x1 x2 x3 x4 G hG, hH, hC]
  simp only [Ideal.addf_def, Ideal.mulf_def, Ideal.subf_def, Ideal.hostUnary_tanh_def, Ideal.ofBits_def, ofBits_one_f32]

end Cert.ReferenceIdeal.RefValue

end
-- ==== Proof.RefValueL1.lean ====
/-
  The reference's first layer assembled: the incoming state and the input joined into features, the gate convolution,
  the gates, the reset features, the candidate convolution, and the new state — stage 86 is the specification's h1.
-/
import proofs.«172830_g53506702573898_cont_9to1_m_1152_4_alg».proof.Proof.RefValueConvA
import proofs.«172830_g53506702573898_cont_9to1_m_1152_4_alg».proof.Proof.RefValueConvB
import proofs.«172830_g53506702573898_cont_9to1_m_1152_4_alg».proof.Proof.RefValueCell1

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-- The input array read at its two coordinates. -/
def inpOf (x0 : (⟨S8x4096, .f32⟩ : BufTy).Contents (Elt Ideal)) (b : Fin 8) (n : Fin 4096) : EReal := x0 (ix2 b n)
/-- The state array read at its three coordinates. -/
def hidOf (x1 : (⟨S2x8x65536, .f32⟩ : BufTy).Contents (Elt Ideal)) (l : Fin 2) (b : Fin 8) (j : Fin 65536) : EReal := x1 (ix3 l b j)

/-- Layer 1's incoming state, flat. -/
theorem v24_at (x1 : (⟨S2x8x65536, .f32⟩ : BufTy).Contents (Elt Ideal)) (b : Fin 8) (n : Fin 4096) (u : Fin 16) :
    val_main_v24 (F := Ideal) x1 (ix2 b (⟨n.val * 16 + u.val, by omega⟩ : Fin 65536)) = hidAt (hidOf x1) 0 b n u := by
  have e : idx_main_v23 (idx_main_v24 (ix2 b (⟨n.val * 16 + u.val, by omega⟩ : Fin 65536))) = ix3 (0 : Fin 2) b (flat16 n u) :=
    funext fun a => Fin.ext (by
      match a with
      | ⟨0, _⟩ => rfl
      | ⟨1, _⟩ => show (b.val * 65536 + (n.val * 16 + u.val)) / 65536 % 8 = b.val; omega
      | ⟨2, _⟩ => show (b.val * 65536 + (n.val * 16 + u.val)) % 65536 = n.val * 16 + u.val; omega)
  rw [val_main_v24_apply, val_main_v23_apply, e]
  rfl

/-- Layer 1's incoming state at (batch, node, unit). -/
theorem v26_at (x1 : (⟨S2x8x65536, .f32⟩ : BufTy).Contents (Elt Ideal)) (b : Fin 8) (n : Fin 4096) (u : Fin 16) :
    val_main_v26 (F := Ideal) x1 (ix3 b n u) = hidAt (hidOf x1) 0 b n u := by
  have e : idx_main_v26 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v26_apply, e, v24_at]

/-- Layer 1's gate features: the input joined with the incoming state. -/
theorem v27_at (x0 : (⟨S8x4096, .f32⟩ : BufTy).Contents (Elt Ideal)) (x1 : (⟨S2x8x65536, .f32⟩ : BufTy).Contents (Elt Ideal)) (b : Fin 8) (n : Fin 4096) (c : Fin 17) :
    val_main_v27 (F := Ideal) x0 x1 (ix3 b n c) = feat0 (inpOf x0) (hidAt (hidOf x1) 0) b n c := by
  unfold val_main_v27
  refine (concat_last_apply _ _ _ (by norm_num) b n c).trans ?_
  unfold feat0
  by_cases hc : c.val < 1
  · rw [dif_pos hc, dif_pos hc, val_main_v25_apply]
    have e : idx_main_v25 (ix3 b n (⟨c.val, hc⟩ : Fin 1)) = ix2 b n :=
      funext fun a => Fin.ext (by
        match a with
        | ⟨0, _⟩ => show ((b.val * 4096 + n.val) * 1 + c.val) / 4096 = b.val; omega
        | ⟨1, _⟩ => show ((b.val * 4096 + n.val) * 1 + c.val) % 4096 = n.val; omega)
    rw [e]
    rfl
  · rw [dif_neg hc, dif_neg hc]
    exact v26_at x1 b n ⟨c.val - 1, by omega⟩

/-- Layer 1's gate convolution, as the specification's. -/
abbrev G1 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) : Fin 8 → Fin 4096 → Fin 32 → EReal :=
  gconv (C := 17) (K := 51) (supp (adjOf x2)) rfl (feat0 (inpOf x0) (hidAt (hidOf x1) 0)) (fun k o => x3 (ix2 k o)) (fun o => x4 (ix1 o))

theorem v46_G1 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (b : Fin 8) (n : Fin 4096) (o : Fin 32) :
    val_main_v46 (F := Ideal) x0 x1 x2 x3 x4 (ix2 b (⟨n.val * 32 + o.val, by omega⟩ : Fin 131072)) = G1 x0 x1 x2 x3 x4 b n o :=
  v46_at x0 x1 x2 x3 x4 _ (v27_at x0 x1) b n o

/-- Layer 1's candidate features: the input joined with the reset state. -/
abbrev X2 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) : Fin 8 → Fin 4096 → Fin 17 → EReal :=
  feat0 (inpOf x0) (fun b n u => Cert.SpecRef.sig (G1 x0 x1 x2 x3 x4 b n (⟨u.val, by omega⟩ : Fin 32)) * hidAt (hidOf x1) 0 b n u)

theorem v61_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (b : Fin 8) (n : Fin 4096) (c : Fin 17) :
    val_main_v61 (F := Ideal) x0 x1 x2 x3 x4 (ix3 b n c) = X2 x0 x1 x2 x3 x4 b n c := by
  unfold val_main_v61
  refine (concat_last_apply _ _ _ (by norm_num) b n c).trans ?_
  unfold X2 feat0
  by_cases hc : c.val < 1
  · rw [dif_pos hc, dif_pos hc, val_main_v59_apply]
    have e : idx_main_v59 (ix3 b n (⟨c.val, hc⟩ : Fin 1)) = ix2 b n :=
      funext fun a => Fin.ext (by
        match a with
        | ⟨0, _⟩ => show ((b.val * 4096 + n.val) * 1 + c.val) / 4096 = b.val; omega
        | ⟨1, _⟩ => show ((b.val * 4096 + n.val) * 1 + c.val) % 4096 = n.val; omega)
    rw [e]
    rfl
  · rw [dif_neg hc, dif_neg hc]
    exact v60_at x0 x1 x2 x3 x4 (G1 x0 x1 x2 x3 x4) (v46_G1 x0 x1 x2 x3 x4) (hidAt (hidOf x1) 0) (v24_at x1) b n ⟨c.val - 1, by omega⟩

/-- Stage 86, flat over (node, unit), is the specification's first new state. -/
theorem v86_h1 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (b : Fin 8) (n : Fin 4096) (u : Fin 16) :
    val_main_v86 (F := Ideal) x0 x1 x2 x3 x4 x5 x6 (ix2 b (⟨n.val * 16 + u.val, by omega⟩ : Fin 65536))
      = h1 (inpOf x0) (hidOf x1) (adjOf x2) (fun k o => x3 (ix2 k o)) (fun o => x4 (ix1 o)) (fun k o => x5 (ix2 k o)) (fun o => x6 (ix1 o)) b n u := by
  rw [v86_at x0 x1 x2 x3 x4 x5 x6 (G1 x0 x1 x2 x3 x4) (v46_G1 x0 x1 x2 x3 x4) (hidAt (hidOf x1) 0) (v24_at x1)
    (gconv (C := 17) (K := 51) (supp (adjOf x2)) rfl (X2 x0 x1 x2 x3 x4) (fun k o => x5 (ix2 k o)) (fun o => x6 (ix1 o)))
    (v80_at x0 x1 x2 x3 x4 x5 x6 _ (v61_at x0 x1 x2 x3 x4)) b n u]
  rfl

end Cert.ReferenceIdeal.RefValue

end
-- ==== Proof.RefValueConvC.lean ====
/-
  The third graph convolution of the reference (layer 2's gates, 32 feature channels), stage by stage at an index, from
  ANY reading of its feature array.
-/
import proofs.«172830_g53506702573898_cont_9to1_m_1152_4_alg».proof.Proof.RefValueSupp
import proofs.«172830_g53506702573898_cont_9to1_m_1152_4_alg».proof.Proof.RefValueLib

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-- Order m, node n, channel y, batch b in the stacked features: flat position and its three coordinates. -/
theorem nat_stack_96 (m n y b : Nat) (hm : m < 3) (hn : n < 4096) (hy : y < 32) (hb : b < 8) :
    (((m * 4096 + n) * 32 + y) * 8 + b) / 1048576 = m ∧ (((m * 4096 + n) * 32 + y) * 8 + b) / 256 % 4096 = n ∧ (((m * 4096 + n) * 32 + y) * 8 + b) % 256 = y * 8 + b := by
  refine ⟨by omega, by omega, by omega⟩

/-- Row b * 4096 + n, column k of the re-laid feature matrix sits at order k % 3, node n, column (k / 3) * 8 + b of the stack. -/
theorem nat_xm_96 (b n k : Nat) (hb : b < 8) (hn : n < 4096) (hk : k < 96) :
    ((((((b * 4096 + n) * 96 + k) % 3) * 4096 + ((b * 4096 + n) * 96 + k) / 96 % 4096) * 32 + ((b * 4096 + n) * 96 + k) / 3 % 32) * 8 + ((b * 4096 + n) * 96 + k) / 393216) / 1048576 = k % 3
    ∧ ((((((b * 4096 + n) * 96 + k) % 3) * 4096 + ((b * 4096 + n) * 96 + k) / 96 % 4096) * 32 + ((b * 4096 + n) * 96 + k) / 3 % 32) * 8 + ((b * 4096 + n) * 96 + k) / 393216) / 256 % 4096 = n
    ∧ ((((((b * 4096 + n) * 96 + k) % 3) * 4096 + ((b * 4096 + n) * 96 + k) / 96 % 4096) * 32 + ((b * 4096 + n) * 96 + k) / 3 % 32) * 8 + ((b * 4096 + n) * 96 + k) / 393216) % 256 = k / 3 * 8 + b := by
  have h1 : ((b * 4096 + n) * 96 + k) / 96 = b * 4096 + n := by omega
  have h2 : ((b * 4096 + n) * 96 + k) % 3 = k % 3 := by omega
  have h3 : ((b * 4096 + n) * 96 + k) / 3 % 32 = k / 3 := by omega
  have h4 : ((b * 4096 + n) * 96 + k) / 393216 = b := by omega
  have h5 : (b * 4096 + n) % 4096 = n := by omega
  rw [h1, h2, h3, h4, h5]
  exact nat_stack_96 (k % 3) n (k / 3) b (Nat.mod_lt _ (by norm_num)) hn (by omega) hb

/-! ### The graph convolution whose features are stage 91 and whose output is stage 110 -/

theorem v93_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (n : Fin 4096) (c : Fin 32) (b : Fin 8) :
    val_main_v93 (F := Ideal) x0 x1 x2 x3 x4 x5 x6 (ix2 n (⟨c.val * 8 + b.val, by omega⟩ : Fin 256)) = X b n c := by
  have e : idx_main_v92 (idx_main_v93 (ix2 n (⟨c.val * 8 + b.val, by omega⟩ : Fin 256))) = ix3 b n c :=
    funext fun a => Fin.ext (by
      match a with
      | ⟨0, _⟩ => show (n.val * 256 + (c.val * 8 + b.val)) % 8 = b.val; omega
      | ⟨1, _⟩ => show (n.val * 256 + (c.val * 8 + b.val)) / 256 = n.val; omega
      | ⟨2, _⟩ => show (n.val * 256 + (c.val * 8 + b.val)) / 8 % 32 = c.val; omega)
  rw [val_main_v93_apply, val_main_v92_apply, e, hX]

theorem v94_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (n : Fin 4096) (c : Fin 32) (b : Fin 8) :
    val_main_v94 (F := Ideal) x0 x1 x2 x3 x4 x5 x6 (ix2 n (⟨c.val * 8 + b.val, by omega⟩ : Fin 256)) = cheb1 (supp (adjOf x2)) X b n c := by
  rw [val_main_v94_apply]
  unfold cheb1
  refine Finset.sum_congr rfl fun k _ => ?_
  have el : lidx_main_v94 (ix2 n (⟨c.val * 8 + b.val, by omega⟩ : Fin 256)) k = ix2 n k := funext fun a => Fin.ext (by match a with | ⟨0, _⟩ => rfl | ⟨1, _⟩ => rfl)
  have er : ridx_main_v94 (ix2 n (⟨c.val * 8 + b.val, by omega⟩ : Fin 256)) k = ix2 k (⟨c.val * 8 + b.val, by omega⟩ : Fin 256) := funext fun a => Fin.ext (by match a with | ⟨0, _⟩ => rfl | ⟨1, _⟩ => rfl)
  rw [el, er, v22_at, v93_at x0 x1 x2 x3 x4 x5 x6 x7 x8 X hX]

theorem v95_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (n : Fin 4096) (c : Fin 32) (b : Fin 8) :
    val_main_v95 (F := Ideal) x0 x1 x2 x3 x4 x5 x6 (ix2 n (⟨c.val * 8 + b.val, by omega⟩ : Fin 256)) = ∑ k : Fin 4096, supp (adjOf x2) n k * cheb1 (supp (adjOf x2)) X b k c := by
  rw [val_main_v95_apply]
  refine Finset.sum_congr rfl fun k _ => ?_
  have el : lidx_main_v95 (ix2 n (⟨c.val * 8 + b.val, by omega⟩ : Fin 256)) k = ix2 n k := funext fun a => Fin.ext (by match a with | ⟨0, _⟩ => rfl | ⟨1, _⟩ => rfl)
  have er : ridx_main_v95 (ix2 n (⟨c.val * 8 + b.val, by omega⟩ : Fin 256)) k = ix2 k (⟨c.val * 8 + b.val, by omega⟩ : Fin 256) := funext fun a => Fin.ext (by match a with | ⟨0, _⟩ => rfl | ⟨1, _⟩ => rfl)
  rw [el, er, v22_at, v94_at x0 x1 x2 x3 x4 x5 x6 x7 x8 X hX]

theorem v98_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (n : Fin 4096) (c : Fin 32) (b : Fin 8) :
    val_main_v98 (F := Ideal) x0 x1 x2 x3 x4 x5 x6 (ix2 n (⟨c.val * 8 + b.val, by omega⟩ : Fin 256)) = cheb2 (supp (adjOf x2)) X b n c := by
  rw [val_main_v98_apply, val_main_v97_apply, val_main_v96_apply, val_main_cst_8_apply,
    v95_at x0 x1 x2 x3 x4 x5 x6 x7 x8 X hX, v93_at x0 x1 x2 x3 x4 x5 x6 x7 x8 X hX]
  simp only [Ideal.subf_def, Ideal.mulf_def, Ideal.ofBits_def, ofBits_two_f32]
  rfl

theorem v102_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (mm : Fin 3) (n : Fin 4096) (c : Fin 32) (b : Fin 8) :
    val_main_v102 (F := Ideal) x0 x1 x2 x3 x4 x5 x6 (ix3 mm n (⟨c.val * 8 + b.val, by omega⟩ : Fin 256)) = cheb (supp (adjOf x2)) X mm b n c := by
  have e8 : idx_main_v99 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  have e9 : idx_main_v100 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  have e10 : idx_main_v101 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  unfold val_main_v102
  refine (concat3_first_apply _ _ _ _ mm n (⟨c.val * 8 + b.val, by omega⟩ : Fin 256)).trans ?_
  rw [val_main_v99_apply, val_main_v100_apply, val_main_v101_apply, e8, e9, e10,
    v93_at x0 x1 x2 x3 x4 x5 x6 x7 x8 X hX, v94_at x0 x1 x2 x3 x4 x5 x6 x7 x8 X hX, v98_at x0 x1 x2 x3 x4 x5 x6 x7 x8 X hX]
  rfl

theorem v105_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (b : Fin 8) (n : Fin 4096) (k : Fin 96) :
    val_main_v105 (F := Ideal) x0 x1 x2 x3 x4 x5 x6 (ix2 (⟨b.val * 4096 + n.val, by omega⟩ : Fin 32768) k)
      = cheb (supp (adjOf x2)) X ⟨k.val % 3, Nat.mod_lt _ (by norm_num)⟩ b n ⟨k.val / 3, by omega⟩ := by
  have e : idx_main_v103 (idx_main_v104 (idx_main_v105 (ix2 (⟨b.val * 4096 + n.val, by omega⟩ : Fin 32768) k)))
      = ix3 (⟨k.val % 3, Nat.mod_lt _ (by norm_num)⟩ : Fin 3) n (⟨k.val / 3 * 8 + b.val, by omega⟩ : Fin 256) :=
    funext fun a => Fin.ext (by
      match a with
      | ⟨0, _⟩ => exact (nat_xm_96 b.val n.val k.val b.isLt n.isLt k.isLt).1
      | ⟨1, _⟩ => exact (nat_xm_96 b.val n.val k.val b.isLt n.isLt k.isLt).2.1
      | ⟨2, _⟩ => exact (nat_xm_96 b.val n.val k.val b.isLt n.isLt k.isLt).2.2)
  rw [val_main_v105_apply, val_main_v104_apply, val_main_v103_apply, e]
  exact v102_at x0 x1 x2 x3 x4 x5 x6 x7 x8 X hX ⟨k.val % 3, Nat.mod_lt _ (by norm_num)⟩ n ⟨k.val / 3, by omega⟩ b

theorem v109_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (b : Fin 8) (n : Fin 4096) (o : Fin 32) :
    val_main_v109 (F := Ideal) x0 x1 x2 x3 x4 x5 x6 x7 x8 (ix2 (⟨b.val * 4096 + n.val, by omega⟩ : Fin 32768) o)
      = gconv (C := 32) (K := 96) (supp (adjOf x2)) rfl X (fun k o => x7 (ix2 k o)) (fun o => x8 (ix1 o)) b n o := by
  have eb : idx_main_v107 (idx_main_v108 (ix2 (⟨b.val * 4096 + n.val, by omega⟩ : Fin 32768) o)) = ix1 o :=
    funext fun a => Fin.ext (by match a with | ⟨0, _⟩ => rfl)
  rw [val_main_v109_apply, val_main_v106_apply, val_main_v108_apply, val_main_v107_apply, eb]
  unfold gconv
  simp only [Ideal.addf_def]
  refine congrArg (· + x8 (ix1 o)) (Finset.sum_congr rfl fun k _ => ?_)
  have el : lidx_main_v106 (ix2 (⟨b.val * 4096 + n.val, by omega⟩ : Fin 32768) o) k = ix2 (⟨b.val * 4096 + n.val, by omega⟩ : Fin 32768) k := funext fun a => Fin.ext (by match a with | ⟨0, _⟩ => rfl | ⟨1, _⟩ => rfl)
  have er : ridx_main_v106 (ix2 (⟨b.val * 4096 + n.val, by omega⟩ : Fin 32768) o) k = ix2 k o := funext fun a => Fin.ext (by match a with | ⟨0, _⟩ => rfl | ⟨1, _⟩ => rfl)
  rw [el, er, v105_at x0 x1 x2 x3 x4 x5 x6 x7 x8 X hX]

theorem v110_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (X : Fin 8 → Fin 4096 → Fin 32 → EReal)
    (hX : ∀ (b : Fin 8) (n : Fin 4096) (c : Fin 32), val_main_v91 (F := Ideal) x0 x1 x2 x3 x4 x5 x6 (ix3 b n c) = X b n c)
    (b : Fin 8) (n : Fin 4096) (o : Fin 32) :
    val_main_v110 (F := Ideal) x0 x1 x2 x3 x4 x5 x6 x7 x8 (ix2 b (⟨n.val * 32 + o.val, by omega⟩ : Fin 131072))
      = gconv (C := 32) (K := 96) (supp (adjOf x2)) rfl X (fun k o => x7 (ix2 k o)) (fun o => x8 (ix1 o)) b n o := by
  have e : idx_main_v110 (ix2 b (⟨n.val * 32 + o.val, by omega⟩ : Fin 131072)) = ix2 (⟨b.val * 4096 + n.val, by omega⟩ : Fin 32768) o :=
    funext fun a => Fin.ext (by
      match a with
      | ⟨0, _⟩ => show (b.val * 131072 + (n.val * 32 + o.val)) / 32 = b.val * 4096 + n.val; omega
      | ⟨1, _⟩ => show (b.val * 131072 + (n.val * 32 + o.val)) % 32 = o.val; omega)
  rw [val_main_v110_apply, e, v109_at x0 x1 x2 x3 x4 x5 x6 x7 x8 X hX]

end Cert.ReferenceIdeal.RefValue

end
-- ==== Proof.RefValueConvD.lean ====
/-
  The fourth graph convolution of the reference (layer 2's candidate, 32 feature channels), stage by stage at an index,
  from ANY reading of its feature array.
-/
import proofs.«172830_g53506702573898_cont_9to1_m_1152_4_alg».proof.Proof.RefValueConvC

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-! ### The graph convolution whose features are stage 125 and whose output is stage 144 -/

theorem v127_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (n : Fin 4096) (c : Fin 32) (b : Fin 8) :
    val_main_v127 (F := Ideal) x0 x1 x2 x3 x4 x5 x6 x7 x8 (ix2 n (⟨c.val * 8 + b.val, by omega⟩ : Fin 256)) = X b n c := by
  have e : idx_main_v126 (idx_main_v127 (ix2 n (⟨c.val * 8 + b.val, by omega⟩ : Fin 256))) = ix3 b n c :=
    funext fun a => Fin.ext (by
      match a with
      | ⟨0, _⟩ => show (n.val * 256 + (c.val * 8 + b.val)) % 8 = b.val; omega
      | ⟨1, _⟩ => show (n.val * 256 + (c.val * 8 + b.val)) / 256 = n.val; omega
      | ⟨2, _⟩ => show (n.val * 256 + (c.val * 8 + b.val)) / 8 % 32 = c.val; omega)
  rw [val_main_v127_apply, val_main_v126_apply, e, hX]

theorem v128_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (n : Fin 4096) (c : Fin 32) (b : Fin 8) :
    val_main_v128 (F := Ideal) x0 x1 x2 x3 x4 x5 x6 x7 x8 (ix2 n (⟨c.val * 8 + b.val, by omega⟩ : Fin 256)) = cheb1 (supp (adjOf x2)) X b n c := by
  rw [val_main_v128_apply]
  unfold cheb1
  refine Finset.sum_congr rfl fun k _ => ?_
  have el : lidx_main_v128 (ix2 n (⟨c.val * 8 + b.val, by omega⟩ : Fin 256)) k = ix2 n k := funext fun a => Fin.ext (by match a with | ⟨0, _⟩ => rfl | ⟨1, _⟩ => rfl)
  have er : ridx_main_v128 (ix2 n (⟨c.val * 8 + b.val, by omega⟩ : Fin 256)) k = ix2 k (⟨c.val * 8 + b.val, by omega⟩ : Fin 256) := funext fun a => Fin.ext (by match a with | ⟨0, _⟩ => rfl | ⟨1, _⟩ => rfl)
  rw [el, er, v22_at, v127_at x0 x1 x2 x3 x4 x5 x6 x7 x8 x9 x10 X hX]

theorem v129_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (n : Fin 4096) (c : Fin 32) (b : Fin 8) :
    val_main_v129 (F := Ideal) x0 x1 x2 x3 x4 x5 x6 x7 x8 (ix2 n (⟨c.val * 8 + b.val, by omega⟩ : Fin 256)) = ∑ k : Fin 4096, supp (adjOf x2) n k * cheb1 (supp (adjOf x2)) X b k c := by
  rw [val_main_v129_apply]
  refine Finset.sum_congr rfl fun k _ => ?_
  have el : lidx_main_v129 (ix2 n (⟨c.val * 8 + b.val, by omega⟩ : Fin 256)) k = ix2 n k := funext fun a => Fin.ext (by match a with | ⟨0, _⟩ => rfl | ⟨1, _⟩ => rfl)
  have er : ridx_main_v129 (ix2 n (⟨c.val * 8 + b.val, by omega⟩ : Fin 256)) k = ix2 k (⟨c.val * 8 + b.val, by omega⟩ : Fin 256) := funext fun a => Fin.ext (by match a with | ⟨0, _⟩ => rfl | ⟨1, _⟩ => rfl)
  rw [el, er, v22_at, v128_at x0 x1 x2 x3 x4 x5 x6 x7 x8 x9 x10 X hX]

theorem v132_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (n : Fin 4096) (c : Fin 32) (b : Fin 8) :
    val_main_v132 (F := Ideal) x0 x1 x2 x3 x4 x5 x6 x7 x8 (ix2 n (⟨c.val * 8 + b.val, by omega⟩ : Fin 256)) = cheb2 (supp (adjOf x2)) X b n c := by
  rw [val_main_v132_apply, val_main_v131_apply, val_main_v130_apply, val_main_cst_11_apply,
    v129_at x0 x1 x2 x3 x4 x5 x6 x7 x8 x9 x10 X hX, v127_at x0 x1 x2 x3 x4 x5 x6 x7 x8 x9 x10 X hX]
  simp only [Ideal.subf_def, Ideal.mulf_def, Ideal.ofBits_def, ofBits_two_f32]
  rfl

theorem v136_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (mm : Fin 3) (n : Fin 4096) (c : Fin 32) (b : Fin 8) :
    val_main_v136 (F := Ideal) x0 x1 x2 x3 x4 x5 x6 x7 x8 (ix3 mm n (⟨c.val * 8 + b.val, by omega⟩ : Fin 256)) = cheb (supp (adjOf x2)) X mm b n c := by
  have e8 : idx_main_v133 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  have e9 : idx_main_v134 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  have e10 : idx_main_v135 (ix3 (0 : Fin 1) n (⟨c.val * 8 + b.val, by omega⟩ : Fin 256)) = ix2 n (⟨c.val * 8 + b.val, by omega⟩ : Fin 256) := funext fun a => Fin.ext (by match a with | ⟨0, _⟩ => rfl | ⟨1, _⟩ => rfl)
  unfold val_main_v136
  refine (concat3_first_apply _ _ _ _ mm n (⟨c.val * 8 + b.val, by omega⟩ : Fin 256)).trans ?_
  rw [val_main_v133_apply, val_main_v134_apply, val_main_v135_apply, e8, e9, e10,
    v127_at x0 x1 x2 x3 x4 x5 x6 x7 x8 x9 x10 X hX, v128_at x0 x1 x2 x3 x4 x5 x6 x7 x8 x9 x10 X hX, v132_at x0 x1 x2 x3 x4 x5 x6 x7 x8 x9 x10 X hX]
  rfl

theorem v139_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (b : Fin 8) (n : Fin 4096) (k : Fin 96) :
    val_main_v139 (F := Ideal) x0 x1 x2 x3 x4 x5 x6 x7 x8 (ix2 (⟨b.val * 4096 + n.val, by omega⟩ : Fin 32768) k)
      = cheb (supp (adjOf x2)) X ⟨k.val % 3, Nat.mod_lt _ (by norm_num)⟩ b n ⟨k.val / 3, by omega⟩ := by
  have e : idx_main_v137 (idx_main_v138 (idx_main_v139 (ix2 (⟨b.val * 4096 + n.val, by omega⟩ : Fin 32768) k)))
      = ix3 (⟨k.val % 3, Nat.mod_lt _ (by norm_num)⟩ : Fin 3) n (⟨k.val / 3 * 8 + b.val, by omega⟩ : Fin 256) :=
    funext fun a => Fin.ext (by
      match a with
      | ⟨0, _⟩ => exact (nat_xm_96 b.val n.val k.val b.isLt n.isLt k.isLt).1
      | ⟨1, _⟩ => exact (nat_xm_96 b.val n.val k.val b.isLt n.isLt k.isLt).2.1
      | ⟨2, _⟩ => exact (nat_xm_96 b.val n.val k.val b.isLt n.isLt k.isLt).2.2)
  rw [val_main_v139_apply, val_main_v138_apply, val_main_v137_apply, e]
  exact v136_at x0 x1 x2 x3 x4 x5 x6 x7 x8 x9 x10 X hX ⟨k.val % 3, Nat.mod_lt _ (by norm_num)⟩ n ⟨k.val / 3, by omega⟩ b

theorem v143_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (b : Fin 8) (n : Fin 4096) (o : Fin 16) :
    val_main_v143 (F := Ideal) x0 x1 x2 x3 x4 x5 x6 x7 x8 x9 x10 (ix2 (⟨b.val * 4096 + n.val, by omega⟩ : Fin 32768) o)
      = gconv (C := 32) (K := 96) (supp (adjOf x2)) rfl X (fun k o => x9 (ix2 k o)) (fun o => x10 (ix1 o)) b n o := by
  have eb : idx_main_v141 (idx_main_v142 (ix2 (⟨b.val * 4096 + n.val, by omega⟩ : Fin 32768) o)) = ix1 o :=
    funext fun a => Fin.ext (by match a with | ⟨0, _⟩ => rfl)
  rw [val_main_v143_apply, val_main_v140_apply, val_main_v142_apply, val_main_v141_apply, eb]
  unfold gconv
  simp only [Ideal.addf_def]
  refine congrArg (· + x10 (ix1 o)) (Finset.sum_congr rfl fun k _ => ?_)
  have el : lidx_main_v140 (ix2 (⟨b.val * 4096 + n.val, by omega⟩ : Fin 32768) o) k = ix2 (⟨b.val * 4096 + n.val, by omega⟩ : Fin 32768) k := funext fun a => Fin.ext (by match a with | ⟨0, _⟩ => rfl | ⟨1, _⟩ => rfl)
  have er : ridx_main_v140 (ix2 (⟨b.val * 4096 + n.val, by omega⟩ : Fin 32768) o) k = ix2 k o := funext fun a => Fin.ext (by match a with | ⟨0, _⟩ => rfl | ⟨1, _⟩ => rfl)
  rw [el, er, v139_at x0 x1 x2 x3 x4 x5 x6 x7 x8 x9 x10 X hX]

theorem v144_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (X : Fin 8 → Fin 4096 → Fin 32 → EReal)
    (hX : ∀ (b : Fin 8) (n : Fin 4096) (c : Fin 32), val_main_v125 (F := Ideal) x0 x1 x2 x3 x4 x5 x6 x7 x8 (ix3 b n c) = X b n c)
    (b : Fin 8) (n : Fin 4096) (o : Fin 16) :
    val_main_v144 (F := Ideal) x0 x1 x2 x3 x4 x5 x6 x7 x8 x9 x10 (ix2 b (⟨n.val * 16 + o.val, by omega⟩ : Fin 65536))
      = gconv (C := 32) (K := 96) (supp (adjOf x2)) rfl X (fun k o => x9 (ix2 k o)) (fun o => x10 (ix1 o)) b n o := by
  have e : idx_main_v144 (ix2 b (⟨n.val * 16 + o.val, by omega⟩ : Fin 65536)) = ix2 (⟨b.val * 4096 + n.val, by omega⟩ : Fin 32768) o :=
    funext fun a => Fin.ext (by
      match a with
      | ⟨0, _⟩ => show (b.val * 65536 + (n.val * 16 + o.val)) / 16 = b.val * 4096 + n.val; omega
      | ⟨1, _⟩ => show (b.val * 65536 + (n.val * 16 + o.val)) % 16 = o.val; omega)
  rw [val_main_v144_apply, e, v143_at x0 x1 x2 x3 x4 x5 x6 x7 x8 x9 x10 X hX]

end Cert.ReferenceIdeal.RefValue

end
-- ==== Proof.RefValueCell2.lean ====
/-
  The gates and the new state of the reference's second layer, stage by stage at an index, from ANY reading of the gate
  convolution's output, of the incoming state and of the candidate convolution's output.
-/
import proofs.«172830_g53506702573898_cont_9to1_m_1152_4_alg».proof.Proof.RefValueCell1

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-! ### The gates and the new state of layer 2: stages 111 to 150 -/

theorem v116_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (G : Fin 8 → Fin 4096 → Fin 32 → EReal)
    (hG : ∀ (b : Fin 8) (n : Fin 4096) (o : Fin 32), val_main_v110 (F := Ideal) x0 x1 x2 x3 x4 x5 x6 x7 x8 (ix2 b (⟨n.val * 32 + o.val, by omega⟩ : Fin 131072)) = G b n o)
    (b : Fin 8) (n : Fin 4096) (o : Fin 32) :
    val_main_v116 (F := Ideal) x0 x1 x2 x3 x4 x5 x6 x7 x8 (ix2 b (⟨n.val * 32 + o.val, by omega⟩ : Fin 131072)) = Cert.SpecRef.sig (G b n o) := by
  rw [val_main_v116_apply, val_main_v115_apply, val_main_v114_apply, val_main_v113_apply, val_main_v112_apply,
    val_main_v111_apply, val_main_cst_9_apply, val_main_cst_10_apply, hG]
  simp only [Ideal.hostDivf_def, Ideal.addf_def, Ideal.hostUnary_exp_def, Ideal.hostNegf_def, Ideal.negf_def, Ideal.ofBits_def,
    ofBits_one_f32]
  rfl

theorem v119_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (G : Fin 8 → Fin 4096 → Fin 32 → EReal)
    (hG : ∀ (b : Fin 8) (n : Fin 4096) (o : Fin 32), val_main_v110 (F := Ideal) x0 x1 x2 x3 x4 x5 x6 x7 x8 (ix2 b (⟨n.val * 32 + o.val, by omega⟩ : Fin 131072)) = G b n o)
    (b : Fin 8) (n : Fin 4096) (u : Fin 16) :
    val_main_v119 (F := Ideal) x0 x1 x2 x3 x4 x5 x6 x7 x8 (ix2 b (⟨n.val * 16 + u.val, by omega⟩ : Fin 65536)) = Cert.SpecRef.sig (G b n (⟨u.val, by omega⟩ : Fin 32)) := by
  have e : idx_main_v117 (idx_main_v118 (idx_main_v119 (ix2 b (⟨n.val * 16 + u.val, by omega⟩ : Fin 65536))))
      = ix2 b (⟨n.val * 32 + (u.val), by omega⟩ : Fin 131072) :=
    funext fun a => Fin.ext (by
      match a with
      | ⟨0, _⟩ => exact (nat_gate_lo b.val n.val u.val b.isLt n.isLt u.isLt).1
      | ⟨1, _⟩ => exact (nat_gate_lo b.val n.val u.val b.isLt n.isLt u.isLt).2)
  rw [val_main_v119_apply, val_main_v118_apply, val_main_v117_apply, e]
  exact v116_at x0 x1 x2 x3 x4 x5 x6 x7 x8 G hG b n (⟨u.val, by omega⟩ : Fin 32)

theorem v121_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (G : Fin 8 → Fin 4096 → Fin 32 → EReal)
    (hG : ∀ (b : Fin 8) (n : Fin 4096) (o : Fin 32), val_main_v110 (F := Ideal) x0 x1 x2 x3 x4 x5 x6 x7 x8 (ix2 b (⟨n.val * 32 + o.val, by omega⟩ : Fin 131072)) = G b n o)
    (b : Fin 8) (n : Fin 4096) (u : Fin 16) :
    val_main_v121 (F := Ideal) x0 x1 x2 x3 x4 x5 x6 x7 x8 (ix2 b (⟨n.val * 16 + u.val, by omega⟩ : Fin 65536)) = Cert.SpecRef.sig (G b n (⟨u.val + 16, by omega⟩ : Fin 32)) := by
  have e : idx_main_v117 (idx_main_v120 (idx_main_v121 (ix2 b (⟨n.val * 16 + u.val, by omega⟩ : Fin 65536))))
      = ix2 b (⟨n.val * 32 + (u.val + 16), by omega⟩ : Fin 131072) :=
    funext fun a => Fin.ext (by
      match a with
      | ⟨0, _⟩ => exact (nat_gate_hi b.val n.val u.val b.isLt n.isLt u.isLt).1
      | ⟨1, _⟩ => exact (nat_gate_hi b.val n.val u.val b.isLt n.isLt u.isLt).2)
  rw [val_main_v121_apply, val_main_v120_apply, val_main_v117_apply, e]
  exact v116_at x0 x1 x2 x3 x4 x5 x6 x7 x8 G hG b n (⟨u.val + 16, by omega⟩ : Fin 32)

theorem v124_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (G : Fin 8 → Fin 4096 → Fin 32 → EReal)
    (hG : ∀ (b : Fin 8) (n : Fin 4096) (o : Fin 32), val_main_v110 (F := Ideal) x0 x1 x2 x3 x4 x5 x6 x7 x8 (ix2 b (⟨n.val * 32 + o.val, by omega⟩ : Fin 131072)) = G b n o)
    (H : Fin 8 → Fin 4096 → Fin 16 → EReal)
    (hH : ∀ (b : Fin 8) (n : Fin 4096) (u : Fin 16), val_main_v88 (F := Ideal) x1 (ix2 b (⟨n.val * 16 + u.val, by omega⟩ : Fin 65536)) = H b n u)
    (b : Fin 8) (n : Fin 4096) (u : Fin 16) :
    val_main_v124 (F := Ideal) x0 x1 x2 x3 x4 x5 x6 x7 x8 (ix3 b n u) = Cert.SpecRef.sig (G b n (⟨u.val, by omega⟩ : Fin 32)) * H b n u := by
  have e : idx_main_v124 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v124_apply, e, val_main_v122_apply, v119_at x0 x1 x2 x3 x4 x5 x6 x7 x8 G hG, hH]
  rfl

theorem v150_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (G : Fin 8 → Fin 4096 → Fin 32 → EReal)
    (hG : ∀ (b : Fin 8) (n : Fin 4096) (o : Fin 32), val_main_v110 (F := Ideal) x0 x1 x2 x3 x4 x5 x6 x7 x8 (ix2 b (⟨n.val * 32 + o.val, by omega⟩ : Fin 131072)) = G b n o)
    (H : Fin 8 → Fin 4096 → Fin 16 → EReal)
    (hH : ∀ (b : Fin 8) (n : Fin 4096) (u : Fin 16), val_main_v88 (F := Ideal) x1 (ix2 b (⟨n.val * 16 + u.val, by omega⟩ : Fin 65536)) = H b n u)
    (Cc : Fin 8 → Fin 4096 → Fin 16 → EReal)
    (hC : ∀ (b : Fin 8) (n : Fin 4096) (u : Fin 16), val_main_v144 (F := Ideal) x0 x1 x2 x3 x4 x5 x6 x7 x8 x9 x10 (ix2 b (⟨n.val * 16 + u.val, by omega⟩ : Fin 65536)) = Cc b n u)
    (b : Fin 8) (n : Fin 4096) (u : Fin 16) :
    val_main_v150 (F := Ideal) x0 x1 x2 x3 x4 x5 x6 x7 x8 x9 x10 (ix2 b (⟨n.val * 16 + u.val, by omega⟩ : Fin 65536))
      = Cert.SpecRef.sig (G b n (⟨u.val + 16, by omega⟩ : Fin 32)) * H b n u + (1 - Cert.SpecRef.sig (G b n (⟨u.val + 16, by omega⟩ : Fin 32))) * Ideal.tanh (Cc b n u) := by
  rw [val_main_v150_apply, val_main_v149_apply, val_main_v148_apply, val_main_v147_apply, val_main_v146_apply,
    val_main_v145_apply, val_main_cst_12_apply, v121_at x0 x1 x2 x3 x4 x5 x6 x7 x8 G hG, hH, hC]
  simp only [Ideal.addf_def, Ideal.mulf_def, Ideal.subf_def, Ideal.hostUnary_tanh_def, Ideal.ofBits_def, ofBits_one_f32]

end Cert.ReferenceIdeal.RefValue

end
-- ==== Proof.RefValueL2.lean ====
/-
  The reference's second layer assembled, and the two results: layer 1's new state joined with the second incoming
  state into features, the gate convolution, the gates, the reset features, the candidate convolution, the new state —
  stage 150 is the specification's h2 — and the two results as the specification's out0 and out1.
-/
import proofs.«172830_g53506702573898_cont_9to1_m_1152_4_alg».proof.Proof.RefValueL1
import proofs.«172830_g53506702573898_cont_9to1_m_1152_4_alg».proof.Proof.RefValueConvD
import proofs.«172830_g53506702573898_cont_9to1_m_1152_4_alg».proof.Proof.RefValueCell2

noncomputable section

namespace Cert.ReferenceIdeal.RefValue

open Cert.ReferenceIdeal Cert.ReferenceIdeal.Gen Cert.ReferenceIdeal.ReadP Idealize.ShloMosaic Idealize.ShloMosaic.ValueIdx Cert.SpecRef Cert.RefValueLib

/-- Layer 2's incoming state, flat. -/
theorem v88_at (x1 : (⟨S2x8x65536, .f32⟩ : BufTy).Contents (Elt Ideal)) (b : Fin 8) (n : Fin 4096) (u : Fin 16) :
    val_main_v88 (F := Ideal) x1 (ix2 b (⟨n.val * 16 + u.val, by omega⟩ : Fin 65536)) = hidAt (hidOf x1) 1 b n u := by
  have e : idx_main_v87 (idx_main_v88 (ix2 b (⟨n.val * 16 + u.val, by omega⟩ : Fin 65536))) = ix3 (1 : Fin 2) b (flat16 n u) :=
    funext fun a => Fin.ext (by
      match a with
      | ⟨0, _⟩ => rfl
      | ⟨1, _⟩ => show (b.val * 65536 + (n.val * 16 + u.val)) / 65536 % 8 = b.val; omega
      | ⟨2, _⟩ => show (b.val * 65536 + (n.val * 16 + u.val)) % 65536 = n.val * 16 + u.val; omega)
  rw [val_main_v88_apply, val_main_v87_apply, e]
  rfl

/-- Layer 1's new state at (batch, node, unit). -/
theorem v89_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (b : Fin 8) (n : Fin 4096) (u : Fin 16) :
    val_main_v89 (F := Ideal) x0 x1 x2 x3 x4 x5 x6 (ix3 b n u) = (h1 (inpOf x0) (hidOf x1) (adjOf x2) (fun k o => x3 (ix2 k o)) (fun o => x4 (ix1 o)) (fun k o => x5 (ix2 k o)) (fun o => x6 (ix1 o))) b n u := by
  have e : idx_main_v89 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v89_apply, e, v86_h1]

/-- Layer 2's incoming state at (batch, node, unit). -/
theorem v90_at (x1 : (⟨S2x8x65536, .f32⟩ : BufTy).Contents (Elt Ideal)) (b : Fin 8) (n : Fin 4096) (u : Fin 16) :
    val_main_v90 (F := Ideal) x1 (ix3 b n u) = hidAt (hidOf x1) 1 b n u := by
  have e : idx_main_v90 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v90_apply, e, v88_at]

/-- Layer 2's gate features: layer 1's new state joined with the incoming state. -/
theorem v91_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (b : Fin 8) (n : Fin 4096) (c : Fin 32) :
    val_main_v91 (F := Ideal) x0 x1 x2 x3 x4 x5 x6 (ix3 b n c) = feat1 (h1 (inpOf x0) (hidOf x1) (adjOf x2) (fun k o => x3 (ix2 k o)) (fun o => x4 (ix1 o)) (fun k o => x5 (ix2 k o)) (fun o => x6 (ix1 o))) (hidAt (hidOf x1) 1) b n c := by
  unfold val_main_v91
  refine (concat_last_apply _ _ _ (by norm_num) b n c).trans ?_
  unfold feat1
  by_cases hc : c.val < 16
  · rw [dif_pos hc, dif_pos hc]
    exact v89_at x0 x1 x2 x3 x4 x5 x6 b n ⟨c.val, hc⟩
  · rw [dif_neg hc, dif_neg hc]
    exact v90_at x1 b n ⟨c.val - 16, by omega⟩

/-- Layer 2's gate convolution, as the specification's. -/
abbrev G2 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) : Fin 8 → Fin 4096 → Fin 32 → EReal :=
  gconv (C := 32) (K := 96) (supp (adjOf x2)) rfl (feat1 (h1 (inpOf x0) (hidOf x1) (adjOf x2) (fun k o => x3 (ix2 k o)) (fun o => x4 (ix1 o)) (fun k o => x5 (ix2 k o)) (fun o => x6 (ix1 o))) (hidAt (hidOf x1) 1)) (fun k o => x7 (ix2 k o)) (fun o => x8 (ix1 o))

theorem v110_G2 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (b : Fin 8) (n : Fin 4096) (o : Fin 32) :
    val_main_v110 (F := Ideal) x0 x1 x2 x3 x4 x5 x6 x7 x8 (ix2 b (⟨n.val * 32 + o.val, by omega⟩ : Fin 131072)) = G2 x0 x1 x2 x3 x4 x5 x6 x7 x8 b n o :=
  v110_at x0 x1 x2 x3 x4 x5 x6 x7 x8 _ (v91_at x0 x1 x2 x3 x4 x5 x6) b n o

/-- Layer 1's new state at (batch, node, unit), read again for the candidate features. -/
theorem v123_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (b : Fin 8) (n : Fin 4096) (u : Fin 16) :
    val_main_v123 (F := Ideal) x0 x1 x2 x3 x4 x5 x6 (ix3 b n u) = (h1 (inpOf x0) (hidOf x1) (adjOf x2) (fun k o => x3 (ix2 k o)) (fun o => x4 (ix1 o)) (fun k o => x5 (ix2 k o)) (fun o => x6 (ix1 o))) b n u := by
  have e : idx_main_v123 (ix3 b n u) = ix2 b (⟨n.val * 16 + u.val, by omega⟩ : Fin 65536) :=
    funext fun a => Fin.ext (by
      match a with
      | ⟨0, _⟩ => show ((b.val * 4096 + n.val) * 16 + u.val) / 65536 = b.val; omega
      | ⟨1, _⟩ => show ((b.val * 4096 + n.val) * 16 + u.val) % 65536 = n.val * 16 + u.val; omega)
  rw [val_main_v123_apply, e, v86_h1]

/-- Layer 2's candidate features: layer 1's new state joined with the reset state. -/
abbrev X4 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) : Fin 8 → Fin 4096 → Fin 32 → EReal :=
  feat1 (h1 (inpOf x0) (hidOf x1) (adjOf x2) (fun k o => x3 (ix2 k o)) (fun o => x4 (ix1 o)) (fun k o => x5 (ix2 k o)) (fun o => x6 (ix1 o))) (fun b n u => Cert.SpecRef.sig (G2 x0 x1 x2 x3 x4 x5 x6 x7 x8 b n (⟨u.val, by omega⟩ : Fin 32)) * hidAt (hidOf x1) 1 b n u)

theorem v125_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (b : Fin 8) (n : Fin 4096) (c : Fin 32) :
    val_main_v125 (F := Ideal) x0 x1 x2 x3 x4 x5 x6 x7 x8 (ix3 b n c) = X4 x0 x1 x2 x3 x4 x5 x6 x7 x8 b n c := by
  unfold val_main_v125
  refine (concat_last_apply _ _ _ (by norm_num) b n c).trans ?_
  unfold X4 feat1
  by_cases hc : c.val < 16
  · rw [dif_pos hc, dif_pos hc]
    exact v123_at x0 x1 x2 x3 x4 x5 x6 b n ⟨c.val, hc⟩
  · rw [dif_neg hc, dif_neg hc]
    exact v124_at x0 x1 x2 x3 x4 x5 x6 x7 x8 (G2 x0 x1 x2 x3 x4 x5 x6 x7 x8) (v110_G2 x0 x1 x2 x3 x4 x5 x6 x7 x8) (hidAt (hidOf x1) 1) (v88_at x1) b n ⟨c.val - 16, by omega⟩

/-- Stage 150, flat over (node, unit), is the specification's second new state. -/
theorem v150_h2 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (b : Fin 8) (n : Fin 4096) (u : Fin 16) :
    val_main_v150 (F := Ideal) x0 x1 x2 x3 x4 x5 x6 x7 x8 x9 x10 (ix2 b (⟨n.val * 16 + u.val, by omega⟩ : Fin 65536))
      = h2 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) b n u := by
  rw [v150_at x0 x1 x2 x3 x4 x5 x6 x7 x8 x9 x10 (G2 x0 x1 x2 x3 x4 x5 x6 x7 x8) (v110_G2 x0 x1 x2 x3 x4 x5 x6 x7 x8) (hidAt (hidOf x1) 1) (v88_at x1)
    (gconv (C := 32) (K := 96) (supp (adjOf x2)) rfl (X4 x0 x1 x2 x3 x4 x5 x6 x7 x8) (fun k o => x9 (ix2 k o)) (fun o => x10 (ix1 o)))
    (v144_at x0 x1 x2 x3 x4 x5 x6 x7 x8 x9 x10 _ (v125_at x0 x1 x2 x3 x4 x5 x6 x7 x8)) b n u]
  rfl

/-! ### The two results -/

/-- A flat position is (its node) * 16 + (its unit). -/
theorem flat_split (j : Fin 65536) :
    (⟨(node16 j).val * 16 + (unit16 j).val, by have := (node16 j).isLt; have := (unit16 j).isLt; omega⟩ : Fin 65536) = j :=
  flat16_node16_unit16 j

/-- Stage 86 at any flat position. -/
theorem v86_flat (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (b : Fin 8) (j : Fin 65536) :
    val_main_v86 (F := Ideal) x0 x1 x2 x3 x4 x5 x6 (ix2 b j) = (h1 (inpOf x0) (hidOf x1) (adjOf x2) (fun k o => x3 (ix2 k o)) (fun o => x4 (ix1 o)) (fun k o => x5 (ix2 k o)) (fun o => x6 (ix1 o))) b (node16 j) (unit16 j) := by
  have h := v86_h1 x0 x1 x2 x3 x4 x5 x6 b (node16 j) (unit16 j)
  rw [flat_split j] at h
  exact h

/-- The first result is the specification's out0. -/
theorem out0_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (b : Fin 8) (j : Fin 65536) :
    val_main_v150 (F := Ideal) x0 x1 x2 x3 x4 x5 x6 x7 x8 x9 x10 (ix2 b j)
      = out0 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) b j := by
  have h := v150_h2 x0 x1 x2 x3 x4 x5 x6 x7 x8 x9 x10 b (node16 j) (unit16 j)
  rw [flat_split j] at h
  exact h

/-- The second result is the specification's out1. -/
theorem out1_at (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) (l : Fin 2) (b : Fin 8) (j : Fin 65536) :
    val_main_v153 (F := Ideal) x0 x1 x2 x3 x4 x5 x6 x7 x8 x9 x10 (ix3 l b j)
      = out1 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) l b j := by
  have e1 : idx_main_v151 (ix3 (0 : Fin 1) b j) = ix2 b j :=
    funext fun a => Fin.ext (by match a with | ⟨0, _⟩ => rfl | ⟨1, _⟩ => rfl)
  have e2 : idx_main_v152 (ix3 (0 : Fin 1) b j) = ix2 b j :=
    funext fun a => Fin.ext (by match a with | ⟨0, _⟩ => rfl | ⟨1, _⟩ => rfl)
  unfold val_main_v153
  refine (concat2_first_apply _ _ _ l b j).trans ?_
  rw [val_main_v151_apply, val_main_v152_apply, e1, e2, v86_flat, out0_at]
  rfl

/-- The first result as a whole array. -/
theorem res0_eq (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) :
    val_main_v150 (F := Ideal) x0 x1 x2 x3 x4 x5 x6 x7 x8 x9 x10
      = fun i => out0 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) (i 0) (i 1) := by
  funext i
  rw [eq_ix2 i]
  exact out0_at x0 x1 x2 x3 x4 x5 x6 x7 x8 x9 x10 (i 0) (i 1)

/-- The second result as a whole array. -/
theorem res1_eq (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) :
    val_main_v153 (F := Ideal) x0 x1 x2 x3 x4 x5 x6 x7 x8 x9 x10
      = fun i => out1 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) (i 0) (i 1) (i 2) := by
  funext i
  rw [eq_ix3 i]
  exact out1_at x0 x1 x2 x3 x4 x5 x6 x7 x8 x9 x10 (i 0) (i 1) (i 2)

end Cert.ReferenceIdeal.RefValue

end
-- ==== Proof.RefSpecRun.lean ====
/-
  The reference program's run with its two results stated by the specification: every weakly fair execution of @main
  terminates with the first result at the specification's out0 and the second at its out1 of the argument arrays read
  at their coordinates, the arguments unchanged.
-/
import proofs.«172830_g53506702573898_cont_9to1_m_1152_4_alg».proof.Proof.RefRun
import proofs.«172830_g53506702573898_cont_9to1_m_1152_4_alg».proof.Proof.RefValueL2

noncomputable section

namespace Cert.ReferenceIdeal.RefValue

open Cert.ReferenceIdeal Cert.ReferenceIdeal.Gen Cert.ReferenceIdeal.ValueP Cert.ReferenceIdeal.ReadP Cert.ReferenceIdeal.LineP Idealize.ShloMosaic Idealize.ShloMosaic.TcCoe Idealize.SL.Sem Idealize.ShloMosaic.StableHlo Idealize.ShloMosaic.ValueIdx Cert.SpecRef

/-- The specification's first result as an array over the result's index set, from the eleven argument arrays. -/
def specOut0 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) : (⟨S8x65536, .f32⟩ : BufTy).Contents (Elt Ideal) :=
  fun i => out0 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) (i 0) (i 1)

/-- The specification's second result as an array over the result's index set, from the eleven argument arrays. -/
def specOut1 (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) : (⟨S2x8x65536, .f32⟩ : BufTy).Contents (Elt Ideal) :=
  fun i => out1 (inpOf x0) (hidOf x1) (adjOf x2) (fun k o => x3 (ix2 k o)) (fun o => x4 (ix1 o)) (fun k o => x5 (ix2 k o)) (fun o => x6 (ix1 o)) (fun k o => x7 (ix2 k o)) (fun o => x8 (ix1 o)) (fun k o => x9 (ix2 k o)) (fun o => x10 (ix1 o)) (i 0) (i 1) (i 2)

theorem val_main_v150_eq_spec (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) : val_main_v150 (F := Ideal) x0 x1 x2 x3 x4 x5 x6 x7 x8 x9 x10 = specOut0 x0 x1 x2 x3 x4 x5 x6 x7 x8 x9 x10 :=
  res0_eq x0 x1 x2 x3 x4 x5 x6 x7 x8 x9 x10

theorem val_main_v153_eq_spec (x0 : (⟨S8x4096, .f32⟩ : BufTy).Contents (Elt Ideal)) (x1 : (⟨S2x8x65536, .f32⟩ : BufTy).Contents (Elt Ideal)) (x2 : (⟨S4096x4096, .f32⟩ : BufTy).Contents (Elt Ideal)) (x3 : (⟨S51x32, .f32⟩ : BufTy).Contents (Elt Ideal)) (x4 : (⟨S32, .f32⟩ : BufTy).Contents (Elt Ideal)) (x5 : (⟨S51x16, .f32⟩ : BufTy).Contents (Elt Ideal)) (x6 : (⟨S16, .f32⟩ : BufTy).Contents (Elt Ideal)) (x7 : (⟨S96x32, .f32⟩ : BufTy).Contents (Elt Ideal)) (x8 : (⟨S32, .f32⟩ : BufTy).Contents (Elt Ideal)) (x9 : (⟨S96x16, .f32⟩ : BufTy).Contents (Elt Ideal)) (x10 : (⟨S16, .f32⟩ : BufTy).Contents (Elt Ideal)) : val_main_v153 (F := Ideal) x0 x1 x2 x3 x4 x5 x6 x7 x8 x9 x10 = specOut1 x0 x1 x2 x3 x4 x5 x6 x7 x8 x9 x10 :=
  res1_eq x0 x1 x2 x3 x4 x5 x6 x7 x8 x9 x10

/-- The reference's run, its results the specification's. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v150) = specOut0 (A0 m c) (A1 m c) (A2 m c) (A3 m c) (A4 m c) (A5 m c) (A6 m c) (A7 m c) (A8 m c) (A9 m c) (A10 m c)
      ∧ r.2.mem ((c.tc : Thread nD τ).loc main_v153) = specOut1 (A0 m c) (A1 m c) (A2 m c) (A3 m c) (A4 m c) (A5 m c) (A6 m c) (A7 m c) (A8 m c) (A9 m c) (A10 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c =>
    ⟨(h c).1.trans (val_main_v150_eq_spec _ _ _ _ _ _ _ _ _ _ _), (h c).2.1.trans (val_main_v153_eq_spec _ _ _ _ _ _ _ _ _ _ _), (h c).2.2⟩)
    (run_vals (F := Ideal) m ρ)

end Cert.ReferenceIdeal.RefValue

end
-- ==== Proof.SpecKer.lean ====
/-
  The kernel's mathematics as plain functions of Fin-indexed arguments over the extended reals, arranged as the
  kernel arranges it, one definition per stage.

  * build: the symmetrised adjacency is walked in 8 column blocks of 512; a row's degree is the sum of its 8 partial
    row sums (`degK`), and `disK` is the guarded reciprocal square root of that degree.
  * features are node-major and padded to 32 lanes: `x n b c` at (node n, batch b, lane c).
  * one diffusion apply (`sapply c1 c2 x z`): the features are scaled by `disK` at their node, multiplied by the
    symmetrised adjacency block by block (8 partial products of 512 nodes each, added up), and the result at node p is
    `c1 * disK p * (the product) + c2 * z p`.  The two Chebyshev terms are `term1 x = sapply (-1) 0 x x` and
    `term2 x = sapply (-2) (-1) (term1 x) x`.
  * weights: row `c * 3 + m` of a weight matrix goes to block m, lane c (`prepW`); lanes from `C` on are zero.  The gate
    weights are split into the reset half (output units 0..15) and the update half (16..31), and so is the gate bias.
  * combine (`acc3`): the bias, plus the three products of the three terms with their weight blocks, added one after
    the other: `((bias + x0·P0) + x1·P1) + x2·P2`.
  * gate stage: `rK`, `uK` are the logistic of the two accumulations, `rhK = rK * hx`.
  * candidate stage: `cK` is the hyperbolic tangent of the accumulation over the features rebuilt from `rhK`, and the
    new state is `cellK = uK * hx + (1 - uK) * cK`.
  * layer 1 has lane 0 the input, lanes 1..16 the state, lanes 17..31 zero; layer 2 has lanes 0..15 layer 1's new
    state and lanes 16..31 the state.  The results are read back batch-major: position `n * 16 + u` of batch row b.

  The degree and the product are written as double sums over (block, position in block); a left fold from zero that
  adds one block's partial sum per step equals such a sum in any commutative additive monoid.
-/
import proofs.«172830_g53506702573898_cont_9to1_m_1152_4_alg».proof.Proof.SpecRef

noncomputable section

open scoped BigOperators

namespace Cert.SpecKer

open Idealize.ShloMosaic
open Cert.SpecRef

/-- The `k`-th node of block `b`: node `b * 512 + k`. -/
def blk (b : Fin 8) (k : Fin 512) : Fin 4096 := ⟨b.val * 512 + k.val, by omega⟩

/-! ## build -/

section Build
variable (adj : Fin 4096 → Fin 4096 → EReal)

/-- A node's degree: the 8 partial row sums of the symmetrised adjacency, added up. -/
def degK (p : Fin 4096) : EReal := ∑ b : Fin 8, ∑ k : Fin 512, amax adj p (blk b k)
/-- The inverse square root of a positive degree (floored at `eps`), and zero at a degree that is not positive. -/
def disK (p : Fin 4096) : EReal := if 0 < degK adj p then Ideal.rsqrt (max (degK adj p) eps) else 0

end Build

/-! ## one diffusion apply -/

section Sapply
variable (adj : Fin 4096 → Fin 4096 → EReal)

/-- `c1 * disK p * (A (disK · x)) p + c2 * z p`, the product accumulated over the 8 blocks. -/
def sapply (c1 c2 : EReal) (x z : Fin 4096 → Fin 8 → Fin 32 → EReal) (p : Fin 4096) (b : Fin 8) (c : Fin 32) : EReal :=
  c1 * disK adj p
      * (∑ j : Fin 8, ∑ k : Fin 512, amax adj p (blk j k) * (x (blk j k) b c * disK adj (blk j k)))
    + c2 * z p b c
/-- The first Chebyshev term. -/
def term1 (x : Fin 4096 → Fin 8 → Fin 32 → EReal) : Fin 4096 → Fin 8 → Fin 32 → EReal := sapply adj (-1) 0 x x
/-- The second Chebyshev term. -/
def term2 (x : Fin 4096 → Fin 8 → Fin 32 → EReal) : Fin 4096 → Fin 8 → Fin 32 → EReal :=
  sapply adj (-2) (-1) (term1 adj x) x

end Sapply

/-! ## weights and the combine stage -/

/-- Block m, lane c of the split, zero-padded weights: row `c * 3 + m` for a live lane, zero for a padded one. -/
def prepW {C K O : Nat} (hK : K = C * 3) (W : Fin K → Fin O → EReal) (m : Fin 3) (c : Fin 32) (o : Fin O) : EReal :=
  if h : c.val < C then W ⟨c.val * 3 + m.val, by have := m.isLt; omega⟩ o else 0

/-- The bias plus the three products, added one after the other. -/
def acc3 {O : Nat} (bias : Fin O → EReal) (P : Fin 3 → Fin 32 → Fin O → EReal)
    (x0 x1 x2 : Fin 4096 → Fin 8 → Fin 32 → EReal) (n : Fin 4096) (b : Fin 8) (o : Fin O) : EReal :=
  ((bias o + ∑ c : Fin 32, x0 n b c * P 0 c o) + ∑ c : Fin 32, x1 n b c * P 1 c o) + ∑ c : Fin 32, x2 n b c * P 2 c o

/-- The accumulation of one graph convolution: the three terms of the features against the weight blocks. -/
def gconvK {O : Nat} (adj : Fin 4096 → Fin 4096 → EReal) (bias : Fin O → EReal) (P : Fin 3 → Fin 32 → Fin O → EReal)
    (x : Fin 4096 → Fin 8 → Fin 32 → EReal) : Fin 4096 → Fin 8 → Fin O → EReal :=
  acc3 bias P x (term1 adj x) (term2 adj x)

/-! ## one cell -/

/-- The reset half of a gate bias: output units 0..15. -/
def br (bg : Fin 32 → EReal) (u : Fin 16) : EReal := bg ⟨u.val, by omega⟩
/-- The update half of a gate bias: output units 16..31. -/
def bu (bg : Fin 32 → EReal) (u : Fin 16) : EReal := bg ⟨u.val + 16, by omega⟩

section Cell
variable {C K : Nat} (hK : K = C * 3) (adj : Fin 4096 → Fin 4096 → EReal)
  (featK : (Fin 4096 → Fin 8 → Fin 16 → EReal) → Fin 4096 → Fin 8 → Fin 32 → EReal)
  (hx : Fin 4096 → Fin 8 → Fin 16 → EReal)
  (Wg : Fin K → Fin 32 → EReal) (bg : Fin 32 → EReal) (Wc : Fin K → Fin 16 → EReal) (bc : Fin 16 → EReal)

/-- The reset half of the gate weights: output units 0..15. -/
def wr (m : Fin 3) (c : Fin 32) (u : Fin 16) : EReal := prepW hK Wg m c ⟨u.val, by omega⟩
/-- The update half: output units 16..31. -/
def wu (m : Fin 3) (c : Fin 32) (u : Fin 16) : EReal := prepW hK Wg m c ⟨u.val + 16, by omega⟩

/-- The reset gate. -/
def rK (n : Fin 4096) (b : Fin 8) (u : Fin 16) : EReal :=
  Ideal.logistic (gconvK adj (br bg) (wr hK Wg) (featK hx) n b u)
/-- The update gate. -/
def uK (n : Fin 4096) (b : Fin 8) (u : Fin 16) : EReal :=
  Ideal.logistic (gconvK adj (bu bg) (wu hK Wg) (featK hx) n b u)
/-- The reset state. -/
def rhK (n : Fin 4096) (b : Fin 8) (u : Fin 16) : EReal := rK hK adj featK hx Wg bg n b u * hx n b u
/-- The candidate. -/
def cK (n : Fin 4096) (b : Fin 8) (u : Fin 16) : EReal :=
  Ideal.tanh (gconvK adj bc (prepW hK Wc) (featK (rhK hK adj featK hx Wg bg)) n b u)
/-- The new state. -/
def cellK (n : Fin 4096) (b : Fin 8) (u : Fin 16) : EReal :=
  uK hK adj featK hx Wg bg n b u * hx n b u + (1 - uK hK adj featK hx Wg bg n b u) * cK hK adj featK hx Wg bg Wc bc n b u

end Cell

/-! ## the two layers -/

section Model
variable (inp : Fin 8 → Fin 4096 → EReal) (hid : Fin 2 → Fin 8 → Fin 65536 → EReal) (adj : Fin 4096 → Fin 4096 → EReal)
  (W0g : Fin 51 → Fin 32 → EReal) (b0g : Fin 32 → EReal) (W0c : Fin 51 → Fin 16 → EReal) (b0c : Fin 16 → EReal)
  (W1g : Fin 96 → Fin 32 → EReal) (b1g : Fin 32 → EReal) (W1c : Fin 96 → Fin 16 → EReal) (b1c : Fin 16 → EReal)

/-- Layer l's incoming state, node-major. -/
def hxK (l : Fin 2) (n : Fin 4096) (b : Fin 8) (u : Fin 16) : EReal := hidAt hid l b n u

/-- Layer 1's padded features: lane 0 the input, lanes 1..16 a state, lanes 17..31 zero. -/
def featK0 (st : Fin 4096 → Fin 8 → Fin 16 → EReal) (n : Fin 4096) (b : Fin 8) (c : Fin 32) : EReal :=
  if c.val < 1 then inp b n else if hc : c.val < 17 then st n b ⟨c.val - 1, by omega⟩ else 0
/-- Layer 2's features: lanes 0..15 layer 1's new state, lanes 16..31 a state. -/
def featK1 (cur : Fin 4096 → Fin 8 → Fin 16 → EReal) (st : Fin 4096 → Fin 8 → Fin 16 → EReal) (n : Fin 4096) (b : Fin 8)
    (c : Fin 32) : EReal :=
  if hc : c.val < 16 then cur n b ⟨c.val, hc⟩ else st n b ⟨c.val - 16, by omega⟩

/-- Layer 1's new state, node-major. -/
def nh1 : Fin 4096 → Fin 8 → Fin 16 → EReal :=
  cellK (C := 17) (K := 51) rfl adj (featK0 inp) (hxK hid 0) W0g b0g W0c b0c
/-- Layer 2's new state, node-major. -/
def nh2 : Fin 4096 → Fin 8 → Fin 16 → EReal :=
  cellK (C := 32) (K := 96) rfl adj (featK1 (nh1 inp hid adj W0g b0g W0c b0c)) (hxK hid 1) W1g b1g W1c b1c

/-- The first result: layer 2's new state, each batch row flat over (node, unit). -/
def outK0 (b : Fin 8) (j : Fin 65536) : EReal :=
  nh2 inp hid adj W0g b0g W0c b0c W1g b1g W1c b1c (node16 j) b (unit16 j)
/-- The second result: both layers' new states, stacked. -/
def outK1 (l : Fin 2) (b : Fin 8) (j : Fin 65536) : EReal :=
  if l.val = 0 then nh1 inp hid adj W0g b0g W0c b0c (node16 j) b (unit16 j)
  else nh2 inp hid adj W0g b0g W0c b0c W1g b1g W1c b1c (node16 j) b (unit16 j)

end Model

end Cert.SpecKer

end
-- ==== Proof.AlgCoe.lean ====
/-
  Extended reals that are real numbers.

  The extended reals carry a commutative, associative addition and multiplication, but multiplication
  distributes over addition only when the terms are finite.  `IsFin x` says that `x` is a real number; it is
  an abbreviation of `∃ r : ℝ, x = (r : EReal)`, so a hypothesis of that form can be used wherever `IsFin` is
  asked for.  This file has the closure of `IsFin` under the arithmetic operations and finite sums, the
  commutation of the coercion with finite sums, and the distributive laws for finite terms.
-/
import Mathlib.Data.EReal.Operations
import Mathlib.Data.EReal.Inv
import Mathlib.Algebra.BigOperators.Fin

open scoped BigOperators

namespace Alg

/-- The extended real `x` is a real number. -/
abbrev IsFin (x : EReal) : Prop := ∃ r : ℝ, x = (r : EReal)

theorem isFin_coe (r : ℝ) : IsFin (r : EReal) := ⟨r, rfl⟩
theorem isFin_zero : IsFin 0 := ⟨0, rfl⟩
theorem isFin_one : IsFin 1 := ⟨1, rfl⟩

theorem IsFin.ne_top {x : EReal} (h : IsFin x) : x ≠ ⊤ := by
  obtain ⟨r, rfl⟩ := h; exact EReal.coe_ne_top r
theorem IsFin.ne_bot {x : EReal} (h : IsFin x) : x ≠ ⊥ := by
  obtain ⟨r, rfl⟩ := h; exact EReal.coe_ne_bot r

/-- Finite means: neither infinity. -/
theorem isFin_iff {x : EReal} : IsFin x ↔ x ≠ ⊥ ∧ x ≠ ⊤ := by
  constructor
  · exact fun h => ⟨h.ne_bot, h.ne_top⟩
  · rintro ⟨hb, ht⟩
    induction x using EReal.rec with
    | bot => exact absurd rfl hb
    | top => exact absurd rfl ht
    | coe r => exact ⟨r, rfl⟩

theorem IsFin.add {x y : EReal} (hx : IsFin x) (hy : IsFin y) : IsFin (x + y) := by
  obtain ⟨a, rfl⟩ := hx; obtain ⟨b, rfl⟩ := hy; exact ⟨a + b, (EReal.coe_add a b).symm⟩
theorem IsFin.sub {x y : EReal} (hx : IsFin x) (hy : IsFin y) : IsFin (x - y) := by
  obtain ⟨a, rfl⟩ := hx; obtain ⟨b, rfl⟩ := hy; exact ⟨a - b, (EReal.coe_sub a b).symm⟩
theorem IsFin.mul {x y : EReal} (hx : IsFin x) (hy : IsFin y) : IsFin (x * y) := by
  obtain ⟨a, rfl⟩ := hx; obtain ⟨b, rfl⟩ := hy; exact ⟨a * b, (EReal.coe_mul a b).symm⟩
theorem IsFin.neg {x : EReal} (hx : IsFin x) : IsFin (-x) := by
  obtain ⟨a, rfl⟩ := hx; exact ⟨-a, (EReal.coe_neg a).symm⟩
theorem IsFin.max {x y : EReal} (hx : IsFin x) (hy : IsFin y) : IsFin (max x y) := by
  rcases max_choice x y with h | h <;> rw [h] <;> assumption
theorem IsFin.min {x y : EReal} (hx : IsFin x) (hy : IsFin y) : IsFin (min x y) := by
  rcases min_choice x y with h | h <;> rw [h] <;> assumption
theorem IsFin.ite {p : Prop} [Decidable p] {x y : EReal} (hx : IsFin x) (hy : IsFin y) :
    IsFin (if p then x else y) := by
  split <;> assumption

/-- The numerals `-1`, `2`, `-2` of the extended reals are the real ones. -/
theorem neg_one_eq : (-1 : EReal) = ((-1 : ℝ) : EReal) := by
  rw [EReal.coe_neg, EReal.coe_one]
theorem two_eq : (2 : EReal) = ((2 : ℝ) : EReal) := by
  rw [← one_add_one_eq_two, ← one_add_one_eq_two, EReal.coe_add, EReal.coe_one]
theorem neg_two_eq : (-2 : EReal) = ((-2 : ℝ) : EReal) := by
  rw [EReal.coe_neg, two_eq]

theorem isFin_neg_one : IsFin (-1) := ⟨-1, neg_one_eq⟩
theorem isFin_two : IsFin 2 := ⟨2, two_eq⟩
theorem isFin_neg_two : IsFin (-2) := ⟨-2, neg_two_eq⟩

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A finite sum of finite terms is finite. -/
theorem isFin_sum {ι : Type*} (s : Finset ι) (f : ι → EReal) (hf : ∀ i ∈ s, IsFin (f i)) :
    IsFin (∑ i ∈ s, f i) :=
  Finset.sum_induction f IsFin (fun _ _ => IsFin.add) isFin_zero hf

/-- A sum over a whole finite type of finite terms is finite. -/
theorem isFin_sum_univ {ι : Type*} [Fintype ι] (f : ι → EReal) (hf : ∀ i, IsFin (f i)) :
    IsFin (∑ i, f i) :=
  isFin_sum _ f (fun i _ => hf i)

/-- A family of finite extended reals is the coercion of a family of reals. -/
theorem exists_real_family {ι : Type*} (f : ι → EReal) (hf : ∀ i, IsFin (f i)) :
    ∃ g : ι → ℝ, f = fun i => (g i : EReal) := by
  choose g hg using hf
  exact ⟨g, funext hg⟩

theorem exists_real_family₂ {ι κ : Type*} (f : ι → κ → EReal) (hf : ∀ i j, IsFin (f i j)) :
    ∃ g : ι → κ → ℝ, f = fun i j => (g i j : EReal) := by
  choose g hg using hf
  exact ⟨g, funext fun i => funext (hg i)⟩

/-- Multiplication distributes over the sum of two finite terms, on either side. -/
theorem mul_add_of_fin {a b c : EReal} (ha : IsFin a) (hb : IsFin b) (hc : IsFin c) :
    a * (b + c) = a * b + a * c := by
  obtain ⟨x, rfl⟩ := ha; obtain ⟨y, rfl⟩ := hb; obtain ⟨z, rfl⟩ := hc
  rw [← EReal.coe_add, ← EReal.coe_mul, ← EReal.coe_mul, ← EReal.coe_mul, ← EReal.coe_add, mul_add]

theorem add_mul_of_fin {a b c : EReal} (ha : IsFin a) (hb : IsFin b) (hc : IsFin c) :
    (a + b) * c = a * c + b * c := by
  rw [mul_comm, mul_add_of_fin hc ha hb, mul_comm c a, mul_comm c b]

/-- A finite factor distributes over a finite sum of finite terms. -/
theorem mul_sum_of_fin {ι : Type*} (s : Finset ι) (f : ι → EReal) (c : EReal)
    (hf : ∀ i ∈ s, IsFin (f i)) (hc : IsFin c) : c * ∑ i ∈ s, f i = ∑ i ∈ s, c * f i := by
  classical
  induction s using Finset.induction_on with
  | empty => simp
  | insert a s ha ih =>
    rw [Finset.sum_insert ha, Finset.sum_insert ha,
      mul_add_of_fin hc (hf a (Finset.mem_insert_self a s))
        (isFin_sum s f (fun i hi => hf i (Finset.mem_insert_of_mem hi))),
      ih (fun i hi => hf i (Finset.mem_insert_of_mem hi))]

theorem sum_mul_of_fin {ι : Type*} (s : Finset ι) (f : ι → EReal) (c : EReal)
    (hf : ∀ i ∈ s, IsFin (f i)) (hc : IsFin c) : (∑ i ∈ s, f i) * c = ∑ i ∈ s, f i * c := by
  rw [mul_comm, mul_sum_of_fin s f c hf hc]
  exact Finset.sum_congr rfl fun i _ => mul_comm c (f i)

/-- The negative of a finite sum of finite terms is the sum of the negatives. -/
theorem neg_sum_of_fin {ι : Type*} (s : Finset ι) (f : ι → EReal) (hf : ∀ i ∈ s, IsFin (f i)) :
    -∑ i ∈ s, f i = ∑ i ∈ s, -f i := by
  have h := mul_sum_of_fin s f (-1) hf isFin_neg_one
  simpa only [neg_one_mul] using h

/-- Subtracting a finite term is adding its negative, and a difference of finite terms times a finite
    factor distributes. -/
theorem sub_eq_add_neg_one_mul (a b : EReal) : a - b = a + (-1) * b := by
  rw [neg_one_mul, sub_eq_add_neg]

end Alg
-- ==== Proof.AlgDiffusion.lean ====
/-
  The two diffusion steps of a Chebyshev graph convolution, in two arrangements.

  One side forms the scaled Laplacian support entrywise, `S i j = (e i j - (d i * a i j) * d j) - e i j` (identity
  minus the symmetrically normalised adjacency, minus the identity), and multiplies features by it.  The other
  side never forms `S`: it scales the features by `d`, multiplies by the adjacency `a`, scales the rows by `d`
  again and by a constant, and adds a constant multiple of a second feature.  With every entry finite the two
  agree; the finiteness is what lets a factor move across the sum.
-/
import proofs.«172830_g53506702573898_cont_9to1_m_1152_4_alg».proof.Proof.AlgCoe

open scoped BigOperators

namespace Alg

/-- One entry of the support: the identity entry cancels. -/
theorem support_entry {e di a dj : EReal} (he : IsFin e) (hdi : IsFin di) (ha : IsFin a) (hdj : IsFin dj) :
    (e - (di * a) * dj) - e = -((di * a) * dj) := by
  obtain ⟨e, rfl⟩ := he; obtain ⟨x, rfl⟩ := hdi; obtain ⟨y, rfl⟩ := ha; obtain ⟨z, rfl⟩ := hdj
  rw [← EReal.coe_mul, ← EReal.coe_mul, ← EReal.coe_sub, ← EReal.coe_sub, ← EReal.coe_neg]
  congr 1
  ring

section

variable {ι : Type*} [Fintype ι]

/-- A row of the support against a feature column: the row scale and the sign come out of the sum. -/
theorem support_row_sum (e a : ι → ι → EReal) (d y : ι → EReal)
    (he : ∀ i j, IsFin (e i j)) (ha : ∀ i j, IsFin (a i j)) (hd : ∀ i, IsFin (d i)) (hy : ∀ i, IsFin (y i))
    (i : ι) :
    ∑ j, ((e i j - (d i * a i j) * d j) - e i j) * y j = -(d i * ∑ j, a i j * (d j * y j)) := by
  rw [mul_sum_of_fin _ _ _ (fun j _ => (ha i j).mul ((hd j).mul (hy j))) (hd i),
    neg_sum_of_fin _ _ (fun j _ => (hd i).mul ((ha i j).mul ((hd j).mul (hy j))))]
  refine Finset.sum_congr rfl fun j _ => ?_
  rw [support_entry (he i j) (hd i) (ha i j) (hd j), neg_mul, mul_assoc, mul_assoc]

/-- The support row sum is finite. -/
theorem isFin_support_row_sum (e a : ι → ι → EReal) (d y : ι → EReal)
    (he : ∀ i j, IsFin (e i j)) (ha : ∀ i j, IsFin (a i j)) (hd : ∀ i, IsFin (d i)) (hy : ∀ i, IsFin (y i))
    (i : ι) :
    IsFin (∑ j, ((e i j - (d i * a i j) * d j) - e i j) * y j) :=
  isFin_sum_univ _ fun j => ((((he i j).sub (((hd i).mul (ha i j)).mul (hd j))).sub (he i j))).mul (hy j)

/-- The scaled product on the other side is finite. -/
theorem isFin_scaled_product (a : ι → ι → EReal) (d y : ι → EReal) (c : EReal)
    (ha : ∀ i j, IsFin (a i j)) (hd : ∀ i, IsFin (d i)) (hy : ∀ i, IsFin (y i)) (hc : IsFin c) (i : ι) :
    IsFin (c * d i * ∑ j, a i j * (d j * y j)) :=
  (hc.mul (hd i)).mul (isFin_sum_univ _ fun j => (ha i j).mul ((hd j).mul (hy j)))

/-- First diffusion step: `S x` at row `i` is `c₁ · d i · (a (d x)) i + c₂ · x i` with `c₁ = -1`, `c₂ = 0`. -/
theorem diffusion_first (e a : ι → ι → EReal) (d x : ι → EReal)
    (he : ∀ i j, IsFin (e i j)) (ha : ∀ i j, IsFin (a i j)) (hd : ∀ i, IsFin (d i)) (hx : ∀ i, IsFin (x i))
    (i : ι) :
    ∑ j, ((e i j - (d i * a i j) * d j) - e i j) * x j
      = (-1) * d i * (∑ j, a i j * (d j * x j)) + 0 * x i := by
  rw [support_row_sum e a d x he ha hd hx i, zero_mul, add_zero, neg_one_mul, neg_mul]

/-- Second diffusion step: `2 · (S y) i - x i` is `c₁ · d i · (a (d y)) i + c₂ · x i` with `c₁ = -2`, `c₂ = -1`. -/
theorem diffusion_second (e a : ι → ι → EReal) (d y x : ι → EReal)
    (he : ∀ i j, IsFin (e i j)) (ha : ∀ i j, IsFin (a i j)) (hd : ∀ i, IsFin (d i)) (hy : ∀ i, IsFin (y i))
    (i : ι) :
    2 * (∑ j, ((e i j - (d i * a i j) * d j) - e i j) * y j) - x i
      = (-2) * d i * (∑ j, a i j * (d j * y j)) + (-1) * x i := by
  rw [support_row_sum e a d y he ha hd hy i, mul_neg, neg_mul, neg_mul, mul_assoc, neg_one_mul, sub_eq_add_neg]

/-- The same two steps with the features scaled on the right, `x j * d j`, as a product of the feature block by
    the scale column writes it. -/
theorem diffusion_first' (e a : ι → ι → EReal) (d x : ι → EReal)
    (he : ∀ i j, IsFin (e i j)) (ha : ∀ i j, IsFin (a i j)) (hd : ∀ i, IsFin (d i)) (hx : ∀ i, IsFin (x i))
    (i : ι) :
    ∑ j, ((e i j - (d i * a i j) * d j) - e i j) * x j
      = (-1) * d i * (∑ j, a i j * (x j * d j)) + 0 * x i := by
  rw [diffusion_first e a d x he ha hd hx i]
  simp only [mul_comm (x _) (d _)]

theorem diffusion_second' (e a : ι → ι → EReal) (d y x : ι → EReal)
    (he : ∀ i j, IsFin (e i j)) (ha : ∀ i j, IsFin (a i j)) (hd : ∀ i, IsFin (d i)) (hy : ∀ i, IsFin (y i))
    (i : ι) :
    2 * (∑ j, ((e i j - (d i * a i j) * d j) - e i j) * y j) - x i
      = (-2) * d i * (∑ j, a i j * (y j * d j)) + (-1) * x i := by
  rw [diffusion_second e a d y x he ha hd hy i]
  simp only [mul_comm (y _) (d _)]

/-- The constants as coerced reals. -/
theorem diffusion_first_coe (e a : ι → ι → EReal) (d x : ι → EReal)
    (he : ∀ i j, IsFin (e i j)) (ha : ∀ i j, IsFin (a i j)) (hd : ∀ i, IsFin (d i)) (hx : ∀ i, IsFin (x i))
    (i : ι) :
    ∑ j, ((e i j - (d i * a i j) * d j) - e i j) * x j
      = ((-1 : ℝ) : EReal) * d i * (∑ j, a i j * (x j * d j)) + ((0 : ℝ) : EReal) * x i := by
  rw [← neg_one_eq, EReal.coe_zero]
  exact diffusion_first' e a d x he ha hd hx i

theorem diffusion_second_coe (e a : ι → ι → EReal) (d y x : ι → EReal)
    (he : ∀ i j, IsFin (e i j)) (ha : ∀ i j, IsFin (a i j)) (hd : ∀ i, IsFin (d i)) (hy : ∀ i, IsFin (y i))
    (i : ι) :
    ((2 : ℝ) : EReal) * (∑ j, ((e i j - (d i * a i j) * d j) - e i j) * y j) - x i
      = ((-2 : ℝ) : EReal) * d i * (∑ j, a i j * (y j * d j)) + ((-1 : ℝ) : EReal) * x i := by
  rw [← neg_one_eq, ← neg_two_eq, ← two_eq]
  exact diffusion_second' e a d y x he ha hd hy i

end

end Alg
-- ==== Proof.AlgBlocks.lean ====
/-
  A sum over a product range, accumulated block by block.

  A sum over `n * K` positions is the sum over `n` blocks of the sums over the `K` positions of each block, and
  that outer sum is the left fold that starts from zero and adds one block's partial sum per step.  Stated in
  any commutative additive monoid: the extended reals are one, and no finiteness is involved.
-/
import Mathlib.Algebra.BigOperators.Fin
import Mathlib.Algebra.BigOperators.Group.Finset.Basic
import Mathlib.Logic.Equiv.Fin.Basic
import Mathlib.Tactic.Ring

open scoped BigOperators

namespace Alg

variable {M : Type*} [AddCommMonoid M]

/-- The position `b * K + k` of the `k`-th element of block `b` lies below `n * K`. -/
theorem block_index_lt {n K : ℕ} (b : Fin n) (k : Fin K) : b.val * K + k.val < n * K := by
  have hb : b.val + 1 ≤ n := b.isLt
  have hk : k.val < K := k.isLt
  calc b.val * K + k.val < b.val * K + K := by omega
    _ = (b.val + 1) * K := by ring
    _ ≤ n * K := Nat.mul_le_mul_right K hb

/-- The `k`-th position of block `b`. -/
def blockIndex {n K : ℕ} (b : Fin n) (k : Fin K) : Fin (n * K) := ⟨b.val * K + k.val, block_index_lt b k⟩

@[simp] theorem blockIndex_val {n K : ℕ} (b : Fin n) (k : Fin K) : (blockIndex b k).val = b.val * K + k.val := rfl

/-- A sum over `n * K` positions is the sum over the blocks of the sums within each block. -/
theorem sum_blocks {n K : ℕ} (f : Fin (n * K) → M) :
    ∑ q : Fin (n * K), f q = ∑ b : Fin n, ∑ k : Fin K, f (blockIndex b k) := by
  rw [← Fintype.sum_prod_type' (fun (b : Fin n) (k : Fin K) => f (blockIndex b k))]
  refine (Fintype.sum_equiv finProdFinEquiv _ _ fun p => ?_).symm
  congr 1
  apply Fin.ext
  rw [finProdFinEquiv_apply_val, blockIndex_val]
  ring

/-- The same for a range whose length is only known to equal `n * K`. -/
theorem sum_blocks_of_eq {n K N : ℕ} (h : N = n * K) (f : Fin N → M) :
    ∑ q : Fin N, f q = ∑ b : Fin n, ∑ k : Fin K, f ⟨b.val * K + k.val, h ▸ block_index_lt b k⟩ := by
  subst h
  exact sum_blocks f

/-- A sum over `Fin n` is the left fold over `0, …, n-1` that starts from zero and adds one term per step. -/
theorem sum_eq_foldl_finRange {n : ℕ} (g : Fin n → M) :
    ∑ b : Fin n, g b = (List.finRange n).foldl (fun acc b => acc + g b) 0 := by
  rw [Fin.sum_univ_def, List.sum_eq_foldl, List.foldl_map]

/-- A sum over `n * K` positions, accumulated block by block from zero. -/
theorem sum_blocks_foldl {n K : ℕ} (f : Fin (n * K) → M) :
    ∑ q : Fin (n * K), f q
      = (List.finRange n).foldl (fun acc b => acc + ∑ k : Fin K, f (blockIndex b k)) 0 := by
  rw [sum_blocks, sum_eq_foldl_finRange]

/-- Eight steps, written out. -/
theorem sum_fin_eight (g : Fin 8 → M) :
    ∑ b : Fin 8, g b = (((((((0 + g 0) + g 1) + g 2) + g 3) + g 4) + g 5) + g 6) + g 7 := by
  rw [Fin.sum_univ_eight, zero_add]

/-- A sum over `8 * K` positions as eight accumulation steps from zero. -/
theorem sum_eight_blocks {K : ℕ} (f : Fin (8 * K) → M) :
    ∑ q : Fin (8 * K), f q
      = (((((((0 + ∑ k : Fin K, f (blockIndex 0 k)) + ∑ k : Fin K, f (blockIndex 1 k))
          + ∑ k : Fin K, f (blockIndex 2 k)) + ∑ k : Fin K, f (blockIndex 3 k))
          + ∑ k : Fin K, f (blockIndex 4 k)) + ∑ k : Fin K, f (blockIndex 5 k))
          + ∑ k : Fin K, f (blockIndex 6 k)) + ∑ k : Fin K, f (blockIndex 7 k) := by
  rw [sum_blocks, sum_fin_eight]

/-- The accumulator after the first `m` steps holds the sum over the first `m` blocks: the step from `m` to
    `m + 1` adds block `m`. -/
theorem sum_castSucc_blocks {m : ℕ} (g : Fin (m + 1) → M) :
    ∑ b : Fin (m + 1), g b = (∑ b : Fin m, g b.castSucc) + g (Fin.last m) :=
  Fin.sum_univ_castSucc g

end Alg
-- ==== Proof.AlgContract.lean ====
/-
  The weight contraction of a graph convolution, in two arrangements.

  One side stacks the `M` diffusion terms along the contracted axis, position `c * M + m` holding channel `c` of
  term `m`, and contracts once against the weight matrix.  The other side keeps the terms apart, pads the
  channels of each with zeros up to `Cp`, splits the weight matrix into one zero-padded block per term, and adds
  the `M` products onto the bias one after the other.  A padded weight is zero and zero times anything is zero in
  the extended reals, so the padded lanes contribute nothing whatever they hold: no finiteness is needed.
-/
import proofs.«172830_g53506702573898_cont_9to1_m_1152_4_alg».proof.Proof.AlgBlocks
import Mathlib.Data.EReal.Operations
import Mathlib.Tactic.Abel

open scoped BigOperators

namespace Alg

/-- One term: the sum over the `C` live channels is the sum over all `Cp` lanes against the padded weights. -/
theorem sum_padded {C Cp : ℕ} (hC : C ≤ Cp) (u w : Fin C → EReal) (x p : Fin Cp → EReal)
    (hx : ∀ c : Fin C, u c = x (Fin.castLE hC c)) (hp : ∀ c : Fin C, w c = p (Fin.castLE hC c))
    (hp0 : ∀ c : Fin Cp, C ≤ c.val → p c = 0) :
    ∑ c : Fin C, u c * w c = ∑ c : Fin Cp, x c * p c := by
  refine Fintype.sum_of_injective (Fin.castLE hC) (Fin.castLE_injective hC) _ _ ?_ ?_
  · intro c hc
    have hlt : C ≤ c.val := by
      by_contra hlt
      exact hc (Set.mem_range.2 ⟨⟨c.val, not_le.mp hlt⟩, Fin.ext rfl⟩)
    rw [hp0 c hlt, mul_zero]
  · intro c
    rw [hx c, hp c]

/-- The stacked contraction is the sum over the terms of the padded contractions. -/
theorem contract_padded {C M Cp : ℕ} (hC : C ≤ Cp) (xm W : Fin (C * M) → EReal) (x P : Fin M → Fin Cp → EReal)
    (hx : ∀ (c : Fin C) (m : Fin M) (k : Fin (C * M)), k.val = c.val * M + m.val →
      xm k = x m ⟨c.val, lt_of_lt_of_le c.isLt hC⟩)
    (hP : ∀ (c : Fin C) (m : Fin M) (k : Fin (C * M)), k.val = c.val * M + m.val →
      P m ⟨c.val, lt_of_lt_of_le c.isLt hC⟩ = W k)
    (hP0 : ∀ (m : Fin M) (c : Fin Cp), C ≤ c.val → P m c = 0) :
    ∑ k : Fin (C * M), xm k * W k = ∑ m : Fin M, ∑ c : Fin Cp, x m c * P m c := by
  rw [sum_blocks, Finset.sum_comm]
  refine Finset.sum_congr rfl fun m _ => ?_
  exact sum_padded hC _ _ (x m) (P m) (fun c => hx c m _ rfl) (fun c => (hP c m _ rfl).symm) (hP0 m)

/-- Three terms and a bias: the stacked contraction plus the bias is the bias with the three padded products
    added one after the other. -/
theorem contract_three {C Cp : ℕ} (hC : C ≤ Cp) (xm W : Fin (C * 3) → EReal) (x P : Fin 3 → Fin Cp → EReal)
    (b : EReal)
    (hx : ∀ (c : Fin C) (m : Fin 3) (k : Fin (C * 3)), k.val = c.val * 3 + m.val →
      xm k = x m ⟨c.val, lt_of_lt_of_le c.isLt hC⟩)
    (hP : ∀ (c : Fin C) (m : Fin 3) (k : Fin (C * 3)), k.val = c.val * 3 + m.val →
      P m ⟨c.val, lt_of_lt_of_le c.isLt hC⟩ = W k)
    (hP0 : ∀ (m : Fin 3) (c : Fin Cp), C ≤ c.val → P m c = 0) :
    (∑ k : Fin (C * 3), xm k * W k) + b
      = ((b + ∑ c : Fin Cp, x 0 c * P 0 c) + ∑ c : Fin Cp, x 1 c * P 1 c) + ∑ c : Fin Cp, x 2 c * P 2 c := by
  rw [contract_padded hC xm W x P hx hP hP0, Fin.sum_univ_three]
  abel

/-- The two channel counts of the two layers: `17` and `32` live channels in `32` lanes. -/
theorem contract_three_17 (xm W : Fin (17 * 3) → EReal) (x P : Fin 3 → Fin 32 → EReal) (b : EReal)
    (hx : ∀ (c : Fin 17) (m : Fin 3) (k : Fin (17 * 3)), k.val = c.val * 3 + m.val →
      xm k = x m ⟨c.val, lt_of_lt_of_le c.isLt (by norm_num)⟩)
    (hP : ∀ (c : Fin 17) (m : Fin 3) (k : Fin (17 * 3)), k.val = c.val * 3 + m.val →
      P m ⟨c.val, lt_of_lt_of_le c.isLt (by norm_num)⟩ = W k)
    (hP0 : ∀ (m : Fin 3) (c : Fin 32), 17 ≤ c.val → P m c = 0) :
    (∑ k : Fin (17 * 3), xm k * W k) + b
      = ((b + ∑ c : Fin 32, x 0 c * P 0 c) + ∑ c : Fin 32, x 1 c * P 1 c) + ∑ c : Fin 32, x 2 c * P 2 c :=
  contract_three (by norm_num) xm W x P b hx hP hP0

theorem contract_three_32 (xm W : Fin (32 * 3) → EReal) (x P : Fin 3 → Fin 32 → EReal) (b : EReal)
    (hx : ∀ (c : Fin 32) (m : Fin 3) (k : Fin (32 * 3)), k.val = c.val * 3 + m.val → xm k = x m c)
    (hP : ∀ (c : Fin 32) (m : Fin 3) (k : Fin (32 * 3)), k.val = c.val * 3 + m.val → P m c = W k) :
    (∑ k : Fin (32 * 3), xm k * W k) + b
      = ((b + ∑ c : Fin 32, x 0 c * P 0 c) + ∑ c : Fin 32, x 1 c * P 1 c) + ∑ c : Fin 32, x 2 c * P 2 c :=
  contract_three (le_refl 32) xm W x P b (fun c m k hk => hx c m k hk) (fun c m k hk => hP c m k hk)
    (fun _ c hc => absurd c.isLt (not_lt.mpr hc))

end Alg
-- ==== Proof.AlgFinite.lean ====
/-
  Finiteness through the operations of a gated recurrent unit on a graph.

  The exact operations at the extended reals keep finite values finite: the reciprocal square root of a
  positive finite value, the exponential, the quotient by a nonzero finite value, and — at every extended real,
  the infinities included — the logistic function and the hyperbolic tangent.  From these: the degree of a node
  (a finite sum of maxima of finite entries), its guarded reciprocal square root, and the update
  `u * h + (1 - u) * c` of the unit are finite.
-/
import proofs.«172830_g53506702573898_cont_9to1_m_1152_4_alg».proof.Proof.AlgCoe
import Idealize.ShloMosaic.PureOps.Ideal.Laws

open scoped BigOperators
open Idealize.ShloMosaic

namespace Alg

/-- The reciprocal square root of a positive real is the real one. -/
theorem rsqrt_coe_pos {a : ℝ} (ha : 0 < a) : Ideal.rsqrt (a : EReal) = (((Real.sqrt a)⁻¹ : ℝ) : EReal) := by
  rw [Ideal.rsqrt_coe, if_neg (not_lt.mpr ha.le), if_neg ha.ne']

theorem IsFin.rsqrt {x : EReal} (hx : IsFin x) (hpos : 0 < x) : IsFin (Ideal.rsqrt x) := by
  obtain ⟨a, rfl⟩ := hx
  exact ⟨_, rsqrt_coe_pos (EReal.coe_pos.mp hpos)⟩

theorem IsFin.exp {x : EReal} (hx : IsFin x) : IsFin (Ideal.exp x) := by
  obtain ⟨a, rfl⟩ := hx
  exact ⟨Real.exp a, Ideal.exp_coe a⟩

/-- The quotient of a finite value by a nonzero finite value is finite. -/
theorem IsFin.div {x y : EReal} (hx : IsFin x) (hy : IsFin y) (h0 : y ≠ 0) : IsFin (Ideal.div x y) := by
  obtain ⟨a, rfl⟩ := hx; obtain ⟨b, rfl⟩ := hy
  have hb : b ≠ 0 := fun h => h0 (by rw [h, EReal.coe_zero])
  rw [Ideal.div_coe hb]
  exact (isFin_coe a).mul (isFin_coe _)

/-- The hyperbolic tangent is finite everywhere: `-1` and `1` at the infinities. -/
theorem isFin_tanh (x : EReal) : IsFin (Ideal.tanh x) := by
  induction x using EReal.rec with
  | bot => rw [Ideal.tanh_bot]; exact isFin_neg_one
  | top => rw [Ideal.tanh_top]; exact isFin_one
  | coe r => exact ⟨Real.tanh r, Ideal.tanh_coe r⟩

/-- The logistic function is finite everywhere: `0` and `1` at the infinities. -/
theorem isFin_logistic (x : EReal) : IsFin (Ideal.logistic x) := by
  induction x using EReal.rec with
  | bot => rw [Ideal.logistic_bot]; exact isFin_zero
  | top => rw [Ideal.logistic_top]; exact isFin_one
  | coe r => exact ⟨_, Ideal.logistic_coe r⟩

theorem IsFin.one_sub {u : EReal} (hu : IsFin u) : IsFin (1 - u) := isFin_one.sub hu

/-- The update of the unit: a finite mixture of two finite values. -/
theorem isFin_gru_update {u h c : EReal} (hu : IsFin u) (hh : IsFin h) (hc : IsFin c) :
    IsFin (u * h + (1 - u) * c) :=
  (hu.mul hh).add (hu.one_sub.mul hc)

/-- The degree of a node in the symmetrised graph is finite. -/
theorem isFin_degree {ι : Type*} [Fintype ι] (adj : ι → ι → EReal) (hadj : ∀ i j, IsFin (adj i j)) (i : ι) :
    IsFin (∑ j, max (adj i j) (adj j i)) :=
  isFin_sum_univ _ fun j => (hadj i j).max (hadj j i)

/-- The guarded reciprocal square root of a finite degree is finite: where the degree is positive so is its
    maximum with the floor, and elsewhere the value is zero. -/
theorem isFin_guarded_rsqrt {d ε : EReal} (hd : IsFin d) (hε : IsFin ε) :
    IsFin (if 0 < d then Ideal.rsqrt (max d ε) else 0) := by
  split
  · next h => exact (hd.max hε).rsqrt (lt_max_of_lt_left h)
  · exact isFin_zero

/-- A selection on the comparison `d > 0` is the conditional on `0 < d`. -/
theorem select_gt_zero {α : Type} (d : EReal) (a b : α) :
    Scalar.select (Ideal.cmp .ogt d 0) a b = if 0 < d then a else b := by
  by_cases h : (0 : EReal) < d <;> simp [Scalar.select, Ideal.cmp, h]

theorem isFin_guarded_rsqrt_select {d ε : EReal} (hd : IsFin d) (hε : IsFin ε) :
    IsFin (Scalar.select (Ideal.cmp .ogt d 0) (Ideal.rsqrt (max d ε)) 0) := by
  rw [select_gt_zero]
  exact isFin_guarded_rsqrt hd hε

/-- The normalised adjacency entry and the support entry are finite. -/
theorem isFin_support_entry {e di a dj : EReal} (he : IsFin e) (hdi : IsFin di) (ha : IsFin a) (hdj : IsFin dj) :
    IsFin ((e - (di * a) * dj) - e) :=
  (he.sub ((hdi.mul ha).mul hdj)).sub he

end Alg
-- ==== Proof.AlgMain.lean ====
/-
  The kernel's arrangement of the two-layer diffusion-convolution GRU equals the reference's, on finite inputs.

  Stage by stage: the blockwise degree is the degree; the guarded reciprocal square root is finite at every degree;
  a diffusion apply on a finite feature column is the support applied to it (first term) and twice the support applied
  to the first term minus the column (second term); the three padded products added onto the bias are the single
  stacked contraction plus the bias; the logistic function and the hyperbolic tangent are finite everywhere, which
  keeps every feature of every later stage finite.  Only the adjacency, the input and the incoming state need be
  finite: weights and biases enter through the contraction alone, where zero lanes need no finiteness.
-/
import proofs.«172830_g53506702573898_cont_9to1_m_1152_4_alg».proof.Proof.SpecKer
import proofs.«172830_g53506702573898_cont_9to1_m_1152_4_alg».proof.Proof.AlgDiffusion
import proofs.«172830_g53506702573898_cont_9to1_m_1152_4_alg».proof.Proof.AlgContract
import proofs.«172830_g53506702573898_cont_9to1_m_1152_4_alg».proof.Proof.AlgFinite

open scoped BigOperators

namespace Cert.AlgMain

open Idealize.ShloMosaic
open Cert.SpecRef Cert.SpecKer Alg

/-! ## build -/

/-- A double sum over (block, position in block) is the sum over all nodes. -/
theorem sum_blk {M : Type*} [AddCommMonoid M] (f : Fin 4096 → M) :
    ∑ j : Fin 8, ∑ k : Fin 512, f (blk j k) = ∑ q : Fin 4096, f q :=
  (sum_blocks_of_eq (n := 8) (K := 512) (by norm_num) f).symm

theorem degK_eq (adj : Fin 4096 → Fin 4096 → EReal) (p : Fin 4096) : degK adj p = deg adj p :=
  sum_blk fun q => amax adj p q

theorem disK_eq (adj : Fin 4096 → Fin 4096 → EReal) (p : Fin 4096) : disK adj p = dis adj p := by
  unfold disK dis
  rw [degK_eq]

/-- The reciprocal square root of a positive extended real is finite (zero at infinity). -/
theorem isFin_rsqrt_of_pos {x : EReal} (h : 0 < x) : IsFin (Ideal.rsqrt x) := by
  induction x using EReal.rec with
  | bot => exact absurd h not_lt_bot
  | top => rw [Ideal.rsqrt_top]; exact isFin_zero
  | coe r => exact (isFin_coe r).rsqrt h

theorem isFin_dis (adj : Fin 4096 → Fin 4096 → EReal) (p : Fin 4096) : IsFin (dis adj p) := by
  unfold dis
  split
  · next h => exact isFin_rsqrt_of_pos (lt_max_of_lt_left h)
  · exact isFin_zero

theorem isFin_amax {adj : Fin 4096 → Fin 4096 → EReal} (hadj : ∀ i j, IsFin (adj i j)) (i j : Fin 4096) :
    IsFin (amax adj i j) :=
  (hadj i j).max (hadj j i)

theorem isFin_eye (i j : Fin 4096) : IsFin (eye i j) := by
  unfold eye
  split
  · exact isFin_one
  · exact isFin_zero

/-! ## the diffusion applies -/

section Terms
variable (adj : Fin 4096 → Fin 4096 → EReal) (hadj : ∀ i j, IsFin (adj i j))
include hadj

/-- The support applied to a finite column is finite. -/
theorem isFin_supp_apply (x : Fin 4096 → EReal) (hfin : ∀ q, IsFin (x q)) (n : Fin 4096) :
    IsFin (∑ k, supp adj n k * x k) :=
  isFin_support_row_sum eye (amax adj) (dis adj) x isFin_eye (isFin_amax hadj) (isFin_dis adj) hfin n

/-- The first term on a finite column is the support applied to it. -/
theorem term1_eq (xk : Fin 4096 → Fin 8 → Fin 32 → EReal) (x : Fin 4096 → EReal) (b : Fin 8) (c : Fin 32)
    (hx : ∀ q, xk q b c = x q) (hfin : ∀ q, IsFin (x q)) (n : Fin 4096) :
    term1 adj xk n b c = ∑ k, supp adj n k * x k := by
  have e : (∑ j : Fin 8, ∑ k : Fin 512, amax adj n (blk j k) * (x (blk j k) * dis adj (blk j k)))
      = ∑ q, amax adj n q * (x q * dis adj q) := sum_blk fun q => amax adj n q * (x q * dis adj q)
  unfold term1 sapply
  simp only [disK_eq, hx]
  rw [e]
  exact (diffusion_first' eye (amax adj) (dis adj) x isFin_eye (isFin_amax hadj) (isFin_dis adj) hfin n).symm

/-- The second term on a finite column is twice the support applied to the first term, minus the column. -/
theorem term2_eq (xk : Fin 4096 → Fin 8 → Fin 32 → EReal) (x : Fin 4096 → EReal) (b : Fin 8) (c : Fin 32)
    (hx : ∀ q, xk q b c = x q) (hfin : ∀ q, IsFin (x q)) (n : Fin 4096) :
    term2 adj xk n b c = 2 * (∑ k, supp adj n k * (∑ k', supp adj k k' * x k')) - x n := by
  have hy : ∀ q, IsFin (∑ k', supp adj q k' * x k') := fun q => isFin_supp_apply adj hadj x hfin q
  have e : (∑ j : Fin 8, ∑ k : Fin 512, amax adj n (blk j k)
        * ((∑ k', supp adj (blk j k) k' * x k') * dis adj (blk j k)))
      = ∑ q, amax adj n q * ((∑ k', supp adj q k' * x k') * dis adj q) :=
    sum_blk fun q => amax adj n q * ((∑ k', supp adj q k' * x k') * dis adj q)
  unfold term2 sapply
  simp only [disK_eq, term1_eq adj hadj xk x b c hx hfin, hx]
  rw [e]
  exact (diffusion_second' eye (amax adj) (dis adj) (fun q => ∑ k', supp adj q k' * x k') x
    isFin_eye (isFin_amax hadj) (isFin_dis adj) hy n).symm

end Terms

/-! ## one graph convolution -/

/-- A Chebyshev feature read at equal positions. -/
theorem cheb_of_val {C : Nat} (S : Fin 4096 → Fin 4096 → EReal) (x : Fin 8 → Fin 4096 → Fin C → EReal)
    {m' m : Fin 3} {c' c : Fin C} (hm : m'.val = m.val) (hc : c'.val = c.val) (b : Fin 8) (n : Fin 4096) :
    cheb S x m' b n c' = cheb S x m b n c := by
  obtain rfl := Fin.ext hm
  obtain rfl := Fin.ext hc
  rfl

/-- One output column of a graph convolution: the bias with the three padded products added one after the other is
    the stacked contraction plus the bias. -/
theorem gconv_col_eq {C K : Nat} (hK : K = C * 3) (hC : C ≤ 32)
    (adj : Fin 4096 → Fin 4096 → EReal) (hadj : ∀ i j, IsFin (adj i j))
    (x : Fin 8 → Fin 4096 → Fin C → EReal) (xk : Fin 4096 → Fin 8 → Fin 32 → EReal)
    (hx : ∀ n b (c : Fin 32) (hc : c.val < C), xk n b c = x b n ⟨c.val, hc⟩)
    (hfin : ∀ b n c, IsFin (x b n c))
    (Wcol : Fin K → EReal) (bcol : EReal) (Pcol : Fin 3 → Fin 32 → EReal)
    (hP : ∀ m c, Pcol m c = if h : c.val < C then Wcol ⟨c.val * 3 + m.val, by have := m.isLt; omega⟩ else 0)
    (n : Fin 4096) (b : Fin 8) :
    ((bcol + ∑ c : Fin 32, xk n b c * Pcol 0 c) + ∑ c : Fin 32, term1 adj xk n b c * Pcol 1 c)
        + ∑ c : Fin 32, term2 adj xk n b c * Pcol 2 c
      = (∑ k : Fin K, cheb (supp adj) x ⟨k.val % 3, Nat.mod_lt _ (by norm_num)⟩ b n
            ⟨k.val / 3, by have := k.isLt; omega⟩ * Wcol k) + bcol := by
  subst hK
  refine (contract_three hC
    (fun k : Fin (C * 3) => cheb (supp adj) x ⟨k.val % 3, Nat.mod_lt _ (by norm_num)⟩ b n
      ⟨k.val / 3, by have := k.isLt; omega⟩)
    Wcol
    (fun m c => if m.val = 0 then xk n b c else if m.val = 1 then term1 adj xk n b c else term2 adj xk n b c)
    Pcol bcol ?_ ?_ ?_).symm
  · intro c m k hk
    have hm3 := m.isLt
    rw [cheb_of_val (supp adj) x (m := m) (c := c) (by show k.val % 3 = m.val; omega)
      (by show k.val / 3 = c.val; omega) b n]
    have hcol : ∀ q, xk q b ⟨c.val, lt_of_lt_of_le c.isLt hC⟩ = x b q c := fun q => hx q b _ c.isLt
    unfold cheb
    split_ifs with h0 h1
    · exact (hcol n).symm
    · exact (term1_eq adj hadj xk (fun q => x b q c) b _ hcol (fun q => hfin b q c) n).symm
    · exact (term2_eq adj hadj xk (fun q => x b q c) b _ hcol (fun q => hfin b q c) n).symm
  · intro c m k hk
    rw [hP, dif_pos c.isLt]
    congr 1
    exact Fin.ext hk.symm
  · intro m c hc
    rw [hP, dif_neg (not_lt.mpr hc)]

/-! ## one cell -/

section Cell
variable {C K : Nat} (hK : K = C * 3) (hC : C ≤ 32)
  (adj : Fin 4096 → Fin 4096 → EReal) (hadj : ∀ i j, IsFin (adj i j))
  (feat : (Fin 8 → Fin 4096 → Fin 16 → EReal) → Fin 8 → Fin 4096 → Fin C → EReal)
  (featK : (Fin 4096 → Fin 8 → Fin 16 → EReal) → Fin 4096 → Fin 8 → Fin 32 → EReal)
  (hfeat : ∀ st stK, (∀ n b u, stK n b u = st b n u) →
    ∀ n b (c : Fin 32) (hc : c.val < C), featK stK n b c = feat st b n ⟨c.val, hc⟩)
  (hfeatfin : ∀ st, (∀ b n u, IsFin (st b n u)) → ∀ b n c, IsFin (feat st b n c))
  (h : Fin 8 → Fin 4096 → Fin 16 → EReal) (hxk : Fin 4096 → Fin 8 → Fin 16 → EReal)
  (hh : ∀ n b u, hxk n b u = h b n u) (hhfin : ∀ b n u, IsFin (h b n u))
  (Wg : Fin K → Fin 32 → EReal) (bg : Fin 32 → EReal) (Wc : Fin K → Fin 16 → EReal) (bc : Fin 16 → EReal)

include hC hadj hfeat hfeatfin hh hhfin

theorem rK_eq (n : Fin 4096) (b : Fin 8) (u : Fin 16) :
    rK hK adj featK hxk Wg bg n b u = rgate hK (supp adj) feat h Wg bg b n u := by
  unfold rK rgate gates sig gconvK acc3 gconv
  exact congrArg Ideal.logistic
    (gconv_col_eq hK hC adj hadj (feat h) (featK hxk) (hfeat h hxk hh) (hfeatfin h hhfin)
      (fun k => Wg k ⟨u.val, by omega⟩) (bg ⟨u.val, by omega⟩) (fun m c => wr hK Wg m c u)
      (fun m c => rfl) n b)

theorem uK_eq (n : Fin 4096) (b : Fin 8) (u : Fin 16) :
    uK hK adj featK hxk Wg bg n b u = ugate hK (supp adj) feat h Wg bg b n u := by
  unfold uK ugate gates sig gconvK acc3 gconv
  exact congrArg Ideal.logistic
    (gconv_col_eq hK hC adj hadj (feat h) (featK hxk) (hfeat h hxk hh) (hfeatfin h hhfin)
      (fun k => Wg k ⟨u.val + 16, by omega⟩) (bg ⟨u.val + 16, by omega⟩) (fun m c => wu hK Wg m c u)
      (fun m c => rfl) n b)

theorem rhK_eq (n : Fin 4096) (b : Fin 8) (u : Fin 16) :
    rhK hK adj featK hxk Wg bg n b u = rgate hK (supp adj) feat h Wg bg b n u * h b n u := by
  unfold rhK
  rw [rK_eq hK hC adj hadj feat featK hfeat hfeatfin h hxk hh hhfin Wg bg n b u, hh]

theorem isFin_rgate (b : Fin 8) (n : Fin 4096) (u : Fin 16) : IsFin (rgate hK (supp adj) feat h Wg bg b n u) :=
  isFin_logistic _

theorem cK_eq (n : Fin 4096) (b : Fin 8) (u : Fin 16) :
    cK hK adj featK hxk Wg bg Wc bc n b u = cand hK (supp adj) feat h Wg bg Wc bc b n u := by
  unfold cK cand gconvK acc3 gconv
  exact congrArg Ideal.tanh
    (gconv_col_eq hK hC adj hadj (feat fun b n u => rgate hK (supp adj) feat h Wg bg b n u * h b n u)
      (featK (rhK hK adj featK hxk Wg bg))
      (hfeat _ _ (rhK_eq hK hC adj hadj feat featK hfeat hfeatfin h hxk hh hhfin Wg bg))
      (hfeatfin _ fun b n u => (isFin_logistic _).mul (hhfin b n u))
      (fun k => Wc k u) (bc u) (fun m c => prepW hK Wc m c u) (fun m c => rfl) n b)

theorem cellK_eq (n : Fin 4096) (b : Fin 8) (u : Fin 16) :
    cellK hK adj featK hxk Wg bg Wc bc n b u = cell hK (supp adj) feat h Wg bg Wc bc b n u := by
  unfold cellK cell
  rw [uK_eq hK hC adj hadj feat featK hfeat hfeatfin h hxk hh hhfin Wg bg n b u,
    cK_eq hK hC adj hadj feat featK hfeat hfeatfin h hxk hh hhfin Wg bg Wc bc n b u, hh]

omit hC hadj hfeat hfeatfin hh in
/-- The new state is finite: a mixture, by a logistic weight, of the finite state and a hyperbolic tangent. -/
theorem isFin_cell (b : Fin 8) (n : Fin 4096) (u : Fin 16) :
    IsFin (cell hK (supp adj) feat h Wg bg Wc bc b n u) := by
  unfold cell
  exact isFin_gru_update (isFin_logistic _) (hhfin b n u) (isFin_tanh _)

end Cell

/-! ## the two layers -/

section Model
variable (inp : Fin 8 → Fin 4096 → EReal) (hid : Fin 2 → Fin 8 → Fin 65536 → EReal) (adj : Fin 4096 → Fin 4096 → EReal)
  (W0g : Fin 51 → Fin 32 → EReal) (b0g : Fin 32 → EReal) (W0c : Fin 51 → Fin 16 → EReal) (b0c : Fin 16 → EReal)
  (W1g : Fin 96 → Fin 32 → EReal) (b1g : Fin 32 → EReal) (W1c : Fin 96 → Fin 16 → EReal) (b1c : Fin 16 → EReal)
  (hinp : ∀ b n, IsFin (inp b n)) (hhid : ∀ l b j, IsFin (hid l b j)) (hadj : ∀ i j, IsFin (adj i j))

omit hinp hhid hadj in
theorem featK0_eq (st : Fin 8 → Fin 4096 → Fin 16 → EReal) (stK : Fin 4096 → Fin 8 → Fin 16 → EReal)
    (hst : ∀ n b u, stK n b u = st b n u) (n : Fin 4096) (b : Fin 8) (c : Fin 32) (hc : c.val < 17) :
    featK0 inp stK n b c = feat0 inp st b n ⟨c.val, hc⟩ := by
  unfold featK0 feat0
  dsimp only
  split_ifs
  · rfl
  · exact hst _ _ _

omit hhid hadj in
include hinp in
theorem isFin_feat0 (st : Fin 8 → Fin 4096 → Fin 16 → EReal) (hst : ∀ b n u, IsFin (st b n u))
    (b : Fin 8) (n : Fin 4096) (c : Fin 17) : IsFin (feat0 inp st b n c) := by
  unfold feat0
  split
  · exact hinp b n
  · exact hst _ _ _

omit hinp hhid hadj in
theorem featK1_eq (a st : Fin 8 → Fin 4096 → Fin 16 → EReal) (cur stK : Fin 4096 → Fin 8 → Fin 16 → EReal)
    (hcur : ∀ n b u, cur n b u = a b n u) (hst : ∀ n b u, stK n b u = st b n u)
    (n : Fin 4096) (b : Fin 8) (c : Fin 32) (hc : c.val < 32) :
    featK1 cur stK n b c = feat1 a st b n ⟨c.val, hc⟩ := by
  unfold featK1 feat1
  dsimp only
  split_ifs
  · exact hcur _ _ _
  · exact hst _ _ _

omit hinp hhid hadj in
theorem isFin_feat1 (a st : Fin 8 → Fin 4096 → Fin 16 → EReal) (ha : ∀ b n u, IsFin (a b n u))
    (hst : ∀ b n u, IsFin (st b n u)) (b : Fin 8) (n : Fin 4096) (c : Fin 32) : IsFin (feat1 a st b n c) := by
  unfold feat1
  split
  · exact ha _ _ _
  · exact hst _ _ _

include hinp hhid hadj

/-- Layer 1's new state: the kernel's, node-major, is the reference's. -/
theorem nh1_eq (n : Fin 4096) (b : Fin 8) (u : Fin 16) :
    nh1 inp hid adj W0g b0g W0c b0c n b u = h1 inp hid adj W0g b0g W0c b0c b n u := by
  unfold nh1 h1
  exact cellK_eq (C := 17) (K := 51) rfl (by norm_num) adj hadj (feat0 inp) (featK0 inp)
    (fun st stK hst n b c hc => featK0_eq inp st stK hst n b c hc)
    (fun st hst b n c => isFin_feat0 inp hinp st hst b n c)
    (hidAt hid 0) (hxK hid 0) (fun _ _ _ => rfl) (fun b n u => hhid 0 b _) W0g b0g W0c b0c n b u

theorem isFin_h1 (b : Fin 8) (n : Fin 4096) (u : Fin 16) : IsFin (h1 inp hid adj W0g b0g W0c b0c b n u) := by
  unfold h1
  exact isFin_cell (C := 17) (K := 51) rfl adj (feat0 inp) (hidAt hid 0) (fun b n u => hhid 0 b _)
    W0g b0g W0c b0c b n u

/-- Layer 2's new state: the kernel's, node-major, is the reference's. -/
theorem nh2_eq (n : Fin 4096) (b : Fin 8) (u : Fin 16) :
    nh2 inp hid adj W0g b0g W0c b0c W1g b1g W1c b1c n b u
      = h2 inp hid adj W0g b0g W0c b0c W1g b1g W1c b1c b n u := by
  unfold nh2 h2
  exact cellK_eq (C := 32) (K := 96) rfl (le_refl 32) adj hadj
    (feat1 (h1 inp hid adj W0g b0g W0c b0c)) (featK1 (nh1 inp hid adj W0g b0g W0c b0c))
    (fun st stK hst n b c hc => featK1_eq _ st _ stK
      (nh1_eq inp hid adj W0g b0g W0c b0c hinp hhid hadj) hst n b c hc)
    (fun st hst b n c => isFin_feat1 _ st (isFin_h1 inp hid adj W0g b0g W0c b0c hinp hhid hadj) hst b n c)
    (hidAt hid 1) (hxK hid 1) (fun _ _ _ => rfl) (fun b n u => hhid 1 b _) W1g b1g W1c b1c n b u

/-- The first result. -/
theorem out0_eq (b : Fin 8) (j : Fin 65536) :
    outK0 inp hid adj W0g b0g W0c b0c W1g b1g W1c b1c b j = out0 inp hid adj W0g b0g W0c b0c W1g b1g W1c b1c b j := by
  unfold outK0 out0
  exact nh2_eq inp hid adj W0g b0g W0c b0c W1g b1g W1c b1c hinp hhid hadj _ _ _

/-- The second result. -/
theorem out1_eq (l : Fin 2) (b : Fin 8) (j : Fin 65536) :
    outK1 inp hid adj W0g b0g W0c b0c W1g b1g W1c b1c l b j
      = out1 inp hid adj W0g b0g W0c b0c W1g b1g W1c b1c l b j := by
  unfold outK1 out1
  split_ifs
  · exact nh1_eq inp hid adj W0g b0g W0c b0c hinp hhid hadj _ _ _
  · exact nh2_eq inp hid adj W0g b0g W0c b0c W1g b1g W1c b1c hinp hhid hadj _ _ _

end Model

end Cert.AlgMain
-- ==== Proof.FinPre.lean ====
/-
  Finiteness from the precondition. The precondition says every entry of every argument array has absolute value below
  +∞ (eleven "all" reductions of such comparisons, joined by "and"). An extended real whose absolute value is below +∞ is
  a real number; so every entry of the input, of the state and of the adjacency is a real.
-/
import proofs.«172830_g53506702573898_cont_9to1_m_1152_4_alg».proof.Pre_finite_inputs
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

namespace Cert.PreFinite

open Idealize.ShloMosaic Idealize.ShloMosaic.ValueIdx Cert.Pre_finite_inputs Cert.Pre_finite_inputs.Facts

/-- The scalar shape has one index. -/
instance : Subsingleton S_.Idx := ⟨fun a b => funext fun d => d.elim0⟩

/-- The f32 word of +∞ denotes the top extended real. -/
theorem ofBits_inf_f32 : Ideal.ofBits .f32 0x7F800000#32 = ⊤ := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "|x| < +∞" at the ideal instance, true, gives a real number. -/
theorem real_of_cmp (x : EReal)
    (h : FloatOps.cmpf (F := Ideal) (φ := .f32) .olt (FloatOps.hostAbsf (F := Ideal) (φ := .f32) x) (FloatOps.ofBits (F := Ideal) .f32 0x7F800000#32) = 1#1) :
    ∃ r : ℝ, x = (r : EReal) := by
  refine real_of_abs_lt_top x ?_
  have h' : Ideal.cmp .olt (max x (-x)) (Ideal.ofBits .f32 0x7F800000#32) = 1#1 := h
  rw [ofBits_inf_f32] at h'
  unfold Ideal.cmp at h'
  by_contra hn
  simp [hn] at h'

variable [Cert.Pre_finite_inputs.Facts]

/-- One "all (|x| < +∞)" that holds makes every entry of the array a real. -/
theorem all_real {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : ∃ r : ℝ, x i = (r : EReal) := by
  have h1 := Host.reduce_andi_all _ _ hr hu ix0 e i
  refine real_of_cmp (x i) ?_
  have hbc : broadcastInDim s ![] hb (constant (F := Ideal) S_ .f32 0x7F800000#32) i
      = constant (F := Ideal) S_ .f32 0x7F800000#32 ix0 :=
    broadcastInDim_apply _ hb _ i ix0 (fun a => a.elim0)
  have h2 : FloatOps.cmpf (F := Ideal) .olt (Host.absf x i) (broadcastInDim s ![] hb (constant (F := Ideal) S_ .f32 0x7F800000#32) i) = 1#1 := h1
  rw [hbc] at h2
  exact h2

/-- Under the precondition every entry of the input, of the state and of the adjacency is a real number. -/
theorem fin_of_pre (x0 : FVec Ideal S8x4096 .f32) (x1 : FVec Ideal S2x8x65536 .f32) (x2 : FVec Ideal S4096x4096 .f32)
    (x3 : FVec Ideal S51x32 .f32) (x4 : FVec Ideal S32 .f32) (x5 : FVec Ideal S51x16 .f32) (x6 : FVec Ideal S16 .f32)
    (x7 : FVec Ideal S96x32 .f32) (x8 : FVec Ideal S32 .f32) (x9 : FVec Ideal S96x16 .f32) (x10 : FVec Ideal S16 .f32)
    (h : Cert.Pre_finite_inputs.fn (F := Ideal) x0 x1 x2 x3 x4 x5 x6 x7 x8 x9 x10 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [fn, fn_part1, fn_part2, fn_part3, andi] at h0
  simp only [IntOp.andi_eq_one] at h0
  obtain ⟨⟨⟨⟨⟨⟨⟨⟨⟨⟨h3, h7⟩, h12⟩, -⟩, -⟩, -⟩, -⟩, -⟩, -⟩, -⟩, -⟩ := h0
  exact ⟨all_real x0 _ _ _ h3, all_real x1 _ _ _ h7, all_real x2 _ _ _ h12⟩

end Cert.PreFinite

end
-- ==== Proof.HostLib.lean ====
/-
  Layout operations read at an index, at the shapes of a node-major graph recurrent unit.

  Reshapes that split or merge two adjacent axes, the transposition of the two leading axes of a rank-3 array,
  slices along one axis, a pad at the high end of the middle axis, a three-piece concatenation along the last axis
  and a broadcast of a scalar: each read at an index given by coordinates is the operand at the index the
  row-major arithmetic names.
-/
import Idealize.ShloMosaic.Lib.Pipeline.Value
import Idealize.ShloMosaic.Lib.ValueIdx
import Idealize.ShloMosaic.Lib.ValueLayout
import Idealize.ShloMosaic.Lib.KernelVsHost
import Mathlib.Tactic.Ring

namespace Cert.HostLib

open Idealize.ShloMosaic Idealize.ShloMosaic.ValueIdx

variable {α : Type}

/-! ## Reshapes -/

/-- `[A, N] → [A, B, C]` with `N = B * C`. -/
theorem sc_split_mid {A N B C : ℕ} (hN : N = B * C) (x : (⟨2, ![A, N]⟩ : Shape).Idx → α)
    (h : (⟨2, ![A, N]⟩ : Shape).ShapeCasts ⟨3, ![A, B, C]⟩) (a : Fin A) (b : Fin B) (c : Fin C) (q : Fin N)
    (hq : q.val = b.val * C + c.val) :
    shapeCast ⟨3, ![A, B, C]⟩ x h (ix3 a b c) = x (ix2 a q) :=
  shapeCast_apply x h _ _ (by
    rw [Shape.rowMajor_val_two, Shape.rowMajor_val_three]
    show a.val * N + q.val = (a.val * B + b.val) * C + c.val
    rw [hq, hN]; ring)

/-- `[A, B, C] → [A, N]` with `N = B * C`. -/
theorem sc_merge_mid {A N B C : ℕ} (hN : N = B * C) (x : (⟨3, ![A, B, C]⟩ : Shape).Idx → α)
    (h : (⟨3, ![A, B, C]⟩ : Shape).ShapeCasts ⟨2, ![A, N]⟩) (a : Fin A) (b : Fin B) (c : Fin C) (q : Fin N)
    (hq : q.val = b.val * C + c.val) :
    shapeCast ⟨2, ![A, N]⟩ x h (ix2 a q) = x (ix3 a b c) :=
  shapeCast_apply x h _ _ (by
    rw [Shape.rowMajor_val_two, Shape.rowMajor_val_three]
    show (a.val * B + b.val) * C + c.val = a.val * N + q.val
    rw [hq, hN]; ring)

/-- `[M, C] → [A, B, C]` with `M = A * B`. -/
theorem sc_split_lead {M A B C : ℕ} (x : (⟨2, ![M, C]⟩ : Shape).Idx → α)
    (h : (⟨2, ![M, C]⟩ : Shape).ShapeCasts ⟨3, ![A, B, C]⟩) (a : Fin A) (b : Fin B) (c : Fin C) (r : Fin M)
    (hr : r.val = a.val * B + b.val) :
    shapeCast ⟨3, ![A, B, C]⟩ x h (ix3 a b c) = x (ix2 r c) :=
  shapeCast_apply x h _ _ (by
    rw [Shape.rowMajor_val_two, Shape.rowMajor_val_three]
    show r.val * C + c.val = (a.val * B + b.val) * C + c.val
    rw [hr])

/-- `[A, B, C] → [M, C]` with `M = A * B`. -/
theorem sc_merge_lead {M A B C : ℕ} (x : (⟨3, ![A, B, C]⟩ : Shape).Idx → α)
    (h : (⟨3, ![A, B, C]⟩ : Shape).ShapeCasts ⟨2, ![M, C]⟩) (a : Fin A) (b : Fin B) (c : Fin C) (r : Fin M)
    (hr : r.val = a.val * B + b.val) :
    shapeCast ⟨2, ![M, C]⟩ x h (ix2 r c) = x (ix3 a b c) :=
  shapeCast_apply x h _ _ (by
    rw [Shape.rowMajor_val_two, Shape.rowMajor_val_three]
    show (a.val * B + b.val) * C + c.val = r.val * C + c.val
    rw [hr])

/-- `[A, N] → [M, C]` with `N = B * C`, `M = A * B`: row `a * B + b`, column `c` is the operand at `(a, b * C + c)`. -/
theorem sc_regroup {A N M B C : ℕ} (hN : N = B * C) (x : (⟨2, ![A, N]⟩ : Shape).Idx → α)
    (h : (⟨2, ![A, N]⟩ : Shape).ShapeCasts ⟨2, ![M, C]⟩) (a : Fin A) (b : Fin B) (c : Fin C) (r : Fin M) (q : Fin N)
    (hr : r.val = a.val * B + b.val) (hq : q.val = b.val * C + c.val) :
    shapeCast ⟨2, ![M, C]⟩ x h (ix2 r c) = x (ix2 a q) :=
  shapeCast_apply x h _ _ (by
    rw [Shape.rowMajor_val_two, Shape.rowMajor_val_two]
    show a.val * N + q.val = r.val * C + c.val
    rw [hq, hr, hN]; ring)

/-- `[A, B] → [A, B, 1]`. -/
theorem sc_add_unit_last {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) :=
  shapeCast_apply x h _ _ (by
    have hz : z.val = 0 := by omega
    rw [Shape.rowMajor_val_two, Shape.rowMajor_val_three]
    show a.val * B + b.val = (a.val * B + b.val) * 1 + z.val
    rw [hz]; ring)

/-! ## A transposition of the two leading axes -/

theorem transpose_102_apply {A B C : ℕ} (x : (⟨3, ![A, B, C]⟩ : Shape).Idx → α)
    (h : (⟨3, ![A, B, C]⟩ : Shape).Transposes [1, 0, 2] ⟨3, ![B, A, C]⟩) (b : Fin B) (a : Fin A) (c : Fin C) :
    transpose ⟨3, ![B, A, C]⟩ [1, 0, 2] x h (ix3 b a c) = x (ix3 a b c) :=
  transpose_apply _ x h _ _ fun d => match d with | ⟨0, _⟩ => rfl | ⟨1, _⟩ => rfl | ⟨2, _⟩ => rfl

/-! ## Slices -/

/-- A slice along the last axis of a rank-3 array. -/
theorem slice3_last_apply {A B N C : ℕ} (o : ℕ) (x : (⟨3, ![A, B, N]⟩ : Shape).Idx → α)
    (h : (⟨3, ![A, B, N]⟩ : Shape).Slices ![0, 0, o] ⟨3, ![A, B, C]⟩) (a : Fin A) (b : Fin B) (c : Fin C) (q : Fin N)
    (hq : q.val = o + c.val) :
    extractStridedSlice ⟨3, ![A, B, C]⟩ ![0, 0, o] x h (ix3 a b c) = x (ix3 a b q) :=
  extractStridedSlice_apply _ x h _ _ fun d => match d with
    | ⟨0, _⟩ => by show a.val = 0 + a.val; omega
    | ⟨1, _⟩ => by show b.val = 0 + b.val; omega
    | ⟨2, _⟩ => by show q.val = o + c.val; exact hq

/-- A slice of a vector. -/
theorem slice1_apply {N C : ℕ} (o : ℕ) (x : (⟨1, ![N]⟩ : Shape).Idx → α)
    (h : (⟨1, ![N]⟩ : Shape).Slices ![o] ⟨1, ![C]⟩) (c : Fin C) (q : Fin N) (hq : q.val = o + c.val) :
    extractStridedSlice ⟨1, ![C]⟩ ![o] x h (ix1 c) = x (ix1 q) :=
  extractStridedSlice_apply _ x h _ _ fun d => match d with
    | ⟨0, _⟩ => by show q.val = o + c.val; exact hq

/-- One leading layer of a rank-3 array. -/
theorem slice3_first_apply {L B C : ℕ} (l : ℕ) (x : (⟨3, ![L, B, C]⟩ : Shape).Idx → α)
    (h : (⟨3, ![L, B, C]⟩ : Shape).Slices ![l, 0, 0] ⟨3, ![1, B, C]⟩) (z : Fin 1) (b : Fin B) (c : Fin C) (p : Fin L)
    (hp : p.val = l) :
    extractStridedSlice ⟨3, ![1, B, C]⟩ ![l, 0, 0] x h (ix3 z b c) = x (ix3 p b c) :=
  extractStridedSlice_apply _ x h _ _ fun d => match d with
    | ⟨0, _⟩ => by show p.val = l + z.val; omega
    | ⟨1, _⟩ => by show b.val = 0 + b.val; omega
    | ⟨2, _⟩ => by show c.val = 0 + c.val; omega

/-! ## A pad at the high end of the middle axis -/

theorem pad3_mid_high_apply {A B B' C : ℕ} (p : ℕ) (x : (⟨3, ![A, B, C]⟩ : Shape).Idx → α) {u : Shape} (v : u.Idx → α)
    (h : (⟨3, ![A, B, C]⟩ : Shape).Pads ![0, 0, 0] ![0, p, 0] ![0, 0, 0] ⟨3, ![A, B', C]⟩) (hu : 0 < u.numel)
    (a : Fin A) (b : Fin B') (c : Fin C) :
    pad ⟨3, ![A, B', C]⟩ ![0, 0, 0] ![0, p, 0] ![0, 0, 0] x v h hu (ix3 a b c)
      = if hb : b.val < B then x (ix3 a ⟨b.val, hb⟩ c) else v (Shape.Idx.first hu) := by
  split
  · next hb =>
    exact pad_apply_of_inside _ _ _ x v h hu _ _ fun d => match d with
      | ⟨0, _⟩ => by show a.val = 0 + a.val * (0 + 1); omega
      | ⟨1, _⟩ => by show b.val = 0 + b.val * (0 + 1); omega
      | ⟨2, _⟩ => by show c.val = 0 + c.val * (0 + 1); omega
  · next hb =>
    refine pad_apply_of_not_inside _ _ _ x v h hu _ ⟨1, by show 1 < 3; omega⟩ ?_
    intro hin
    have h3 : (b.val - 0) / (0 + 1) < B := hin.2.2
    rw [Nat.sub_zero, Nat.zero_add, Nat.div_one] at h3
    exact hb h3

/-! ## A broadcast of a scalar -/

theorem bcast_scalar_apply {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 fun a => a.elim0

/-- `[B, C] → [1, B, C]` along the two trailing axes. -/
theorem bcast_add_lead_apply {B C : ℕ} (x : (⟨2, ![B, C]⟩ : Shape).Idx → α)
    (h : (⟨2, ![B, C]⟩ : Shape).BroadcastsInDim ⟨3, ![1, B, C]⟩ ![1, 2]) (z : Fin 1) (b : Fin B) (c : Fin C) :
    broadcastInDim ⟨3, ![1, B, C]⟩ ![1, 2] h x (ix3 z b c) = x (ix2 b c) :=
  broadcastInDim_apply _ h x _ _ fun a => match a with
    | ⟨0, _⟩ => by
      show b.val = if B = 1 then 0 else b.val
      split
      · have := b.isLt; omega
      · rfl
    | ⟨1, _⟩ => by
      show c.val = if C = 1 then 0 else c.val
      split
      · have := c.isLt; omega
      · rfl

end Cert.HostLib
-- ==== Proof.HostCat.lean ====
/-
  A three-piece concatenation along the last axis read at an index, and the result of a three-operand host
  operation with each operand's contents at its own buffer.
-/
import Idealize.ShloMosaic.Lib.Pipeline.Value
import Idealize.ShloMosaic.Lib.ValueIdx
import Idealize.ShloMosaic.Lib.StableHlo.Run

namespace Cert.HostLib

open Idealize.ShloMosaic Idealize.ShloMosaic.ValueIdx

variable {α : Type}

/-- Three pieces along the last axis: the index's last coordinate falls in exactly one of them. -/
theorem cat3_last_apply {A B C1 C2 C3 C : ℕ} (hC : C = C1 + C2 + C3)
    (x1 : (⟨3, ![A, B, C1]⟩ : Shape).Idx → α) (x2 : (⟨3, ![A, B, C2]⟩ : Shape).Idx → α)
    (x3 : (⟨3, ![A, B, C3]⟩ : Shape).Idx → α)
    (h : Shape.Concatenates [(⟨3, ![A, B, C1]⟩ : Shape), ⟨3, ![A, B, C2]⟩, ⟨3, ![A, B, C3]⟩] ⟨3, ![A, B, C]⟩ 2)
    (a : Fin A) (b : Fin B) (c : Fin C) :
    concatenate ⟨3, ![A, B, C]⟩ 2 [⟨⟨3, ![A, B, C1]⟩, x1⟩, ⟨⟨3, ![A, B, C2]⟩, x2⟩, ⟨⟨3, ![A, B, C3]⟩, x3⟩] h (ix3 a b c)
      = if h1 : c.val < C1 then x1 (ix3 a b ⟨c.val, h1⟩)
        else if h2 : c.val < C1 + C2 then x2 (ix3 a b ⟨c.val - C1, by omega⟩)
        else x3 (ix3 a b ⟨c.val - (C1 + C2), by have := c.isLt; omega⟩) := by
  split
  · next h1 =>
    exact concatenate_apply_piece (t := ⟨3, ![A, B, C]⟩) 2 [⟨⟨3, ![A, B, C1]⟩, x1⟩, ⟨⟨3, ![A, B, C2]⟩, x2⟩, ⟨⟨3, ![A, B, C3]⟩, x3⟩] h (ix3 a b c) 0 (by simp) _ x1 rfl rfl 0 rfl (ix3 a b ⟨c.val, h1⟩)
      (fun d => match d with
        | ⟨0, _⟩ => fun _ => rfl
        | ⟨1, _⟩ => fun _ => rfl
        | ⟨2, _⟩ => fun hne => absurd rfl hne)
      (by show 0 + c.val = c.val; omega)
  · next h1 =>
    split
    · next h2 =>
      exact concatenate_apply_piece (t := ⟨3, ![A, B, C]⟩) 2 [⟨⟨3, ![A, B, C1]⟩, x1⟩, ⟨⟨3, ![A, B, C2]⟩, x2⟩, ⟨⟨3, ![A, B, C3]⟩, x3⟩] h (ix3 a b c) 1 (by simp) _ x2 rfl rfl C1 rfl (ix3 a b ⟨c.val - C1, by omega⟩)
        (fun d => match d with
          | ⟨0, _⟩ => fun _ => rfl
          | ⟨1, _⟩ => fun _ => rfl
          | ⟨2, _⟩ => fun hne => absurd rfl hne)
        (by show C1 + (c.val - C1) = c.val; omega)
    · next h2 =>
      exact concatenate_apply_piece (t := ⟨3, ![A, B, C]⟩) 2 [⟨⟨3, ![A, B, C1]⟩, x1⟩, ⟨⟨3, ![A, B, C2]⟩, x2⟩, ⟨⟨3, ![A, B, C3]⟩, x3⟩] h (ix3 a b c) 2 (by simp) _ x3 rfl rfl (C1 + C2) rfl
        (ix3 a b ⟨c.val - (C1 + C2), by have := c.isLt; omega⟩)
        (fun d => match d with
          | ⟨0, _⟩ => fun _ => rfl
          | ⟨1, _⟩ => fun _ => rfl
          | ⟨2, _⟩ => fun hne => absurd rfl hne)
        (by show C1 + C2 + (c.val - (C1 + C2)) = c.val; omega)

/-- The same, one piece at a time. -/
theorem cat3_last_fst {A B C1 C2 C3 C : ℕ} (hC : C = C1 + C2 + C3)
    (x1 : (⟨3, ![A, B, C1]⟩ : Shape).Idx → α) (x2 : (⟨3, ![A, B, C2]⟩ : Shape).Idx → α)
    (x3 : (⟨3, ![A, B, C3]⟩ : Shape).Idx → α)
    (h : Shape.Concatenates [(⟨3, ![A, B, C1]⟩ : Shape), ⟨3, ![A, B, C2]⟩, ⟨3, ![A, B, C3]⟩] ⟨3, ![A, B, C]⟩ 2)
    (a : Fin A) (b : Fin B) (c : Fin C) (h1 : c.val < C1) :
    concatenate ⟨3, ![A, B, C]⟩ 2 [⟨⟨3, ![A, B, C1]⟩, x1⟩, ⟨⟨3, ![A, B, C2]⟩, x2⟩, ⟨⟨3, ![A, B, C3]⟩, x3⟩] h (ix3 a b c)
      = x1 (ix3 a b ⟨c.val, h1⟩) := by
  rw [cat3_last_apply hC x1 x2 x3 h a b c, dif_pos h1]

theorem cat3_last_snd {A B C1 C2 C3 C : ℕ} (hC : C = C1 + C2 + C3)
    (x1 : (⟨3, ![A, B, C1]⟩ : Shape).Idx → α) (x2 : (⟨3, ![A, B, C2]⟩ : Shape).Idx → α)
    (x3 : (⟨3, ![A, B, C3]⟩ : Shape).Idx → α)
    (h : Shape.Concatenates [(⟨3, ![A, B, C1]⟩ : Shape), ⟨3, ![A, B, C2]⟩, ⟨3, ![A, B, C3]⟩] ⟨3, ![A, B, C]⟩ 2)
    (a : Fin A) (b : Fin B) (c : Fin C) (h1 : ¬ c.val < C1) (h2 : c.val < C1 + C2) :
    concatenate ⟨3, ![A, B, C]⟩ 2 [⟨⟨3, ![A, B, C1]⟩, x1⟩, ⟨⟨3, ![A, B, C2]⟩, x2⟩, ⟨⟨3, ![A, B, C3]⟩, x3⟩] h (ix3 a b c)
      = x2 (ix3 a b ⟨c.val - C1, by omega⟩) := by
  rw [cat3_last_apply hC x1 x2 x3 h a b c, dif_neg h1, dif_pos h2]

theorem cat3_last_thd {A B C1 C2 C3 C : ℕ} (hC : C = C1 + C2 + C3)
    (x1 : (⟨3, ![A, B, C1]⟩ : Shape).Idx → α) (x2 : (⟨3, ![A, B, C2]⟩ : Shape).Idx → α)
    (x3 : (⟨3, ![A, B, C3]⟩ : Shape).Idx → α)
    (h : Shape.Concatenates [(⟨3, ![A, B, C1]⟩ : Shape), ⟨3, ![A, B, C2]⟩, ⟨3, ![A, B, C3]⟩] ⟨3, ![A, B, C]⟩ 2)
    (a : Fin A) (b : Fin B) (c : Fin C) (h1 : ¬ c.val < C1) (h2 : ¬ c.val < C1 + C2) :
    concatenate ⟨3, ![A, B, C]⟩ 2 [⟨⟨3, ![A, B, C1]⟩, x1⟩, ⟨⟨3, ![A, B, C2]⟩, x2⟩, ⟨⟨3, ![A, B, C3]⟩, x3⟩] h (ix3 a b c)
      = x3 (ix3 a b ⟨c.val - (C1 + C2), by have := c.isLt; omega⟩) := by
  rw [cat3_last_apply hC x1 x2 x3 h a b c, dif_neg h1, dif_neg h2]

/-- Two layers stacked along the leading axis. -/
theorem cat2_first_apply {B C : ℕ} (x1 x2 : (⟨3, ![1, B, C]⟩ : Shape).Idx → α)
    (h : Shape.Concatenates [(⟨3, ![1, B, C]⟩ : Shape), ⟨3, ![1, B, C]⟩] ⟨3, ![2, B, C]⟩ 0)
    (l : Fin 2) (b : Fin B) (c : Fin C) :
    concatenate ⟨3, ![2, B, C]⟩ 0 [⟨⟨3, ![1, B, C]⟩, x1⟩, ⟨⟨3, ![1, B, C]⟩, x2⟩] h (ix3 l b c)
      = if l.val = 0 then x1 (ix3 (0 : Fin 1) b c) else x2 (ix3 (0 : Fin 1) b c) := by
  split
  · next h0 =>
    exact concatenate_pair_apply_left (t := ⟨3, ![2, B, C]⟩) 0 x1 x2 h (ix3 l b c) rfl (ix3 (0 : Fin 1) b c)
      (fun d => match d with
        | ⟨0, _⟩ => by show 0 = l.val; omega
        | ⟨1, _⟩ => rfl
        | ⟨2, _⟩ => rfl)
  · next h0 =>
    exact concatenate_pair_apply_right (t := ⟨3, ![2, B, C]⟩) 0 x1 x2 h (ix3 l b c) rfl rfl (ix3 (0 : Fin 1) b c)
      (fun d => match d with
        | ⟨0, _⟩ => fun hne => absurd rfl hne
        | ⟨1, _⟩ => fun _ => rfl
        | ⟨2, _⟩ => fun _ => rfl)
      (by show 0 + 1 = l.val; have := l.isLt; omega)

section Nary3
open Idealize.ShloMosaic.StableHlo
variable {τ : Topo} {sig : RefSig} {Val : EltTy → Type} {x a b y : Ref sig .tc}

/-- A host operation over a literal family of three buffers: its result with each operand's contents at its own
    buffer. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Nary3

end Cert.HostLib
-- ==== Proof.HostA.lean ====
import proofs.«172830_g53506702573898_cont_9to1_m_1152_4_alg».proof.Proof.Gen.KernelIdeal.Launch
import proofs.«172830_g53506702573898_cont_9to1_m_1152_4_alg».proof.Proof.SpecKer
import proofs.«172830_g53506702573898_cont_9to1_m_1152_4_alg».proof.Proof.HostLib
import proofs.«172830_g53506702573898_cont_9to1_m_1152_4_alg».proof.Proof.HostCat
import Idealize.ShloMosaic.PureOps.Ideal.Laws

set_option maxRecDepth 16384

/-
  The host operations before the first diffusion apply, read at an index: what the five stretches leave in the
  buffers the first regions read, as the kernel-side functions of the arguments (the padded and split weights, the
  two halves of the gate bias, the candidate bias, the incoming state as rows).
-/
noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

/-- The results of a literal line of host operations, a three-operand operation's operands each at its own buffer. -/
macro "after_results3" : tactic =>
  `(tactic| (simp only [after_cons, after_nil]
             repeat (first
               | rw [nullary_result] | rw [unary_result] | rw [binary_result] | rw [ternary_result]
               | rw [reshape_result] | rw [nary3_result] | rw [nary_result]
               | (rw [nullary_result_ne]; rotate_left; decide)
               | (rw [unary_result_ne]; rotate_left; decide)
               | (rw [binary_result_ne]; rotate_left; decide)
               | (rw [ternary_result_ne]; rotate_left; decide)
               | (rw [reshape_result_ne]; rotate_left; decide)
               | (rw [nary_result_ne]; rotate_left; decide))))

variable (W : Valuation τ sig (Elt Ideal))

/-! ## The arguments as functions of coordinates -/

def inpOf : Fin 8 → Fin 4096 → EReal := fun b n => (W (Proc.devRef .tc main_arg0) : S8x4096.Idx → EReal) (ix2 b n)
def hidOf : Fin 2 → Fin 8 → Fin 65536 → EReal := fun l b j => (W (Proc.devRef .tc main_arg1) : S2x8x65536.Idx → EReal) (ix3 l b j)
def adjOf : Fin 4096 → Fin 4096 → EReal := fun i j => (W (Proc.devRef .tc main_arg2) : S4096x4096.Idx → EReal) (ix2 i j)
def W0gOf : Fin 51 → Fin 32 → EReal := fun k o => (W (Proc.devRef .tc main_arg3) : S51x32.Idx → EReal) (ix2 k o)
def b0gOf : Fin 32 → EReal := fun o => (W (Proc.devRef .tc main_arg4) : S32.Idx → EReal) (ix1 o)
def W0cOf : Fin 51 → Fin 16 → EReal := fun k o => (W (Proc.devRef .tc main_arg5) : S51x16.Idx → EReal) (ix2 k o)
def b0cOf : Fin 16 → EReal := fun o => (W (Proc.devRef .tc main_arg6) : S16.Idx → EReal) (ix1 o)
def W1gOf : Fin 96 → Fin 32 → EReal := fun k o => (W (Proc.devRef .tc main_arg7) : S96x32.Idx → EReal) (ix2 k o)
def b1gOf : Fin 32 → EReal := fun o => (W (Proc.devRef .tc main_arg8) : S32.Idx → EReal) (ix1 o)
def W1cOf : Fin 96 → Fin 16 → EReal := fun k o => (W (Proc.devRef .tc main_arg9) : S96x16.Idx → EReal) (ix2 k o)
def b1cOf : Fin 16 → EReal := fun o => (W (Proc.devRef .tc main_arg10) : S16.Idx → EReal) (ix1 o)

/-- Row `n * 8 + b` of a `[32768, ·]` array: node n, batch b. -/
def row8 (n : Fin 4096) (b : Fin 8) : Fin 32768 := ⟨n.val * 8 + b.val, by omega⟩
/-- Column `b * 32 + c` of a `[4096, 256]` array: batch b, lane c. -/
def lane32 (b : Fin 8) (c : Fin 32) : Fin 256 := ⟨b.val * 32 + c.val, by omega⟩

/-! ## The host operations before the first diffusion apply (five stretches) -/

/-- The buffers after the five stretches, from contents `W`. -/
abbrev G1 : Valuation τ sig (Elt Ideal) :=
  StableHlo.after hostOps1_4 (StableHlo.after hostOps1_3 (StableHlo.after hostOps1_2 (StableHlo.after hostOps1_1 (StableHlo.after hostOps1 W))))

/-- The incoming state of layer 1 as rows: row `n * 8 + b`, unit u. -/
theorem G1_v20 (n : Fin 4096) (b : Fin 8) (u : Fin 16) :
    (G1 W (Proc.devRef .tc main_v20) : S32768x16.Idx → EReal) (ix2 (row8 n b) u) = hxK (hidOf W) 0 n b u := by
  simp only [G1, hostOps1, hostOps1_1, hostOps1_2, hostOps1_3, hostOps1_4]
  after_results3
  refine (sc_merge_lead _ _ n b u (row8 n b) rfl).trans ?_
  refine (transpose_102_apply _ _ n b u).trans ?_
  refine (sc_split_mid (B := 4096) (C := 16) (by norm_num) _ _ b n u (flat16 n u) rfl).trans ?_
  refine (shapeCast_1ab_ab_apply _ _ b (flat16 n u)).trans ?_
  refine (slice3_first_apply 0 _ _ (0 : Fin 1) b (flat16 n u) (0 : Fin 2) rfl).trans ?_
  rfl

/-- The reset half of the gate bias. -/
theorem G1_v9 (z : Fin 1) (u : Fin 16) :
    (G1 W (Proc.devRef .tc main_v9) : S1x16.Idx → EReal) (ix2 z u) = br (b0gOf W) u := by
  simp only [G1, hostOps1, hostOps1_1, hostOps1_2, hostOps1_3, hostOps1_4]
  after_results3
  refine (shapeCast_a_1a_apply _ _ z u).trans ?_
  refine (slice1_apply 0 _ _ u (⟨u.val, by omega⟩ : Fin 32) (by show u.val = 0 + u.val; omega)).trans ?_
  rfl

/-- The update half of the gate bias. -/
theorem G1_v11 (z : Fin 1) (u : Fin 16) :
    (G1 W (Proc.devRef .tc main_v11) : S1x16.Idx → EReal) (ix2 z u) = bu (b0gOf W) u := by
  simp only [G1, hostOps1, hostOps1_1, hostOps1_2, hostOps1_3, hostOps1_4]
  after_results3
  refine (shapeCast_a_1a_apply _ _ z u).trans ?_
  refine (slice1_apply 16 _ _ u (⟨u.val + 16, by omega⟩ : Fin 32) (by show u.val + 16 = 16 + u.val; omega)).trans ?_
  rfl

/-- The candidate bias. -/
theorem G1_v15 (z : Fin 1) (u : Fin 16) :
    (G1 W (Proc.devRef .tc main_v15) : S1x16.Idx → EReal) (ix2 z u) = b0cOf W u := by
  simp only [G1, hostOps1, hostOps1_1, hostOps1_2, hostOps1_3, hostOps1_4]
  after_results3
  refine (shapeCast_a_1a_apply _ _ z u).trans ?_
  rfl

/-- The integer zero converted is the extended real zero. -/
theorem sitofp_zero_apply (i : S_.Idx) :
    (sitofp (F := Ideal) .f32 (constantI S_ 32 0#32) : S_.Idx → EReal) i = 0 := by
  show (((0#32 : BitVec 32).toInt : ℝ) : EReal) = 0
  simp

/-- The reset half of the padded gate weights. -/
theorem G1_v6 (m : Fin 3) (c : Fin 32) (u : Fin 16) :
    (G1 W (Proc.devRef .tc main_v6) : S3x32x16.Idx → EReal) (ix3 m c u)
      = wr (C := 17) (K := 51) rfl (W0gOf W) m c u := by
  simp only [G1, hostOps1, hostOps1_1, hostOps1_2, hostOps1_3, hostOps1_4]
  after_results3
  refine (slice3_last_apply 0 _ _ m c u (⟨u.val, by omega⟩ : Fin 32) (by show u.val = 0 + u.val; omega)).trans ?_
  refine (pad3_mid_high_apply (α := EReal) 15 _ _ pads_S3x17x32_S3x32x32_000_0150_000 h_S_ m c _).trans ?_
  unfold wr prepW
  by_cases hc : c.val < 17
  · rw [dif_pos hc, dif_pos hc]
    show (transpose S3x17x32 [1, 0, 2] (shapeCast S17x3x32 (W (Proc.devRef .tc main_arg3) : S51x32.Idx → EReal) shapeCasts_S51x32_S17x3x32) transposes_S17x3x32_S3x17x32_1_0_2 : S3x17x32.Idx → EReal) (ix3 m (⟨c.val, hc⟩ : Fin 17) (⟨u.val, by omega⟩ : Fin 32)) = _
    refine (transpose_102_apply _ _ m (⟨c.val, hc⟩ : Fin 17) _).trans ?_
    refine (sc_split_lead _ _ (⟨c.val, hc⟩ : Fin 17) m _ (⟨c.val * 3 + m.val, by have := m.isLt; omega⟩ : Fin 51) rfl).trans ?_
    rfl
  · rw [dif_neg hc, dif_neg hc]
    exact sitofp_zero_apply (Shape.Idx.first h_S_)

/-- The update half of the padded gate weights. -/
theorem G1_v7 (m : Fin 3) (c : Fin 32) (u : Fin 16) :
    (G1 W (Proc.devRef .tc main_v7) : S3x32x16.Idx → EReal) (ix3 m c u)
      = wu (C := 17) (K := 51) rfl (W0gOf W) m c u := by
  simp only [G1, hostOps1, hostOps1_1, hostOps1_2, hostOps1_3, hostOps1_4]
  after_results3
  refine (slice3_last_apply 16 _ _ m c u (⟨u.val + 16, by omega⟩ : Fin 32) (by show u.val + 16 = 16 + u.val; omega)).trans ?_
  refine (pad3_mid_high_apply (α := EReal) 15 _ _ pads_S3x17x32_S3x32x32_000_0150_000 h_S_ m c _).trans ?_
  unfold wu prepW
  by_cases hc : c.val < 17
  · rw [dif_pos hc, dif_pos hc]
    show (transpose S3x17x32 [1, 0, 2] (shapeCast S17x3x32 (W (Proc.devRef .tc main_arg3) : S51x32.Idx → EReal) shapeCasts_S51x32_S17x3x32) transposes_S17x3x32_S3x17x32_1_0_2 : S3x17x32.Idx → EReal) (ix3 m (⟨c.val, hc⟩ : Fin 17) (⟨u.val + 16, by omega⟩ : Fin 32)) = _
    refine (transpose_102_apply _ _ m (⟨c.val, hc⟩ : Fin 17) _).trans ?_
    refine (sc_split_lead _ _ (⟨c.val, hc⟩ : Fin 17) m _ (⟨c.val * 3 + m.val, by have := m.isLt; omega⟩ : Fin 51) rfl).trans ?_
    rfl
  · rw [dif_neg hc, dif_neg hc]
    exact sitofp_zero_apply (Shape.Idx.first h_S_)

/-- The padded candidate weights. -/
theorem G1_v14 (m : Fin 3) (c : Fin 32) (u : Fin 16) :
    (G1 W (Proc.devRef .tc main_v14) : S3x32x16.Idx → EReal) (ix3 m c u)
      = prepW (C := 17) (K := 51) rfl (W0cOf W) m c u := by
  simp only [G1, hostOps1, hostOps1_1, hostOps1_2, hostOps1_3, hostOps1_4]
  after_results3
  refine (pad3_mid_high_apply (α := EReal) 15 _ _ pads_S3x17x16_S3x32x16_000_0150_000 h_S_ m c u).trans ?_
  unfold prepW
  by_cases hc : c.val < 17
  · rw [dif_pos hc, dif_pos hc]
    show (transpose S3x17x16 [1, 0, 2] (shapeCast S17x3x16 (W (Proc.devRef .tc main_arg5) : S51x16.Idx → EReal) shapeCasts_S51x16_S17x3x16) transposes_S17x3x16_S3x17x16_1_0_2 : S3x17x16.Idx → EReal) (ix3 m (⟨c.val, hc⟩ : Fin 17) u) = _
    refine (transpose_102_apply _ _ m (⟨c.val, hc⟩ : Fin 17) u).trans ?_
    refine (sc_split_lead _ _ (⟨c.val, hc⟩ : Fin 17) m u (⟨c.val * 3 + m.val, by have := m.isLt; omega⟩ : Fin 51) rfl).trans ?_
    rfl
  · rw [dif_neg hc, dif_neg hc]
    exact sitofp_zero_apply (Shape.Idx.first h_S_)

/-! ## The padded features, lane by lane -/

theorem featK0_lo (inp : Fin 8 → Fin 4096 → EReal) (st : Fin 4096 → Fin 8 → Fin 16 → EReal) (n : Fin 4096) (b : Fin 8)
    (c : Fin 32) (h1 : c.val < 1) : featK0 inp st n b c = inp b n := by
  unfold featK0; rw [if_pos h1]
theorem featK0_mid (inp : Fin 8 → Fin 4096 → EReal) (st : Fin 4096 → Fin 8 → Fin 16 → EReal) (n : Fin 4096) (b : Fin 8)
    (c : Fin 32) (h1 : ¬ c.val < 1) (h2 : c.val < 17) : featK0 inp st n b c = st n b ⟨c.val - 1, by omega⟩ := by
  unfold featK0; rw [if_neg h1, dif_pos h2]
theorem featK0_hi (inp : Fin 8 → Fin 4096 → EReal) (st : Fin 4096 → Fin 8 → Fin 16 → EReal) (n : Fin 4096) (b : Fin 8)
    (c : Fin 32) (h1 : ¬ c.val < 1) (h2 : ¬ c.val < 17) : featK0 inp st n b c = 0 := by
  unfold featK0; rw [if_neg h1, dif_neg h2]
theorem featK1_lo (cur st : Fin 4096 → Fin 8 → Fin 16 → EReal) (n : Fin 4096) (b : Fin 8)
    (c : Fin 32) (h1 : c.val < 16) : featK1 cur st n b c = cur n b ⟨c.val, h1⟩ := by
  unfold featK1; rw [dif_pos h1]
theorem featK1_hi (cur st : Fin 4096 → Fin 8 → Fin 16 → EReal) (n : Fin 4096) (b : Fin 8)
    (c : Fin 32) (h1 : ¬ c.val < 16) : featK1 cur st n b c = st n b ⟨c.val - 16, by omega⟩ := by
  unfold featK1; rw [dif_neg h1]

end Cert.KernelIdeal.HostVal
end
-- ==== Proof.FoldKeep.lean ====
/-
  A buffer an item of @main does not write holds after the item what it held before it: the generated valuations'
  own facts, carried to the explicit fold.
-/
import proofs.«172830_g53506702573898_cont_9to1_m_1152_4_alg».proof.Proof.Fold

set_option maxRecDepth 16384

noncomputable section

namespace Cert.KernelIdeal.Reg

open Cert.KernelIdeal Cert.KernelIdeal.Gen
open Idealize.ShloMosaic Idealize.ShloMosaic.TcCoe
open Idealize.SL Idealize.SL.Sem

variable {F : FTy → Type} [FloatOps F]
variable (m : (ℓ : Loc nD τ sig) → Buf (Elt F) ℓ)

theorem W1_of (c : Dev nD) (r : Ref sig .tc) (h : r ∉ ([main_v0_0, main_v0_1] : List (Ref sig .tc))) : W1 m c r = W0 m c r := by
  rw [← V1_eq m c]; exact Gen.V1_of m (outs m) c r h
theorem W2_of (c : Dev nD) (r : Ref sig .tc) (h : r ∉ hostOps1_W) : W2 m c r = W1 m c r := by
  rw [← V2_eq m c, ← V1_eq m c]; exact Gen.V2_of m (outs m) c r h
theorem W3_of (c : Dev nD) (r : Ref sig .tc) (h : r ∉ hostOps1_1_W) : W3 m c r = W2 m c r := by
  rw [← V3_eq m c, ← V2_eq m c]; exact Gen.V3_of m (outs m) c r h
theorem W4_of (c : Dev nD) (r : Ref sig .tc) (h : r ∉ hostOps1_2_W) : W4 m c r = W3 m c r := by
  rw [← V4_eq m c, ← V3_eq m c]; exact Gen.V4_of m (outs m) c r h
theorem W5_of (c : Dev nD) (r : Ref sig .tc) (h : r ∉ hostOps1_3_W) : W5 m c r = W4 m c r := by
  rw [← V5_eq m c, ← V4_eq m c]; exact Gen.V5_of m (outs m) c r h
theorem W6_of (c : Dev nD) (r : Ref sig .tc) (h : r ∉ hostOps1_4_W) : W6 m c r = W5 m c r := by
  rw [← V6_eq m c, ← V5_eq m c]; exact Gen.V6_of m (outs m) c r h
theorem W7_of (c : Dev nD) (r : Ref sig .tc) (h : r ∉ ([main_v24] : List (Ref sig .tc))) : W7 m c r = W6 m c r := by
  rw [← V7_eq m c, ← V6_eq m c]; exact Gen.V7_of m (outs m) c r h
theorem W8_of (c : Dev nD) (r : Ref sig .tc) (h : r ∉ ([main_v25] : List (Ref sig .tc))) : W8 m c r = W7 m c r := by
  rw [← V8_eq m c, ← V7_eq m c]; exact Gen.V8_of m (outs m) c r h
theorem W9_of (c : Dev nD) (r : Ref sig .tc) (h : r ∉ hostOps3_W) : W9 m c r = W8 m c r := by
  rw [← V9_eq m c, ← V8_eq m c]; exact Gen.V9_of m (outs m) c r h
theorem W10_of (c : Dev nD) (r : Ref sig .tc) (h : r ∉ ([main_v29_0, main_v29_1] : List (Ref sig .tc))) : W10 m c r = W9 m c r := by
  rw [← V10_eq m c, ← V9_eq m c]; exact Gen.V10_of m (outs m) c r h
theorem W11_of (c : Dev nD) (r : Ref sig .tc) (h : r ∉ hostOps4_W) : W11 m c r = W10 m c r := by
  rw [← V11_eq m c, ← V10_eq m c]; exact Gen.V11_of m (outs m) c r h
theorem W12_of (c : Dev nD) (r : Ref sig .tc) (h : r ∉ ([main_v34] : List (Ref sig .tc))) : W12 m c r = W11 m c r := by
  rw [← V12_eq m c, ← V11_eq m c]; exact Gen.V12_of m (outs m) c r h
theorem W13_of (c : Dev nD) (r : Ref sig .tc) (h : r ∉ ([main_v35] : List (Ref sig .tc))) : W13 m c r = W12 m c r := by
  rw [← V13_eq m c, ← V12_eq m c]; exact Gen.V13_of m (outs m) c r h
theorem W14_of (c : Dev nD) (r : Ref sig .tc) (h : r ∉ hostOps6_W) : W14 m c r = W13 m c r := by
  rw [← V14_eq m c, ← V13_eq m c]; exact Gen.V14_of m (outs m) c r h
theorem W15_of (c : Dev nD) (r : Ref sig .tc) (h : r ∉ ([main_v39] : List (Ref sig .tc))) : W15 m c r = W14 m c r := by
  rw [← V15_eq m c, ← V14_eq m c]; exact Gen.V15_of m (outs m) c r h
theorem W16_of (c : Dev nD) (r : Ref sig .tc) (h : r ∉ hostOps7_W) : W16 m c r = W15 m c r := by
  rw [← V16_eq m c, ← V15_eq m c]; exact Gen.V16_of m (outs m) c r h
theorem W17_of (c : Dev nD) (r : Ref sig .tc) (h : r ∉ hostOps7_1_W) : W17 m c r = W16 m c r := by
  rw [← V17_eq m c, ← V16_eq m c]; exact Gen.V17_of m (outs m) c r h
theorem W18_of (c : Dev nD) (r : Ref sig .tc) (h : r ∉ hostOps7_2_W) : W18 m c r = W17 m c r := by
  rw [← V18_eq m c, ← V17_eq m c]; exact Gen.V18_of m (outs m) c r h
theorem W19_of (c : Dev nD) (r : Ref sig .tc) (h : r ∉ hostOps7_3_W) : W19 m c r = W18 m c r := by
  rw [← V19_eq m c, ← V18_eq m c]; exact Gen.V19_of m (outs m) c r h
theorem W20_of (c : Dev nD) (r : Ref sig .tc) (h : r ∉ hostOps7_4_W) : W20 m c r = W19 m c r := by
  rw [← V20_eq m c, ← V19_eq m c]; exact Gen.V20_of m (outs m) c r h
theorem W21_of (c : Dev nD) (r : Ref sig .tc) (h : r ∉ ([main_v64] : List (Ref sig .tc))) : W21 m c r = W20 m c r := by
  rw [← V21_eq m c, ← V20_eq m c]; exact Gen.V21_of m (outs m) c r h
theorem W22_of (c : Dev nD) (r : Ref sig .tc) (h : r ∉ ([main_v65] : List (Ref sig .tc))) : W22 m c r = W21 m c r := by
  rw [← V22_eq m c, ← V21_eq m c]; exact Gen.V22_of m (outs m) c r h
theorem W23_of (c : Dev nD) (r : Ref sig .tc) (h : r ∉ hostOps9_W) : W23 m c r = W22 m c r := by
  rw [← V23_eq m c, ← V22_eq m c]; exact Gen.V23_of m (outs m) c r h
theorem W24_of (c : Dev nD) (r : Ref sig .tc) (h : r ∉ ([main_v69_0, main_v69_1] : List (Ref sig .tc))) : W24 m c r = W23 m c r := by
  rw [← V24_eq m c, ← V23_eq m c]; exact Gen.V24_of m (outs m) c r h
theorem W25_of (c : Dev nD) (r : Ref sig .tc) (h : r ∉ hostOps10_W) : W25 m c r = W24 m c r := by
  rw [← V25_eq m c, ← V24_eq m c]; exact Gen.V25_of m (outs m) c r h
theorem W26_of (c : Dev nD) (r : Ref sig .tc) (h : r ∉ ([main_v74] : List (Ref sig .tc))) : W26 m c r = W25 m c r := by
  rw [← V26_eq m c, ← V25_eq m c]; exact Gen.V26_of m (outs m) c r h
theorem W27_of (c : Dev nD) (r : Ref sig .tc) (h : r ∉ ([main_v75] : List (Ref sig .tc))) : W27 m c r = W26 m c r := by
  rw [← V27_eq m c, ← V26_eq m c]; exact Gen.V27_of m (outs m) c r h
theorem W28_of (c : Dev nD) (r : Ref sig .tc) (h : r ∉ hostOps12_W) : W28 m c r = W27 m c r := by
  rw [← V28_eq m c, ← V27_eq m c]; exact Gen.V28_of m (outs m) c r h
theorem W29_of (c : Dev nD) (r : Ref sig .tc) (h : r ∉ ([main_v79] : List (Ref sig .tc))) : W29 m c r = W28 m c r := by
  rw [← V29_eq m c, ← V28_eq m c]; exact Gen.V29_of m (outs m) c r h
theorem W30_of (c : Dev nD) (r : Ref sig .tc) (h : r ∉ hostOps13_W) : W30 m c r = W29 m c r := by
  rw [← V30_eq m c, ← V29_eq m c]; exact Gen.V30_of m (outs m) c r h

end Cert.KernelIdeal.Reg
end
-- ==== Proof.HostA2.lean ====
import proofs.«172830_g53506702573898_cont_9to1_m_1152_4_alg».proof.Proof.HostA

set_option maxRecDepth 16384

noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

variable (W : Valuation τ sig (Elt Ideal))

set_option maxHeartbeats 4000000 in
/-- Layer 1's padded gate features: node n, column `b * 32 + c`. -/
theorem G1_v23 (n : Fin 4096) (b : Fin 8) (c : Fin 32) :
    (G1 W (Proc.devRef .tc main_v23) : S4096x256.Idx → EReal) (ix2 n (lane32 b c))
      = featK0 (inpOf W) (hxK (hidOf W) 0) n b c := by
  simp only [G1, hostOps1, hostOps1_1, hostOps1_2, hostOps1_3, hostOps1_4]
  after_results3
  refine (sc_merge_mid (B := 8) (C := 32) (by norm_num) _ _ n b c (lane32 b c) rfl).trans ?_
  by_cases h1 : c.val < 1
  · refine (cat3_last_fst (C1 := 1) (C2 := 16) (C3 := 15) (by norm_num) _ _ _ _ n b c h1).trans ?_
    refine Eq.trans ?_ (featK0_lo (inpOf W) (hxK (hidOf W) 0) n b c h1).symm
    show (shapeCast S4096x8x1 (transpose S4096x8 [1, 0] (W (Proc.devRef .tc main_arg0) : S8x4096.Idx → EReal) transposes_S8x4096_S4096x8_1_0) shapeCasts_S4096x8_S4096x8x1 : S4096x8x1.Idx → EReal) (ix3 n b (⟨c.val, h1⟩ : Fin 1)) = _
    refine (sc_add_unit_last _ _ n b _).trans ?_
    refine (transpose_ix2_apply _ _ n b).trans ?_
    rfl
  · by_cases h2 : c.val < 17
    · refine (cat3_last_snd (C1 := 1) (C2 := 16) (C3 := 15) (by norm_num) _ _ _ _ n b c h1 h2).trans ?_
      refine Eq.trans ?_ (featK0_mid (inpOf W) (hxK (hidOf W) 0) n b c h1 h2).symm
      show (transpose S4096x8x16 [1, 0, 2] (shapeCast S8x4096x16 (shapeCast S8x65536 (extractStridedSlice S1x8x65536 ![0, 0, 0] (W (Proc.devRef .tc main_arg1) : S2x8x65536.Idx → EReal) slices_S2x8x65536_S1x8x65536_0_0_0) shapeCasts_S1x8x65536_S8x65536) shapeCasts_S8x65536_S8x4096x16) transposes_S8x4096x16_S4096x8x16_1_0_2 : S4096x8x16.Idx → EReal) (ix3 n b (⟨c.val - 1, by omega⟩ : Fin 16)) = _
      refine (transpose_102_apply _ _ n b _).trans ?_
      refine (sc_split_mid (B := 4096) (C := 16) (by norm_num) _ _ b n _ (flat16 n ⟨c.val - 1, by omega⟩) rfl).trans ?_
      refine (shapeCast_1ab_ab_apply _ _ b _).trans ?_
      refine (slice3_first_apply 0 _ _ (0 : Fin 1) b _ (0 : Fin 2) rfl).trans ?_
      rfl
    · refine (cat3_last_thd (C1 := 1) (C2 := 16) (C3 := 15) (by norm_num) _ _ _ _ n b c h1 h2).trans ?_
      refine Eq.trans ?_ (featK0_hi (inpOf W) (hxK (hidOf W) 0) n b c h1 h2).symm
      show (broadcastInDim S4096x8x15 ![] bcast_S_S4096x8x15 (constant (F := Ideal) S_ .f32 0x00000000#32) : S4096x8x15.Idx → EReal) (ix3 n b (⟨c.val - (1 + 16), by have := c.isLt; omega⟩ : Fin 15)) = _
      refine (bcast_scalar_apply _ _ _ _).trans ?_
      exact Ideal.ofBits_zero_f32

end Cert.KernelIdeal.HostVal
end
-- ==== Proof.HostB.lean ====
import proofs.«172830_g53506702573898_cont_9to1_m_1152_4_alg».proof.Proof.HostA

set_option maxRecDepth 16384

/-
  The host operations between the regions of one layer, read at an index: the node-major feature arrays
  `[4096, 256]` regrouped as rows `[32768, 32]` (row `n * 8 + b`, lane c is node n, column `b * 32 + c`), and the
  candidate features rebuilt from the reset state.
-/
noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

variable (W : Valuation τ sig (Elt Ideal))

/-! ## The three terms as rows -/

theorem hostOps3_v26 (n : Fin 4096) (b : Fin 8) (c : Fin 32) :
    (StableHlo.after hostOps3 W (Proc.devRef .tc main_v26) : S32768x32.Idx → EReal) (ix2 (row8 n b) c)
      = (W (Proc.devRef .tc main_v23) : S4096x256.Idx → EReal) (ix2 n (lane32 b c)) := by
  simp only [hostOps3]
  after_results3
  exact sc_regroup (B := 8) (C := 32) (by norm_num) _ _ n b c (row8 n b) (lane32 b c) rfl rfl

theorem hostOps3_v27 (n : Fin 4096) (b : Fin 8) (c : Fin 32) :
    (StableHlo.after hostOps3 W (Proc.devRef .tc main_v27) : S32768x32.Idx → EReal) (ix2 (row8 n b) c)
      = (W (Proc.devRef .tc main_v24) : S4096x256.Idx → EReal) (ix2 n (lane32 b c)) := by
  simp only [hostOps3]
  after_results3
  exact sc_regroup (B := 8) (C := 32) (by norm_num) _ _ n b c (row8 n b) (lane32 b c) rfl rfl

theorem hostOps3_v28 (n : Fin 4096) (b : Fin 8) (c : Fin 32) :
    (StableHlo.after hostOps3 W (Proc.devRef .tc main_v28) : S32768x32.Idx → EReal) (ix2 (row8 n b) c)
      = (W (Proc.devRef .tc main_v25) : S4096x256.Idx → EReal) (ix2 n (lane32 b c)) := by
  simp only [hostOps3]
  after_results3
  exact sc_regroup (B := 8) (C := 32) (by norm_num) _ _ n b c (row8 n b) (lane32 b c) rfl rfl

theorem hostOps6_v36 (n : Fin 4096) (b : Fin 8) (c : Fin 32) :
    (StableHlo.after hostOps6 W (Proc.devRef .tc main_v36) : S32768x32.Idx → EReal) (ix2 (row8 n b) c)
      = (W (Proc.devRef .tc main_v33) : S4096x256.Idx → EReal) (ix2 n (lane32 b c)) := by
  simp only [hostOps6]
  after_results3
  exact sc_regroup (B := 8) (C := 32) (by norm_num) _ _ n b c (row8 n b) (lane32 b c) rfl rfl

theorem hostOps6_v37 (n : Fin 4096) (b : Fin 8) (c : Fin 32) :
    (StableHlo.after hostOps6 W (Proc.devRef .tc main_v37) : S32768x32.Idx → EReal) (ix2 (row8 n b) c)
      = (W (Proc.devRef .tc main_v34) : S4096x256.Idx → EReal) (ix2 n (lane32 b c)) := by
  simp only [hostOps6]
  after_results3
  exact sc_regroup (B := 8) (C := 32) (by norm_num) _ _ n b c (row8 n b) (lane32 b c) rfl rfl

theorem hostOps6_v38 (n : Fin 4096) (b : Fin 8) (c : Fin 32) :
    (StableHlo.after hostOps6 W (Proc.devRef .tc main_v38) : S32768x32.Idx → EReal) (ix2 (row8 n b) c)
      = (W (Proc.devRef .tc main_v35) : S4096x256.Idx → EReal) (ix2 n (lane32 b c)) := by
  simp only [hostOps6]
  after_results3
  exact sc_regroup (B := 8) (C := 32) (by norm_num) _ _ n b c (row8 n b) (lane32 b c) rfl rfl

theorem hostOps9_v66 (n : Fin 4096) (b : Fin 8) (c : Fin 32) :
    (StableHlo.after hostOps9 W (Proc.devRef .tc main_v66) : S32768x32.Idx → EReal) (ix2 (row8 n b) c)
      = (W (Proc.devRef .tc main_v63) : S4096x256.Idx → EReal) (ix2 n (lane32 b c)) := by
  simp only [hostOps9]
  after_results3
  exact sc_regroup (B := 8) (C := 32) (by norm_num) _ _ n b c (row8 n b) (lane32 b c) rfl rfl

theorem hostOps9_v67 (n : Fin 4096) (b : Fin 8) (c : Fin 32) :
    (StableHlo.after hostOps9 W (Proc.devRef .tc main_v67) : S32768x32.Idx → EReal) (ix2 (row8 n b) c)
      = (W (Proc.devRef .tc main_v64) : S4096x256.Idx → EReal) (ix2 n (lane32 b c)) := by
  simp only [hostOps9]
  after_results3
  exact sc_regroup (B := 8) (C := 32) (by norm_num) _ _ n b c (row8 n b) (lane32 b c) rfl rfl

theorem hostOps9_v68 (n : Fin 4096) (b : Fin 8) (c : Fin 32) :
    (StableHlo.after hostOps9 W (Proc.devRef .tc main_v68) : S32768x32.Idx → EReal) (ix2 (row8 n b) c)
      = (W (Proc.devRef .tc main_v65) : S4096x256.Idx → EReal) (ix2 n (lane32 b c)) := by
  simp only [hostOps9]
  after_results3
  exact sc_regroup (B := 8) (C := 32) (by norm_num) _ _ n b c (row8 n b) (lane32 b c) rfl rfl

theorem hostOps12_v76 (n : Fin 4096) (b : Fin 8) (c : Fin 32) :
    (StableHlo.after hostOps12 W (Proc.devRef .tc main_v76) : S32768x32.Idx → EReal) (ix2 (row8 n b) c)
      = (W (Proc.devRef .tc main_v73) : S4096x256.Idx → EReal) (ix2 n (lane32 b c)) := by
  simp only [hostOps12]
  after_results3
  exact sc_regroup (B := 8) (C := 32) (by norm_num) _ _ n b c (row8 n b) (lane32 b c) rfl rfl

theorem hostOps12_v77 (n : Fin 4096) (b : Fin 8) (c : Fin 32) :
    (StableHlo.after hostOps12 W (Proc.devRef .tc main_v77) : S32768x32.Idx → EReal) (ix2 (row8 n b) c)
      = (W (Proc.devRef .tc main_v74) : S4096x256.Idx → EReal) (ix2 n (lane32 b c)) := by
  simp only [hostOps12]
  after_results3
  exact sc_regroup (B := 8) (C := 32) (by norm_num) _ _ n b c (row8 n b) (lane32 b c) rfl rfl

theorem hostOps12_v78 (n : Fin 4096) (b : Fin 8) (c : Fin 32) :
    (StableHlo.after hostOps12 W (Proc.devRef .tc main_v78) : S32768x32.Idx → EReal) (ix2 (row8 n b) c)
      = (W (Proc.devRef .tc main_v75) : S4096x256.Idx → EReal) (ix2 n (lane32 b c)) := by
  simp only [hostOps12]
  after_results3
  exact sc_regroup (B := 8) (C := 32) (by norm_num) _ _ n b c (row8 n b) (lane32 b c) rfl rfl

/-! ## The candidate features -/

set_option maxHeartbeats 1000000 in
/-- Layer 1's candidate features: lane 0 the input, lanes 1..16 the reset state, the rest zero. -/
theorem hostOps4_v33 (n : Fin 4096) (b : Fin 8) (c : Fin 32) :
    (StableHlo.after hostOps4 W (Proc.devRef .tc main_v33) : S4096x256.Idx → EReal) (ix2 n (lane32 b c))
      = featK0 (fun b n => (W (Proc.devRef .tc main_v2) : S4096x8x1.Idx → EReal) (ix3 n b (0 : Fin 1)))
          (fun n b u => (W (Proc.devRef .tc main_v29_0) : S32768x16.Idx → EReal) (ix2 (row8 n b) u)) n b c := by
  simp only [hostOps4]
  after_results3
  refine (sc_merge_mid (B := 8) (C := 32) (by norm_num) _ _ n b c (lane32 b c) rfl).trans ?_
  by_cases h1 : c.val < 1
  · refine (cat3_last_fst (C1 := 1) (C2 := 16) (C3 := 15) (by norm_num) _ _ _ _ n b c h1).trans ?_
    refine Eq.trans ?_ (featK0_lo _ _ n b c h1).symm
    have e : (⟨c.val, h1⟩ : Fin 1) = 0 := Fin.ext (by show c.val = 0; omega)
    exact congrArg (fun z : Fin 1 => (W (Proc.devRef .tc main_v2) : S4096x8x1.Idx → EReal) (ix3 n b z)) e
  · by_cases h2 : c.val < 17
    · refine (cat3_last_snd (C1 := 1) (C2 := 16) (C3 := 15) (by norm_num) _ _ _ _ n b c h1 h2).trans ?_
      refine Eq.trans ?_ (featK0_mid _ _ n b c h1 h2).symm
      exact sc_split_lead _ _ n b _ (row8 n b) rfl
    · refine (cat3_last_thd (C1 := 1) (C2 := 16) (C3 := 15) (by norm_num) _ _ _ _ n b c h1 h2).trans ?_
      refine Eq.trans ?_ (featK0_hi _ _ n b c h1 h2).symm
      show (broadcastInDim S4096x8x15 ![] bcast_S_S4096x8x15 (constant (F := Ideal) S_ .f32 0x00000000#32) : S4096x8x15.Idx → EReal) (ix3 n b (⟨c.val - (1 + 16), by have := c.isLt; omega⟩ : Fin 15)) = _
      refine (bcast_scalar_apply _ _ _ _).trans ?_
      exact Ideal.ofBits_zero_f32

set_option maxHeartbeats 1000000 in
/-- Layer 2's candidate features: lanes 0..15 layer 1's new state, lanes 16..31 the reset state. -/
theorem hostOps10_v73 (n : Fin 4096) (b : Fin 8) (c : Fin 32) :
    (StableHlo.after hostOps10 W (Proc.devRef .tc main_v73) : S4096x256.Idx → EReal) (ix2 n (lane32 b c))
      = featK1 (fun n b u => (W (Proc.devRef .tc main_v40) : S4096x8x16.Idx → EReal) (ix3 n b u))
          (fun n b u => (W (Proc.devRef .tc main_v69_0) : S32768x16.Idx → EReal) (ix2 (row8 n b) u)) n b c := by
  simp only [hostOps10]
  after_results3
  refine (sc_merge_mid (B := 8) (C := 32) (by norm_num) _ _ n b c (lane32 b c) rfl).trans ?_
  by_cases h1 : c.val < 16
  · refine (cat3_last_fst (C1 := 16) (C2 := 16) (C3 := 0) (by norm_num) _ _ _ _ n b c h1).trans ?_
    refine Eq.trans ?_ (featK1_lo _ _ n b c h1).symm
    rfl
  · have h2 : c.val < 16 + 16 := c.isLt
    refine (cat3_last_snd (C1 := 16) (C2 := 16) (C3 := 0) (by norm_num) _ _ _ _ n b c h1 h2).trans ?_
    refine Eq.trans ?_ (featK1_hi _ _ n b c h1).symm
    exact sc_split_lead _ _ n b _ (row8 n b) rfl

end Cert.KernelIdeal.HostVal
end
-- ==== Proof.HostC.lean ====
import proofs.«172830_g53506702573898_cont_9to1_m_1152_4_alg».proof.Proof.HostA

set_option maxRecDepth 16384

/-
  The host operations after the last region, read at an index: the second layer's new state read back
  batch-major (position `n * 16 + u` of batch row b is row `n * 8 + b`, unit u), and the stack of both layers' states.
-/
noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

variable (W : Valuation τ sig (Elt Ideal))

/-- The first result: batch row b, position `n * 16 + u`. -/
theorem hostOps13_v82 (b : Fin 8) (n : Fin 4096) (u : Fin 16) :
    (StableHlo.after hostOps13 W (Proc.devRef .tc main_v82) : S8x65536.Idx → EReal) (ix2 b (flat16 n u))
      = (W (Proc.devRef .tc main_v79) : S32768x16.Idx → EReal) (ix2 (row8 n b) u) := by
  simp only [hostOps13]
  after_results3
  refine (sc_merge_mid (B := 4096) (C := 16) (by norm_num) _ _ b n u (flat16 n u) rfl).trans ?_
  refine (transpose_102_apply _ _ b n u).trans ?_
  exact sc_split_lead _ _ n b u (row8 n b) rfl

set_option maxHeartbeats 1000000 in
/-- The second result: layer l, batch row b, position `n * 16 + u`. -/
theorem hostOps13_v85 (l : Fin 2) (b : Fin 8) (n : Fin 4096) (u : Fin 16) :
    (StableHlo.after hostOps13 W (Proc.devRef .tc main_v85) : S2x8x65536.Idx → EReal) (ix3 l b (flat16 n u))
      = if l.val = 0 then (W (Proc.devRef .tc main_v42) : S8x65536.Idx → EReal) (ix2 b (flat16 n u))
        else (W (Proc.devRef .tc main_v79) : S32768x16.Idx → EReal) (ix2 (row8 n b) u) := by
  simp only [hostOps13]
  after_results3
  refine (cat2_first_apply _ _ _ l b (flat16 n u)).trans ?_
  by_cases h0 : l.val = 0
  · rw [if_pos h0, if_pos h0]
    exact bcast_add_lead_apply _ _ (0 : Fin 1) b (flat16 n u)
  · rw [if_neg h0, if_neg h0]
    refine (bcast_add_lead_apply _ _ (0 : Fin 1) b (flat16 n u)).trans ?_
    refine (sc_merge_mid (B := 4096) (C := 16) (by norm_num) _ _ b n u (flat16 n u) rfl).trans ?_
    refine (transpose_102_apply _ _ b n u).trans ?_
    exact sc_split_lead _ _ n b u (row8 n b) rfl

/-- The same at any position j of the row: node `j / 16`, unit `j % 16`. -/
theorem hostOps13_v82' (b : Fin 8) (j : Fin 65536) :
    (StableHlo.after hostOps13 W (Proc.devRef .tc main_v82) : S8x65536.Idx → EReal) (ix2 b j)
      = (W (Proc.devRef .tc main_v79) : S32768x16.Idx → EReal) (ix2 (row8 (node16 j) b) (unit16 j)) := by
  have h := hostOps13_v82 W b (node16 j) (unit16 j)
  rw [flat16_node16_unit16] at h
  exact h

theorem hostOps13_v85' (l : Fin 2) (b : Fin 8) (j : Fin 65536) :
    (StableHlo.after hostOps13 W (Proc.devRef .tc main_v85) : S2x8x65536.Idx → EReal) (ix3 l b j)
      = if l.val = 0 then (W (Proc.devRef .tc main_v42) : S8x65536.Idx → EReal) (ix2 b j)
        else (W (Proc.devRef .tc main_v79) : S32768x16.Idx → EReal) (ix2 (row8 (node16 j) b) (unit16 j)) := by
  have h := hostOps13_v85 W l b (node16 j) (unit16 j)
  rw [flat16_node16_unit16] at h
  exact h

end Cert.KernelIdeal.HostVal
end
-- ==== Proof.Reg0Val.lean ====
import proofs.«172830_g53506702573898_cont_9to1_m_1152_4_alg».proof.Proof.Reg0Dat
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: what each case's stores leave, as the skeleton's payloads of the blocks (any float instance) -/

theorem hz0 : (![0, 0] : Fin 2 → Nat) = fun _ => 0 := funext fun a => by fin_cases a <;> rfl

/-- In every case the bf16 output's buffer ends at the rounded maximum of the block and the transposed block. -/
theorem out_A_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x512 .f32) (x1 : Vec F S512x512 .f32) :
    out0_A_2 c i arg2 harg2 arg3 harg3 arg4 harg4 arg5 harg5 arg6 harg6 hc0 hc1 x0 x1 = k0_pay2 x0 x1 := by
  unfold out0_A_2
  rw [View.read_writes_eq_canon _ _ _ (cover0_A_2 c i arg2 harg2 arg3 harg3 arg4 harg4 arg5 harg5 arg6 harg6 hc0 hc1 x0 x1)]
  unfold kernelRun0_A
  dsimp only
  rw [View.canon_unit_zero hz0]
  simp only [View.readAt_eq_ld, harg2.read_unread, harg3.read_unread, harg6.read_unread, View.ld_unit_zero (S := S512x512) hz0, View.ld_unit_zero (S := S512x1) hz0]

theorem out_B_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x512 .f32) (x1 : Vec F S512x512 .f32) (xs0 : Vec F S512x1 .f32) :
    out0_B_2 c i arg2 harg2 arg3 harg3 arg4 harg4 arg5 harg5 arg6 harg6 hc0 hc1 x0 x1 xs0 = k0_pay2 x0 x1 := by
  unfold out0_B_2
  rw [View.read_writes_eq_canon _ _ _ (cover0_B_2 c i arg2 harg2 arg3 harg3 arg4 harg4 arg5 harg5 arg6 harg6 hc0 hc1 x0 x1 xs0)]
  unfold kernelRun0_B
  dsimp only
  rw [View.canon_unit_zero hz0]
  simp only [View.readAt_eq_ld, harg2.read_unread, harg3.read_unread, harg6.read_unread, View.ld_unit_zero (S := S512x512) hz0, View.ld_unit_zero (S := S512x1) hz0]

theorem out_C_2 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x512 .f32) (x1 : Vec F S512x512 .f32) (xs0 : Vec F S512x1 .f32) :
    out0_C_2 c i arg2 harg2 arg3 harg3 arg4 harg4 arg5 harg5 arg6 harg6 hc0 hc1 x0 x1 xs0 = k0_pay2 x0 x1 := by
  unfold out0_C_2
  rw [View.read_writes_eq_canon _ _ _ (cover0_C_2 c i arg2 harg2 arg3 harg3 arg4 harg4 arg5 harg5 arg6 harg6 hc0 hc1 x0 x1 xs0)]
  unfold kernelRun0_C
  dsimp only
  rw [View.canon_unit_zero hz0]
  simp only [View.readAt_eq_ld, harg2.read_unread, harg3.read_unread, harg6.read_unread, View.ld_unit_zero (S := S512x512) hz0, View.ld_unit_zero (S := S512x1) hz0]

/-- Case B leaves the accumulator at its entry contents plus the block's row sums. -/
theorem sout_B_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : ¬cond0_1 i) (x0 : Vec F S512x512 .f32) (x1 : Vec F S512x512 .f32) (xs0 : Vec F S512x1 .f32) :
    sout0_B_0 c i arg2 harg2 arg3 harg3 arg4 harg4 arg5 harg5 arg6 harg6 hc0 hc1 x0 x1 xs0 = k0_pay4 x0 x1 xs0 := by
  unfold sout0_B_0
  rw [View.read_writes_eq_canon _ _ _ (scover0_B_0 c i arg2 harg2 arg3 harg3 arg4 harg4 arg5 harg5 arg6 harg6 hc0 hc1 x0 x1 xs0)]
  unfold kernelRun0_B
  dsimp only
  rw [View.canon_unit_zero hz0]
  simp only [View.readAt_eq_ld, harg2.read_unread, harg3.read_unread, harg6.read_unread, View.ld_unit_zero (S := S512x512) hz0, View.ld_unit_zero (S := S512x1) hz0]

/-- Case A zeroes the accumulator first: it leaves zero plus the block's row sums. -/
theorem sout_A_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : cond0_0 i) (hc1 : ¬cond0_1 i) (x0 : Vec F S512x512 .f32) (x1 : Vec F S512x512 .f32) :
    sout0_A_0 c i arg2 harg2 arg3 harg3 arg4 harg4 arg5 harg5 arg6 harg6 hc0 hc1 x0 x1 = k0_pay4 x0 x1 k0_pay3 := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  rw [View.canon_cons_unit_zero (S := S512x1) hz0, View.readCov_unit_zero (S := S512x1) _ hz0]
  simp only [View.readAt_eq_ld, harg2.read_unread, harg3.read_unread, harg6.read_unread, View.ld_unit_zero (S := S512x512) hz0, View.ld_unit_zero (S := S512x1) hz0]

/-- Case C leaves the accumulator as case B does, -/
theorem sout_C_0 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x512 .f32) (x1 : Vec F S512x512 .f32) (xs0 : Vec F S512x1 .f32) :
    sout0_C_0 c i arg2 harg2 arg3 harg3 arg4 harg4 arg5 harg5 arg6 harg6 hc0 hc1 x0 x1 xs0 = k0_pay4 x0 x1 xs0 := by
  unfold sout0_C_0
  rw [View.read_writes_eq_canon _ _ _ (scover0_C_0 c i arg2 harg2 arg3 harg3 arg4 harg4 arg5 harg5 arg6 harg6 hc0 hc1 x0 x1 xs0)]
  unfold kernelRun0_C
  dsimp only
  sl_unfold_words
  rw [View.canon_unit_zero hz0]
  simp only [View.readAt_eq_ld, harg2.read_unread, harg3.read_unread, harg6.read_unread, View.ld_unit_zero (S := S512x512) hz0, View.ld_unit_zero (S := S512x1) hz0]

/-- and stores, into the row-sum output, the guarded reciprocal square root of what it has just left there. -/
theorem out_C_3 (c : Dev nD) (i : grid0.Coords) (arg2 : Memref sig .tc .vmem S512x512 .f32) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x1 .f32) (harg5 : arg5.IsWhole) (arg6 : Memref sig .tc .vmem S512x1 .f32) (harg6 : arg6.IsWhole) (hc0 : ¬cond0_0 i) (hc1 : cond0_1 i) (x0 : Vec F S512x512 .f32) (x1 : Vec F S512x512 .f32) (xs0 : Vec F S512x1 .f32) :
    out0_C_3 c i arg2 harg2 arg3 harg3 arg4 harg4 arg5 harg5 arg6 harg6 hc0 hc1 x0 x1 xs0 = k0_pay5 (k0_pay4 x0 x1 xs0) := by
  unfold out0_C_3
  rw [View.read_writes_eq_canon _ _ _ (cover0_C_3 c i arg2 harg2 arg3 harg3 arg4 harg4 arg5 harg5 arg6 harg6 hc0 hc1 x0 x1 xs0)]
  unfold kernelRun0_C
  dsimp only
  sl_unfold_words
  rw [View.canon_unit_zero hz0, View.readCov_unit_zero (S := S512x1) _ hz0]
  simp only [View.readAt_eq_ld, harg2.read_unread, harg3.read_unread, harg6.read_unread, View.ld_unit_zero (S := S512x512) hz0, View.ld_unit_zero (S := S512x1) hz0]

end Cert.KernelIdeal.Reg

end
-- ==== Proof.Reg0Val2.lean ====
import proofs.«172830_g53506702573898_cont_9to1_m_1152_4_alg».proof.Proof.Reg0Val

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the buffers' contents point by point in closed form (any float instance) -/

/-- The accumulator after point `n`: zero at the start of each row of blocks, then plus the row sums of each block's
    symmetrised maximum, in point order. -/
def acc0 (c : Dev nD) : (n : ℕ) → n < cfg0.N → Vec F S512x1 .f32
  | 0, h => k0_pay4 (iblk0 V c 0 ⟨0, h⟩) (iblk0 V c 1 ⟨0, h⟩) k0_pay3
  | n + 1, h => k0_pay4 (iblk0 V c 0 ⟨n + 1, h⟩) (iblk0 V c 1 ⟨n + 1, h⟩)
      (if (n + 1) % 8 = 0 then k0_pay3 else acc0 c n (Nat.lt_of_succ_lt h))

theorem acc0_succ (c : Dev nD) (n : ℕ) (h : n + 1 < cfg0.N) :
    acc0 V c (n + 1) h = k0_pay4 (iblk0 V c 0 ⟨n + 1, h⟩) (iblk0 V c 1 ⟨n + 1, h⟩)
      (if (n + 1) % 8 = 0 then k0_pay3 else acc0 V c n (Nat.lt_of_succ_lt h)) := rfl

theorem acc0_zero (c : Dev nD) (t : Fin cfg0.N) (h0 : t.val % 8 = 0) :
    acc0 V c t.val t.isLt = k0_pay4 (iblk0 V c 0 t) (iblk0 V c 1 t) k0_pay3 := by
  obtain ⟨n, hn⟩ := t
  cases n with
  | zero => rfl
  | succ n => exact (acc0_succ V c n hn).trans (by rw [if_pos h0])

theorem acc0_pos (c : Dev nD) (t : Fin cfg0.N) (h0 : ¬t.val % 8 = 0) :
    acc0 V c t.val t.isLt = k0_pay4 (iblk0 V c 0 t) (iblk0 V c 1 t) (acc0 V c (t.val - 1) (Nat.lt_of_le_of_lt (Nat.sub_le _ _) t.isLt)) := by
  obtain ⟨n, hn⟩ := t
  cases n with
  | zero => exact absurd (Nat.zero_mod _) h0
  | succ n => exact (acc0_succ V c n hn).trans (by rw [if_neg h0]; rfl)

/-- The carried component of `outsAt0` is the accumulator's closed form — by induction on the point. -/
theorem outsAt0_acc (c : Dev nD) : ∀ (n : ℕ) (hn : n < cfg0.N), (outsAt0 V c n hn).2.2 = acc0 V c n hn
  | 0, hn => by
    have h0 : (⟨0, hn⟩ : Fin cfg0.N).val % 8 = 0 := rfl
    have h1 : ¬(⟨0, hn⟩ : Fin cfg0.N).val % 8 = 7 := fun h' => by simp at h'
    rw [outsAt0_A V c ⟨0, hn⟩ h0 h1]
    dsimp only
    exact sout_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr h0) (fun h => h1 ((hcond0_1 ⟨0, hn⟩).mp h)) (iblk0 V c 0 ⟨0, hn⟩) (iblk0 V c 1 ⟨0, hn⟩)
  | n + 1, hn => by
    by_cases h0 : (n + 1) % 8 = 0
    · have h1 : ¬(n + 1) % 8 = 7 := by omega
      rw [outsAt0_A V c ⟨n + 1, hn⟩ h0 h1, acc0_zero V c ⟨n + 1, hn⟩ h0]
      dsimp only
      exact sout_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩)
    · rw [acc0_succ, if_neg h0]
      by_cases h1 : (n + 1) % 8 = 7
      · rw [outsAt0_C V c ⟨n + 1, hn⟩ h0 h1]
        dsimp only
        refine (sout_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 V c n (Nat.lt_of_succ_lt hn)).2.2).trans ?_
        exact congrArg (k0_pay4 (iblk0 V c 0 ⟨n + 1, hn⟩) (iblk0 V c 1 ⟨n + 1, hn⟩)) (outsAt0_acc c n (Nat.lt_of_succ_lt hn))
      · rw [outsAt0_B V c ⟨n + 1, hn⟩ h0 h1]
        dsimp only
        refine (sout_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 V c n (Nat.lt_of_succ_lt hn)).2.2).trans ?_
        exact congrArg (k0_pay4 (iblk0 V c 0 ⟨n + 1, hn⟩) (iblk0 V c 1 ⟨n + 1, hn⟩)) (outsAt0_acc c n (Nat.lt_of_succ_lt hn))

/-- After every point the bf16 output's buffer holds the rounded symmetrised maximum of the point's two blocks. -/
theorem outsAt0_amax (c : Dev nD) (t : Fin cfg0.N) :
    (outsAt0 V c t.val t.isLt).1 = k0_pay2 (iblk0 V c 0 t) (iblk0 V c 1 t) := by
  by_cases h0 : t.val % 8 = 0
  · have h1 : ¬t.val % 8 = 7 := by omega
    rw [outsAt0_A V c t h0 h1]
    dsimp only
    exact out_A_2 c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk0 V c 0 t) (iblk0 V c 1 t)
  · by_cases h1 : t.val % 8 = 7
    · rw [outsAt0_C V c t h0 h1]
      dsimp only
      exact out_C_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2
    · rw [outsAt0_B V c t h0 h1]
      dsimp only
      exact out_B_2 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2.2

/-- At the last point of each row of blocks the row-sum output's buffer holds the guarded reciprocal square root of the
    accumulator. -/
theorem outsAt0_dis (c : Dev nD) (t : Fin cfg0.N) (h1 : t.val % 8 = 7) :
    (outsAt0 V c t.val t.isLt).2.1 = k0_pay5 (acc0 V c t.val t.isLt) := by
  have h0 : ¬t.val % 8 = 0 := by omega
  rw [outsAt0_C V c t h0 h1, acc0_pos V c t h0]
  dsimp only
  refine (out_C_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2.2).trans ?_
  exact congrArg (fun a => k0_pay5 (k0_pay4 (iblk0 V c 0 t) (iblk0 V c 1 t) a)) (outsAt0_acc V c (t.val - 1) (Nat.lt_of_le_of_lt (Nat.sub_le _ _) t.isLt))

end Cert.KernelIdeal.Reg

end
-- ==== Proof.Reg0Val3.lean ====
import proofs.«172830_g53506702573898_cont_9to1_m_1152_4_alg».proof.Proof.Reg0Val2
import Idealize.ShloMosaic.Lib.ValueIdx

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

open Idealize.ShloMosaic.ValueIdx

/-! # Region 0: the blocks read at an index, and the bf16 output array after the region -/

/-- The windows' block indices at point `t` of the 8 x 8 grid: (row block, column block) for the first input and the
    bf16 output, swapped for the second input, (row block, 0) for the row-sum output. -/
theorem idx0_0 : ∀ t : Fin cfg0.N, win0_0.index t 0 = t.val / 8 ∧ win0_0.index t 1 = t.val % 8 :=
  (by decide +kernel : ∀ t : Fin grid0.N, win0_0.index t 0 = t.val / 8 ∧ win0_0.index t 1 = t.val % 8)
theorem idx0_1 : ∀ t : Fin cfg0.N, win0_1.index t 0 = t.val % 8 ∧ win0_1.index t 1 = t.val / 8 :=
  (by decide +kernel : ∀ t : Fin grid0.N, win0_1.index t 0 = t.val % 8 ∧ win0_1.index t 1 = t.val / 8)
theorem idx0_2 : ∀ t : Fin cfg0.N, win0_2.index t 0 = t.val / 8 ∧ win0_2.index t 1 = t.val % 8 :=
  (by decide +kernel : ∀ t : Fin grid0.N, win0_2.index t 0 = t.val / 8 ∧ win0_2.index t 1 = t.val % 8)
theorem idx0_3 : ∀ t : Fin cfg0.N, win0_3.index t 0 = t.val / 8 ∧ win0_3.index t 1 = 0 :=
  (by decide +kernel : ∀ t : Fin grid0.N, win0_3.index t 0 = t.val / 8 ∧ win0_3.index t 1 = 0)

/-- The first input's block at point `t`, at `j`, is the adjacency array at (512·(t / 8) + j₀, 512·(t % 8) + j₁). -/
theorem iblk0_0_apply (c : Dev nD) (t : Fin cfg0.N) (j : S512x512.Idx) (k : S4096x4096.Idx)
    (hk0 : (k 0).val = 512 * (t.val / 8) + (j 0).val) (hk1 : (k 1).val = 512 * (t.val % 8) + (j 1).val) :
    (iblk0 V c 0 t : Vec F S512x512 .f32) j = V c main_arg2 k := by
  have hi := idx0_0 t
  unfold iblk0
  rw [View.read_apply]
  show V c main_arg2 _ = V c main_arg2 _
  congr 1
  funext a
  apply Fin.ext
  match a with
  | ⟨0, _⟩ => show win0_0.index t 0 * 512 + 1 * (j 0).val = (k 0).val; rw [hi.1, hk0]; omega
  | ⟨1, _⟩ => show win0_0.index t 1 * 512 + 1 * (j 1).val = (k 1).val; rw [hi.2, hk1]; omega

/-- The second input's block at point `t`, at `j`, is the adjacency array at (512·(t % 8) + j₀, 512·(t / 8) + j₁). -/
theorem iblk0_1_apply (c : Dev nD) (t : Fin cfg0.N) (j : S512x512.Idx) (k : S4096x4096.Idx)
    (hk0 : (k 0).val = 512 * (t.val % 8) + (j 0).val) (hk1 : (k 1).val = 512 * (t.val / 8) + (j 1).val) :
    (iblk0 V c 1 t : Vec F S512x512 .f32) j = V c main_arg2 k := by
  have hi := idx0_1 t
  unfold iblk0
  rw [View.read_apply]
  show V c main_arg2 _ = V c main_arg2 _
  congr 1
  funext a
  apply Fin.ext
  match a with
  | ⟨0, _⟩ => show win0_1.index t 0 * 512 + 1 * (j 0).val = (k 0).val; rw [hi.1, hk0]; omega
  | ⟨1, _⟩ => show win0_1.index t 1 * 512 + 1 * (j 1).val = (k 1).val; rw [hi.2, hk1]; omega

/-- The symmetrised maximum of the adjacency array as the region finds it, at full precision. -/
def sym0 (c : Dev nD) (p q : Fin 4096) : F .f32 :=
  FloatOps.maximumf (V c main_arg2 (ix2 p q) : F .f32) (V c main_arg2 (ix2 q p) : F .f32)

/-- The full-precision maximum at an index of the block: the symmetrised maximum at the array index under it. -/
theorem pay1_apply (c : Dev nD) (t : Fin cfg0.N) (j : S512x512.Idx) (p q : Fin 4096)
    (hp : p.val = 512 * (t.val / 8) + (j 0).val) (hq : q.val = 512 * (t.val % 8) + (j 1).val) :
    k0_pay1 (iblk0 V c 0 t) (iblk0 V c 1 t) j = sym0 V c p q := by
  unfold k0_pay1 sym0
  show FloatOps.maximumf ((iblk0 V c 0 t : Vec F S512x512 .f32) j)
    (transpose S512x512 [1, 0] (iblk0 V c 1 t : Vec F S512x512 .f32) transposes_S512x512_p1_0_S512x512 j) = _
  rw [iblk0_0_apply V c t j (ix2 p q) hp hq,
    transpose_apply [1, 0] (iblk0 V c 1 t : Vec F S512x512 .f32) transposes_S512x512_p1_0_S512x512 j (ix2 (j 1) (j 0))
      (fun b => by match b with | ⟨0, _⟩ => rfl | ⟨1, _⟩ => rfl),
    iblk0_1_apply V c t (ix2 (j 1) (j 0)) (ix2 q p) hq hp]

/-- The payload of the bf16 store at an index of the block: the rounded symmetrised maximum at the array index under it. -/
theorem pay2_apply (c : Dev nD) (t : Fin cfg0.N) (j : S512x512.Idx) (p q : Fin 4096)
    (hp : p.val = 512 * (t.val / 8) + (j 0).val) (hq : q.val = 512 * (t.val % 8) + (j 1).val) :
    k0_pay2 (iblk0 V c 0 t) (iblk0 V c 1 t) j = FloatOps.truncf .bf16 bitsLt_bf16_f32 (sym0 V c p q) := by
  rw [← pay1_apply V c t j p q hp hq]
  rfl

end Cert.KernelIdeal.Reg

end
-- ==== Proof.Reg0ValI.lean ====
import proofs.«172830_g53506702573898_cont_9to1_m_1152_4_alg».proof.Proof.Reg0Val3
import proofs.«172830_g53506702573898_cont_9to1_m_1152_4_alg».proof.Proof.SpecKer
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

open Idealize.ShloMosaic.ValueIdx
open scoped BigOperators

/-! # Region 0 at the ideal values: the accumulator is the partial degree, the row-sum output its guarded reciprocal root -/

/-- The adjacency array as the region finds it, by coordinates. -/
def adj0 (c : Dev nD) (p q : Fin 4096) : EReal := V c main_arg2 (ix2 p q)

/-- At the ideal values the symmetrised maximum is the larger of an entry and its transpose's. -/
theorem sym0_eq (c : Dev nD) (p q : Fin 4096) : sym0 V c p q = Cert.SpecRef.amax (adj0 V c) p q := rfl

/-- The word of +0.0 denotes zero. -/
theorem ofBits_zero : Ideal.ofBits .f32 0x00000000#32 = 0 := by simp [Ideal.ofBits, Ideal.ieee]

/-- The accumulator's store at row `r`: what it held plus the block's row sum of the full-precision maximum. -/
theorem pay4_apply (x0 x1 : Vec Ideal S512x512 .f32) (v9 : Vec Ideal S512x1 .f32) (r : Fin 512) (z : Fin 1) :
    k0_pay4 x0 x1 v9 (ix2 r z) = v9 (ix2 r z) + ∑ s : Fin 512, k0_pay1 x0 x1 (ix2 r s) := by
  unfold k0_pay4
  rw [shapeCast_self]
  rw [addf_apply]
  congr 1
  refine (shapeCast_apply _ shapeCasts_S512_S512x1 (ix2 r z) (ix1 r) ?_).trans ?_
  · rw [Shape.rowMajor_val_one, Shape.rowMajor_val_two]
    show r.val = r.val * 1 + z.val
    omega
  · refine (Ideal.multiReduction_add_single (k0_pay1 x0 x1) _ reduces_S512x512_S512 _ _ (ix1 r)).trans ?_
    refine Finset.sum_congr rfl fun s _ => congrArg (k0_pay1 x0 x1) ?_
    funext a
    apply Fin.ext
    match a with
    | ⟨0, _⟩ => rfl
    | ⟨1, _⟩ => rfl

/-- The zero block the first conditional stores. -/
theorem pay3_apply (j : S512x1.Idx) : k0_pay3 (F := Ideal) j = 0 := by
  unfold k0_pay3
  rw [shapeCast_self]
  exact ofBits_zero

/-- The row-sum store at an index: the guarded reciprocal square root of the accumulator there. -/
theorem pay5_apply (v19 : Vec Ideal S512x1 .f32) (j : S512x1.Idx) :
    k0_pay5 v19 j = if 0 < v19 j then Ideal.rsqrt (max (v19 j) Cert.SpecRef.eps) else 0 := by
  show Scalar.select (Ideal.cmp .ogt (v19 j) (Ideal.ofBits .f32 0x00000000#32))
      (Ideal.rsqrt (max (v19 j) (Ideal.ofBits .f32 0x2B8CBCCC#32))) (Ideal.ofBits .f32 0x00000000#32) = _
  rw [ofBits_zero]
  unfold Scalar.select Ideal.cmp Cert.SpecRef.eps
  by_cases h : 0 < v19 j
  · rw [if_pos h]; simp [h]
  · rw [if_neg h]; simp [h]

end Cert.KernelIdeal.Reg

end
-- ==== Proof.Reg0ValI2.lean ====
import proofs.«172830_g53506702573898_cont_9to1_m_1152_4_alg».proof.Proof.Reg0ValI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

open Idealize.ShloMosaic.ValueIdx
open scoped BigOperators
open Cert.SpecRef Cert.SpecKer

/-! # Region 0 at the ideal values: the accumulator point by point, and the two output arrays after the region -/

/-- Row `p`'s sum of the symmetrised adjacency over column block `b` (read modulo 8). -/
def rowsum0 (c : Dev nD) (p : Fin 4096) (b : ℕ) : EReal :=
  ∑ k : Fin 512, amax (adj0 V c) p ⟨(b % 8) * 512 + k.val, by have := Nat.mod_lt b (show 0 < 8 by norm_num); have := k.isLt; omega⟩

/-- One point's contribution to the accumulator at row `r` of its row block: that row's sum over the point's column block. -/
theorem blocksum0 (c : Dev nD) (t : Fin cfg0.N) (r : Fin 512) (p : Fin 4096) (hp : p.val = 512 * (t.val / 8) + r.val) :
    ∑ s : Fin 512, k0_pay1 (iblk0 V c 0 t) (iblk0 V c 1 t) (ix2 r s) = rowsum0 V c p (t.val % 8) := by
  unfold rowsum0
  simp only [Nat.mod_mod]
  refine Finset.sum_congr rfl fun s _ => ?_
  rw [pay1_apply V c t (ix2 r s) p ⟨(t.val % 8) * 512 + s.val, by have := Nat.mod_lt t.val (show 0 < 8 by norm_num); have := s.isLt; omega⟩ hp
    (by show (t.val % 8) * 512 + s.val = 512 * (t.val % 8) + s.val; omega)]
  rfl

/-- THE ACCUMULATOR after point `n`, at row `r`: the row's sums over the column blocks walked so far in this row of
    blocks — by induction on the point. -/
theorem acc0_val (c : Dev nD) : ∀ (n : ℕ) (hn : n < cfg0.N) (r : Fin 512) (z : Fin 1) (p : Fin 4096),
    p.val = 512 * (n / 8) + r.val →
    acc0 V c n hn (ix2 r z) = ∑ b ∈ Finset.range (n % 8 + 1), rowsum0 V c p b
  | 0, hn, r, z, p, hp => by
    show k0_pay4 (iblk0 V c 0 ⟨0, hn⟩) (iblk0 V c 1 ⟨0, hn⟩) (k0_pay3 (F := Ideal)) (ix2 r z) = _
    rw [pay4_apply, pay3_apply, zero_add, blocksum0 V c ⟨0, hn⟩ r p hp]
    simp
  | n + 1, hn, r, z, p, hp => by
    rw [acc0_succ, pay4_apply, blocksum0 V c ⟨n + 1, hn⟩ r p hp]
    by_cases h0 : (n + 1) % 8 = 0
    · rw [if_pos h0, pay3_apply, zero_add]
      show rowsum0 V c p ((n + 1) % 8) = _
      rw [h0]
      simp
    · have hdiv : (n + 1) / 8 = n / 8 := by omega
      rw [if_neg h0, acc0_val c n (Nat.lt_of_succ_lt hn) r z p (hp.trans (by rw [hdiv]))]
      show _ + rowsum0 V c p ((n + 1) % 8) = _
      rw [show (n + 1) % 8 = n % 8 + 1 from by omega]
      exact (Finset.sum_range_succ _ (n % 8 + 1)).symm

/-- Eight column blocks make the row: the walked sums are the degree. -/
theorem rowsums_eq_degK (c : Dev nD) (p : Fin 4096) :
    ∑ b ∈ Finset.range 8, rowsum0 V c p b = degK (adj0 V c) p := by
  unfold degK
  rw [Finset.sum_range]
  refine Finset.sum_congr rfl fun b _ => ?_
  unfold rowsum0
  refine Finset.sum_congr rfl fun k _ => congrArg (amax (adj0 V c) p) (Fin.ext ?_)
  show (b.val % 8) * 512 + k.val = b.val * 512 + k.val
  rw [Nat.mod_eq_of_lt b.isLt]

end Cert.KernelIdeal.Reg

end
-- ==== Proof.Reg0ValI3.lean ====
import proofs.«172830_g53506702573898_cont_9to1_m_1152_4_alg».proof.Proof.Reg0ValI2

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (V : (c : Dev nD) → (b : Ref sig .tc) → Buf (Elt Ideal) ((c : Thread nD τ).loc b))

open Idealize.ShloMosaic.ValueIdx
open scoped BigOperators
open Cert.SpecRef Cert.SpecKer

/-! # Region 0 at the ideal values: the two output arrays after the region -/

/-- The bf16 output array after the region: the symmetrised adjacency. -/
def amaxArr0 (c : Dev nD) : Buf (Elt Ideal) ((c : Thread nD τ).loc main_v0_0) :=
  fun k => amax (adj0 V c) (k 0) (k 1)

/-- The row-sum output array after the region: the guarded reciprocal square root of each row's degree. -/
def disArr0 (c : Dev nD) : Buf (Elt Ideal) ((c : Thread nD τ).loc main_v0_1) :=
  fun k => disK (adj0 V c) (k 0)

/-- Every point writes its bf16 block back; -/
theorem xsize0_2 : ∀ t : Fin cfg0.N, win0_2.xsize (grid0.coords t) 0 = 512 ∧ win0_2.xsize (grid0.coords t) 1 = 512 :=
  (by decide +kernel : ∀ t : Fin grid0.N, win0_2.xsize (grid0.coords t) 0 = 512 ∧ win0_2.xsize (grid0.coords t) 1 = 512)
theorem xsize0_3 : ∀ t : Fin cfg0.N, win0_3.xsize (grid0.coords t) 0 = 512 ∧ win0_3.xsize (grid0.coords t) 1 = 1 :=
  (by decide +kernel : ∀ t : Fin grid0.N, win0_3.xsize (grid0.coords t) 0 = 512 ∧ win0_3.xsize (grid0.coords t) 1 = 1)

/-- what it writes is the block of the symmetrised adjacency under it. -/
theorem flushed0_2 (c : Dev nD) (t : Fin cfg0.N) (hf : (cfg0.win 2).flush t = true) :
    (dat0 V c).flushed 2 t = ((cfg0.win 2).blk t).view.read (Elt Ideal) (amaxArr0 V c) := by
  have hi := idx0_2 t
  show (cfg0.win 2).cut (grid0.coords t) ((dat0 V c).after 2 t) = _
  rw [after0_2, outsAt0_amax]
  funext j
  rw [View.read_apply]
  show k0_pay2 (iblk0 V c 0 t) (iblk0 V c 1 t) j = amaxArr0 V c _
  unfold amaxArr0
  refine (pay2_apply V c t j _ _ ?_ ?_).trans rfl
  · show win0_2.index t 0 * 512 + 1 * (j 0).val = _; rw [hi.1]; omega
  · show win0_2.index t 1 * 512 + 1 * (j 1).val = _; rw [hi.2]; omega

/-- THE bf16 OUTPUT ARRAY after the region is the symmetrised adjacency: the 64 blocks tile it. -/
theorem arrAt0_2 (c : Dev nD) : (dat0 V c).arrAt 2 cfg0.N = amaxArr0 V c :=
  (dat0 V c).arrAt_eq_of_cover 2 (amaxArr0 V c) (flushed0_2 V c) fun i => by
    have h0 : (i 0 : Nat) < 4096 := (i 0).isLt
    have h1 : (i 1 : Nat) < 4096 := (i 1).isLt
    have hN : cfg0.N = 64 := N_0
    refine ⟨⟨8 * ((i 0 : Nat) / 512) + (i 1 : Nat) / 512, by rw [hN]; omega⟩, flush0_2 _, ?_⟩
    generalize ht : (⟨8 * ((i 0 : Nat) / 512) + (i 1 : Nat) / 512, _⟩ : Fin cfg0.N) = t
    have htv : t.val = 8 * ((i 0 : Nat) / 512) + (i 1 : Nat) / 512 := by rw [← ht]
    have hi := idx0_2 t
    have hx := xsize0_2 t
    show i ∈ ((View.whole main_v0_0).slice (win0_2.rect t)).set
    rw [View.set_slice_whole, Rect.mem_set_unit]
    intro a
    match a with
    | ⟨0, _⟩ =>
      show win0_2.index t 0 * win0_2.size 0 ≤ (i 0 : Nat) ∧ (i 0 : Nat) < win0_2.index t 0 * win0_2.size 0 + win0_2.xsize (grid0.coords t) 0
      rw [hi.1, hx.1, show win0_2.size 0 = 512 from rfl]; omega
    | ⟨1, _⟩ =>
      show win0_2.index t 1 * win0_2.size 1 ≤ (i 1 : Nat) ∧ (i 1 : Nat) < win0_2.index t 1 * win0_2.size 1 + win0_2.xsize (grid0.coords t) 1
      rw [hi.2, hx.2, show win0_2.size 1 = 512 from rfl]; omega

/-- The row-sum store at row `r` of the last point of a row of blocks: the guarded reciprocal root of that row's degree. -/
theorem dis_at (c : Dev nD) (t : Fin cfg0.N) (h7 : t.val % 8 = 7) (r : Fin 512) (z : Fin 1) (p : Fin 4096)
    (hp : p.val = 512 * (t.val / 8) + r.val) :
    k0_pay5 (acc0 V c t.val t.isLt) (ix2 r z) = disK (adj0 V c) p := by
  rw [pay5_apply, acc0_val V c t.val t.isLt r z p hp, h7, rowsums_eq_degK]
  rfl

/-- At the end of each row of blocks the row-sum window writes back the guarded reciprocal root of the rows' degrees. -/
theorem flushed0_3 (c : Dev nD) (t : Fin cfg0.N) (hf : (cfg0.win 3).flush t = true) :
    (dat0 V c).flushed 3 t = ((cfg0.win 3).blk t).view.read (Elt Ideal) (disArr0 V c) := by
  have h7 : t.val % 8 = 7 := (flush0_3 t).mp hf
  have hi := idx0_3 t
  show (cfg0.win 3).cut (grid0.coords t) ((dat0 V c).after 3 t) = _
  rw [after0_3, outsAt0_dis V c t h7]
  refine funext fun (j : S512x1.Idx) => ?_
  rw [View.read_apply]
  show k0_pay5 (acc0 V c t.val t.isLt) j = disArr0 V c _
  have hj := eq_ix2 (n0 := 512) (n1 := 1) j
  rw [hj]
  exact dis_at V c t h7 (j 0) (j 1) _
    (by show win0_3.index t 0 * 512 + 1 * (j 0).val = _; rw [hi.1]; omega)

/-- THE ROW-SUM OUTPUT ARRAY after the region is the guarded reciprocal root of the degrees: the 8 blocks tile it. -/
theorem arrAt0_3 (c : Dev nD) : (dat0 V c).arrAt 3 cfg0.N = disArr0 V c :=
  (dat0 V c).arrAt_eq_of_cover 3 (disArr0 V c) (flushed0_3 V c) fun i => by
    have h0 : (i 0 : Nat) < 4096 := (i 0).isLt
    have h1 : (i 1 : Nat) < 1 := (i 1).isLt
    have hN : cfg0.N = 64 := N_0
    refine ⟨⟨8 * ((i 0 : Nat) / 512) + 7, by rw [hN]; omega⟩, (flush0_3 _).mpr (by show (8 * ((i 0 : Nat) / 512) + 7) % 8 = 7; omega), ?_⟩
    generalize ht : (⟨8 * ((i 0 : Nat) / 512) + 7, _⟩ : Fin cfg0.N) = t
    have htv : t.val = 8 * ((i 0 : Nat) / 512) + 7 := by rw [← ht]
    have hi := idx0_3 t
    have hx := xsize0_3 t
    show i ∈ ((View.whole main_v0_1).slice (win0_3.rect t)).set
    rw [View.set_slice_whole, Rect.mem_set_unit]
    intro a
    match a with
    | ⟨0, _⟩ =>
      show win0_3.index t 0 * win0_3.size 0 ≤ (i 0 : Nat) ∧ (i 0 : Nat) < win0_3.index t 0 * win0_3.size 0 + win0_3.xsize (grid0.coords t) 0
      rw [hi.1, hx.1, show win0_3.size 0 = 512 from rfl]; omega
    | ⟨1, _⟩ =>
      show win0_3.index t 1 * win0_3.size 1 ≤ (i 1 : Nat) ∧ (i 1 : Nat) < win0_3.index t 1 * win0_3.size 1 + win0_3.xsize (grid0.coords t) 1
      rw [hi.2, hx.2, show win0_3.size 1 = 1 from rfl]; omega

/-- The two input windows' array is never written. -/
theorem arrAt0_0 (c : Dev nD) (n : ℕ) : (dat0 V c).arrAt 0 n = V c main_arg2 :=
  ((dat0 V c).arrAt_in 0 rfl n).trans (A_eq0 V c 0)
theorem arrAt0_1 (c : Dev nD) (n : ℕ) : (dat0 V c).arrAt 1 n = V c main_arg2 :=
  ((dat0 V c).arrAt_in 1 rfl n).trans (A_eq0 V c 1)

end Cert.KernelIdeal.Reg

end
-- ==== Proof.KV0.lean ====
import proofs.«172830_g53506702573898_cont_9to1_m_1152_4_alg».proof.Proof.FoldKeep
import proofs.«172830_g53506702573898_cont_9to1_m_1152_4_alg».proof.Proof.HostA2
import proofs.«172830_g53506702573898_cont_9to1_m_1152_4_alg».proof.Proof.HostB
import proofs.«172830_g53506702573898_cont_9to1_m_1152_4_alg».proof.Proof.HostC
import proofs.«172830_g53506702573898_cont_9to1_m_1152_4_alg».proof.Proof.Reg0ValI3

set_option maxRecDepth 16384

/-
  The arguments of the kernel as functions of coordinates, read off the launch memory, and the facts that no item of
  the program writes an argument's buffer; the generic shapes of a diffusion apply and of the three-term accumulation.
-/
noncomputable section
namespace Cert.KernelIdeal.KV
open Cert.KernelIdeal Cert.KernelIdeal.Gen Cert.KernelIdeal.Reg Cert.KernelIdeal.HostVal
open Idealize.ShloMosaic Idealize.ShloMosaic.TcCoe Idealize.ShloMosaic.StableHlo Idealize.ShloMosaic.ValueIdx
open Idealize.SL Idealize.SL.Sem
open scoped BigOperators
open Cert.HostLib Cert.SpecRef Cert.SpecKer

variable (m : (ℓ : Loc nD τ sig) → Buf (Elt Ideal) ℓ) (c : Dev nD)

/-! ## The arguments -/

abbrev aInp : Fin 8 → Fin 4096 → EReal := inpOf (W0 m c)
abbrev aHid : Fin 2 → Fin 8 → Fin 65536 → EReal := hidOf (W0 m c)
abbrev aAdj : Fin 4096 → Fin 4096 → EReal := adjOf (W0 m c)
abbrev aW0g : Fin 51 → Fin 32 → EReal := W0gOf (W0 m c)
abbrev ab0g : Fin 32 → EReal := b0gOf (W0 m c)
abbrev aW0c : Fin 51 → Fin 16 → EReal := W0cOf (W0 m c)
abbrev ab0c : Fin 16 → EReal := b0cOf (W0 m c)
abbrev aW1g : Fin 96 → Fin 32 → EReal := W1gOf (W0 m c)
abbrev ab1g : Fin 32 → EReal := b1gOf (W0 m c)
abbrev aW1c : Fin 96 → Fin 16 → EReal := W1cOf (W0 m c)
abbrev ab1c : Fin 16 → EReal := b1cOf (W0 m c)

/-! ## No item writes an argument -/
theorem main_arg0_at1 : W1 m c main_arg0 = W0 m c main_arg0 := (W1_of m c main_arg0 (by decide))
theorem main_arg0_at15 : W15 m c main_arg0 = W0 m c main_arg0 := (((((((((((((((W15_of m c main_arg0 (by decide)).trans (W14_of m c main_arg0 (by decide))).trans (W13_of m c main_arg0 (by decide))).trans (W12_of m c main_arg0 (by decide))).trans (W11_of m c main_arg0 (by decide))).trans (W10_of m c main_arg0 (by decide))).trans (W9_of m c main_arg0 (by decide))).trans (W8_of m c main_arg0 (by decide))).trans (W7_of m c main_arg0 (by decide))).trans (W6_of m c main_arg0 (by decide))).trans (W5_of m c main_arg0 (by decide))).trans (W4_of m c main_arg0 (by decide))).trans (W3_of m c main_arg0 (by decide))).trans (W2_of m c main_arg0 (by decide))).trans (W1_of m c main_arg0 (by decide)))
theorem main_arg1_at1 : W1 m c main_arg1 = W0 m c main_arg1 := (W1_of m c main_arg1 (by decide))
theorem main_arg1_at15 : W15 m c main_arg1 = W0 m c main_arg1 := (((((((((((((((W15_of m c main_arg1 (by decide)).trans (W14_of m c main_arg1 (by decide))).trans (W13_of m c main_arg1 (by decide))).trans (W12_of m c main_arg1 (by decide))).trans (W11_of m c main_arg1 (by decide))).trans (W10_of m c main_arg1 (by decide))).trans (W9_of m c main_arg1 (by decide))).trans (W8_of m c main_arg1 (by decide))).trans (W7_of m c main_arg1 (by decide))).trans (W6_of m c main_arg1 (by decide))).trans (W5_of m c main_arg1 (by decide))).trans (W4_of m c main_arg1 (by decide))).trans (W3_of m c main_arg1 (by decide))).trans (W2_of m c main_arg1 (by decide))).trans (W1_of m c main_arg1 (by decide)))
theorem main_arg2_at1 : W1 m c main_arg2 = W0 m c main_arg2 := (W1_of m c main_arg2 (by decide))
theorem main_arg2_at15 : W15 m c main_arg2 = W0 m c main_arg2 := (((((((((((((((W15_of m c main_arg2 (by decide)).trans (W14_of m c main_arg2 (by decide))).trans (W13_of m c main_arg2 (by decide))).trans (W12_of m c main_arg2 (by decide))).trans (W11_of m c main_arg2 (by decide))).trans (W10_of m c main_arg2 (by decide))).trans (W9_of m c main_arg2 (by decide))).trans (W8_of m c main_arg2 (by decide))).trans (W7_of m c main_arg2 (by decide))).trans (W6_of m c main_arg2 (by decide))).trans (W5_of m c main_arg2 (by decide))).trans (W4_of m c main_arg2 (by decide))).trans (W3_of m c main_arg2 (by decide))).trans (W2_of m c main_arg2 (by decide))).trans (W1_of m c main_arg2 (by decide)))
theorem main_arg3_at1 : W1 m c main_arg3 = W0 m c main_arg3 := (W1_of m c main_arg3 (by decide))
theorem main_arg3_at15 : W15 m c main_arg3 = W0 m c main_arg3 := (((((((((((((((W15_of m c main_arg3 (by decide)).trans (W14_of m c main_arg3 (by decide))).trans (W13_of m c main_arg3 (by decide))).trans (W12_of m c main_arg3 (by decide))).trans (W11_of m c main_arg3 (by decide))).trans (W10_of m c main_arg3 (by decide))).trans (W9_of m c main_arg3 (by decide))).trans (W8_of m c main_arg3 (by decide))).trans (W7_of m c main_arg3 (by decide))).trans (W6_of m c main_arg3 (by decide))).trans (W5_of m c main_arg3 (by decide))).trans (W4_of m c main_arg3 (by decide))).trans (W3_of m c main_arg3 (by decide))).trans (W2_of m c main_arg3 (by decide))).trans (W1_of m c main_arg3 (by decide)))
theorem main_arg4_at1 : W1 m c main_arg4 = W0 m c main_arg4 := (W1_of m c main_arg4 (by decide))
theorem main_arg4_at15 : W15 m c main_arg4 = W0 m c main_arg4 := (((((((((((((((W15_of m c main_arg4 (by decide)).trans (W14_of m c main_arg4 (by decide))).trans (W13_of m c main_arg4 (by decide))).trans (W12_of m c main_arg4 (by decide))).trans (W11_of m c main_arg4 (by decide))).trans (W10_of m c main_arg4 (by decide))).trans (W9_of m c main_arg4 (by decide))).trans (W8_of m c main_arg4 (by decide))).trans (W7_of m c main_arg4 (by decide))).trans (W6_of m c main_arg4 (by decide))).trans (W5_of m c main_arg4 (by decide))).trans (W4_of m c main_arg4 (by decide))).trans (W3_of m c main_arg4 (by decide))).trans (W2_of m c main_arg4 (by decide))).trans (W1_of m c main_arg4 (by decide)))
theorem main_arg5_at1 : W1 m c main_arg5 = W0 m c main_arg5 := (W1_of m c main_arg5 (by decide))
theorem main_arg5_at15 : W15 m c main_arg5 = W0 m c main_arg5 := (((((((((((((((W15_of m c main_arg5 (by decide)).trans (W14_of m c main_arg5 (by decide))).trans (W13_of m c main_arg5 (by decide))).trans (W12_of m c main_arg5 (by decide))).trans (W11_of m c main_arg5 (by decide))).trans (W10_of m c main_arg5 (by decide))).trans (W9_of m c main_arg5 (by decide))).trans (W8_of m c main_arg5 (by decide))).trans (W7_of m c main_arg5 (by decide))).trans (W6_of m c main_arg5 (by decide))).trans (W5_of m c main_arg5 (by decide))).trans (W4_of m c main_arg5 (by decide))).trans (W3_of m c main_arg5 (by decide))).trans (W2_of m c main_arg5 (by decide))).trans (W1_of m c main_arg5 (by decide)))
theorem main_arg6_at1 : W1 m c main_arg6 = W0 m c main_arg6 := (W1_of m c main_arg6 (by decide))
theorem main_arg6_at15 : W15 m c main_arg6 = W0 m c main_arg6 := (((((((((((((((W15_of m c main_arg6 (by decide)).trans (W14_of m c main_arg6 (by decide))).trans (W13_of m c main_arg6 (by decide))).trans (W12_of m c main_arg6 (by decide))).trans (W11_of m c main_arg6 (by decide))).trans (W10_of m c main_arg6 (by decide))).trans (W9_of m c main_arg6 (by decide))).trans (W8_of m c main_arg6 (by decide))).trans (W7_of m c main_arg6 (by decide))).trans (W6_of m c main_arg6 (by decide))).trans (W5_of m c main_arg6 (by decide))).trans (W4_of m c main_arg6 (by decide))).trans (W3_of m c main_arg6 (by decide))).trans (W2_of m c main_arg6 (by decide))).trans (W1_of m c main_arg6 (by decide)))
theorem main_arg7_at1 : W1 m c main_arg7 = W0 m c main_arg7 := (W1_of m c main_arg7 (by decide))
theorem main_arg7_at15 : W15 m c main_arg7 = W0 m c main_arg7 := (((((((((((((((W15_of m c main_arg7 (by decide)).trans (W14_of m c main_arg7 (by decide))).trans (W13_of m c main_arg7 (by decide))).trans (W12_of m c main_arg7 (by decide))).trans (W11_of m c main_arg7 (by decide))).trans (W10_of m c main_arg7 (by decide))).trans (W9_of m c main_arg7 (by decide))).trans (W8_of m c main_arg7 (by decide))).trans (W7_of m c main_arg7 (by decide))).trans (W6_of m c main_arg7 (by decide))).trans (W5_of m c main_arg7 (by decide))).trans (W4_of m c main_arg7 (by decide))).trans (W3_of m c main_arg7 (by decide))).trans (W2_of m c main_arg7 (by decide))).trans (W1_of m c main_arg7 (by decide)))
theorem main_arg8_at1 : W1 m c main_arg8 = W0 m c main_arg8 := (W1_of m c main_arg8 (by decide))
theorem main_arg8_at15 : W15 m c main_arg8 = W0 m c main_arg8 := (((((((((((((((W15_of m c main_arg8 (by decide)).trans (W14_of m c main_arg8 (by decide))).trans (W13_of m c main_arg8 (by decide))).trans (W12_of m c main_arg8 (by decide))).trans (W11_of m c main_arg8 (by decide))).trans (W10_of m c main_arg8 (by decide))).trans (W9_of m c main_arg8 (by decide))).trans (W8_of m c main_arg8 (by decide))).trans (W7_of m c main_arg8 (by decide))).trans (W6_of m c main_arg8 (by decide))).trans (W5_of m c main_arg8 (by decide))).trans (W4_of m c main_arg8 (by decide))).trans (W3_of m c main_arg8 (by decide))).trans (W2_of m c main_arg8 (by decide))).trans (W1_of m c main_arg8 (by decide)))
theorem main_arg9_at1 : W1 m c main_arg9 = W0 m c main_arg9 := (W1_of m c main_arg9 (by decide))
theorem main_arg9_at15 : W15 m c main_arg9 = W0 m c main_arg9 := (((((((((((((((W15_of m c main_arg9 (by decide)).trans (W14_of m c main_arg9 (by decide))).trans (W13_of m c main_arg9 (by decide))).trans (W12_of m c main_arg9 (by decide))).trans (W11_of m c main_arg9 (by decide))).trans (W10_of m c main_arg9 (by decide))).trans (W9_of m c main_arg9 (by decide))).trans (W8_of m c main_arg9 (by decide))).trans (W7_of m c main_arg9 (by decide))).trans (W6_of m c main_arg9 (by decide))).trans (W5_of m c main_arg9 (by decide))).trans (W4_of m c main_arg9 (by decide))).trans (W3_of m c main_arg9 (by decide))).trans (W2_of m c main_arg9 (by decide))).trans (W1_of m c main_arg9 (by decide)))
theorem main_arg10_at1 : W1 m c main_arg10 = W0 m c main_arg10 := (W1_of m c main_arg10 (by decide))
theorem main_arg10_at15 : W15 m c main_arg10 = W0 m c main_arg10 := (((((((((((((((W15_of m c main_arg10 (by decide)).trans (W14_of m c main_arg10 (by decide))).trans (W13_of m c main_arg10 (by decide))).trans (W12_of m c main_arg10 (by decide))).trans (W11_of m c main_arg10 (by decide))).trans (W10_of m c main_arg10 (by decide))).trans (W9_of m c main_arg10 (by decide))).trans (W8_of m c main_arg10 (by decide))).trans (W7_of m c main_arg10 (by decide))).trans (W6_of m c main_arg10 (by decide))).trans (W5_of m c main_arg10 (by decide))).trans (W4_of m c main_arg10 (by decide))).trans (W3_of m c main_arg10 (by decide))).trans (W2_of m c main_arg10 (by decide))).trans (W1_of m c main_arg10 (by decide)))

/-! ## Generic shapes -/

/-- A diffusion apply from its four arrays read at an index. -/
theorem sapply_stage (adj : Fin 4096 → Fin 4096 → EReal) (c1 c2 : EReal) (A : Fin 4096 → Fin 4096 → EReal)
    (D : Fin 4096 → EReal) (Xv Zv : Fin 4096 → Fin 256 → EReal) (x z : Fin 4096 → Fin 8 → Fin 32 → EReal)
    (hA : ∀ p q, A p q = amax adj p q) (hD : ∀ p, D p = disK adj p)
    (hX : ∀ q b cc, Xv q (lane32 b cc) = x q b cc) (hZ : ∀ q b cc, Zv q (lane32 b cc) = z q b cc)
    (p : Fin 4096) (b : Fin 8) (cc : Fin 32) :
    c1 * D p * (∑ j : Fin 8, ∑ k : Fin 512, A p (blk j k) * (Xv (blk j k) (lane32 b cc) * D (blk j k)))
        + c2 * Zv p (lane32 b cc)
      = sapply adj c1 c2 x z p b cc := by
  unfold sapply
  simp only [hA, hD, hX, hZ]

/-- The three-term accumulation from its arrays read at an index. -/
theorem acc3_stage {O : Nat} (bias : Fin O → EReal) (P : Fin 3 → Fin 32 → Fin O → EReal)
    (x0 x1 x2 : Fin 4096 → Fin 8 → Fin 32 → EReal)
    (Bv : Fin O → EReal) (Pv : Fin 3 → Fin 32 → Fin O → EReal) (X0v X1v X2v : Fin 32768 → Fin 32 → EReal)
    (hB : ∀ u, Bv u = bias u) (hP : ∀ mm cc u, Pv mm cc u = P mm cc u)
    (hX0 : ∀ n b cc, X0v (row8 n b) cc = x0 n b cc) (hX1 : ∀ n b cc, X1v (row8 n b) cc = x1 n b cc)
    (hX2 : ∀ n b cc, X2v (row8 n b) cc = x2 n b cc) (n : Fin 4096) (b : Fin 8) (u : Fin O) :
    ((Bv u + ∑ cc : Fin 32, X0v (row8 n b) cc * Pv 0 cc u) + ∑ cc : Fin 32, X1v (row8 n b) cc * Pv 1 cc u)
        + ∑ cc : Fin 32, X2v (row8 n b) cc * Pv 2 cc u
      = acc3 bias P x0 x1 x2 n b u := by
  unfold acc3
  simp only [hB, hP, hX0, hX1, hX2]

/-! ## Region 0: the symmetrised adjacency and the scale column -/

theorem s1_amax (p q : Fin 4096) :
    (W1 m c main_v0_0 : S4096x4096.Idx → EReal) (ix2 p q) = amax (aAdj m c) p q := by
  unfold W1
  rw [Function.update_of_ne (by decide), Function.update_self, arrAt0_2]
  rfl

theorem s1_dis (p : Fin 4096) (z : Fin 1) :
    (W1 m c main_v0_1 : S4096x1.Idx → EReal) (ix2 p z) = disK (aAdj m c) p := by
  unfold W1
  rw [Function.update_self, arrAt0_3]
  rfl

end Cert.KernelIdeal.KV
end
-- ==== Proof.Reg1Value.lean ====
import proofs.«172830_g53506702573898_cont_9to1_m_1152_4_alg».proof.Proof.Reg1Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz1 : (![0, 0] : Fin 2 → Nat) = fun _ => 0 := funext fun a => by fin_cases a <;> rfl

/-! # Region 1: what the output array holds after the region, at any `F` -/

/-- Case B (points 1 to 6): over the output buffer's running contents `xo` the body leaves the accumulation step
    `k1_pay2` of the three input blocks it multiplies — its one covering store's payload, its loads reading whole buffers. -/
theorem out1_B (c : Dev nD) (i : grid1.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond1_0 i) (hc1 : ¬cond1_1 i) (x0 : Vec F S4096x512 .bf16) (x1 : Vec F S512x256 .f32) (x2 : Vec F S512x1 .f32) (x3 : Vec F S4096x1 .f32) (x4 : Vec F S4096x256 .f32) (xo : Vec F S4096x256 .f32) :
    out1_B_5 c i a1 h1 a2 h2 a3 h3 a4 h4 a5 h5 a6 h6 hc0 hc1 x0 x1 x2 x3 x4 xo = k1_pay2 x1 x2 x0 xo := by
  unfold out1_B_5
  rw [View.read_writes_eq_canon _ _ _ (cover1_B_5 c i a1 h1 a2 h2 a3 h3 a4 h4 a5 h5 a6 h6 hc0 hc1 x0 x1 x2 x3 x4 xo)]
  unfold kernelRun1_B
  dsimp only
  rw [View.canon_unit_zero hz1]
  simp only [View.readAt_eq_ld, h1.read_unread, h2.read_unread, h3.read_unread, h4.read_unread, h5.read_unread, h6.read_unread, View.ld_unit_zero (S := S4096x512) hz1, View.ld_unit_zero (S := S512x256) hz1, View.ld_unit_zero (S := S512x1) hz1, View.ld_unit_zero (S := S4096x1) hz1, View.ld_unit_zero (S := S4096x256) hz1]

/-- Case A (point 0): the body stores the zero block `k1_pay1`, reads it back and leaves the accumulation step over it. -/
theorem out1_A (c : Dev nD) (i : grid1.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond1_0 i) (hc1 : ¬cond1_1 i) (x0 : Vec F S4096x512 .bf16) (x1 : Vec F S512x256 .f32) (x2 : Vec F S512x1 .f32) (x3 : Vec F S4096x1 .f32) (x4 : Vec F S4096x256 .f32) :
    out1_A_5 c i a1 h1 a2 h2 a3 h3 a4 h4 a5 h5 a6 h6 hc0 hc1 x0 x1 x2 x3 x4 = k1_pay2 x1 x2 x0 (k1_pay1 (F := F)) := by
  unfold out1_A_5
  rw [View.read_writes_eq_canon _ _ _ (cover1_A_5 c i a1 h1 a2 h2 a3 h3 a4 h4 a5 h5 a6 h6 hc0 hc1 x0 x1 x2 x3 x4)]
  unfold kernelRun1_A
  dsimp only
  sl_unfold_words
  rw [View.canon_cons_unit_zero (S := S4096x256) hz1, View.readCov_unit_zero (S := S4096x256) _ hz1]
  simp only [View.readAt_eq_ld, h1.read_unread, h2.read_unread, h3.read_unread, h4.read_unread, h5.read_unread, h6.read_unread, View.ld_unit_zero (S := S4096x512) hz1, View.ld_unit_zero (S := S512x256) hz1, View.ld_unit_zero (S := S512x1) hz1, View.ld_unit_zero (S := S4096x1) hz1, View.ld_unit_zero (S := S4096x256) hz1]

/-- Case C (point 7): the body leaves the accumulation step over `xo`, reads it back and leaves the final scaling
    `k1_pay3` of it by window 3's block, with window 4's block added in. -/
theorem out1_C (c : Dev nD) (i : grid1.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond1_0 i) (hc1 : cond1_1 i) (x0 : Vec F S4096x512 .bf16) (x1 : Vec F S512x256 .f32) (x2 : Vec F S512x1 .f32) (x3 : Vec F S4096x1 .f32) (x4 : Vec F S4096x256 .f32) (xo : Vec F S4096x256 .f32) :
    out1_C_5 c i a1 h1 a2 h2 a3 h3 a4 h4 a5 h5 a6 h6 hc0 hc1 x0 x1 x2 x3 x4 xo = k1_pay3 x3 (k1_pay2 x1 x2 x0 xo) x4 := by
  unfold out1_C_5
  rw [View.read_writes_eq_canon _ _ _ (cover1_C_5 c i a1 h1 a2 h2 a3 h3 a4 h4 a5 h5 a6 h6 hc0 hc1 x0 x1 x2 x3 x4 xo)]
  unfold kernelRun1_C
  dsimp only
  sl_unfold_words
  rw [View.canon_cons_unit_zero (S := S4096x256) hz1, View.readCov_unit_zero (S := S4096x256) _ hz1]
  simp only [View.readAt_eq_ld, h1.read_unread, h2.read_unread, h3.read_unread, h4.read_unread, h5.read_unread, h6.read_unread, View.ld_unit_zero (S := S4096x512) hz1, View.ld_unit_zero (S := S512x256) hz1, View.ld_unit_zero (S := S512x1) hz1, View.ld_unit_zero (S := S4096x1) hz1, View.ld_unit_zero (S := S4096x256) hz1]

section Regions
variable (V : (c : Dev nD) → (b : Ref sig .tc) → Buf (Elt F) ((c : Thread nD τ).loc b))

/-- The ORDERED accumulation after point `n`: the step `k1_pay2` over the zero block at point 0, then over the point before. -/
def acc1 (c : Dev nD) : (n : ℕ) → n < cfg1.N → Vec F S4096x256 .f32
  | 0, h => k1_pay2 (iblk1 V c 1 ⟨0, h⟩) (iblk1 V c 2 ⟨0, h⟩) (iblk1 V c 0 ⟨0, h⟩) (k1_pay1 (F := F))
  | n + 1, h => k1_pay2 (iblk1 V c 1 ⟨n + 1, h⟩) (iblk1 V c 2 ⟨n + 1, h⟩) (iblk1 V c 0 ⟨n + 1, h⟩) (acc1 c n (Nat.lt_of_succ_lt h))

/-- Before the last point the output's staging buffer holds the accumulation — by induction on the point. -/
theorem outsAt1_eq_acc (c : Dev nD) : ∀ (n : ℕ) (h : n < cfg1.N), ¬n % 8 = 7 → outsAt1 V c n h = acc1 V c n h
  | 0, h, _ => (outsAt1_A V c ⟨0, h⟩ rfl (show ¬ (0 % 8 = 7) by decide)).trans (out1_A ..)
  | n + 1, h, h7 => by
    have hN : cfg1.N = 8 := N_1
    have h0 : ¬(⟨n + 1, h⟩ : Fin cfg1.N).val % 8 = 0 := by dsimp only; omega
    rw [outsAt1_B V c ⟨n + 1, h⟩ h0 h7, out1_B]
    show k1_pay2 _ _ _ (outsAt1 V c n _) = k1_pay2 _ _ _ (acc1 V c n _)
    rw [outsAt1_eq_acc c n _ (by omega)]

/-- After the last point it holds the final scaling of the whole accumulation. -/
theorem outsAt1_last (c : Dev nD) :
    outsAt1 V c t1_7.val t1_7.isLt = k1_pay3 (iblk1 V c 3 t1_7) (acc1 V c t1_7.val t1_7.isLt) (iblk1 V c 4 t1_7) := by
  have hN : cfg1.N = 8 := N_1
  rw [outsAt1_C V c t1_7 (by decide) (by decide), out1_C]
  exact congrArg (fun z => k1_pay3 (iblk1 V c 3 t1_7) (k1_pay2 (iblk1 V c 1 t1_7) (iblk1 V c 2 t1_7) (iblk1 V c 0 t1_7) z) (iblk1 V c 4 t1_7))
    (outsAt1_eq_acc V c (t1_7.val - 1) _ (by decide))

/-- The result: the final scaling of the accumulation over the 8 points, as contents of the result array (its one block is
    the array). -/
abbrev result1 (c : Dev nD) : Buf (Elt F) ((c : Thread nD τ).loc main_v24) :=
  k1_pay3 (iblk1 V c 3 t1_7) (acc1 V c t1_7.val t1_7.isLt) (iblk1 V c 4 t1_7)

/-- The one write-back, at point 7, writes it: block (0, 0) of the [4096,256] array read through zero offsets is the array. -/
theorem flushed_eq1 (c : Dev nD) (t : Fin cfg1.N) (hf : (cfg1.win 5).flush t = true) :
    (dat1 V c).flushed 5 t = ((cfg1.win 5).blk t).view.read (Elt F) (result1 V c) := by
  have hN : cfg1.N = 8 := N_1
  have h7 : t.val = 7 := by have := (flush1_5 t).mp hf; have := t.isLt; omega
  obtain rfl : t = t1_7 := Fin.ext h7
  show (cfg1.win 5).cut (grid1.coords t1_7) ((dat1 V c).after 5 t1_7) = _
  rw [after1_5, outsAt1_last]
  have hz' : (fun a => win1_5.index t1_7 a * main_v24.ty.shape.size a) = fun _ => 0 := funext fun a => by fin_cases a <;> decide
  exact (Memref.read_access_unit_zero (Elt F) main_v24 hz' (fun a => by rw [congrFun hz' a]; simp) (result1 V c)).symm

/-- So the result array ends holding the final scaling of the accumulation: point 7's write-back covers it. -/
theorem final1 (c : Dev nD) : (dat1 V c).arrAt 5 cfg1.N = result1 V c :=
  (dat1 V c).arrAt_eq_of_cover 5 (result1 V c) (flushed_eq1 V c) fun i =>
    ⟨t1_7, (flush1_5 t1_7).mpr rfl, by
      show i ∈ ((View.whole main_v24).slice (win1_5.rect t1_7)).set
      rw [View.set_slice_whole, Rect.mem_set_unit]
      intro a
      have h0 : (i 0 : Nat) < 4096 := (i 0).isLt
      have h1 : (i 1 : Nat) < 256 := (i 1).isLt
      match a with
      | ⟨0, _⟩ => show win1_5.index t1_7 0 * win1_5.size 0 ≤ (i 0 : Nat) ∧ (i 0 : Nat) < win1_5.index t1_7 0 * win1_5.size 0 + win1_5.xsize (grid1.coords t1_7) 0
                  rw [show win1_5.index t1_7 0 * win1_5.size 0 = 0 from by decide +kernel, show win1_5.xsize (grid1.coords t1_7) 0 = 4096 from by decide +kernel]; omega
      | ⟨1, _⟩ => show win1_5.index t1_7 1 * win1_5.size 1 ≤ (i 1 : Nat) ∧ (i 1 : Nat) < win1_5.index t1_7 1 * win1_5.size 1 + win1_5.xsize (grid1.coords t1_7) 1
                  rw [show win1_5.index t1_7 1 * win1_5.size 1 = 0 from by decide +kernel, show win1_5.xsize (grid1.coords t1_7) 1 = 256 from by decide +kernel]; omega⟩

end Regions

end Cert.KernelIdeal.Reg

end
-- ==== Proof.Reg1ValueIdeal.lean ====
import proofs.«172830_g53506702573898_cont_9to1_m_1152_4_alg».proof.Proof.Reg1Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk1_0_eq_slice (c : Dev nD) (t : Fin cfg1.N) (off : Fin 2 → Nat) (hoff : off = ![0, 512 * t.val])
    (h : S4096x4096.Slices off S4096x512) :
    (iblk1 V c 0 t : Vec F S4096x512 .bf16) = extractStridedSlice S4096x512 off (V c main_v0_0) h := by
  subst hoff
  have hi : win1_0.index t 0 = 0 ∧ win1_0.index t 1 = t.val := by
    rcases fin_N1 t with rfl | rfl | rfl | rfl | rfl | rfl | rfl | rfl <;> decide
  funext j
  unfold iblk1 extractStridedSlice
  rw [View.read_apply]
  show V c main_v0_0 _ = V c main_v0_0 _
  congr 1
  funext a
  apply Fin.ext
  match a with
  | ⟨0, _⟩ => show win1_0.index t 0 * 4096 + 1 * (j 0).val = 0 + (j 0).val; rw [hi.1]; omega
  | ⟨1, _⟩ => show win1_0.index t 1 * 512 + 1 * (j 1).val = 512 * t.val + (j 1).val; rw [hi.2]; omega

/-- Window 1's block at point `t` is the slice of its array at the block's offset. -/
theorem iblk1_1_eq_slice (c : Dev nD) (t : Fin cfg1.N) (off : Fin 2 → Nat) (hoff : off = ![512 * t.val, 0])
    (h : S4096x256.Slices off S512x256) :
    (iblk1 V c 1 t : Vec F S512x256 .f32) = extractStridedSlice S512x256 off (V c main_v23) h := by
  subst hoff
  have hi : win1_1.index t 0 = t.val ∧ win1_1.index t 1 = 0 := by
    rcases fin_N1 t with rfl | rfl | rfl | rfl | rfl | rfl | rfl | rfl <;> decide
  funext j
  unfold iblk1 extractStridedSlice
  rw [View.read_apply]
  show V c main_v23 _ = V c main_v23 _
  congr 1
  funext a
  apply Fin.ext
  match a with
  | ⟨0, _⟩ => show win1_1.index t 0 * 512 + 1 * (j 0).val = 512 * t.val + (j 0).val; rw [hi.1]; omega
  | ⟨1, _⟩ => show win1_1.index t 1 * 256 + 1 * (j 1).val = 0 + (j 1).val; rw [hi.2]; omega

/-- Window 2's block at point `t` is the slice of its array at the block's offset. -/
theorem iblk1_2_eq_slice (c : Dev nD) (t : Fin cfg1.N) (off : Fin 2 → Nat) (hoff : off = ![512 * t.val, 0])
    (h : S4096x1.Slices off S512x1) :
    (iblk1 V c 2 t : Vec F S512x1 .f32) = extractStridedSlice S512x1 off (V c main_v0_1) h := by
  subst hoff
  have hi : win1_2.index t 0 = t.val ∧ win1_2.index t 1 = 0 := by
    rcases fin_N1 t with rfl | rfl | rfl | rfl | rfl | rfl | rfl | rfl <;> decide
  funext j
  unfold iblk1 extractStridedSlice
  rw [View.read_apply]
  show V c main_v0_1 _ = V c main_v0_1 _
  congr 1
  funext a
  apply Fin.ext
  match a with
  | ⟨0, _⟩ => show win1_2.index t 0 * 512 + 1 * (j 0).val = 512 * t.val + (j 0).val; rw [hi.1]; omega
  | ⟨1, _⟩ => show win1_2.index t 1 * 1 + 1 * (j 1).val = 0 + (j 1).val; rw [hi.2]; omega

/-- Window 3's block at every point is its whole array. -/
theorem iblk1_3_eq (c : Dev nD) (t : Fin cfg1.N) : (iblk1 V c 3 t : Vec F S4096x1 .f32) = V c main_v0_1 := by
  have hi : win1_3.index t 0 = 0 ∧ win1_3.index t 1 = 0 := by
    rcases fin_N1 t with rfl | rfl | rfl | rfl | rfl | rfl | rfl | rfl <;> decide
  funext j
  unfold iblk1
  rw [View.read_apply]
  show V c main_v0_1 _ = V c main_v0_1 j
  congr 1
  funext a
  apply Fin.ext
  match a with
  | ⟨0, _⟩ => show win1_3.index t 0 * 4096 + 1 * (j 0).val = (j 0).val; rw [hi.1]; omega
  | ⟨1, _⟩ => show win1_3.index t 1 * 1 + 1 * (j 1).val = (j 1).val; rw [hi.2]; omega

/-- Window 4's block at every point is its whole array. -/
theorem iblk1_4_eq (c : Dev nD) (t : Fin cfg1.N) : (iblk1 V c 4 t : Vec F S4096x256 .f32) = V c main_v23 := by
  have hi : win1_4.index t 0 = 0 ∧ win1_4.index t 1 = 0 := by
    rcases fin_N1 t with rfl | rfl | rfl | rfl | rfl | rfl | rfl | rfl <;> decide
  funext j
  unfold iblk1
  rw [View.read_apply]
  show V c main_v23 _ = V c main_v23 j
  congr 1
  funext a
  apply Fin.ext
  match a with
  | ⟨0, _⟩ => show win1_4.index t 0 * 4096 + 1 * (j 0).val = (j 0).val; rw [hi.1]; omega
  | ⟨1, _⟩ => show win1_4.index t 1 * 256 + 1 * (j 1).val = (j 1).val; rw [hi.2]; omega

end Regions

/-! ## The payloads at an index, at the ideal values -/

/-- The bit patterns of the two constants the final scaling multiplies by. -/
abbrev c1Bits1 : BitVec 32 := 0xBF800000#32
abbrev c2Bits1 : BitVec 32 := 0x00000000#32

/-- They denote -1 and 0. -/
theorem c1Bits1_val : Ideal.ofBits .f32 c1Bits1 = ((-1 : ℝ) : EReal) := by
  show Ideal.ofBits .f32 0xBF800000#32 = _
  simp [Ideal.ofBits, Ideal.ieee, -EReal.coe_mul, -EReal.coe_neg]; norm_num
theorem c2Bits1_val : Ideal.ofBits .f32 c2Bits1 = 0 := Ideal.ofBits_zero_f32

/-- The zero block at an index. -/
theorem k1_pay1_apply (j : S4096x256.Idx) : (k1_pay1 (F := Ideal)) j = 0 := by
  unfold k1_pay1
  show Ideal.ofBits .f32 0x00000000#32 = 0
  exact Ideal.ofBits_zero_f32

/-- The accumulation step at an index: the running contents there plus the sum over the contraction index of the left
    block's entry times the right block's entry scaled by its row's entry of the column block. -/
theorem k1_pay2_apply (v0 : Vec Ideal S512x256 .f32) (v2 : Vec Ideal S512x1 .f32) (v7 : Vec Ideal S4096x512 .bf16)
    (v13 : Vec Ideal S4096x256 .f32) (j : S4096x256.Idx) :
    k1_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k1_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k1_pay3_apply (v20 : Vec Ideal S4096x1 .f32) (v24 v28 : Vec Ideal S4096x256 .f32) (j : S4096x256.Idx) :
    k1_pay3 (F := Ideal) v20 v24 v28 j
      = (Ideal.ofBits .f32 c1Bits1 * broadcastTo S4096x256 v20 broadcasts_S4096x1_S4096x256 j) * v24 j
        + Ideal.ofBits .f32 c2Bits1 * v28 j := by
  unfold k1_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk1_0 (c : Dev nD) (t : Fin cfg1.N) : Vec Ideal S4096x512 .bf16 := iblk1 V c 0 t
abbrev blk1_1 (c : Dev nD) (t : Fin cfg1.N) : Vec Ideal S512x256 .f32 := iblk1 V c 1 t
abbrev blk1_2 (c : Dev nD) (t : Fin cfg1.N) : Vec Ideal S512x1 .f32 := iblk1 V c 2 t

/-- Point `n`'s contribution at the output index `j`: the sum over the contraction index of window 0's block entry times
    window 1's block entry scaled by its row's entry of window 2's block. -/
def term1 (c : Dev nD) (n : ℕ) (h : n < cfg1.N) (j : S4096x256.Idx) : Ideal .f32 :=
  ∑ k : dot_S4096x512_S512x256_S4096x256_1_0_0_1_n_n.contr.Idx,
    blk1_0 V c ⟨n, h⟩ (dot_S4096x512_S512x256_S4096x256_1_0_0_1_n_n.lhsIdx j k)
      * (blk1_1 V c ⟨n, h⟩ (dot_S4096x512_S512x256_S4096x256_1_0_0_1_n_n.rhsIdx j k)
          * broadcastTo S512x256 (blk1_2 V c ⟨n, h⟩) broadcasts_S512x1_S512x256 (dot_S4096x512_S512x256_S4096x256_1_0_0_1_n_n.rhsIdx j k))

/-- The ordered sum of the contributions of the points up to `n`, from zero. -/
def fold1 (c : Dev nD) (j : S4096x256.Idx) : (n : ℕ) → n < cfg1.N → Ideal .f32
  | 0, h => 0 + term1 V c 0 h j
  | n + 1, h => fold1 c j n (Nat.lt_of_succ_lt h) + term1 V c (n + 1) h j

/-- The accumulation after point `n`, at an index, is that ordered sum. -/
theorem acc1_apply (c : Dev nD) (j : S4096x256.Idx) : ∀ (n : ℕ) (h : n < cfg1.N), acc1 V c n h j = fold1 V c j n h
  | 0, h => by
    show k1_pay2 (F := Ideal) _ _ _ _ j = _
    rw [k1_pay2_apply, k1_pay1_apply]
    rfl
  | n + 1, h => by
    show k1_pay2 (F := Ideal) _ _ _ (acc1 V c n _) j = _
    rw [k1_pay2_apply, acc1_apply c j n]
    rfl

/-- THE VALUE. After the region the output array holds, at the index `j`, the first constant times window 3's array
    (a column) at `j`'s row times the ordered sum over the 8 points, plus the second constant times window 4's array at
    `j`. -/
theorem final1_apply (c : Dev nD) (j : S4096x256.Idx) :
    (dat1 V c).arrAt 5 cfg1.N j
      = (Ideal.ofBits .f32 c1Bits1 * broadcastTo S4096x256 (V c main_v0_1) broadcasts_S4096x1_S4096x256 j)
          * fold1 V c j t1_7.val t1_7.isLt
        + Ideal.ofBits .f32 c2Bits1 * V c main_v23 j := by
  rw [final1]
  show k1_pay3 (F := Ideal) _ _ _ j = _
  rw [k1_pay3_apply, acc1_apply, iblk1_3_eq, iblk1_4_eq]

end IdealRegions

end Cert.KernelIdeal.Reg

end
-- ==== Proof.Reg1ValueAt.lean ====
import proofs.«172830_g53506702573898_cont_9to1_m_1152_4_alg».proof.Proof.Reg1ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 1: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax1 (c : Dev nD) (p q : Fin 4096) : EReal := V c main_v0_0 (ix2 p q)
abbrev xin1 (c : Dev nD) (q : Fin 4096) (f : Fin 256) : EReal := V c main_v23 (ix2 q f)
abbrev dis1 (c : Dev nD) (p : Fin 4096) : EReal := V c main_v0_1 (ix2 p (0 : Fin 1))
abbrev zin1 (c : Dev nD) (p : Fin 4096) (f : Fin 256) : EReal := V c main_v23 (ix2 p f)

/-- Window 0's block at point `t`, at row `p` and column `k`, is the matrix at row `p` and column `k` of column block `t`. -/
theorem blk1_0_at (c : Dev nD) (t : Fin cfg1.N) (b : Fin 8) (hb : b.val = t.val) (p : Fin 4096) (k : Fin 512) :
    blk1_0 V c t (ix2 p k) = amax1 V c p (blk b k) := by
  have hi : win1_0.index t 0 = 0 ∧ win1_0.index t 1 = t.val := by
    rcases fin_N1 t with rfl | rfl | rfl | rfl | rfl | rfl | rfl | rfl <;> decide
  unfold blk1_0 amax1 iblk1
  rw [View.read_apply]
  show V c main_v0_0 _ = V c main_v0_0 _
  congr 1
  funext a
  apply Fin.ext
  match a with
  | ⟨0, _⟩ => show win1_0.index t 0 * 4096 + 1 * p.val = p.val; rw [hi.1]; omega
  | ⟨1, _⟩ => show win1_0.index t 1 * 512 + 1 * k.val = b.val * 512 + k.val; rw [hi.2, hb]; omega

/-- Window 1's block at point `t`, at row `k` and column `f`, is the operand at row `k` of row block `t`. -/
theorem blk1_1_at (c : Dev nD) (t : Fin cfg1.N) (b : Fin 8) (hb : b.val = t.val) (k : Fin 512) (f : Fin 256) :
    blk1_1 V c t (ix2 k f) = xin1 V c (blk b k) f := by
  have hi : win1_1.index t 0 = t.val ∧ win1_1.index t 1 = 0 := by
    rcases fin_N1 t with rfl | rfl | rfl | rfl | rfl | rfl | rfl | rfl <;> decide
  unfold blk1_1 xin1 iblk1
  rw [View.read_apply]
  show V c main_v23 _ = V c main_v23 _
  congr 1
  funext a
  apply Fin.ext
  match a with
  | ⟨0, _⟩ => show win1_1.index t 0 * 512 + 1 * k.val = b.val * 512 + k.val; rw [hi.1, hb]; omega
  | ⟨1, _⟩ => show win1_1.index t 1 * 256 + 1 * f.val = f.val; rw [hi.2]; omega

/-- Window 2's block at point `t`, at row `k`, is the column at row `k` of row block `t`. -/
theorem blk1_2_at (c : Dev nD) (t : Fin cfg1.N) (b : Fin 8) (hb : b.val = t.val) (k : Fin 512) :
    blk1_2 V c t (ix2 k (0 : Fin 1)) = dis1 V c (blk b k) := by
  have hi : win1_2.index t 0 = t.val ∧ win1_2.index t 1 = 0 := by
    rcases fin_N1 t with rfl | rfl | rfl | rfl | rfl | rfl | rfl | rfl <;> decide
  unfold blk1_2 dis1 iblk1
  rw [View.read_apply]
  show V c main_v0_1 _ = V c main_v0_1 _
  congr 1
  funext a
  apply Fin.ext
  match a with
  | ⟨0, _⟩ => show win1_2.index t 0 * 512 + 1 * k.val = b.val * 512 + k.val; rw [hi.1, hb]; omega
  | ⟨1, _⟩ => show win1_2.index t 1 * 1 + 1 * 0 = 0; rw [hi.2]

/-- Point `b`'s contribution at row `p` and column `f`: the sum over the 512 positions of block `b`. -/
theorem term1_at (c : Dev nD) (b : Fin 8) (h : b.val < cfg1.N) (p : Fin 4096) (f : Fin 256) :
    term1 V c b.val h (ix2 p f)
      = ∑ k : Fin 512, amax1 V c p (blk b k) * (xin1 V c (blk b k) f * dis1 V c (blk b k)) := by
  unfold term1
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk1_2 V c ⟨b.val, h⟩) broadcasts_S512x1_S512x256 (ix2 k f)
      = blk1_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk1_0_at V c ⟨b.val, h⟩ b rfl, blk1_1_at V c ⟨b.val, h⟩ b rfl, blk1_2_at V c ⟨b.val, h⟩ b rfl]

/-- The ordered sum over the 8 points is the sum over the 8 blocks. -/
theorem fold1_eq_sum (c : Dev nD) (j : S4096x256.Idx) :
    fold1 V c j t1_7.val t1_7.isLt = ∑ b : Fin 8, term1 V c b.val (lt_of_lt_of_eq b.isLt N_1.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final1_at (c : Dev nD) (p : Fin 4096) (f : Fin 256) :
    ((dat1 V c).arrAt 5 cfg1.N (ix2 p f) : EReal)
      = (-1 : EReal) * dis1 V c p
          * (∑ j : Fin 8, ∑ k : Fin 512, amax1 V c p (blk j k) * (xin1 V c (blk j k) f * dis1 V c (blk j k)))
        + (0 : EReal) * zin1 V c p f := by
  have hbc : broadcastTo S4096x256 (V c main_v0_1) broadcasts_S4096x1_S4096x256 (ix2 p f) = dis1 V c p :=
    broadcastTo_apply _ _ (ix2 p f) (ix2 p (0 : Fin 1)) fun a => by
      match a with
      | ⟨0, _⟩ => rfl
      | ⟨1, _⟩ => rfl
  rw [final1_apply, hbc, fold1_eq_sum, c1Bits1_val, ← Alg.neg_one_eq, c2Bits1_val]
  simp only [term1_at]

end IdealRegions

end Cert.KernelIdeal.Reg

end
-- ==== Proof.Reg2Value.lean ====
import proofs.«172830_g53506702573898_cont_9to1_m_1152_4_alg».proof.Proof.Reg2Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hzr2 : (![0, 0] : Fin 2 → Nat) = fun _ => 0 := funext fun a => by fin_cases a <;> rfl

/-! # Region 2: what the output array holds after the region, at any `F` -/

/-- Case B (points 1 to 6): over the output buffer's running contents `xo` the body leaves the accumulation step
    `k2_pay2` of the three input blocks it multiplies — its one covering store's payload, its loads reading whole buffers. -/
theorem out2_B (c : Dev nD) (i : grid2.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond2_0 i) (hc1 : ¬cond2_1 i) (x0 : Vec F S4096x512 .bf16) (x1 : Vec F S512x256 .f32) (x2 : Vec F S512x1 .f32) (x3 : Vec F S4096x1 .f32) (x4 : Vec F S4096x256 .f32) (xo : Vec F S4096x256 .f32) :
    out2_B_5 c i a1 h1 a2 h2 a3 h3 a4 h4 a5 h5 a6 h6 hc0 hc1 x0 x1 x2 x3 x4 xo = k2_pay2 x1 x2 x0 xo := by
  unfold out2_B_5
  rw [View.read_writes_eq_canon _ _ _ (cover2_B_5 c i a1 h1 a2 h2 a3 h3 a4 h4 a5 h5 a6 h6 hc0 hc1 x0 x1 x2 x3 x4 xo)]
  unfold kernelRun2_B
  dsimp only
  rw [View.canon_unit_zero hzr2]
  simp only [View.readAt_eq_ld, h1.read_unread, h2.read_unread, h3.read_unread, h4.read_unread, h5.read_unread, h6.read_unread, View.ld_unit_zero (S := S4096x512) hzr2, View.ld_unit_zero (S := S512x256) hzr2, View.ld_unit_zero (S := S512x1) hzr2, View.ld_unit_zero (S := S4096x1) hzr2, View.ld_unit_zero (S := S4096x256) hzr2]

/-- Case A (point 0): the body stores the zero block `k2_pay1`, reads it back and leaves the accumulation step over it. -/
theorem out2_A (c : Dev nD) (i : grid2.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond2_0 i) (hc1 : ¬cond2_1 i) (x0 : Vec F S4096x512 .bf16) (x1 : Vec F S512x256 .f32) (x2 : Vec F S512x1 .f32) (x3 : Vec F S4096x1 .f32) (x4 : Vec F S4096x256 .f32) :
    out2_A_5 c i a1 h1 a2 h2 a3 h3 a4 h4 a5 h5 a6 h6 hc0 hc1 x0 x1 x2 x3 x4 = k2_pay2 x1 x2 x0 (k2_pay1 (F := F)) := by
  unfold out2_A_5
  rw [View.read_writes_eq_canon _ _ _ (cover2_A_5 c i a1 h1 a2 h2 a3 h3 a4 h4 a5 h5 a6 h6 hc0 hc1 x0 x1 x2 x3 x4)]
  unfold kernelRun2_A
  dsimp only
  sl_unfold_words
  rw [View.canon_cons_unit_zero (S := S4096x256) hzr2, View.readCov_unit_zero (S := S4096x256) _ hzr2]
  simp only [View.readAt_eq_ld, h1.read_unread, h2.read_unread, h3.read_unread, h4.read_unread, h5.read_unread, h6.read_unread, View.ld_unit_zero (S := S4096x512) hzr2, View.ld_unit_zero (S := S512x256) hzr2, View.ld_unit_zero (S := S512x1) hzr2, View.ld_unit_zero (S := S4096x1) hzr2, View.ld_unit_zero (S := S4096x256) hzr2]

/-- Case C (point 7): the body leaves the accumulation step over `xo`, reads it back and leaves the final scaling
    `k2_pay3` of it by window 3's block, with window 4's block added in. -/
theorem out2_C (c : Dev nD) (i : grid2.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond2_0 i) (hc1 : cond2_1 i) (x0 : Vec F S4096x512 .bf16) (x1 : Vec F S512x256 .f32) (x2 : Vec F S512x1 .f32) (x3 : Vec F S4096x1 .f32) (x4 : Vec F S4096x256 .f32) (xo : Vec F S4096x256 .f32) :
    out2_C_5 c i a1 h1 a2 h2 a3 h3 a4 h4 a5 h5 a6 h6 hc0 hc1 x0 x1 x2 x3 x4 xo = k2_pay3 x3 (k2_pay2 x1 x2 x0 xo) x4 := by
  unfold out2_C_5
  rw [View.read_writes_eq_canon _ _ _ (cover2_C_5 c i a1 h1 a2 h2 a3 h3 a4 h4 a5 h5 a6 h6 hc0 hc1 x0 x1 x2 x3 x4 xo)]
  unfold kernelRun2_C
  dsimp only
  sl_unfold_words
  rw [View.canon_cons_unit_zero (S := S4096x256) hzr2, View.readCov_unit_zero (S := S4096x256) _ hzr2]
  simp only [View.readAt_eq_ld, h1.read_unread, h2.read_unread, h3.read_unread, h4.read_unread, h5.read_unread, h6.read_unread, View.ld_unit_zero (S := S4096x512) hzr2, View.ld_unit_zero (S := S512x256) hzr2, View.ld_unit_zero (S := S512x1) hzr2, View.ld_unit_zero (S := S4096x1) hzr2, View.ld_unit_zero (S := S4096x256) hzr2]

section Regions
variable (V : (c : Dev nD) → (b : Ref sig .tc) → Buf (Elt F) ((c : Thread nD τ).loc b))

/-- The ORDERED accumulation after point `n`: the step `k2_pay2` over the zero block at point 0, then over the point before. -/
def acc2 (c : Dev nD) : (n : ℕ) → n < cfg2.N → Vec F S4096x256 .f32
  | 0, h => k2_pay2 (iblk2 V c 1 ⟨0, h⟩) (iblk2 V c 2 ⟨0, h⟩) (iblk2 V c 0 ⟨0, h⟩) (k2_pay1 (F := F))
  | n + 1, h => k2_pay2 (iblk2 V c 1 ⟨n + 1, h⟩) (iblk2 V c 2 ⟨n + 1, h⟩) (iblk2 V c 0 ⟨n + 1, h⟩) (acc2 c n (Nat.lt_of_succ_lt h))

/-- Before the last point the output's staging buffer holds the accumulation — by induction on the point. -/
theorem outsAt2_eq_acc (c : Dev nD) : ∀ (n : ℕ) (h : n < cfg2.N), ¬n % 8 = 7 → outsAt2 V c n h = acc2 V c n h
  | 0, h, _ => (outsAt2_A V c ⟨0, h⟩ rfl (show ¬ (0 % 8 = 7) by decide)).trans (out2_A ..)
  | n + 1, h, h7 => by
    have hN : cfg2.N = 8 := N_2
    have h0 : ¬(⟨n + 1, h⟩ : Fin cfg2.N).val % 8 = 0 := by dsimp only; omega
    rw [outsAt2_B V c ⟨n + 1, h⟩ h0 h7, out2_B]
    show k2_pay2 _ _ _ (outsAt2 V c n _) = k2_pay2 _ _ _ (acc2 V c n _)
    rw [outsAt2_eq_acc c n _ (by omega)]

/-- After the last point it holds the final scaling of the whole accumulation. -/
theorem outsAt2_last (c : Dev nD) :
    outsAt2 V c t2_7.val t2_7.isLt = k2_pay3 (iblk2 V c 3 t2_7) (acc2 V c t2_7.val t2_7.isLt) (iblk2 V c 4 t2_7) := by
  have hN : cfg2.N = 8 := N_2
  rw [outsAt2_C V c t2_7 (by decide) (by decide), out2_C]
  exact congrArg (fun z => k2_pay3 (iblk2 V c 3 t2_7) (k2_pay2 (iblk2 V c 1 t2_7) (iblk2 V c 2 t2_7) (iblk2 V c 0 t2_7) z) (iblk2 V c 4 t2_7))
    (outsAt2_eq_acc V c (t2_7.val - 1) _ (by decide))

/-- The result: the final scaling of the accumulation over the 8 points, as contents of the result array (its one block is
    the array). -/
abbrev result2 (c : Dev nD) : Buf (Elt F) ((c : Thread nD τ).loc main_v25) :=
  k2_pay3 (iblk2 V c 3 t2_7) (acc2 V c t2_7.val t2_7.isLt) (iblk2 V c 4 t2_7)

/-- The one write-back, at point 7, writes it: block (0, 0) of the [4096,256] array read through zero offsets is the array. -/
theorem flushed_eq2 (c : Dev nD) (t : Fin cfg2.N) (hf : (cfg2.win 5).flush t = true) :
    (dat2 V c).flushed 5 t = ((cfg2.win 5).blk t).view.read (Elt F) (result2 V c) := by
  have hN : cfg2.N = 8 := N_2
  have h7 : t.val = 7 := by have := (flush2_5 t).mp hf; have := t.isLt; omega
  obtain rfl : t = t2_7 := Fin.ext h7
  show (cfg2.win 5).cut (grid2.coords t2_7) ((dat2 V c).after 5 t2_7) = _
  rw [after2_5, outsAt2_last]
  have hz' : (fun a => win2_5.index t2_7 a * main_v25.ty.shape.size a) = fun _ => 0 := funext fun a => by fin_cases a <;> decide
  exact (Memref.read_access_unit_zero (Elt F) main_v25 hz' (fun a => by rw [congrFun hz' a]; simp) (result2 V c)).symm

/-- So the result array ends holding the final scaling of the accumulation: point 7's write-back covers it. -/
theorem final2 (c : Dev nD) : (dat2 V c).arrAt 5 cfg2.N = result2 V c :=
  (dat2 V c).arrAt_eq_of_cover 5 (result2 V c) (flushed_eq2 V c) fun i =>
    ⟨t2_7, (flush2_5 t2_7).mpr rfl, by
      show i ∈ ((View.whole main_v25).slice (win2_5.rect t2_7)).set
      rw [View.set_slice_whole, Rect.mem_set_unit]
      intro a
      have h0 : (i 0 : Nat) < 4096 := (i 0).isLt
      have h1 : (i 1 : Nat) < 256 := (i 1).isLt
      match a with
      | ⟨0, _⟩ => show win2_5.index t2_7 0 * win2_5.size 0 ≤ (i 0 : Nat) ∧ (i 0 : Nat) < win2_5.index t2_7 0 * win2_5.size 0 + win2_5.xsize (grid2.coords t2_7) 0
                  rw [show win2_5.index t2_7 0 * win2_5.size 0 = 0 from by decide +kernel, show win2_5.xsize (grid2.coords t2_7) 0 = 4096 from by decide +kernel]; omega
      | ⟨1, _⟩ => show win2_5.index t2_7 1 * win2_5.size 1 ≤ (i 1 : Nat) ∧ (i 1 : Nat) < win2_5.index t2_7 1 * win2_5.size 1 + win2_5.xsize (grid2.coords t2_7) 1
                  rw [show win2_5.index t2_7 1 * win2_5.size 1 = 0 from by decide +kernel, show win2_5.xsize (grid2.coords t2_7) 1 = 256 from by decide +kernel]; omega⟩

end Regions

end Cert.KernelIdeal.Reg

end
-- ==== Proof.Reg2ValueIdeal.lean ====
import proofs.«172830_g53506702573898_cont_9to1_m_1152_4_alg».proof.Proof.Reg2Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk2_0_eq_slice (c : Dev nD) (t : Fin cfg2.N) (off : Fin 2 → Nat) (hoff : off = ![0, 512 * t.val])
    (h : S4096x4096.Slices off S4096x512) :
    (iblk2 V c 0 t : Vec F S4096x512 .bf16) = extractStridedSlice S4096x512 off (V c main_v0_0) h := by
  subst hoff
  have hi : win2_0.index t 0 = 0 ∧ win2_0.index t 1 = t.val := by
    rcases fin_N2 t with rfl | rfl | rfl | rfl | rfl | rfl | rfl | rfl <;> decide
  funext j
  unfold iblk2 extractStridedSlice
  rw [View.read_apply]
  show V c main_v0_0 _ = V c main_v0_0 _
  congr 1
  funext a
  apply Fin.ext
  match a with
  | ⟨0, _⟩ => show win2_0.index t 0 * 4096 + 1 * (j 0).val = 0 + (j 0).val; rw [hi.1]; omega
  | ⟨1, _⟩ => show win2_0.index t 1 * 512 + 1 * (j 1).val = 512 * t.val + (j 1).val; rw [hi.2]; omega

/-- Window 1's block at point `t` is the slice of its array at the block's offset. -/
theorem iblk2_1_eq_slice (c : Dev nD) (t : Fin cfg2.N) (off : Fin 2 → Nat) (hoff : off = ![512 * t.val, 0])
    (h : S4096x256.Slices off S512x256) :
    (iblk2 V c 1 t : Vec F S512x256 .f32) = extractStridedSlice S512x256 off (V c main_v24) h := by
  subst hoff
  have hi : win2_1.index t 0 = t.val ∧ win2_1.index t 1 = 0 := by
    rcases fin_N2 t with rfl | rfl | rfl | rfl | rfl | rfl | rfl | rfl <;> decide
  funext j
  unfold iblk2 extractStridedSlice
  rw [View.read_apply]
  show V c main_v24 _ = V c main_v24 _
  congr 1
  funext a
  apply Fin.ext
  match a with
  | ⟨0, _⟩ => show win2_1.index t 0 * 512 + 1 * (j 0).val = 512 * t.val + (j 0).val; rw [hi.1]; omega
  | ⟨1, _⟩ => show win2_1.index t 1 * 256 + 1 * (j 1).val = 0 + (j 1).val; rw [hi.2]; omega

/-- Window 2's block at point `t` is the slice of its array at the block's offset. -/
theorem iblk2_2_eq_slice (c : Dev nD) (t : Fin cfg2.N) (off : Fin 2 → Nat) (hoff : off = ![512 * t.val, 0])
    (h : S4096x1.Slices off S512x1) :
    (iblk2 V c 2 t : Vec F S512x1 .f32) = extractStridedSlice S512x1 off (V c main_v0_1) h := by
  subst hoff
  have hi : win2_2.index t 0 = t.val ∧ win2_2.index t 1 = 0 := by
    rcases fin_N2 t with rfl | rfl | rfl | rfl | rfl | rfl | rfl | rfl <;> decide
  funext j
  unfold iblk2 extractStridedSlice
  rw [View.read_apply]
  show V c main_v0_1 _ = V c main_v0_1 _
  congr 1
  funext a
  apply Fin.ext
  match a with
  | ⟨0, _⟩ => show win2_2.index t 0 * 512 + 1 * (j 0).val = 512 * t.val + (j 0).val; rw [hi.1]; omega
  | ⟨1, _⟩ => show win2_2.index t 1 * 1 + 1 * (j 1).val = 0 + (j 1).val; rw [hi.2]; omega

/-- Window 3's block at every point is its whole array. -/
theorem iblk2_3_eq (c : Dev nD) (t : Fin cfg2.N) : (iblk2 V c 3 t : Vec F S4096x1 .f32) = V c main_v0_1 := by
  have hi : win2_3.index t 0 = 0 ∧ win2_3.index t 1 = 0 := by
    rcases fin_N2 t with rfl | rfl | rfl | rfl | rfl | rfl | rfl | rfl <;> decide
  funext j
  unfold iblk2
  rw [View.read_apply]
  show V c main_v0_1 _ = V c main_v0_1 j
  congr 1
  funext a
  apply Fin.ext
  match a with
  | ⟨0, _⟩ => show win2_3.index t 0 * 4096 + 1 * (j 0).val = (j 0).val; rw [hi.1]; omega
  | ⟨1, _⟩ => show win2_3.index t 1 * 1 + 1 * (j 1).val = (j 1).val; rw [hi.2]; omega

/-- Window 4's block at every point is its whole array. -/
theorem iblk2_4_eq (c : Dev nD) (t : Fin cfg2.N) : (iblk2 V c 4 t : Vec F S4096x256 .f32) = V c main_v23 := by
  have hi : win2_4.index t 0 = 0 ∧ win2_4.index t 1 = 0 := by
    rcases fin_N2 t with rfl | rfl | rfl | rfl | rfl | rfl | rfl | rfl <;> decide
  funext j
  unfold iblk2
  rw [View.read_apply]
  show V c main_v23 _ = V c main_v23 j
  congr 1
  funext a
  apply Fin.ext
  match a with
  | ⟨0, _⟩ => show win2_4.index t 0 * 4096 + 1 * (j 0).val = (j 0).val; rw [hi.1]; omega
  | ⟨1, _⟩ => show win2_4.index t 1 * 256 + 1 * (j 1).val = (j 1).val; rw [hi.2]; omega

end Regions

/-! ## The payloads at an index, at the ideal values -/

/-- The bit patterns of the two constants the final scaling multiplies by. -/
abbrev c1Bits2 : BitVec 32 := 0xC0000000#32
abbrev c2Bits2 : BitVec 32 := 0xBF800000#32

/-- They denote -2 and -1. -/
theorem c1Bits2_val : Ideal.ofBits .f32 c1Bits2 = ((-2 : ℝ) : EReal) := by
  show Ideal.ofBits .f32 0xC0000000#32 = _
  simp [Ideal.ofBits, Ideal.ieee, -EReal.coe_mul, -EReal.coe_neg]; norm_num
theorem c2Bits2_val : Ideal.ofBits .f32 c2Bits2 = ((-1 : ℝ) : EReal) := by
  show Ideal.ofBits .f32 0xBF800000#32 = _
  simp [Ideal.ofBits, Ideal.ieee, -EReal.coe_mul, -EReal.coe_neg]; norm_num

/-- The zero block at an index. -/
theorem k2_pay1_apply (j : S4096x256.Idx) : (k2_pay1 (F := Ideal)) j = 0 := by
  unfold k2_pay1
  show Ideal.ofBits .f32 0x00000000#32 = 0
  exact Ideal.ofBits_zero_f32

/-- The accumulation step at an index: the running contents there plus the sum over the contraction index of the left
    block's entry times the right block's entry scaled by its row's entry of the column block. -/
theorem k2_pay2_apply (v0 : Vec Ideal S512x256 .f32) (v2 : Vec Ideal S512x1 .f32) (v7 : Vec Ideal S4096x512 .bf16)
    (v13 : Vec Ideal S4096x256 .f32) (j : S4096x256.Idx) :
    k2_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k2_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k2_pay3_apply (v20 : Vec Ideal S4096x1 .f32) (v24 v28 : Vec Ideal S4096x256 .f32) (j : S4096x256.Idx) :
    k2_pay3 (F := Ideal) v20 v24 v28 j
      = (Ideal.ofBits .f32 c1Bits2 * broadcastTo S4096x256 v20 broadcasts_S4096x1_S4096x256 j) * v24 j
        + Ideal.ofBits .f32 c2Bits2 * v28 j := by
  unfold k2_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk2_0 (c : Dev nD) (t : Fin cfg2.N) : Vec Ideal S4096x512 .bf16 := iblk2 V c 0 t
abbrev blk2_1 (c : Dev nD) (t : Fin cfg2.N) : Vec Ideal S512x256 .f32 := iblk2 V c 1 t
abbrev blk2_2 (c : Dev nD) (t : Fin cfg2.N) : Vec Ideal S512x1 .f32 := iblk2 V c 2 t

/-- Point `n`'s contribution at the output index `j`: the sum over the contraction index of window 0's block entry times
    window 1's block entry scaled by its row's entry of window 2's block. -/
def term2 (c : Dev nD) (n : ℕ) (h : n < cfg2.N) (j : S4096x256.Idx) : Ideal .f32 :=
  ∑ k : dot_S4096x512_S512x256_S4096x256_1_0_0_1_n_n.contr.Idx,
    blk2_0 V c ⟨n, h⟩ (dot_S4096x512_S512x256_S4096x256_1_0_0_1_n_n.lhsIdx j k)
      * (blk2_1 V c ⟨n, h⟩ (dot_S4096x512_S512x256_S4096x256_1_0_0_1_n_n.rhsIdx j k)
          * broadcastTo S512x256 (blk2_2 V c ⟨n, h⟩) broadcasts_S512x1_S512x256 (dot_S4096x512_S512x256_S4096x256_1_0_0_1_n_n.rhsIdx j k))

/-- The ordered sum of the contributions of the points up to `n`, from zero. -/
def fold2 (c : Dev nD) (j : S4096x256.Idx) : (n : ℕ) → n < cfg2.N → Ideal .f32
  | 0, h => 0 + term2 V c 0 h j
  | n + 1, h => fold2 c j n (Nat.lt_of_succ_lt h) + term2 V c (n + 1) h j

/-- The accumulation after point `n`, at an index, is that ordered sum. -/
theorem acc2_apply (c : Dev nD) (j : S4096x256.Idx) : ∀ (n : ℕ) (h : n < cfg2.N), acc2 V c n h j = fold2 V c j n h
  | 0, h => by
    show k2_pay2 (F := Ideal) _ _ _ _ j = _
    rw [k2_pay2_apply, k2_pay1_apply]
    rfl
  | n + 1, h => by
    show k2_pay2 (F := Ideal) _ _ _ (acc2 V c n _) j = _
    rw [k2_pay2_apply, acc2_apply c j n]
    rfl

/-- THE VALUE. After the region the output array holds, at the index `j`, the first constant times window 3's array
    (a column) at `j`'s row times the ordered sum over the 8 points, plus the second constant times window 4's array at
    `j`. -/
theorem final2_apply (c : Dev nD) (j : S4096x256.Idx) :
    (dat2 V c).arrAt 5 cfg2.N j
      = (Ideal.ofBits .f32 c1Bits2 * broadcastTo S4096x256 (V c main_v0_1) broadcasts_S4096x1_S4096x256 j)
          * fold2 V c j t2_7.val t2_7.isLt
        + Ideal.ofBits .f32 c2Bits2 * V c main_v23 j := by
  rw [final2]
  show k2_pay3 (F := Ideal) _ _ _ j = _
  rw [k2_pay3_apply, acc2_apply, iblk2_3_eq, iblk2_4_eq]

end IdealRegions

end Cert.KernelIdeal.Reg

end
-- ==== Proof.Reg2ValueAt.lean ====
import proofs.«172830_g53506702573898_cont_9to1_m_1152_4_alg».proof.Proof.Reg2ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 2: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax2 (c : Dev nD) (p q : Fin 4096) : EReal := V c main_v0_0 (ix2 p q)
abbrev xin2 (c : Dev nD) (q : Fin 4096) (f : Fin 256) : EReal := V c main_v24 (ix2 q f)
abbrev dis2 (c : Dev nD) (p : Fin 4096) : EReal := V c main_v0_1 (ix2 p (0 : Fin 1))
abbrev zin2 (c : Dev nD) (p : Fin 4096) (f : Fin 256) : EReal := V c main_v23 (ix2 p f)

/-- Window 0's block at point `t`, at row `p` and column `k`, is the matrix at row `p` and column `k` of column block `t`. -/
theorem blk2_0_at (c : Dev nD) (t : Fin cfg2.N) (b : Fin 8) (hb : b.val = t.val) (p : Fin 4096) (k : Fin 512) :
    blk2_0 V c t (ix2 p k) = amax2 V c p (blk b k) := by
  have hi : win2_0.index t 0 = 0 ∧ win2_0.index t 1 = t.val := by
    rcases fin_N2 t with rfl | rfl | rfl | rfl | rfl | rfl | rfl | rfl <;> decide
  unfold blk2_0 amax2 iblk2
  rw [View.read_apply]
  show V c main_v0_0 _ = V c main_v0_0 _
  congr 1
  funext a
  apply Fin.ext
  match a with
  | ⟨0, _⟩ => show win2_0.index t 0 * 4096 + 1 * p.val = p.val; rw [hi.1]; omega
  | ⟨1, _⟩ => show win2_0.index t 1 * 512 + 1 * k.val = b.val * 512 + k.val; rw [hi.2, hb]; omega

/-- Window 1's block at point `t`, at row `k` and column `f`, is the operand at row `k` of row block `t`. -/
theorem blk2_1_at (c : Dev nD) (t : Fin cfg2.N) (b : Fin 8) (hb : b.val = t.val) (k : Fin 512) (f : Fin 256) :
    blk2_1 V c t (ix2 k f) = xin2 V c (blk b k) f := by
  have hi : win2_1.index t 0 = t.val ∧ win2_1.index t 1 = 0 := by
    rcases fin_N2 t with rfl | rfl | rfl | rfl | rfl | rfl | rfl | rfl <;> decide
  unfold blk2_1 xin2 iblk2
  rw [View.read_apply]
  show V c main_v24 _ = V c main_v24 _
  congr 1
  funext a
  apply Fin.ext
  match a with
  | ⟨0, _⟩ => show win2_1.index t 0 * 512 + 1 * k.val = b.val * 512 + k.val; rw [hi.1, hb]; omega
  | ⟨1, _⟩ => show win2_1.index t 1 * 256 + 1 * f.val = f.val; rw [hi.2]; omega

/-- Window 2's block at point `t`, at row `k`, is the column at row `k` of row block `t`. -/
theorem blk2_2_at (c : Dev nD) (t : Fin cfg2.N) (b : Fin 8) (hb : b.val = t.val) (k : Fin 512) :
    blk2_2 V c t (ix2 k (0 : Fin 1)) = dis2 V c (blk b k) := by
  have hi : win2_2.index t 0 = t.val ∧ win2_2.index t 1 = 0 := by
    rcases fin_N2 t with rfl | rfl | rfl | rfl | rfl | rfl | rfl | rfl <;> decide
  unfold blk2_2 dis2 iblk2
  rw [View.read_apply]
  show V c main_v0_1 _ = V c main_v0_1 _
  congr 1
  funext a
  apply Fin.ext
  match a with
  | ⟨0, _⟩ => show win2_2.index t 0 * 512 + 1 * k.val = b.val * 512 + k.val; rw [hi.1, hb]; omega
  | ⟨1, _⟩ => show win2_2.index t 1 * 1 + 1 * 0 = 0; rw [hi.2]

/-- Point `b`'s contribution at row `p` and column `f`: the sum over the 512 positions of block `b`. -/
theorem term2_at (c : Dev nD) (b : Fin 8) (h : b.val < cfg2.N) (p : Fin 4096) (f : Fin 256) :
    term2 V c b.val h (ix2 p f)
      = ∑ k : Fin 512, amax2 V c p (blk b k) * (xin2 V c (blk b k) f * dis2 V c (blk b k)) := by
  unfold term2
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk2_2 V c ⟨b.val, h⟩) broadcasts_S512x1_S512x256 (ix2 k f)
      = blk2_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk2_0_at V c ⟨b.val, h⟩ b rfl, blk2_1_at V c ⟨b.val, h⟩ b rfl, blk2_2_at V c ⟨b.val, h⟩ b rfl]

/-- The ordered sum over the 8 points is the sum over the 8 blocks. -/
theorem fold2_eq_sum (c : Dev nD) (j : S4096x256.Idx) :
    fold2 V c j t2_7.val t2_7.isLt = ∑ b : Fin 8, term2 V c b.val (lt_of_lt_of_eq b.isLt N_2.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final2_at (c : Dev nD) (p : Fin 4096) (f : Fin 256) :
    ((dat2 V c).arrAt 5 cfg2.N (ix2 p f) : EReal)
      = (-2 : EReal) * dis2 V c p
          * (∑ j : Fin 8, ∑ k : Fin 512, amax2 V c p (blk j k) * (xin2 V c (blk j k) f * dis2 V c (blk j k)))
        + (-1 : EReal) * zin2 V c p f := by
  have hbc : broadcastTo S4096x256 (V c main_v0_1) broadcasts_S4096x1_S4096x256 (ix2 p f) = dis2 V c p :=
    broadcastTo_apply _ _ (ix2 p f) (ix2 p (0 : Fin 1)) fun a => by
      match a with
      | ⟨0, _⟩ => rfl
      | ⟨1, _⟩ => rfl
  rw [final2_apply, hbc, fold2_eq_sum, c1Bits2_val, ← Alg.neg_two_eq, c2Bits2_val, ← Alg.neg_one_eq]
  simp only [term2_at]

end IdealRegions

end Cert.KernelIdeal.Reg

end
-- ==== Proof.Reg3Val.lean ====
import proofs.«172830_g53506702573898_cont_9to1_m_1152_4_alg».proof.Proof.Reg3Body
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The gate region at the ideal values: what its two stores hold, element by element

Both stores are the logistic of a bias row plus three [4096, 32] x [32, 16] products added in turn; the first is then
multiplied by the hidden block. -/

theorem hz2 : (![0, 0] : Fin 2 → Nat) = fun _ => 0 := funext fun a => by fin_cases a <;> rfl

/-! ## The layout operations and the product, read at an index -/

theorem mm32_lhs0 (i : S4096x16.Idx) (q : dot_S4096x32_S32x16_S4096x16_1_0_0_1_n_n.contr.Idx) : (dot_S4096x32_S32x16_S4096x16_1_0_0_1_n_n.lhsIdx i q 0).val = (i 0).val := by
  unfold DotDims.lhsIdx
  rw [dif_neg (show ¬(0 : Fin S4096x32.rank) ∈ dot_S4096x32_S32x16_S4096x16_1_0_0_1_n_n.lhsBatch by decide), dif_pos (show (0 : Fin S4096x32.rank) ∈ dot_S4096x32_S32x16_S4096x16_1_0_0_1_n_n.lhsNonContracting by decide)]
  rfl
theorem mm32_rhs1 (i : S4096x16.Idx) (q : dot_S4096x32_S32x16_S4096x16_1_0_0_1_n_n.contr.Idx) : (dot_S4096x32_S32x16_S4096x16_1_0_0_1_n_n.rhsIdx i q 1).val = (i 1).val := by
  unfold DotDims.rhsIdx
  rw [dif_neg (show ¬(1 : Fin S32x16.rank) ∈ dot_S4096x32_S32x16_S4096x16_1_0_0_1_n_n.rhsBatch by decide), dif_pos (show (1 : Fin S32x16.rank) ∈ dot_S4096x32_S32x16_S4096x16_1_0_0_1_n_n.rhsNonContracting by decide)]
  rfl

/-- A [4096, 32] x [32, 16] product into the zero accumulator at (p, u): the sum over the 32 contracted lanes. -/
theorem mm32_apply (lhs : FVec Ideal S4096x32 .f32) (rhs : FVec Ideal S32x16 .f32) (p : Fin 4096) (u : Fin 16) :
    matmul dot_S4096x32_S32x16_S4096x16_1_0_0_1_n_n none lhs rhs (constant (F := Ideal) S4096x16 .f32 0x00000000#32) (ix2 p u)
      = ∑ c : Fin 32, lhs (ix2 p c) * rhs (ix2 c u) := by
  simp only [matmul]
  rw [Ideal.matmul_constant_zero_apply, ← Equiv.sum_comp (contrEquiv1 dot_S4096x32_S32x16_S4096x16_1_0_0_1_n_n 32 rfl rfl).symm]
  refine Finset.sum_congr rfl fun k _ => ?_
  have hk := contrEquiv1_symm_val dot_S4096x32_S32x16_S4096x16_1_0_0_1_n_n 32 rfl rfl k
  have el : dot_S4096x32_S32x16_S4096x16_1_0_0_1_n_n.lhsIdx (ix2 p u) ((contrEquiv1 dot_S4096x32_S32x16_S4096x16_1_0_0_1_n_n 32 rfl rfl).symm k) = ix2 p k := funext fun a => Fin.ext (by
    match a with
    | ⟨0, _⟩ => exact mm32_lhs0 _ _
    | ⟨1, _⟩ => exact (dot_S4096x32_S32x16_S4096x16_1_0_0_1_n_n.lhsIdx_val_of_single rfl _ _).trans hk)
  have er : dot_S4096x32_S32x16_S4096x16_1_0_0_1_n_n.rhsIdx (ix2 p u) ((contrEquiv1 dot_S4096x32_S32x16_S4096x16_1_0_0_1_n_n 32 rfl rfl).symm k) = ix2 k u := funext fun a => Fin.ext (by
    match a with
    | ⟨0, _⟩ => exact (dot_S4096x32_S32x16_S4096x16_1_0_0_1_n_n.rhsIdx_val_of_single rfl _ _).trans hk
    | ⟨1, _⟩ => exact mm32_rhs1 _ _)
  rw [el, er]

/-- A [1, 32, 16] weight slice viewed [32, 16], at (c, u). -/
theorem wcast_apply (v : Vec Ideal S1x32x16 .f32) (c : Fin 32) (u : Fin 16) :
    shapeCast S32x16 v shapeCasts_S1x32x16_S32x16 (ix2 c u) = v (ix3 0 c u) :=
  shapeCast_apply v shapeCasts_S1x32x16_S32x16 (ix2 c u) (ix3 0 c u)
    (by rw [Shape.rowMajor_val_three, Shape.rowMajor_val_two]; show ((0 : ℕ) * 32 + c.val) * 16 + u.val = c.val * 16 + u.val; omega)

/-- The product with a [1, 32, 16] weight slice viewed [32, 16]. -/
theorem mmw_apply (lhs : FVec Ideal S4096x32 .f32) (w : Vec Ideal S1x32x16 .f32) (p : Fin 4096) (u : Fin 16) :
    matmul dot_S4096x32_S32x16_S4096x16_1_0_0_1_n_n none lhs (shapeCast S32x16 w shapeCasts_S1x32x16_S32x16 : FVec Ideal S32x16 .f32) (constant (F := Ideal) S4096x16 .f32 0x00000000#32) (ix2 p u)
      = ∑ c : Fin 32, lhs (ix2 p c) * w (ix3 0 c u) :=
  (mm32_apply lhs _ p u).trans (Finset.sum_congr rfl fun c _ => congrArg (lhs (ix2 p c) * ·) (wcast_apply w c u))

/-- A [1, 16] bias row broadcast over the 4096 rows, at (p, u). -/
theorem brow_apply (v : Vec Ideal S1x16 .f32) (p : Fin 4096) (u : Fin 16) :
    broadcastTo S4096x16 v broadcasts_S1x16_S4096x16 (ix2 p u) = v (ix2 0 u) :=
  broadcastTo_apply v broadcasts_S1x16_S4096x16 (ix2 p u) (ix2 0 u) (fun a => by
    match a with
    | ⟨0, _⟩ => rfl
    | ⟨1, _⟩ => rfl)

/-- The m-th [1, 32, 16] slice of a [3, 32, 16] weight stack, at (0, c, u). -/
theorem ldw0_apply (x : Vec Ideal S3x32x16 .f32) (c : Fin 32) (u : Fin 16) : View.ld x r3_w0 (ix3 0 c u) = x (ix3 0 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ldw1_apply (x : Vec Ideal S3x32x16 .f32) (c : Fin 32) (u : Fin 16) : View.ld x r3_w1 (ix3 0 c u) = x (ix3 1 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ldw2_apply (x : Vec Ideal S3x32x16 .f32) (c : Fin 32) (u : Fin 16) : View.ld x r3_w2 (ix3 0 c u) = x (ix3 2 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))

/-! ## The payloads at an index -/

/-- The first two steps of the first pre-activation: bias plus the first two products. -/
theorem k3_pay5_apply (v0 : Vec Ideal S1x16 .f32) (v4 v16 : Vec Ideal S4096x32 .f32) (v6 v18 : Vec Ideal S1x32x16 .f32)
    (p : Fin 4096) (u : Fin 16) :
    k3_pay5 v0 v4 v6 v16 v18 (ix2 p u)
      = (v0 (ix2 0 u) + ∑ c : Fin 32, v4 (ix2 p c) * v6 (ix3 0 c u)) + ∑ c : Fin 32, v16 (ix2 p c) * v18 (ix3 0 c u) := by
  unfold k3_pay5 k3_pay3 k3_pay4
  simp only [shapeCast_self]
  rw [addf_apply, addf_apply, mmw_apply, mmw_apply, brow_apply]

/-- The same for the second pre-activation. -/
theorem k3_pay6_apply (v2 : Vec Ideal S1x16 .f32) (v4 v16 : Vec Ideal S4096x32 .f32) (v11 v22 : Vec Ideal S1x32x16 .f32)
    (p : Fin 4096) (u : Fin 16) :
    k3_pay6 v2 v4 v11 v16 v22 (ix2 p u)
      = (v2 (ix2 0 u) + ∑ c : Fin 32, v4 (ix2 p c) * v11 (ix3 0 c u)) + ∑ c : Fin 32, v16 (ix2 p c) * v22 (ix3 0 c u) := by
  unfold k3_pay6 k3_pay3 k3_pay4
  simp only [shapeCast_self]
  rw [addf_apply, addf_apply, mmw_apply, mmw_apply, brow_apply]

/-- The first store's payload: logistic of the pre-activation plus the third product, times the hidden block. -/
theorem k3_pay2_apply (v21 : FVec Ideal S4096x16 .f32) (v27 : FVec Ideal S4096x32 .f32) (v29 : FVec Ideal S32x16 .f32)
    (v38 : Vec Ideal S4096x16 .f32) (p : Fin 4096) (u : Fin 16) :
    k3_pay2 v21 v27 v29 v38 (ix2 p u)
      = Ideal.logistic (v21 (ix2 p u) + ∑ c : Fin 32, v27 (ix2 p c) * v29 (ix2 c u)) * v38 (ix2 p u) := by
  unfold k3_pay2
  simp only [shapeCast_self]
  rw [mulf_apply]
  show Ideal.logistic (addf v21 _ (ix2 p u)) * _ = _
  rw [addf_apply, mm32_apply]

/-- The second store's payload: logistic of the pre-activation plus the third product. -/
theorem k3_pay1_apply (v25 : FVec Ideal S4096x16 .f32) (v27 : FVec Ideal S4096x32 .f32) (v32 : Vec Ideal S1x32x16 .f32)
    (p : Fin 4096) (u : Fin 16) :
    k3_pay1 v25 v27 v32 (ix2 p u)
      = Ideal.logistic (v25 (ix2 p u) + ∑ c : Fin 32, v27 (ix2 p c) * v32 (ix3 0 c u)) := by
  unfold k3_pay1
  show Ideal.logistic (addf v25 _ (ix2 p u)) = _
  rw [addf_apply, mmw_apply]

/-! ## The two output buffers after the body, at an index -/

/-- THE FIRST OUTPUT (reset gate times hidden state) at row `p`, unit `u`. -/
theorem out3_8_apply (x0 x1 x2 : Vec Ideal S4096x32 .f32) (x3 : Vec Ideal S3x32x16 .f32) (x5 : Vec Ideal S1x16 .f32)
    (x7 : Vec Ideal S4096x16 .f32) (p : Fin 4096) (u : Fin 16) :
    out3_8 x0 x1 x2 x3 x5 x7 (ix2 p u)
      = Ideal.logistic (((x5 (ix2 0 u) + ∑ c : Fin 32, x0 (ix2 p c) * x3 (ix3 0 c u))
          + ∑ c : Fin 32, x1 (ix2 p c) * x3 (ix3 1 c u)) + ∑ c : Fin 32, x2 (ix2 p c) * x3 (ix3 2 c u)) * x7 (ix2 p u) := by
  unfold out3_8
  rw [View.canon_unit_zero hz2]
  simp only [View.ld_unit_zero (S := S4096x32) hz2, View.ld_unit_zero (S := S4096x16) hz2, View.ld_unit_zero (S := S1x16) hz2]
  rw [k3_pay2_apply, k3_pay5_apply]
  unfold k3_pay7 k3_pay8
  simp only [shapeCast_self]
  refine congrArg (fun s => Ideal.logistic s * x7 (ix2 p u)) ?_
  exact congrArg₂ (· + ·) (congrArg₂ (· + ·)
      (congrArg (x5 (ix2 0 u) + ·) (Finset.sum_congr rfl fun c _ => congrArg (x0 (ix2 p c) * ·) (ldw0_apply x3 c u)))
      (Finset.sum_congr rfl fun c _ => congrArg (x1 (ix2 p c) * ·) (ldw1_apply x3 c u)))
    (Finset.sum_congr rfl fun c _ => congrArg (x2 (ix2 p c) * ·) ((wcast_apply _ c u).trans (ldw2_apply x3 c u)))

/-- THE SECOND OUTPUT (update gate) at row `p`, unit `u`. -/
theorem out3_9_apply (x0 x1 x2 : Vec Ideal S4096x32 .f32) (x4 : Vec Ideal S3x32x16 .f32) (x6 : Vec Ideal S1x16 .f32)
    (p : Fin 4096) (u : Fin 16) :
    out3_9 x0 x1 x2 x4 x6 (ix2 p u)
      = Ideal.logistic (((x6 (ix2 0 u) + ∑ c : Fin 32, x0 (ix2 p c) * x4 (ix3 0 c u))
          + ∑ c : Fin 32, x1 (ix2 p c) * x4 (ix3 1 c u)) + ∑ c : Fin 32, x2 (ix2 p c) * x4 (ix3 2 c u)) := by
  unfold out3_9
  rw [View.canon_unit_zero hz2]
  simp only [View.ld_unit_zero (S := S4096x32) hz2, View.ld_unit_zero (S := S4096x16) hz2, View.ld_unit_zero (S := S1x16) hz2]
  rw [k3_pay1_apply, k3_pay6_apply]
  unfold k3_pay7
  simp only [shapeCast_self]
  refine congrArg Ideal.logistic ?_
  exact congrArg₂ (· + ·) (congrArg₂ (· + ·)
      (congrArg (x6 (ix2 0 u) + ·) (Finset.sum_congr rfl fun c _ => congrArg (x0 (ix2 p c) * ·) (ldw0_apply x4 c u)))
      (Finset.sum_congr rfl fun c _ => congrArg (x1 (ix2 p c) * ·) (ldw1_apply x4 c u)))
    (Finset.sum_congr rfl fun c _ => congrArg (x2 (ix2 p c) * ·) (ldw2_apply x4 c u))

end Cert.KernelIdeal.Reg

end
-- ==== Proof.Reg3Val2.lean ====
import proofs.«172830_g53506702573898_cont_9to1_m_1152_4_alg».proof.Proof.Reg3Val
import proofs.«172830_g53506702573898_cont_9to1_m_1152_4_alg».proof.Proof.Reg3Data

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-! # The gate region at the ideal values: from the blocks to the two output arrays

Point `t` of the 8-point grid handles rows 4096·t … 4096·t + 4095; the weight stacks and bias rows are single blocks. -/

theorem idx3_0 : ∀ t : Fin cfg3.N, win3_0.index t 0 = t.val ∧ win3_0.index t 1 = 0 :=
  (by decide +kernel : ∀ t : Fin grid3.N, win3_0.index t 0 = t.val ∧ win3_0.index t 1 = 0)
theorem idx3_1 : ∀ t : Fin cfg3.N, win3_1.index t 0 = t.val ∧ win3_1.index t 1 = 0 :=
  (by decide +kernel : ∀ t : Fin grid3.N, win3_1.index t 0 = t.val ∧ win3_1.index t 1 = 0)
theorem idx3_2 : ∀ t : Fin cfg3.N, win3_2.index t 0 = t.val ∧ win3_2.index t 1 = 0 :=
  (by decide +kernel : ∀ t : Fin grid3.N, win3_2.index t 0 = t.val ∧ win3_2.index t 1 = 0)
theorem idx3_3 : ∀ t : Fin cfg3.N, win3_3.index t 0 = 0 ∧ win3_3.index t 1 = 0 ∧ win3_3.index t 2 = 0 :=
  (by decide +kernel : ∀ t : Fin grid3.N, win3_3.index t 0 = 0 ∧ win3_3.index t 1 = 0 ∧ win3_3.index t 2 = 0)
theorem idx3_4 : ∀ t : Fin cfg3.N, win3_4.index t 0 = 0 ∧ win3_4.index t 1 = 0 ∧ win3_4.index t 2 = 0 :=
  (by decide +kernel : ∀ t : Fin grid3.N, win3_4.index t 0 = 0 ∧ win3_4.index t 1 = 0 ∧ win3_4.index t 2 = 0)
theorem idx3_5 : ∀ t : Fin cfg3.N, win3_5.index t 0 = 0 ∧ win3_5.index t 1 = 0 :=
  (by decide +kernel : ∀ t : Fin grid3.N, win3_5.index t 0 = 0 ∧ win3_5.index t 1 = 0)
theorem idx3_6 : ∀ t : Fin cfg3.N, win3_6.index t 0 = 0 ∧ win3_6.index t 1 = 0 :=
  (by decide +kernel : ∀ t : Fin grid3.N, win3_6.index t 0 = 0 ∧ win3_6.index t 1 = 0)
theorem idx3_7 : ∀ t : Fin cfg3.N, win3_7.index t 0 = t.val ∧ win3_7.index t 1 = 0 :=
  (by decide +kernel : ∀ t : Fin grid3.N, win3_7.index t 0 = t.val ∧ win3_7.index t 1 = 0)
theorem idx3_8 : ∀ t : Fin cfg3.N, win3_8.index t 0 = t.val ∧ win3_8.index t 1 = 0 :=
  (by decide +kernel : ∀ t : Fin grid3.N, win3_8.index t 0 = t.val ∧ win3_8.index t 1 = 0)
theorem idx3_9 : ∀ t : Fin cfg3.N, win3_9.index t 0 = t.val ∧ win3_9.index t 1 = 0 :=
  (by decide +kernel : ∀ t : Fin grid3.N, win3_9.index t 0 = t.val ∧ win3_9.index t 1 = 0)

theorem xsize3_8 : ∀ t : Fin cfg3.N, win3_8.xsize (grid3.coords t) 0 = 4096 ∧ win3_8.xsize (grid3.coords t) 1 = 16 :=
  (by decide +kernel : ∀ t : Fin grid3.N, win3_8.xsize (grid3.coords t) 0 = 4096 ∧ win3_8.xsize (grid3.coords t) 1 = 16)
theorem xsize3_9 : ∀ t : Fin cfg3.N, win3_9.xsize (grid3.coords t) 0 = 4096 ∧ win3_9.xsize (grid3.coords t) 1 = 16 :=
  (by decide +kernel : ∀ t : Fin grid3.N, win3_9.xsize (grid3.coords t) 0 = 4096 ∧ win3_9.xsize (grid3.coords t) 1 = 16)

/-! ## The input blocks at an index -/

theorem rowblk3_0 (c : Dev nD) (t : Fin cfg3.N) (p : Fin 4096) (cc : Fin 32) (r : Fin 32768)
    (hr : r.val = 4096 * t.val + p.val) :
    (iblk3 V c 0 t : Vec Ideal S4096x32 .f32) (ix2 p cc) = V c main_v26 (ix2 r cc) := by
  have hi := idx3_0 t
  unfold iblk3
  rw [View.read_apply]
  show V c main_v26 _ = V c main_v26 _
  congr 1
  funext a
  apply Fin.ext
  match a with
  | ⟨0, _⟩ => show win3_0.index t 0 * 4096 + 1 * p.val = r.val; rw [hi.1, hr]; omega
  | ⟨1, _⟩ => show win3_0.index t 1 * 32 + 1 * cc.val = cc.val; rw [hi.2]; omega

theorem rowblk3_1 (c : Dev nD) (t : Fin cfg3.N) (p : Fin 4096) (cc : Fin 32) (r : Fin 32768)
    (hr : r.val = 4096 * t.val + p.val) :
    (iblk3 V c 1 t : Vec Ideal S4096x32 .f32) (ix2 p cc) = V c main_v27 (ix2 r cc) := by
  have hi := idx3_1 t
  unfold iblk3
  rw [View.read_apply]
  show V c main_v27 _ = V c main_v27 _
  congr 1
  funext a
  apply Fin.ext
  match a with
  | ⟨0, _⟩ => show win3_1.index t 0 * 4096 + 1 * p.val = r.val; rw [hi.1, hr]; omega
  | ⟨1, _⟩ => show win3_1.index t 1 * 32 + 1 * cc.val = cc.val; rw [hi.2]; omega

theorem rowblk3_2 (c : Dev nD) (t : Fin cfg3.N) (p : Fin 4096) (cc : Fin 32) (r : Fin 32768)
    (hr : r.val = 4096 * t.val + p.val) :
    (iblk3 V c 2 t : Vec Ideal S4096x32 .f32) (ix2 p cc) = V c main_v28 (ix2 r cc) := by
  have hi := idx3_2 t
  unfold iblk3
  rw [View.read_apply]
  show V c main_v28 _ = V c main_v28 _
  congr 1
  funext a
  apply Fin.ext
  match a with
  | ⟨0, _⟩ => show win3_2.index t 0 * 4096 + 1 * p.val = r.val; rw [hi.1, hr]; omega
  | ⟨1, _⟩ => show win3_2.index t 1 * 32 + 1 * cc.val = cc.val; rw [hi.2]; omega

theorem rowblk3_7 (c : Dev nD) (t : Fin cfg3.N) (p : Fin 4096) (cc : Fin 16) (r : Fin 32768)
    (hr : r.val = 4096 * t.val + p.val) :
    (iblk3 V c 7 t : Vec Ideal S4096x16 .f32) (ix2 p cc) = V c main_v20 (ix2 r cc) := by
  have hi := idx3_7 t
  unfold iblk3
  rw [View.read_apply]
  show V c main_v20 _ = V c main_v20 _
  congr 1
  funext a
  apply Fin.ext
  match a with
  | ⟨0, _⟩ => show win3_7.index t 0 * 4096 + 1 * p.val = r.val; rw [hi.1, hr]; omega
  | ⟨1, _⟩ => show win3_7.index t 1 * 16 + 1 * cc.val = cc.val; rw [hi.2]; omega

theorem wblk3_3 (c : Dev nD) (t : Fin cfg3.N) (m : Fin 3) (cc : Fin 32) (u : Fin 16) :
    (iblk3 V c 3 t : Vec Ideal S3x32x16 .f32) (ix3 m cc u) = V c main_v6 (ix3 m cc u) := by
  have hi := idx3_3 t
  unfold iblk3
  rw [View.read_apply]
  show V c main_v6 _ = V c main_v6 _
  congr 1
  funext a
  apply Fin.ext
  match a with
  | ⟨0, _⟩ => show win3_3.index t 0 * 3 + 1 * m.val = m.val; rw [hi.1]; omega
  | ⟨1, _⟩ => show win3_3.index t 1 * 32 + 1 * cc.val = cc.val; rw [hi.2.1]; omega
  | ⟨2, _⟩ => show win3_3.index t 2 * 16 + 1 * u.val = u.val; rw [hi.2.2]; omega

theorem wblk3_4 (c : Dev nD) (t : Fin cfg3.N) (m : Fin 3) (cc : Fin 32) (u : Fin 16) :
    (iblk3 V c 4 t : Vec Ideal S3x32x16 .f32) (ix3 m cc u) = V c main_v7 (ix3 m cc u) := by
  have hi := idx3_4 t
  unfold iblk3
  rw [View.read_apply]
  show V c main_v7 _ = V c main_v7 _
  congr 1
  funext a
  apply Fin.ext
  match a with
  | ⟨0, _⟩ => show win3_4.index t 0 * 3 + 1 * m.val = m.val; rw [hi.1]; omega
  | ⟨1, _⟩ => show win3_4.index t 1 * 32 + 1 * cc.val = cc.val; rw [hi.2.1]; omega
  | ⟨2, _⟩ => show win3_4.index t 2 * 16 + 1 * u.val = u.val; rw [hi.2.2]; omega

theorem bblk3_5 (c : Dev nD) (t : Fin cfg3.N) (z : Fin 1) (u : Fin 16) :
    (iblk3 V c 5 t : Vec Ideal S1x16 .f32) (ix2 z u) = V c main_v9 (ix2 z u) := by
  have hi := idx3_5 t
  unfold iblk3
  rw [View.read_apply]
  show V c main_v9 _ = V c main_v9 _
  congr 1
  funext a
  apply Fin.ext
  match a with
  | ⟨0, _⟩ => show win3_5.index t 0 * 1 + 1 * z.val = z.val; rw [hi.1]; omega
  | ⟨1, _⟩ => show win3_5.index t 1 * 16 + 1 * u.val = u.val; rw [hi.2]; omega

theorem bblk3_6 (c : Dev nD) (t : Fin cfg3.N) (z : Fin 1) (u : Fin 16) :
    (iblk3 V c 6 t : Vec Ideal S1x16 .f32) (ix2 z u) = V c main_v11 (ix2 z u) := by
  have hi := idx3_6 t
  unfold iblk3
  rw [View.read_apply]
  show V c main_v11 _ = V c main_v11 _
  congr 1
  funext a
  apply Fin.ext
  match a with
  | ⟨0, _⟩ => show win3_6.index t 0 * 1 + 1 * z.val = z.val; rw [hi.1]; omega
  | ⟨1, _⟩ => show win3_6.index t 1 * 16 + 1 * u.val = u.val; rw [hi.2]; omega

/-! ## The region's input arrays by coordinates -/

/-- The three diffusion terms at (row, lane), the two weight stacks at (order, lane, unit), the two bias rows at a
    unit, the hidden state at (row, unit): the arrays as the region finds them. -/
def x3_0 (c : Dev nD) (r : Fin 32768) (cc : Fin 32) : EReal := V c main_v26 (ix2 r cc)
def x3_1 (c : Dev nD) (r : Fin 32768) (cc : Fin 32) : EReal := V c main_v27 (ix2 r cc)
def x3_2 (c : Dev nD) (r : Fin 32768) (cc : Fin 32) : EReal := V c main_v28 (ix2 r cc)
def w3_3 (c : Dev nD) (m : Fin 3) (cc : Fin 32) (u : Fin 16) : EReal := V c main_v6 (ix3 m cc u)
def w3_4 (c : Dev nD) (m : Fin 3) (cc : Fin 32) (u : Fin 16) : EReal := V c main_v7 (ix3 m cc u)
def b3_5 (c : Dev nD) (u : Fin 16) : EReal := V c main_v9 (ix2 0 u)
def b3_6 (c : Dev nD) (u : Fin 16) : EReal := V c main_v11 (ix2 0 u)
def h3_7 (c : Dev nD) (r : Fin 32768) (u : Fin 16) : EReal := V c main_v20 (ix2 r u)

/-! ## The two output arrays -/

/-- The first output array after the region: reset gate times hidden state, row by row. -/
def gateRH3 (c : Dev nD) : Buf (Elt Ideal) ((c : Thread nD τ).loc main_v29_0) := fun k =>
  Ideal.logistic (((b3_5 V c (k 1) + ∑ cc : Fin 32, x3_0 V c (k 0) cc * w3_3 V c 0 cc (k 1))
      + ∑ cc : Fin 32, x3_1 V c (k 0) cc * w3_3 V c 1 cc (k 1))
      + ∑ cc : Fin 32, x3_2 V c (k 0) cc * w3_3 V c 2 cc (k 1)) * h3_7 V c (k 0) (k 1)

/-- The second output array after the region: the update gate. -/
def gateU3 (c : Dev nD) : Buf (Elt Ideal) ((c : Thread nD τ).loc main_v29_1) := fun k =>
  Ideal.logistic (((b3_6 V c (k 1) + ∑ cc : Fin 32, x3_0 V c (k 0) cc * w3_4 V c 0 cc (k 1))
      + ∑ cc : Fin 32, x3_1 V c (k 0) cc * w3_4 V c 1 cc (k 1))
      + ∑ cc : Fin 32, x3_2 V c (k 0) cc * w3_4 V c 2 cc (k 1))

theorem flushed3_8 (c : Dev nD) (t : Fin cfg3.N) (hf : (cfg3.win 8).flush t = true) :
    (dat3 V c).flushed 8 t = ((cfg3.win 8).blk t).view.read (Elt Ideal) (gateRH3 V c) := by
  have hi := idx3_8 t
  show (cfg3.win 8).cut (grid3.coords t) ((dat3 V c).after 8 t) = _
  rw [after3_8]
  refine funext fun (j : S4096x16.Idx) => ?_
  rw [View.read_apply]
  have hp : ((((cfg3.win 8).blk t).view.emb j) 0).val = 4096 * t.val + (j 0).val := by
    show win3_8.index t 0 * 4096 + 1 * (j 0).val = _; rw [hi.1]; omega
  have hu : ((((cfg3.win 8).blk t).view.emb j) 1).val = (j 1).val := by
    show win3_8.index t 1 * 16 + 1 * (j 1).val = _; rw [hi.2]; omega
  generalize (((cfg3.win 8).blk t).view.emb j) = k at hp hu ⊢
  have hk1 : k 1 = j 1 := Fin.ext hu
  have hj := eq_ix2 (n0 := 4096) (n1 := 16) j
  show out3_8 (iblk3 V c 0 t) (iblk3 V c 1 t) (iblk3 V c 2 t) (iblk3 V c 3 t) (iblk3 V c 5 t) (iblk3 V c 7 t) j = gateRH3 V c k
  rw [hj]
  refine (out3_8_apply (iblk3 V c 0 t) (iblk3 V c 1 t) (iblk3 V c 2 t) (iblk3 V c 3 t) (iblk3 V c 5 t) (iblk3 V c 7 t) (j 0) (j 1)).trans ?_
  unfold gateRH3
  rw [hk1]
  exact congrArg₂ (fun s h : EReal => Ideal.logistic s * h)
    (congrArg₂ (fun a b : EReal => a + b) (congrArg₂ (fun a b : EReal => a + b) (congrArg₂ (fun a b : EReal => a + b) (bblk3_5 V c t 0 (j 1))
        (Finset.sum_congr rfl fun cc _ => congrArg₂ (fun a b : EReal => a * b) (rowblk3_0 V c t (j 0) cc (k 0) hp) (wblk3_3 V c t 0 cc (j 1))))
        (Finset.sum_congr rfl fun cc _ => congrArg₂ (fun a b : EReal => a * b) (rowblk3_1 V c t (j 0) cc (k 0) hp) (wblk3_3 V c t 1 cc (j 1))))
        (Finset.sum_congr rfl fun cc _ => congrArg₂ (fun a b : EReal => a * b) (rowblk3_2 V c t (j 0) cc (k 0) hp) (wblk3_3 V c t 2 cc (j 1))))
    (rowblk3_7 V c t (j 0) (j 1) (k 0) hp)

theorem flushed3_9 (c : Dev nD) (t : Fin cfg3.N) (hf : (cfg3.win 9).flush t = true) :
    (dat3 V c).flushed 9 t = ((cfg3.win 9).blk t).view.read (Elt Ideal) (gateU3 V c) := by
  have hi := idx3_9 t
  show (cfg3.win 9).cut (grid3.coords t) ((dat3 V c).after 9 t) = _
  rw [after3_9]
  refine funext fun (j : S4096x16.Idx) => ?_
  rw [View.read_apply]
  have hp : ((((cfg3.win 9).blk t).view.emb j) 0).val = 4096 * t.val + (j 0).val := by
    show win3_9.index t 0 * 4096 + 1 * (j 0).val = _; rw [hi.1]; omega
  have hu : ((((cfg3.win 9).blk t).view.emb j) 1).val = (j 1).val := by
    show win3_9.index t 1 * 16 + 1 * (j 1).val = _; rw [hi.2]; omega
  generalize (((cfg3.win 9).blk t).view.emb j) = k at hp hu ⊢
  have hk1 : k 1 = j 1 := Fin.ext hu
  have hj := eq_ix2 (n0 := 4096) (n1 := 16) j
  show out3_9 (iblk3 V c 0 t) (iblk3 V c 1 t) (iblk3 V c 2 t) (iblk3 V c 4 t) (iblk3 V c 6 t) j = gateU3 V c k
  rw [hj]
  refine (out3_9_apply (iblk3 V c 0 t) (iblk3 V c 1 t) (iblk3 V c 2 t) (iblk3 V c 4 t) (iblk3 V c 6 t) (j 0) (j 1)).trans ?_
  unfold gateU3
  rw [hk1]
  exact congrArg (fun s : EReal => Ideal.logistic s)
    (congrArg₂ (fun a b : EReal => a + b) (congrArg₂ (fun a b : EReal => a + b) (congrArg₂ (fun a b : EReal => a + b) (bblk3_6 V c t 0 (j 1))
        (Finset.sum_congr rfl fun cc _ => congrArg₂ (fun a b : EReal => a * b) (rowblk3_0 V c t (j 0) cc (k 0) hp) (wblk3_4 V c t 0 cc (j 1))))
        (Finset.sum_congr rfl fun cc _ => congrArg₂ (fun a b : EReal => a * b) (rowblk3_1 V c t (j 0) cc (k 0) hp) (wblk3_4 V c t 1 cc (j 1))))
        (Finset.sum_congr rfl fun cc _ => congrArg₂ (fun a b : EReal => a * b) (rowblk3_2 V c t (j 0) cc (k 0) hp) (wblk3_4 V c t 2 cc (j 1))))

/-- THE FIRST OUTPUT ARRAY after the region. -/
theorem arrAt3_8 (c : Dev nD) : (dat3 V c).arrAt 8 cfg3.N = gateRH3 V c :=
  (dat3 V c).arrAt_eq_of_cover 8 (gateRH3 V c) (flushed3_8 V c) fun i => by
    have h0 : (i 0 : Nat) < 32768 := (i 0).isLt
    have h1 : (i 1 : Nat) < 16 := (i 1).isLt
    have hN : cfg3.N = 8 := N_3
    refine ⟨⟨(i 0 : Nat) / 4096, by rw [hN]; omega⟩, flush3_8 _, ?_⟩
    generalize ht : (⟨(i 0 : Nat) / 4096, _⟩ : Fin cfg3.N) = t
    have htv : t.val = (i 0 : Nat) / 4096 := by rw [← ht]
    have hi := idx3_8 t
    have hx := xsize3_8 t
    show i ∈ ((View.whole main_v29_0).slice (win3_8.rect t)).set
    rw [View.set_slice_whole, Rect.mem_set_unit]
    intro a
    match a with
    | ⟨0, _⟩ =>
      show win3_8.index t 0 * win3_8.size 0 ≤ (i 0 : Nat) ∧ (i 0 : Nat) < win3_8.index t 0 * win3_8.size 0 + win3_8.xsize (grid3.coords t) 0
      rw [hi.1, hx.1, show win3_8.size 0 = 4096 from rfl]; omega
    | ⟨1, _⟩ =>
      show win3_8.index t 1 * win3_8.size 1 ≤ (i 1 : Nat) ∧ (i 1 : Nat) < win3_8.index t 1 * win3_8.size 1 + win3_8.xsize (grid3.coords t) 1
      rw [hi.2, hx.2, show win3_8.size 1 = 16 from rfl]; omega

/-- THE SECOND OUTPUT ARRAY after the region. -/
theorem arrAt3_9 (c : Dev nD) : (dat3 V c).arrAt 9 cfg3.N = gateU3 V c :=
  (dat3 V c).arrAt_eq_of_cover 9 (gateU3 V c) (flushed3_9 V c) fun i => by
    have h0 : (i 0 : Nat) < 32768 := (i 0).isLt
    have h1 : (i 1 : Nat) < 16 := (i 1).isLt
    have hN : cfg3.N = 8 := N_3
    refine ⟨⟨(i 0 : Nat) / 4096, by rw [hN]; omega⟩, flush3_9 _, ?_⟩
    generalize ht : (⟨(i 0 : Nat) / 4096, _⟩ : Fin cfg3.N) = t
    have htv : t.val = (i 0 : Nat) / 4096 := by rw [← ht]
    have hi := idx3_9 t
    have hx := xsize3_9 t
    show i ∈ ((View.whole main_v29_1).slice (win3_9.rect t)).set
    rw [View.set_slice_whole, Rect.mem_set_unit]
    intro a
    match a with
    | ⟨0, _⟩ =>
      show win3_9.index t 0 * win3_9.size 0 ≤ (i 0 : Nat) ∧ (i 0 : Nat) < win3_9.index t 0 * win3_9.size 0 + win3_9.xsize (grid3.coords t) 0
      rw [hi.1, hx.1, show win3_9.size 0 = 4096 from rfl]; omega
    | ⟨1, _⟩ =>
      show win3_9.index t 1 * win3_9.size 1 ≤ (i 1 : Nat) ∧ (i 1 : Nat) < win3_9.index t 1 * win3_9.size 1 + win3_9.xsize (grid3.coords t) 1
      rw [hi.2, hx.2, show win3_9.size 1 = 16 from rfl]; omega

/-- The first output array after the region, at row `r` and unit `u`. -/
theorem final3_8_at (c : Dev nD) (r : Fin 32768) (u : Fin 16) :
    (dat3 V c).arrAt 8 cfg3.N (ix2 r u)
      = Ideal.logistic (((b3_5 V c u + ∑ cc : Fin 32, x3_0 V c r cc * w3_3 V c 0 cc u)
          + ∑ cc : Fin 32, x3_1 V c r cc * w3_3 V c 1 cc u) + ∑ cc : Fin 32, x3_2 V c r cc * w3_3 V c 2 cc u) * h3_7 V c r u := by
  rw [arrAt3_8]; rfl

/-- The second output array after the region, at row `r` and unit `u`. -/
theorem final3_9_at (c : Dev nD) (r : Fin 32768) (u : Fin 16) :
    (dat3 V c).arrAt 9 cfg3.N (ix2 r u)
      = Ideal.logistic (((b3_6 V c u + ∑ cc : Fin 32, x3_0 V c r cc * w3_4 V c 0 cc u)
          + ∑ cc : Fin 32, x3_1 V c r cc * w3_4 V c 1 cc u) + ∑ cc : Fin 32, x3_2 V c r cc * w3_4 V c 2 cc u) := by
  rw [arrAt3_9]; rfl

end Cert.KernelIdeal.Reg

end
-- ==== Proof.Reg4Value.lean ====
import proofs.«172830_g53506702573898_cont_9to1_m_1152_4_alg».proof.Proof.Reg4Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz4 : (![0, 0] : Fin 2 → Nat) = fun _ => 0 := funext fun a => by fin_cases a <;> rfl

/-! # Region 4: what the output array holds after the region, at any `F` -/

/-- Case B (points 1 to 6): over the output buffer's running contents `xo` the body leaves the accumulation step
    `k4_pay2` of the three input blocks it multiplies — its one covering store's payload, its loads reading whole buffers. -/
theorem out4_B (c : Dev nD) (i : grid4.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond4_0 i) (hc1 : ¬cond4_1 i) (x0 : Vec F S4096x512 .bf16) (x1 : Vec F S512x256 .f32) (x2 : Vec F S512x1 .f32) (x3 : Vec F S4096x1 .f32) (x4 : Vec F S4096x256 .f32) (xo : Vec F S4096x256 .f32) :
    out4_B_5 c i a1 h1 a2 h2 a3 h3 a4 h4 a5 h5 a6 h6 hc0 hc1 x0 x1 x2 x3 x4 xo = k4_pay2 x1 x2 x0 xo := by
  unfold out4_B_5
  rw [View.read_writes_eq_canon _ _ _ (cover4_B_5 c i a1 h1 a2 h2 a3 h3 a4 h4 a5 h5 a6 h6 hc0 hc1 x0 x1 x2 x3 x4 xo)]
  unfold kernelRun4_B
  dsimp only
  rw [View.canon_unit_zero hz4]
  simp only [View.readAt_eq_ld, h1.read_unread, h2.read_unread, h3.read_unread, h4.read_unread, h5.read_unread, h6.read_unread, View.ld_unit_zero (S := S4096x512) hz4, View.ld_unit_zero (S := S512x256) hz4, View.ld_unit_zero (S := S512x1) hz4, View.ld_unit_zero (S := S4096x1) hz4, View.ld_unit_zero (S := S4096x256) hz4]

/-- Case A (point 0): the body stores the zero block `k4_pay1`, reads it back and leaves the accumulation step over it. -/
theorem out4_A (c : Dev nD) (i : grid4.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond4_0 i) (hc1 : ¬cond4_1 i) (x0 : Vec F S4096x512 .bf16) (x1 : Vec F S512x256 .f32) (x2 : Vec F S512x1 .f32) (x3 : Vec F S4096x1 .f32) (x4 : Vec F S4096x256 .f32) :
    out4_A_5 c i a1 h1 a2 h2 a3 h3 a4 h4 a5 h5 a6 h6 hc0 hc1 x0 x1 x2 x3 x4 = k4_pay2 x1 x2 x0 (k4_pay1 (F := F)) := by
  unfold out4_A_5
  rw [View.read_writes_eq_canon _ _ _ (cover4_A_5 c i a1 h1 a2 h2 a3 h3 a4 h4 a5 h5 a6 h6 hc0 hc1 x0 x1 x2 x3 x4)]
  unfold kernelRun4_A
  dsimp only
  sl_unfold_words
  rw [View.canon_cons_unit_zero (S := S4096x256) hz4, View.readCov_unit_zero (S := S4096x256) _ hz4]
  simp only [View.readAt_eq_ld, h1.read_unread, h2.read_unread, h3.read_unread, h4.read_unread, h5.read_unread, h6.read_unread, View.ld_unit_zero (S := S4096x512) hz4, View.ld_unit_zero (S := S512x256) hz4, View.ld_unit_zero (S := S512x1) hz4, View.ld_unit_zero (S := S4096x1) hz4, View.ld_unit_zero (S := S4096x256) hz4]

/-- Case C (point 7): the body leaves the accumulation step over `xo`, reads it back and leaves the final scaling
    `k4_pay3` of it by window 3's block, with window 4's block added in. -/
theorem out4_C (c : Dev nD) (i : grid4.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond4_0 i) (hc1 : cond4_1 i) (x0 : Vec F S4096x512 .bf16) (x1 : Vec F S512x256 .f32) (x2 : Vec F S512x1 .f32) (x3 : Vec F S4096x1 .f32) (x4 : Vec F S4096x256 .f32) (xo : Vec F S4096x256 .f32) :
    out4_C_5 c i a1 h1 a2 h2 a3 h3 a4 h4 a5 h5 a6 h6 hc0 hc1 x0 x1 x2 x3 x4 xo = k4_pay3 x3 (k4_pay2 x1 x2 x0 xo) x4 := by
  unfold out4_C_5
  rw [View.read_writes_eq_canon _ _ _ (cover4_C_5 c i a1 h1 a2 h2 a3 h3 a4 h4 a5 h5 a6 h6 hc0 hc1 x0 x1 x2 x3 x4 xo)]
  unfold kernelRun4_C
  dsimp only
  sl_unfold_words
  rw [View.canon_cons_unit_zero (S := S4096x256) hz4, View.readCov_unit_zero (S := S4096x256) _ hz4]
  simp only [View.readAt_eq_ld, h1.read_unread, h2.read_unread, h3.read_unread, h4.read_unread, h5.read_unread, h6.read_unread, View.ld_unit_zero (S := S4096x512) hz4, View.ld_unit_zero (S := S512x256) hz4, View.ld_unit_zero (S := S512x1) hz4, View.ld_unit_zero (S := S4096x1) hz4, View.ld_unit_zero (S := S4096x256) hz4]

section Regions
variable (V : (c : Dev nD) → (b : Ref sig .tc) → Buf (Elt F) ((c : Thread nD τ).loc b))

/-- The ORDERED accumulation after point `n`: the step `k4_pay2` over the zero block at point 0, then over the point before. -/
def acc4 (c : Dev nD) : (n : ℕ) → n < cfg4.N → Vec F S4096x256 .f32
  | 0, h => k4_pay2 (iblk4 V c 1 ⟨0, h⟩) (iblk4 V c 2 ⟨0, h⟩) (iblk4 V c 0 ⟨0, h⟩) (k4_pay1 (F := F))
  | n + 1, h => k4_pay2 (iblk4 V c 1 ⟨n + 1, h⟩) (iblk4 V c 2 ⟨n + 1, h⟩) (iblk4 V c 0 ⟨n + 1, h⟩) (acc4 c n (Nat.lt_of_succ_lt h))

/-- Before the last point the output's staging buffer holds the accumulation — by induction on the point. -/
theorem outsAt4_eq_acc (c : Dev nD) : ∀ (n : ℕ) (h : n < cfg4.N), ¬n % 8 = 7 → outsAt4 V c n h = acc4 V c n h
  | 0, h, _ => (outsAt4_A V c ⟨0, h⟩ rfl (show ¬ (0 % 8 = 7) by decide)).trans (out4_A ..)
  | n + 1, h, h7 => by
    have hN : cfg4.N = 8 := N_4
    have h0 : ¬(⟨n + 1, h⟩ : Fin cfg4.N).val % 8 = 0 := by dsimp only; omega
    rw [outsAt4_B V c ⟨n + 1, h⟩ h0 h7, out4_B]
    show k4_pay2 _ _ _ (outsAt4 V c n _) = k4_pay2 _ _ _ (acc4 V c n _)
    rw [outsAt4_eq_acc c n _ (by omega)]

/-- After the last point it holds the final scaling of the whole accumulation. -/
theorem outsAt4_last (c : Dev nD) :
    outsAt4 V c t4_7.val t4_7.isLt = k4_pay3 (iblk4 V c 3 t4_7) (acc4 V c t4_7.val t4_7.isLt) (iblk4 V c 4 t4_7) := by
  have hN : cfg4.N = 8 := N_4
  rw [outsAt4_C V c t4_7 (by decide) (by decide), out4_C]
  exact congrArg (fun z => k4_pay3 (iblk4 V c 3 t4_7) (k4_pay2 (iblk4 V c 1 t4_7) (iblk4 V c 2 t4_7) (iblk4 V c 0 t4_7) z) (iblk4 V c 4 t4_7))
    (outsAt4_eq_acc V c (t4_7.val - 1) _ (by decide))

/-- The result: the final scaling of the accumulation over the 8 points, as contents of the result array (its one block is
    the array). -/
abbrev result4 (c : Dev nD) : Buf (Elt F) ((c : Thread nD τ).loc main_v34) :=
  k4_pay3 (iblk4 V c 3 t4_7) (acc4 V c t4_7.val t4_7.isLt) (iblk4 V c 4 t4_7)

/-- The one write-back, at point 7, writes it: block (0, 0) of the [4096,256] array read through zero offsets is the array. -/
theorem flushed_eq4 (c : Dev nD) (t : Fin cfg4.N) (hf : (cfg4.win 5).flush t = true) :
    (dat4 V c).flushed 5 t = ((cfg4.win 5).blk t).view.read (Elt F) (result4 V c) := by
  have hN : cfg4.N = 8 := N_4
  have h7 : t.val = 7 := by have := (flush4_5 t).mp hf; have := t.isLt; omega
  obtain rfl : t = t4_7 := Fin.ext h7
  show (cfg4.win 5).cut (grid4.coords t4_7) ((dat4 V c).after 5 t4_7) = _
  rw [after4_5, outsAt4_last]
  have hz' : (fun a => win4_5.index t4_7 a * main_v34.ty.shape.size a) = fun _ => 0 := funext fun a => by fin_cases a <;> decide
  exact (Memref.read_access_unit_zero (Elt F) main_v34 hz' (fun a => by rw [congrFun hz' a]; simp) (result4 V c)).symm

/-- So the result array ends holding the final scaling of the accumulation: point 7's write-back covers it. -/
theorem final4 (c : Dev nD) : (dat4 V c).arrAt 5 cfg4.N = result4 V c :=
  (dat4 V c).arrAt_eq_of_cover 5 (result4 V c) (flushed_eq4 V c) fun i =>
    ⟨t4_7, (flush4_5 t4_7).mpr rfl, by
      show i ∈ ((View.whole main_v34).slice (win4_5.rect t4_7)).set
      rw [View.set_slice_whole, Rect.mem_set_unit]
      intro a
      have h0 : (i 0 : Nat) < 4096 := (i 0).isLt
      have h1 : (i 1 : Nat) < 256 := (i 1).isLt
      match a with
      | ⟨0, _⟩ => show win4_5.index t4_7 0 * win4_5.size 0 ≤ (i 0 : Nat) ∧ (i 0 : Nat) < win4_5.index t4_7 0 * win4_5.size 0 + win4_5.xsize (grid4.coords t4_7) 0
                  rw [show win4_5.index t4_7 0 * win4_5.size 0 = 0 from by decide +kernel, show win4_5.xsize (grid4.coords t4_7) 0 = 4096 from by decide +kernel]; omega
      | ⟨1, _⟩ => show win4_5.index t4_7 1 * win4_5.size 1 ≤ (i 1 : Nat) ∧ (i 1 : Nat) < win4_5.index t4_7 1 * win4_5.size 1 + win4_5.xsize (grid4.coords t4_7) 1
                  rw [show win4_5.index t4_7 1 * win4_5.size 1 = 0 from by decide +kernel, show win4_5.xsize (grid4.coords t4_7) 1 = 256 from by decide +kernel]; omega⟩

end Regions

end Cert.KernelIdeal.Reg

end
-- ==== Proof.Reg4ValueIdeal.lean ====
import proofs.«172830_g53506702573898_cont_9to1_m_1152_4_alg».proof.Proof.Reg4Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk4_0_eq_slice (c : Dev nD) (t : Fin cfg4.N) (off : Fin 2 → Nat) (hoff : off = ![0, 512 * t.val])
    (h : S4096x4096.Slices off S4096x512) :
    (iblk4 V c 0 t : Vec F S4096x512 .bf16) = extractStridedSlice S4096x512 off (V c main_v0_0) h := by
  subst hoff
  have hi : win4_0.index t 0 = 0 ∧ win4_0.index t 1 = t.val := by
    rcases fin_N4 t with rfl | rfl | rfl | rfl | rfl | rfl | rfl | rfl <;> decide
  funext j
  unfold iblk4 extractStridedSlice
  rw [View.read_apply]
  show V c main_v0_0 _ = V c main_v0_0 _
  congr 1
  funext a
  apply Fin.ext
  match a with
  | ⟨0, _⟩ => show win4_0.index t 0 * 4096 + 1 * (j 0).val = 0 + (j 0).val; rw [hi.1]; omega
  | ⟨1, _⟩ => show win4_0.index t 1 * 512 + 1 * (j 1).val = 512 * t.val + (j 1).val; rw [hi.2]; omega

/-- Window 1's block at point `t` is the slice of its array at the block's offset. -/
theorem iblk4_1_eq_slice (c : Dev nD) (t : Fin cfg4.N) (off : Fin 2 → Nat) (hoff : off = ![512 * t.val, 0])
    (h : S4096x256.Slices off S512x256) :
    (iblk4 V c 1 t : Vec F S512x256 .f32) = extractStridedSlice S512x256 off (V c main_v33) h := by
  subst hoff
  have hi : win4_1.index t 0 = t.val ∧ win4_1.index t 1 = 0 := by
    rcases fin_N4 t with rfl | rfl | rfl | rfl | rfl | rfl | rfl | rfl <;> decide
  funext j
  unfold iblk4 extractStridedSlice
  rw [View.read_apply]
  show V c main_v33 _ = V c main_v33 _
  congr 1
  funext a
  apply Fin.ext
  match a with
  | ⟨0, _⟩ => show win4_1.index t 0 * 512 + 1 * (j 0).val = 512 * t.val + (j 0).val; rw [hi.1]; omega
  | ⟨1, _⟩ => show win4_1.index t 1 * 256 + 1 * (j 1).val = 0 + (j 1).val; rw [hi.2]; omega

/-- Window 2's block at point `t` is the slice of its array at the block's offset. -/
theorem iblk4_2_eq_slice (c : Dev nD) (t : Fin cfg4.N) (off : Fin 2 → Nat) (hoff : off = ![512 * t.val, 0])
    (h : S4096x1.Slices off S512x1) :
    (iblk4 V c 2 t : Vec F S512x1 .f32) = extractStridedSlice S512x1 off (V c main_v0_1) h := by
  subst hoff
  have hi : win4_2.index t 0 = t.val ∧ win4_2.index t 1 = 0 := by
    rcases fin_N4 t with rfl | rfl | rfl | rfl | rfl | rfl | rfl | rfl <;> decide
  funext j
  unfold iblk4 extractStridedSlice
  rw [View.read_apply]
  show V c main_v0_1 _ = V c main_v0_1 _
  congr 1
  funext a
  apply Fin.ext
  match a with
  | ⟨0, _⟩ => show win4_2.index t 0 * 512 + 1 * (j 0).val = 512 * t.val + (j 0).val; rw [hi.1]; omega
  | ⟨1, _⟩ => show win4_2.index t 1 * 1 + 1 * (j 1).val = 0 + (j 1).val; rw [hi.2]; omega

/-- Window 3's block at every point is its whole array. -/
theorem iblk4_3_eq (c : Dev nD) (t : Fin cfg4.N) : (iblk4 V c 3 t : Vec F S4096x1 .f32) = V c main_v0_1 := by
  have hi : win4_3.index t 0 = 0 ∧ win4_3.index t 1 = 0 := by
    rcases fin_N4 t with rfl | rfl | rfl | rfl | rfl | rfl | rfl | rfl <;> decide
  funext j
  unfold iblk4
  rw [View.read_apply]
  show V c main_v0_1 _ = V c main_v0_1 j
  congr 1
  funext a
  apply Fin.ext
  match a with
  | ⟨0, _⟩ => show win4_3.index t 0 * 4096 + 1 * (j 0).val = (j 0).val; rw [hi.1]; omega
  | ⟨1, _⟩ => show win4_3.index t 1 * 1 + 1 * (j 1).val = (j 1).val; rw [hi.2]; omega

/-- Window 4's block at every point is its whole array. -/
theorem iblk4_4_eq (c : Dev nD) (t : Fin cfg4.N) : (iblk4 V c 4 t : Vec F S4096x256 .f32) = V c main_v33 := by
  have hi : win4_4.index t 0 = 0 ∧ win4_4.index t 1 = 0 := by
    rcases fin_N4 t with rfl | rfl | rfl | rfl | rfl | rfl | rfl | rfl <;> decide
  funext j
  unfold iblk4
  rw [View.read_apply]
  show V c main_v33 _ = V c main_v33 j
  congr 1
  funext a
  apply Fin.ext
  match a with
  | ⟨0, _⟩ => show win4_4.index t 0 * 4096 + 1 * (j 0).val = (j 0).val; rw [hi.1]; omega
  | ⟨1, _⟩ => show win4_4.index t 1 * 256 + 1 * (j 1).val = (j 1).val; rw [hi.2]; omega

end Regions

/-! ## The payloads at an index, at the ideal values -/

/-- The bit patterns of the two constants the final scaling multiplies by. -/
abbrev c1Bits4 : BitVec 32 := 0xBF800000#32
abbrev c2Bits4 : BitVec 32 := 0x00000000#32

/-- They denote -1 and 0. -/
theorem c1Bits4_val : Ideal.ofBits .f32 c1Bits4 = ((-1 : ℝ) : EReal) := by
  show Ideal.ofBits .f32 0xBF800000#32 = _
  simp [Ideal.ofBits, Ideal.ieee, -EReal.coe_mul, -EReal.coe_neg]; norm_num
theorem c2Bits4_val : Ideal.ofBits .f32 c2Bits4 = 0 := Ideal.ofBits_zero_f32

/-- The zero block at an index. -/
theorem k4_pay1_apply (j : S4096x256.Idx) : (k4_pay1 (F := Ideal)) j = 0 := by
  unfold k4_pay1
  show Ideal.ofBits .f32 0x00000000#32 = 0
  exact Ideal.ofBits_zero_f32

/-- The accumulation step at an index: the running contents there plus the sum over the contraction index of the left
    block's entry times the right block's entry scaled by its row's entry of the column block. -/
theorem k4_pay2_apply (v0 : Vec Ideal S512x256 .f32) (v2 : Vec Ideal S512x1 .f32) (v7 : Vec Ideal S4096x512 .bf16)
    (v13 : Vec Ideal S4096x256 .f32) (j : S4096x256.Idx) :
    k4_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k4_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k4_pay3_apply (v20 : Vec Ideal S4096x1 .f32) (v24 v28 : Vec Ideal S4096x256 .f32) (j : S4096x256.Idx) :
    k4_pay3 (F := Ideal) v20 v24 v28 j
      = (Ideal.ofBits .f32 c1Bits4 * broadcastTo S4096x256 v20 broadcasts_S4096x1_S4096x256 j) * v24 j
        + Ideal.ofBits .f32 c2Bits4 * v28 j := by
  unfold k4_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk4_0 (c : Dev nD) (t : Fin cfg4.N) : Vec Ideal S4096x512 .bf16 := iblk4 V c 0 t
abbrev blk4_1 (c : Dev nD) (t : Fin cfg4.N) : Vec Ideal S512x256 .f32 := iblk4 V c 1 t
abbrev blk4_2 (c : Dev nD) (t : Fin cfg4.N) : Vec Ideal S512x1 .f32 := iblk4 V c 2 t

/-- Point `n`'s contribution at the output index `j`: the sum over the contraction index of window 0's block entry times
    window 1's block entry scaled by its row's entry of window 2's block. -/
def term4 (c : Dev nD) (n : ℕ) (h : n < cfg4.N) (j : S4096x256.Idx) : Ideal .f32 :=
  ∑ k : dot_S4096x512_S512x256_S4096x256_1_0_0_1_n_n.contr.Idx,
    blk4_0 V c ⟨n, h⟩ (dot_S4096x512_S512x256_S4096x256_1_0_0_1_n_n.lhsIdx j k)
      * (blk4_1 V c ⟨n, h⟩ (dot_S4096x512_S512x256_S4096x256_1_0_0_1_n_n.rhsIdx j k)
          * broadcastTo S512x256 (blk4_2 V c ⟨n, h⟩) broadcasts_S512x1_S512x256 (dot_S4096x512_S512x256_S4096x256_1_0_0_1_n_n.rhsIdx j k))

/-- The ordered sum of the contributions of the points up to `n`, from zero. -/
def fold4 (c : Dev nD) (j : S4096x256.Idx) : (n : ℕ) → n < cfg4.N → Ideal .f32
  | 0, h => 0 + term4 V c 0 h j
  | n + 1, h => fold4 c j n (Nat.lt_of_succ_lt h) + term4 V c (n + 1) h j

/-- The accumulation after point `n`, at an index, is that ordered sum. -/
theorem acc4_apply (c : Dev nD) (j : S4096x256.Idx) : ∀ (n : ℕ) (h : n < cfg4.N), acc4 V c n h j = fold4 V c j n h
  | 0, h => by
    show k4_pay2 (F := Ideal) _ _ _ _ j = _
    rw [k4_pay2_apply, k4_pay1_apply]
    rfl
  | n + 1, h => by
    show k4_pay2 (F := Ideal) _ _ _ (acc4 V c n _) j = _
    rw [k4_pay2_apply, acc4_apply c j n]
    rfl

/-- THE VALUE. After the region the output array holds, at the index `j`, the first constant times window 3's array
    (a column) at `j`'s row times the ordered sum over the 8 points, plus the second constant times window 4's array at
    `j`. -/
theorem final4_apply (c : Dev nD) (j : S4096x256.Idx) :
    (dat4 V c).arrAt 5 cfg4.N j
      = (Ideal.ofBits .f32 c1Bits4 * broadcastTo S4096x256 (V c main_v0_1) broadcasts_S4096x1_S4096x256 j)
          * fold4 V c j t4_7.val t4_7.isLt
        + Ideal.ofBits .f32 c2Bits4 * V c main_v33 j := by
  rw [final4]
  show k4_pay3 (F := Ideal) _ _ _ j = _
  rw [k4_pay3_apply, acc4_apply, iblk4_3_eq, iblk4_4_eq]

end IdealRegions

end Cert.KernelIdeal.Reg

end
-- ==== Proof.Reg4ValueAt.lean ====
import proofs.«172830_g53506702573898_cont_9to1_m_1152_4_alg».proof.Proof.Reg4ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 4: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax4 (c : Dev nD) (p q : Fin 4096) : EReal := V c main_v0_0 (ix2 p q)
abbrev xin4 (c : Dev nD) (q : Fin 4096) (f : Fin 256) : EReal := V c main_v33 (ix2 q f)
abbrev dis4 (c : Dev nD) (p : Fin 4096) : EReal := V c main_v0_1 (ix2 p (0 : Fin 1))
abbrev zin4 (c : Dev nD) (p : Fin 4096) (f : Fin 256) : EReal := V c main_v33 (ix2 p f)

/-- Window 0's block at point `t`, at row `p` and column `k`, is the matrix at row `p` and column `k` of column block `t`. -/
theorem blk4_0_at (c : Dev nD) (t : Fin cfg4.N) (b : Fin 8) (hb : b.val = t.val) (p : Fin 4096) (k : Fin 512) :
    blk4_0 V c t (ix2 p k) = amax4 V c p (blk b k) := by
  have hi : win4_0.index t 0 = 0 ∧ win4_0.index t 1 = t.val := by
    rcases fin_N4 t with rfl | rfl | rfl | rfl | rfl | rfl | rfl | rfl <;> decide
  unfold blk4_0 amax4 iblk4
  rw [View.read_apply]
  show V c main_v0_0 _ = V c main_v0_0 _
  congr 1
  funext a
  apply Fin.ext
  match a with
  | ⟨0, _⟩ => show win4_0.index t 0 * 4096 + 1 * p.val = p.val; rw [hi.1]; omega
  | ⟨1, _⟩ => show win4_0.index t 1 * 512 + 1 * k.val = b.val * 512 + k.val; rw [hi.2, hb]; omega

/-- Window 1's block at point `t`, at row `k` and column `f`, is the operand at row `k` of row block `t`. -/
theorem blk4_1_at (c : Dev nD) (t : Fin cfg4.N) (b : Fin 8) (hb : b.val = t.val) (k : Fin 512) (f : Fin 256) :
    blk4_1 V c t (ix2 k f) = xin4 V c (blk b k) f := by
  have hi : win4_1.index t 0 = t.val ∧ win4_1.index t 1 = 0 := by
    rcases fin_N4 t with rfl | rfl | rfl | rfl | rfl | rfl | rfl | rfl <;> decide
  unfold blk4_1 xin4 iblk4
  rw [View.read_apply]
  show V c main_v33 _ = V c main_v33 _
  congr 1
  funext a
  apply Fin.ext
  match a with
  | ⟨0, _⟩ => show win4_1.index t 0 * 512 + 1 * k.val = b.val * 512 + k.val; rw [hi.1, hb]; omega
  | ⟨1, _⟩ => show win4_1.index t 1 * 256 + 1 * f.val = f.val; rw [hi.2]; omega

/-- Window 2's block at point `t`, at row `k`, is the column at row `k` of row block `t`. -/
theorem blk4_2_at (c : Dev nD) (t : Fin cfg4.N) (b : Fin 8) (hb : b.val = t.val) (k : Fin 512) :
    blk4_2 V c t (ix2 k (0 : Fin 1)) = dis4 V c (blk b k) := by
  have hi : win4_2.index t 0 = t.val ∧ win4_2.index t 1 = 0 := by
    rcases fin_N4 t with rfl | rfl | rfl | rfl | rfl | rfl | rfl | rfl <;> decide
  unfold blk4_2 dis4 iblk4
  rw [View.read_apply]
  show V c main_v0_1 _ = V c main_v0_1 _
  congr 1
  funext a
  apply Fin.ext
  match a with
  | ⟨0, _⟩ => show win4_2.index t 0 * 512 + 1 * k.val = b.val * 512 + k.val; rw [hi.1, hb]; omega
  | ⟨1, _⟩ => show win4_2.index t 1 * 1 + 1 * 0 = 0; rw [hi.2]

/-- Point `b`'s contribution at row `p` and column `f`: the sum over the 512 positions of block `b`. -/
theorem term4_at (c : Dev nD) (b : Fin 8) (h : b.val < cfg4.N) (p : Fin 4096) (f : Fin 256) :
    term4 V c b.val h (ix2 p f)
      = ∑ k : Fin 512, amax4 V c p (blk b k) * (xin4 V c (blk b k) f * dis4 V c (blk b k)) := by
  unfold term4
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk4_2 V c ⟨b.val, h⟩) broadcasts_S512x1_S512x256 (ix2 k f)
      = blk4_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk4_0_at V c ⟨b.val, h⟩ b rfl, blk4_1_at V c ⟨b.val, h⟩ b rfl, blk4_2_at V c ⟨b.val, h⟩ b rfl]

/-- The ordered sum over the 8 points is the sum over the 8 blocks. -/
theorem fold4_eq_sum (c : Dev nD) (j : S4096x256.Idx) :
    fold4 V c j t4_7.val t4_7.isLt = ∑ b : Fin 8, term4 V c b.val (lt_of_lt_of_eq b.isLt N_4.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final4_at (c : Dev nD) (p : Fin 4096) (f : Fin 256) :
    ((dat4 V c).arrAt 5 cfg4.N (ix2 p f) : EReal)
      = (-1 : EReal) * dis4 V c p
          * (∑ j : Fin 8, ∑ k : Fin 512, amax4 V c p (blk j k) * (xin4 V c (blk j k) f * dis4 V c (blk j k)))
        + (0 : EReal) * zin4 V c p f := by
  have hbc : broadcastTo S4096x256 (V c main_v0_1) broadcasts_S4096x1_S4096x256 (ix2 p f) = dis4 V c p :=
    broadcastTo_apply _ _ (ix2 p f) (ix2 p (0 : Fin 1)) fun a => by
      match a with
      | ⟨0, _⟩ => rfl
      | ⟨1, _⟩ => rfl
  rw [final4_apply, hbc, fold4_eq_sum, c1Bits4_val, ← Alg.neg_one_eq, c2Bits4_val]
  simp only [term4_at]

end IdealRegions

end Cert.KernelIdeal.Reg

end
-- ==== Proof.Reg5Value.lean ====
import proofs.«172830_g53506702573898_cont_9to1_m_1152_4_alg».proof.Proof.Reg5Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz5 : (![0, 0] : Fin 2 → Nat) = fun _ => 0 := funext fun a => by fin_cases a <;> rfl

/-! # Region 5: what the output array holds after the region, at any `F` -/

/-- Case B (points 1 to 6): over the output buffer's running contents `xo` the body leaves the accumulation step
    `k5_pay2` of the three input blocks it multiplies — its one covering store's payload, its loads reading whole buffers. -/
theorem out5_B (c : Dev nD) (i : grid5.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond5_0 i) (hc1 : ¬cond5_1 i) (x0 : Vec F S4096x512 .bf16) (x1 : Vec F S512x256 .f32) (x2 : Vec F S512x1 .f32) (x3 : Vec F S4096x1 .f32) (x4 : Vec F S4096x256 .f32) (xo : Vec F S4096x256 .f32) :
    out5_B_5 c i a1 h1 a2 h2 a3 h3 a4 h4 a5 h5 a6 h6 hc0 hc1 x0 x1 x2 x3 x4 xo = k5_pay2 x1 x2 x0 xo := by
  unfold out5_B_5
  rw [View.read_writes_eq_canon _ _ _ (cover5_B_5 c i a1 h1 a2 h2 a3 h3 a4 h4 a5 h5 a6 h6 hc0 hc1 x0 x1 x2 x3 x4 xo)]
  unfold kernelRun5_B
  dsimp only
  rw [View.canon_unit_zero hz5]
  simp only [View.readAt_eq_ld, h1.read_unread, h2.read_unread, h3.read_unread, h4.read_unread, h5.read_unread, h6.read_unread, View.ld_unit_zero (S := S4096x512) hz5, View.ld_unit_zero (S := S512x256) hz5, View.ld_unit_zero (S := S512x1) hz5, View.ld_unit_zero (S := S4096x1) hz5, View.ld_unit_zero (S := S4096x256) hz5]

/-- Case A (point 0): the body stores the zero block `k5_pay1`, reads it back and leaves the accumulation step over it. -/
theorem out5_A (c : Dev nD) (i : grid5.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond5_0 i) (hc1 : ¬cond5_1 i) (x0 : Vec F S4096x512 .bf16) (x1 : Vec F S512x256 .f32) (x2 : Vec F S512x1 .f32) (x3 : Vec F S4096x1 .f32) (x4 : Vec F S4096x256 .f32) :
    out5_A_5 c i a1 h1 a2 h2 a3 h3 a4 h4 a5 h5 a6 h6 hc0 hc1 x0 x1 x2 x3 x4 = k5_pay2 x1 x2 x0 (k5_pay1 (F := F)) := by
  unfold out5_A_5
  rw [View.read_writes_eq_canon _ _ _ (cover5_A_5 c i a1 h1 a2 h2 a3 h3 a4 h4 a5 h5 a6 h6 hc0 hc1 x0 x1 x2 x3 x4)]
  unfold kernelRun5_A
  dsimp only
  sl_unfold_words
  rw [View.canon_cons_unit_zero (S := S4096x256) hz5, View.readCov_unit_zero (S := S4096x256) _ hz5]
  simp only [View.readAt_eq_ld, h1.read_unread, h2.read_unread, h3.read_unread, h4.read_unread, h5.read_unread, h6.read_unread, View.ld_unit_zero (S := S4096x512) hz5, View.ld_unit_zero (S := S512x256) hz5, View.ld_unit_zero (S := S512x1) hz5, View.ld_unit_zero (S := S4096x1) hz5, View.ld_unit_zero (S := S4096x256) hz5]

/-- Case C (point 7): the body leaves the accumulation step over `xo`, reads it back and leaves the final scaling
    `k5_pay3` of it by window 3's block, with window 4's block added in. -/
theorem out5_C (c : Dev nD) (i : grid5.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond5_0 i) (hc1 : cond5_1 i) (x0 : Vec F S4096x512 .bf16) (x1 : Vec F S512x256 .f32) (x2 : Vec F S512x1 .f32) (x3 : Vec F S4096x1 .f32) (x4 : Vec F S4096x256 .f32) (xo : Vec F S4096x256 .f32) :
    out5_C_5 c i a1 h1 a2 h2 a3 h3 a4 h4 a5 h5 a6 h6 hc0 hc1 x0 x1 x2 x3 x4 xo = k5_pay3 x3 (k5_pay2 x1 x2 x0 xo) x4 := by
  unfold out5_C_5
  rw [View.read_writes_eq_canon _ _ _ (cover5_C_5 c i a1 h1 a2 h2 a3 h3 a4 h4 a5 h5 a6 h6 hc0 hc1 x0 x1 x2 x3 x4 xo)]
  unfold kernelRun5_C
  dsimp only
  sl_unfold_words
  rw [View.canon_cons_unit_zero (S := S4096x256) hz5, View.readCov_unit_zero (S := S4096x256) _ hz5]
  simp only [View.readAt_eq_ld, h1.read_unread, h2.read_unread, h3.read_unread, h4.read_unread, h5.read_unread, h6.read_unread, View.ld_unit_zero (S := S4096x512) hz5, View.ld_unit_zero (S := S512x256) hz5, View.ld_unit_zero (S := S512x1) hz5, View.ld_unit_zero (S := S4096x1) hz5, View.ld_unit_zero (S := S4096x256) hz5]

section Regions
variable (V : (c : Dev nD) → (b : Ref sig .tc) → Buf (Elt F) ((c : Thread nD τ).loc b))

/-- The ORDERED accumulation after point `n`: the step `k5_pay2` over the zero block at point 0, then over the point before. -/
def acc5 (c : Dev nD) : (n : ℕ) → n < cfg5.N → Vec F S4096x256 .f32
  | 0, h => k5_pay2 (iblk5 V c 1 ⟨0, h⟩) (iblk5 V c 2 ⟨0, h⟩) (iblk5 V c 0 ⟨0, h⟩) (k5_pay1 (F := F))
  | n + 1, h => k5_pay2 (iblk5 V c 1 ⟨n + 1, h⟩) (iblk5 V c 2 ⟨n + 1, h⟩) (iblk5 V c 0 ⟨n + 1, h⟩) (acc5 c n (Nat.lt_of_succ_lt h))

/-- Before the last point the output's staging buffer holds the accumulation — by induction on the point. -/
theorem outsAt5_eq_acc (c : Dev nD) : ∀ (n : ℕ) (h : n < cfg5.N), ¬n % 8 = 7 → outsAt5 V c n h = acc5 V c n h
  | 0, h, _ => (outsAt5_A V c ⟨0, h⟩ rfl (show ¬ (0 % 8 = 7) by decide)).trans (out5_A ..)
  | n + 1, h, h7 => by
    have hN : cfg5.N = 8 := N_5
    have h0 : ¬(⟨n + 1, h⟩ : Fin cfg5.N).val % 8 = 0 := by dsimp only; omega
    rw [outsAt5_B V c ⟨n + 1, h⟩ h0 h7, out5_B]
    show k5_pay2 _ _ _ (outsAt5 V c n _) = k5_pay2 _ _ _ (acc5 V c n _)
    rw [outsAt5_eq_acc c n _ (by omega)]

/-- After the last point it holds the final scaling of the whole accumulation. -/
theorem outsAt5_last (c : Dev nD) :
    outsAt5 V c t5_7.val t5_7.isLt = k5_pay3 (iblk5 V c 3 t5_7) (acc5 V c t5_7.val t5_7.isLt) (iblk5 V c 4 t5_7) := by
  have hN : cfg5.N = 8 := N_5
  rw [outsAt5_C V c t5_7 (by decide) (by decide), out5_C]
  exact congrArg (fun z => k5_pay3 (iblk5 V c 3 t5_7) (k5_pay2 (iblk5 V c 1 t5_7) (iblk5 V c 2 t5_7) (iblk5 V c 0 t5_7) z) (iblk5 V c 4 t5_7))
    (outsAt5_eq_acc V c (t5_7.val - 1) _ (by decide))

/-- The result: the final scaling of the accumulation over the 8 points, as contents of the result array (its one block is
    the array). -/
abbrev result5 (c : Dev nD) : Buf (Elt F) ((c : Thread nD τ).loc main_v35) :=
  k5_pay3 (iblk5 V c 3 t5_7) (acc5 V c t5_7.val t5_7.isLt) (iblk5 V c 4 t5_7)

/-- The one write-back, at point 7, writes it: block (0, 0) of the [4096,256] array read through zero offsets is the array. -/
theorem flushed_eq5 (c : Dev nD) (t : Fin cfg5.N) (hf : (cfg5.win 5).flush t = true) :
    (dat5 V c).flushed 5 t = ((cfg5.win 5).blk t).view.read (Elt F) (result5 V c) := by
  have hN : cfg5.N = 8 := N_5
  have h7 : t.val = 7 := by have := (flush5_5 t).mp hf; have := t.isLt; omega
  obtain rfl : t = t5_7 := Fin.ext h7
  show (cfg5.win 5).cut (grid5.coords t5_7) ((dat5 V c).after 5 t5_7) = _
  rw [after5_5, outsAt5_last]
  have hz' : (fun a => win5_5.index t5_7 a * main_v35.ty.shape.size a) = fun _ => 0 := funext fun a => by fin_cases a <;> decide
  exact (Memref.read_access_unit_zero (Elt F) main_v35 hz' (fun a => by rw [congrFun hz' a]; simp) (result5 V c)).symm

/-- So the result array ends holding the final scaling of the accumulation: point 7's write-back covers it. -/
theorem final5 (c : Dev nD) : (dat5 V c).arrAt 5 cfg5.N = result5 V c :=
  (dat5 V c).arrAt_eq_of_cover 5 (result5 V c) (flushed_eq5 V c) fun i =>
    ⟨t5_7, (flush5_5 t5_7).mpr rfl, by
      show i ∈ ((View.whole main_v35).slice (win5_5.rect t5_7)).set
      rw [View.set_slice_whole, Rect.mem_set_unit]
      intro a
      have h0 : (i 0 : Nat) < 4096 := (i 0).isLt
      have h1 : (i 1 : Nat) < 256 := (i 1).isLt
      match a with
      | ⟨0, _⟩ => show win5_5.index t5_7 0 * win5_5.size 0 ≤ (i 0 : Nat) ∧ (i 0 : Nat) < win5_5.index t5_7 0 * win5_5.size 0 + win5_5.xsize (grid5.coords t5_7) 0
                  rw [show win5_5.index t5_7 0 * win5_5.size 0 = 0 from by decide +kernel, show win5_5.xsize (grid5.coords t5_7) 0 = 4096 from by decide +kernel]; omega
      | ⟨1, _⟩ => show win5_5.index t5_7 1 * win5_5.size 1 ≤ (i 1 : Nat) ∧ (i 1 : Nat) < win5_5.index t5_7 1 * win5_5.size 1 + win5_5.xsize (grid5.coords t5_7) 1
                  rw [show win5_5.index t5_7 1 * win5_5.size 1 = 0 from by decide +kernel, show win5_5.xsize (grid5.coords t5_7) 1 = 256 from by decide +kernel]; omega⟩

end Regions

end Cert.KernelIdeal.Reg

end
-- ==== Proof.Reg5ValueIdeal.lean ====
import proofs.«172830_g53506702573898_cont_9to1_m_1152_4_alg».proof.Proof.Reg5Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk5_0_eq_slice (c : Dev nD) (t : Fin cfg5.N) (off : Fin 2 → Nat) (hoff : off = ![0, 512 * t.val])
    (h : S4096x4096.Slices off S4096x512) :
    (iblk5 V c 0 t : Vec F S4096x512 .bf16) = extractStridedSlice S4096x512 off (V c main_v0_0) h := by
  subst hoff
  have hi : win5_0.index t 0 = 0 ∧ win5_0.index t 1 = t.val := by
    rcases fin_N5 t with rfl | rfl | rfl | rfl | rfl | rfl | rfl | rfl <;> decide
  funext j
  unfold iblk5 extractStridedSlice
  rw [View.read_apply]
  show V c main_v0_0 _ = V c main_v0_0 _
  congr 1
  funext a
  apply Fin.ext
  match a with
  | ⟨0, _⟩ => show win5_0.index t 0 * 4096 + 1 * (j 0).val = 0 + (j 0).val; rw [hi.1]; omega
  | ⟨1, _⟩ => show win5_0.index t 1 * 512 + 1 * (j 1).val = 512 * t.val + (j 1).val; rw [hi.2]; omega

/-- Window 1's block at point `t` is the slice of its array at the block's offset. -/
theorem iblk5_1_eq_slice (c : Dev nD) (t : Fin cfg5.N) (off : Fin 2 → Nat) (hoff : off = ![512 * t.val, 0])
    (h : S4096x256.Slices off S512x256) :
    (iblk5 V c 1 t : Vec F S512x256 .f32) = extractStridedSlice S512x256 off (V c main_v34) h := by
  subst hoff
  have hi : win5_1.index t 0 = t.val ∧ win5_1.index t 1 = 0 := by
    rcases fin_N5 t with rfl | rfl | rfl | rfl | rfl | rfl | rfl | rfl <;> decide
  funext j
  unfold iblk5 extractStridedSlice
  rw [View.read_apply]
  show V c main_v34 _ = V c main_v34 _
  congr 1
  funext a
  apply Fin.ext
  match a with
  | ⟨0, _⟩ => show win5_1.index t 0 * 512 + 1 * (j 0).val = 512 * t.val + (j 0).val; rw [hi.1]; omega
  | ⟨1, _⟩ => show win5_1.index t 1 * 256 + 1 * (j 1).val = 0 + (j 1).val; rw [hi.2]; omega

/-- Window 2's block at point `t` is the slice of its array at the block's offset. -/
theorem iblk5_2_eq_slice (c : Dev nD) (t : Fin cfg5.N) (off : Fin 2 → Nat) (hoff : off = ![512 * t.val, 0])
    (h : S4096x1.Slices off S512x1) :
    (iblk5 V c 2 t : Vec F S512x1 .f32) = extractStridedSlice S512x1 off (V c main_v0_1) h := by
  subst hoff
  have hi : win5_2.index t 0 = t.val ∧ win5_2.index t 1 = 0 := by
    rcases fin_N5 t with rfl | rfl | rfl | rfl | rfl | rfl | rfl | rfl <;> decide
  funext j
  unfold iblk5 extractStridedSlice
  rw [View.read_apply]
  show V c main_v0_1 _ = V c main_v0_1 _
  congr 1
  funext a
  apply Fin.ext
  match a with
  | ⟨0, _⟩ => show win5_2.index t 0 * 512 + 1 * (j 0).val = 512 * t.val + (j 0).val; rw [hi.1]; omega
  | ⟨1, _⟩ => show win5_2.index t 1 * 1 + 1 * (j 1).val = 0 + (j 1).val; rw [hi.2]; omega

/-- Window 3's block at every point is its whole array. -/
theorem iblk5_3_eq (c : Dev nD) (t : Fin cfg5.N) : (iblk5 V c 3 t : Vec F S4096x1 .f32) = V c main_v0_1 := by
  have hi : win5_3.index t 0 = 0 ∧ win5_3.index t 1 = 0 := by
    rcases fin_N5 t with rfl | rfl | rfl | rfl | rfl | rfl | rfl | rfl <;> decide
  funext j
  unfold iblk5
  rw [View.read_apply]
  show V c main_v0_1 _ = V c main_v0_1 j
  congr 1
  funext a
  apply Fin.ext
  match a with
  | ⟨0, _⟩ => show win5_3.index t 0 * 4096 + 1 * (j 0).val = (j 0).val; rw [hi.1]; omega
  | ⟨1, _⟩ => show win5_3.index t 1 * 1 + 1 * (j 1).val = (j 1).val; rw [hi.2]; omega

/-- Window 4's block at every point is its whole array. -/
theorem iblk5_4_eq (c : Dev nD) (t : Fin cfg5.N) : (iblk5 V c 4 t : Vec F S4096x256 .f32) = V c main_v33 := by
  have hi : win5_4.index t 0 = 0 ∧ win5_4.index t 1 = 0 := by
    rcases fin_N5 t with rfl | rfl | rfl | rfl | rfl | rfl | rfl | rfl <;> decide
  funext j
  unfold iblk5
  rw [View.read_apply]
  show V c main_v33 _ = V c main_v33 j
  congr 1
  funext a
  apply Fin.ext
  match a with
  | ⟨0, _⟩ => show win5_4.index t 0 * 4096 + 1 * (j 0).val = (j 0).val; rw [hi.1]; omega
  | ⟨1, _⟩ => show win5_4.index t 1 * 256 + 1 * (j 1).val = (j 1).val; rw [hi.2]; omega

end Regions

/-! ## The payloads at an index, at the ideal values -/

/-- The bit patterns of the two constants the final scaling multiplies by. -/
abbrev c1Bits5 : BitVec 32 := 0xC0000000#32
abbrev c2Bits5 : BitVec 32 := 0xBF800000#32

/-- They denote -2 and -1. -/
theorem c1Bits5_val : Ideal.ofBits .f32 c1Bits5 = ((-2 : ℝ) : EReal) := by
  show Ideal.ofBits .f32 0xC0000000#32 = _
  simp [Ideal.ofBits, Ideal.ieee, -EReal.coe_mul, -EReal.coe_neg]; norm_num
theorem c2Bits5_val : Ideal.ofBits .f32 c2Bits5 = ((-1 : ℝ) : EReal) := by
  show Ideal.ofBits .f32 0xBF800000#32 = _
  simp [Ideal.ofBits, Ideal.ieee, -EReal.coe_mul, -EReal.coe_neg]; norm_num

/-- The zero block at an index. -/
theorem k5_pay1_apply (j : S4096x256.Idx) : (k5_pay1 (F := Ideal)) j = 0 := by
  unfold k5_pay1
  show Ideal.ofBits .f32 0x00000000#32 = 0
  exact Ideal.ofBits_zero_f32

/-- The accumulation step at an index: the running contents there plus the sum over the contraction index of the left
    block's entry times the right block's entry scaled by its row's entry of the column block. -/
theorem k5_pay2_apply (v0 : Vec Ideal S512x256 .f32) (v2 : Vec Ideal S512x1 .f32) (v7 : Vec Ideal S4096x512 .bf16)
    (v13 : Vec Ideal S4096x256 .f32) (j : S4096x256.Idx) :
    k5_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k5_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k5_pay3_apply (v20 : Vec Ideal S4096x1 .f32) (v24 v28 : Vec Ideal S4096x256 .f32) (j : S4096x256.Idx) :
    k5_pay3 (F := Ideal) v20 v24 v28 j
      = (Ideal.ofBits .f32 c1Bits5 * broadcastTo S4096x256 v20 broadcasts_S4096x1_S4096x256 j) * v24 j
        + Ideal.ofBits .f32 c2Bits5 * v28 j := by
  unfold k5_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk5_0 (c : Dev nD) (t : Fin cfg5.N) : Vec Ideal S4096x512 .bf16 := iblk5 V c 0 t
abbrev blk5_1 (c : Dev nD) (t : Fin cfg5.N) : Vec Ideal S512x256 .f32 := iblk5 V c 1 t
abbrev blk5_2 (c : Dev nD) (t : Fin cfg5.N) : Vec Ideal S512x1 .f32 := iblk5 V c 2 t

/-- Point `n`'s contribution at the output index `j`: the sum over the contraction index of window 0's block entry times
    window 1's block entry scaled by its row's entry of window 2's block. -/
def term5 (c : Dev nD) (n : ℕ) (h : n < cfg5.N) (j : S4096x256.Idx) : Ideal .f32 :=
  ∑ k : dot_S4096x512_S512x256_S4096x256_1_0_0_1_n_n.contr.Idx,
    blk5_0 V c ⟨n, h⟩ (dot_S4096x512_S512x256_S4096x256_1_0_0_1_n_n.lhsIdx j k)
      * (blk5_1 V c ⟨n, h⟩ (dot_S4096x512_S512x256_S4096x256_1_0_0_1_n_n.rhsIdx j k)
          * broadcastTo S512x256 (blk5_2 V c ⟨n, h⟩) broadcasts_S512x1_S512x256 (dot_S4096x512_S512x256_S4096x256_1_0_0_1_n_n.rhsIdx j k))

/-- The ordered sum of the contributions of the points up to `n`, from zero. -/
def fold5 (c : Dev nD) (j : S4096x256.Idx) : (n : ℕ) → n < cfg5.N → Ideal .f32
  | 0, h => 0 + term5 V c 0 h j
  | n + 1, h => fold5 c j n (Nat.lt_of_succ_lt h) + term5 V c (n + 1) h j

/-- The accumulation after point `n`, at an index, is that ordered sum. -/
theorem acc5_apply (c : Dev nD) (j : S4096x256.Idx) : ∀ (n : ℕ) (h : n < cfg5.N), acc5 V c n h j = fold5 V c j n h
  | 0, h => by
    show k5_pay2 (F := Ideal) _ _ _ _ j = _
    rw [k5_pay2_apply, k5_pay1_apply]
    rfl
  | n + 1, h => by
    show k5_pay2 (F := Ideal) _ _ _ (acc5 V c n _) j = _
    rw [k5_pay2_apply, acc5_apply c j n]
    rfl

/-- THE VALUE. After the region the output array holds, at the index `j`, the first constant times window 3's array
    (a column) at `j`'s row times the ordered sum over the 8 points, plus the second constant times window 4's array at
    `j`. -/
theorem final5_apply (c : Dev nD) (j : S4096x256.Idx) :
    (dat5 V c).arrAt 5 cfg5.N j
      = (Ideal.ofBits .f32 c1Bits5 * broadcastTo S4096x256 (V c main_v0_1) broadcasts_S4096x1_S4096x256 j)
          * fold5 V c j t5_7.val t5_7.isLt
        + Ideal.ofBits .f32 c2Bits5 * V c main_v33 j := by
  rw [final5]
  show k5_pay3 (F := Ideal) _ _ _ j = _
  rw [k5_pay3_apply, acc5_apply, iblk5_3_eq, iblk5_4_eq]

end IdealRegions

end Cert.KernelIdeal.Reg

end
-- ==== Proof.Reg5ValueAt.lean ====
import proofs.«172830_g53506702573898_cont_9to1_m_1152_4_alg».proof.Proof.Reg5ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 5: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax5 (c : Dev nD) (p q : Fin 4096) : EReal := V c main_v0_0 (ix2 p q)
abbrev xin5 (c : Dev nD) (q : Fin 4096) (f : Fin 256) : EReal := V c main_v34 (ix2 q f)
abbrev dis5 (c : Dev nD) (p : Fin 4096) : EReal := V c main_v0_1 (ix2 p (0 : Fin 1))
abbrev zin5 (c : Dev nD) (p : Fin 4096) (f : Fin 256) : EReal := V c main_v33 (ix2 p f)

/-- Window 0's block at point `t`, at row `p` and column `k`, is the matrix at row `p` and column `k` of column block `t`. -/
theorem blk5_0_at (c : Dev nD) (t : Fin cfg5.N) (b : Fin 8) (hb : b.val = t.val) (p : Fin 4096) (k : Fin 512) :
    blk5_0 V c t (ix2 p k) = amax5 V c p (blk b k) := by
  have hi : win5_0.index t 0 = 0 ∧ win5_0.index t 1 = t.val := by
    rcases fin_N5 t with rfl | rfl | rfl | rfl | rfl | rfl | rfl | rfl <;> decide
  unfold blk5_0 amax5 iblk5
  rw [View.read_apply]
  show V c main_v0_0 _ = V c main_v0_0 _
  congr 1
  funext a
  apply Fin.ext
  match a with
  | ⟨0, _⟩ => show win5_0.index t 0 * 4096 + 1 * p.val = p.val; rw [hi.1]; omega
  | ⟨1, _⟩ => show win5_0.index t 1 * 512 + 1 * k.val = b.val * 512 + k.val; rw [hi.2, hb]; omega

/-- Window 1's block at point `t`, at row `k` and column `f`, is the operand at row `k` of row block `t`. -/
theorem blk5_1_at (c : Dev nD) (t : Fin cfg5.N) (b : Fin 8) (hb : b.val = t.val) (k : Fin 512) (f : Fin 256) :
    blk5_1 V c t (ix2 k f) = xin5 V c (blk b k) f := by
  have hi : win5_1.index t 0 = t.val ∧ win5_1.index t 1 = 0 := by
    rcases fin_N5 t with rfl | rfl | rfl | rfl | rfl | rfl | rfl | rfl <;> decide
  unfold blk5_1 xin5 iblk5
  rw [View.read_apply]
  show V c main_v34 _ = V c main_v34 _
  congr 1
  funext a
  apply Fin.ext
  match a with
  | ⟨0, _⟩ => show win5_1.index t 0 * 512 + 1 * k.val = b.val * 512 + k.val; rw [hi.1, hb]; omega
  | ⟨1, _⟩ => show win5_1.index t 1 * 256 + 1 * f.val = f.val; rw [hi.2]; omega

/-- Window 2's block at point `t`, at row `k`, is the column at row `k` of row block `t`. -/
theorem blk5_2_at (c : Dev nD) (t : Fin cfg5.N) (b : Fin 8) (hb : b.val = t.val) (k : Fin 512) :
    blk5_2 V c t (ix2 k (0 : Fin 1)) = dis5 V c (blk b k) := by
  have hi : win5_2.index t 0 = t.val ∧ win5_2.index t 1 = 0 := by
    rcases fin_N5 t with rfl | rfl | rfl | rfl | rfl | rfl | rfl | rfl <;> decide
  unfold blk5_2 dis5 iblk5
  rw [View.read_apply]
  show V c main_v0_1 _ = V c main_v0_1 _
  congr 1
  funext a
  apply Fin.ext
  match a with
  | ⟨0, _⟩ => show win5_2.index t 0 * 512 + 1 * k.val = b.val * 512 + k.val; rw [hi.1, hb]; omega
  | ⟨1, _⟩ => show win5_2.index t 1 * 1 + 1 * 0 = 0; rw [hi.2]

/-- Point `b`'s contribution at row `p` and column `f`: the sum over the 512 positions of block `b`. -/
theorem term5_at (c : Dev nD) (b : Fin 8) (h : b.val < cfg5.N) (p : Fin 4096) (f : Fin 256) :
    term5 V c b.val h (ix2 p f)
      = ∑ k : Fin 512, amax5 V c p (blk b k) * (xin5 V c (blk b k) f * dis5 V c (blk b k)) := by
  unfold term5
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk5_2 V c ⟨b.val, h⟩) broadcasts_S512x1_S512x256 (ix2 k f)
      = blk5_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk5_0_at V c ⟨b.val, h⟩ b rfl, blk5_1_at V c ⟨b.val, h⟩ b rfl, blk5_2_at V c ⟨b.val, h⟩ b rfl]

/-- The ordered sum over the 8 points is the sum over the 8 blocks. -/
theorem fold5_eq_sum (c : Dev nD) (j : S4096x256.Idx) :
    fold5 V c j t5_7.val t5_7.isLt = ∑ b : Fin 8, term5 V c b.val (lt_of_lt_of_eq b.isLt N_5.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final5_at (c : Dev nD) (p : Fin 4096) (f : Fin 256) :
    ((dat5 V c).arrAt 5 cfg5.N (ix2 p f) : EReal)
      = (-2 : EReal) * dis5 V c p
          * (∑ j : Fin 8, ∑ k : Fin 512, amax5 V c p (blk j k) * (xin5 V c (blk j k) f * dis5 V c (blk j k)))
        + (-1 : EReal) * zin5 V c p f := by
  have hbc : broadcastTo S4096x256 (V c main_v0_1) broadcasts_S4096x1_S4096x256 (ix2 p f) = dis5 V c p :=
    broadcastTo_apply _ _ (ix2 p f) (ix2 p (0 : Fin 1)) fun a => by
      match a with
      | ⟨0, _⟩ => rfl
      | ⟨1, _⟩ => rfl
  rw [final5_apply, hbc, fold5_eq_sum, c1Bits5_val, ← Alg.neg_two_eq, c2Bits5_val, ← Alg.neg_one_eq]
  simp only [term5_at]

end IdealRegions

end Cert.KernelIdeal.Reg

end
-- ==== Proof.KV1.lean ====
import proofs.«172830_g53506702573898_cont_9to1_m_1152_4_alg».proof.Proof.KV0
import proofs.«172830_g53506702573898_cont_9to1_m_1152_4_alg».proof.Proof.Reg1ValueAt
import proofs.«172830_g53506702573898_cont_9to1_m_1152_4_alg».proof.Proof.Reg2ValueAt
import proofs.«172830_g53506702573898_cont_9to1_m_1152_4_alg».proof.Proof.Reg3Val2
import proofs.«172830_g53506702573898_cont_9to1_m_1152_4_alg».proof.Proof.Reg4ValueAt
import proofs.«172830_g53506702573898_cont_9to1_m_1152_4_alg».proof.Proof.Reg5ValueAt

set_option maxRecDepth 16384

/-
  Layer 1 through the program's items, buffer by buffer at an index: the entry stretches, the two diffusion applies of
  the gate convolution, the gate region, the candidate features and their two diffusion applies, as the kernel-side
  functions of the arguments.
-/
noncomputable section
namespace Cert.KernelIdeal.KV
open Cert.KernelIdeal Cert.KernelIdeal.Gen Cert.KernelIdeal.Reg Cert.KernelIdeal.HostVal
open Idealize.ShloMosaic Idealize.ShloMosaic.TcCoe Idealize.ShloMosaic.StableHlo Idealize.ShloMosaic.ValueIdx
open Idealize.SL Idealize.SL.Sem
open scoped BigOperators
open Cert.HostLib Cert.SpecRef Cert.SpecKer

variable (m : (ℓ : Loc nD τ sig) → Buf (Elt Ideal) ℓ) (c : Dev nD)

/-! ## The arguments at the entry of layer 1 -/

theorem inpOf_1 : inpOf (W1 m c) = aInp m c := by unfold inpOf aInp; rw [main_arg0_at1 m c]; rfl
theorem hidOf_1 : hidOf (W1 m c) = aHid m c := by unfold hidOf aHid; rw [main_arg1_at1 m c]; rfl
theorem W0gOf_1 : W0gOf (W1 m c) = aW0g m c := by unfold W0gOf aW0g; rw [main_arg3_at1 m c]; rfl
theorem b0gOf_1 : b0gOf (W1 m c) = ab0g m c := by unfold b0gOf ab0g; rw [main_arg4_at1 m c]; rfl
theorem W0cOf_1 : W0cOf (W1 m c) = aW0c m c := by unfold W0cOf aW0c; rw [main_arg5_at1 m c]; rfl
theorem b0cOf_1 : b0cOf (W1 m c) = ab0c m c := by unfold b0cOf ab0c; rw [main_arg6_at1 m c]; rfl

/-- The input as a feature lane: node n, batch b. -/
theorem G1_v2 (W : Valuation τ sig (Elt Ideal)) (n : Fin 4096) (b : Fin 8) (z : Fin 1) :
    (G1 W (Proc.devRef .tc main_v2) : S4096x8x1.Idx → EReal) (ix3 n b z) = inpOf W b n := by
  simp only [G1, hostOps1, hostOps1_1, hostOps1_2, hostOps1_3, hostOps1_4]
  after_results3
  refine (sc_add_unit_last _ _ n b z).trans ?_
  refine (transpose_ix2_apply _ _ n b).trans ?_
  rfl

/-- Layer 1's gate features. -/
abbrev X0 : Fin 4096 → Fin 8 → Fin 32 → EReal := featK0 (aInp m c) (hxK (aHid m c) 0)

theorem e6_v23 (n : Fin 4096) (b : Fin 8) (cc : Fin 32) :
    (W6 m c main_v23 : S4096x256.Idx → EReal) (ix2 n (lane32 b cc)) = X0 m c n b cc := by
  have h := G1_v23 (W1 m c) n b cc
  rw [inpOf_1, hidOf_1] at h
  exact h
theorem e6_v2 (n : Fin 4096) (b : Fin 8) (z : Fin 1) :
    (W6 m c main_v2 : S4096x8x1.Idx → EReal) (ix3 n b z) = aInp m c b n := by
  have h := G1_v2 (W1 m c) n b z
  rw [inpOf_1] at h
  exact h
theorem e6_v20 (n : Fin 4096) (b : Fin 8) (u : Fin 16) :
    (W6 m c main_v20 : S32768x16.Idx → EReal) (ix2 (row8 n b) u) = hxK (aHid m c) 0 n b u := by
  have h := G1_v20 (W1 m c) n b u
  rw [hidOf_1] at h
  exact h
theorem e6_v9 (z : Fin 1) (u : Fin 16) : (W6 m c main_v9 : S1x16.Idx → EReal) (ix2 z u) = br (ab0g m c) u := by
  have h := G1_v9 (W1 m c) z u
  rw [b0gOf_1] at h
  exact h
theorem e6_v11 (z : Fin 1) (u : Fin 16) : (W6 m c main_v11 : S1x16.Idx → EReal) (ix2 z u) = bu (ab0g m c) u := by
  have h := G1_v11 (W1 m c) z u
  rw [b0gOf_1] at h
  exact h
theorem e6_v15 (z : Fin 1) (u : Fin 16) : (W6 m c main_v15 : S1x16.Idx → EReal) (ix2 z u) = ab0c m c u := by
  have h := G1_v15 (W1 m c) z u
  rw [b0cOf_1] at h
  exact h
theorem e6_v6 (mm : Fin 3) (cc : Fin 32) (u : Fin 16) :
    (W6 m c main_v6 : S3x32x16.Idx → EReal) (ix3 mm cc u) = wr (C := 17) (K := 51) rfl (aW0g m c) mm cc u := by
  have h := G1_v6 (W1 m c) mm cc u
  rw [W0gOf_1] at h
  exact h
theorem e6_v7 (mm : Fin 3) (cc : Fin 32) (u : Fin 16) :
    (W6 m c main_v7 : S3x32x16.Idx → EReal) (ix3 mm cc u) = wu (C := 17) (K := 51) rfl (aW0g m c) mm cc u := by
  have h := G1_v7 (W1 m c) mm cc u
  rw [W0gOf_1] at h
  exact h
theorem e6_v14 (mm : Fin 3) (cc : Fin 32) (u : Fin 16) :
    (W6 m c main_v14 : S3x32x16.Idx → EReal) (ix3 mm cc u) = prepW (C := 17) (K := 51) rfl (aW0c m c) mm cc u := by
  have h := G1_v14 (W1 m c) mm cc u
  rw [W0cOf_1] at h
  exact h

/-! ## The symmetrised adjacency and the scale column stay -/
theorem amax_at6 (p q : Fin 4096) : (W6 m c main_v0_0 : S4096x4096.Idx → EReal) (ix2 p q) = amax (aAdj m c) p q := by
  rw [show W6 m c main_v0_0 = W1 m c main_v0_0 from (((((W6_of m c main_v0_0 (by decide)).trans (W5_of m c main_v0_0 (by decide))).trans (W4_of m c main_v0_0 (by decide))).trans (W3_of m c main_v0_0 (by decide))).trans (W2_of m c main_v0_0 (by decide)))]; exact s1_amax m c p q
theorem dis_at6 (p : Fin 4096) (z : Fin 1) : (W6 m c main_v0_1 : S4096x1.Idx → EReal) (ix2 p z) = disK (aAdj m c) p := by
  rw [show W6 m c main_v0_1 = W1 m c main_v0_1 from (((((W6_of m c main_v0_1 (by decide)).trans (W5_of m c main_v0_1 (by decide))).trans (W4_of m c main_v0_1 (by decide))).trans (W3_of m c main_v0_1 (by decide))).trans (W2_of m c main_v0_1 (by decide)))]; exact s1_dis m c p z
theorem amax_at7 (p q : Fin 4096) : (W7 m c main_v0_0 : S4096x4096.Idx → EReal) (ix2 p q) = amax (aAdj m c) p q := by
  rw [show W7 m c main_v0_0 = W1 m c main_v0_0 from ((((((W7_of m c main_v0_0 (by decide)).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at7 (p : Fin 4096) (z : Fin 1) : (W7 m c main_v0_1 : S4096x1.Idx → EReal) (ix2 p z) = disK (aAdj m c) p := by
  rw [show W7 m c main_v0_1 = W1 m c main_v0_1 from ((((((W7_of m c main_v0_1 (by decide)).trans (W6_of m c main_v0_1 (by decide))).trans (W5_of m c main_v0_1 (by decide))).trans (W4_of m c main_v0_1 (by decide))).trans (W3_of m c main_v0_1 (by decide))).trans (W2_of m c main_v0_1 (by decide)))]; exact s1_dis m c p z
theorem amax_at11 (p q : Fin 4096) : (W11 m c main_v0_0 : S4096x4096.Idx → EReal) (ix2 p q) = amax (aAdj m c) p q := by
  rw [show W11 m c main_v0_0 = W1 m c main_v0_0 from ((((((((((W11_of m c main_v0_0 (by decide)).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at11 (p : Fin 4096) (z : Fin 1) : (W11 m c main_v0_1 : S4096x1.Idx → EReal) (ix2 p z) = disK (aAdj m c) p := by
  rw [show W11 m c main_v0_1 = W1 m c main_v0_1 from ((((((((((W11_of m c main_v0_1 (by decide)).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z
theorem amax_at12 (p q : Fin 4096) : (W12 m c main_v0_0 : S4096x4096.Idx → EReal) (ix2 p q) = amax (aAdj m c) p q := by
  rw [show W12 m c main_v0_0 = W1 m c main_v0_0 from (((((((((((W12_of m c main_v0_0 (by decide)).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at12 (p : Fin 4096) (z : Fin 1) : (W12 m c main_v0_1 : S4096x1.Idx → EReal) (ix2 p z) = disK (aAdj m c) p := by
  rw [show W12 m c main_v0_1 = W1 m c main_v0_1 from (((((((((((W12_of m c main_v0_1 (by decide)).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z

/-! ## The gate convolution's two diffusion applies -/

theorem s7_v24 (p : Fin 4096) (b : Fin 8) (cc : Fin 32) :
    (W7 m c main_v24 : S4096x256.Idx → EReal) (ix2 p (lane32 b cc)) = term1 (aAdj m c) (X0 m c) p b cc := by
  unfold W7
  rw [Function.update_self, final1_at]
  exact sapply_stage (aAdj m c) (-1) (0) (fun p q => (W6 m c main_v0_0 : S4096x4096.Idx → EReal) (ix2 p q))
    (fun p => (W6 m c main_v0_1 : S4096x1.Idx → EReal) (ix2 p (0 : Fin 1)))
    (fun q f => (W6 m c main_v23 : S4096x256.Idx → EReal) (ix2 q f))
    (fun q f => (W6 m c main_v23 : S4096x256.Idx → EReal) (ix2 q f))
    (X0 m c) (X0 m c) (amax_at6 m c) (fun p => dis_at6 m c p 0) (e6_v23 m c) (e6_v23 m c) p b cc

theorem s7_v23 (n : Fin 4096) (b : Fin 8) (cc : Fin 32) : (W7 m c main_v23 : S4096x256.Idx → EReal) (ix2 n (lane32 b cc)) = X0 m c n b cc := by
  rw [show W7 m c main_v23 = W6 m c main_v23 from (W7_of m c main_v23 (by decide))]; exact e6_v23 m c n b cc

theorem s8_v25 (p : Fin 4096) (b : Fin 8) (cc : Fin 32) :
    (W8 m c main_v25 : S4096x256.Idx → EReal) (ix2 p (lane32 b cc)) = term2 (aAdj m c) (X0 m c) p b cc := by
  unfold W8
  rw [Function.update_self, final2_at]
  exact sapply_stage (aAdj m c) (-2) (-1) (fun p q => (W7 m c main_v0_0 : S4096x4096.Idx → EReal) (ix2 p q))
    (fun p => (W7 m c main_v0_1 : S4096x1.Idx → EReal) (ix2 p (0 : Fin 1)))
    (fun q f => (W7 m c main_v24 : S4096x256.Idx → EReal) (ix2 q f))
    (fun q f => (W7 m c main_v23 : S4096x256.Idx → EReal) (ix2 q f))
    (term1 (aAdj m c) (X0 m c)) (X0 m c) (amax_at7 m c) (fun p => dis_at7 m c p 0) (s7_v24 m c) (s7_v23 m c) p b cc

/-! ## The three terms as rows -/

theorem s9_v26 (n : Fin 4096) (b : Fin 8) (cc : Fin 32) :
    (W9 m c main_v26 : S32768x32.Idx → EReal) (ix2 (row8 n b) cc) = X0 m c n b cc := by
  refine (hostOps3_v26 (W8 m c) n b cc).trans ?_
  rw [show W8 m c main_v23 = W6 m c main_v23 from ((W8_of m c main_v23 (by decide)).trans (W7_of m c main_v23 (by decide)))]; exact e6_v23 m c n b cc
theorem s9_v27 (n : Fin 4096) (b : Fin 8) (cc : Fin 32) :
    (W9 m c main_v27 : S32768x32.Idx → EReal) (ix2 (row8 n b) cc) = term1 (aAdj m c) (X0 m c) n b cc := by
  refine (hostOps3_v27 (W8 m c) n b cc).trans ?_
  rw [show W8 m c main_v24 = W7 m c main_v24 from (W8_of m c main_v24 (by decide))]; exact s7_v24 m c n b cc
theorem s9_v28 (n : Fin 4096) (b : Fin 8) (cc : Fin 32) :
    (W9 m c main_v28 : S32768x32.Idx → EReal) (ix2 (row8 n b) cc) = term2 (aAdj m c) (X0 m c) n b cc := by
  refine (hostOps3_v28 (W8 m c) n b cc).trans ?_
  exact s8_v25 m c n b cc

/-! ## The gate region -/

theorem s10_rh (n : Fin 4096) (b : Fin 8) (u : Fin 16) :
    (W10 m c main_v29_0 : S32768x16.Idx → EReal) (ix2 (row8 n b) u)
      = rhK (C := 17) (K := 51) rfl (aAdj m c) (featK0 (aInp m c)) (hxK (aHid m c) 0) (aW0g m c) (ab0g m c) n b u := by
  unfold W10
  rw [Function.update_of_ne (by decide), Function.update_self, final3_8_at]
  unfold rhK rK gconvK
  refine congrArg₂ (· * ·) (congrArg Ideal.logistic (acc3_stage (br (ab0g m c)) (wr (C := 17) (K := 51) rfl (aW0g m c))
    (X0 m c) (term1 (aAdj m c) (X0 m c)) (term2 (aAdj m c) (X0 m c))
    (b3_5 (tcv (W9 m)) c) (w3_3 (tcv (W9 m)) c) (x3_0 (tcv (W9 m)) c) (x3_1 (tcv (W9 m)) c) (x3_2 (tcv (W9 m)) c)
    ?_ ?_ (s9_v26 m c) (s9_v27 m c) (s9_v28 m c) n b u)) ?_
  · intro u
    show (W9 m c main_v9 : S1x16.Idx → EReal) (ix2 0 u) = _
    rw [show W9 m c main_v9 = W6 m c main_v9 from (((W9_of m c main_v9 (by decide)).trans (W8_of m c main_v9 (by decide))).trans (W7_of m c main_v9 (by decide)))]; exact e6_v9 m c 0 u
  · intro mm cc u
    show (W9 m c main_v6 : S3x32x16.Idx → EReal) (ix3 mm cc u) = _
    rw [show W9 m c main_v6 = W6 m c main_v6 from (((W9_of m c main_v6 (by decide)).trans (W8_of m c main_v6 (by decide))).trans (W7_of m c main_v6 (by decide)))]; exact e6_v6 m c mm cc u
  · show (W9 m c main_v20 : S32768x16.Idx → EReal) (ix2 (row8 n b) u) = _
    rw [show W9 m c main_v20 = W6 m c main_v20 from (((W9_of m c main_v20 (by decide)).trans (W8_of m c main_v20 (by decide))).trans (W7_of m c main_v20 (by decide)))]; exact e6_v20 m c n b u

theorem s10_u (n : Fin 4096) (b : Fin 8) (u : Fin 16) :
    (W10 m c main_v29_1 : S32768x16.Idx → EReal) (ix2 (row8 n b) u)
      = uK (C := 17) (K := 51) rfl (aAdj m c) (featK0 (aInp m c)) (hxK (aHid m c) 0) (aW0g m c) (ab0g m c) n b u := by
  unfold W10
  rw [Function.update_self, final3_9_at]
  unfold uK gconvK
  refine congrArg Ideal.logistic (acc3_stage (bu (ab0g m c)) (wu (C := 17) (K := 51) rfl (aW0g m c))
    (X0 m c) (term1 (aAdj m c) (X0 m c)) (term2 (aAdj m c) (X0 m c))
    (b3_6 (tcv (W9 m)) c) (w3_4 (tcv (W9 m)) c) (x3_0 (tcv (W9 m)) c) (x3_1 (tcv (W9 m)) c) (x3_2 (tcv (W9 m)) c)
    ?_ ?_ (s9_v26 m c) (s9_v27 m c) (s9_v28 m c) n b u)
  · intro u
    show (W9 m c main_v11 : S1x16.Idx → EReal) (ix2 0 u) = _
    rw [show W9 m c main_v11 = W6 m c main_v11 from (((W9_of m c main_v11 (by decide)).trans (W8_of m c main_v11 (by decide))).trans (W7_of m c main_v11 (by decide)))]; exact e6_v11 m c 0 u
  · intro mm cc u
    show (W9 m c main_v7 : S3x32x16.Idx → EReal) (ix3 mm cc u) = _
    rw [show W9 m c main_v7 = W6 m c main_v7 from (((W9_of m c main_v7 (by decide)).trans (W8_of m c main_v7 (by decide))).trans (W7_of m c main_v7 (by decide)))]; exact e6_v7 m c mm cc u

/-! ## The candidate features and their two diffusion applies -/

/-- Layer 1's reset state and candidate features. -/
abbrev RH1 : Fin 4096 → Fin 8 → Fin 16 → EReal :=
  rhK (C := 17) (K := 51) rfl (aAdj m c) (featK0 (aInp m c)) (hxK (aHid m c) 0) (aW0g m c) (ab0g m c)
abbrev X1 : Fin 4096 → Fin 8 → Fin 32 → EReal := featK0 (aInp m c) (RH1 m c)

theorem s11_v33 (n : Fin 4096) (b : Fin 8) (cc : Fin 32) :
    (W11 m c main_v33 : S4096x256.Idx → EReal) (ix2 n (lane32 b cc)) = X1 m c n b cc := by
  have h := hostOps4_v33 (W10 m c) n b cc
  have h1 : (fun b n => (W10 m c main_v2 : S4096x8x1.Idx → EReal) (ix3 n b (0 : Fin 1))) = aInp m c := by
    funext b n
    rw [show W10 m c main_v2 = W6 m c main_v2 from ((((W10_of m c main_v2 (by decide)).trans (W9_of m c main_v2 (by decide))).trans (W8_of m c main_v2 (by decide))).trans (W7_of m c main_v2 (by decide)))]; exact e6_v2 m c n b 0
  have h2 : (fun n b u => (W10 m c main_v29_0 : S32768x16.Idx → EReal) (ix2 (row8 n b) u)) = RH1 m c := by
    funext n b u
    exact s10_rh m c n b u
  rw [h1, h2] at h
  exact h

theorem s12_v34 (p : Fin 4096) (b : Fin 8) (cc : Fin 32) :
    (W12 m c main_v34 : S4096x256.Idx → EReal) (ix2 p (lane32 b cc)) = term1 (aAdj m c) (X1 m c) p b cc := by
  unfold W12
  rw [Function.update_self, final4_at]
  exact sapply_stage (aAdj m c) (-1) (0) (fun p q => (W11 m c main_v0_0 : S4096x4096.Idx → EReal) (ix2 p q))
    (fun p => (W11 m c main_v0_1 : S4096x1.Idx → EReal) (ix2 p (0 : Fin 1)))
    (fun q f => (W11 m c main_v33 : S4096x256.Idx → EReal) (ix2 q f))
    (fun q f => (W11 m c main_v33 : S4096x256.Idx → EReal) (ix2 q f))
    (X1 m c) (X1 m c) (amax_at11 m c) (fun p => dis_at11 m c p 0) (s11_v33 m c) (s11_v33 m c) p b cc

theorem s12_v33 (n : Fin 4096) (b : Fin 8) (cc : Fin 32) : (W12 m c main_v33 : S4096x256.Idx → EReal) (ix2 n (lane32 b cc)) = X1 m c n b cc := by
  rw [show W12 m c main_v33 = W11 m c main_v33 from (W12_of m c main_v33 (by decide))]; exact s11_v33 m c n b cc

theorem s13_v35 (p : Fin 4096) (b : Fin 8) (cc : Fin 32) :
    (W13 m c main_v35 : S4096x256.Idx → EReal) (ix2 p (lane32 b cc)) = term2 (aAdj m c) (X1 m c) p b cc := by
  unfold W13
  rw [Function.update_self, final5_at]
  exact sapply_stage (aAdj m c) (-2) (-1) (fun p q => (W12 m c main_v0_0 : S4096x4096.Idx → EReal) (ix2 p q))
    (fun p => (W12 m c main_v0_1 : S4096x1.Idx → EReal) (ix2 p (0 : Fin 1)))
    (fun q f => (W12 m c main_v34 : S4096x256.Idx → EReal) (ix2 q f))
    (fun q f => (W12 m c main_v33 : S4096x256.Idx → EReal) (ix2 q f))
    (term1 (aAdj m c) (X1 m c)) (X1 m c) (amax_at12 m c) (fun p => dis_at12 m c p 0) (s12_v34 m c) (s12_v33 m c) p b cc

theorem s14_v36 (n : Fin 4096) (b : Fin 8) (cc : Fin 32) :
    (W14 m c main_v36 : S32768x32.Idx → EReal) (ix2 (row8 n b) cc) = X1 m c n b cc := by
  refine (hostOps6_v36 (W13 m c) n b cc).trans ?_
  rw [show W13 m c main_v33 = W11 m c main_v33 from ((W13_of m c main_v33 (by decide)).trans (W12_of m c main_v33 (by decide)))]; exact s11_v33 m c n b cc
theorem s14_v37 (n : Fin 4096) (b : Fin 8) (cc : Fin 32) :
    (W14 m c main_v37 : S32768x32.Idx → EReal) (ix2 (row8 n b) cc) = term1 (aAdj m c) (X1 m c) n b cc := by
  refine (hostOps6_v37 (W13 m c) n b cc).trans ?_
  rw [show W13 m c main_v34 = W12 m c main_v34 from (W13_of m c main_v34 (by decide))]; exact s12_v34 m c n b cc
theorem s14_v38 (n : Fin 4096) (b : Fin 8) (cc : Fin 32) :
    (W14 m c main_v38 : S32768x32.Idx → EReal) (ix2 (row8 n b) cc) = term2 (aAdj m c) (X1 m c) n b cc := by
  refine (hostOps6_v38 (W13 m c) n b cc).trans ?_
  exact s13_v35 m c n b cc

/-! ## What the candidate region reads besides -/
theorem s14_v14 (mm : Fin 3) (cc : Fin 32) (u : Fin 16) : (W14 m c main_v14 : S3x32x16.Idx → EReal) (ix3 mm cc u) = prepW (C := 17) (K := 51) rfl (aW0c m c) mm cc u := by
  rw [show W14 m c main_v14 = W6 m c main_v14 from ((((((((W14_of m c main_v14 (by decide)).trans (W13_of m c main_v14 (by decide))).trans (W12_of m c main_v14 (by decide))).trans (W11_of m c main_v14 (by decide))).trans (W10_of m c main_v14 (by decide))).trans (W9_of m c main_v14 (by decide))).trans (W8_of m c main_v14 (by decide))).trans (W7_of m c main_v14 (by decide)))]; exact e6_v14 m c mm cc u

theorem s14_v15 (z : Fin 1) (u : Fin 16) : (W14 m c main_v15 : S1x16.Idx → EReal) (ix2 z u) = ab0c m c u := by
  rw [show W14 m c main_v15 = W6 m c main_v15 from ((((((((W14_of m c main_v15 (by decide)).trans (W13_of m c main_v15 (by decide))).trans (W12_of m c main_v15 (by decide))).trans (W11_of m c main_v15 (by decide))).trans (W10_of m c main_v15 (by decide))).trans (W9_of m c main_v15 (by decide))).trans (W8_of m c main_v15 (by decide))).trans (W7_of m c main_v15 (by decide)))]; exact e6_v15 m c z u

theorem s14_v20 (n : Fin 4096) (b : Fin 8) (u : Fin 16) : (W14 m c main_v20 : S32768x16.Idx → EReal) (ix2 (row8 n b) u) = hxK (aHid m c) 0 n b u := by
  rw [show W14 m c main_v20 = W6 m c main_v20 from ((((((((W14_of m c main_v20 (by decide)).trans (W13_of m c main_v20 (by decide))).trans (W12_of m c main_v20 (by decide))).trans (W11_of m c main_v20 (by decide))).trans (W10_of m c main_v20 (by decide))).trans (W9_of m c main_v20 (by decide))).trans (W8_of m c main_v20 (by decide))).trans (W7_of m c main_v20 (by decide)))]; exact e6_v20 m c n b u

theorem s14_u (n : Fin 4096) (b : Fin 8) (u : Fin 16) :
    (W14 m c main_v29_1 : S32768x16.Idx → EReal) (ix2 (row8 n b) u)
      = uK (C := 17) (K := 51) rfl (aAdj m c) (featK0 (aInp m c)) (hxK (aHid m c) 0) (aW0g m c) (ab0g m c) n b u := by
  rw [show W14 m c main_v29_1 = W10 m c main_v29_1 from ((((W14_of m c main_v29_1 (by decide)).trans (W13_of m c main_v29_1 (by decide))).trans (W12_of m c main_v29_1 (by decide))).trans (W11_of m c main_v29_1 (by decide)))]; exact s10_u m c n b u

end Cert.KernelIdeal.KV
end
-- ==== Proof.AlgConst.lean ====
/-
  The extended reals a few f32 patterns denote: one, minus one, two, minus two (zero is in the library).
-/
import proofs.«172830_g53506702573898_cont_9to1_m_1152_4_alg».proof.Proof.AlgCoe
import Idealize.ShloMosaic.PureOps.Ideal.Laws

open Idealize.ShloMosaic

namespace Alg

theorem f32_one : Ideal.ofBits .f32 0x3F800000#32 = 1 := by
  simp [Ideal.ofBits, Ideal.ieee, -EReal.coe_mul]; norm_num

theorem f32_neg_one : Ideal.ofBits .f32 0xBF800000#32 = -1 := by
  simp [Ideal.ofBits, Ideal.ieee, -EReal.coe_mul]; norm_num

theorem f32_two : Ideal.ofBits .f32 0x40000000#32 = 2 := by
  simp [Ideal.ofBits, Ideal.ieee, -EReal.coe_mul]; norm_num
  exact two_eq.symm

theorem f32_neg_two : Ideal.ofBits .f32 0xC0000000#32 = -2 := by
  simp [Ideal.ofBits, Ideal.ieee, -EReal.coe_mul]; norm_num
  exact two_eq.symm

end Alg
-- ==== Proof.Reg6Val.lean ====
import proofs.«172830_g53506702573898_cont_9to1_m_1152_4_alg».proof.Proof.Reg6Data
import proofs.«172830_g53506702573898_cont_9to1_m_1152_4_alg».proof.Proof.Reg3Val
import proofs.«172830_g53506702573898_cont_9to1_m_1152_4_alg».proof.Proof.AlgConst
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The candidate region 6 at the ideal values: what its store holds, element by element

The store is the update gate times the hidden block plus one minus the update gate times the hyperbolic tangent of a bias
row plus three [4096, 32] x [32, 16] products added in turn. -/

/-- The m-th [1, 32, 16] slice of the [3, 32, 16] weight stack, at (0, c, u). -/
theorem ld6w0_apply (x : Vec Ideal S3x32x16 .f32) (c : Fin 32) (u : Fin 16) : View.ld x r6_w0 (ix3 0 c u) = x (ix3 0 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld6w1_apply (x : Vec Ideal S3x32x16 .f32) (c : Fin 32) (u : Fin 16) : View.ld x r6_w1 (ix3 0 c u) = x (ix3 1 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld6w2_apply (x : Vec Ideal S3x32x16 .f32) (c : Fin 32) (u : Fin 16) : View.ld x r6_w2 (ix3 0 c u) = x (ix3 2 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))

/-- The store's payload at row `p`, unit `u`. -/
theorem k6_pay1_apply (v0 : Vec Ideal S1x16 .f32) (v2 : Vec Ideal S4096x32 .f32) (v4 : Vec Ideal S1x32x16 .f32)
    (v9 : Vec Ideal S4096x32 .f32) (v11 : Vec Ideal S1x32x16 .f32) (v15 : Vec Ideal S4096x32 .f32) (v17 : Vec Ideal S1x32x16 .f32)
    (v22 v24 : Vec Ideal S4096x16 .f32) (p : Fin 4096) (u : Fin 16) :
    k6_pay1 v0 v2 v4 v9 v11 v15 v17 v22 v24 (ix2 p u)
      = v22 (ix2 p u) * v24 (ix2 p u)
        + (1 - v22 (ix2 p u)) * Ideal.tanh (((v0 (ix2 0 u) + ∑ c : Fin 32, v2 (ix2 p c) * v4 (ix3 0 c u))
            + ∑ c : Fin 32, v9 (ix2 p c) * v11 (ix3 0 c u)) + ∑ c : Fin 32, v15 (ix2 p c) * v17 (ix3 0 c u)) := by
  unfold k6_pay1
  simp only [shapeCast_self]
  rw [addf_apply, mulf_apply, mulf_apply, subf_apply, broadcast_apply]
  show _ * _ + (Ideal.ofBits .f32 0x3F800000#32 - _) * Ideal.tanh (addf (F := Ideal) (s := S4096x16) (φ := .f32) _ _ (ix2 p u)) = _
  rw [Alg.f32_one, addf_apply, addf_apply, addf_apply, mmw_apply, mmw_apply, mmw_apply, brow_apply]

/-- THE OUTPUT (the new hidden state) at row `p`, unit `u`. -/
theorem out6_7_apply (x0 x1 x2 : Vec Ideal S4096x32 .f32) (x3 : Vec Ideal S3x32x16 .f32) (x4 : Vec Ideal S1x16 .f32)
    (x5 x6 : Vec Ideal S4096x16 .f32) (p : Fin 4096) (u : Fin 16) :
    out6_7 x0 x1 x2 x3 x4 x5 x6 (ix2 p u)
      = x5 (ix2 p u) * x6 (ix2 p u)
        + (1 - x5 (ix2 p u)) * Ideal.tanh (((x4 (ix2 0 u) + ∑ c : Fin 32, x0 (ix2 p c) * x3 (ix3 0 c u))
            + ∑ c : Fin 32, x1 (ix2 p c) * x3 (ix3 1 c u)) + ∑ c : Fin 32, x2 (ix2 p c) * x3 (ix3 2 c u)) := by
  unfold out6_7
  rw [View.canon_unit_zero hz2]
  simp only [View.ld_unit_zero (S := S4096x32) hz2, View.ld_unit_zero (S := S4096x16) hz2, View.ld_unit_zero (S := S1x16) hz2]
  rw [k6_pay1_apply]
  refine congrArg (fun s => x5 (ix2 p u) * x6 (ix2 p u) + (1 - x5 (ix2 p u)) * Ideal.tanh s) ?_
  exact congrArg₂ (· + ·) (congrArg₂ (· + ·)
      (congrArg (x4 (ix2 0 u) + ·) (Finset.sum_congr rfl fun c _ => congrArg (x0 (ix2 p c) * ·) (ld6w0_apply x3 c u)))
      (Finset.sum_congr rfl fun c _ => congrArg (x1 (ix2 p c) * ·) (ld6w1_apply x3 c u)))
    (Finset.sum_congr rfl fun c _ => congrArg (x2 (ix2 p c) * ·) (ld6w2_apply x3 c u))

end Cert.KernelIdeal.Reg

end
-- ==== Proof.Reg6Val2.lean ====
import proofs.«172830_g53506702573898_cont_9to1_m_1152_4_alg».proof.Proof.Reg6Val

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The candidate region 6: the output array after the region, at a row and a unit, over the arrays' entries -/

section Regions
variable (V : (c : Dev nD) → (b : Ref sig .tc) → Buf (Elt Ideal) ((c : Thread nD τ).loc b))

/-- Row `p` of row block `t`. -/
def row6 (t : Fin cfg6.N) (p : Fin 4096) : Fin 32768 :=
  ⟨t.val * 4096 + p.val, by have h : t.val < 8 := lt_of_lt_of_eq t.isLt N_6; have := p.isLt; omega⟩

/-- The entries of the arrays the region reads, as extended reals: the three operands, the weight stack, the bias row, the
    update gate and the hidden state. -/
abbrev x6_0 (c : Dev nD) (r : Fin 32768) (k : Fin 32) : EReal := V c main_v36 (ix2 r k)
abbrev x6_1 (c : Dev nD) (r : Fin 32768) (k : Fin 32) : EReal := V c main_v37 (ix2 r k)
abbrev x6_2 (c : Dev nD) (r : Fin 32768) (k : Fin 32) : EReal := V c main_v38 (ix2 r k)
abbrev w6 (c : Dev nD) (m : Fin 3) (k : Fin 32) (u : Fin 16) : EReal := V c main_v14 (ix3 m k u)
abbrev b6 (c : Dev nD) (u : Fin 16) : EReal := V c main_v15 (ix2 (0 : Fin 1) u)
abbrev u6 (c : Dev nD) (r : Fin 32768) (u : Fin 16) : EReal := V c main_v29_1 (ix2 r u)
abbrev h6 (c : Dev nD) (r : Fin 32768) (u : Fin 16) : EReal := V c main_v20 (ix2 r u)

/-- What the output array holds after the region, as a function of the arrays the region reads, index by index. -/
def G6 (c : Dev nD) : S32768x16.Idx → EReal := fun i =>
  u6 V c (i 0) (i 1) * h6 V c (i 0) (i 1)
    + (1 - u6 V c (i 0) (i 1)) * Ideal.tanh (((b6 V c (i 1) + ∑ k : Fin 32, x6_0 V c (i 0) k * w6 V c 0 k (i 1))
        + ∑ k : Fin 32, x6_1 V c (i 0) k * w6 V c 1 k (i 1)) + ∑ k : Fin 32, x6_2 V c (i 0) k * w6 V c 2 k (i 1))

/-- Window 0's block at point `t`, at row `p`, is its array at row `p` of row block `t`. -/
theorem blk6_0_at (c : Dev nD) (t : Fin cfg6.N) (p : Fin 4096) (k : Fin 32) :
    (iblk6 V c 0 t : Vec Ideal S4096x32 .f32) (ix2 p k) = V c main_v36 (ix2 (row6 t p) k) := by
  have hi : win6_0.index t 0 = t.val ∧ win6_0.index t 1 = 0 := by
    rcases fin_N6 t with rfl | rfl | rfl | rfl | rfl | rfl | rfl | rfl <;> decide
  unfold iblk6
  rw [View.read_apply]
  show V c main_v36 _ = V c main_v36 _
  congr 1
  funext a
  apply Fin.ext
  match a with
  | ⟨0, _⟩ => show win6_0.index t 0 * 4096 + 1 * p.val = t.val * 4096 + p.val; rw [hi.1]; omega
  | ⟨1, _⟩ => show win6_0.index t 1 * 32 + 1 * k.val = k.val; rw [hi.2]; omega

/-- Window 1's block at point `t`, at row `p`, is its array at row `p` of row block `t`. -/
theorem blk6_1_at (c : Dev nD) (t : Fin cfg6.N) (p : Fin 4096) (k : Fin 32) :
    (iblk6 V c 1 t : Vec Ideal S4096x32 .f32) (ix2 p k) = V c main_v37 (ix2 (row6 t p) k) := by
  have hi : win6_1.index t 0 = t.val ∧ win6_1.index t 1 = 0 := by
    rcases fin_N6 t with rfl | rfl | rfl | rfl | rfl | rfl | rfl | rfl <;> decide
  unfold iblk6
  rw [View.read_apply]
  show V c main_v37 _ = V c main_v37 _
  congr 1
  funext a
  apply Fin.ext
  match a with
  | ⟨0, _⟩ => show win6_1.index t 0 * 4096 + 1 * p.val = t.val * 4096 + p.val; rw [hi.1]; omega
  | ⟨1, _⟩ => show win6_1.index t 1 * 32 + 1 * k.val = k.val; rw [hi.2]; omega

/-- Window 2's block at point `t`, at row `p`, is its array at row `p` of row block `t`. -/
theorem blk6_2_at (c : Dev nD) (t : Fin cfg6.N) (p : Fin 4096) (k : Fin 32) :
    (iblk6 V c 2 t : Vec Ideal S4096x32 .f32) (ix2 p k) = V c main_v38 (ix2 (row6 t p) k) := by
  have hi : win6_2.index t 0 = t.val ∧ win6_2.index t 1 = 0 := by
    rcases fin_N6 t with rfl | rfl | rfl | rfl | rfl | rfl | rfl | rfl <;> decide
  unfold iblk6
  rw [View.read_apply]
  show V c main_v38 _ = V c main_v38 _
  congr 1
  funext a
  apply Fin.ext
  match a with
  | ⟨0, _⟩ => show win6_2.index t 0 * 4096 + 1 * p.val = t.val * 4096 + p.val; rw [hi.1]; omega
  | ⟨1, _⟩ => show win6_2.index t 1 * 32 + 1 * k.val = k.val; rw [hi.2]; omega

/-- Window 5's block at point `t`, at row `p`, is its array at row `p` of row block `t`. -/
theorem blk6_5_at (c : Dev nD) (t : Fin cfg6.N) (p : Fin 4096) (u : Fin 16) :
    (iblk6 V c 5 t : Vec Ideal S4096x16 .f32) (ix2 p u) = V c main_v29_1 (ix2 (row6 t p) u) := by
  have hi : win6_5.index t 0 = t.val ∧ win6_5.index t 1 = 0 := by
    rcases fin_N6 t with rfl | rfl | rfl | rfl | rfl | rfl | rfl | rfl <;> decide
  unfold iblk6
  rw [View.read_apply]
  show V c main_v29_1 _ = V c main_v29_1 _
  congr 1
  funext a
  apply Fin.ext
  match a with
  | ⟨0, _⟩ => show win6_5.index t 0 * 4096 + 1 * p.val = t.val * 4096 + p.val; rw [hi.1]; omega
  | ⟨1, _⟩ => show win6_5.index t 1 * 16 + 1 * u.val = u.val; rw [hi.2]; omega

/-- Window 6's block at point `t`, at row `p`, is its array at row `p` of row block `t`. -/
theorem blk6_6_at (c : Dev nD) (t : Fin cfg6.N) (p : Fin 4096) (u : Fin 16) :
    (iblk6 V c 6 t : Vec Ideal S4096x16 .f32) (ix2 p u) = V c main_v20 (ix2 (row6 t p) u) := by
  have hi : win6_6.index t 0 = t.val ∧ win6_6.index t 1 = 0 := by
    rcases fin_N6 t with rfl | rfl | rfl | rfl | rfl | rfl | rfl | rfl <;> decide
  unfold iblk6
  rw [View.read_apply]
  show V c main_v20 _ = V c main_v20 _
  congr 1
  funext a
  apply Fin.ext
  match a with
  | ⟨0, _⟩ => show win6_6.index t 0 * 4096 + 1 * p.val = t.val * 4096 + p.val; rw [hi.1]; omega
  | ⟨1, _⟩ => show win6_6.index t 1 * 16 + 1 * u.val = u.val; rw [hi.2]; omega

/-- Window 3's block at every point is the whole weight stack. -/
theorem blk6_3_at (c : Dev nD) (t : Fin cfg6.N) (m : Fin 3) (k : Fin 32) (u : Fin 16) :
    (iblk6 V c 3 t : Vec Ideal S3x32x16 .f32) (ix3 m k u) = V c main_v14 (ix3 m k u) := by
  have hi : win6_3.index t 0 = 0 ∧ win6_3.index t 1 = 0 ∧ win6_3.index t 2 = 0 := by
    rcases fin_N6 t with rfl | rfl | rfl | rfl | rfl | rfl | rfl | rfl <;> decide
  unfold iblk6
  rw [View.read_apply]
  show V c main_v14 _ = V c main_v14 _
  congr 1
  funext a
  apply Fin.ext
  match a with
  | ⟨0, _⟩ => show win6_3.index t 0 * 3 + 1 * m.val = m.val; rw [hi.1]; omega
  | ⟨1, _⟩ => show win6_3.index t 1 * 32 + 1 * k.val = k.val; rw [hi.2.1]; omega
  | ⟨2, _⟩ => show win6_3.index t 2 * 16 + 1 * u.val = u.val; rw [hi.2.2]; omega

/-- Window 4's block at every point is the whole bias row. -/
theorem blk6_4_at (c : Dev nD) (t : Fin cfg6.N) (u : Fin 16) :
    (iblk6 V c 4 t : Vec Ideal S1x16 .f32) (ix2 (0 : Fin 1) u) = V c main_v15 (ix2 (0 : Fin 1) u) := by
  have hi : win6_4.index t 0 = 0 ∧ win6_4.index t 1 = 0 := by
    rcases fin_N6 t with rfl | rfl | rfl | rfl | rfl | rfl | rfl | rfl <;> decide
  unfold iblk6
  rw [View.read_apply]
  show V c main_v15 _ = V c main_v15 _
  congr 1
  funext a
  apply Fin.ext
  match a with
  | ⟨0, _⟩ => show win6_4.index t 0 * 1 + 1 * 0 = 0; rw [hi.1]
  | ⟨1, _⟩ => show win6_4.index t 1 * 16 + 1 * u.val = u.val; rw [hi.2]; omega

/-- Where the output window's block at point `t` puts its row `p`, unit `u`. -/
theorem emb6_7 (t : Fin cfg6.N) (p : Fin 4096) (u : Fin 16) :
    ((cfg6.win 7).blk t).view.emb (ix2 p u) = ix2 (row6 t p) u := by
  have hi : win6_7.index t 0 = t.val ∧ win6_7.index t 1 = 0 := by
    rcases fin_N6 t with rfl | rfl | rfl | rfl | rfl | rfl | rfl | rfl <;> decide
  funext a
  apply Fin.ext
  match a with
  | ⟨0, _⟩ => show win6_7.index t 0 * 4096 + 1 * p.val = t.val * 4096 + p.val; rw [hi.1]; omega
  | ⟨1, _⟩ => show win6_7.index t 1 * 16 + 1 * u.val = u.val; rw [hi.2]; omega

/-- WHAT POINT `t` WRITES BACK is block `t` of `G6`. -/
theorem flushed6_eq (c : Dev nD) (t : Fin cfg6.N) :
    (dat6 V c).flushed 7 t = ((cfg6.win 7).blk t).view.read (Elt Ideal) (G6 V c) := by
  show (cfg6.win 7).cut (grid6.coords t) ((dat6 V c).after 7 t) = _
  rw [after6_7]
  funext j
  obtain ⟨p, u, rfl⟩ : ∃ (p : Fin 4096) (u : Fin 16), j = ix2 p u := ⟨j 0, j 1, eq_ix2 j⟩
  rw [View.read_apply, emb6_7]
  show out6_7 _ _ _ _ _ _ _ (ix2 p u) = _
  rw [out6_7_apply]
  simp only [blk6_0_at, blk6_1_at, blk6_2_at, blk6_3_at, blk6_4_at, blk6_5_at, blk6_6_at]
  rfl

/-- Every index of the output array is in some point's block. -/
theorem covered6 (i : S32768x16.Idx) : ∃ t : Fin cfg6.N, (cfg6.win 7).flush t = true ∧ i ∈ ((cfg6.win 7).blk t).view.set := by
  have hi0 : (i 0).val < 32768 := (i 0).isLt
  have hi1 : (i 1).val < 16 := (i 1).isLt
  have hN : cfg6.N = 8 := N_6
  let t : Fin cfg6.N := ⟨(i 0).val / 4096, by omega⟩
  have hidx : win6_7.index t 0 = t.val ∧ win6_7.index t 1 = 0 := by
    rcases fin_N6 t with h | h | h | h | h | h | h | h <;> rw [h] <;> decide
  refine ⟨t, flush6_7 t, ?_⟩
  show i ∈ ((View.whole main_v39).slice (win6_7.rect t)).set
  rw [View.set_slice_whole, Rect.mem_set_unit]
  intro a
  match a with
  | ⟨0, _⟩ => show win6_7.index t 0 * 4096 ≤ (i 0).val ∧ (i 0).val < win6_7.index t 0 * 4096 + 4096
              rw [hidx.1]; show (i 0).val / 4096 * 4096 ≤ (i 0).val ∧ (i 0).val < (i 0).val / 4096 * 4096 + 4096; omega
  | ⟨1, _⟩ => show win6_7.index t 1 * 16 ≤ (i 1).val ∧ (i 1).val < win6_7.index t 1 * 16 + 16
              rw [hidx.2]; omega

/-- THE ARRAY after the region: `G6` of the arrays the region reads. -/
theorem final6 (c : Dev nD) : (dat6 V c).arrAt 7 cfg6.N = G6 V c :=
  (dat6 V c).arrAt_eq_of_cover 7 (G6 V c) (fun t _ => flushed6_eq V c t) (covered6)

/-- THE VALUE at a row and a unit. -/
theorem final6_at (c : Dev nD) (r : Fin 32768) (u : Fin 16) :
    ((dat6 V c).arrAt 7 cfg6.N (ix2 r u) : EReal)
      = u6 V c r u * h6 V c r u
        + (1 - u6 V c r u) * Ideal.tanh (((b6 V c u + ∑ k : Fin 32, x6_0 V c r k * w6 V c 0 k u)
            + ∑ k : Fin 32, x6_1 V c r k * w6 V c 1 k u) + ∑ k : Fin 32, x6_2 V c r k * w6 V c 2 k u) := by
  rw [final6]
  rfl

end Regions

end Cert.KernelIdeal.Reg

end
-- ==== Proof.KV1b.lean ====
import proofs.«172830_g53506702573898_cont_9to1_m_1152_4_alg».proof.Proof.KV1
import proofs.«172830_g53506702573898_cont_9to1_m_1152_4_alg».proof.Proof.Reg6Val2

set_option maxRecDepth 16384

/-
  Layer 1's last item: the candidate region's output is layer 1's new state, from the region's value read at an
  index; and what layer 2 finds at its entry.
-/
noncomputable section
namespace Cert.KernelIdeal.KV
open Cert.KernelIdeal Cert.KernelIdeal.Gen Cert.KernelIdeal.Reg Cert.KernelIdeal.HostVal
open Idealize.ShloMosaic Idealize.ShloMosaic.TcCoe Idealize.ShloMosaic.StableHlo Idealize.ShloMosaic.ValueIdx
open Idealize.SL Idealize.SL.Sem
open scoped BigOperators
open Cert.HostLib Cert.SpecRef Cert.SpecKer

variable (m : (ℓ : Loc nD τ sig) → Buf (Elt Ideal) ℓ) (c : Dev nD)

theorem amax_at15 (p q : Fin 4096) : (W15 m c main_v0_0 : S4096x4096.Idx → EReal) (ix2 p q) = amax (aAdj m c) p q := by
  rw [show W15 m c main_v0_0 = W1 m c main_v0_0 from ((((((((((((((W15_of m c main_v0_0 (by decide)).trans (W14_of m c main_v0_0 (by decide))).trans (W13_of m c main_v0_0 (by decide))).trans (W12_of m c main_v0_0 (by decide))).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at15 (p : Fin 4096) (z : Fin 1) : (W15 m c main_v0_1 : S4096x1.Idx → EReal) (ix2 p z) = disK (aAdj m c) p := by
  rw [show W15 m c main_v0_1 = W1 m c main_v0_1 from ((((((((((((((W15_of m c main_v0_1 (by decide)).trans (W14_of m c main_v0_1 (by decide))).trans (W13_of m c main_v0_1 (by decide))).trans (W12_of m c main_v0_1 (by decide))).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z

/-- Layer 1's new state, as rows. -/
theorem s15_v39 (n : Fin 4096) (b : Fin 8) (u : Fin 16) :
    (W15 m c main_v39 : S32768x16.Idx → EReal) (ix2 (row8 n b) u)
      = nh1 (aInp m c) (aHid m c) (aAdj m c) (aW0g m c) (ab0g m c) (aW0c m c) (ab0c m c) n b u := by
  unfold W15
  rw [Function.update_self, final6_at]
  unfold nh1 cellK cK gconvK
  refine congrArg₂ (· + ·) (congrArg₂ (· * ·) (s14_u m c n b u) (s14_v20 m c n b u))
    (congrArg₂ (· * ·) (congrArg (fun t => 1 - t) (s14_u m c n b u)) (congrArg Ideal.tanh ?_))
  exact acc3_stage (ab0c m c) (prepW (C := 17) (K := 51) rfl (aW0c m c))
    (X1 m c) (term1 (aAdj m c) (X1 m c)) (term2 (aAdj m c) (X1 m c))
    (b6 (tcv (W14 m)) c) (w6 (tcv (W14 m)) c) (x6_0 (tcv (W14 m)) c) (x6_1 (tcv (W14 m)) c) (x6_2 (tcv (W14 m)) c)
    (fun u => s14_v15 m c 0 u) (s14_v14 m c) (s14_v36 m c) (s14_v37 m c) (s14_v38 m c) n b u

end Cert.KernelIdeal.KV
end
-- ==== Proof.HostL2.lean ====
import proofs.«172830_g53506702573898_cont_9to1_m_1152_4_alg».proof.Proof.HostA

set_option maxRecDepth 16384

/-
  The host operations before the second layer's first diffusion apply, read at an index: what the five stretches leave
  in the buffers the second layer's regions read — layer 1's new state back in node-major and batch-major form, the
  split gate weights (32 live lanes: the pad adds nothing), the two halves of the gate bias, the candidate weights and
  bias, the second incoming state as rows.
-/
noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

variable (W : Valuation τ sig (Elt Ideal))

/-- The buffers after the five stretches before the second layer, from contents `W`. -/
abbrev G2 : Valuation τ sig (Elt Ideal) :=
  StableHlo.after hostOps7_4 (StableHlo.after hostOps7_3 (StableHlo.after hostOps7_2 (StableHlo.after hostOps7_1 (StableHlo.after hostOps7 W))))

/-- Layer 1's new state as rows, read back node-major: (node n, batch b, unit u) is row `n * 8 + b`, unit u. -/
theorem G2_v40 (n : Fin 4096) (b : Fin 8) (u : Fin 16) :
    (G2 W (Proc.devRef .tc main_v40) : S4096x8x16.Idx → EReal) (ix3 n b u)
      = (W (Proc.devRef .tc main_v39) : S32768x16.Idx → EReal) (ix2 (row8 n b) u) := by
  simp only [G2, hostOps7, hostOps7_1, hostOps7_2, hostOps7_3, hostOps7_4]
  after_results3
  exact sc_split_lead _ _ n b u (row8 n b) rfl

/-- The same, batch-major. -/
theorem G2_v41 (b : Fin 8) (n : Fin 4096) (u : Fin 16) :
    (G2 W (Proc.devRef .tc main_v41) : S8x4096x16.Idx → EReal) (ix3 b n u)
      = (W (Proc.devRef .tc main_v39) : S32768x16.Idx → EReal) (ix2 (row8 n b) u) := by
  simp only [G2, hostOps7, hostOps7_1, hostOps7_2, hostOps7_3, hostOps7_4]
  after_results3
  refine (transpose_102_apply _ _ b n u).trans ?_
  exact sc_split_lead _ _ n b u (row8 n b) rfl

/-- The same, each batch row flat over (node, unit). -/
theorem G2_v42 (b : Fin 8) (n : Fin 4096) (u : Fin 16) :
    (G2 W (Proc.devRef .tc main_v42) : S8x65536.Idx → EReal) (ix2 b (flat16 n u))
      = (W (Proc.devRef .tc main_v39) : S32768x16.Idx → EReal) (ix2 (row8 n b) u) := by
  simp only [G2, hostOps7, hostOps7_1, hostOps7_2, hostOps7_3, hostOps7_4]
  after_results3
  refine (sc_merge_mid (B := 4096) (C := 16) (by norm_num) _ _ b n u (flat16 n u) rfl).trans ?_
  refine (transpose_102_apply _ _ b n u).trans ?_
  exact sc_split_lead _ _ n b u (row8 n b) rfl

/-- The second incoming state as rows: row `n * 8 + b`, unit u. -/
theorem G2_v60 (n : Fin 4096) (b : Fin 8) (u : Fin 16) :
    (G2 W (Proc.devRef .tc main_v60) : S32768x16.Idx → EReal) (ix2 (row8 n b) u) = hxK (hidOf W) 1 n b u := by
  simp only [G2, hostOps7, hostOps7_1, hostOps7_2, hostOps7_3, hostOps7_4]
  after_results3
  refine (sc_merge_lead _ _ n b u (row8 n b) rfl).trans ?_
  refine (transpose_102_apply _ _ n b u).trans ?_
  refine (sc_split_mid (B := 4096) (C := 16) (by norm_num) _ _ b n u (flat16 n u) rfl).trans ?_
  refine (shapeCast_1ab_ab_apply _ _ b (flat16 n u)).trans ?_
  refine (slice3_first_apply 1 _ _ (0 : Fin 1) b (flat16 n u) (1 : Fin 2) rfl).trans ?_
  rfl

/-- The reset half of the second gate bias. -/
theorem G2_v49 (z : Fin 1) (u : Fin 16) :
    (G2 W (Proc.devRef .tc main_v49) : S1x16.Idx → EReal) (ix2 z u) = br (b1gOf W) u := by
  simp only [G2, hostOps7, hostOps7_1, hostOps7_2, hostOps7_3, hostOps7_4]
  after_results3
  refine (shapeCast_a_1a_apply _ _ z u).trans ?_
  refine (slice1_apply 0 _ _ u (⟨u.val, by omega⟩ : Fin 32) (by show u.val = 0 + u.val; omega)).trans ?_
  rfl

/-- The update half of the second gate bias. -/
theorem G2_v51 (z : Fin 1) (u : Fin 16) :
    (G2 W (Proc.devRef .tc main_v51) : S1x16.Idx → EReal) (ix2 z u) = bu (b1gOf W) u := by
  simp only [G2, hostOps7, hostOps7_1, hostOps7_2, hostOps7_3, hostOps7_4]
  after_results3
  refine (shapeCast_a_1a_apply _ _ z u).trans ?_
  refine (slice1_apply 16 _ _ u (⟨u.val + 16, by omega⟩ : Fin 32) (by show u.val + 16 = 16 + u.val; omega)).trans ?_
  rfl

/-- The second candidate bias. -/
theorem G2_v55 (z : Fin 1) (u : Fin 16) :
    (G2 W (Proc.devRef .tc main_v55) : S1x16.Idx → EReal) (ix2 z u) = b1cOf W u := by
  simp only [G2, hostOps7, hostOps7_1, hostOps7_2, hostOps7_3, hostOps7_4]
  after_results3
  refine (shapeCast_a_1a_apply _ _ z u).trans ?_
  rfl

/-- The reset half of the second gate weights. -/
theorem G2_v46 (m : Fin 3) (c : Fin 32) (u : Fin 16) :
    (G2 W (Proc.devRef .tc main_v46) : S3x32x16.Idx → EReal) (ix3 m c u)
      = wr (C := 32) (K := 96) rfl (W1gOf W) m c u := by
  simp only [G2, hostOps7, hostOps7_1, hostOps7_2, hostOps7_3, hostOps7_4]
  after_results3
  refine (slice3_last_apply 0 _ _ m c u (⟨u.val, by omega⟩ : Fin 32) (by show u.val = 0 + u.val; omega)).trans ?_
  refine (pad3_mid_high_apply (α := EReal) 0 _ _ pads_S3x32x32_S3x32x32_000_000_000 h_S_ m c _).trans ?_
  have hc : c.val < 32 := c.isLt
  unfold wr prepW
  rw [dif_pos hc, dif_pos hc]
  show (transpose S3x32x32 [1, 0, 2] (shapeCast S32x3x32 (W (Proc.devRef .tc main_arg7) : S96x32.Idx → EReal) shapeCasts_S96x32_S32x3x32) transposes_S32x3x32_S3x32x32_1_0_2 : S3x32x32.Idx → EReal) (ix3 m (⟨c.val, hc⟩ : Fin 32) (⟨u.val, by omega⟩ : Fin 32)) = _
  refine (transpose_102_apply _ _ m (⟨c.val, hc⟩ : Fin 32) _).trans ?_
  refine (sc_split_lead _ _ (⟨c.val, hc⟩ : Fin 32) m _ (⟨c.val * 3 + m.val, by have := m.isLt; omega⟩ : Fin 96) rfl).trans ?_
  rfl

/-- The update half of the second gate weights. -/
theorem G2_v47 (m : Fin 3) (c : Fin 32) (u : Fin 16) :
    (G2 W (Proc.devRef .tc main_v47) : S3x32x16.Idx → EReal) (ix3 m c u)
      = wu (C := 32) (K := 96) rfl (W1gOf W) m c u := by
  simp only [G2, hostOps7, hostOps7_1, hostOps7_2, hostOps7_3, hostOps7_4]
  after_results3
  refine (slice3_last_apply 16 _ _ m c u (⟨u.val + 16, by omega⟩ : Fin 32) (by show u.val + 16 = 16 + u.val; omega)).trans ?_
  refine (pad3_mid_high_apply (α := EReal) 0 _ _ pads_S3x32x32_S3x32x32_000_000_000 h_S_ m c _).trans ?_
  have hc : c.val < 32 := c.isLt
  unfold wu prepW
  rw [dif_pos hc, dif_pos hc]
  show (transpose S3x32x32 [1, 0, 2] (shapeCast S32x3x32 (W (Proc.devRef .tc main_arg7) : S96x32.Idx → EReal) shapeCasts_S96x32_S32x3x32) transposes_S32x3x32_S3x32x32_1_0_2 : S3x32x32.Idx → EReal) (ix3 m (⟨c.val, hc⟩ : Fin 32) (⟨u.val + 16, by omega⟩ : Fin 32)) = _
  refine (transpose_102_apply _ _ m (⟨c.val, hc⟩ : Fin 32) _).trans ?_
  refine (sc_split_lead _ _ (⟨c.val, hc⟩ : Fin 32) m _ (⟨c.val * 3 + m.val, by have := m.isLt; omega⟩ : Fin 96) rfl).trans ?_
  rfl

/-- The second candidate weights. -/
theorem G2_v54 (m : Fin 3) (c : Fin 32) (u : Fin 16) :
    (G2 W (Proc.devRef .tc main_v54) : S3x32x16.Idx → EReal) (ix3 m c u)
      = prepW (C := 32) (K := 96) rfl (W1cOf W) m c u := by
  simp only [G2, hostOps7, hostOps7_1, hostOps7_2, hostOps7_3, hostOps7_4]
  after_results3
  refine (pad3_mid_high_apply (α := EReal) 0 _ _ pads_S3x32x16_S3x32x16_000_000_000 h_S_ m c u).trans ?_
  have hc : c.val < 32 := c.isLt
  unfold prepW
  rw [dif_pos hc, dif_pos hc]
  show (transpose S3x32x16 [1, 0, 2] (shapeCast S32x3x16 (W (Proc.devRef .tc main_arg9) : S96x16.Idx → EReal) shapeCasts_S96x16_S32x3x16) transposes_S32x3x16_S3x32x16_1_0_2 : S3x32x16.Idx → EReal) (ix3 m (⟨c.val, hc⟩ : Fin 32) u) = _
  refine (transpose_102_apply _ _ m (⟨c.val, hc⟩ : Fin 32) u).trans ?_
  refine (sc_split_lead _ _ (⟨c.val, hc⟩ : Fin 32) m u (⟨c.val * 3 + m.val, by have := m.isLt; omega⟩ : Fin 96) rfl).trans ?_
  rfl

end Cert.KernelIdeal.HostVal
end
-- ==== Proof.HostL2b.lean ====
import proofs.«172830_g53506702573898_cont_9to1_m_1152_4_alg».proof.Proof.HostL2

set_option maxRecDepth 16384

/-
  The second layer's gate features after the five stretches of host operations, read at an index: lanes 0..15 layer 1's
  new state (read node-major off its rows), lanes 16..31 the second incoming state; the joined third piece is empty.
-/
noncomputable section
namespace Cert.KernelIdeal.HostVal
open Cert.KernelIdeal Cert.KernelIdeal.Gen
open Idealize.ShloMosaic Idealize.ShloMosaic.TcCoe Idealize.ShloMosaic.StableHlo Idealize.ShloMosaic.ValueIdx
open Cert.HostLib Cert.SpecRef Cert.SpecKer

variable (W : Valuation τ sig (Elt Ideal))

set_option maxHeartbeats 4000000 in
/-- Layer 2's gate features: node n, column `b * 32 + c`. -/
theorem G2_v63 (n : Fin 4096) (b : Fin 8) (c : Fin 32) :
    (G2 W (Proc.devRef .tc main_v63) : S4096x256.Idx → EReal) (ix2 n (lane32 b c))
      = featK1 (fun n b u => (W (Proc.devRef .tc main_v39) : S32768x16.Idx → EReal) (ix2 (row8 n b) u))
          (hxK (hidOf W) 1) n b c := by
  simp only [G2, hostOps7, hostOps7_1, hostOps7_2, hostOps7_3, hostOps7_4]
  after_results3
  refine (sc_merge_mid (B := 8) (C := 32) (by norm_num) _ _ n b c (lane32 b c) rfl).trans ?_
  unfold featK1
  by_cases h1 : c.val < 16
  · rw [dif_pos h1]
    refine (cat3_last_fst (C1 := 16) (C2 := 16) (C3 := 0) (by norm_num) _ _ _ _ n b c h1).trans ?_
    exact sc_split_lead _ _ n b (⟨c.val, h1⟩ : Fin 16) (row8 n b) rfl
  · have h2 : c.val < 16 + 16 := c.isLt
    rw [dif_neg h1]
    refine (cat3_last_snd (C1 := 16) (C2 := 16) (C3 := 0) (by norm_num) _ _ _ _ n b c h1 h2).trans ?_
    show (transpose S4096x8x16 [1, 0, 2]
        (shapeCast S8x4096x16
          (shapeCast S8x65536
            (extractStridedSlice S1x8x65536 ![1, 0, 0] (W (Proc.devRef .tc main_arg1) : S2x8x65536.Idx → EReal)
              slices_S2x8x65536_S1x8x65536_1_0_0)
            shapeCasts_S1x8x65536_S8x65536)
          shapeCasts_S8x65536_S8x4096x16)
        transposes_S8x4096x16_S4096x8x16_1_0_2 : S4096x8x16.Idx → EReal) (ix3 n b (⟨c.val - 16, by omega⟩ : Fin 16)) = _
    refine (transpose_102_apply _ _ n b (⟨c.val - 16, by omega⟩ : Fin 16)).trans ?_
    refine (sc_split_mid (B := 4096) (C := 16) (by norm_num) _ _ b n (⟨c.val - 16, by omega⟩ : Fin 16) (flat16 n ⟨c.val - 16, by omega⟩) rfl).trans ?_
    refine (shapeCast_1ab_ab_apply _ _ b (flat16 n ⟨c.val - 16, by omega⟩)).trans ?_
    refine (slice3_first_apply 1 _ _ (0 : Fin 1) b (flat16 n ⟨c.val - 16, by omega⟩) (1 : Fin 2) rfl).trans ?_
    rfl

end Cert.KernelIdeal.HostVal
end
-- ==== Proof.Reg7Value.lean ====
import proofs.«172830_g53506702573898_cont_9to1_m_1152_4_alg».proof.Proof.Reg7Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz7 : (![0, 0] : Fin 2 → Nat) = fun _ => 0 := funext fun a => by fin_cases a <;> rfl

/-! # Region 7: what the output array holds after the region, at any `F` -/

/-- Case B (points 1 to 6): over the output buffer's running contents `xo` the body leaves the accumulation step
    `k7_pay2` of the three input blocks it multiplies — its one covering store's payload, its loads reading whole buffers. -/
theorem out7_B (c : Dev nD) (i : grid7.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond7_0 i) (hc1 : ¬cond7_1 i) (x0 : Vec F S4096x512 .bf16) (x1 : Vec F S512x256 .f32) (x2 : Vec F S512x1 .f32) (x3 : Vec F S4096x1 .f32) (x4 : Vec F S4096x256 .f32) (xo : Vec F S4096x256 .f32) :
    out7_B_5 c i a1 h1 a2 h2 a3 h3 a4 h4 a5 h5 a6 h6 hc0 hc1 x0 x1 x2 x3 x4 xo = k7_pay2 x1 x2 x0 xo := by
  unfold out7_B_5
  rw [View.read_writes_eq_canon _ _ _ (cover7_B_5 c i a1 h1 a2 h2 a3 h3 a4 h4 a5 h5 a6 h6 hc0 hc1 x0 x1 x2 x3 x4 xo)]
  unfold kernelRun7_B
  dsimp only
  rw [View.canon_unit_zero hz7]
  simp only [View.readAt_eq_ld, h1.read_unread, h2.read_unread, h3.read_unread, h4.read_unread, h5.read_unread, h6.read_unread, View.ld_unit_zero (S := S4096x512) hz7, View.ld_unit_zero (S := S512x256) hz7, View.ld_unit_zero (S := S512x1) hz7, View.ld_unit_zero (S := S4096x1) hz7, View.ld_unit_zero (S := S4096x256) hz7]

/-- Case A (point 0): the body stores the zero block `k7_pay1`, reads it back and leaves the accumulation step over it. -/
theorem out7_A (c : Dev nD) (i : grid7.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond7_0 i) (hc1 : ¬cond7_1 i) (x0 : Vec F S4096x512 .bf16) (x1 : Vec F S512x256 .f32) (x2 : Vec F S512x1 .f32) (x3 : Vec F S4096x1 .f32) (x4 : Vec F S4096x256 .f32) :
    out7_A_5 c i a1 h1 a2 h2 a3 h3 a4 h4 a5 h5 a6 h6 hc0 hc1 x0 x1 x2 x3 x4 = k7_pay2 x1 x2 x0 (k7_pay1 (F := F)) := by
  unfold out7_A_5
  rw [View.read_writes_eq_canon _ _ _ (cover7_A_5 c i a1 h1 a2 h2 a3 h3 a4 h4 a5 h5 a6 h6 hc0 hc1 x0 x1 x2 x3 x4)]
  unfold kernelRun7_A
  dsimp only
  sl_unfold_words
  rw [View.canon_cons_unit_zero (S := S4096x256) hz7, View.readCov_unit_zero (S := S4096x256) _ hz7]
  simp only [View.readAt_eq_ld, h1.read_unread, h2.read_unread, h3.read_unread, h4.read_unread, h5.read_unread, h6.read_unread, View.ld_unit_zero (S := S4096x512) hz7, View.ld_unit_zero (S := S512x256) hz7, View.ld_unit_zero (S := S512x1) hz7, View.ld_unit_zero (S := S4096x1) hz7, View.ld_unit_zero (S := S4096x256) hz7]

/-- Case C (point 7): the body leaves the accumulation step over `xo`, reads it back and leaves the final scaling
    `k7_pay3` of it by window 3's block, with window 4's block added in. -/
theorem out7_C (c : Dev nD) (i : grid7.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond7_0 i) (hc1 : cond7_1 i) (x0 : Vec F S4096x512 .bf16) (x1 : Vec F S512x256 .f32) (x2 : Vec F S512x1 .f32) (x3 : Vec F S4096x1 .f32) (x4 : Vec F S4096x256 .f32) (xo : Vec F S4096x256 .f32) :
    out7_C_5 c i a1 h1 a2 h2 a3 h3 a4 h4 a5 h5 a6 h6 hc0 hc1 x0 x1 x2 x3 x4 xo = k7_pay3 x3 (k7_pay2 x1 x2 x0 xo) x4 := by
  unfold out7_C_5
  rw [View.read_writes_eq_canon _ _ _ (cover7_C_5 c i a1 h1 a2 h2 a3 h3 a4 h4 a5 h5 a6 h6 hc0 hc1 x0 x1 x2 x3 x4 xo)]
  unfold kernelRun7_C
  dsimp only
  sl_unfold_words
  rw [View.canon_cons_unit_zero (S := S4096x256) hz7, View.readCov_unit_zero (S := S4096x256) _ hz7]
  simp only [View.readAt_eq_ld, h1.read_unread, h2.read_unread, h3.read_unread, h4.read_unread, h5.read_unread, h6.read_unread, View.ld_unit_zero (S := S4096x512) hz7, View.ld_unit_zero (S := S512x256) hz7, View.ld_unit_zero (S := S512x1) hz7, View.ld_unit_zero (S := S4096x1) hz7, View.ld_unit_zero (S := S4096x256) hz7]

section Regions
variable (V : (c : Dev nD) → (b : Ref sig .tc) → Buf (Elt F) ((c : Thread nD τ).loc b))

/-- The ORDERED accumulation after point `n`: the step `k7_pay2` over the zero block at point 0, then over the point before. -/
def acc7 (c : Dev nD) : (n : ℕ) → n < cfg7.N → Vec F S4096x256 .f32
  | 0, h => k7_pay2 (iblk7 V c 1 ⟨0, h⟩) (iblk7 V c 2 ⟨0, h⟩) (iblk7 V c 0 ⟨0, h⟩) (k7_pay1 (F := F))
  | n + 1, h => k7_pay2 (iblk7 V c 1 ⟨n + 1, h⟩) (iblk7 V c 2 ⟨n + 1, h⟩) (iblk7 V c 0 ⟨n + 1, h⟩) (acc7 c n (Nat.lt_of_succ_lt h))

/-- Before the last point the output's staging buffer holds the accumulation — by induction on the point. -/
theorem outsAt7_eq_acc (c : Dev nD) : ∀ (n : ℕ) (h : n < cfg7.N), ¬n % 8 = 7 → outsAt7 V c n h = acc7 V c n h
  | 0, h, _ => (outsAt7_A V c ⟨0, h⟩ rfl (show ¬ (0 % 8 = 7) by decide)).trans (out7_A ..)
  | n + 1, h, h7 => by
    have hN : cfg7.N = 8 := N_7
    have h0 : ¬(⟨n + 1, h⟩ : Fin cfg7.N).val % 8 = 0 := by dsimp only; omega
    rw [outsAt7_B V c ⟨n + 1, h⟩ h0 h7, out7_B]
    show k7_pay2 _ _ _ (outsAt7 V c n _) = k7_pay2 _ _ _ (acc7 V c n _)
    rw [outsAt7_eq_acc c n _ (by omega)]

/-- After the last point it holds the final scaling of the whole accumulation. -/
theorem outsAt7_last (c : Dev nD) :
    outsAt7 V c t7_7.val t7_7.isLt = k7_pay3 (iblk7 V c 3 t7_7) (acc7 V c t7_7.val t7_7.isLt) (iblk7 V c 4 t7_7) := by
  have hN : cfg7.N = 8 := N_7
  rw [outsAt7_C V c t7_7 (by decide) (by decide), out7_C]
  exact congrArg (fun z => k7_pay3 (iblk7 V c 3 t7_7) (k7_pay2 (iblk7 V c 1 t7_7) (iblk7 V c 2 t7_7) (iblk7 V c 0 t7_7) z) (iblk7 V c 4 t7_7))
    (outsAt7_eq_acc V c (t7_7.val - 1) _ (by decide))

/-- The result: the final scaling of the accumulation over the 8 points, as contents of the result array (its one block is
    the array). -/
abbrev result7 (c : Dev nD) : Buf (Elt F) ((c : Thread nD τ).loc main_v64) :=
  k7_pay3 (iblk7 V c 3 t7_7) (acc7 V c t7_7.val t7_7.isLt) (iblk7 V c 4 t7_7)

/-- The one write-back, at point 7, writes it: block (0, 0) of the [4096,256] array read through zero offsets is the array. -/
theorem flushed_eq7 (c : Dev nD) (t : Fin cfg7.N) (hf : (cfg7.win 5).flush t = true) :
    (dat7 V c).flushed 5 t = ((cfg7.win 5).blk t).view.read (Elt F) (result7 V c) := by
  have hN : cfg7.N = 8 := N_7
  have h7 : t.val = 7 := by have := (flush7_5 t).mp hf; have := t.isLt; omega
  obtain rfl : t = t7_7 := Fin.ext h7
  show (cfg7.win 5).cut (grid7.coords t7_7) ((dat7 V c).after 5 t7_7) = _
  rw [after7_5, outsAt7_last]
  have hz' : (fun a => win7_5.index t7_7 a * main_v64.ty.shape.size a) = fun _ => 0 := funext fun a => by fin_cases a <;> decide
  exact (Memref.read_access_unit_zero (Elt F) main_v64 hz' (fun a => by rw [congrFun hz' a]; simp) (result7 V c)).symm

/-- So the result array ends holding the final scaling of the accumulation: point 7's write-back covers it. -/
theorem final7 (c : Dev nD) : (dat7 V c).arrAt 5 cfg7.N = result7 V c :=
  (dat7 V c).arrAt_eq_of_cover 5 (result7 V c) (flushed_eq7 V c) fun i =>
    ⟨t7_7, (flush7_5 t7_7).mpr rfl, by
      show i ∈ ((View.whole main_v64).slice (win7_5.rect t7_7)).set
      rw [View.set_slice_whole, Rect.mem_set_unit]
      intro a
      have h0 : (i 0 : Nat) < 4096 := (i 0).isLt
      have h1 : (i 1 : Nat) < 256 := (i 1).isLt
      match a with
      | ⟨0, _⟩ => show win7_5.index t7_7 0 * win7_5.size 0 ≤ (i 0 : Nat) ∧ (i 0 : Nat) < win7_5.index t7_7 0 * win7_5.size 0 + win7_5.xsize (grid7.coords t7_7) 0
                  rw [show win7_5.index t7_7 0 * win7_5.size 0 = 0 from by decide +kernel, show win7_5.xsize (grid7.coords t7_7) 0 = 4096 from by decide +kernel]; omega
      | ⟨1, _⟩ => show win7_5.index t7_7 1 * win7_5.size 1 ≤ (i 1 : Nat) ∧ (i 1 : Nat) < win7_5.index t7_7 1 * win7_5.size 1 + win7_5.xsize (grid7.coords t7_7) 1
                  rw [show win7_5.index t7_7 1 * win7_5.size 1 = 0 from by decide +kernel, show win7_5.xsize (grid7.coords t7_7) 1 = 256 from by decide +kernel]; omega⟩

end Regions

end Cert.KernelIdeal.Reg

end
-- ==== Proof.Reg7ValueIdeal.lean ====
import proofs.«172830_g53506702573898_cont_9to1_m_1152_4_alg».proof.Proof.Reg7Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk7_0_eq_slice (c : Dev nD) (t : Fin cfg7.N) (off : Fin 2 → Nat) (hoff : off = ![0, 512 * t.val])
    (h : S4096x4096.Slices off S4096x512) :
    (iblk7 V c 0 t : Vec F S4096x512 .bf16) = extractStridedSlice S4096x512 off (V c main_v0_0) h := by
  subst hoff
  have hi : win7_0.index t 0 = 0 ∧ win7_0.index t 1 = t.val := by
    rcases fin_N7 t with rfl | rfl | rfl | rfl | rfl | rfl | rfl | rfl <;> decide
  funext j
  unfold iblk7 extractStridedSlice
  rw [View.read_apply]
  show V c main_v0_0 _ = V c main_v0_0 _
  congr 1
  funext a
  apply Fin.ext
  match a with
  | ⟨0, _⟩ => show win7_0.index t 0 * 4096 + 1 * (j 0).val = 0 + (j 0).val; rw [hi.1]; omega
  | ⟨1, _⟩ => show win7_0.index t 1 * 512 + 1 * (j 1).val = 512 * t.val + (j 1).val; rw [hi.2]; omega

/-- Window 1's block at point `t` is the slice of its array at the block's offset. -/
theorem iblk7_1_eq_slice (c : Dev nD) (t : Fin cfg7.N) (off : Fin 2 → Nat) (hoff : off = ![512 * t.val, 0])
    (h : S4096x256.Slices off S512x256) :
    (iblk7 V c 1 t : Vec F S512x256 .f32) = extractStridedSlice S512x256 off (V c main_v63) h := by
  subst hoff
  have hi : win7_1.index t 0 = t.val ∧ win7_1.index t 1 = 0 := by
    rcases fin_N7 t with rfl | rfl | rfl | rfl | rfl | rfl | rfl | rfl <;> decide
  funext j
  unfold iblk7 extractStridedSlice
  rw [View.read_apply]
  show V c main_v63 _ = V c main_v63 _
  congr 1
  funext a
  apply Fin.ext
  match a with
  | ⟨0, _⟩ => show win7_1.index t 0 * 512 + 1 * (j 0).val = 512 * t.val + (j 0).val; rw [hi.1]; omega
  | ⟨1, _⟩ => show win7_1.index t 1 * 256 + 1 * (j 1).val = 0 + (j 1).val; rw [hi.2]; omega

/-- Window 2's block at point `t` is the slice of its array at the block's offset. -/
theorem iblk7_2_eq_slice (c : Dev nD) (t : Fin cfg7.N) (off : Fin 2 → Nat) (hoff : off = ![512 * t.val, 0])
    (h : S4096x1.Slices off S512x1) :
    (iblk7 V c 2 t : Vec F S512x1 .f32) = extractStridedSlice S512x1 off (V c main_v0_1) h := by
  subst hoff
  have hi : win7_2.index t 0 = t.val ∧ win7_2.index t 1 = 0 := by
    rcases fin_N7 t with rfl | rfl | rfl | rfl | rfl | rfl | rfl | rfl <;> decide
  funext j
  unfold iblk7 extractStridedSlice
  rw [View.read_apply]
  show V c main_v0_1 _ = V c main_v0_1 _
  congr 1
  funext a
  apply Fin.ext
  match a with
  | ⟨0, _⟩ => show win7_2.index t 0 * 512 + 1 * (j 0).val = 512 * t.val + (j 0).val; rw [hi.1]; omega
  | ⟨1, _⟩ => show win7_2.index t 1 * 1 + 1 * (j 1).val = 0 + (j 1).val; rw [hi.2]; omega

/-- Window 3's block at every point is its whole array. -/
theorem iblk7_3_eq (c : Dev nD) (t : Fin cfg7.N) : (iblk7 V c 3 t : Vec F S4096x1 .f32) = V c main_v0_1 := by
  have hi : win7_3.index t 0 = 0 ∧ win7_3.index t 1 = 0 := by
    rcases fin_N7 t with rfl | rfl | rfl | rfl | rfl | rfl | rfl | rfl <;> decide
  funext j
  unfold iblk7
  rw [View.read_apply]
  show V c main_v0_1 _ = V c main_v0_1 j
  congr 1
  funext a
  apply Fin.ext
  match a with
  | ⟨0, _⟩ => show win7_3.index t 0 * 4096 + 1 * (j 0).val = (j 0).val; rw [hi.1]; omega
  | ⟨1, _⟩ => show win7_3.index t 1 * 1 + 1 * (j 1).val = (j 1).val; rw [hi.2]; omega

/-- Window 4's block at every point is its whole array. -/
theorem iblk7_4_eq (c : Dev nD) (t : Fin cfg7.N) : (iblk7 V c 4 t : Vec F S4096x256 .f32) = V c main_v63 := by
  have hi : win7_4.index t 0 = 0 ∧ win7_4.index t 1 = 0 := by
    rcases fin_N7 t with rfl | rfl | rfl | rfl | rfl | rfl | rfl | rfl <;> decide
  funext j
  unfold iblk7
  rw [View.read_apply]
  show V c main_v63 _ = V c main_v63 j
  congr 1
  funext a
  apply Fin.ext
  match a with
  | ⟨0, _⟩ => show win7_4.index t 0 * 4096 + 1 * (j 0).val = (j 0).val; rw [hi.1]; omega
  | ⟨1, _⟩ => show win7_4.index t 1 * 256 + 1 * (j 1).val = (j 1).val; rw [hi.2]; omega

end Regions

/-! ## The payloads at an index, at the ideal values -/

/-- The bit patterns of the two constants the final scaling multiplies by. -/
abbrev c1Bits7 : BitVec 32 := 0xBF800000#32
abbrev c2Bits7 : BitVec 32 := 0x00000000#32

/-- They denote -1 and 0. -/
theorem c1Bits7_val : Ideal.ofBits .f32 c1Bits7 = ((-1 : ℝ) : EReal) := by
  show Ideal.ofBits .f32 0xBF800000#32 = _
  simp [Ideal.ofBits, Ideal.ieee, -EReal.coe_mul, -EReal.coe_neg]; norm_num
theorem c2Bits7_val : Ideal.ofBits .f32 c2Bits7 = 0 := Ideal.ofBits_zero_f32

/-- The zero block at an index. -/
theorem k7_pay1_apply (j : S4096x256.Idx) : (k7_pay1 (F := Ideal)) j = 0 := by
  unfold k7_pay1
  show Ideal.ofBits .f32 0x00000000#32 = 0
  exact Ideal.ofBits_zero_f32

/-- The accumulation step at an index: the running contents there plus the sum over the contraction index of the left
    block's entry times the right block's entry scaled by its row's entry of the column block. -/
theorem k7_pay2_apply (v0 : Vec Ideal S512x256 .f32) (v2 : Vec Ideal S512x1 .f32) (v7 : Vec Ideal S4096x512 .bf16)
    (v13 : Vec Ideal S4096x256 .f32) (j : S4096x256.Idx) :
    k7_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k7_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k7_pay3_apply (v20 : Vec Ideal S4096x1 .f32) (v24 v28 : Vec Ideal S4096x256 .f32) (j : S4096x256.Idx) :
    k7_pay3 (F := Ideal) v20 v24 v28 j
      = (Ideal.ofBits .f32 c1Bits7 * broadcastTo S4096x256 v20 broadcasts_S4096x1_S4096x256 j) * v24 j
        + Ideal.ofBits .f32 c2Bits7 * v28 j := by
  unfold k7_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk7_0 (c : Dev nD) (t : Fin cfg7.N) : Vec Ideal S4096x512 .bf16 := iblk7 V c 0 t
abbrev blk7_1 (c : Dev nD) (t : Fin cfg7.N) : Vec Ideal S512x256 .f32 := iblk7 V c 1 t
abbrev blk7_2 (c : Dev nD) (t : Fin cfg7.N) : Vec Ideal S512x1 .f32 := iblk7 V c 2 t

/-- Point `n`'s contribution at the output index `j`: the sum over the contraction index of window 0's block entry times
    window 1's block entry scaled by its row's entry of window 2's block. -/
def term7 (c : Dev nD) (n : ℕ) (h : n < cfg7.N) (j : S4096x256.Idx) : Ideal .f32 :=
  ∑ k : dot_S4096x512_S512x256_S4096x256_1_0_0_1_n_n.contr.Idx,
    blk7_0 V c ⟨n, h⟩ (dot_S4096x512_S512x256_S4096x256_1_0_0_1_n_n.lhsIdx j k)
      * (blk7_1 V c ⟨n, h⟩ (dot_S4096x512_S512x256_S4096x256_1_0_0_1_n_n.rhsIdx j k)
          * broadcastTo S512x256 (blk7_2 V c ⟨n, h⟩) broadcasts_S512x1_S512x256 (dot_S4096x512_S512x256_S4096x256_1_0_0_1_n_n.rhsIdx j k))

/-- The ordered sum of the contributions of the points up to `n`, from zero. -/
def fold7 (c : Dev nD) (j : S4096x256.Idx) : (n : ℕ) → n < cfg7.N → Ideal .f32
  | 0, h => 0 + term7 V c 0 h j
  | n + 1, h => fold7 c j n (Nat.lt_of_succ_lt h) + term7 V c (n + 1) h j

/-- The accumulation after point `n`, at an index, is that ordered sum. -/
theorem acc7_apply (c : Dev nD) (j : S4096x256.Idx) : ∀ (n : ℕ) (h : n < cfg7.N), acc7 V c n h j = fold7 V c j n h
  | 0, h => by
    show k7_pay2 (F := Ideal) _ _ _ _ j = _
    rw [k7_pay2_apply, k7_pay1_apply]
    rfl
  | n + 1, h => by
    show k7_pay2 (F := Ideal) _ _ _ (acc7 V c n _) j = _
    rw [k7_pay2_apply, acc7_apply c j n]
    rfl

/-- THE VALUE. After the region the output array holds, at the index `j`, the first constant times window 3's array
    (a column) at `j`'s row times the ordered sum over the 8 points, plus the second constant times window 4's array at
    `j`. -/
theorem final7_apply (c : Dev nD) (j : S4096x256.Idx) :
    (dat7 V c).arrAt 5 cfg7.N j
      = (Ideal.ofBits .f32 c1Bits7 * broadcastTo S4096x256 (V c main_v0_1) broadcasts_S4096x1_S4096x256 j)
          * fold7 V c j t7_7.val t7_7.isLt
        + Ideal.ofBits .f32 c2Bits7 * V c main_v63 j := by
  rw [final7]
  show k7_pay3 (F := Ideal) _ _ _ j = _
  rw [k7_pay3_apply, acc7_apply, iblk7_3_eq, iblk7_4_eq]

end IdealRegions

end Cert.KernelIdeal.Reg

end
-- ==== Proof.Reg7ValueAt.lean ====
import proofs.«172830_g53506702573898_cont_9to1_m_1152_4_alg».proof.Proof.Reg7ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 7: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax7 (c : Dev nD) (p q : Fin 4096) : EReal := V c main_v0_0 (ix2 p q)
abbrev xin7 (c : Dev nD) (q : Fin 4096) (f : Fin 256) : EReal := V c main_v63 (ix2 q f)
abbrev dis7 (c : Dev nD) (p : Fin 4096) : EReal := V c main_v0_1 (ix2 p (0 : Fin 1))
abbrev zin7 (c : Dev nD) (p : Fin 4096) (f : Fin 256) : EReal := V c main_v63 (ix2 p f)

/-- Window 0's block at point `t`, at row `p` and column `k`, is the matrix at row `p` and column `k` of column block `t`. -/
theorem blk7_0_at (c : Dev nD) (t : Fin cfg7.N) (b : Fin 8) (hb : b.val = t.val) (p : Fin 4096) (k : Fin 512) :
    blk7_0 V c t (ix2 p k) = amax7 V c p (blk b k) := by
  have hi : win7_0.index t 0 = 0 ∧ win7_0.index t 1 = t.val := by
    rcases fin_N7 t with rfl | rfl | rfl | rfl | rfl | rfl | rfl | rfl <;> decide
  unfold blk7_0 amax7 iblk7
  rw [View.read_apply]
  show V c main_v0_0 _ = V c main_v0_0 _
  congr 1
  funext a
  apply Fin.ext
  match a with
  | ⟨0, _⟩ => show win7_0.index t 0 * 4096 + 1 * p.val = p.val; rw [hi.1]; omega
  | ⟨1, _⟩ => show win7_0.index t 1 * 512 + 1 * k.val = b.val * 512 + k.val; rw [hi.2, hb]; omega

/-- Window 1's block at point `t`, at row `k` and column `f`, is the operand at row `k` of row block `t`. -/
theorem blk7_1_at (c : Dev nD) (t : Fin cfg7.N) (b : Fin 8) (hb : b.val = t.val) (k : Fin 512) (f : Fin 256) :
    blk7_1 V c t (ix2 k f) = xin7 V c (blk b k) f := by
  have hi : win7_1.index t 0 = t.val ∧ win7_1.index t 1 = 0 := by
    rcases fin_N7 t with rfl | rfl | rfl | rfl | rfl | rfl | rfl | rfl <;> decide
  unfold blk7_1 xin7 iblk7
  rw [View.read_apply]
  show V c main_v63 _ = V c main_v63 _
  congr 1
  funext a
  apply Fin.ext
  match a with
  | ⟨0, _⟩ => show win7_1.index t 0 * 512 + 1 * k.val = b.val * 512 + k.val; rw [hi.1, hb]; omega
  | ⟨1, _⟩ => show win7_1.index t 1 * 256 + 1 * f.val = f.val; rw [hi.2]; omega

/-- Window 2's block at point `t`, at row `k`, is the column at row `k` of row block `t`. -/
theorem blk7_2_at (c : Dev nD) (t : Fin cfg7.N) (b : Fin 8) (hb : b.val = t.val) (k : Fin 512) :
    blk7_2 V c t (ix2 k (0 : Fin 1)) = dis7 V c (blk b k) := by
  have hi : win7_2.index t 0 = t.val ∧ win7_2.index t 1 = 0 := by
    rcases fin_N7 t with rfl | rfl | rfl | rfl | rfl | rfl | rfl | rfl <;> decide
  unfold blk7_2 dis7 iblk7
  rw [View.read_apply]
  show V c main_v0_1 _ = V c main_v0_1 _
  congr 1
  funext a
  apply Fin.ext
  match a with
  | ⟨0, _⟩ => show win7_2.index t 0 * 512 + 1 * k.val = b.val * 512 + k.val; rw [hi.1, hb]; omega
  | ⟨1, _⟩ => show win7_2.index t 1 * 1 + 1 * 0 = 0; rw [hi.2]

/-- Point `b`'s contribution at row `p` and column `f`: the sum over the 512 positions of block `b`. -/
theorem term7_at (c : Dev nD) (b : Fin 8) (h : b.val < cfg7.N) (p : Fin 4096) (f : Fin 256) :
    term7 V c b.val h (ix2 p f)
      = ∑ k : Fin 512, amax7 V c p (blk b k) * (xin7 V c (blk b k) f * dis7 V c (blk b k)) := by
  unfold term7
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk7_2 V c ⟨b.val, h⟩) broadcasts_S512x1_S512x256 (ix2 k f)
      = blk7_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk7_0_at V c ⟨b.val, h⟩ b rfl, blk7_1_at V c ⟨b.val, h⟩ b rfl, blk7_2_at V c ⟨b.val, h⟩ b rfl]

/-- The ordered sum over the 8 points is the sum over the 8 blocks. -/
theorem fold7_eq_sum (c : Dev nD) (j : S4096x256.Idx) :
    fold7 V c j t7_7.val t7_7.isLt = ∑ b : Fin 8, term7 V c b.val (lt_of_lt_of_eq b.isLt N_7.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final7_at (c : Dev nD) (p : Fin 4096) (f : Fin 256) :
    ((dat7 V c).arrAt 5 cfg7.N (ix2 p f) : EReal)
      = (-1 : EReal) * dis7 V c p
          * (∑ j : Fin 8, ∑ k : Fin 512, amax7 V c p (blk j k) * (xin7 V c (blk j k) f * dis7 V c (blk j k)))
        + (0 : EReal) * zin7 V c p f := by
  have hbc : broadcastTo S4096x256 (V c main_v0_1) broadcasts_S4096x1_S4096x256 (ix2 p f) = dis7 V c p :=
    broadcastTo_apply _ _ (ix2 p f) (ix2 p (0 : Fin 1)) fun a => by
      match a with
      | ⟨0, _⟩ => rfl
      | ⟨1, _⟩ => rfl
  rw [final7_apply, hbc, fold7_eq_sum, c1Bits7_val, ← Alg.neg_one_eq, c2Bits7_val]
  simp only [term7_at]

end IdealRegions

end Cert.KernelIdeal.Reg

end
-- ==== Proof.Reg8Value.lean ====
import proofs.«172830_g53506702573898_cont_9to1_m_1152_4_alg».proof.Proof.Reg8Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz8 : (![0, 0] : Fin 2 → Nat) = fun _ => 0 := funext fun a => by fin_cases a <;> rfl

/-! # Region 8: what the output array holds after the region, at any `F` -/

/-- Case B (points 1 to 6): over the output buffer's running contents `xo` the body leaves the accumulation step
    `k8_pay2` of the three input blocks it multiplies — its one covering store's payload, its loads reading whole buffers. -/
theorem out8_B (c : Dev nD) (i : grid8.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond8_0 i) (hc1 : ¬cond8_1 i) (x0 : Vec F S4096x512 .bf16) (x1 : Vec F S512x256 .f32) (x2 : Vec F S512x1 .f32) (x3 : Vec F S4096x1 .f32) (x4 : Vec F S4096x256 .f32) (xo : Vec F S4096x256 .f32) :
    out8_B_5 c i a1 h1 a2 h2 a3 h3 a4 h4 a5 h5 a6 h6 hc0 hc1 x0 x1 x2 x3 x4 xo = k8_pay2 x1 x2 x0 xo := by
  unfold out8_B_5
  rw [View.read_writes_eq_canon _ _ _ (cover8_B_5 c i a1 h1 a2 h2 a3 h3 a4 h4 a5 h5 a6 h6 hc0 hc1 x0 x1 x2 x3 x4 xo)]
  unfold kernelRun8_B
  dsimp only
  rw [View.canon_unit_zero hz8]
  simp only [View.readAt_eq_ld, h1.read_unread, h2.read_unread, h3.read_unread, h4.read_unread, h5.read_unread, h6.read_unread, View.ld_unit_zero (S := S4096x512) hz8, View.ld_unit_zero (S := S512x256) hz8, View.ld_unit_zero (S := S512x1) hz8, View.ld_unit_zero (S := S4096x1) hz8, View.ld_unit_zero (S := S4096x256) hz8]

/-- Case A (point 0): the body stores the zero block `k8_pay1`, reads it back and leaves the accumulation step over it. -/
theorem out8_A (c : Dev nD) (i : grid8.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond8_0 i) (hc1 : ¬cond8_1 i) (x0 : Vec F S4096x512 .bf16) (x1 : Vec F S512x256 .f32) (x2 : Vec F S512x1 .f32) (x3 : Vec F S4096x1 .f32) (x4 : Vec F S4096x256 .f32) :
    out8_A_5 c i a1 h1 a2 h2 a3 h3 a4 h4 a5 h5 a6 h6 hc0 hc1 x0 x1 x2 x3 x4 = k8_pay2 x1 x2 x0 (k8_pay1 (F := F)) := by
  unfold out8_A_5
  rw [View.read_writes_eq_canon _ _ _ (cover8_A_5 c i a1 h1 a2 h2 a3 h3 a4 h4 a5 h5 a6 h6 hc0 hc1 x0 x1 x2 x3 x4)]
  unfold kernelRun8_A
  dsimp only
  sl_unfold_words
  rw [View.canon_cons_unit_zero (S := S4096x256) hz8, View.readCov_unit_zero (S := S4096x256) _ hz8]
  simp only [View.readAt_eq_ld, h1.read_unread, h2.read_unread, h3.read_unread, h4.read_unread, h5.read_unread, h6.read_unread, View.ld_unit_zero (S := S4096x512) hz8, View.ld_unit_zero (S := S512x256) hz8, View.ld_unit_zero (S := S512x1) hz8, View.ld_unit_zero (S := S4096x1) hz8, View.ld_unit_zero (S := S4096x256) hz8]

/-- Case C (point 7): the body leaves the accumulation step over `xo`, reads it back and leaves the final scaling
    `k8_pay3` of it by window 3's block, with window 4's block added in. -/
theorem out8_C (c : Dev nD) (i : grid8.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond8_0 i) (hc1 : cond8_1 i) (x0 : Vec F S4096x512 .bf16) (x1 : Vec F S512x256 .f32) (x2 : Vec F S512x1 .f32) (x3 : Vec F S4096x1 .f32) (x4 : Vec F S4096x256 .f32) (xo : Vec F S4096x256 .f32) :
    out8_C_5 c i a1 h1 a2 h2 a3 h3 a4 h4 a5 h5 a6 h6 hc0 hc1 x0 x1 x2 x3 x4 xo = k8_pay3 x3 (k8_pay2 x1 x2 x0 xo) x4 := by
  unfold out8_C_5
  rw [View.read_writes_eq_canon _ _ _ (cover8_C_5 c i a1 h1 a2 h2 a3 h3 a4 h4 a5 h5 a6 h6 hc0 hc1 x0 x1 x2 x3 x4 xo)]
  unfold kernelRun8_C
  dsimp only
  sl_unfold_words
  rw [View.canon_cons_unit_zero (S := S4096x256) hz8, View.readCov_unit_zero (S := S4096x256) _ hz8]
  simp only [View.readAt_eq_ld, h1.read_unread, h2.read_unread, h3.read_unread, h4.read_unread, h5.read_unread, h6.read_unread, View.ld_unit_zero (S := S4096x512) hz8, View.ld_unit_zero (S := S512x256) hz8, View.ld_unit_zero (S := S512x1) hz8, View.ld_unit_zero (S := S4096x1) hz8, View.ld_unit_zero (S := S4096x256) hz8]

section Regions
variable (V : (c : Dev nD) → (b : Ref sig .tc) → Buf (Elt F) ((c : Thread nD τ).loc b))

/-- The ORDERED accumulation after point `n`: the step `k8_pay2` over the zero block at point 0, then over the point before. -/
def acc8 (c : Dev nD) : (n : ℕ) → n < cfg8.N → Vec F S4096x256 .f32
  | 0, h => k8_pay2 (iblk8 V c 1 ⟨0, h⟩) (iblk8 V c 2 ⟨0, h⟩) (iblk8 V c 0 ⟨0, h⟩) (k8_pay1 (F := F))
  | n + 1, h => k8_pay2 (iblk8 V c 1 ⟨n + 1, h⟩) (iblk8 V c 2 ⟨n + 1, h⟩) (iblk8 V c 0 ⟨n + 1, h⟩) (acc8 c n (Nat.lt_of_succ_lt h))

/-- Before the last point the output's staging buffer holds the accumulation — by induction on the point. -/
theorem outsAt8_eq_acc (c : Dev nD) : ∀ (n : ℕ) (h : n < cfg8.N), ¬n % 8 = 7 → outsAt8 V c n h = acc8 V c n h
  | 0, h, _ => (outsAt8_A V c ⟨0, h⟩ rfl (show ¬ (0 % 8 = 7) by decide)).trans (out8_A ..)
  | n + 1, h, h7 => by
    have hN : cfg8.N = 8 := N_8
    have h0 : ¬(⟨n + 1, h⟩ : Fin cfg8.N).val % 8 = 0 := by dsimp only; omega
    rw [outsAt8_B V c ⟨n + 1, h⟩ h0 h7, out8_B]
    show k8_pay2 _ _ _ (outsAt8 V c n _) = k8_pay2 _ _ _ (acc8 V c n _)
    rw [outsAt8_eq_acc c n _ (by omega)]

/-- After the last point it holds the final scaling of the whole accumulation. -/
theorem outsAt8_last (c : Dev nD) :
    outsAt8 V c t8_7.val t8_7.isLt = k8_pay3 (iblk8 V c 3 t8_7) (acc8 V c t8_7.val t8_7.isLt) (iblk8 V c 4 t8_7) := by
  have hN : cfg8.N = 8 := N_8
  rw [outsAt8_C V c t8_7 (by decide) (by decide), out8_C]
  exact congrArg (fun z => k8_pay3 (iblk8 V c 3 t8_7) (k8_pay2 (iblk8 V c 1 t8_7) (iblk8 V c 2 t8_7) (iblk8 V c 0 t8_7) z) (iblk8 V c 4 t8_7))
    (outsAt8_eq_acc V c (t8_7.val - 1) _ (by decide))

/-- The result: the final scaling of the accumulation over the 8 points, as contents of the result array (its one block is
    the array). -/
abbrev result8 (c : Dev nD) : Buf (Elt F) ((c : Thread nD τ).loc main_v65) :=
  k8_pay3 (iblk8 V c 3 t8_7) (acc8 V c t8_7.val t8_7.isLt) (iblk8 V c 4 t8_7)

/-- The one write-back, at point 7, writes it: block (0, 0) of the [4096,256] array read through zero offsets is the array. -/
theorem flushed_eq8 (c : Dev nD) (t : Fin cfg8.N) (hf : (cfg8.win 5).flush t = true) :
    (dat8 V c).flushed 5 t = ((cfg8.win 5).blk t).view.read (Elt F) (result8 V c) := by
  have hN : cfg8.N = 8 := N_8
  have h7 : t.val = 7 := by have := (flush8_5 t).mp hf; have := t.isLt; omega
  obtain rfl : t = t8_7 := Fin.ext h7
  show (cfg8.win 5).cut (grid8.coords t8_7) ((dat8 V c).after 5 t8_7) = _
  rw [after8_5, outsAt8_last]
  have hz' : (fun a => win8_5.index t8_7 a * main_v65.ty.shape.size a) = fun _ => 0 := funext fun a => by fin_cases a <;> decide
  exact (Memref.read_access_unit_zero (Elt F) main_v65 hz' (fun a => by rw [congrFun hz' a]; simp) (result8 V c)).symm

/-- So the result array ends holding the final scaling of the accumulation: point 7's write-back covers it. -/
theorem final8 (c : Dev nD) : (dat8 V c).arrAt 5 cfg8.N = result8 V c :=
  (dat8 V c).arrAt_eq_of_cover 5 (result8 V c) (flushed_eq8 V c) fun i =>
    ⟨t8_7, (flush8_5 t8_7).mpr rfl, by
      show i ∈ ((View.whole main_v65).slice (win8_5.rect t8_7)).set
      rw [View.set_slice_whole, Rect.mem_set_unit]
      intro a
      have h0 : (i 0 : Nat) < 4096 := (i 0).isLt
      have h1 : (i 1 : Nat) < 256 := (i 1).isLt
      match a with
      | ⟨0, _⟩ => show win8_5.index t8_7 0 * win8_5.size 0 ≤ (i 0 : Nat) ∧ (i 0 : Nat) < win8_5.index t8_7 0 * win8_5.size 0 + win8_5.xsize (grid8.coords t8_7) 0
                  rw [show win8_5.index t8_7 0 * win8_5.size 0 = 0 from by decide +kernel, show win8_5.xsize (grid8.coords t8_7) 0 = 4096 from by decide +kernel]; omega
      | ⟨1, _⟩ => show win8_5.index t8_7 1 * win8_5.size 1 ≤ (i 1 : Nat) ∧ (i 1 : Nat) < win8_5.index t8_7 1 * win8_5.size 1 + win8_5.xsize (grid8.coords t8_7) 1
                  rw [show win8_5.index t8_7 1 * win8_5.size 1 = 0 from by decide +kernel, show win8_5.xsize (grid8.coords t8_7) 1 = 256 from by decide +kernel]; omega⟩

end Regions

end Cert.KernelIdeal.Reg

end
-- ==== Proof.Reg8ValueIdeal.lean ====
import proofs.«172830_g53506702573898_cont_9to1_m_1152_4_alg».proof.Proof.Reg8Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk8_0_eq_slice (c : Dev nD) (t : Fin cfg8.N) (off : Fin 2 → Nat) (hoff : off = ![0, 512 * t.val])
    (h : S4096x4096.Slices off S4096x512) :
    (iblk8 V c 0 t : Vec F S4096x512 .bf16) = extractStridedSlice S4096x512 off (V c main_v0_0) h := by
  subst hoff
  have hi : win8_0.index t 0 = 0 ∧ win8_0.index t 1 = t.val := by
    rcases fin_N8 t with rfl | rfl | rfl | rfl | rfl | rfl | rfl | rfl <;> decide
  funext j
  unfold iblk8 extractStridedSlice
  rw [View.read_apply]
  show V c main_v0_0 _ = V c main_v0_0 _
  congr 1
  funext a
  apply Fin.ext
  match a with
  | ⟨0, _⟩ => show win8_0.index t 0 * 4096 + 1 * (j 0).val = 0 + (j 0).val; rw [hi.1]; omega
  | ⟨1, _⟩ => show win8_0.index t 1 * 512 + 1 * (j 1).val = 512 * t.val + (j 1).val; rw [hi.2]; omega

/-- Window 1's block at point `t` is the slice of its array at the block's offset. -/
theorem iblk8_1_eq_slice (c : Dev nD) (t : Fin cfg8.N) (off : Fin 2 → Nat) (hoff : off = ![512 * t.val, 0])
    (h : S4096x256.Slices off S512x256) :
    (iblk8 V c 1 t : Vec F S512x256 .f32) = extractStridedSlice S512x256 off (V c main_v64) h := by
  subst hoff
  have hi : win8_1.index t 0 = t.val ∧ win8_1.index t 1 = 0 := by
    rcases fin_N8 t with rfl | rfl | rfl | rfl | rfl | rfl | rfl | rfl <;> decide
  funext j
  unfold iblk8 extractStridedSlice
  rw [View.read_apply]
  show V c main_v64 _ = V c main_v64 _
  congr 1
  funext a
  apply Fin.ext
  match a with
  | ⟨0, _⟩ => show win8_1.index t 0 * 512 + 1 * (j 0).val = 512 * t.val + (j 0).val; rw [hi.1]; omega
  | ⟨1, _⟩ => show win8_1.index t 1 * 256 + 1 * (j 1).val = 0 + (j 1).val; rw [hi.2]; omega

/-- Window 2's block at point `t` is the slice of its array at the block's offset. -/
theorem iblk8_2_eq_slice (c : Dev nD) (t : Fin cfg8.N) (off : Fin 2 → Nat) (hoff : off = ![512 * t.val, 0])
    (h : S4096x1.Slices off S512x1) :
    (iblk8 V c 2 t : Vec F S512x1 .f32) = extractStridedSlice S512x1 off (V c main_v0_1) h := by
  subst hoff
  have hi : win8_2.index t 0 = t.val ∧ win8_2.index t 1 = 0 := by
    rcases fin_N8 t with rfl | rfl | rfl | rfl | rfl | rfl | rfl | rfl <;> decide
  funext j
  unfold iblk8 extractStridedSlice
  rw [View.read_apply]
  show V c main_v0_1 _ = V c main_v0_1 _
  congr 1
  funext a
  apply Fin.ext
  match a with
  | ⟨0, _⟩ => show win8_2.index t 0 * 512 + 1 * (j 0).val = 512 * t.val + (j 0).val; rw [hi.1]; omega
  | ⟨1, _⟩ => show win8_2.index t 1 * 1 + 1 * (j 1).val = 0 + (j 1).val; rw [hi.2]; omega

/-- Window 3's block at every point is its whole array. -/
theorem iblk8_3_eq (c : Dev nD) (t : Fin cfg8.N) : (iblk8 V c 3 t : Vec F S4096x1 .f32) = V c main_v0_1 := by
  have hi : win8_3.index t 0 = 0 ∧ win8_3.index t 1 = 0 := by
    rcases fin_N8 t with rfl | rfl | rfl | rfl | rfl | rfl | rfl | rfl <;> decide
  funext j
  unfold iblk8
  rw [View.read_apply]
  show V c main_v0_1 _ = V c main_v0_1 j
  congr 1
  funext a
  apply Fin.ext
  match a with
  | ⟨0, _⟩ => show win8_3.index t 0 * 4096 + 1 * (j 0).val = (j 0).val; rw [hi.1]; omega
  | ⟨1, _⟩ => show win8_3.index t 1 * 1 + 1 * (j 1).val = (j 1).val; rw [hi.2]; omega

/-- Window 4's block at every point is its whole array. -/
theorem iblk8_4_eq (c : Dev nD) (t : Fin cfg8.N) : (iblk8 V c 4 t : Vec F S4096x256 .f32) = V c main_v63 := by
  have hi : win8_4.index t 0 = 0 ∧ win8_4.index t 1 = 0 := by
    rcases fin_N8 t with rfl | rfl | rfl | rfl | rfl | rfl | rfl | rfl <;> decide
  funext j
  unfold iblk8
  rw [View.read_apply]
  show V c main_v63 _ = V c main_v63 j
  congr 1
  funext a
  apply Fin.ext
  match a with
  | ⟨0, _⟩ => show win8_4.index t 0 * 4096 + 1 * (j 0).val = (j 0).val; rw [hi.1]; omega
  | ⟨1, _⟩ => show win8_4.index t 1 * 256 + 1 * (j 1).val = (j 1).val; rw [hi.2]; omega

end Regions

/-! ## The payloads at an index, at the ideal values -/

/-- The bit patterns of the two constants the final scaling multiplies by. -/
abbrev c1Bits8 : BitVec 32 := 0xC0000000#32
abbrev c2Bits8 : BitVec 32 := 0xBF800000#32

/-- They denote -2 and -1. -/
theorem c1Bits8_val : Ideal.ofBits .f32 c1Bits8 = ((-2 : ℝ) : EReal) := by
  show Ideal.ofBits .f32 0xC0000000#32 = _
  simp [Ideal.ofBits, Ideal.ieee, -EReal.coe_mul, -EReal.coe_neg]; norm_num
theorem c2Bits8_val : Ideal.ofBits .f32 c2Bits8 = ((-1 : ℝ) : EReal) := by
  show Ideal.ofBits .f32 0xBF800000#32 = _
  simp [Ideal.ofBits, Ideal.ieee, -EReal.coe_mul, -EReal.coe_neg]; norm_num

/-- The zero block at an index. -/
theorem k8_pay1_apply (j : S4096x256.Idx) : (k8_pay1 (F := Ideal)) j = 0 := by
  unfold k8_pay1
  show Ideal.ofBits .f32 0x00000000#32 = 0
  exact Ideal.ofBits_zero_f32

/-- The accumulation step at an index: the running contents there plus the sum over the contraction index of the left
    block's entry times the right block's entry scaled by its row's entry of the column block. -/
theorem k8_pay2_apply (v0 : Vec Ideal S512x256 .f32) (v2 : Vec Ideal S512x1 .f32) (v7 : Vec Ideal S4096x512 .bf16)
    (v13 : Vec Ideal S4096x256 .f32) (j : S4096x256.Idx) :
    k8_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k8_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k8_pay3_apply (v20 : Vec Ideal S4096x1 .f32) (v24 v28 : Vec Ideal S4096x256 .f32) (j : S4096x256.Idx) :
    k8_pay3 (F := Ideal) v20 v24 v28 j
      = (Ideal.ofBits .f32 c1Bits8 * broadcastTo S4096x256 v20 broadcasts_S4096x1_S4096x256 j) * v24 j
        + Ideal.ofBits .f32 c2Bits8 * v28 j := by
  unfold k8_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk8_0 (c : Dev nD) (t : Fin cfg8.N) : Vec Ideal S4096x512 .bf16 := iblk8 V c 0 t
abbrev blk8_1 (c : Dev nD) (t : Fin cfg8.N) : Vec Ideal S512x256 .f32 := iblk8 V c 1 t
abbrev blk8_2 (c : Dev nD) (t : Fin cfg8.N) : Vec Ideal S512x1 .f32 := iblk8 V c 2 t

/-- Point `n`'s contribution at the output index `j`: the sum over the contraction index of window 0's block entry times
    window 1's block entry scaled by its row's entry of window 2's block. -/
def term8 (c : Dev nD) (n : ℕ) (h : n < cfg8.N) (j : S4096x256.Idx) : Ideal .f32 :=
  ∑ k : dot_S4096x512_S512x256_S4096x256_1_0_0_1_n_n.contr.Idx,
    blk8_0 V c ⟨n, h⟩ (dot_S4096x512_S512x256_S4096x256_1_0_0_1_n_n.lhsIdx j k)
      * (blk8_1 V c ⟨n, h⟩ (dot_S4096x512_S512x256_S4096x256_1_0_0_1_n_n.rhsIdx j k)
          * broadcastTo S512x256 (blk8_2 V c ⟨n, h⟩) broadcasts_S512x1_S512x256 (dot_S4096x512_S512x256_S4096x256_1_0_0_1_n_n.rhsIdx j k))

/-- The ordered sum of the contributions of the points up to `n`, from zero. -/
def fold8 (c : Dev nD) (j : S4096x256.Idx) : (n : ℕ) → n < cfg8.N → Ideal .f32
  | 0, h => 0 + term8 V c 0 h j
  | n + 1, h => fold8 c j n (Nat.lt_of_succ_lt h) + term8 V c (n + 1) h j

/-- The accumulation after point `n`, at an index, is that ordered sum. -/
theorem acc8_apply (c : Dev nD) (j : S4096x256.Idx) : ∀ (n : ℕ) (h : n < cfg8.N), acc8 V c n h j = fold8 V c j n h
  | 0, h => by
    show k8_pay2 (F := Ideal) _ _ _ _ j = _
    rw [k8_pay2_apply, k8_pay1_apply]
    rfl
  | n + 1, h => by
    show k8_pay2 (F := Ideal) _ _ _ (acc8 V c n _) j = _
    rw [k8_pay2_apply, acc8_apply c j n]
    rfl

/-- THE VALUE. After the region the output array holds, at the index `j`, the first constant times window 3's array
    (a column) at `j`'s row times the ordered sum over the 8 points, plus the second constant times window 4's array at
    `j`. -/
theorem final8_apply (c : Dev nD) (j : S4096x256.Idx) :
    (dat8 V c).arrAt 5 cfg8.N j
      = (Ideal.ofBits .f32 c1Bits8 * broadcastTo S4096x256 (V c main_v0_1) broadcasts_S4096x1_S4096x256 j)
          * fold8 V c j t8_7.val t8_7.isLt
        + Ideal.ofBits .f32 c2Bits8 * V c main_v63 j := by
  rw [final8]
  show k8_pay3 (F := Ideal) _ _ _ j = _
  rw [k8_pay3_apply, acc8_apply, iblk8_3_eq, iblk8_4_eq]

end IdealRegions

end Cert.KernelIdeal.Reg

end
-- ==== Proof.Reg8ValueAt.lean ====
import proofs.«172830_g53506702573898_cont_9to1_m_1152_4_alg».proof.Proof.Reg8ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 8: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax8 (c : Dev nD) (p q : Fin 4096) : EReal := V c main_v0_0 (ix2 p q)
abbrev xin8 (c : Dev nD) (q : Fin 4096) (f : Fin 256) : EReal := V c main_v64 (ix2 q f)
abbrev dis8 (c : Dev nD) (p : Fin 4096) : EReal := V c main_v0_1 (ix2 p (0 : Fin 1))
abbrev zin8 (c : Dev nD) (p : Fin 4096) (f : Fin 256) : EReal := V c main_v63 (ix2 p f)

/-- Window 0's block at point `t`, at row `p` and column `k`, is the matrix at row `p` and column `k` of column block `t`. -/
theorem blk8_0_at (c : Dev nD) (t : Fin cfg8.N) (b : Fin 8) (hb : b.val = t.val) (p : Fin 4096) (k : Fin 512) :
    blk8_0 V c t (ix2 p k) = amax8 V c p (blk b k) := by
  have hi : win8_0.index t 0 = 0 ∧ win8_0.index t 1 = t.val := by
    rcases fin_N8 t with rfl | rfl | rfl | rfl | rfl | rfl | rfl | rfl <;> decide
  unfold blk8_0 amax8 iblk8
  rw [View.read_apply]
  show V c main_v0_0 _ = V c main_v0_0 _
  congr 1
  funext a
  apply Fin.ext
  match a with
  | ⟨0, _⟩ => show win8_0.index t 0 * 4096 + 1 * p.val = p.val; rw [hi.1]; omega
  | ⟨1, _⟩ => show win8_0.index t 1 * 512 + 1 * k.val = b.val * 512 + k.val; rw [hi.2, hb]; omega

/-- Window 1's block at point `t`, at row `k` and column `f`, is the operand at row `k` of row block `t`. -/
theorem blk8_1_at (c : Dev nD) (t : Fin cfg8.N) (b : Fin 8) (hb : b.val = t.val) (k : Fin 512) (f : Fin 256) :
    blk8_1 V c t (ix2 k f) = xin8 V c (blk b k) f := by
  have hi : win8_1.index t 0 = t.val ∧ win8_1.index t 1 = 0 := by
    rcases fin_N8 t with rfl | rfl | rfl | rfl | rfl | rfl | rfl | rfl <;> decide
  unfold blk8_1 xin8 iblk8
  rw [View.read_apply]
  show V c main_v64 _ = V c main_v64 _
  congr 1
  funext a
  apply Fin.ext
  match a with
  | ⟨0, _⟩ => show win8_1.index t 0 * 512 + 1 * k.val = b.val * 512 + k.val; rw [hi.1, hb]; omega
  | ⟨1, _⟩ => show win8_1.index t 1 * 256 + 1 * f.val = f.val; rw [hi.2]; omega

/-- Window 2's block at point `t`, at row `k`, is the column at row `k` of row block `t`. -/
theorem blk8_2_at (c : Dev nD) (t : Fin cfg8.N) (b : Fin 8) (hb : b.val = t.val) (k : Fin 512) :
    blk8_2 V c t (ix2 k (0 : Fin 1)) = dis8 V c (blk b k) := by
  have hi : win8_2.index t 0 = t.val ∧ win8_2.index t 1 = 0 := by
    rcases fin_N8 t with rfl | rfl | rfl | rfl | rfl | rfl | rfl | rfl <;> decide
  unfold blk8_2 dis8 iblk8
  rw [View.read_apply]
  show V c main_v0_1 _ = V c main_v0_1 _
  congr 1
  funext a
  apply Fin.ext
  match a with
  | ⟨0, _⟩ => show win8_2.index t 0 * 512 + 1 * k.val = b.val * 512 + k.val; rw [hi.1, hb]; omega
  | ⟨1, _⟩ => show win8_2.index t 1 * 1 + 1 * 0 = 0; rw [hi.2]

/-- Point `b`'s contribution at row `p` and column `f`: the sum over the 512 positions of block `b`. -/
theorem term8_at (c : Dev nD) (b : Fin 8) (h : b.val < cfg8.N) (p : Fin 4096) (f : Fin 256) :
    term8 V c b.val h (ix2 p f)
      = ∑ k : Fin 512, amax8 V c p (blk b k) * (xin8 V c (blk b k) f * dis8 V c (blk b k)) := by
  unfold term8
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk8_2 V c ⟨b.val, h⟩) broadcasts_S512x1_S512x256 (ix2 k f)
      = blk8_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk8_0_at V c ⟨b.val, h⟩ b rfl, blk8_1_at V c ⟨b.val, h⟩ b rfl, blk8_2_at V c ⟨b.val, h⟩ b rfl]

/-- The ordered sum over the 8 points is the sum over the 8 blocks. -/
theorem fold8_eq_sum (c : Dev nD) (j : S4096x256.Idx) :
    fold8 V c j t8_7.val t8_7.isLt = ∑ b : Fin 8, term8 V c b.val (lt_of_lt_of_eq b.isLt N_8.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final8_at (c : Dev nD) (p : Fin 4096) (f : Fin 256) :
    ((dat8 V c).arrAt 5 cfg8.N (ix2 p f) : EReal)
      = (-2 : EReal) * dis8 V c p
          * (∑ j : Fin 8, ∑ k : Fin 512, amax8 V c p (blk j k) * (xin8 V c (blk j k) f * dis8 V c (blk j k)))
        + (-1 : EReal) * zin8 V c p f := by
  have hbc : broadcastTo S4096x256 (V c main_v0_1) broadcasts_S4096x1_S4096x256 (ix2 p f) = dis8 V c p :=
    broadcastTo_apply _ _ (ix2 p f) (ix2 p (0 : Fin 1)) fun a => by
      match a with
      | ⟨0, _⟩ => rfl
      | ⟨1, _⟩ => rfl
  rw [final8_apply, hbc, fold8_eq_sum, c1Bits8_val, ← Alg.neg_two_eq, c2Bits8_val, ← Alg.neg_one_eq]
  simp only [term8_at]

end IdealRegions

end Cert.KernelIdeal.Reg

end
-- ==== Proof.Reg9Val.lean ====
import proofs.«172830_g53506702573898_cont_9to1_m_1152_4_alg».proof.Proof.Reg3Val
import proofs.«172830_g53506702573898_cont_9to1_m_1152_4_alg».proof.Proof.Reg9Body
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The gate region at the ideal values: what its two stores hold, element by element

Both stores are the logistic of a bias row plus three [4096, 32] x [32, 16] products added in turn; the first is then
multiplied by the hidden block. -/

/-- The m-th [1, 32, 16] slice of a [3, 32, 16] weight stack, at (0, c, u). -/
theorem ld9w0_apply (x : Vec Ideal S3x32x16 .f32) (c : Fin 32) (u : Fin 16) : View.ld x r9_w0 (ix3 0 c u) = x (ix3 0 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld9w1_apply (x : Vec Ideal S3x32x16 .f32) (c : Fin 32) (u : Fin 16) : View.ld x r9_w1 (ix3 0 c u) = x (ix3 1 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld9w2_apply (x : Vec Ideal S3x32x16 .f32) (c : Fin 32) (u : Fin 16) : View.ld x r9_w2 (ix3 0 c u) = x (ix3 2 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))

/-! ## The payloads at an index -/

/-- The first two steps of the first pre-activation: bias plus the first two products. -/
theorem k9_pay5_apply (v0 : Vec Ideal S1x16 .f32) (v4 v16 : Vec Ideal S4096x32 .f32) (v6 v18 : Vec Ideal S1x32x16 .f32)
    (p : Fin 4096) (u : Fin 16) :
    k9_pay5 v0 v4 v6 v16 v18 (ix2 p u)
      = (v0 (ix2 0 u) + ∑ c : Fin 32, v4 (ix2 p c) * v6 (ix3 0 c u)) + ∑ c : Fin 32, v16 (ix2 p c) * v18 (ix3 0 c u) := by
  unfold k9_pay5 k9_pay3 k9_pay4
  simp only [shapeCast_self]
  rw [addf_apply, addf_apply, mmw_apply, mmw_apply, brow_apply]

/-- The same for the second pre-activation. -/
theorem k9_pay6_apply (v2 : Vec Ideal S1x16 .f32) (v4 v16 : Vec Ideal S4096x32 .f32) (v11 v22 : Vec Ideal S1x32x16 .f32)
    (p : Fin 4096) (u : Fin 16) :
    k9_pay6 v2 v4 v11 v16 v22 (ix2 p u)
      = (v2 (ix2 0 u) + ∑ c : Fin 32, v4 (ix2 p c) * v11 (ix3 0 c u)) + ∑ c : Fin 32, v16 (ix2 p c) * v22 (ix3 0 c u) := by
  unfold k9_pay6 k9_pay3 k9_pay4
  simp only [shapeCast_self]
  rw [addf_apply, addf_apply, mmw_apply, mmw_apply, brow_apply]

/-- The first store's payload: logistic of the pre-activation plus the third product, times the hidden block. -/
theorem k9_pay2_apply (v21 : FVec Ideal S4096x16 .f32) (v27 : FVec Ideal S4096x32 .f32) (v29 : FVec Ideal S32x16 .f32)
    (v38 : Vec Ideal S4096x16 .f32) (p : Fin 4096) (u : Fin 16) :
    k9_pay2 v21 v27 v29 v38 (ix2 p u)
      = Ideal.logistic (v21 (ix2 p u) + ∑ c : Fin 32, v27 (ix2 p c) * v29 (ix2 c u)) * v38 (ix2 p u) := by
  unfold k9_pay2
  simp only [shapeCast_self]
  rw [mulf_apply]
  show Ideal.logistic (addf v21 _ (ix2 p u)) * _ = _
  rw [addf_apply, mm32_apply]

/-- The second store's payload: logistic of the pre-activation plus the third product. -/
theorem k9_pay1_apply (v25 : FVec Ideal S4096x16 .f32) (v27 : FVec Ideal S4096x32 .f32) (v32 : Vec Ideal S1x32x16 .f32)
    (p : Fin 4096) (u : Fin 16) :
    k9_pay1 v25 v27 v32 (ix2 p u)
      = Ideal.logistic (v25 (ix2 p u) + ∑ c : Fin 32, v27 (ix2 p c) * v32 (ix3 0 c u)) := by
  unfold k9_pay1
  show Ideal.logistic (addf v25 _ (ix2 p u)) = _
  rw [addf_apply, mmw_apply]

/-! ## The two output buffers after the body, at an index -/

/-- THE FIRST OUTPUT (reset gate times hidden state) at row `p`, unit `u`. -/
theorem out9_8_apply (x0 x1 x2 : Vec Ideal S4096x32 .f32) (x3 : Vec Ideal S3x32x16 .f32) (x5 : Vec Ideal S1x16 .f32)
    (x7 : Vec Ideal S4096x16 .f32) (p : Fin 4096) (u : Fin 16) :
    out9_8 x0 x1 x2 x3 x5 x7 (ix2 p u)
      = Ideal.logistic (((x5 (ix2 0 u) + ∑ c : Fin 32, x0 (ix2 p c) * x3 (ix3 0 c u))
          + ∑ c : Fin 32, x1 (ix2 p c) * x3 (ix3 1 c u)) + ∑ c : Fin 32, x2 (ix2 p c) * x3 (ix3 2 c u)) * x7 (ix2 p u) := by
  unfold out9_8
  rw [View.canon_unit_zero hz2]
  simp only [View.ld_unit_zero (S := S4096x32) hz2, View.ld_unit_zero (S := S4096x16) hz2, View.ld_unit_zero (S := S1x16) hz2]
  rw [k9_pay2_apply, k9_pay5_apply]
  unfold k9_pay7 k9_pay8
  simp only [shapeCast_self]
  refine congrArg (fun s => Ideal.logistic s * x7 (ix2 p u)) ?_
  exact congrArg₂ (· + ·) (congrArg₂ (· + ·)
      (congrArg (x5 (ix2 0 u) + ·) (Finset.sum_congr rfl fun c _ => congrArg (x0 (ix2 p c) * ·) (ld9w0_apply x3 c u)))
      (Finset.sum_congr rfl fun c _ => congrArg (x1 (ix2 p c) * ·) (ld9w1_apply x3 c u)))
    (Finset.sum_congr rfl fun c _ => congrArg (x2 (ix2 p c) * ·) ((wcast_apply _ c u).trans (ld9w2_apply x3 c u)))

/-- THE SECOND OUTPUT (update gate) at row `p`, unit `u`. -/
theorem out9_9_apply (x0 x1 x2 : Vec Ideal S4096x32 .f32) (x4 : Vec Ideal S3x32x16 .f32) (x6 : Vec Ideal S1x16 .f32)
    (p : Fin 4096) (u : Fin 16) :
    out9_9 x0 x1 x2 x4 x6 (ix2 p u)
      = Ideal.logistic (((x6 (ix2 0 u) + ∑ c : Fin 32, x0 (ix2 p c) * x4 (ix3 0 c u))
          + ∑ c : Fin 32, x1 (ix2 p c) * x4 (ix3 1 c u)) + ∑ c : Fin 32, x2 (ix2 p c) * x4 (ix3 2 c u)) := by
  unfold out9_9
  rw [View.canon_unit_zero hz2]
  simp only [View.ld_unit_zero (S := S4096x32) hz2, View.ld_unit_zero (S := S4096x16) hz2, View.ld_unit_zero (S := S1x16) hz2]
  rw [k9_pay1_apply, k9_pay6_apply]
  unfold k9_pay7
  simp only [shapeCast_self]
  refine congrArg Ideal.logistic ?_
  exact congrArg₂ (· + ·) (congrArg₂ (· + ·)
      (congrArg (x6 (ix2 0 u) + ·) (Finset.sum_congr rfl fun c _ => congrArg (x0 (ix2 p c) * ·) (ld9w0_apply x4 c u)))
      (Finset.sum_congr rfl fun c _ => congrArg (x1 (ix2 p c) * ·) (ld9w1_apply x4 c u)))
    (Finset.sum_congr rfl fun c _ => congrArg (x2 (ix2 p c) * ·) (ld9w2_apply x4 c u))

end Cert.KernelIdeal.Reg

end
-- ==== Proof.Reg9Val2.lean ====
import proofs.«172830_g53506702573898_cont_9to1_m_1152_4_alg».proof.Proof.Reg9Val
import proofs.«172830_g53506702573898_cont_9to1_m_1152_4_alg».proof.Proof.Reg9Data

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

variable (V : (c : Dev nD) → (b : Ref sig .tc) → Buf (Elt Ideal) ((c : Thread nD τ).loc b))

/-! # The gate region at the ideal values: from the blocks to the two output arrays

Point `t` of the 8-point grid handles rows 4096·t … 4096·t + 4095; the weight stacks and bias rows are single blocks. -/

theorem idx9_0 : ∀ t : Fin cfg9.N, win9_0.index t 0 = t.val ∧ win9_0.index t 1 = 0 :=
  (by decide +kernel : ∀ t : Fin grid9.N, win9_0.index t 0 = t.val ∧ win9_0.index t 1 = 0)
theorem idx9_1 : ∀ t : Fin cfg9.N, win9_1.index t 0 = t.val ∧ win9_1.index t 1 = 0 :=
  (by decide +kernel : ∀ t : Fin grid9.N, win9_1.index t 0 = t.val ∧ win9_1.index t 1 = 0)
theorem idx9_2 : ∀ t : Fin cfg9.N, win9_2.index t 0 = t.val ∧ win9_2.index t 1 = 0 :=
  (by decide +kernel : ∀ t : Fin grid9.N, win9_2.index t 0 = t.val ∧ win9_2.index t 1 = 0)
theorem idx9_3 : ∀ t : Fin cfg9.N, win9_3.index t 0 = 0 ∧ win9_3.index t 1 = 0 ∧ win9_3.index t 2 = 0 :=
  (by decide +kernel : ∀ t : Fin grid9.N, win9_3.index t 0 = 0 ∧ win9_3.index t 1 = 0 ∧ win9_3.index t 2 = 0)
theorem idx9_4 : ∀ t : Fin cfg9.N, win9_4.index t 0 = 0 ∧ win9_4.index t 1 = 0 ∧ win9_4.index t 2 = 0 :=
  (by decide +kernel : ∀ t : Fin grid9.N, win9_4.index t 0 = 0 ∧ win9_4.index t 1 = 0 ∧ win9_4.index t 2 = 0)
theorem idx9_5 : ∀ t : Fin cfg9.N, win9_5.index t 0 = 0 ∧ win9_5.index t 1 = 0 :=
  (by decide +kernel : ∀ t : Fin grid9.N, win9_5.index t 0 = 0 ∧ win9_5.index t 1 = 0)
theorem idx9_6 : ∀ t : Fin cfg9.N, win9_6.index t 0 = 0 ∧ win9_6.index t 1 = 0 :=
  (by decide +kernel : ∀ t : Fin grid9.N, win9_6.index t 0 = 0 ∧ win9_6.index t 1 = 0)
theorem idx9_7 : ∀ t : Fin cfg9.N, win9_7.index t 0 = t.val ∧ win9_7.index t 1 = 0 :=
  (by decide +kernel : ∀ t : Fin grid9.N, win9_7.index t 0 = t.val ∧ win9_7.index t 1 = 0)
theorem idx9_8 : ∀ t : Fin cfg9.N, win9_8.index t 0 = t.val ∧ win9_8.index t 1 = 0 :=
  (by decide +kernel : ∀ t : Fin grid9.N, win9_8.index t 0 = t.val ∧ win9_8.index t 1 = 0)
theorem idx9_9 : ∀ t : Fin cfg9.N, win9_9.index t 0 = t.val ∧ win9_9.index t 1 = 0 :=
  (by decide +kernel : ∀ t : Fin grid9.N, win9_9.index t 0 = t.val ∧ win9_9.index t 1 = 0)

theorem xsize9_8 : ∀ t : Fin cfg9.N, win9_8.xsize (grid9.coords t) 0 = 4096 ∧ win9_8.xsize (grid9.coords t) 1 = 16 :=
  (by decide +kernel : ∀ t : Fin grid9.N, win9_8.xsize (grid9.coords t) 0 = 4096 ∧ win9_8.xsize (grid9.coords t) 1 = 16)
theorem xsize9_9 : ∀ t : Fin cfg9.N, win9_9.xsize (grid9.coords t) 0 = 4096 ∧ win9_9.xsize (grid9.coords t) 1 = 16 :=
  (by decide +kernel : ∀ t : Fin grid9.N, win9_9.xsize (grid9.coords t) 0 = 4096 ∧ win9_9.xsize (grid9.coords t) 1 = 16)

/-! ## The input blocks at an index -/

theorem rowblk9_0 (c : Dev nD) (t : Fin cfg9.N) (p : Fin 4096) (cc : Fin 32) (r : Fin 32768)
    (hr : r.val = 4096 * t.val + p.val) :
    (iblk9 V c 0 t : Vec Ideal S4096x32 .f32) (ix2 p cc) = V c main_v66 (ix2 r cc) := by
  have hi := idx9_0 t
  unfold iblk9
  rw [View.read_apply]
  show V c main_v66 _ = V c main_v66 _
  congr 1
  funext a
  apply Fin.ext
  match a with
  | ⟨0, _⟩ => show win9_0.index t 0 * 4096 + 1 * p.val = r.val; rw [hi.1, hr]; omega
  | ⟨1, _⟩ => show win9_0.index t 1 * 32 + 1 * cc.val = cc.val; rw [hi.2]; omega

theorem rowblk9_1 (c : Dev nD) (t : Fin cfg9.N) (p : Fin 4096) (cc : Fin 32) (r : Fin 32768)
    (hr : r.val = 4096 * t.val + p.val) :
    (iblk9 V c 1 t : Vec Ideal S4096x32 .f32) (ix2 p cc) = V c main_v67 (ix2 r cc) := by
  have hi := idx9_1 t
  unfold iblk9
  rw [View.read_apply]
  show V c main_v67 _ = V c main_v67 _
  congr 1
  funext a
  apply Fin.ext
  match a with
  | ⟨0, _⟩ => show win9_1.index t 0 * 4096 + 1 * p.val = r.val; rw [hi.1, hr]; omega
  | ⟨1, _⟩ => show win9_1.index t 1 * 32 + 1 * cc.val = cc.val; rw [hi.2]; omega

theorem rowblk9_2 (c : Dev nD) (t : Fin cfg9.N) (p : Fin 4096) (cc : Fin 32) (r : Fin 32768)
    (hr : r.val = 4096 * t.val + p.val) :
    (iblk9 V c 2 t : Vec Ideal S4096x32 .f32) (ix2 p cc) = V c main_v68 (ix2 r cc) := by
  have hi := idx9_2 t
  unfold iblk9
  rw [View.read_apply]
  show V c main_v68 _ = V c main_v68 _
  congr 1
  funext a
  apply Fin.ext
  match a with
  | ⟨0, _⟩ => show win9_2.index t 0 * 4096 + 1 * p.val = r.val; rw [hi.1, hr]; omega
  | ⟨1, _⟩ => show win9_2.index t 1 * 32 + 1 * cc.val = cc.val; rw [hi.2]; omega

theorem rowblk9_7 (c : Dev nD) (t : Fin cfg9.N) (p : Fin 4096) (cc : Fin 16) (r : Fin 32768)
    (hr : r.val = 4096 * t.val + p.val) :
    (iblk9 V c 7 t : Vec Ideal S4096x16 .f32) (ix2 p cc) = V c main_v60 (ix2 r cc) := by
  have hi := idx9_7 t
  unfold iblk9
  rw [View.read_apply]
  show V c main_v60 _ = V c main_v60 _
  congr 1
  funext a
  apply Fin.ext
  match a with
  | ⟨0, _⟩ => show win9_7.index t 0 * 4096 + 1 * p.val = r.val; rw [hi.1, hr]; omega
  | ⟨1, _⟩ => show win9_7.index t 1 * 16 + 1 * cc.val = cc.val; rw [hi.2]; omega

theorem wblk9_3 (c : Dev nD) (t : Fin cfg9.N) (m : Fin 3) (cc : Fin 32) (u : Fin 16) :
    (iblk9 V c 3 t : Vec Ideal S3x32x16 .f32) (ix3 m cc u) = V c main_v46 (ix3 m cc u) := by
  have hi := idx9_3 t
  unfold iblk9
  rw [View.read_apply]
  show V c main_v46 _ = V c main_v46 _
  congr 1
  funext a
  apply Fin.ext
  match a with
  | ⟨0, _⟩ => show win9_3.index t 0 * 3 + 1 * m.val = m.val; rw [hi.1]; omega
  | ⟨1, _⟩ => show win9_3.index t 1 * 32 + 1 * cc.val = cc.val; rw [hi.2.1]; omega
  | ⟨2, _⟩ => show win9_3.index t 2 * 16 + 1 * u.val = u.val; rw [hi.2.2]; omega

theorem wblk9_4 (c : Dev nD) (t : Fin cfg9.N) (m : Fin 3) (cc : Fin 32) (u : Fin 16) :
    (iblk9 V c 4 t : Vec Ideal S3x32x16 .f32) (ix3 m cc u) = V c main_v47 (ix3 m cc u) := by
  have hi := idx9_4 t
  unfold iblk9
  rw [View.read_apply]
  show V c main_v47 _ = V c main_v47 _
  congr 1
  funext a
  apply Fin.ext
  match a with
  | ⟨0, _⟩ => show win9_4.index t 0 * 3 + 1 * m.val = m.val; rw [hi.1]; omega
  | ⟨1, _⟩ => show win9_4.index t 1 * 32 + 1 * cc.val = cc.val; rw [hi.2.1]; omega
  | ⟨2, _⟩ => show win9_4.index t 2 * 16 + 1 * u.val = u.val; rw [hi.2.2]; omega

theorem bblk9_5 (c : Dev nD) (t : Fin cfg9.N) (z : Fin 1) (u : Fin 16) :
    (iblk9 V c 5 t : Vec Ideal S1x16 .f32) (ix2 z u) = V c main_v49 (ix2 z u) := by
  have hi := idx9_5 t
  unfold iblk9
  rw [View.read_apply]
  show V c main_v49 _ = V c main_v49 _
  congr 1
  funext a
  apply Fin.ext
  match a with
  | ⟨0, _⟩ => show win9_5.index t 0 * 1 + 1 * z.val = z.val; rw [hi.1]; omega
  | ⟨1, _⟩ => show win9_5.index t 1 * 16 + 1 * u.val = u.val; rw [hi.2]; omega

theorem bblk9_6 (c : Dev nD) (t : Fin cfg9.N) (z : Fin 1) (u : Fin 16) :
    (iblk9 V c 6 t : Vec Ideal S1x16 .f32) (ix2 z u) = V c main_v51 (ix2 z u) := by
  have hi := idx9_6 t
  unfold iblk9
  rw [View.read_apply]
  show V c main_v51 _ = V c main_v51 _
  congr 1
  funext a
  apply Fin.ext
  match a with
  | ⟨0, _⟩ => show win9_6.index t 0 * 1 + 1 * z.val = z.val; rw [hi.1]; omega
  | ⟨1, _⟩ => show win9_6.index t 1 * 16 + 1 * u.val = u.val; rw [hi.2]; omega

/-! ## The region's input arrays by coordinates -/

/-- The three diffusion terms at (row, lane), the two weight stacks at (order, lane, unit), the two bias rows at a
    unit, the hidden state at (row, unit): the arrays as the region finds them. -/
def x9_0 (c : Dev nD) (r : Fin 32768) (cc : Fin 32) : EReal := V c main_v66 (ix2 r cc)
def x9_1 (c : Dev nD) (r : Fin 32768) (cc : Fin 32) : EReal := V c main_v67 (ix2 r cc)
def x9_2 (c : Dev nD) (r : Fin 32768) (cc : Fin 32) : EReal := V c main_v68 (ix2 r cc)
def w9_3 (c : Dev nD) (m : Fin 3) (cc : Fin 32) (u : Fin 16) : EReal := V c main_v46 (ix3 m cc u)
def w9_4 (c : Dev nD) (m : Fin 3) (cc : Fin 32) (u : Fin 16) : EReal := V c main_v47 (ix3 m cc u)
def b9_5 (c : Dev nD) (u : Fin 16) : EReal := V c main_v49 (ix2 0 u)
def b9_6 (c : Dev nD) (u : Fin 16) : EReal := V c main_v51 (ix2 0 u)
def h9_7 (c : Dev nD) (r : Fin 32768) (u : Fin 16) : EReal := V c main_v60 (ix2 r u)

/-! ## The two output arrays -/

/-- The first output array after the region: reset gate times hidden state, row by row. -/
def gateRH9 (c : Dev nD) : Buf (Elt Ideal) ((c : Thread nD τ).loc main_v69_0) := fun k =>
  Ideal.logistic (((b9_5 V c (k 1) + ∑ cc : Fin 32, x9_0 V c (k 0) cc * w9_3 V c 0 cc (k 1))
      + ∑ cc : Fin 32, x9_1 V c (k 0) cc * w9_3 V c 1 cc (k 1))
      + ∑ cc : Fin 32, x9_2 V c (k 0) cc * w9_3 V c 2 cc (k 1)) * h9_7 V c (k 0) (k 1)

/-- The second output array after the region: the update gate. -/
def gateU9 (c : Dev nD) : Buf (Elt Ideal) ((c : Thread nD τ).loc main_v69_1) := fun k =>
  Ideal.logistic (((b9_6 V c (k 1) + ∑ cc : Fin 32, x9_0 V c (k 0) cc * w9_4 V c 0 cc (k 1))
      + ∑ cc : Fin 32, x9_1 V c (k 0) cc * w9_4 V c 1 cc (k 1))
      + ∑ cc : Fin 32, x9_2 V c (k 0) cc * w9_4 V c 2 cc (k 1))

theorem flushed9_8 (c : Dev nD) (t : Fin cfg9.N) (hf : (cfg9.win 8).flush t = true) :
    (dat9 V c).flushed 8 t = ((cfg9.win 8).blk t).view.read (Elt Ideal) (gateRH9 V c) := by
  have hi := idx9_8 t
  show (cfg9.win 8).cut (grid9.coords t) ((dat9 V c).after 8 t) = _
  rw [after9_8]
  refine funext fun (j : S4096x16.Idx) => ?_
  rw [View.read_apply]
  have hp : ((((cfg9.win 8).blk t).view.emb j) 0).val = 4096 * t.val + (j 0).val := by
    show win9_8.index t 0 * 4096 + 1 * (j 0).val = _; rw [hi.1]; omega
  have hu : ((((cfg9.win 8).blk t).view.emb j) 1).val = (j 1).val := by
    show win9_8.index t 1 * 16 + 1 * (j 1).val = _; rw [hi.2]; omega
  generalize (((cfg9.win 8).blk t).view.emb j) = k at hp hu ⊢
  have hk1 : k 1 = j 1 := Fin.ext hu
  have hj := eq_ix2 (n0 := 4096) (n1 := 16) j
  show out9_8 (iblk9 V c 0 t) (iblk9 V c 1 t) (iblk9 V c 2 t) (iblk9 V c 3 t) (iblk9 V c 5 t) (iblk9 V c 7 t) j = gateRH9 V c k
  rw [hj]
  refine (out9_8_apply (iblk9 V c 0 t) (iblk9 V c 1 t) (iblk9 V c 2 t) (iblk9 V c 3 t) (iblk9 V c 5 t) (iblk9 V c 7 t) (j 0) (j 1)).trans ?_
  unfold gateRH9
  rw [hk1]
  exact congrArg₂ (fun s h : EReal => Ideal.logistic s * h)
    (congrArg₂ (fun a b : EReal => a + b) (congrArg₂ (fun a b : EReal => a + b) (congrArg₂ (fun a b : EReal => a + b) (bblk9_5 V c t 0 (j 1))
        (Finset.sum_congr rfl fun cc _ => congrArg₂ (fun a b : EReal => a * b) (rowblk9_0 V c t (j 0) cc (k 0) hp) (wblk9_3 V c t 0 cc (j 1))))
        (Finset.sum_congr rfl fun cc _ => congrArg₂ (fun a b : EReal => a * b) (rowblk9_1 V c t (j 0) cc (k 0) hp) (wblk9_3 V c t 1 cc (j 1))))
        (Finset.sum_congr rfl fun cc _ => congrArg₂ (fun a b : EReal => a * b) (rowblk9_2 V c t (j 0) cc (k 0) hp) (wblk9_3 V c t 2 cc (j 1))))
    (rowblk9_7 V c t (j 0) (j 1) (k 0) hp)

theorem flushed9_9 (c : Dev nD) (t : Fin cfg9.N) (hf : (cfg9.win 9).flush t = true) :
    (dat9 V c).flushed 9 t = ((cfg9.win 9).blk t).view.read (Elt Ideal) (gateU9 V c) := by
  have hi := idx9_9 t
  show (cfg9.win 9).cut (grid9.coords t) ((dat9 V c).after 9 t) = _
  rw [after9_9]
  refine funext fun (j : S4096x16.Idx) => ?_
  rw [View.read_apply]
  have hp : ((((cfg9.win 9).blk t).view.emb j) 0).val = 4096 * t.val + (j 0).val := by
    show win9_9.index t 0 * 4096 + 1 * (j 0).val = _; rw [hi.1]; omega
  have hu : ((((cfg9.win 9).blk t).view.emb j) 1).val = (j 1).val := by
    show win9_9.index t 1 * 16 + 1 * (j 1).val = _; rw [hi.2]; omega
  generalize (((cfg9.win 9).blk t).view.emb j) = k at hp hu ⊢
  have hk1 : k 1 = j 1 := Fin.ext hu
  have hj := eq_ix2 (n0 := 4096) (n1 := 16) j
  show out9_9 (iblk9 V c 0 t) (iblk9 V c 1 t) (iblk9 V c 2 t) (iblk9 V c 4 t) (iblk9 V c 6 t) j = gateU9 V c k
  rw [hj]
  refine (out9_9_apply (iblk9 V c 0 t) (iblk9 V c 1 t) (iblk9 V c 2 t) (iblk9 V c 4 t) (iblk9 V c 6 t) (j 0) (j 1)).trans ?_
  unfold gateU9
  rw [hk1]
  exact congrArg (fun s : EReal => Ideal.logistic s)
    (congrArg₂ (fun a b : EReal => a + b) (congrArg₂ (fun a b : EReal => a + b) (congrArg₂ (fun a b : EReal => a + b) (bblk9_6 V c t 0 (j 1))
        (Finset.sum_congr rfl fun cc _ => congrArg₂ (fun a b : EReal => a * b) (rowblk9_0 V c t (j 0) cc (k 0) hp) (wblk9_4 V c t 0 cc (j 1))))
        (Finset.sum_congr rfl fun cc _ => congrArg₂ (fun a b : EReal => a * b) (rowblk9_1 V c t (j 0) cc (k 0) hp) (wblk9_4 V c t 1 cc (j 1))))
        (Finset.sum_congr rfl fun cc _ => congrArg₂ (fun a b : EReal => a * b) (rowblk9_2 V c t (j 0) cc (k 0) hp) (wblk9_4 V c t 2 cc (j 1))))

/-- THE FIRST OUTPUT ARRAY after the region. -/
theorem arrAt9_8 (c : Dev nD) : (dat9 V c).arrAt 8 cfg9.N = gateRH9 V c :=
  (dat9 V c).arrAt_eq_of_cover 8 (gateRH9 V c) (flushed9_8 V c) fun i => by
    have h0 : (i 0 : Nat) < 32768 := (i 0).isLt
    have h1 : (i 1 : Nat) < 16 := (i 1).isLt
    have hN : cfg9.N = 8 := N_9
    refine ⟨⟨(i 0 : Nat) / 4096, by rw [hN]; omega⟩, flush9_8 _, ?_⟩
    generalize ht : (⟨(i 0 : Nat) / 4096, _⟩ : Fin cfg9.N) = t
    have htv : t.val = (i 0 : Nat) / 4096 := by rw [← ht]
    have hi := idx9_8 t
    have hx := xsize9_8 t
    show i ∈ ((View.whole main_v69_0).slice (win9_8.rect t)).set
    rw [View.set_slice_whole, Rect.mem_set_unit]
    intro a
    match a with
    | ⟨0, _⟩ =>
      show win9_8.index t 0 * win9_8.size 0 ≤ (i 0 : Nat) ∧ (i 0 : Nat) < win9_8.index t 0 * win9_8.size 0 + win9_8.xsize (grid9.coords t) 0
      rw [hi.1, hx.1, show win9_8.size 0 = 4096 from rfl]; omega
    | ⟨1, _⟩ =>
      show win9_8.index t 1 * win9_8.size 1 ≤ (i 1 : Nat) ∧ (i 1 : Nat) < win9_8.index t 1 * win9_8.size 1 + win9_8.xsize (grid9.coords t) 1
      rw [hi.2, hx.2, show win9_8.size 1 = 16 from rfl]; omega

/-- THE SECOND OUTPUT ARRAY after the region. -/
theorem arrAt9_9 (c : Dev nD) : (dat9 V c).arrAt 9 cfg9.N = gateU9 V c :=
  (dat9 V c).arrAt_eq_of_cover 9 (gateU9 V c) (flushed9_9 V c) fun i => by
    have h0 : (i 0 : Nat) < 32768 := (i 0).isLt
    have h1 : (i 1 : Nat) < 16 := (i 1).isLt
    have hN : cfg9.N = 8 := N_9
    refine ⟨⟨(i 0 : Nat) / 4096, by rw [hN]; omega⟩, flush9_9 _, ?_⟩
    generalize ht : (⟨(i 0 : Nat) / 4096, _⟩ : Fin cfg9.N) = t
    have htv : t.val = (i 0 : Nat) / 4096 := by rw [← ht]
    have hi := idx9_9 t
    have hx := xsize9_9 t
    show i ∈ ((View.whole main_v69_1).slice (win9_9.rect t)).set
    rw [View.set_slice_whole, Rect.mem_set_unit]
    intro a
    match a with
    | ⟨0, _⟩ =>
      show win9_9.index t 0 * win9_9.size 0 ≤ (i 0 : Nat) ∧ (i 0 : Nat) < win9_9.index t 0 * win9_9.size 0 + win9_9.xsize (grid9.coords t) 0
      rw [hi.1, hx.1, show win9_9.size 0 = 4096 from rfl]; omega
    | ⟨1, _⟩ =>
      show win9_9.index t 1 * win9_9.size 1 ≤ (i 1 : Nat) ∧ (i 1 : Nat) < win9_9.index t 1 * win9_9.size 1 + win9_9.xsize (grid9.coords t) 1
      rw [hi.2, hx.2, show win9_9.size 1 = 16 from rfl]; omega

/-- The first output array after the region, at row `r` and unit `u`. -/
theorem final9_8_at (c : Dev nD) (r : Fin 32768) (u : Fin 16) :
    (dat9 V c).arrAt 8 cfg9.N (ix2 r u)
      = Ideal.logistic (((b9_5 V c u + ∑ cc : Fin 32, x9_0 V c r cc * w9_3 V c 0 cc u)
          + ∑ cc : Fin 32, x9_1 V c r cc * w9_3 V c 1 cc u) + ∑ cc : Fin 32, x9_2 V c r cc * w9_3 V c 2 cc u) * h9_7 V c r u := by
  rw [arrAt9_8]; rfl

/-- The second output array after the region, at row `r` and unit `u`. -/
theorem final9_9_at (c : Dev nD) (r : Fin 32768) (u : Fin 16) :
    (dat9 V c).arrAt 9 cfg9.N (ix2 r u)
      = Ideal.logistic (((b9_6 V c u + ∑ cc : Fin 32, x9_0 V c r cc * w9_4 V c 0 cc u)
          + ∑ cc : Fin 32, x9_1 V c r cc * w9_4 V c 1 cc u) + ∑ cc : Fin 32, x9_2 V c r cc * w9_4 V c 2 cc u) := by
  rw [arrAt9_9]; rfl

end Cert.KernelIdeal.Reg

end
-- ==== Proof.Reg10Value.lean ====
import proofs.«172830_g53506702573898_cont_9to1_m_1152_4_alg».proof.Proof.Reg10Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz10 : (![0, 0] : Fin 2 → Nat) = fun _ => 0 := funext fun a => by fin_cases a <;> rfl

/-! # Region 10: what the output array holds after the region, at any `F` -/

/-- Case B (points 1 to 6): over the output buffer's running contents `xo` the body leaves the accumulation step
    `k10_pay2` of the three input blocks it multiplies — its one covering store's payload, its loads reading whole buffers. -/
theorem out10_B (c : Dev nD) (i : grid10.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond10_0 i) (hc1 : ¬cond10_1 i) (x0 : Vec F S4096x512 .bf16) (x1 : Vec F S512x256 .f32) (x2 : Vec F S512x1 .f32) (x3 : Vec F S4096x1 .f32) (x4 : Vec F S4096x256 .f32) (xo : Vec F S4096x256 .f32) :
    out10_B_5 c i a1 h1 a2 h2 a3 h3 a4 h4 a5 h5 a6 h6 hc0 hc1 x0 x1 x2 x3 x4 xo = k10_pay2 x1 x2 x0 xo := by
  unfold out10_B_5
  rw [View.read_writes_eq_canon _ _ _ (cover10_B_5 c i a1 h1 a2 h2 a3 h3 a4 h4 a5 h5 a6 h6 hc0 hc1 x0 x1 x2 x3 x4 xo)]
  unfold kernelRun10_B
  dsimp only
  rw [View.canon_unit_zero hz10]
  simp only [View.readAt_eq_ld, h1.read_unread, h2.read_unread, h3.read_unread, h4.read_unread, h5.read_unread, h6.read_unread, View.ld_unit_zero (S := S4096x512) hz10, View.ld_unit_zero (S := S512x256) hz10, View.ld_unit_zero (S := S512x1) hz10, View.ld_unit_zero (S := S4096x1) hz10, View.ld_unit_zero (S := S4096x256) hz10]

/-- Case A (point 0): the body stores the zero block `k10_pay1`, reads it back and leaves the accumulation step over it. -/
theorem out10_A (c : Dev nD) (i : grid10.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond10_0 i) (hc1 : ¬cond10_1 i) (x0 : Vec F S4096x512 .bf16) (x1 : Vec F S512x256 .f32) (x2 : Vec F S512x1 .f32) (x3 : Vec F S4096x1 .f32) (x4 : Vec F S4096x256 .f32) :
    out10_A_5 c i a1 h1 a2 h2 a3 h3 a4 h4 a5 h5 a6 h6 hc0 hc1 x0 x1 x2 x3 x4 = k10_pay2 x1 x2 x0 (k10_pay1 (F := F)) := by
  unfold out10_A_5
  rw [View.read_writes_eq_canon _ _ _ (cover10_A_5 c i a1 h1 a2 h2 a3 h3 a4 h4 a5 h5 a6 h6 hc0 hc1 x0 x1 x2 x3 x4)]
  unfold kernelRun10_A
  dsimp only
  sl_unfold_words
  rw [View.canon_cons_unit_zero (S := S4096x256) hz10, View.readCov_unit_zero (S := S4096x256) _ hz10]
  simp only [View.readAt_eq_ld, h1.read_unread, h2.read_unread, h3.read_unread, h4.read_unread, h5.read_unread, h6.read_unread, View.ld_unit_zero (S := S4096x512) hz10, View.ld_unit_zero (S := S512x256) hz10, View.ld_unit_zero (S := S512x1) hz10, View.ld_unit_zero (S := S4096x1) hz10, View.ld_unit_zero (S := S4096x256) hz10]

/-- Case C (point 7): the body leaves the accumulation step over `xo`, reads it back and leaves the final scaling
    `k10_pay3` of it by window 3's block, with window 4's block added in. -/
theorem out10_C (c : Dev nD) (i : grid10.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond10_0 i) (hc1 : cond10_1 i) (x0 : Vec F S4096x512 .bf16) (x1 : Vec F S512x256 .f32) (x2 : Vec F S512x1 .f32) (x3 : Vec F S4096x1 .f32) (x4 : Vec F S4096x256 .f32) (xo : Vec F S4096x256 .f32) :
    out10_C_5 c i a1 h1 a2 h2 a3 h3 a4 h4 a5 h5 a6 h6 hc0 hc1 x0 x1 x2 x3 x4 xo = k10_pay3 x3 (k10_pay2 x1 x2 x0 xo) x4 := by
  unfold out10_C_5
  rw [View.read_writes_eq_canon _ _ _ (cover10_C_5 c i a1 h1 a2 h2 a3 h3 a4 h4 a5 h5 a6 h6 hc0 hc1 x0 x1 x2 x3 x4 xo)]
  unfold kernelRun10_C
  dsimp only
  sl_unfold_words
  rw [View.canon_cons_unit_zero (S := S4096x256) hz10, View.readCov_unit_zero (S := S4096x256) _ hz10]
  simp only [View.readAt_eq_ld, h1.read_unread, h2.read_unread, h3.read_unread, h4.read_unread, h5.read_unread, h6.read_unread, View.ld_unit_zero (S := S4096x512) hz10, View.ld_unit_zero (S := S512x256) hz10, View.ld_unit_zero (S := S512x1) hz10, View.ld_unit_zero (S := S4096x1) hz10, View.ld_unit_zero (S := S4096x256) hz10]

section Regions
variable (V : (c : Dev nD) → (b : Ref sig .tc) → Buf (Elt F) ((c : Thread nD τ).loc b))

/-- The ORDERED accumulation after point `n`: the step `k10_pay2` over the zero block at point 0, then over the point before. -/
def acc10 (c : Dev nD) : (n : ℕ) → n < cfg10.N → Vec F S4096x256 .f32
  | 0, h => k10_pay2 (iblk10 V c 1 ⟨0, h⟩) (iblk10 V c 2 ⟨0, h⟩) (iblk10 V c 0 ⟨0, h⟩) (k10_pay1 (F := F))
  | n + 1, h => k10_pay2 (iblk10 V c 1 ⟨n + 1, h⟩) (iblk10 V c 2 ⟨n + 1, h⟩) (iblk10 V c 0 ⟨n + 1, h⟩) (acc10 c n (Nat.lt_of_succ_lt h))

/-- Before the last point the output's staging buffer holds the accumulation — by induction on the point. -/
theorem outsAt10_eq_acc (c : Dev nD) : ∀ (n : ℕ) (h : n < cfg10.N), ¬n % 8 = 7 → outsAt10 V c n h = acc10 V c n h
  | 0, h, _ => (outsAt10_A V c ⟨0, h⟩ rfl (show ¬ (0 % 8 = 7) by decide)).trans (out10_A ..)
  | n + 1, h, h7 => by
    have hN : cfg10.N = 8 := N_10
    have h0 : ¬(⟨n + 1, h⟩ : Fin cfg10.N).val % 8 = 0 := by dsimp only; omega
    rw [outsAt10_B V c ⟨n + 1, h⟩ h0 h7, out10_B]
    show k10_pay2 _ _ _ (outsAt10 V c n _) = k10_pay2 _ _ _ (acc10 V c n _)
    rw [outsAt10_eq_acc c n _ (by omega)]

/-- After the last point it holds the final scaling of the whole accumulation. -/
theorem outsAt10_last (c : Dev nD) :
    outsAt10 V c t10_7.val t10_7.isLt = k10_pay3 (iblk10 V c 3 t10_7) (acc10 V c t10_7.val t10_7.isLt) (iblk10 V c 4 t10_7) := by
  have hN : cfg10.N = 8 := N_10
  rw [outsAt10_C V c t10_7 (by decide) (by decide), out10_C]
  exact congrArg (fun z => k10_pay3 (iblk10 V c 3 t10_7) (k10_pay2 (iblk10 V c 1 t10_7) (iblk10 V c 2 t10_7) (iblk10 V c 0 t10_7) z) (iblk10 V c 4 t10_7))
    (outsAt10_eq_acc V c (t10_7.val - 1) _ (by decide))

/-- The result: the final scaling of the accumulation over the 8 points, as contents of the result array (its one block is
    the array). -/
abbrev result10 (c : Dev nD) : Buf (Elt F) ((c : Thread nD τ).loc main_v74) :=
  k10_pay3 (iblk10 V c 3 t10_7) (acc10 V c t10_7.val t10_7.isLt) (iblk10 V c 4 t10_7)

/-- The one write-back, at point 7, writes it: block (0, 0) of the [4096,256] array read through zero offsets is the array. -/
theorem flushed_eq10 (c : Dev nD) (t : Fin cfg10.N) (hf : (cfg10.win 5).flush t = true) :
    (dat10 V c).flushed 5 t = ((cfg10.win 5).blk t).view.read (Elt F) (result10 V c) := by
  have hN : cfg10.N = 8 := N_10
  have h7 : t.val = 7 := by have := (flush10_5 t).mp hf; have := t.isLt; omega
  obtain rfl : t = t10_7 := Fin.ext h7
  show (cfg10.win 5).cut (grid10.coords t10_7) ((dat10 V c).after 5 t10_7) = _
  rw [after10_5, outsAt10_last]
  have hz' : (fun a => win10_5.index t10_7 a * main_v74.ty.shape.size a) = fun _ => 0 := funext fun a => by fin_cases a <;> decide
  exact (Memref.read_access_unit_zero (Elt F) main_v74 hz' (fun a => by rw [congrFun hz' a]; simp) (result10 V c)).symm

/-- So the result array ends holding the final scaling of the accumulation: point 7's write-back covers it. -/
theorem final10 (c : Dev nD) : (dat10 V c).arrAt 5 cfg10.N = result10 V c :=
  (dat10 V c).arrAt_eq_of_cover 5 (result10 V c) (flushed_eq10 V c) fun i =>
    ⟨t10_7, (flush10_5 t10_7).mpr rfl, by
      show i ∈ ((View.whole main_v74).slice (win10_5.rect t10_7)).set
      rw [View.set_slice_whole, Rect.mem_set_unit]
      intro a
      have h0 : (i 0 : Nat) < 4096 := (i 0).isLt
      have h1 : (i 1 : Nat) < 256 := (i 1).isLt
      match a with
      | ⟨0, _⟩ => show win10_5.index t10_7 0 * win10_5.size 0 ≤ (i 0 : Nat) ∧ (i 0 : Nat) < win10_5.index t10_7 0 * win10_5.size 0 + win10_5.xsize (grid10.coords t10_7) 0
                  rw [show win10_5.index t10_7 0 * win10_5.size 0 = 0 from by decide +kernel, show win10_5.xsize (grid10.coords t10_7) 0 = 4096 from by decide +kernel]; omega
      | ⟨1, _⟩ => show win10_5.index t10_7 1 * win10_5.size 1 ≤ (i 1 : Nat) ∧ (i 1 : Nat) < win10_5.index t10_7 1 * win10_5.size 1 + win10_5.xsize (grid10.coords t10_7) 1
                  rw [show win10_5.index t10_7 1 * win10_5.size 1 = 0 from by decide +kernel, show win10_5.xsize (grid10.coords t10_7) 1 = 256 from by decide +kernel]; omega⟩

end Regions

end Cert.KernelIdeal.Reg

end
-- ==== Proof.Reg10ValueIdeal.lean ====
import proofs.«172830_g53506702573898_cont_9to1_m_1152_4_alg».proof.Proof.Reg10Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk10_0_eq_slice (c : Dev nD) (t : Fin cfg10.N) (off : Fin 2 → Nat) (hoff : off = ![0, 512 * t.val])
    (h : S4096x4096.Slices off S4096x512) :
    (iblk10 V c 0 t : Vec F S4096x512 .bf16) = extractStridedSlice S4096x512 off (V c main_v0_0) h := by
  subst hoff
  have hi : win10_0.index t 0 = 0 ∧ win10_0.index t 1 = t.val := by
    rcases fin_N10 t with rfl | rfl | rfl | rfl | rfl | rfl | rfl | rfl <;> decide
  funext j
  unfold iblk10 extractStridedSlice
  rw [View.read_apply]
  show V c main_v0_0 _ = V c main_v0_0 _
  congr 1
  funext a
  apply Fin.ext
  match a with
  | ⟨0, _⟩ => show win10_0.index t 0 * 4096 + 1 * (j 0).val = 0 + (j 0).val; rw [hi.1]; omega
  | ⟨1, _⟩ => show win10_0.index t 1 * 512 + 1 * (j 1).val = 512 * t.val + (j 1).val; rw [hi.2]; omega

/-- Window 1's block at point `t` is the slice of its array at the block's offset. -/
theorem iblk10_1_eq_slice (c : Dev nD) (t : Fin cfg10.N) (off : Fin 2 → Nat) (hoff : off = ![512 * t.val, 0])
    (h : S4096x256.Slices off S512x256) :
    (iblk10 V c 1 t : Vec F S512x256 .f32) = extractStridedSlice S512x256 off (V c main_v73) h := by
  subst hoff
  have hi : win10_1.index t 0 = t.val ∧ win10_1.index t 1 = 0 := by
    rcases fin_N10 t with rfl | rfl | rfl | rfl | rfl | rfl | rfl | rfl <;> decide
  funext j
  unfold iblk10 extractStridedSlice
  rw [View.read_apply]
  show V c main_v73 _ = V c main_v73 _
  congr 1
  funext a
  apply Fin.ext
  match a with
  | ⟨0, _⟩ => show win10_1.index t 0 * 512 + 1 * (j 0).val = 512 * t.val + (j 0).val; rw [hi.1]; omega
  | ⟨1, _⟩ => show win10_1.index t 1 * 256 + 1 * (j 1).val = 0 + (j 1).val; rw [hi.2]; omega

/-- Window 2's block at point `t` is the slice of its array at the block's offset. -/
theorem iblk10_2_eq_slice (c : Dev nD) (t : Fin cfg10.N) (off : Fin 2 → Nat) (hoff : off = ![512 * t.val, 0])
    (h : S4096x1.Slices off S512x1) :
    (iblk10 V c 2 t : Vec F S512x1 .f32) = extractStridedSlice S512x1 off (V c main_v0_1) h := by
  subst hoff
  have hi : win10_2.index t 0 = t.val ∧ win10_2.index t 1 = 0 := by
    rcases fin_N10 t with rfl | rfl | rfl | rfl | rfl | rfl | rfl | rfl <;> decide
  funext j
  unfold iblk10 extractStridedSlice
  rw [View.read_apply]
  show V c main_v0_1 _ = V c main_v0_1 _
  congr 1
  funext a
  apply Fin.ext
  match a with
  | ⟨0, _⟩ => show win10_2.index t 0 * 512 + 1 * (j 0).val = 512 * t.val + (j 0).val; rw [hi.1]; omega
  | ⟨1, _⟩ => show win10_2.index t 1 * 1 + 1 * (j 1).val = 0 + (j 1).val; rw [hi.2]; omega

/-- Window 3's block at every point is its whole array. -/
theorem iblk10_3_eq (c : Dev nD) (t : Fin cfg10.N) : (iblk10 V c 3 t : Vec F S4096x1 .f32) = V c main_v0_1 := by
  have hi : win10_3.index t 0 = 0 ∧ win10_3.index t 1 = 0 := by
    rcases fin_N10 t with rfl | rfl | rfl | rfl | rfl | rfl | rfl | rfl <;> decide
  funext j
  unfold iblk10
  rw [View.read_apply]
  show V c main_v0_1 _ = V c main_v0_1 j
  congr 1
  funext a
  apply Fin.ext
  match a with
  | ⟨0, _⟩ => show win10_3.index t 0 * 4096 + 1 * (j 0).val = (j 0).val; rw [hi.1]; omega
  | ⟨1, _⟩ => show win10_3.index t 1 * 1 + 1 * (j 1).val = (j 1).val; rw [hi.2]; omega

/-- Window 4's block at every point is its whole array. -/
theorem iblk10_4_eq (c : Dev nD) (t : Fin cfg10.N) : (iblk10 V c 4 t : Vec F S4096x256 .f32) = V c main_v73 := by
  have hi : win10_4.index t 0 = 0 ∧ win10_4.index t 1 = 0 := by
    rcases fin_N10 t with rfl | rfl | rfl | rfl | rfl | rfl | rfl | rfl <;> decide
  funext j
  unfold iblk10
  rw [View.read_apply]
  show V c main_v73 _ = V c main_v73 j
  congr 1
  funext a
  apply Fin.ext
  match a with
  | ⟨0, _⟩ => show win10_4.index t 0 * 4096 + 1 * (j 0).val = (j 0).val; rw [hi.1]; omega
  | ⟨1, _⟩ => show win10_4.index t 1 * 256 + 1 * (j 1).val = (j 1).val; rw [hi.2]; omega

end Regions

/-! ## The payloads at an index, at the ideal values -/

/-- The bit patterns of the two constants the final scaling multiplies by. -/
abbrev c1Bits10 : BitVec 32 := 0xBF800000#32
abbrev c2Bits10 : BitVec 32 := 0x00000000#32

/-- They denote -1 and 0. -/
theorem c1Bits10_val : Ideal.ofBits .f32 c1Bits10 = ((-1 : ℝ) : EReal) := by
  show Ideal.ofBits .f32 0xBF800000#32 = _
  simp [Ideal.ofBits, Ideal.ieee, -EReal.coe_mul, -EReal.coe_neg]; norm_num
theorem c2Bits10_val : Ideal.ofBits .f32 c2Bits10 = 0 := Ideal.ofBits_zero_f32

/-- The zero block at an index. -/
theorem k10_pay1_apply (j : S4096x256.Idx) : (k10_pay1 (F := Ideal)) j = 0 := by
  unfold k10_pay1
  show Ideal.ofBits .f32 0x00000000#32 = 0
  exact Ideal.ofBits_zero_f32

/-- The accumulation step at an index: the running contents there plus the sum over the contraction index of the left
    block's entry times the right block's entry scaled by its row's entry of the column block. -/
theorem k10_pay2_apply (v0 : Vec Ideal S512x256 .f32) (v2 : Vec Ideal S512x1 .f32) (v7 : Vec Ideal S4096x512 .bf16)
    (v13 : Vec Ideal S4096x256 .f32) (j : S4096x256.Idx) :
    k10_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k10_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k10_pay3_apply (v20 : Vec Ideal S4096x1 .f32) (v24 v28 : Vec Ideal S4096x256 .f32) (j : S4096x256.Idx) :
    k10_pay3 (F := Ideal) v20 v24 v28 j
      = (Ideal.ofBits .f32 c1Bits10 * broadcastTo S4096x256 v20 broadcasts_S4096x1_S4096x256 j) * v24 j
        + Ideal.ofBits .f32 c2Bits10 * v28 j := by
  unfold k10_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk10_0 (c : Dev nD) (t : Fin cfg10.N) : Vec Ideal S4096x512 .bf16 := iblk10 V c 0 t
abbrev blk10_1 (c : Dev nD) (t : Fin cfg10.N) : Vec Ideal S512x256 .f32 := iblk10 V c 1 t
abbrev blk10_2 (c : Dev nD) (t : Fin cfg10.N) : Vec Ideal S512x1 .f32 := iblk10 V c 2 t

/-- Point `n`'s contribution at the output index `j`: the sum over the contraction index of window 0's block entry times
    window 1's block entry scaled by its row's entry of window 2's block. -/
def term10 (c : Dev nD) (n : ℕ) (h : n < cfg10.N) (j : S4096x256.Idx) : Ideal .f32 :=
  ∑ k : dot_S4096x512_S512x256_S4096x256_1_0_0_1_n_n.contr.Idx,
    blk10_0 V c ⟨n, h⟩ (dot_S4096x512_S512x256_S4096x256_1_0_0_1_n_n.lhsIdx j k)
      * (blk10_1 V c ⟨n, h⟩ (dot_S4096x512_S512x256_S4096x256_1_0_0_1_n_n.rhsIdx j k)
          * broadcastTo S512x256 (blk10_2 V c ⟨n, h⟩) broadcasts_S512x1_S512x256 (dot_S4096x512_S512x256_S4096x256_1_0_0_1_n_n.rhsIdx j k))

/-- The ordered sum of the contributions of the points up to `n`, from zero. -/
def fold10 (c : Dev nD) (j : S4096x256.Idx) : (n : ℕ) → n < cfg10.N → Ideal .f32
  | 0, h => 0 + term10 V c 0 h j
  | n + 1, h => fold10 c j n (Nat.lt_of_succ_lt h) + term10 V c (n + 1) h j

/-- The accumulation after point `n`, at an index, is that ordered sum. -/
theorem acc10_apply (c : Dev nD) (j : S4096x256.Idx) : ∀ (n : ℕ) (h : n < cfg10.N), acc10 V c n h j = fold10 V c j n h
  | 0, h => by
    show k10_pay2 (F := Ideal) _ _ _ _ j = _
    rw [k10_pay2_apply, k10_pay1_apply]
    rfl
  | n + 1, h => by
    show k10_pay2 (F := Ideal) _ _ _ (acc10 V c n _) j = _
    rw [k10_pay2_apply, acc10_apply c j n]
    rfl

/-- THE VALUE. After the region the output array holds, at the index `j`, the first constant times window 3's array
    (a column) at `j`'s row times the ordered sum over the 8 points, plus the second constant times window 4's array at
    `j`. -/
theorem final10_apply (c : Dev nD) (j : S4096x256.Idx) :
    (dat10 V c).arrAt 5 cfg10.N j
      = (Ideal.ofBits .f32 c1Bits10 * broadcastTo S4096x256 (V c main_v0_1) broadcasts_S4096x1_S4096x256 j)
          * fold10 V c j t10_7.val t10_7.isLt
        + Ideal.ofBits .f32 c2Bits10 * V c main_v73 j := by
  rw [final10]
  show k10_pay3 (F := Ideal) _ _ _ j = _
  rw [k10_pay3_apply, acc10_apply, iblk10_3_eq, iblk10_4_eq]

end IdealRegions

end Cert.KernelIdeal.Reg

end
-- ==== Proof.Reg10ValueAt.lean ====
import proofs.«172830_g53506702573898_cont_9to1_m_1152_4_alg».proof.Proof.Reg10ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 10: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax10 (c : Dev nD) (p q : Fin 4096) : EReal := V c main_v0_0 (ix2 p q)
abbrev xin10 (c : Dev nD) (q : Fin 4096) (f : Fin 256) : EReal := V c main_v73 (ix2 q f)
abbrev dis10 (c : Dev nD) (p : Fin 4096) : EReal := V c main_v0_1 (ix2 p (0 : Fin 1))
abbrev zin10 (c : Dev nD) (p : Fin 4096) (f : Fin 256) : EReal := V c main_v73 (ix2 p f)

/-- Window 0's block at point `t`, at row `p` and column `k`, is the matrix at row `p` and column `k` of column block `t`. -/
theorem blk10_0_at (c : Dev nD) (t : Fin cfg10.N) (b : Fin 8) (hb : b.val = t.val) (p : Fin 4096) (k : Fin 512) :
    blk10_0 V c t (ix2 p k) = amax10 V c p (blk b k) := by
  have hi : win10_0.index t 0 = 0 ∧ win10_0.index t 1 = t.val := by
    rcases fin_N10 t with rfl | rfl | rfl | rfl | rfl | rfl | rfl | rfl <;> decide
  unfold blk10_0 amax10 iblk10
  rw [View.read_apply]
  show V c main_v0_0 _ = V c main_v0_0 _
  congr 1
  funext a
  apply Fin.ext
  match a with
  | ⟨0, _⟩ => show win10_0.index t 0 * 4096 + 1 * p.val = p.val; rw [hi.1]; omega
  | ⟨1, _⟩ => show win10_0.index t 1 * 512 + 1 * k.val = b.val * 512 + k.val; rw [hi.2, hb]; omega

/-- Window 1's block at point `t`, at row `k` and column `f`, is the operand at row `k` of row block `t`. -/
theorem blk10_1_at (c : Dev nD) (t : Fin cfg10.N) (b : Fin 8) (hb : b.val = t.val) (k : Fin 512) (f : Fin 256) :
    blk10_1 V c t (ix2 k f) = xin10 V c (blk b k) f := by
  have hi : win10_1.index t 0 = t.val ∧ win10_1.index t 1 = 0 := by
    rcases fin_N10 t with rfl | rfl | rfl | rfl | rfl | rfl | rfl | rfl <;> decide
  unfold blk10_1 xin10 iblk10
  rw [View.read_apply]
  show V c main_v73 _ = V c main_v73 _
  congr 1
  funext a
  apply Fin.ext
  match a with
  | ⟨0, _⟩ => show win10_1.index t 0 * 512 + 1 * k.val = b.val * 512 + k.val; rw [hi.1, hb]; omega
  | ⟨1, _⟩ => show win10_1.index t 1 * 256 + 1 * f.val = f.val; rw [hi.2]; omega

/-- Window 2's block at point `t`, at row `k`, is the column at row `k` of row block `t`. -/
theorem blk10_2_at (c : Dev nD) (t : Fin cfg10.N) (b : Fin 8) (hb : b.val = t.val) (k : Fin 512) :
    blk10_2 V c t (ix2 k (0 : Fin 1)) = dis10 V c (blk b k) := by
  have hi : win10_2.index t 0 = t.val ∧ win10_2.index t 1 = 0 := by
    rcases fin_N10 t with rfl | rfl | rfl | rfl | rfl | rfl | rfl | rfl <;> decide
  unfold blk10_2 dis10 iblk10
  rw [View.read_apply]
  show V c main_v0_1 _ = V c main_v0_1 _
  congr 1
  funext a
  apply Fin.ext
  match a with
  | ⟨0, _⟩ => show win10_2.index t 0 * 512 + 1 * k.val = b.val * 512 + k.val; rw [hi.1, hb]; omega
  | ⟨1, _⟩ => show win10_2.index t 1 * 1 + 1 * 0 = 0; rw [hi.2]

/-- Point `b`'s contribution at row `p` and column `f`: the sum over the 512 positions of block `b`. -/
theorem term10_at (c : Dev nD) (b : Fin 8) (h : b.val < cfg10.N) (p : Fin 4096) (f : Fin 256) :
    term10 V c b.val h (ix2 p f)
      = ∑ k : Fin 512, amax10 V c p (blk b k) * (xin10 V c (blk b k) f * dis10 V c (blk b k)) := by
  unfold term10
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk10_2 V c ⟨b.val, h⟩) broadcasts_S512x1_S512x256 (ix2 k f)
      = blk10_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk10_0_at V c ⟨b.val, h⟩ b rfl, blk10_1_at V c ⟨b.val, h⟩ b rfl, blk10_2_at V c ⟨b.val, h⟩ b rfl]

/-- The ordered sum over the 8 points is the sum over the 8 blocks. -/
theorem fold10_eq_sum (c : Dev nD) (j : S4096x256.Idx) :
    fold10 V c j t10_7.val t10_7.isLt = ∑ b : Fin 8, term10 V c b.val (lt_of_lt_of_eq b.isLt N_10.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final10_at (c : Dev nD) (p : Fin 4096) (f : Fin 256) :
    ((dat10 V c).arrAt 5 cfg10.N (ix2 p f) : EReal)
      = (-1 : EReal) * dis10 V c p
          * (∑ j : Fin 8, ∑ k : Fin 512, amax10 V c p (blk j k) * (xin10 V c (blk j k) f * dis10 V c (blk j k)))
        + (0 : EReal) * zin10 V c p f := by
  have hbc : broadcastTo S4096x256 (V c main_v0_1) broadcasts_S4096x1_S4096x256 (ix2 p f) = dis10 V c p :=
    broadcastTo_apply _ _ (ix2 p f) (ix2 p (0 : Fin 1)) fun a => by
      match a with
      | ⟨0, _⟩ => rfl
      | ⟨1, _⟩ => rfl
  rw [final10_apply, hbc, fold10_eq_sum, c1Bits10_val, ← Alg.neg_one_eq, c2Bits10_val]
  simp only [term10_at]

end IdealRegions

end Cert.KernelIdeal.Reg

end
-- ==== Proof.Reg11Value.lean ====
import proofs.«172830_g53506702573898_cont_9to1_m_1152_4_alg».proof.Proof.Reg11Frame
import Idealize.ShloMosaic.Lib.Pipeline.Value
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz11 : (![0, 0] : Fin 2 → Nat) = fun _ => 0 := funext fun a => by fin_cases a <;> rfl

/-! # Region 11: what the output array holds after the region, at any `F` -/

/-- Case B (points 1 to 6): over the output buffer's running contents `xo` the body leaves the accumulation step
    `k11_pay2` of the three input blocks it multiplies — its one covering store's payload, its loads reading whole buffers. -/
theorem out11_B (c : Dev nD) (i : grid11.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond11_0 i) (hc1 : ¬cond11_1 i) (x0 : Vec F S4096x512 .bf16) (x1 : Vec F S512x256 .f32) (x2 : Vec F S512x1 .f32) (x3 : Vec F S4096x1 .f32) (x4 : Vec F S4096x256 .f32) (xo : Vec F S4096x256 .f32) :
    out11_B_5 c i a1 h1 a2 h2 a3 h3 a4 h4 a5 h5 a6 h6 hc0 hc1 x0 x1 x2 x3 x4 xo = k11_pay2 x1 x2 x0 xo := by
  unfold out11_B_5
  rw [View.read_writes_eq_canon _ _ _ (cover11_B_5 c i a1 h1 a2 h2 a3 h3 a4 h4 a5 h5 a6 h6 hc0 hc1 x0 x1 x2 x3 x4 xo)]
  unfold kernelRun11_B
  dsimp only
  rw [View.canon_unit_zero hz11]
  simp only [View.readAt_eq_ld, h1.read_unread, h2.read_unread, h3.read_unread, h4.read_unread, h5.read_unread, h6.read_unread, View.ld_unit_zero (S := S4096x512) hz11, View.ld_unit_zero (S := S512x256) hz11, View.ld_unit_zero (S := S512x1) hz11, View.ld_unit_zero (S := S4096x1) hz11, View.ld_unit_zero (S := S4096x256) hz11]

/-- Case A (point 0): the body stores the zero block `k11_pay1`, reads it back and leaves the accumulation step over it. -/
theorem out11_A (c : Dev nD) (i : grid11.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : cond11_0 i) (hc1 : ¬cond11_1 i) (x0 : Vec F S4096x512 .bf16) (x1 : Vec F S512x256 .f32) (x2 : Vec F S512x1 .f32) (x3 : Vec F S4096x1 .f32) (x4 : Vec F S4096x256 .f32) :
    out11_A_5 c i a1 h1 a2 h2 a3 h3 a4 h4 a5 h5 a6 h6 hc0 hc1 x0 x1 x2 x3 x4 = k11_pay2 x1 x2 x0 (k11_pay1 (F := F)) := by
  unfold out11_A_5
  rw [View.read_writes_eq_canon _ _ _ (cover11_A_5 c i a1 h1 a2 h2 a3 h3 a4 h4 a5 h5 a6 h6 hc0 hc1 x0 x1 x2 x3 x4)]
  unfold kernelRun11_A
  dsimp only
  sl_unfold_words
  rw [View.canon_cons_unit_zero (S := S4096x256) hz11, View.readCov_unit_zero (S := S4096x256) _ hz11]
  simp only [View.readAt_eq_ld, h1.read_unread, h2.read_unread, h3.read_unread, h4.read_unread, h5.read_unread, h6.read_unread, View.ld_unit_zero (S := S4096x512) hz11, View.ld_unit_zero (S := S512x256) hz11, View.ld_unit_zero (S := S512x1) hz11, View.ld_unit_zero (S := S4096x1) hz11, View.ld_unit_zero (S := S4096x256) hz11]

/-- Case C (point 7): the body leaves the accumulation step over `xo`, reads it back and leaves the final scaling
    `k11_pay3` of it by window 3's block, with window 4's block added in. -/
theorem out11_C (c : Dev nD) (i : grid11.Coords) (a1 : Memref sig .tc .vmem S4096x512 .bf16) (h1 : a1.IsWhole) (a2 : Memref sig .tc .vmem S512x256 .f32) (h2 : a2.IsWhole) (a3 : Memref sig .tc .vmem S512x1 .f32) (h3 : a3.IsWhole) (a4 : Memref sig .tc .vmem S4096x1 .f32) (h4 : a4.IsWhole) (a5 : Memref sig .tc .vmem S4096x256 .f32) (h5 : a5.IsWhole) (a6 : Memref sig .tc .vmem S4096x256 .f32) (h6 : a6.IsWhole) (hc0 : ¬cond11_0 i) (hc1 : cond11_1 i) (x0 : Vec F S4096x512 .bf16) (x1 : Vec F S512x256 .f32) (x2 : Vec F S512x1 .f32) (x3 : Vec F S4096x1 .f32) (x4 : Vec F S4096x256 .f32) (xo : Vec F S4096x256 .f32) :
    out11_C_5 c i a1 h1 a2 h2 a3 h3 a4 h4 a5 h5 a6 h6 hc0 hc1 x0 x1 x2 x3 x4 xo = k11_pay3 x3 (k11_pay2 x1 x2 x0 xo) x4 := by
  unfold out11_C_5
  rw [View.read_writes_eq_canon _ _ _ (cover11_C_5 c i a1 h1 a2 h2 a3 h3 a4 h4 a5 h5 a6 h6 hc0 hc1 x0 x1 x2 x3 x4 xo)]
  unfold kernelRun11_C
  dsimp only
  sl_unfold_words
  rw [View.canon_cons_unit_zero (S := S4096x256) hz11, View.readCov_unit_zero (S := S4096x256) _ hz11]
  simp only [View.readAt_eq_ld, h1.read_unread, h2.read_unread, h3.read_unread, h4.read_unread, h5.read_unread, h6.read_unread, View.ld_unit_zero (S := S4096x512) hz11, View.ld_unit_zero (S := S512x256) hz11, View.ld_unit_zero (S := S512x1) hz11, View.ld_unit_zero (S := S4096x1) hz11, View.ld_unit_zero (S := S4096x256) hz11]

section Regions
variable (V : (c : Dev nD) → (b : Ref sig .tc) → Buf (Elt F) ((c : Thread nD τ).loc b))

/-- The ORDERED accumulation after point `n`: the step `k11_pay2` over the zero block at point 0, then over the point before. -/
def acc11 (c : Dev nD) : (n : ℕ) → n < cfg11.N → Vec F S4096x256 .f32
  | 0, h => k11_pay2 (iblk11 V c 1 ⟨0, h⟩) (iblk11 V c 2 ⟨0, h⟩) (iblk11 V c 0 ⟨0, h⟩) (k11_pay1 (F := F))
  | n + 1, h => k11_pay2 (iblk11 V c 1 ⟨n + 1, h⟩) (iblk11 V c 2 ⟨n + 1, h⟩) (iblk11 V c 0 ⟨n + 1, h⟩) (acc11 c n (Nat.lt_of_succ_lt h))

/-- Before the last point the output's staging buffer holds the accumulation — by induction on the point. -/
theorem outsAt11_eq_acc (c : Dev nD) : ∀ (n : ℕ) (h : n < cfg11.N), ¬n % 8 = 7 → outsAt11 V c n h = acc11 V c n h
  | 0, h, _ => (outsAt11_A V c ⟨0, h⟩ rfl (show ¬ (0 % 8 = 7) by decide)).trans (out11_A ..)
  | n + 1, h, h7 => by
    have hN : cfg11.N = 8 := N_11
    have h0 : ¬(⟨n + 1, h⟩ : Fin cfg11.N).val % 8 = 0 := by dsimp only; omega
    rw [outsAt11_B V c ⟨n + 1, h⟩ h0 h7, out11_B]
    show k11_pay2 _ _ _ (outsAt11 V c n _) = k11_pay2 _ _ _ (acc11 V c n _)
    rw [outsAt11_eq_acc c n _ (by omega)]

/-- After the last point it holds the final scaling of the whole accumulation. -/
theorem outsAt11_last (c : Dev nD) :
    outsAt11 V c t11_7.val t11_7.isLt = k11_pay3 (iblk11 V c 3 t11_7) (acc11 V c t11_7.val t11_7.isLt) (iblk11 V c 4 t11_7) := by
  have hN : cfg11.N = 8 := N_11
  rw [outsAt11_C V c t11_7 (by decide) (by decide), out11_C]
  exact congrArg (fun z => k11_pay3 (iblk11 V c 3 t11_7) (k11_pay2 (iblk11 V c 1 t11_7) (iblk11 V c 2 t11_7) (iblk11 V c 0 t11_7) z) (iblk11 V c 4 t11_7))
    (outsAt11_eq_acc V c (t11_7.val - 1) _ (by decide))

/-- The result: the final scaling of the accumulation over the 8 points, as contents of the result array (its one block is
    the array). -/
abbrev result11 (c : Dev nD) : Buf (Elt F) ((c : Thread nD τ).loc main_v75) :=
  k11_pay3 (iblk11 V c 3 t11_7) (acc11 V c t11_7.val t11_7.isLt) (iblk11 V c 4 t11_7)

/-- The one write-back, at point 7, writes it: block (0, 0) of the [4096,256] array read through zero offsets is the array. -/
theorem flushed_eq11 (c : Dev nD) (t : Fin cfg11.N) (hf : (cfg11.win 5).flush t = true) :
    (dat11 V c).flushed 5 t = ((cfg11.win 5).blk t).view.read (Elt F) (result11 V c) := by
  have hN : cfg11.N = 8 := N_11
  have h7 : t.val = 7 := by have := (flush11_5 t).mp hf; have := t.isLt; omega
  obtain rfl : t = t11_7 := Fin.ext h7
  show (cfg11.win 5).cut (grid11.coords t11_7) ((dat11 V c).after 5 t11_7) = _
  rw [after11_5, outsAt11_last]
  have hz' : (fun a => win11_5.index t11_7 a * main_v75.ty.shape.size a) = fun _ => 0 := funext fun a => by fin_cases a <;> decide
  exact (Memref.read_access_unit_zero (Elt F) main_v75 hz' (fun a => by rw [congrFun hz' a]; simp) (result11 V c)).symm

/-- So the result array ends holding the final scaling of the accumulation: point 7's write-back covers it. -/
theorem final11 (c : Dev nD) : (dat11 V c).arrAt 5 cfg11.N = result11 V c :=
  (dat11 V c).arrAt_eq_of_cover 5 (result11 V c) (flushed_eq11 V c) fun i =>
    ⟨t11_7, (flush11_5 t11_7).mpr rfl, by
      show i ∈ ((View.whole main_v75).slice (win11_5.rect t11_7)).set
      rw [View.set_slice_whole, Rect.mem_set_unit]
      intro a
      have h0 : (i 0 : Nat) < 4096 := (i 0).isLt
      have h1 : (i 1 : Nat) < 256 := (i 1).isLt
      match a with
      | ⟨0, _⟩ => show win11_5.index t11_7 0 * win11_5.size 0 ≤ (i 0 : Nat) ∧ (i 0 : Nat) < win11_5.index t11_7 0 * win11_5.size 0 + win11_5.xsize (grid11.coords t11_7) 0
                  rw [show win11_5.index t11_7 0 * win11_5.size 0 = 0 from by decide +kernel, show win11_5.xsize (grid11.coords t11_7) 0 = 4096 from by decide +kernel]; omega
      | ⟨1, _⟩ => show win11_5.index t11_7 1 * win11_5.size 1 ≤ (i 1 : Nat) ∧ (i 1 : Nat) < win11_5.index t11_7 1 * win11_5.size 1 + win11_5.xsize (grid11.coords t11_7) 1
                  rw [show win11_5.index t11_7 1 * win11_5.size 1 = 0 from by decide +kernel, show win11_5.xsize (grid11.coords t11_7) 1 = 256 from by decide +kernel]; omega⟩

end Regions

end Cert.KernelIdeal.Reg

end
-- ==== Proof.Reg11ValueIdeal.lean ====
import proofs.«172830_g53506702573898_cont_9to1_m_1152_4_alg».proof.Proof.Reg11Value
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)

section Regions
variable (V : (c : Dev nD) → (b : Ref sig .tc) → Buf (Elt F) ((c : Thread nD τ).loc b))

/-! ## The windows' blocks as parts of the arrays -/

/-- Window 0's block at point `t` is the slice of its array at the block's offset. -/
theorem iblk11_0_eq_slice (c : Dev nD) (t : Fin cfg11.N) (off : Fin 2 → Nat) (hoff : off = ![0, 512 * t.val])
    (h : S4096x4096.Slices off S4096x512) :
    (iblk11 V c 0 t : Vec F S4096x512 .bf16) = extractStridedSlice S4096x512 off (V c main_v0_0) h := by
  subst hoff
  have hi : win11_0.index t 0 = 0 ∧ win11_0.index t 1 = t.val := by
    rcases fin_N11 t with rfl | rfl | rfl | rfl | rfl | rfl | rfl | rfl <;> decide
  funext j
  unfold iblk11 extractStridedSlice
  rw [View.read_apply]
  show V c main_v0_0 _ = V c main_v0_0 _
  congr 1
  funext a
  apply Fin.ext
  match a with
  | ⟨0, _⟩ => show win11_0.index t 0 * 4096 + 1 * (j 0).val = 0 + (j 0).val; rw [hi.1]; omega
  | ⟨1, _⟩ => show win11_0.index t 1 * 512 + 1 * (j 1).val = 512 * t.val + (j 1).val; rw [hi.2]; omega

/-- Window 1's block at point `t` is the slice of its array at the block's offset. -/
theorem iblk11_1_eq_slice (c : Dev nD) (t : Fin cfg11.N) (off : Fin 2 → Nat) (hoff : off = ![512 * t.val, 0])
    (h : S4096x256.Slices off S512x256) :
    (iblk11 V c 1 t : Vec F S512x256 .f32) = extractStridedSlice S512x256 off (V c main_v74) h := by
  subst hoff
  have hi : win11_1.index t 0 = t.val ∧ win11_1.index t 1 = 0 := by
    rcases fin_N11 t with rfl | rfl | rfl | rfl | rfl | rfl | rfl | rfl <;> decide
  funext j
  unfold iblk11 extractStridedSlice
  rw [View.read_apply]
  show V c main_v74 _ = V c main_v74 _
  congr 1
  funext a
  apply Fin.ext
  match a with
  | ⟨0, _⟩ => show win11_1.index t 0 * 512 + 1 * (j 0).val = 512 * t.val + (j 0).val; rw [hi.1]; omega
  | ⟨1, _⟩ => show win11_1.index t 1 * 256 + 1 * (j 1).val = 0 + (j 1).val; rw [hi.2]; omega

/-- Window 2's block at point `t` is the slice of its array at the block's offset. -/
theorem iblk11_2_eq_slice (c : Dev nD) (t : Fin cfg11.N) (off : Fin 2 → Nat) (hoff : off = ![512 * t.val, 0])
    (h : S4096x1.Slices off S512x1) :
    (iblk11 V c 2 t : Vec F S512x1 .f32) = extractStridedSlice S512x1 off (V c main_v0_1) h := by
  subst hoff
  have hi : win11_2.index t 0 = t.val ∧ win11_2.index t 1 = 0 := by
    rcases fin_N11 t with rfl | rfl | rfl | rfl | rfl | rfl | rfl | rfl <;> decide
  funext j
  unfold iblk11 extractStridedSlice
  rw [View.read_apply]
  show V c main_v0_1 _ = V c main_v0_1 _
  congr 1
  funext a
  apply Fin.ext
  match a with
  | ⟨0, _⟩ => show win11_2.index t 0 * 512 + 1 * (j 0).val = 512 * t.val + (j 0).val; rw [hi.1]; omega
  | ⟨1, _⟩ => show win11_2.index t 1 * 1 + 1 * (j 1).val = 0 + (j 1).val; rw [hi.2]; omega

/-- Window 3's block at every point is its whole array. -/
theorem iblk11_3_eq (c : Dev nD) (t : Fin cfg11.N) : (iblk11 V c 3 t : Vec F S4096x1 .f32) = V c main_v0_1 := by
  have hi : win11_3.index t 0 = 0 ∧ win11_3.index t 1 = 0 := by
    rcases fin_N11 t with rfl | rfl | rfl | rfl | rfl | rfl | rfl | rfl <;> decide
  funext j
  unfold iblk11
  rw [View.read_apply]
  show V c main_v0_1 _ = V c main_v0_1 j
  congr 1
  funext a
  apply Fin.ext
  match a with
  | ⟨0, _⟩ => show win11_3.index t 0 * 4096 + 1 * (j 0).val = (j 0).val; rw [hi.1]; omega
  | ⟨1, _⟩ => show win11_3.index t 1 * 1 + 1 * (j 1).val = (j 1).val; rw [hi.2]; omega

/-- Window 4's block at every point is its whole array. -/
theorem iblk11_4_eq (c : Dev nD) (t : Fin cfg11.N) : (iblk11 V c 4 t : Vec F S4096x256 .f32) = V c main_v73 := by
  have hi : win11_4.index t 0 = 0 ∧ win11_4.index t 1 = 0 := by
    rcases fin_N11 t with rfl | rfl | rfl | rfl | rfl | rfl | rfl | rfl <;> decide
  funext j
  unfold iblk11
  rw [View.read_apply]
  show V c main_v73 _ = V c main_v73 j
  congr 1
  funext a
  apply Fin.ext
  match a with
  | ⟨0, _⟩ => show win11_4.index t 0 * 4096 + 1 * (j 0).val = (j 0).val; rw [hi.1]; omega
  | ⟨1, _⟩ => show win11_4.index t 1 * 256 + 1 * (j 1).val = (j 1).val; rw [hi.2]; omega

end Regions

/-! ## The payloads at an index, at the ideal values -/

/-- The bit patterns of the two constants the final scaling multiplies by. -/
abbrev c1Bits11 : BitVec 32 := 0xC0000000#32
abbrev c2Bits11 : BitVec 32 := 0xBF800000#32

/-- They denote -2 and -1. -/
theorem c1Bits11_val : Ideal.ofBits .f32 c1Bits11 = ((-2 : ℝ) : EReal) := by
  show Ideal.ofBits .f32 0xC0000000#32 = _
  simp [Ideal.ofBits, Ideal.ieee, -EReal.coe_mul, -EReal.coe_neg]; norm_num
theorem c2Bits11_val : Ideal.ofBits .f32 c2Bits11 = ((-1 : ℝ) : EReal) := by
  show Ideal.ofBits .f32 0xBF800000#32 = _
  simp [Ideal.ofBits, Ideal.ieee, -EReal.coe_mul, -EReal.coe_neg]; norm_num

/-- The zero block at an index. -/
theorem k11_pay1_apply (j : S4096x256.Idx) : (k11_pay1 (F := Ideal)) j = 0 := by
  unfold k11_pay1
  show Ideal.ofBits .f32 0x00000000#32 = 0
  exact Ideal.ofBits_zero_f32

/-- The accumulation step at an index: the running contents there plus the sum over the contraction index of the left
    block's entry times the right block's entry scaled by its row's entry of the column block. -/
theorem k11_pay2_apply (v0 : Vec Ideal S512x256 .f32) (v2 : Vec Ideal S512x1 .f32) (v7 : Vec Ideal S4096x512 .bf16)
    (v13 : Vec Ideal S4096x256 .f32) (j : S4096x256.Idx) :
    k11_pay2 (F := Ideal) v0 v2 v7 v13 j
      = v13 j + ∑ k : dot_S4096x512_S512x256_S4096x256_1_0_0_1_n_n.contr.Idx,
          v7 (dot_S4096x512_S512x256_S4096x256_1_0_0_1_n_n.lhsIdx j k) * (v0 (dot_S4096x512_S512x256_S4096x256_1_0_0_1_n_n.rhsIdx j k) * broadcastTo S512x256 v2 broadcasts_S512x1_S512x256 (dot_S4096x512_S512x256_S4096x256_1_0_0_1_n_n.rhsIdx j k)) := by
  unfold k11_pay2
  simp only [shapeCast_self]
  show (v13 j : Ideal .f32) + FloatOps.matmul (F := Ideal) (φ₁ := .bf16) (φ₂ := .bf16) dot_S4096x512_S512x256_S4096x256_1_0_0_1_n_n none v7 _ (constant S4096x256 .f32 0x00000000#32) j = _
  rw [Ideal.matmul_constant_zero_apply]
  rfl

/-- The final scaling at an index. -/
theorem k11_pay3_apply (v20 : Vec Ideal S4096x1 .f32) (v24 v28 : Vec Ideal S4096x256 .f32) (j : S4096x256.Idx) :
    k11_pay3 (F := Ideal) v20 v24 v28 j
      = (Ideal.ofBits .f32 c1Bits11 * broadcastTo S4096x256 v20 broadcasts_S4096x1_S4096x256 j) * v24 j
        + Ideal.ofBits .f32 c2Bits11 * v28 j := by
  unfold k11_pay3
  simp only [shapeCast_self]
  rfl

section IdealRegions
variable (V : (c : Dev nD) → (b : Ref sig .tc) → Buf (Elt Ideal) ((c : Thread nD τ).loc b))

/-! ## The output array after the region, index by index -/

/-- The blocks of windows 0, 1 and 2 at point `t`, at their vector types. -/
abbrev blk11_0 (c : Dev nD) (t : Fin cfg11.N) : Vec Ideal S4096x512 .bf16 := iblk11 V c 0 t
abbrev blk11_1 (c : Dev nD) (t : Fin cfg11.N) : Vec Ideal S512x256 .f32 := iblk11 V c 1 t
abbrev blk11_2 (c : Dev nD) (t : Fin cfg11.N) : Vec Ideal S512x1 .f32 := iblk11 V c 2 t

/-- Point `n`'s contribution at the output index `j`: the sum over the contraction index of window 0's block entry times
    window 1's block entry scaled by its row's entry of window 2's block. -/
def term11 (c : Dev nD) (n : ℕ) (h : n < cfg11.N) (j : S4096x256.Idx) : Ideal .f32 :=
  ∑ k : dot_S4096x512_S512x256_S4096x256_1_0_0_1_n_n.contr.Idx,
    blk11_0 V c ⟨n, h⟩ (dot_S4096x512_S512x256_S4096x256_1_0_0_1_n_n.lhsIdx j k)
      * (blk11_1 V c ⟨n, h⟩ (dot_S4096x512_S512x256_S4096x256_1_0_0_1_n_n.rhsIdx j k)
          * broadcastTo S512x256 (blk11_2 V c ⟨n, h⟩) broadcasts_S512x1_S512x256 (dot_S4096x512_S512x256_S4096x256_1_0_0_1_n_n.rhsIdx j k))

/-- The ordered sum of the contributions of the points up to `n`, from zero. -/
def fold11 (c : Dev nD) (j : S4096x256.Idx) : (n : ℕ) → n < cfg11.N → Ideal .f32
  | 0, h => 0 + term11 V c 0 h j
  | n + 1, h => fold11 c j n (Nat.lt_of_succ_lt h) + term11 V c (n + 1) h j

/-- The accumulation after point `n`, at an index, is that ordered sum. -/
theorem acc11_apply (c : Dev nD) (j : S4096x256.Idx) : ∀ (n : ℕ) (h : n < cfg11.N), acc11 V c n h j = fold11 V c j n h
  | 0, h => by
    show k11_pay2 (F := Ideal) _ _ _ _ j = _
    rw [k11_pay2_apply, k11_pay1_apply]
    rfl
  | n + 1, h => by
    show k11_pay2 (F := Ideal) _ _ _ (acc11 V c n _) j = _
    rw [k11_pay2_apply, acc11_apply c j n]
    rfl

/-- THE VALUE. After the region the output array holds, at the index `j`, the first constant times window 3's array
    (a column) at `j`'s row times the ordered sum over the 8 points, plus the second constant times window 4's array at
    `j`. -/
theorem final11_apply (c : Dev nD) (j : S4096x256.Idx) :
    (dat11 V c).arrAt 5 cfg11.N j
      = (Ideal.ofBits .f32 c1Bits11 * broadcastTo S4096x256 (V c main_v0_1) broadcasts_S4096x1_S4096x256 j)
          * fold11 V c j t11_7.val t11_7.isLt
        + Ideal.ofBits .f32 c2Bits11 * V c main_v73 j := by
  rw [final11]
  show k11_pay3 (F := Ideal) _ _ _ j = _
  rw [k11_pay3_apply, acc11_apply, iblk11_3_eq, iblk11_4_eq]

end IdealRegions

end Cert.KernelIdeal.Reg

end
-- ==== Proof.Reg11ValueAt.lean ====
import proofs.«172830_g53506702573898_cont_9to1_m_1152_4_alg».proof.Proof.Reg11ValueIdeal
import proofs.«172830_g53506702573898_cont_9to1_m_1152_4_alg».proof.Proof.SpecKer
import proofs.«172830_g53506702573898_cont_9to1_m_1152_4_alg».proof.Proof.AlgCoe
import proofs.«172830_g53506702573898_cont_9to1_m_1152_4_alg».proof.Proof.AlgBlocks
import Idealize.ShloMosaic.Lib.ValueIdx
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic (Ideal)
open Cert.SpecKer (blk)
open Idealize.ShloMosaic.ValueIdx
open scoped BigOperators

/-! # Region 11: the output array after the region at a row and a column, over the arrays' entries -/

section IdealRegions
variable (V : (c : Dev nD) → (b : Ref sig .tc) → Buf (Elt Ideal) ((c : Thread nD τ).loc b))

/-- The entries of the arrays the region reads, as extended reals: window 0's array (a square matrix), window 1's (the
    operand), windows 2 and 3's (a column) and window 4's (the addend). -/
abbrev amax11 (c : Dev nD) (p q : Fin 4096) : EReal := V c main_v0_0 (ix2 p q)
abbrev xin11 (c : Dev nD) (q : Fin 4096) (f : Fin 256) : EReal := V c main_v74 (ix2 q f)
abbrev dis11 (c : Dev nD) (p : Fin 4096) : EReal := V c main_v0_1 (ix2 p (0 : Fin 1))
abbrev zin11 (c : Dev nD) (p : Fin 4096) (f : Fin 256) : EReal := V c main_v73 (ix2 p f)

/-- Window 0's block at point `t`, at row `p` and column `k`, is the matrix at row `p` and column `k` of column block `t`. -/
theorem blk11_0_at (c : Dev nD) (t : Fin cfg11.N) (b : Fin 8) (hb : b.val = t.val) (p : Fin 4096) (k : Fin 512) :
    blk11_0 V c t (ix2 p k) = amax11 V c p (blk b k) := by
  have hi : win11_0.index t 0 = 0 ∧ win11_0.index t 1 = t.val := by
    rcases fin_N11 t with rfl | rfl | rfl | rfl | rfl | rfl | rfl | rfl <;> decide
  unfold blk11_0 amax11 iblk11
  rw [View.read_apply]
  show V c main_v0_0 _ = V c main_v0_0 _
  congr 1
  funext a
  apply Fin.ext
  match a with
  | ⟨0, _⟩ => show win11_0.index t 0 * 4096 + 1 * p.val = p.val; rw [hi.1]; omega
  | ⟨1, _⟩ => show win11_0.index t 1 * 512 + 1 * k.val = b.val * 512 + k.val; rw [hi.2, hb]; omega

/-- Window 1's block at point `t`, at row `k` and column `f`, is the operand at row `k` of row block `t`. -/
theorem blk11_1_at (c : Dev nD) (t : Fin cfg11.N) (b : Fin 8) (hb : b.val = t.val) (k : Fin 512) (f : Fin 256) :
    blk11_1 V c t (ix2 k f) = xin11 V c (blk b k) f := by
  have hi : win11_1.index t 0 = t.val ∧ win11_1.index t 1 = 0 := by
    rcases fin_N11 t with rfl | rfl | rfl | rfl | rfl | rfl | rfl | rfl <;> decide
  unfold blk11_1 xin11 iblk11
  rw [View.read_apply]
  show V c main_v74 _ = V c main_v74 _
  congr 1
  funext a
  apply Fin.ext
  match a with
  | ⟨0, _⟩ => show win11_1.index t 0 * 512 + 1 * k.val = b.val * 512 + k.val; rw [hi.1, hb]; omega
  | ⟨1, _⟩ => show win11_1.index t 1 * 256 + 1 * f.val = f.val; rw [hi.2]; omega

/-- Window 2's block at point `t`, at row `k`, is the column at row `k` of row block `t`. -/
theorem blk11_2_at (c : Dev nD) (t : Fin cfg11.N) (b : Fin 8) (hb : b.val = t.val) (k : Fin 512) :
    blk11_2 V c t (ix2 k (0 : Fin 1)) = dis11 V c (blk b k) := by
  have hi : win11_2.index t 0 = t.val ∧ win11_2.index t 1 = 0 := by
    rcases fin_N11 t with rfl | rfl | rfl | rfl | rfl | rfl | rfl | rfl <;> decide
  unfold blk11_2 dis11 iblk11
  rw [View.read_apply]
  show V c main_v0_1 _ = V c main_v0_1 _
  congr 1
  funext a
  apply Fin.ext
  match a with
  | ⟨0, _⟩ => show win11_2.index t 0 * 512 + 1 * k.val = b.val * 512 + k.val; rw [hi.1, hb]; omega
  | ⟨1, _⟩ => show win11_2.index t 1 * 1 + 1 * 0 = 0; rw [hi.2]

/-- Point `b`'s contribution at row `p` and column `f`: the sum over the 512 positions of block `b`. -/
theorem term11_at (c : Dev nD) (b : Fin 8) (h : b.val < cfg11.N) (p : Fin 4096) (f : Fin 256) :
    term11 V c b.val h (ix2 p f)
      = ∑ k : Fin 512, amax11 V c p (blk b k) * (xin11 V c (blk b k) f * dis11 V c (blk b k)) := by
  unfold term11
  rw [← Equiv.sum_comp (contrEquiv1 dot_S4096x512_S512x256_S4096x256_1_0_0_1_n_n 512 rfl rfl).symm]
  refine Finset.sum_congr rfl fun k _ => ?_
  have c2 := contrEquiv1_symm_val dot_S4096x512_S512x256_S4096x256_1_0_0_1_n_n 512 rfl rfl k
  have l2 : dot_S4096x512_S512x256_S4096x256_1_0_0_1_n_n.lhsIdx (ix2 p f) ((contrEquiv1 dot_S4096x512_S512x256_S4096x256_1_0_0_1_n_n 512 rfl rfl).symm k) = ix2 p k := by
    funext ax; apply Fin.ext
    match ax with
    | ⟨0, _⟩ => simp [DotDims.lhsIdx, dot_S4096x512_S512x256_S4096x256_1_0_0_1_n_n]; rfl
    | ⟨1, _⟩ => simp [DotDims.lhsIdx, dot_S4096x512_S512x256_S4096x256_1_0_0_1_n_n]; exact c2
  have r2 : dot_S4096x512_S512x256_S4096x256_1_0_0_1_n_n.rhsIdx (ix2 p f) ((contrEquiv1 dot_S4096x512_S512x256_S4096x256_1_0_0_1_n_n 512 rfl rfl).symm k) = ix2 k f := by
    funext ax; apply Fin.ext
    match ax with
    | ⟨0, _⟩ => simp [DotDims.rhsIdx, dot_S4096x512_S512x256_S4096x256_1_0_0_1_n_n]; exact c2
    | ⟨1, _⟩ => simp [DotDims.rhsIdx, dot_S4096x512_S512x256_S4096x256_1_0_0_1_n_n]; rfl
  have hbc : broadcastTo S512x256 (blk11_2 V c ⟨b.val, h⟩) broadcasts_S512x1_S512x256 (ix2 k f)
      = blk11_2 V c ⟨b.val, h⟩ (ix2 k (0 : Fin 1)) :=
    broadcastTo_apply _ _ (ix2 k f) (ix2 k (0 : Fin 1)) fun a => by
      match a with
      | ⟨0, _⟩ => rfl
      | ⟨1, _⟩ => rfl
  rw [l2, r2, hbc, blk11_0_at V c ⟨b.val, h⟩ b rfl, blk11_1_at V c ⟨b.val, h⟩ b rfl, blk11_2_at V c ⟨b.val, h⟩ b rfl]

/-- The ordered sum over the 8 points is the sum over the 8 blocks. -/
theorem fold11_eq_sum (c : Dev nD) (j : S4096x256.Idx) :
    fold11 V c j t11_7.val t11_7.isLt = ∑ b : Fin 8, term11 V c b.val (lt_of_lt_of_eq b.isLt N_11.symm) j := by
  rw [Alg.sum_fin_eight]
  rfl

/-- THE VALUE at a row and a column: the first constant times the column's entry at the row times the sum, over the 8
    blocks and the 512 positions of each, of the matrix's entry times the operand's entry scaled by the column's, plus
    the second constant times the addend's entry. -/
theorem final11_at (c : Dev nD) (p : Fin 4096) (f : Fin 256) :
    ((dat11 V c).arrAt 5 cfg11.N (ix2 p f) : EReal)
      = (-2 : EReal) * dis11 V c p
          * (∑ j : Fin 8, ∑ k : Fin 512, amax11 V c p (blk j k) * (xin11 V c (blk j k) f * dis11 V c (blk j k)))
        + (-1 : EReal) * zin11 V c p f := by
  have hbc : broadcastTo S4096x256 (V c main_v0_1) broadcasts_S4096x1_S4096x256 (ix2 p f) = dis11 V c p :=
    broadcastTo_apply _ _ (ix2 p f) (ix2 p (0 : Fin 1)) fun a => by
      match a with
      | ⟨0, _⟩ => rfl
      | ⟨1, _⟩ => rfl
  rw [final11_apply, hbc, fold11_eq_sum, c1Bits11_val, ← Alg.neg_two_eq, c2Bits11_val, ← Alg.neg_one_eq]
  simp only [term11_at]

end IdealRegions

end Cert.KernelIdeal.Reg

end
-- ==== Proof.Reg12Val.lean ====
import proofs.«172830_g53506702573898_cont_9to1_m_1152_4_alg».proof.Proof.Reg12Data
import proofs.«172830_g53506702573898_cont_9to1_m_1152_4_alg».proof.Proof.Reg3Val
import proofs.«172830_g53506702573898_cont_9to1_m_1152_4_alg».proof.Proof.AlgConst
import Idealize.ShloMosaic.Lib.Pipeline.Value
import Idealize.ShloMosaic.Lib.ValueIdx
import Idealize.ShloMosaic.PureOps.Ideal.Laws

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The candidate region 12 at the ideal values: what its store holds, element by element

The store is the update gate times the hidden block plus one minus the update gate times the hyperbolic tangent of a bias
row plus three [4096, 32] x [32, 16] products added in turn. -/

/-- The m-th [1, 32, 16] slice of the [3, 32, 16] weight stack, at (0, c, u). -/
theorem ld12w0_apply (x : Vec Ideal S3x32x16 .f32) (c : Fin 32) (u : Fin 16) : View.ld x r12_w0 (ix3 0 c u) = x (ix3 0 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld12w1_apply (x : Vec Ideal S3x32x16 .f32) (c : Fin 32) (u : Fin 16) : View.ld x r12_w1 (ix3 0 c u) = x (ix3 1 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))
theorem ld12w2_apply (x : Vec Ideal S3x32x16 .f32) (c : Fin 32) (u : Fin 16) : View.ld x r12_w2 (ix3 0 c u) = x (ix3 2 c u) :=
  congrArg x (funext fun a => Fin.ext (by
    match a with
    | ⟨0, _⟩ => rfl
    | ⟨1, _⟩ => show (0 : ℕ) + 1 * c.val = c.val; omega
    | ⟨2, _⟩ => show (0 : ℕ) + 1 * u.val = u.val; omega))

/-- The store's payload at row `p`, unit `u`. -/
theorem k12_pay1_apply (v0 : Vec Ideal S1x16 .f32) (v2 : Vec Ideal S4096x32 .f32) (v4 : Vec Ideal S1x32x16 .f32)
    (v9 : Vec Ideal S4096x32 .f32) (v11 : Vec Ideal S1x32x16 .f32) (v15 : Vec Ideal S4096x32 .f32) (v17 : Vec Ideal S1x32x16 .f32)
    (v22 v24 : Vec Ideal S4096x16 .f32) (p : Fin 4096) (u : Fin 16) :
    k12_pay1 v0 v2 v4 v9 v11 v15 v17 v22 v24 (ix2 p u)
      = v22 (ix2 p u) * v24 (ix2 p u)
        + (1 - v22 (ix2 p u)) * Ideal.tanh (((v0 (ix2 0 u) + ∑ c : Fin 32, v2 (ix2 p c) * v4 (ix3 0 c u))
            + ∑ c : Fin 32, v9 (ix2 p c) * v11 (ix3 0 c u)) + ∑ c : Fin 32, v15 (ix2 p c) * v17 (ix3 0 c u)) := by
  unfold k12_pay1
  simp only [shapeCast_self]
  rw [addf_apply, mulf_apply, mulf_apply, subf_apply, broadcast_apply]
  show _ * _ + (Ideal.ofBits .f32 0x3F800000#32 - _) * Ideal.tanh (addf (F := Ideal) (s := S4096x16) (φ := .f32) _ _ (ix2 p u)) = _
  rw [Alg.f32_one, addf_apply, addf_apply, addf_apply, mmw_apply, mmw_apply, mmw_apply, brow_apply]

/-- THE OUTPUT (the new hidden state) at row `p`, unit `u`. -/
theorem out12_7_apply (x0 x1 x2 : Vec Ideal S4096x32 .f32) (x3 : Vec Ideal S3x32x16 .f32) (x4 : Vec Ideal S1x16 .f32)
    (x5 x6 : Vec Ideal S4096x16 .f32) (p : Fin 4096) (u : Fin 16) :
    out12_7 x0 x1 x2 x3 x4 x5 x6 (ix2 p u)
      = x5 (ix2 p u) * x6 (ix2 p u)
        + (1 - x5 (ix2 p u)) * Ideal.tanh (((x4 (ix2 0 u) + ∑ c : Fin 32, x0 (ix2 p c) * x3 (ix3 0 c u))
            + ∑ c : Fin 32, x1 (ix2 p c) * x3 (ix3 1 c u)) + ∑ c : Fin 32, x2 (ix2 p c) * x3 (ix3 2 c u)) := by
  unfold out12_7
  rw [View.canon_unit_zero hz2]
  simp only [View.ld_unit_zero (S := S4096x32) hz2, View.ld_unit_zero (S := S4096x16) hz2, View.ld_unit_zero (S := S1x16) hz2]
  rw [k12_pay1_apply]
  refine congrArg (fun s => x5 (ix2 p u) * x6 (ix2 p u) + (1 - x5 (ix2 p u)) * Ideal.tanh s) ?_
  exact congrArg₂ (· + ·) (congrArg₂ (· + ·)
      (congrArg (x4 (ix2 0 u) + ·) (Finset.sum_congr rfl fun c _ => congrArg (x0 (ix2 p c) * ·) (ld12w0_apply x3 c u)))
      (Finset.sum_congr rfl fun c _ => congrArg (x1 (ix2 p c) * ·) (ld12w1_apply x3 c u)))
    (Finset.sum_congr rfl fun c _ => congrArg (x2 (ix2 p c) * ·) (ld12w2_apply x3 c u))

end Cert.KernelIdeal.Reg

end
-- ==== Proof.Reg12Val2.lean ====
import proofs.«172830_g53506702573898_cont_9to1_m_1152_4_alg».proof.Proof.Reg12Val

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL.Sem
open Idealize.ShloMosaic.Pipeline (Dat Cfg Window)
open Idealize.ShloMosaic.ValueIdx
open scoped BigOperators

/-! # The candidate region 12: the output array after the region, at a row and a unit, over the arrays' entries -/

section Regions
variable (V : (c : Dev nD) → (b : Ref sig .tc) → Buf (Elt Ideal) ((c : Thread nD τ).loc b))

/-- Row `p` of row block `t`. -/
def row12 (t : Fin cfg12.N) (p : Fin 4096) : Fin 32768 :=
  ⟨t.val * 4096 + p.val, by have h : t.val < 8 := lt_of_lt_of_eq t.isLt N_12; have := p.isLt; omega⟩

/-- The entries of the arrays the region reads, as extended reals: the three operands, the weight stack, the bias row, the
    update gate and the hidden state. -/
abbrev x12_0 (c : Dev nD) (r : Fin 32768) (k : Fin 32) : EReal := V c main_v76 (ix2 r k)
abbrev x12_1 (c : Dev nD) (r : Fin 32768) (k : Fin 32) : EReal := V c main_v77 (ix2 r k)
abbrev x12_2 (c : Dev nD) (r : Fin 32768) (k : Fin 32) : EReal := V c main_v78 (ix2 r k)
abbrev w12 (c : Dev nD) (m : Fin 3) (k : Fin 32) (u : Fin 16) : EReal := V c main_v54 (ix3 m k u)
abbrev b12 (c : Dev nD) (u : Fin 16) : EReal := V c main_v55 (ix2 (0 : Fin 1) u)
abbrev u12 (c : Dev nD) (r : Fin 32768) (u : Fin 16) : EReal := V c main_v69_1 (ix2 r u)
abbrev h12 (c : Dev nD) (r : Fin 32768) (u : Fin 16) : EReal := V c main_v60 (ix2 r u)

/-- What the output array holds after the region, as a function of the arrays the region reads, index by index. -/
def G12 (c : Dev nD) : S32768x16.Idx → EReal := fun i =>
  u12 V c (i 0) (i 1) * h12 V c (i 0) (i 1)
    + (1 - u12 V c (i 0) (i 1)) * Ideal.tanh (((b12 V c (i 1) + ∑ k : Fin 32, x12_0 V c (i 0) k * w12 V c 0 k (i 1))
        + ∑ k : Fin 32, x12_1 V c (i 0) k * w12 V c 1 k (i 1)) + ∑ k : Fin 32, x12_2 V c (i 0) k * w12 V c 2 k (i 1))

/-- Window 0's block at point `t`, at row `p`, is its array at row `p` of row block `t`. -/
theorem blk12_0_at (c : Dev nD) (t : Fin cfg12.N) (p : Fin 4096) (k : Fin 32) :
    (iblk12 V c 0 t : Vec Ideal S4096x32 .f32) (ix2 p k) = V c main_v76 (ix2 (row12 t p) k) := by
  have hi : win12_0.index t 0 = t.val ∧ win12_0.index t 1 = 0 := by
    rcases fin_N12 t with rfl | rfl | rfl | rfl | rfl | rfl | rfl | rfl <;> decide
  unfold iblk12
  rw [View.read_apply]
  show V c main_v76 _ = V c main_v76 _
  congr 1
  funext a
  apply Fin.ext
  match a with
  | ⟨0, _⟩ => show win12_0.index t 0 * 4096 + 1 * p.val = t.val * 4096 + p.val; rw [hi.1]; omega
  | ⟨1, _⟩ => show win12_0.index t 1 * 32 + 1 * k.val = k.val; rw [hi.2]; omega

/-- Window 1's block at point `t`, at row `p`, is its array at row `p` of row block `t`. -/
theorem blk12_1_at (c : Dev nD) (t : Fin cfg12.N) (p : Fin 4096) (k : Fin 32) :
    (iblk12 V c 1 t : Vec Ideal S4096x32 .f32) (ix2 p k) = V c main_v77 (ix2 (row12 t p) k) := by
  have hi : win12_1.index t 0 = t.val ∧ win12_1.index t 1 = 0 := by
    rcases fin_N12 t with rfl | rfl | rfl | rfl | rfl | rfl | rfl | rfl <;> decide
  unfold iblk12
  rw [View.read_apply]
  show V c main_v77 _ = V c main_v77 _
  congr 1
  funext a
  apply Fin.ext
  match a with
  | ⟨0, _⟩ => show win12_1.index t 0 * 4096 + 1 * p.val = t.val * 4096 + p.val; rw [hi.1]; omega
  | ⟨1, _⟩ => show win12_1.index t 1 * 32 + 1 * k.val = k.val; rw [hi.2]; omega

/-- Window 2's block at point `t`, at row `p`, is its array at row `p` of row block `t`. -/
theorem blk12_2_at (c : Dev nD) (t : Fin cfg12.N) (p : Fin 4096) (k : Fin 32) :
    (iblk12 V c 2 t : Vec Ideal S4096x32 .f32) (ix2 p k) = V c main_v78 (ix2 (row12 t p) k) := by
  have hi : win12_2.index t 0 = t.val ∧ win12_2.index t 1 = 0 := by
    rcases fin_N12 t with rfl | rfl | rfl | rfl | rfl | rfl | rfl | rfl <;> decide
  unfold iblk12
  rw [View.read_apply]
  show V c main_v78 _ = V c main_v78 _
  congr 1
  funext a
  apply Fin.ext
  match a with
  | ⟨0, _⟩ => show win12_2.index t 0 * 4096 + 1 * p.val = t.val * 4096 + p.val; rw [hi.1]; omega
  | ⟨1, _⟩ => show win12_2.index t 1 * 32 + 1 * k.val = k.val; rw [hi.2]; omega

/-- Window 5's block at point `t`, at row `p`, is its array at row `p` of row block `t`. -/
theorem blk12_5_at (c : Dev nD) (t : Fin cfg12.N) (p : Fin 4096) (u : Fin 16) :
    (iblk12 V c 5 t : Vec Ideal S4096x16 .f32) (ix2 p u) = V c main_v69_1 (ix2 (row12 t p) u) := by
  have hi : win12_5.index t 0 = t.val ∧ win12_5.index t 1 = 0 := by
    rcases fin_N12 t with rfl | rfl | rfl | rfl | rfl | rfl | rfl | rfl <;> decide
  unfold iblk12
  rw [View.read_apply]
  show V c main_v69_1 _ = V c main_v69_1 _
  congr 1
  funext a
  apply Fin.ext
  match a with
  | ⟨0, _⟩ => show win12_5.index t 0 * 4096 + 1 * p.val = t.val * 4096 + p.val; rw [hi.1]; omega
  | ⟨1, _⟩ => show win12_5.index t 1 * 16 + 1 * u.val = u.val; rw [hi.2]; omega

/-- Window 6's block at point `t`, at row `p`, is its array at row `p` of row block `t`. -/
theorem blk12_6_at (c : Dev nD) (t : Fin cfg12.N) (p : Fin 4096) (u : Fin 16) :
    (iblk12 V c 6 t : Vec Ideal S4096x16 .f32) (ix2 p u) = V c main_v60 (ix2 (row12 t p) u) := by
  have hi : win12_6.index t 0 = t.val ∧ win12_6.index t 1 = 0 := by
    rcases fin_N12 t with rfl | rfl | rfl | rfl | rfl | rfl | rfl | rfl <;> decide
  unfold iblk12
  rw [View.read_apply]
  show V c main_v60 _ = V c main_v60 _
  congr 1
  funext a
  apply Fin.ext
  match a with
  | ⟨0, _⟩ => show win12_6.index t 0 * 4096 + 1 * p.val = t.val * 4096 + p.val; rw [hi.1]; omega
  | ⟨1, _⟩ => show win12_6.index t 1 * 16 + 1 * u.val = u.val; rw [hi.2]; omega

/-- Window 3's block at every point is the whole weight stack. -/
theorem blk12_3_at (c : Dev nD) (t : Fin cfg12.N) (m : Fin 3) (k : Fin 32) (u : Fin 16) :
    (iblk12 V c 3 t : Vec Ideal S3x32x16 .f32) (ix3 m k u) = V c main_v54 (ix3 m k u) := by
  have hi : win12_3.index t 0 = 0 ∧ win12_3.index t 1 = 0 ∧ win12_3.index t 2 = 0 := by
    rcases fin_N12 t with rfl | rfl | rfl | rfl | rfl | rfl | rfl | rfl <;> decide
  unfold iblk12
  rw [View.read_apply]
  show V c main_v54 _ = V c main_v54 _
  congr 1
  funext a
  apply Fin.ext
  match a with
  | ⟨0, _⟩ => show win12_3.index t 0 * 3 + 1 * m.val = m.val; rw [hi.1]; omega
  | ⟨1, _⟩ => show win12_3.index t 1 * 32 + 1 * k.val = k.val; rw [hi.2.1]; omega
  | ⟨2, _⟩ => show win12_3.index t 2 * 16 + 1 * u.val = u.val; rw [hi.2.2]; omega

/-- Window 4's block at every point is the whole bias row. -/
theorem blk12_4_at (c : Dev nD) (t : Fin cfg12.N) (u : Fin 16) :
    (iblk12 V c 4 t : Vec Ideal S1x16 .f32) (ix2 (0 : Fin 1) u) = V c main_v55 (ix2 (0 : Fin 1) u) := by
  have hi : win12_4.index t 0 = 0 ∧ win12_4.index t 1 = 0 := by
    rcases fin_N12 t with rfl | rfl | rfl | rfl | rfl | rfl | rfl | rfl <;> decide
  unfold iblk12
  rw [View.read_apply]
  show V c main_v55 _ = V c main_v55 _
  congr 1
  funext a
  apply Fin.ext
  match a with
  | ⟨0, _⟩ => show win12_4.index t 0 * 1 + 1 * 0 = 0; rw [hi.1]
  | ⟨1, _⟩ => show win12_4.index t 1 * 16 + 1 * u.val = u.val; rw [hi.2]; omega

/-- Where the output window's block at point `t` puts its row `p`, unit `u`. -/
theorem emb12_7 (t : Fin cfg12.N) (p : Fin 4096) (u : Fin 16) :
    ((cfg12.win 7).blk t).view.emb (ix2 p u) = ix2 (row12 t p) u := by
  have hi : win12_7.index t 0 = t.val ∧ win12_7.index t 1 = 0 := by
    rcases fin_N12 t with rfl | rfl | rfl | rfl | rfl | rfl | rfl | rfl <;> decide
  funext a
  apply Fin.ext
  match a with
  | ⟨0, _⟩ => show win12_7.index t 0 * 4096 + 1 * p.val = t.val * 4096 + p.val; rw [hi.1]; omega
  | ⟨1, _⟩ => show win12_7.index t 1 * 16 + 1 * u.val = u.val; rw [hi.2]; omega

/-- WHAT POINT `t` WRITES BACK is block `t` of `G12`. -/
theorem flushed12_eq (c : Dev nD) (t : Fin cfg12.N) :
    (dat12 V c).flushed 7 t = ((cfg12.win 7).blk t).view.read (Elt Ideal) (G12 V c) := by
  show (cfg12.win 7).cut (grid12.coords t) ((dat12 V c).after 7 t) = _
  rw [after12_7]
  funext j
  obtain ⟨p, u, rfl⟩ : ∃ (p : Fin 4096) (u : Fin 16), j = ix2 p u := ⟨j 0, j 1, eq_ix2 j⟩
  rw [View.read_apply, emb12_7]
  show out12_7 _ _ _ _ _ _ _ (ix2 p u) = _
  rw [out12_7_apply]
  simp only [blk12_0_at, blk12_1_at, blk12_2_at, blk12_3_at, blk12_4_at, blk12_5_at, blk12_6_at]
  rfl

/-- Every index of the output array is in some point's block. -/
theorem covered12 (i : S32768x16.Idx) : ∃ t : Fin cfg12.N, (cfg12.win 7).flush t = true ∧ i ∈ ((cfg12.win 7).blk t).view.set := by
  have hi0 : (i 0).val < 32768 := (i 0).isLt
  have hi1 : (i 1).val < 16 := (i 1).isLt
  have hN : cfg12.N = 8 := N_12
  let t : Fin cfg12.N := ⟨(i 0).val / 4096, by omega⟩
  have hidx : win12_7.index t 0 = t.val ∧ win12_7.index t 1 = 0 := by
    rcases fin_N12 t with h | h | h | h | h | h | h | h <;> rw [h] <;> decide
  refine ⟨t, flush12_7 t, ?_⟩
  show i ∈ ((View.whole main_v79).slice (win12_7.rect t)).set
  rw [View.set_slice_whole, Rect.mem_set_unit]
  intro a
  match a with
  | ⟨0, _⟩ => show win12_7.index t 0 * 4096 ≤ (i 0).val ∧ (i 0).val < win12_7.index t 0 * 4096 + 4096
              rw [hidx.1]; show (i 0).val / 4096 * 4096 ≤ (i 0).val ∧ (i 0).val < (i 0).val / 4096 * 4096 + 4096; omega
  | ⟨1, _⟩ => show win12_7.index t 1 * 16 ≤ (i 1).val ∧ (i 1).val < win12_7.index t 1 * 16 + 16
              rw [hidx.2]; omega

/-- THE ARRAY after the region: `G12` of the arrays the region reads. -/
theorem final12 (c : Dev nD) : (dat12 V c).arrAt 7 cfg12.N = G12 V c :=
  (dat12 V c).arrAt_eq_of_cover 7 (G12 V c) (fun t _ => flushed12_eq V c t) (covered12)

/-- THE VALUE at a row and a unit. -/
theorem final12_at (c : Dev nD) (r : Fin 32768) (u : Fin 16) :
    ((dat12 V c).arrAt 7 cfg12.N (ix2 r u) : EReal)
      = u12 V c r u * h12 V c r u
        + (1 - u12 V c r u) * Ideal.tanh (((b12 V c u + ∑ k : Fin 32, x12_0 V c r k * w12 V c 0 k u)
            + ∑ k : Fin 32, x12_1 V c r k * w12 V c 1 k u) + ∑ k : Fin 32, x12_2 V c r k * w12 V c 2 k u) := by
  rw [final12]
  rfl

end Regions

end Cert.KernelIdeal.Reg

end
-- ==== Proof.KVL3.lean ====
import proofs.«172830_g53506702573898_cont_9to1_m_1152_4_alg».proof.Proof.KV1b
import proofs.«172830_g53506702573898_cont_9to1_m_1152_4_alg».proof.Proof.HostL2b
import proofs.«172830_g53506702573898_cont_9to1_m_1152_4_alg».proof.Proof.Reg7ValueAt
import proofs.«172830_g53506702573898_cont_9to1_m_1152_4_alg».proof.Proof.Reg8ValueAt
import proofs.«172830_g53506702573898_cont_9to1_m_1152_4_alg».proof.Proof.Reg9Val2
import proofs.«172830_g53506702573898_cont_9to1_m_1152_4_alg».proof.Proof.Reg10ValueAt
import proofs.«172830_g53506702573898_cont_9to1_m_1152_4_alg».proof.Proof.Reg11ValueAt
import proofs.«172830_g53506702573898_cont_9to1_m_1152_4_alg».proof.Proof.Reg12Val2

set_option maxRecDepth 16384

/-
  Layer 2 through the program's items, buffer by buffer at an index — the entry stretches, the gate convolution's
  two diffusion applies, the gate region, the candidate features and their two diffusion applies, the candidate
  region — and the two results read back batch-major.
-/
noncomputable section
namespace Cert.KernelIdeal.KV.L3
open Cert.KernelIdeal.KV
open Cert.KernelIdeal Cert.KernelIdeal.Gen Cert.KernelIdeal.Reg Cert.KernelIdeal.HostVal
open Idealize.ShloMosaic Idealize.ShloMosaic.TcCoe Idealize.ShloMosaic.StableHlo Idealize.ShloMosaic.ValueIdx
open Idealize.SL Idealize.SL.Sem
open scoped BigOperators
open Cert.HostLib Cert.SpecRef Cert.SpecKer

variable (m : (ℓ : Loc nD τ sig) → Buf (Elt Ideal) ℓ) (c : Dev nD)

theorem hidOf_15 : hidOf (W15 m c) = aHid m c := by unfold hidOf aHid; rw [main_arg1_at15 m c]; rfl
theorem W1gOf_15 : W1gOf (W15 m c) = aW1g m c := by unfold W1gOf aW1g; rw [main_arg7_at15 m c]; rfl
theorem b1gOf_15 : b1gOf (W15 m c) = ab1g m c := by unfold b1gOf ab1g; rw [main_arg8_at15 m c]; rfl
theorem W1cOf_15 : W1cOf (W15 m c) = aW1c m c := by unfold W1cOf aW1c; rw [main_arg9_at15 m c]; rfl
theorem b1cOf_15 : b1cOf (W15 m c) = ab1c m c := by unfold b1cOf ab1c; rw [main_arg10_at15 m c]; rfl

/-- Layer 1's new state, node-major. -/
abbrev NH1 : Fin 4096 → Fin 8 → Fin 16 → EReal :=
  nh1 (aInp m c) (aHid m c) (aAdj m c) (aW0g m c) (ab0g m c) (aW0c m c) (ab0c m c)
abbrev Y0 : Fin 4096 → Fin 8 → Fin 32 → EReal := featK1 (NH1 m c) (hxK (aHid m c) 1)

theorem nh1_fun : (fun n b u => (W15 m c main_v39 : S32768x16.Idx → EReal) (ix2 (row8 n b) u)) = NH1 m c := by
  funext n b u; exact s15_v39 m c n b u

theorem e20_v63 (n : Fin 4096) (b : Fin 8) (cc : Fin 32) :
    (W20 m c main_v63 : S4096x256.Idx → EReal) (ix2 n (lane32 b cc)) = Y0 m c n b cc := by
  have h := G2_v63 (W15 m c) n b cc
  rw [nh1_fun, hidOf_15] at h
  exact h
theorem e20_v40 (n : Fin 4096) (b : Fin 8) (u : Fin 16) :
    (W20 m c main_v40 : S4096x8x16.Idx → EReal) (ix3 n b u) = NH1 m c n b u :=
  (G2_v40 (W15 m c) n b u).trans (s15_v39 m c n b u)
theorem e20_v42 (b : Fin 8) (n : Fin 4096) (u : Fin 16) :
    (W20 m c main_v42 : S8x65536.Idx → EReal) (ix2 b (flat16 n u)) = NH1 m c n b u :=
  (G2_v42 (W15 m c) b n u).trans (s15_v39 m c n b u)
theorem e20_v60 (n : Fin 4096) (b : Fin 8) (u : Fin 16) :
    (W20 m c main_v60 : S32768x16.Idx → EReal) (ix2 (row8 n b) u) = hxK (aHid m c) 1 n b u := by
  have h := G2_v60 (W15 m c) n b u
  rw [hidOf_15] at h
  exact h
theorem e20_v49 (z : Fin 1) (u : Fin 16) : (W20 m c main_v49 : S1x16.Idx → EReal) (ix2 z u) = br (ab1g m c) u := by
  have h := G2_v49 (W15 m c) z u
  rw [b1gOf_15] at h
  exact h
theorem e20_v51 (z : Fin 1) (u : Fin 16) : (W20 m c main_v51 : S1x16.Idx → EReal) (ix2 z u) = bu (ab1g m c) u := by
  have h := G2_v51 (W15 m c) z u
  rw [b1gOf_15] at h
  exact h
theorem e20_v55 (z : Fin 1) (u : Fin 16) : (W20 m c main_v55 : S1x16.Idx → EReal) (ix2 z u) = ab1c m c u := by
  have h := G2_v55 (W15 m c) z u
  rw [b1cOf_15] at h
  exact h
theorem e20_v46 (mm : Fin 3) (cc : Fin 32) (u : Fin 16) :
    (W20 m c main_v46 : S3x32x16.Idx → EReal) (ix3 mm cc u) = wr (C := 32) (K := 96) rfl (aW1g m c) mm cc u := by
  have h := G2_v46 (W15 m c) mm cc u
  rw [W1gOf_15] at h
  exact h
theorem e20_v47 (mm : Fin 3) (cc : Fin 32) (u : Fin 16) :
    (W20 m c main_v47 : S3x32x16.Idx → EReal) (ix3 mm cc u) = wu (C := 32) (K := 96) rfl (aW1g m c) mm cc u := by
  have h := G2_v47 (W15 m c) mm cc u
  rw [W1gOf_15] at h
  exact h
theorem e20_v54 (mm : Fin 3) (cc : Fin 32) (u : Fin 16) :
    (W20 m c main_v54 : S3x32x16.Idx → EReal) (ix3 mm cc u) = prepW (C := 32) (K := 96) rfl (aW1c m c) mm cc u := by
  have h := G2_v54 (W15 m c) mm cc u
  rw [W1cOf_15] at h
  exact h

theorem amax_at20 (p q : Fin 4096) : (W20 m c main_v0_0 : S4096x4096.Idx → EReal) (ix2 p q) = amax (aAdj m c) p q := by
  rw [show W20 m c main_v0_0 = W1 m c main_v0_0 from (((((((((((((((((((W20_of m c main_v0_0 (by decide)).trans (W19_of m c main_v0_0 (by decide))).trans (W18_of m c main_v0_0 (by decide))).trans (W17_of m c main_v0_0 (by decide))).trans (W16_of m c main_v0_0 (by decide))).trans (W15_of m c main_v0_0 (by decide))).trans (W14_of m c main_v0_0 (by decide))).trans (W13_of m c main_v0_0 (by decide))).trans (W12_of m c main_v0_0 (by decide))).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at20 (p : Fin 4096) (z : Fin 1) : (W20 m c main_v0_1 : S4096x1.Idx → EReal) (ix2 p z) = disK (aAdj m c) p := by
  rw [show W20 m c main_v0_1 = W1 m c main_v0_1 from (((((((((((((((((((W20_of m c main_v0_1 (by decide)).trans (W19_of m c main_v0_1 (by decide))).trans (W18_of m c main_v0_1 (by decide))).trans (W17_of m c main_v0_1 (by decide))).trans (W16_of m c main_v0_1 (by decide))).trans (W15_of m c main_v0_1 (by decide))).trans (W14_of m c main_v0_1 (by decide))).trans (W13_of m c main_v0_1 (by decide))).trans (W12_of m c main_v0_1 (by decide))).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z
theorem amax_at21 (p q : Fin 4096) : (W21 m c main_v0_0 : S4096x4096.Idx → EReal) (ix2 p q) = amax (aAdj m c) p q := by
  rw [show W21 m c main_v0_0 = W1 m c main_v0_0 from ((((((((((((((((((((W21_of m c main_v0_0 (by decide)).trans (W20_of m c main_v0_0 (by decide))).trans (W19_of m c main_v0_0 (by decide))).trans (W18_of m c main_v0_0 (by decide))).trans (W17_of m c main_v0_0 (by decide))).trans (W16_of m c main_v0_0 (by decide))).trans (W15_of m c main_v0_0 (by decide))).trans (W14_of m c main_v0_0 (by decide))).trans (W13_of m c main_v0_0 (by decide))).trans (W12_of m c main_v0_0 (by decide))).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at21 (p : Fin 4096) (z : Fin 1) : (W21 m c main_v0_1 : S4096x1.Idx → EReal) (ix2 p z) = disK (aAdj m c) p := by
  rw [show W21 m c main_v0_1 = W1 m c main_v0_1 from ((((((((((((((((((((W21_of m c main_v0_1 (by decide)).trans (W20_of m c main_v0_1 (by decide))).trans (W19_of m c main_v0_1 (by decide))).trans (W18_of m c main_v0_1 (by decide))).trans (W17_of m c main_v0_1 (by decide))).trans (W16_of m c main_v0_1 (by decide))).trans (W15_of m c main_v0_1 (by decide))).trans (W14_of m c main_v0_1 (by decide))).trans (W13_of m c main_v0_1 (by decide))).trans (W12_of m c main_v0_1 (by decide))).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z
theorem amax_at25 (p q : Fin 4096) : (W25 m c main_v0_0 : S4096x4096.Idx → EReal) (ix2 p q) = amax (aAdj m c) p q := by
  rw [show W25 m c main_v0_0 = W1 m c main_v0_0 from ((((((((((((((((((((((((W25_of m c main_v0_0 (by decide)).trans (W24_of m c main_v0_0 (by decide))).trans (W23_of m c main_v0_0 (by decide))).trans (W22_of m c main_v0_0 (by decide))).trans (W21_of m c main_v0_0 (by decide))).trans (W20_of m c main_v0_0 (by decide))).trans (W19_of m c main_v0_0 (by decide))).trans (W18_of m c main_v0_0 (by decide))).trans (W17_of m c main_v0_0 (by decide))).trans (W16_of m c main_v0_0 (by decide))).trans (W15_of m c main_v0_0 (by decide))).trans (W14_of m c main_v0_0 (by decide))).trans (W13_of m c main_v0_0 (by decide))).trans (W12_of m c main_v0_0 (by decide))).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at25 (p : Fin 4096) (z : Fin 1) : (W25 m c main_v0_1 : S4096x1.Idx → EReal) (ix2 p z) = disK (aAdj m c) p := by
  rw [show W25 m c main_v0_1 = W1 m c main_v0_1 from ((((((((((((((((((((((((W25_of m c main_v0_1 (by decide)).trans (W24_of m c main_v0_1 (by decide))).trans (W23_of m c main_v0_1 (by decide))).trans (W22_of m c main_v0_1 (by decide))).trans (W21_of m c main_v0_1 (by decide))).trans (W20_of m c main_v0_1 (by decide))).trans (W19_of m c main_v0_1 (by decide))).trans (W18_of m c main_v0_1 (by decide))).trans (W17_of m c main_v0_1 (by decide))).trans (W16_of m c main_v0_1 (by decide))).trans (W15_of m c main_v0_1 (by decide))).trans (W14_of m c main_v0_1 (by decide))).trans (W13_of m c main_v0_1 (by decide))).trans (W12_of m c main_v0_1 (by decide))).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z
theorem amax_at26 (p q : Fin 4096) : (W26 m c main_v0_0 : S4096x4096.Idx → EReal) (ix2 p q) = amax (aAdj m c) p q := by
  rw [show W26 m c main_v0_0 = W1 m c main_v0_0 from (((((((((((((((((((((((((W26_of m c main_v0_0 (by decide)).trans (W25_of m c main_v0_0 (by decide))).trans (W24_of m c main_v0_0 (by decide))).trans (W23_of m c main_v0_0 (by decide))).trans (W22_of m c main_v0_0 (by decide))).trans (W21_of m c main_v0_0 (by decide))).trans (W20_of m c main_v0_0 (by decide))).trans (W19_of m c main_v0_0 (by decide))).trans (W18_of m c main_v0_0 (by decide))).trans (W17_of m c main_v0_0 (by decide))).trans (W16_of m c main_v0_0 (by decide))).trans (W15_of m c main_v0_0 (by decide))).trans (W14_of m c main_v0_0 (by decide))).trans (W13_of m c main_v0_0 (by decide))).trans (W12_of m c main_v0_0 (by decide))).trans (W11_of m c main_v0_0 (by decide))).trans (W10_of m c main_v0_0 (by decide))).trans (W9_of m c main_v0_0 (by decide))).trans (W8_of m c main_v0_0 (by decide))).trans (W7_of m c main_v0_0 (by decide))).trans (W6_of m c main_v0_0 (by decide))).trans (W5_of m c main_v0_0 (by decide))).trans (W4_of m c main_v0_0 (by decide))).trans (W3_of m c main_v0_0 (by decide))).trans (W2_of m c main_v0_0 (by decide)))]; exact s1_amax m c p q
theorem dis_at26 (p : Fin 4096) (z : Fin 1) : (W26 m c main_v0_1 : S4096x1.Idx → EReal) (ix2 p z) = disK (aAdj m c) p := by
  rw [show W26 m c main_v0_1 = W1 m c main_v0_1 from (((((((((((((((((((((((((W26_of m c main_v0_1 (by decide)).trans (W25_of m c main_v0_1 (by decide))).trans (W24_of m c main_v0_1 (by decide))).trans (W23_of m c main_v0_1 (by decide))).trans (W22_of m c main_v0_1 (by decide))).trans (W21_of m c main_v0_1 (by decide))).trans (W20_of m c main_v0_1 (by decide))).trans (W19_of m c main_v0_1 (by decide))).trans (W18_of m c main_v0_1 (by decide))).trans (W17_of m c main_v0_1 (by decide))).trans (W16_of m c main_v0_1 (by decide))).trans (W15_of m c main_v0_1 (by decide))).trans (W14_of m c main_v0_1 (by decide))).trans (W13_of m c main_v0_1 (by decide))).trans (W12_of m c main_v0_1 (by decide))).trans (W11_of m c main_v0_1 (by decide))).trans (W10_of m c main_v0_1 (by decide))).trans (W9_of m c main_v0_1 (by decide))).trans (W8_of m c main_v0_1 (by decide))).trans (W7_of m c main_v0_1 (by decide))).trans (W6_of m c main_v0_1 (by decide))).trans (W5_of m c main_v0_1 (by decide))).trans (W4_of m c main_v0_1 (by decide))).trans (W3_of m c main_v0_1 (by decide))).trans (W2_of m c main_v0_1 (by decide)))]; exact s1_dis m c p z

theorem s21_v64 (p : Fin 4096) (b : Fin 8) (cc : Fin 32) :
    (W21 m c main_v64 : S4096x256.Idx → EReal) (ix2 p (lane32 b cc)) = term1 (aAdj m c) (Y0 m c) p b cc := by
  unfold W21
  rw [Function.update_self, final7_at]
  exact sapply_stage (aAdj m c) (-1) (0) (fun p q => (W20 m c main_v0_0 : S4096x4096.Idx → EReal) (ix2 p q))
    (fun p => (W20 m c main_v0_1 : S4096x1.Idx → EReal) (ix2 p (0 : Fin 1)))
    (fun q f => (W20 m c main_v63 : S4096x256.Idx → EReal) (ix2 q f))
    (fun q f => (W20 m c main_v63 : S4096x256.Idx → EReal) (ix2 q f))
    (Y0 m c) (Y0 m c) (amax_at20 m c) (fun p => dis_at20 m c p 0) (e20_v63 m c) (e20_v63 m c) p b cc

theorem s21_v63 (n : Fin 4096) (b : Fin 8) (cc : Fin 32) : (W21 m c main_v63 : S4096x256.Idx → EReal) (ix2 n (lane32 b cc)) = Y0 m c n b cc := by
  rw [show W21 m c main_v63 = W20 m c main_v63 from (W21_of m c main_v63 (by decide))]; exact e20_v63 m c n b cc

theorem s22_v65 (p : Fin 4096) (b : Fin 8) (cc : Fin 32) :
    (W22 m c main_v65 : S4096x256.Idx → EReal) (ix2 p (lane32 b cc)) = term2 (aAdj m c) (Y0 m c) p b cc := by
  unfold W22
  rw [Function.update_self, final8_at]
  exact sapply_stage (aAdj m c) (-2) (-1) (fun p q => (W21 m c main_v0_0 : S4096x4096.Idx → EReal) (ix2 p q))
    (fun p => (W21 m c main_v0_1 : S4096x1.Idx → EReal) (ix2 p (0 : Fin 1)))
    (fun q f => (W21 m c main_v64 : S4096x256.Idx → EReal) (ix2 q f))
    (fun q f => (W21 m c main_v63 : S4096x256.Idx → EReal) (ix2 q f))
    (term1 (aAdj m c) (Y0 m c)) (Y0 m c) (amax_at21 m c) (fun p => dis_at21 m c p 0) (s21_v64 m c) (s21_v63 m c) p b cc

theorem s23_v66 (n : Fin 4096) (b : Fin 8) (cc : Fin 32) :
    (W23 m c main_v66 : S32768x32.Idx → EReal) (ix2 (row8 n b) cc) = Y0 m c n b cc := by
  refine (hostOps9_v66 (W22 m c) n b cc).trans ?_
  rw [show W22 m c main_v63 = W20 m c main_v63 from ((W22_of m c main_v63 (by decide)).trans (W21_of m c main_v63 (by decide)))]; exact e20_v63 m c n b cc
theorem s23_v67 (n : Fin 4096) (b : Fin 8) (cc : Fin 32) :
    (W23 m c main_v67 : S32768x32.Idx → EReal) (ix2 (row8 n b) cc) = term1 (aAdj m c) (Y0 m c) n b cc := by
  refine (hostOps9_v67 (W22 m c) n b cc).trans ?_
  rw [show W22 m c main_v64 = W21 m c main_v64 from (W22_of m c main_v64 (by decide))]; exact s21_v64 m c n b cc
theorem s23_v68 (n : Fin 4096) (b : Fin 8) (cc : Fin 32) :
    (W23 m c main_v68 : S32768x32.Idx → EReal) (ix2 (row8 n b) cc) = term2 (aAdj m c) (Y0 m c) n b cc := by
  refine (hostOps9_v68 (W22 m c) n b cc).trans ?_
  exact s22_v65 m c n b cc

theorem s24_rh (n : Fin 4096) (b : Fin 8) (u : Fin 16) :
    (W24 m c main_v69_0 : S32768x16.Idx → EReal) (ix2 (row8 n b) u)
      = rhK (C := 32) (K := 96) rfl (aAdj m c) (featK1 (NH1 m c)) (hxK (aHid m c) 1) (aW1g m c) (ab1g m c) n b u := by
  unfold W24
  rw [Function.update_of_ne (by decide), Function.update_self, final9_8_at]
  unfold rhK rK gconvK
  refine congrArg₂ (· * ·) (congrArg Ideal.logistic (acc3_stage (br (ab1g m c)) (wr (C := 32) (K := 96) rfl (aW1g m c))
    (Y0 m c) (term1 (aAdj m c) (Y0 m c)) (term2 (aAdj m c) (Y0 m c))
    (b9_5 (tcv (W23 m)) c) (w9_3 (tcv (W23 m)) c) (x9_0 (tcv (W23 m)) c) (x9_1 (tcv (W23 m)) c) (x9_2 (tcv (W23 m)) c)
    ?_ ?_ (s23_v66 m c) (s23_v67 m c) (s23_v68 m c) n b u)) ?_
  · intro u
    show (W23 m c main_v49 : S1x16.Idx → EReal) (ix2 0 u) = _
    rw [show W23 m c main_v49 = W20 m c main_v49 from (((W23_of m c main_v49 (by decide)).trans (W22_of m c main_v49 (by decide))).trans (W21_of m c main_v49 (by decide)))]; exact e20_v49 m c 0 u
  · intro mm cc u
    show (W23 m c main_v46 : S3x32x16.Idx → EReal) (ix3 mm cc u) = _
    rw [show W23 m c main_v46 = W20 m c main_v46 from (((W23_of m c main_v46 (by decide)).trans (W22_of m c main_v46 (by decide))).trans (W21_of m c main_v46 (by decide)))]; exact e20_v46 m c mm cc u
  · show (W23 m c main_v60 : S32768x16.Idx → EReal) (ix2 (row8 n b) u) = _
    rw [show W23 m c main_v60 = W20 m c main_v60 from (((W23_of m c main_v60 (by decide)).trans (W22_of m c main_v60 (by decide))).trans (W21_of m c main_v60 (by decide)))]; exact e20_v60 m c n b u

theorem s24_u (n : Fin 4096) (b : Fin 8) (u : Fin 16) :
    (W24 m c main_v69_1 : S32768x16.Idx → EReal) (ix2 (row8 n b) u)
      = uK (C := 32) (K := 96) rfl (aAdj m c) (featK1 (NH1 m c)) (hxK (aHid m c) 1) (aW1g m c) (ab1g m c) n b u := by
  unfold W24
  rw [Function.update_self, final9_9_at]
  unfold uK gconvK
  refine congrArg Ideal.logistic (acc3_stage (bu (ab1g m c)) (wu (C := 32) (K := 96) rfl (aW1g m c))
    (Y0 m c) (term1 (aAdj m c) (Y0 m c)) (term2 (aAdj m c) (Y0 m c))
    (b9_6 (tcv (W23 m)) c) (w9_4 (tcv (W23 m)) c) (x9_0 (tcv (W23 m)) c) (x9_1 (tcv (W23 m)) c) (x9_2 (tcv (W23 m)) c)
    ?_ ?_ (s23_v66 m c) (s23_v67 m c) (s23_v68 m c) n b u)
  · intro u
    show (W23 m c main_v51 : S1x16.Idx → EReal) (ix2 0 u) = _
    rw [show W23 m c main_v51 = W20 m c main_v51 from (((W23_of m c main_v51 (by decide)).trans (W22_of m c main_v51 (by decide))).trans (W21_of m c main_v51 (by decide)))]; exact e20_v51 m c 0 u
  · intro mm cc u
    show (W23 m c main_v47 : S3x32x16.Idx → EReal) (ix3 mm cc u) = _
    rw [show W23 m c main_v47 = W20 m c main_v47 from (((W23_of m c main_v47 (by decide)).trans (W22_of m c main_v47 (by decide))).trans (W21_of m c main_v47 (by decide)))]; exact e20_v47 m c mm cc u

abbrev RH2 : Fin 4096 → Fin 8 → Fin 16 → EReal :=
  rhK (C := 32) (K := 96) rfl (aAdj m c) (featK1 (NH1 m c)) (hxK (aHid m c) 1) (aW1g m c) (ab1g m c)
abbrev Y1 : Fin 4096 → Fin 8 → Fin 32 → EReal := featK1 (NH1 m c) (RH2 m c)

theorem s25_v73 (n : Fin 4096) (b : Fin 8) (cc : Fin 32) :
    (W25 m c main_v73 : S4096x256.Idx → EReal) (ix2 n (lane32 b cc)) = Y1 m c n b cc := by
  have h := hostOps10_v73 (W24 m c) n b cc
  have h1 : (fun n b u => (W24 m c main_v40 : S4096x8x16.Idx → EReal) (ix3 n b u)) = NH1 m c := by
    funext n b u
    rw [show W24 m c main_v40 = W20 m c main_v40 from ((((W24_of m c main_v40 (by decide)).trans (W23_of m c main_v40 (by decide))).trans (W22_of m c main_v40 (by decide))).trans (W21_of m c main_v40 (by decide)))]; exact e20_v40 m c n b u
  have h2 : (fun n b u => (W24 m c main_v69_0 : S32768x16.Idx → EReal) (ix2 (row8 n b) u)) = RH2 m c := by
    funext n b u
    exact s24_rh m c n b u
  rw [h1, h2] at h
  exact h

theorem s26_v74 (p : Fin 4096) (b : Fin 8) (cc : Fin 32) :
    (W26 m c main_v74 : S4096x256.Idx → EReal) (ix2 p (lane32 b cc)) = term1 (aAdj m c) (Y1 m c) p b cc := by
  unfold W26
  rw [Function.update_self, final10_at]
  exact sapply_stage (aAdj m c) (-1) (0) (fun p q => (W25 m c main_v0_0 : S4096x4096.Idx → EReal) (ix2 p q))
    (fun p => (W25 m c main_v0_1 : S4096x1.Idx → EReal) (ix2 p (0 : Fin 1)))
    (fun q f => (W25 m c main_v73 : S4096x256.Idx → EReal) (ix2 q f))
    (fun q f => (W25 m c main_v73 : S4096x256.Idx → EReal) (ix2 q f))
    (Y1 m c) (Y1 m c) (amax_at25 m c) (fun p => dis_at25 m c p 0) (s25_v73 m c) (s25_v73 m c) p b cc

theorem s26_v73 (n : Fin 4096) (b : Fin 8) (cc : Fin 32) : (W26 m c main_v73 : S4096x256.Idx → EReal) (ix2 n (lane32 b cc)) = Y1 m c n b cc := by
  rw [show W26 m c main_v73 = W25 m c main_v73 from (W26_of m c main_v73 (by decide))]; exact s25_v73 m c n b cc

theorem s27_v75 (p : Fin 4096) (b : Fin 8) (cc : Fin 32) :
    (W27 m c main_v75 : S4096x256.Idx → EReal) (ix2 p (lane32 b cc)) = term2 (aAdj m c) (Y1 m c) p b cc := by
  unfold W27
  rw [Function.update_self, final11_at]
  exact sapply_stage (aAdj m c) (-2) (-1) (fun p q => (W26 m c main_v0_0 : S4096x4096.Idx → EReal) (ix2 p q))
    (fun p => (W26 m c main_v0_1 : S4096x1.Idx → EReal) (ix2 p (0 : Fin 1)))
    (fun q f => (W26 m c main_v74 : S4096x256.Idx → EReal) (ix2 q f))
    (fun q f => (W26 m c main_v73 : S4096x256.Idx → EReal) (ix2 q f))
    (term1 (aAdj m c) (Y1 m c)) (Y1 m c) (amax_at26 m c) (fun p => dis_at26 m c p 0) (s26_v74 m c) (s26_v73 m c) p b cc

theorem s28_v76 (n : Fin 4096) (b : Fin 8) (cc : Fin 32) :
    (W28 m c main_v76 : S32768x32.Idx → EReal) (ix2 (row8 n b) cc) = Y1 m c n b cc := by
  refine (hostOps12_v76 (W27 m c) n b cc).trans ?_
  rw [show W27 m c main_v73 = W25 m c main_v73 from ((W27_of m c main_v73 (by decide)).trans (W26_of m c main_v73 (by decide)))]; exact s25_v73 m c n b cc
theorem s28_v77 (n : Fin 4096) (b : Fin 8) (cc : Fin 32) :
    (W28 m c main_v77 : S32768x32.Idx → EReal) (ix2 (row8 n b) cc) = term1 (aAdj m c) (Y1 m c) n b cc := by
  refine (hostOps12_v77 (W27 m c) n b cc).trans ?_
  rw [show W27 m c main_v74 = W26 m c main_v74 from (W27_of m c main_v74 (by decide))]; exact s26_v74 m c n b cc
theorem s28_v78 (n : Fin 4096) (b : Fin 8) (cc : Fin 32) :
    (W28 m c main_v78 : S32768x32.Idx → EReal) (ix2 (row8 n b) cc) = term2 (aAdj m c) (Y1 m c) n b cc := by
  refine (hostOps12_v78 (W27 m c) n b cc).trans ?_
  exact s27_v75 m c n b cc
theorem s28_v54 (mm : Fin 3) (cc : Fin 32) (u : Fin 16) : (W28 m c main_v54 : S3x32x16.Idx → EReal) (ix3 mm cc u) = prepW (C := 32) (K := 96) rfl (aW1c m c) mm cc u := by
  rw [show W28 m c main_v54 = W20 m c main_v54 from ((((((((W28_of m c main_v54 (by decide)).trans (W27_of m c main_v54 (by decide))).trans (W26_of m c main_v54 (by decide))).trans (W25_of m c main_v54 (by decide))).trans (W24_of m c main_v54 (by decide))).trans (W23_of m c main_v54 (by decide))).trans (W22_of m c main_v54 (by decide))).trans (W21_of m c main_v54 (by decide)))]; exact e20_v54 m c mm cc u

theorem s28_v55 (z : Fin 1) (u : Fin 16) : (W28 m c main_v55 : S1x16.Idx → EReal) (ix2 z u) = ab1c m c u := by
  rw [show W28 m c main_v55 = W20 m c main_v55 from ((((((((W28_of m c main_v55 (by decide)).trans (W27_of m c main_v55 (by decide))).trans (W26_of m c main_v55 (by decide))).trans (W25_of m c main_v55 (by decide))).trans (W24_of m c main_v55 (by decide))).trans (W23_of m c main_v55 (by decide))).trans (W22_of m c main_v55 (by decide))).trans (W21_of m c main_v55 (by decide)))]; exact e20_v55 m c z u

theorem s28_v60 (n : Fin 4096) (b : Fin 8) (u : Fin 16) : (W28 m c main_v60 : S32768x16.Idx → EReal) (ix2 (row8 n b) u) = hxK (aHid m c) 1 n b u := by
  rw [show W28 m c main_v60 = W20 m c main_v60 from ((((((((W28_of m c main_v60 (by decide)).trans (W27_of m c main_v60 (by decide))).trans (W26_of m c main_v60 (by decide))).trans (W25_of m c main_v60 (by decide))).trans (W24_of m c main_v60 (by decide))).trans (W23_of m c main_v60 (by decide))).trans (W22_of m c main_v60 (by decide))).trans (W21_of m c main_v60 (by decide)))]; exact e20_v60 m c n b u

theorem s28_u (n : Fin 4096) (b : Fin 8) (u : Fin 16) :
    (W28 m c main_v69_1 : S32768x16.Idx → EReal) (ix2 (row8 n b) u)
      = uK (C := 32) (K := 96) rfl (aAdj m c) (featK1 (NH1 m c)) (hxK (aHid m c) 1) (aW1g m c) (ab1g m c) n b u := by
  rw [show W28 m c main_v69_1 = W24 m c main_v69_1 from ((((W28_of m c main_v69_1 (by decide)).trans (W27_of m c main_v69_1 (by decide))).trans (W26_of m c main_v69_1 (by decide))).trans (W25_of m c main_v69_1 (by decide)))]; exact s24_u m c n b u

/-- Layer 2's new state, node-major. -/
abbrev NH2 : Fin 4096 → Fin 8 → Fin 16 → EReal :=
  nh2 (aInp m c) (aHid m c) (aAdj m c) (aW0g m c) (ab0g m c) (aW0c m c) (ab0c m c) (aW1g m c) (ab1g m c) (aW1c m c) (ab1c m c)

theorem s29_v79 (n : Fin 4096) (b : Fin 8) (u : Fin 16) :
    (W29 m c main_v79 : S32768x16.Idx → EReal) (ix2 (row8 n b) u) = NH2 m c n b u := by
  unfold W29
  rw [Function.update_self, final12_at]
  unfold NH2 nh2 cellK cK gconvK
  refine congrArg₂ (· + ·) (congrArg₂ (· * ·) (s28_u m c n b u) (s28_v60 m c n b u))
    (congrArg₂ (· * ·) (congrArg (fun t => 1 - t) (s28_u m c n b u)) (congrArg Ideal.tanh ?_))
  exact acc3_stage (ab1c m c) (prepW (C := 32) (K := 96) rfl (aW1c m c))
    (Y1 m c) (term1 (aAdj m c) (Y1 m c)) (term2 (aAdj m c) (Y1 m c))
    (b12 (tcv (W28 m)) c) (w12 (tcv (W28 m)) c) (x12_0 (tcv (W28 m)) c) (x12_1 (tcv (W28 m)) c) (x12_2 (tcv (W28 m)) c)
    (fun u => s28_v55 m c 0 u) (s28_v54 m c) (s28_v76 m c) (s28_v77 m c) (s28_v78 m c) n b u

/-! ## The results -/

theorem kv0 (b : Fin 8) (j : Fin 65536) :
    (W30 m c (Proc.devRef .tc main_v82) : S8x65536.Idx → EReal) (ix2 b j)
      = Cert.SpecKer.outK0 (inpOf (W0 m c)) (hidOf (W0 m c)) (adjOf (W0 m c)) (W0gOf (W0 m c)) (b0gOf (W0 m c))
          (W0cOf (W0 m c)) (b0cOf (W0 m c)) (W1gOf (W0 m c)) (b1gOf (W0 m c)) (W1cOf (W0 m c)) (b1cOf (W0 m c)) b j := by
  refine (hostOps13_v82' (W29 m c) b j).trans ?_
  exact s29_v79 m c (node16 j) b (unit16 j)

theorem kv1 (l : Fin 2) (b : Fin 8) (j : Fin 65536) :
    (W30 m c (Proc.devRef .tc main_v85) : S2x8x65536.Idx → EReal) (ix3 l b j)
      = Cert.SpecKer.outK1 (inpOf (W0 m c)) (hidOf (W0 m c)) (adjOf (W0 m c)) (W0gOf (W0 m c)) (b0gOf (W0 m c))
          (W0cOf (W0 m c)) (b0cOf (W0 m c)) (W1gOf (W0 m c)) (b1gOf (W0 m c)) (W1cOf (W0 m c)) (b1cOf (W0 m c)) l b j := by
  refine (hostOps13_v85' (W29 m c) l b j).trans ?_
  unfold outK1
  by_cases h0 : l.val = 0
  · rw [if_pos h0, if_pos h0]
    rw [show W29 m c main_v42 = W20 m c main_v42 from (((((((((W29_of m c main_v42 (by decide)).trans (W28_of m c main_v42 (by decide))).trans (W27_of m c main_v42 (by decide))).trans (W26_of m c main_v42 (by decide))).trans (W25_of m c main_v42 (by decide))).trans (W24_of m c main_v42 (by decide))).trans (W23_of m c main_v42 (by decide))).trans (W22_of m c main_v42 (by decide))).trans (W21_of m c main_v42 (by decide)))]
    have h := e20_v42 m c b (node16 j) (unit16 j)
    rw [flat16_node16_unit16] at h
    exact h
  · rw [if_neg h0, if_neg h0]
    exact s29_v79 m c (node16 j) b (unit16 j)

end Cert.KernelIdeal.KV.L3
end
-- ==== Proof.KV.lean ====
import proofs.«172830_g53506702573898_cont_9to1_m_1152_4_alg».proof.Proof.KVL3

set_option maxRecDepth 16384

/-
  The kernel's two results, as the program's items leave them in their buffers, are the kernel-side functions of the
  arguments read off the launch memory.
-/
noncomputable section
namespace Cert.KernelIdeal.KV
open Cert.KernelIdeal Cert.KernelIdeal.Gen Cert.KernelIdeal.Reg Cert.KernelIdeal.HostVal
open Idealize.ShloMosaic Idealize.ShloMosaic.TcCoe Idealize.ShloMosaic.ValueIdx
open Idealize.SL Idealize.SL.Sem

/-- The first result: layer 2's new state, batch row b, position j. -/
theorem kv0 (m : (ℓ : Loc nD τ sig) → Buf (Elt Ideal) ℓ) (c : Dev nD) (b : Fin 8) (j : Fin 65536) :
    (W30 m c (Proc.devRef .tc main_v82) : S8x65536.Idx → EReal) (ix2 b j)
      = Cert.SpecKer.outK0 (inpOf (W0 m c)) (hidOf (W0 m c)) (adjOf (W0 m c)) (W0gOf (W0 m c)) (b0gOf (W0 m c))
          (W0cOf (W0 m c)) (b0cOf (W0 m c)) (W1gOf (W0 m c)) (b1gOf (W0 m c)) (W1cOf (W0 m c)) (b1cOf (W0 m c)) b j :=
  L3.kv0 m c b j

/-- The second result: both layers' new states, layer l, batch row b, position j. -/
theorem kv1 (m : (ℓ : Loc nD τ sig) → Buf (Elt Ideal) ℓ) (c : Dev nD) (l : Fin 2) (b : Fin 8) (j : Fin 65536) :
    (W30 m c (Proc.devRef .tc main_v85) : S2x8x65536.Idx → EReal) (ix3 l b j)
      = Cert.SpecKer.outK1 (inpOf (W0 m c)) (hidOf (W0 m c)) (adjOf (W0 m c)) (W0gOf (W0 m c)) (b0gOf (W0 m c))
          (W0cOf (W0 m c)) (b0cOf (W0 m c)) (W1gOf (W0 m c)) (b1gOf (W0 m c)) (W1cOf (W0 m c)) (b1cOf (W0 m c)) l b j :=
  L3.kv1 m c l b j

end Cert.KernelIdeal.KV
end
-- ==== Proof.ClaimAlg.lean ====
/-
  The two idealized programs end with equal results.

  The kernel program's run ends with every buffer at the last valuation of the fold; its two result buffers there are,
  index by index, the kernel's arrangement of the two-layer cell as a function of the eleven argument arrays. The
  reference's run ends with its results at the reference's arrangement of the same arguments. Under the precondition the
  inputs, the state and the adjacency are finite, and then the two arrangements are one function; the memories agree
  on the arguments, so the results are equal.
-/
import proofs.«172830_g53506702573898_cont_9to1_m_1152_4_alg».proof.Defs
import proofs.«172830_g53506702573898_cont_9to1_m_1152_4_alg».proof.Proof.RunAll
import proofs.«172830_g53506702573898_cont_9to1_m_1152_4_alg».proof.Proof.RefSpecRun
import proofs.«172830_g53506702573898_cont_9to1_m_1152_4_alg».proof.Proof.AlgMain
import proofs.«172830_g53506702573898_cont_9to1_m_1152_4_alg».proof.Proof.FinPre
import proofs.«172830_g53506702573898_cont_9to1_m_1152_4_alg».proof.Proof.HostA
import proofs.«172830_g53506702573898_cont_9to1_m_1152_4_alg».proof.Proof.KV

set_option maxRecDepth 16384

noncomputable section

namespace Cert.Proof.ClaimAlg

open Idealize.ShloMosaic Idealize.ShloMosaic.TcCoe Idealize.SL.Sem Idealize.ShloMosaic.ValueIdx
open Cert.KernelIdeal Cert.KernelIdeal.Reg Cert.KernelIdeal.HostVal

/-- Both runs end, with the kernel's results at the fold's last valuation and the reference's at the same arrays. -/
theorem algebraic
 :
    Cert.algebraic_KernelIdeal_ReferenceIdeal := by
  intro m ρ m' ρ' hpre hagree
  refine ⟨fun c => W30 m c (Proc.devRef .tc main_v82), fun c => W30 m c (Proc.devRef .tc main_v85), ?_, ?_⟩
  · exact (θ_run Cert.KernelIdeal.defs _ _).mono (fun r hr c =>
      ⟨hr c _ (mem_uc main_v82 (by decide)), hr c _ (mem_uc main_v85 (by decide)),
       (hr c _ (mem_uc main_arg0 (by decide))).trans (W30_main_arg0 m c),
       (hr c _ (mem_uc main_arg1 (by decide))).trans (W30_main_arg1 m c),
       (hr c _ (mem_uc main_arg2 (by decide))).trans (W30_main_arg2 m c),
       (hr c _ (mem_uc main_arg3 (by decide))).trans (W30_main_arg3 m c),
       (hr c _ (mem_uc main_arg4 (by decide))).trans (W30_main_arg4 m c),
       (hr c _ (mem_uc main_arg5 (by decide))).trans (W30_main_arg5 m c),
       (hr c _ (mem_uc main_arg6 (by decide))).trans (W30_main_arg6 m c),
       (hr c _ (mem_uc main_arg7 (by decide))).trans (W30_main_arg7 m c),
       (hr c _ (mem_uc main_arg8 (by decide))).trans (W30_main_arg8 m c),
       (hr c _ (mem_uc main_arg9 (by decide))).trans (W30_main_arg9 m c),
       (hr c _ (mem_uc main_arg10 (by decide))).trans (W30_main_arg10 m c)⟩)
      (Cert.KernelIdeal.Reg.run_all (F := Ideal) m ρ)
  · refine (θ_run Cert.ReferenceIdeal.defs _ _).mono (fun r h c => ⟨(h c).1.trans ?_, (h c).2.1.trans ?_, (h c).2.2⟩)
      (Cert.ReferenceIdeal.RefValue.run_spec m' ρ')
    all_goals
      obtain ⟨hf0, hf1, hf2⟩ := Cert.PreFinite.fin_of_pre _ _ _ _ _ _ _ _ _ _ _ (hpre c)
      obtain ⟨e0, e1, e2, e3, e4, e5, e6, e7, e8, e9, e10⟩ := hagree c
    · funext i
      obtain ⟨b, j, rfl⟩ : ∃ (b : Fin 8) (j : Fin 65536), i = ix2 b j := ⟨i 0, i 1, eq_ix2 i⟩
      refine Eq.trans ?_ ((Cert.KernelIdeal.KV.kv0 m c b j).trans (Cert.AlgMain.out0_eq _ _ _ _ _ _ _ _ _ _ _ (fun b n => hf0 (ix2 b n)) (fun l b j => hf1 (ix3 l b j)) (fun i j => hf2 (ix2 i j)) b j)).symm
      unfold Cert.ReferenceIdeal.RefValue.specOut0 Cert.ReferenceIdeal.RefValue.inpOf Cert.ReferenceIdeal.RefValue.hidOf Cert.ReferenceIdeal.RefValue.adjOf
      unfold Cert.ReferenceIdeal.LineP.A0 Cert.ReferenceIdeal.LineP.A1 Cert.ReferenceIdeal.LineP.A2 Cert.ReferenceIdeal.LineP.A3 Cert.ReferenceIdeal.LineP.A4 Cert.ReferenceIdeal.LineP.A5 Cert.ReferenceIdeal.LineP.A6 Cert.ReferenceIdeal.LineP.A7 Cert.ReferenceIdeal.LineP.A8 Cert.ReferenceIdeal.LineP.A9 Cert.ReferenceIdeal.LineP.A10
      rw [e0, e1, e2, e3, e4, e5, e6, e7, e8, e9, e10]
      rfl
    · funext i
      obtain ⟨l, b, j, rfl⟩ : ∃ (l : Fin 2) (b : Fin 8) (j : Fin 65536), i = ix3 l b j := ⟨i 0, i 1, i 2, eq_ix3 i⟩
      refine Eq.trans ?_ ((Cert.KernelIdeal.KV.kv1 m c l b j).trans (Cert.AlgMain.out1_eq _ _ _ _ _ _ _ _ _ _ _ (fun b n => hf0 (ix2 b n)) (fun l b j => hf1 (ix3 l b j)) (fun i j => hf2 (ix2 i j)) l b j)).symm
      unfold Cert.ReferenceIdeal.RefValue.specOut1 Cert.ReferenceIdeal.RefValue.inpOf Cert.ReferenceIdeal.RefValue.hidOf Cert.ReferenceIdeal.RefValue.adjOf
      unfold Cert.ReferenceIdeal.LineP.A0 Cert.ReferenceIdeal.LineP.A1 Cert.ReferenceIdeal.LineP.A2 Cert.ReferenceIdeal.LineP.A3 Cert.ReferenceIdeal.LineP.A4 Cert.ReferenceIdeal.LineP.A5 Cert.ReferenceIdeal.LineP.A6 Cert.ReferenceIdeal.LineP.A7 Cert.ReferenceIdeal.LineP.A8 Cert.ReferenceIdeal.LineP.A9 Cert.ReferenceIdeal.LineP.A10
      rw [e0, e1, e2, e3, e4, e5, e6, e7, e8, e9, e10]
      rfl

end Cert.Proof.ClaimAlg

end
-- ==== Proof.lean ====
/-
  A two-layer diffusion-convolution GRU encoder on a graph of 4096 nodes (batch 8, 16 units, two Chebyshev steps of the
  scaled normalized Laplacian): the kernel against its reference, as functions over the extended reals.

  With A = max(adj, adjᵀ), d = the row sums of A and δ = d^(-1/2) where d > 0 (else 0), the reference builds the support
  S = (I − δ A δ) − I, takes x₁ = S x₀ and x₂ = 2 S x₁ − x₀ of the stacked input and state features, contracts
  (x₀, x₁, x₂) with the weights, and applies the GRU cell (two logistic gates, a tanh candidate) twice. The kernel never
  forms S. One region computes A and δ, the degree accumulated over eight column blocks; each diffusion step is a
  region computing c₁ δᵢ Σⱼ Aᵢⱼ (δⱼ xⱼ) + c₂ zᵢ with the sum accumulated over eight blocks of 512 columns, on node-major
  features padded to 32 channels against weights padded with zero rows; the gates and the candidate are two more
  regions per layer. Over the reals the two are one function: S x = −δ A (δ x) row by row, a sum split into blocks is
  the sum, and a zero weight row removes its channel. On the extended reals the first of these needs every term
  finite, which the precondition gives for the inputs, the state and the adjacency, and which the logistic, the tanh
  and the reciprocal square root of a positive number then keep.

  The frames: each kernel program is thirteen regions among seventeen stretches of host operations; every region's
  body is run once per control case, its windows' arrays traded against the core's buffers at entry and exit (two
  windows of a region may stand on one array, which they then hold by the two halves of the full share), and the
  argument arrays are read back off the last valuation of the buffers.
-/
import proofs.«172830_g53506702573898_cont_9to1_m_1152_4_alg».proof.Defs
import proofs.«172830_g53506702573898_cont_9to1_m_1152_4_alg».proof.Proof.Gen.Kernel
import proofs.«172830_g53506702573898_cont_9to1_m_1152_4_alg».proof.Proof.Gen.KernelIdeal
import proofs.«172830_g53506702573898_cont_9to1_m_1152_4_alg».proof.Proof.Gen.ReferenceIdeal
import proofs.«172830_g53506702573898_cont_9to1_m_1152_4_alg».proof.Proof.Gen.Pre_finite_inputs
import proofs.«172830_g53506702573898_cont_9to1_m_1152_4_alg».proof.Proof.Claims
import proofs.«172830_g53506702573898_cont_9to1_m_1152_4_alg».proof.Proof.ClaimAlg
import Idealize.ShloMosaic.Adequacy
import Idealize.ShloMosaic.Init

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_p, Claims.frame_pi, Claims.frame_ri, Claims.preserves, ClaimAlg.algebraic⟩

end Cert.Proof

end
